-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x1x32x17 : Shape := ⟨4, ![1024, 1, 32, 17]⟩
abbrev S100001x128 : Shape := ⟨2, ![100001, 128]⟩
abbrev S128x128 : Shape := ⟨2, ![128, 128]⟩
abbrev S_ : Shape := ⟨0, ![]⟩

class Facts : Prop where
  bcast_S_S100001x128 : S_.BroadcastsInDim S100001x128 (![] : Fin 0 → Fin S100001x128.rank)
  reducesTo_S100001x128_S_d0_1 : S100001x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1024x1x32x17 : S_.BroadcastsInDim S1024x1x32x17 (![] : Fin 0 → Fin S1024x1x32x17.rank)
  reducesTo_S1024x1x32x17_S_d0_1_2_3 : S1024x1x32x17.ReducesTo [0, 1, 2, 3] S_

variable [Facts]

def fn_part1 {F : FTy → Type} [FloatOps F] (main_arg0 : IVec S1024x1x32x17 32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_c_8 : IVec S_ 32 := constantI S_ 32 0#32
  let main_v24 : IVec S1024x1x32x17 32 := broadcastInDim S1024x1x32x17 ![] bcast_S_S1024x1x32x17 main_c_8
  let main_v25 : IVec S1024x1x32x17 1 := cmpi .sge main_arg0 main_v24
  let main_c_9 : IVec S_ 32 := constantI S_ 32 100000#32
  let main_v26 : IVec S1024x1x32x17 32 := broadcastInDim S1024x1x32x17 ![] bcast_S_S1024x1x32x17 main_c_9
  let main_v27 : IVec S1024x1x32x17 1 := cmpi .sle main_arg0 main_v26
  let main_v28 : IVec S1024x1x32x17 1 := andi main_v25 main_v27
  let main_c_10 : IVec S_ 1 := constantI S_ 1 1#1
  let main_v29 : IVec S_ 1 := (fun x v => Host.reduce IntOp.andi x v reducesTo_S1024x1x32x17_S_d0_1_2_3 h_S_) main_v28 main_c_10
  let main_v30 : IVec S_ 1 := andi main_v23 main_v29
  main_v30

def fn {F : FTy → Type} [FloatOps F] (main_arg0 : IVec S1024x1x32x17 32) (main_arg1 : FVec F S100001x128 .f32) (main_arg2 : FVec F S128x128 .f32) (main_arg3 : FVec F S128x128 .f32) (main_arg4 : FVec F S128x128 .f32) (main_arg5 : FVec F S128x128 .f32) : IVec S_ 1 :=
  let main_v0 : FVec F S100001x128 .f32 := Host.absf main_arg1
  let main_cst : FVec F S_ .f32 := constant S_ .f32 0x7F800000#32
  let main_v1 : FVec F S100001x128 .f32 := broadcastInDim S100001x128 ![] bcast_S_S100001x128 main_cst
  let main_v2 : IVec S100001x128 1 := cmpf .olt main_v0 main_v1
  let main_c : IVec S_ 1 := constantI S_ 1 1#1
  let main_v3 : IVec S_ 1 := (fun x v => Host.reduce IntOp.andi x v reducesTo_S100001x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg5 main_v13 main_v16
-- ==== Kernel.lean ====
abbrev S1024x1x32x17 : Shape := ⟨4, ![1024, 1, 32, 17]⟩
abbrev S100001x128 : Shape := ⟨2, ![100001, 128]⟩
abbrev S128x128 : Shape := ⟨2, ![128, 128]⟩
abbrev S32768x17 : Shape := ⟨2, ![32768, 17]⟩
abbrev S32768x1 : Shape := ⟨2, ![32768, 1]⟩
abbrev S32768 : Shape := ⟨1, ![32768]⟩
abbrev S256x128 : Shape := ⟨2, ![256, 128]⟩
abbrev S32768x16 : Shape := ⟨2, ![32768, 16]⟩
abbrev S4096x128 : Shape := ⟨2, ![4096, 128]⟩
abbrev S32768x128 : Shape := ⟨2, ![32768, 128]⟩
abbrev S8x128 : Shape := ⟨2, ![8, 128]⟩
abbrev S2x128x128 : Shape := ⟨3, ![2, 128, 128]⟩
abbrev S2x8x128 : Shape := ⟨3, ![2, 8, 128]⟩
abbrev S2 : Shape := ⟨1, ![2]⟩
abbrev S_ : Shape := ⟨0, ![]⟩
abbrev S1x128x128 : Shape := ⟨3, ![1, 128, 128]⟩
abbrev S1x128 : Shape := ⟨2, ![1, 128]⟩
abbrev S128 : Shape := ⟨1, ![128]⟩
abbrev S1 : Shape := ⟨1, ![1]⟩
abbrev S1x8x128 : Shape := ⟨3, ![1, 8, 128]⟩
abbrev S1x1x16 : Shape := ⟨3, ![1, 1, 16]⟩
abbrev S16 : Shape := ⟨1, ![16]⟩
abbrev S1024x1x32x128 : Shape := ⟨4, ![1024, 1, 32, 128]⟩

abbrev nBuf : Table → Nat
  | .hbm => 16
  | .local .tc .vmem => 10
  | .local .scVector .vmem => 5
  | _ => 0

abbrev bufTy : (tb : Table) → Fin (nBuf tb) → BufTy
  | .hbm, ⟨0, _⟩ => ⟨S1024x1x32x17, .i32⟩
  | .hbm, ⟨1, _⟩ => ⟨S100001x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S32768x17, .i32⟩
  | .hbm, ⟨7, _⟩ => ⟨S32768x1, .i32⟩
  | .hbm, ⟨8, _⟩ => ⟨S32768, .i32⟩
  | .hbm, ⟨9, _⟩ => ⟨S256x128, .i32⟩
  | .hbm, ⟨10, _⟩ => ⟨S32768x16, .i32⟩
  | .hbm, ⟨11, _⟩ => ⟨S4096x128, .i32⟩
  | .hbm, ⟨12, _⟩ => ⟨S32768x128, .f32⟩
  | .hbm, ⟨13, _⟩ => ⟨S32768x128, .f32⟩
  | .hbm, ⟨14, _⟩ => ⟨S32768x128, .f32⟩
  | .hbm, ⟨15, _⟩ => ⟨S1024x1x32x128, .f32⟩
  | .local .tc .vmem, ⟨0, _⟩ => ⟨S4096x128, .f32⟩
  | .local .tc .vmem, ⟨1, _⟩ => ⟨S4096x128, .f32⟩
  | .local .tc .vmem, ⟨2, _⟩ => ⟨S4096x128, .f32⟩
  | .local .tc .vmem, ⟨3, _⟩ => ⟨S4096x128, .f32⟩
  | .local .tc .vmem, ⟨4, _⟩ => ⟨S128x128, .f32⟩
  | .local .tc .vmem, ⟨5, _⟩ => ⟨S128x128, .f32⟩
  | .local .tc .vmem, ⟨6, _⟩ => ⟨S128x128, .f32⟩
  | .local .tc .vmem, ⟨7, _⟩ => ⟨S128x128, .f32⟩
  | .local .tc .vmem, ⟨8, _⟩ => ⟨S4096x128, .f32⟩
  | .local .tc .vmem, ⟨9, _⟩ => ⟨S4096x128, .f32⟩
  | .local .scVector .vmem, ⟨0, _⟩ => ⟨S128x128, .i32⟩
  | .local .scVector .vmem, ⟨1, _⟩ => ⟨S8x128, .i32⟩
  | .local .scVector .vmem, ⟨2, _⟩ => ⟨S2x128x128, .f32⟩
  | .local .scVector .vmem, ⟨3, _⟩ => ⟨S2x8x128, .f32⟩
  | .local .scVector .vmem, ⟨4, _⟩ => ⟨S128x128, .f32⟩
  | _, _ => ⟨S1024x1x32x17, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_arg1_scv : Ref sig .scVector := ⟨.hbm, 1, rfl⟩
abbrev main_v5_scv : Ref sig .scVector := ⟨.hbm, 11, rfl⟩
abbrev main_v3_scv : Ref sig .scVector := ⟨.hbm, 9, rfl⟩
abbrev main_v6_0_scv : Ref sig .scVector := ⟨.hbm, 12, rfl⟩
abbrev main_v6_1_scv : Ref sig .scVector := ⟨.hbm, 13, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg6_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c0_i32_38_r0 : BitVec 32 := 0#32
  ![v3.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v4 : BitVec 32 := Scalar.muli v1 c8_i32
  let c0_i32_38_r1 : BitVec 32 := 0#32
  ![v4.toNat, 0]
@[reducible] def k0_t1_loop : Scf.Loop 32 :=
  let c0_i32_19 : BitVec 32 := 0#32
  let c64_i32 : BitVec 32 := 64#32
  let v22 : BitVec 32 := Scalar.addi c0_i32_19 c64_i32
  let c1_i32_20 : BitVec 32 := 1#32
  ⟨c0_i32_19, v22, c1_i32_20⟩
def k0_cond1 (k0_t1 : Fin k0_t1_loop.trips) : BitVec 1 :=
  let c0_i32_19 : BitVec 32 := 0#32
  let c1_i32_20 : BitVec 32 := 1#32
  let arg16 : BitVec 32 := Scf.iv c0_i32_19 c1_i32_20 k0_t1
  let c8_i32_38 : BitVec 32 := 8#32
  let c0_i32_39 : BitVec 32 := 0#32
  let v39 : BitVec 1 := Scalar.cmpi .eq c8_i32_38 c0_i32_39
  let c1_i32_40 : BitVec 32 := 1#32
  let v40 : BitVec 32 := Scalar.select v39 c1_i32_40 c8_i32_38
  let v41 : BitVec 32 := Scalar.remsi arg16 v40
  let c0_i32_42 : BitVec 32 := 0#32
  let v43 : BitVec 1 := Scalar.cmpi .slt v41 c0_i32_42
  let c0_i32_43 : BitVec 32 := 0#32
  let v44 : BitVec 1 := Scalar.cmpi .slt v40 c0_i32_43
  let v45 : BitVec 1 := Scalar.xori v43 v44
  let c0_i32_41 : BitVec 32 := 0#32
  let v42 : BitVec 1 := Scalar.cmpi .ne v41 c0_i32_41
  let v46 : BitVec 1 := Scalar.andi v45 v42
  let v47 : BitVec 32 := Scalar.addi v41 v40
  let v48 : BitVec 32 := Scalar.select v46 v47 v41
  let c4_i32 : BitVec 32 := 4#32
  let v49 : BitVec 1 := Scalar.cmpi .eq v48 c4_i32
  let v50 : BitVec 32 := Scalar.extui v49
  let c0_i32_44 : BitVec 32 := 0#32
  let v51 : BitVec 1 := Scalar.cmpi .ne v50 c0_i32_44
  v51

def k0_off3 (k0_t1 : Fin k0_t1_loop.trips) : Fin 2 → Nat :=
  let c0_i32_19 : BitVec 32 := 0#32
  let c1_i32_20 : BitVec 32 := 1#32
  let arg16 : BitVec 32 := Scf.iv c0_i32_19 c1_i32_20 k0_t1
  let c0_i32_98 : BitVec 32 := 0#32
  let v104 : BitVec 1 := Scalar.cmpi .sgt arg16 c0_i32_98
  let v105 : BitVec 32 := Scalar.extui v104
  let c0_i32_99 : BitVec 32 := 0#32
  let v106 : BitVec 1 := Scalar.cmpi .slt arg16 c0_i32_99
  let v107 : BitVec 32 := Scalar.extui v106
  let v108 : BitVec 32 := Scalar.subi v105 v107
  let c8_i32_97 : BitVec 32 := 8#32
  let c0_i32_100 : BitVec 32 := 0#32
  let v109 : BitVec 1 := Scalar.cmpi .sgt c8_i32_97 c0_i32_100
  let v110 : BitVec 32 := Scalar.extui v109
  let c0_i32_101 : BitVec 32 := 0#32
  let v111 : BitVec 1 := Scalar.cmpi .slt c8_i32_97 c0_i32_101
  let v112 : BitVec 32 := Scalar.extui v111
  let v113 : BitVec 32 := Scalar.subi v110 v112
  let v114 : BitVec 1 := Scalar.cmpi .ne v108 v113
  let v115 : BitVec 32 := Scalar.remsi arg16 c8_i32_97
  let c0_i32_102 : BitVec 32 := 0#32
  let v116 : BitVec 1 := Scalar.cmpi .ne v115 c0_i32_102
  let v117 : BitVec 1 := Scalar.andi v114 v116
  let v103 : BitVec 32 := Scalar.divsi arg16 c8_i32_97
  let c1_i32_103 : BitVec 32 := 1#32
  let v118 : BitVec 32 := Scalar.subi v103 c1_i32_103
  let v119 : BitVec 32 := Scalar.select v117 v118 v103
  let c0_i32_104 : BitVec 32 := 0#32
  ![v119.toNat, 0]
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_19 : BitVec 32 := 0#32
  let c1_i32_20 : BitVec 32 := 1#32
  let arg16 : BitVec 32 := Scf.iv c0_i32_19 c1_i32_20 k0_t1
  let c0_i32_98 : BitVec 32 := 0#32
  let v104 : BitVec 1 := Scalar.cmpi .sgt arg16 c0_i32_98
  let v105 : BitVec 32 := Scalar.extui v104
  let c0_i32_99 : BitVec 32 := 0#32
  let v106 : BitVec 1 := Scalar.cmpi .slt arg16 c0_i32_99
  let v107 : BitVec 32 := Scalar.extui v106
  let v108 : BitVec 32 := Scalar.subi v105 v107
  let c8_i32_97 : BitVec 32 := 8#32
  let c0_i32_100 : BitVec 32 := 0#32
  let v109 : BitVec 1 := Scalar.cmpi .sgt c8_i32_97 c0_i32_100
  let v110 : BitVec 32 := Scalar.extui v109
  let c0_i32_101 : BitVec 32 := 0#32
  let v111 : BitVec 1 := Scalar.cmpi .slt c8_i32_97 c0_i32_101
  let v112 : BitVec 32 := Scalar.extui v111
  let v113 : BitVec 32 := Scalar.subi v110 v112
  let v114 : BitVec 1 := Scalar.cmpi .ne v108 v113
  let v115 : BitVec 32 := Scalar.remsi arg16 c8_i32_97
  let c0_i32_102 : BitVec 32 := 0#32
  let v116 : BitVec 1 := Scalar.cmpi .ne v115 c0_i32_102
  let v117 : BitVec 1 := Scalar.andi v114 v116
  let v103 : BitVec 32 := Scalar.divsi arg16 c8_i32_97
  let c1_i32_103 : BitVec 32 := 1#32
  let v118 : BitVec 32 := Scalar.subi v103 c1_i32_103
  let v119 : BitVec 32 := Scalar.select v117 v118 v103
  let c128_i32_107 : BitVec 32 := 128#32
  let v123 : BitVec 32 := Scalar.muli v119 c128_i32_107
  let v124 : BitVec 32 := Scalar.addi v2 v123
  let c0_i32_108 : BitVec 32 := 0#32
  ![v124.toNat, 0]
def k0_cond2 (k0_t1 : Fin k0_t1_loop.trips) : BitVec 1 :=
  let c0_i32_19 : BitVec 32 := 0#32
  let c1_i32_20 : BitVec 32 := 1#32
  let arg16 : BitVec 32 := Scf.iv c0_i32_19 c1_i32_20 k0_t1
  let c0_i32_98 : BitVec 32 := 0#32
  let v104 : BitVec 1 := Scalar.cmpi .sgt arg16 c0_i32_98
  let v105 : BitVec 32 := Scalar.extui v104
  let c0_i32_99 : BitVec 32 := 0#32
  let v106 : BitVec 1 := Scalar.cmpi .slt arg16 c0_i32_99
  let v107 : BitVec 32 := Scalar.extui v106
  let v108 : BitVec 32 := Scalar.subi v105 v107
  let c8_i32_97 : BitVec 32 := 8#32
  let c0_i32_100 : BitVec 32 := 0#32
  let v109 : BitVec 1 := Scalar.cmpi .sgt c8_i32_97 c0_i32_100
  let v110 : BitVec 32 := Scalar.extui v109
  let c0_i32_101 : BitVec 32 := 0#32
  let v111 : BitVec 1 := Scalar.cmpi .slt c8_i32_97 c0_i32_101
  let v112 : BitVec 32 := Scalar.extui v111
  let v113 : BitVec 32 := Scalar.subi v110 v112
  let v114 : BitVec 1 := Scalar.cmpi .ne v108 v113
  let v115 : BitVec 32 := Scalar.remsi arg16 c8_i32_97
  let c0_i32_102 : BitVec 32 := 0#32
  let v116 : BitVec 1 := Scalar.cmpi .ne v115 c0_i32_102
  let v117 : BitVec 1 := Scalar.andi v114 v116
  let v103 : BitVec 32 := Scalar.divsi arg16 c8_i32_97
  let c1_i32_103 : BitVec 32 := 1#32
  let v118 : BitVec 32 := Scalar.subi v103 c1_i32_103
  let v119 : BitVec 32 := Scalar.select v117 v118 v103
  let c1_i32_112 : BitVec 32 := 1#32
  let v129 : BitVec 32 := Scalar.addi v119 c1_i32_112
  let c8_i32_113 : BitVec 32 := 8#32
  let v130 : BitVec 1 := Scalar.cmpi .slt v129 c8_i32_113
  let v131 : BitVec 32 := Scalar.extui v130
  let c0_i32_114 : BitVec 32 := 0#32
  let v132 : BitVec 1 := Scalar.cmpi .ne v131 c0_i32_114
  v132

def k0_off5 (k0_t1 : Fin k0_t1_loop.trips) : Fin 2 → Nat :=
  let c0_i32_19 : BitVec 32 := 0#32
  let c1_i32_20 : BitVec 32 := 1#32
  let arg16 : BitVec 32 := Scf.iv c0_i32_19 c1_i32_20 k0_t1
  let c0_i32_98 : BitVec 32 := 0#32
  let v104 : BitVec 1 := Scalar.cmpi .sgt arg16 c0_i32_98
  let v105 : BitVec 32 := Scalar.extui v104
  let c0_i32_99 : BitVec 32 := 0#32
  let v106 : BitVec 1 := Scalar.cmpi .slt arg16 c0_i32_99
  let v107 : BitVec 32 := Scalar.extui v106
  let v108 : BitVec 32 := Scalar.subi v105 v107
  let c8_i32_97 : BitVec 32 := 8#32
  let c0_i32_100 : BitVec 32 := 0#32
  let v109 : BitVec 1 := Scalar.cmpi .sgt c8_i32_97 c0_i32_100
  let v110 : BitVec 32 := Scalar.extui v109
  let c0_i32_101 : BitVec 32 := 0#32
  let v111 : BitVec 1 := Scalar.cmpi .slt c8_i32_97 c0_i32_101
  let v112 : BitVec 32 := Scalar.extui v111
  let v113 : BitVec 32 := Scalar.subi v110 v112
  let v114 : BitVec 1 := Scalar.cmpi .ne v108 v113
  let v115 : BitVec 32 := Scalar.remsi arg16 c8_i32_97
  let c0_i32_102 : BitVec 32 := 0#32
  let v116 : BitVec 1 := Scalar.cmpi .ne v115 c0_i32_102
  let v117 : BitVec 1 := Scalar.andi v114 v116
  let v103 : BitVec 32 := Scalar.divsi arg16 c8_i32_97
  let c1_i32_103 : BitVec 32 := 1#32
  let v118 : BitVec 32 := Scalar.subi v103 c1_i32_103
  let v119 : BitVec 32 := Scalar.select v117 v118 v103
  let c1_i32_115 : BitVec 32 := 1#32
  let v133 : BitVec 32 := Scalar.addi v119 c1_i32_115
  let c0_i32_116 : BitVec 32 := 0#32
  ![v133.toNat, 0]
def k0_off6 (k0_t1 : Fin k0_t1_loop.trips) : Fin 2 → Nat :=
  let c2_i32_45 : BitVec 32 := 2#32
  let c0_i32_19 : BitVec 32 := 0#32
  let c1_i32_20 : BitVec 32 := 1#32
  let arg16 : BitVec 32 := Scf.iv c0_i32_19 c1_i32_20 k0_t1
  let v52 : BitVec 32 := Scalar.muli c2_i32_45 arg16
  let c0_i32_50 : BitVec 32 := 0#32
  ![v52.toNat, 0]
def k0_cond3 (k0_t1 : Fin k0_t1_loop.trips) : BitVec 1 :=
  let c0_i32_19 : BitVec 32 := 0#32
  let c1_i32_20 : BitVec 32 := 1#32
  let arg16 : BitVec 32 := Scf.iv c0_i32_19 c1_i32_20 k0_t1
  let c0_i32_53 : BitVec 32 := 0#32
  let v60 : BitVec 1 := Scalar.cmpi .sgt arg16 c0_i32_53
  let v61 : BitVec 32 := Scalar.extui v60
  let c0_i32_54 : BitVec 32 := 0#32
  let v62 : BitVec 1 := Scalar.cmpi .ne v61 c0_i32_54
  v62

def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_101 : BitVec 32 := 0#32
  ![v2.toNat, 0]
@[reducible] def k0_t2_loop : Scf.Loop 32 :=
  let c0_i32_56 : BitVec 32 := 0#32
  let c8_i32_57 : BitVec 32 := 8#32
  let v63 : BitVec 32 := Scalar.addi c0_i32_56 c8_i32_57
  let c1_i32_58 : BitVec 32 := 1#32
  ⟨c0_i32_56, v63, c1_i32_58⟩
def k0_off8 (k0_t2 : Fin k0_t2_loop.trips) : Fin 3 → Nat :=
  let c0_i32_97 : BitVec 32 := 0#32
  let v104 : Index := Scalar.indexCast c0_i32_97
  let c0_i32_56 : BitVec 32 := 0#32
  let c1_i32_58 : BitVec 32 := 1#32
  let arg17 : BitVec 32 := Scf.iv c0_i32_56 c1_i32_58 k0_t2
  let c16_i32 : BitVec 32 := 16#32
  let v103 : BitVec 32 := Scalar.muli arg17 c16_i32
  let v105 : Index := Scalar.indexCast v103
  let c0 : Index := 0#32
  ![0, v105.toNat, 0]
def k0_off9 (k0_t2 : Fin k0_t2_loop.trips) (c1_i32_99 : BitVec 32) : Fin 3 → Nat :=
  let c0_i32_100 : BitVec 32 := 0#32
  let v110 : Index := Scalar.indexCast c0_i32_100
  let c0_i32_56 : BitVec 32 := 0#32
  let c1_i32_58 : BitVec 32 := 1#32
  let arg17 : BitVec 32 := Scf.iv c0_i32_56 c1_i32_58 k0_t2
  let c16_i32_98 : BitVec 32 := 16#32
  let v108 : BitVec 32 := Scalar.muli arg17 c16_i32_98
  let v109 : BitVec 32 := Scalar.addi v108 c1_i32_99
  let v111 : Index := Scalar.indexCast v109
  let c0_101 : Index := 0#32
  ![0, v111.toNat, 0]
def k0_off10 (k0_t2 : Fin k0_t2_loop.trips) : Fin 3 → Nat :=
  let c0_i32_147 : BitVec 32 := 0#32
  let v213 : Index := Scalar.indexCast c0_i32_147
  let c0_i32_56 : BitVec 32 := 0#32
  let c1_i32_58 : BitVec 32 := 1#32
  let arg17 : BitVec 32 := Scf.iv c0_i32_56 c1_i32_58 k0_t2
  let v214 : Index := Scalar.indexCast arg17
  let c0_148 : Index := 0#32
  ![0, v214.toNat, 0]
def k0_off11 (k0_t2 : Fin k0_t2_loop.trips) : Fin 3 → Nat :=
  let c0_i32_150 : BitVec 32 := 0#32
  let v219 : Index := Scalar.indexCast c0_i32_150
  let c0_i32_56 : BitVec 32 := 0#32
  let c1_i32_58 : BitVec 32 := 1#32
  let arg17 : BitVec 32 := Scf.iv c0_i32_56 c1_i32_58 k0_t2
  let c16_i32_149 : BitVec 32 := 16#32
  let v218 : BitVec 32 := Scalar.muli arg17 c16_i32_149
  let v220 : Index := Scalar.indexCast v218
  let c16 : Index := 16#32
  ![0, v220.toNat, 16]
def k0_off12 (k0_t2 : Fin k0_t2_loop.trips) (c1_i32_152 : BitVec 32) : Fin 3 → Nat :=
  let c0_i32_153 : BitVec 32 := 0#32
  let v225 : Index := Scalar.indexCast c0_i32_153
  let c0_i32_56 : BitVec 32 := 0#32
  let c1_i32_58 : BitVec 32 := 1#32
  let arg17 : BitVec 32 := Scf.iv c0_i32_56 c1_i32_58 k0_t2
  let c16_i32_151 : BitVec 32 := 16#32
  let v223 : BitVec 32 := Scalar.muli arg17 c16_i32_151
  let v224 : BitVec 32 := Scalar.addi v223 c1_i32_152
  let v226 : Index := Scalar.indexCast v224
  let c16_154 : Index := 16#32
  ![0, v226.toNat, 16]
def k0_off13 (k0_t2 : Fin k0_t2_loop.trips) : Fin 3 → Nat :=
  let c0_i32_211 : BitVec 32 := 0#32
  let v328 : Index := Scalar.indexCast c0_i32_211
  let c0_i32_56 : BitVec 32 := 0#32
  let c1_i32_58 : BitVec 32 := 1#32
  let arg17 : BitVec 32 := Scf.iv c0_i32_56 c1_i32_58 k0_t2
  let v329 : Index := Scalar.indexCast arg17
  let c16_212 : Index := 16#32
  ![0, v329.toNat, 16]
def k0_off14 (k0_t2 : Fin k0_t2_loop.trips) : Fin 3 → Nat :=
  let c0_i32_214 : BitVec 32 := 0#32
  let v334 : Index := Scalar.indexCast c0_i32_214
  let c0_i32_56 : BitVec 32 := 0#32
  let c1_i32_58 : BitVec 32 := 1#32
  let arg17 : BitVec 32 := Scf.iv c0_i32_56 c1_i32_58 k0_t2
  let c16_i32_213 : BitVec 32 := 16#32
  let v333 : BitVec 32 := Scalar.muli arg17 c16_i32_213
  let v335 : Index := Scalar.indexCast v333
  let c32 : Index := 32#32
  ![0, v335.toNat, 32]
def k0_off15 (k0_t2 : Fin k0_t2_loop.trips) (c1_i32_216 : BitVec 32) : Fin 3 → Nat :=
  let c0_i32_217 : BitVec 32 := 0#32
  let v340 : Index := Scalar.indexCast c0_i32_217
  let c0_i32_56 : BitVec 32 := 0#32
  let c1_i32_58 : BitVec 32 := 1#32
  let arg17 : BitVec 32 := Scf.iv c0_i32_56 c1_i32_58 k0_t2
  let c16_i32_215 : BitVec 32 := 16#32
  let v338 : BitVec 32 := Scalar.muli arg17 c16_i32_215
  let v339 : BitVec 32 := Scalar.addi v338 c1_i32_216
  let v341 : Index := Scalar.indexCast v339
  let c32_218 : Index := 32#32
  ![0, v341.toNat, 32]
def k0_off16 (k0_t2 : Fin k0_t2_loop.trips) : Fin 3 → Nat :=
  let c0_i32_275 : BitVec 32 := 0#32
  let v443 : Index := Scalar.indexCast c0_i32_275
  let c0_i32_56 : BitVec 32 := 0#32
  let c1_i32_58 : BitVec 32 := 1#32
  let arg17 : BitVec 32 := Scf.iv c0_i32_56 c1_i32_58 k0_t2
  let v444 : Index := Scalar.indexCast arg17
  let c32_276 : Index := 32#32
  ![0, v444.toNat, 32]
def k0_off17 (k0_t2 : Fin k0_t2_loop.trips) : Fin 3 → Nat :=
  let c0_i32_278 : BitVec 32 := 0#32
  let v449 : Index := Scalar.indexCast c0_i32_278
  let c0_i32_56 : BitVec 32 := 0#32
  let c1_i32_58 : BitVec 32 := 1#32
  let arg17 : BitVec 32 := Scf.iv c0_i32_56 c1_i32_58 k0_t2
  let c16_i32_277 : BitVec 32 := 16#32
  let v448 : BitVec 32 := Scalar.muli arg17 c16_i32_277
  let v450 : Index := Scalar.indexCast v448
  let c48 : Index := 48#32
  ![0, v450.toNat, 48]
def k0_off18 (k0_t2 : Fin k0_t2_loop.trips) (c1_i32_280 : BitVec 32) : Fin 3 → Nat :=
  let c0_i32_281 : BitVec 32 := 0#32
  let v455 : Index := Scalar.indexCast c0_i32_281
  let c0_i32_56 : BitVec 32 := 0#32
  let c1_i32_58 : BitVec 32 := 1#32
  let arg17 : BitVec 32 := Scf.iv c0_i32_56 c1_i32_58 k0_t2
  let c16_i32_279 : BitVec 32 := 16#32
  let v453 : BitVec 32 := Scalar.muli arg17 c16_i32_279
  let v454 : BitVec 32 := Scalar.addi v453 c1_i32_280
  let v456 : Index := Scalar.indexCast v454
  let c48_282 : Index := 48#32
  ![0, v456.toNat, 48]
def k0_off19 (k0_t2 : Fin k0_t2_loop.trips) : Fin 3 → Nat :=
  let c0_i32_339 : BitVec 32 := 0#32
  let v558 : Index := Scalar.indexCast c0_i32_339
  let c0_i32_56 : BitVec 32 := 0#32
  let c1_i32_58 : BitVec 32 := 1#32
  let arg17 : BitVec 32 := Scf.iv c0_i32_56 c1_i32_58 k0_t2
  let v559 : Index := Scalar.indexCast arg17
  let c48_340 : Index := 48#32
  ![0, v559.toNat, 48]
def k0_off20 (k0_t2 : Fin k0_t2_loop.trips) : Fin 3 → Nat :=
  let c0_i32_342 : BitVec 32 := 0#32
  let v564 : Index := Scalar.indexCast c0_i32_342
  let c0_i32_56 : BitVec 32 := 0#32
  let c1_i32_58 : BitVec 32 := 1#32
  let arg17 : BitVec 32 := Scf.iv c0_i32_56 c1_i32_58 k0_t2
  let c16_i32_341 : BitVec 32 := 16#32
  let v563 : BitVec 32 := Scalar.muli arg17 c16_i32_341
  let v565 : Index := Scalar.indexCast v563
  let c64 : Index := 64#32
  ![0, v565.toNat, 64]
def k0_off21 (k0_t2 : Fin k0_t2_loop.trips) (c1_i32_344 : BitVec 32) : Fin 3 → Nat :=
  let c0_i32_345 : BitVec 32 := 0#32
  let v570 : Index := Scalar.indexCast c0_i32_345
  let c0_i32_56 : BitVec 32 := 0#32
  let c1_i32_58 : BitVec 32 := 1#32
  let arg17 : BitVec 32 := Scf.iv c0_i32_56 c1_i32_58 k0_t2
  let c16_i32_343 : BitVec 32 := 16#32
  let v568 : BitVec 32 := Scalar.muli arg17 c16_i32_343
  let v569 : BitVec 32 := Scalar.addi v568 c1_i32_344
  let v571 : Index := Scalar.indexCast v569
  let c64_346 : Index := 64#32
  ![0, v571.toNat, 64]
def k0_off22 (k0_t2 : Fin k0_t2_loop.trips) : Fin 3 → Nat :=
  let c0_i32_403 : BitVec 32 := 0#32
  let v673 : Index := Scalar.indexCast c0_i32_403
  let c0_i32_56 : BitVec 32 := 0#32
  let c1_i32_58 : BitVec 32 := 1#32
  let arg17 : BitVec 32 := Scf.iv c0_i32_56 c1_i32_58 k0_t2
  let v674 : Index := Scalar.indexCast arg17
  let c64_404 : Index := 64#32
  ![0, v674.toNat, 64]
def k0_off23 (k0_t2 : Fin k0_t2_loop.trips) : Fin 3 → Nat :=
  let c0_i32_406 : BitVec 32 := 0#32
  let v679 : Index := Scalar.indexCast c0_i32_406
  let c0_i32_56 : BitVec 32 := 0#32
  let c1_i32_58 : BitVec 32 := 1#32
  let arg17 : BitVec 32 := Scf.iv c0_i32_56 c1_i32_58 k0_t2
  let c16_i32_405 : BitVec 32 := 16#32
  let v678 : BitVec 32 := Scalar.muli arg17 c16_i32_405
  let v680 : Index := Scalar.indexCast v678
  let c80 : Index := 80#32
  ![0, v680.toNat, 80]
def k0_off24 (k0_t2 : Fin k0_t2_loop.trips) (c1_i32_408 : BitVec 32) : Fin 3 → Nat :=
  let c0_i32_409 : BitVec 32 := 0#32
  let v685 : Index := Scalar.indexCast c0_i32_409
  let c0_i32_56 : BitVec 32 := 0#32
  let c1_i32_58 : BitVec 32 := 1#32
  let arg17 : BitVec 32 := Scf.iv c0_i32_56 c1_i32_58 k0_t2
  let c16_i32_407 : BitVec 32 := 16#32
  let v683 : BitVec 32 := Scalar.muli arg17 c16_i32_407
  let v684 : BitVec 32 := Scalar.addi v683 c1_i32_408
  let v686 : Index := Scalar.indexCast v684
  let c80_410 : Index := 80#32
  ![0, v686.toNat, 80]
def k0_off25 (k0_t2 : Fin k0_t2_loop.trips) : Fin 3 → Nat :=
  let c0_i32_467 : BitVec 32 := 0#32
  let v788 : Index := Scalar.indexCast c0_i32_467
  let c0_i32_56 : BitVec 32 := 0#32
  let c1_i32_58 : BitVec 32 := 1#32
  let arg17 : BitVec 32 := Scf.iv c0_i32_56 c1_i32_58 k0_t2
  let v789 : Index := Scalar.indexCast arg17
  let c80_468 : Index := 80#32
  ![0, v789.toNat, 80]
def k0_off26 (k0_t2 : Fin k0_t2_loop.trips) : Fin 3 → Nat :=
  let c0_i32_470 : BitVec 32 := 0#32
  let v794 : Index := Scalar.indexCast c0_i32_470
  let c0_i32_56 : BitVec 32 := 0#32
  let c1_i32_58 : BitVec 32 := 1#32
  let arg17 : BitVec 32 := Scf.iv c0_i32_56 c1_i32_58 k0_t2
  let c16_i32_469 : BitVec 32 := 16#32
  let v793 : BitVec 32 := Scalar.muli arg17 c16_i32_469
  let v795 : Index := Scalar.indexCast v793
  let c96 : Index := 96#32
  ![0, v795.toNat, 96]
def k0_off27 (k0_t2 : Fin k0_t2_loop.trips) (c1_i32_472 : BitVec 32) : Fin 3 → Nat :=
  let c0_i32_473 : BitVec 32 := 0#32
  let v800 : Index := Scalar.indexCast c0_i32_473
  let c0_i32_56 : BitVec 32 := 0#32
  let c1_i32_58 : BitVec 32 := 1#32
  let arg17 : BitVec 32 := Scf.iv c0_i32_56 c1_i32_58 k0_t2
  let c16_i32_471 : BitVec 32 := 16#32
  let v798 : BitVec 32 := Scalar.muli arg17 c16_i32_471
  let v799 : BitVec 32 := Scalar.addi v798 c1_i32_472
  let v801 : Index := Scalar.indexCast v799
  let c96_474 : Index := 96#32
  ![0, v801.toNat, 96]
def k0_off28 (k0_t2 : Fin k0_t2_loop.trips) : Fin 3 → Nat :=
  let c0_i32_531 : BitVec 32 := 0#32
  let v903 : Index := Scalar.indexCast c0_i32_531
  let c0_i32_56 : BitVec 32 := 0#32
  let c1_i32_58 : BitVec 32 := 1#32
  let arg17 : BitVec 32 := Scf.iv c0_i32_56 c1_i32_58 k0_t2
  let v904 : Index := Scalar.indexCast arg17
  let c96_532 : Index := 96#32
  ![0, v904.toNat, 96]
def k0_off29 (k0_t2 : Fin k0_t2_loop.trips) : Fin 3 → Nat :=
  let c0_i32_534 : BitVec 32 := 0#32
  let v909 : Index := Scalar.indexCast c0_i32_534
  let c0_i32_56 : BitVec 32 := 0#32
  let c1_i32_58 : BitVec 32 := 1#32
  let arg17 : BitVec 32 := Scf.iv c0_i32_56 c1_i32_58 k0_t2
  let c16_i32_533 : BitVec 32 := 16#32
  let v908 : BitVec 32 := Scalar.muli arg17 c16_i32_533
  let v910 : Index := Scalar.indexCast v908
  let c112 : Index := 112#32
  ![0, v910.toNat, 112]
def k0_off30 (k0_t2 : Fin k0_t2_loop.trips) (c1_i32_536 : BitVec 32) : Fin 3 → Nat :=
  let c0_i32_537 : BitVec 32 := 0#32
  let v915 : Index := Scalar.indexCast c0_i32_537
  let c0_i32_56 : BitVec 32 := 0#32
  let c1_i32_58 : BitVec 32 := 1#32
  let arg17 : BitVec 32 := Scf.iv c0_i32_56 c1_i32_58 k0_t2
  let c16_i32_535 : BitVec 32 := 16#32
  let v913 : BitVec 32 := Scalar.muli arg17 c16_i32_535
  let v914 : BitVec 32 := Scalar.addi v913 c1_i32_536
  let v916 : Index := Scalar.indexCast v914
  let c112_538 : Index := 112#32
  ![0, v916.toNat, 112]
def k0_off31 (k0_t2 : Fin k0_t2_loop.trips) : Fin 3 → Nat :=
  let c0_i32_595 : BitVec 32 := 0#32
  let v1018 : Index := Scalar.indexCast c0_i32_595
  let c0_i32_56 : BitVec 32 := 0#32
  let c1_i32_58 : BitVec 32 := 1#32
  let arg17 : BitVec 32 := Scf.iv c0_i32_56 c1_i32_58 k0_t2
  let v1019 : Index := Scalar.indexCast arg17
  let c112_596 : Index := 112#32
  ![0, v1019.toNat, 112]
def k0_off32 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c2_i32_45 : BitVec 32 := 2#32
  let c0_i32_19 : BitVec 32 := 0#32
  let c1_i32_20 : BitVec 32 := 1#32
  let arg16 : BitVec 32 := Scf.iv c0_i32_19 c1_i32_20 k0_t1
  let v52 : BitVec 32 := Scalar.muli c2_i32_45 arg16
  let c8_i32_60 : BitVec 32 := 8#32
  let v64 : BitVec 32 := Scalar.muli v52 c8_i32_60
  let v65 : BitVec 32 := Scalar.addi v2 v64
  let c0_i32_65 : BitVec 32 := 0#32
  ![v65.toNat, 0]
def k0_cond4 (k0_t1 : Fin k0_t1_loop.trips) : BitVec 1 :=
  let c0_i32_19 : BitVec 32 := 0#32
  let c1_i32_20 : BitVec 32 := 1#32
  let arg16 : BitVec 32 := Scf.iv c0_i32_19 c1_i32_20 k0_t1
  let c63_i32 : BitVec 32 := 63#32
  let v74 : BitVec 1 := Scalar.cmpi .slt arg16 c63_i32
  let v75 : BitVec 32 := Scalar.extui v74
  let c0_i32_69 : BitVec 32 := 0#32
  let v76 : BitVec 1 := Scalar.cmpi .ne v75 c0_i32_69
  v76

def k0_off33 (k0_t1 : Fin k0_t1_loop.trips) : Fin 2 → Nat :=
  let c2_i32_45 : BitVec 32 := 2#32
  let c0_i32_19 : BitVec 32 := 0#32
  let c1_i32_20 : BitVec 32 := 1#32
  let arg16 : BitVec 32 := Scf.iv c0_i32_19 c1_i32_20 k0_t1
  let v52 : BitVec 32 := Scalar.muli c2_i32_45 arg16
  let c2_i32_97 : BitVec 32 := 2#32
  let v103 : BitVec 32 := Scalar.addi v52 c2_i32_97
  let c0_i32_102 : BitVec 32 := 0#32
  ![v103.toNat, 0]
def k0_off34 (k0_t1 : Fin k0_t1_loop.trips) : Fin 2 → Nat :=
  let c2_i32_70 : BitVec 32 := 2#32
  let c0_i32_19 : BitVec 32 := 0#32
  let c1_i32_20 : BitVec 32 := 1#32
  let arg16 : BitVec 32 := Scf.iv c0_i32_19 c1_i32_20 k0_t1
  let v77 : BitVec 32 := Scalar.muli c2_i32_70 arg16
  let c1_i32_71 : BitVec 32 := 1#32
  let v78 : BitVec 32 := Scalar.addi v77 c1_i32_71
  let c0_i32_76 : BitVec 32 := 0#32
  ![v78.toNat, 0]
def k0_cond5 (k0_t1 : Fin k0_t1_loop.trips) : BitVec 1 :=
  let c0_i32_19 : BitVec 32 := 0#32
  let c1_i32_20 : BitVec 32 := 1#32
  let arg16 : BitVec 32 := Scf.iv c0_i32_19 c1_i32_20 k0_t1
  let c0_i32_79 : BitVec 32 := 0#32
  let v86 : BitVec 1 := Scalar.cmpi .sgt arg16 c0_i32_79
  let v87 : BitVec 32 := Scalar.extui v86
  let c0_i32_80 : BitVec 32 := 0#32
  let v88 : BitVec 1 := Scalar.cmpi .ne v87 c0_i32_80
  v88

def k0_off35 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_101 : BitVec 32 := 0#32
  ![v2.toNat, 0]
@[reducible] def k0_t3_loop : Scf.Loop 32 :=
  let c0_i32_82 : BitVec 32 := 0#32
  let c8_i32_83 : BitVec 32 := 8#32
  let v89 : BitVec 32 := Scalar.addi c0_i32_82 c8_i32_83
  let c1_i32_84 : BitVec 32 := 1#32
  ⟨c0_i32_82, v89, c1_i32_84⟩
def k0_off36 (k0_t3 : Fin k0_t3_loop.trips) : Fin 3 → Nat :=
  let c1_i32_97 : BitVec 32 := 1#32
  let v104 : Index := Scalar.indexCast c1_i32_97
  let c0_i32_82 : BitVec 32 := 0#32
  let c1_i32_84 : BitVec 32 := 1#32
  let arg17 : BitVec 32 := Scf.iv c0_i32_82 c1_i32_84 k0_t3
  let c16_i32 : BitVec 32 := 16#32
  let v103 : BitVec 32 := Scalar.muli arg17 c16_i32
  let v105 : Index := Scalar.indexCast v103
  let c0 : Index := 0#32
  ![1, v105.toNat, 0]
def k0_off37 (k0_t3 : Fin k0_t3_loop.trips) (c1_i32_99 : BitVec 32) : Fin 3 → Nat :=
  let c1_i32_100 : BitVec 32 := 1#32
  let v110 : Index := Scalar.indexCast c1_i32_100
  let c0_i32_82 : BitVec 32 := 0#32
  let c1_i32_84 : BitVec 32 := 1#32
  let arg17 : BitVec 32 := Scf.iv c0_i32_82 c1_i32_84 k0_t3
  let c16_i32_98 : BitVec 32 := 16#32
  let v108 : BitVec 32 := Scalar.muli arg17 c16_i32_98
  let v109 : BitVec 32 := Scalar.addi v108 c1_i32_99
  let v111 : Index := Scalar.indexCast v109
  let c0_101 : Index := 0#32
  ![1, v111.toNat, 0]
def k0_off38 (k0_t3 : Fin k0_t3_loop.trips) : Fin 3 → Nat :=
  let c1_i32_147 : BitVec 32 := 1#32
  let v213 : Index := Scalar.indexCast c1_i32_147
  let c0_i32_82 : BitVec 32 := 0#32
  let c1_i32_84 : BitVec 32 := 1#32
  let arg17 : BitVec 32 := Scf.iv c0_i32_82 c1_i32_84 k0_t3
  let v214 : Index := Scalar.indexCast arg17
  let c0_148 : Index := 0#32
  ![1, v214.toNat, 0]
def k0_off39 (k0_t3 : Fin k0_t3_loop.trips) : Fin 3 → Nat :=
  let c1_i32_150 : BitVec 32 := 1#32
  let v219 : Index := Scalar.indexCast c1_i32_150
  let c0_i32_82 : BitVec 32 := 0#32
  let c1_i32_84 : BitVec 32 := 1#32
  let arg17 : BitVec 32 := Scf.iv c0_i32_82 c1_i32_84 k0_t3
  let c16_i32_149 : BitVec 32 := 16#32
  let v218 : BitVec 32 := Scalar.muli arg17 c16_i32_149
  let v220 : Index := Scalar.indexCast v218
  let c16 : Index := 16#32
  ![1, v220.toNat, 16]
def k0_off40 (k0_t3 : Fin k0_t3_loop.trips) (c1_i32_152 : BitVec 32) : Fin 3 → Nat :=
  let c1_i32_153 : BitVec 32 := 1#32
  let v225 : Index := Scalar.indexCast c1_i32_153
  let c0_i32_82 : BitVec 32 := 0#32
  let c1_i32_84 : BitVec 32 := 1#32
  let arg17 : BitVec 32 := Scf.iv c0_i32_82 c1_i32_84 k0_t3
  let c16_i32_151 : BitVec 32 := 16#32
  let v223 : BitVec 32 := Scalar.muli arg17 c16_i32_151
  let v224 : BitVec 32 := Scalar.addi v223 c1_i32_152
  let v226 : Index := Scalar.indexCast v224
  let c16_154 : Index := 16#32
  ![1, v226.toNat, 16]
def k0_off41 (k0_t3 : Fin k0_t3_loop.trips) : Fin 3 → Nat :=
  let c1_i32_211 : BitVec 32 := 1#32
  let v328 : Index := Scalar.indexCast c1_i32_211
  let c0_i32_82 : BitVec 32 := 0#32
  let c1_i32_84 : BitVec 32 := 1#32
  let arg17 : BitVec 32 := Scf.iv c0_i32_82 c1_i32_84 k0_t3
  let v329 : Index := Scalar.indexCast arg17
  let c16_212 : Index := 16#32
  ![1, v329.toNat, 16]
def k0_off42 (k0_t3 : Fin k0_t3_loop.trips) : Fin 3 → Nat :=
  let c1_i32_214 : BitVec 32 := 1#32
  let v334 : Index := Scalar.indexCast c1_i32_214
  let c0_i32_82 : BitVec 32 := 0#32
  let c1_i32_84 : BitVec 32 := 1#32
  let arg17 : BitVec 32 := Scf.iv c0_i32_82 c1_i32_84 k0_t3
  let c16_i32_213 : BitVec 32 := 16#32
  let v333 : BitVec 32 := Scalar.muli arg17 c16_i32_213
  let v335 : Index := Scalar.indexCast v333
  let c32 : Index := 32#32
  ![1, v335.toNat, 32]
def k0_off43 (k0_t3 : Fin k0_t3_loop.trips) (c1_i32_216 : BitVec 32) : Fin 3 → Nat :=
  let c1_i32_217 : BitVec 32 := 1#32
  let v340 : Index := Scalar.indexCast c1_i32_217
  let c0_i32_82 : BitVec 32 := 0#32
  let c1_i32_84 : BitVec 32 := 1#32
  let arg17 : BitVec 32 := Scf.iv c0_i32_82 c1_i32_84 k0_t3
  let c16_i32_215 : BitVec 32 := 16#32
  let v338 : BitVec 32 := Scalar.muli arg17 c16_i32_215
  let v339 : BitVec 32 := Scalar.addi v338 c1_i32_216
  let v341 : Index := Scalar.indexCast v339
  let c32_218 : Index := 32#32
  ![1, v341.toNat, 32]
def k0_off44 (k0_t3 : Fin k0_t3_loop.trips) : Fin 3 → Nat :=
  let c1_i32_275 : BitVec 32 := 1#32
  let v443 : Index := Scalar.indexCast c1_i32_275
  let c0_i32_82 : BitVec 32 := 0#32
  let c1_i32_84 : BitVec 32 := 1#32
  let arg17 : BitVec 32 := Scf.iv c0_i32_82 c1_i32_84 k0_t3
  let v444 : Index := Scalar.indexCast arg17
  let c32_276 : Index := 32#32
  ![1, v444.toNat, 32]
def k0_off45 (k0_t3 : Fin k0_t3_loop.trips) : Fin 3 → Nat :=
  let c1_i32_278 : BitVec 32 := 1#32
  let v449 : Index := Scalar.indexCast c1_i32_278
  let c0_i32_82 : BitVec 32 := 0#32
  let c1_i32_84 : BitVec 32 := 1#32
  let arg17 : BitVec 32 := Scf.iv c0_i32_82 c1_i32_84 k0_t3
  let c16_i32_277 : BitVec 32 := 16#32
  let v448 : BitVec 32 := Scalar.muli arg17 c16_i32_277
  let v450 : Index := Scalar.indexCast v448
  let c48 : Index := 48#32
  ![1, v450.toNat, 48]
def k0_off46 (k0_t3 : Fin k0_t3_loop.trips) (c1_i32_280 : BitVec 32) : Fin 3 → Nat :=
  let c1_i32_281 : BitVec 32 := 1#32
  let v455 : Index := Scalar.indexCast c1_i32_281
  let c0_i32_82 : BitVec 32 := 0#32
  let c1_i32_84 : BitVec 32 := 1#32
  let arg17 : BitVec 32 := Scf.iv c0_i32_82 c1_i32_84 k0_t3
  let c16_i32_279 : BitVec 32 := 16#32
  let v453 : BitVec 32 := Scalar.muli arg17 c16_i32_279
  let v454 : BitVec 32 := Scalar.addi v453 c1_i32_280
  let v456 : Index := Scalar.indexCast v454
  let c48_282 : Index := 48#32
  ![1, v456.toNat, 48]
def k0_off47 (k0_t3 : Fin k0_t3_loop.trips) : Fin 3 → Nat :=
  let c1_i32_339 : BitVec 32 := 1#32
  let v558 : Index := Scalar.indexCast c1_i32_339
  let c0_i32_82 : BitVec 32 := 0#32
  let c1_i32_84 : BitVec 32 := 1#32
  let arg17 : BitVec 32 := Scf.iv c0_i32_82 c1_i32_84 k0_t3
  let v559 : Index := Scalar.indexCast arg17
  let c48_340 : Index := 48#32
  ![1, v559.toNat, 48]
def k0_off48 (k0_t3 : Fin k0_t3_loop.trips) : Fin 3 → Nat :=
  let c1_i32_342 : BitVec 32 := 1#32
  let v564 : Index := Scalar.indexCast c1_i32_342
  let c0_i32_82 : BitVec 32 := 0#32
  let c1_i32_84 : BitVec 32 := 1#32
  let arg17 : BitVec 32 := Scf.iv c0_i32_82 c1_i32_84 k0_t3
  let c16_i32_341 : BitVec 32 := 16#32
  let v563 : BitVec 32 := Scalar.muli arg17 c16_i32_341
  let v565 : Index := Scalar.indexCast v563
  let c64 : Index := 64#32
  ![1, v565.toNat, 64]
def k0_off49 (k0_t3 : Fin k0_t3_loop.trips) (c1_i32_344 : BitVec 32) : Fin 3 → Nat :=
  let c1_i32_345 : BitVec 32 := 1#32
  let v570 : Index := Scalar.indexCast c1_i32_345
  let c0_i32_82 : BitVec 32 := 0#32
  let c1_i32_84 : BitVec 32 := 1#32
  let arg17 : BitVec 32 := Scf.iv c0_i32_82 c1_i32_84 k0_t3
  let c16_i32_343 : BitVec 32 := 16#32
  let v568 : BitVec 32 := Scalar.muli arg17 c16_i32_343
  let v569 : BitVec 32 := Scalar.addi v568 c1_i32_344
  let v571 : Index := Scalar.indexCast v569
  let c64_346 : Index := 64#32
  ![1, v571.toNat, 64]
def k0_off50 (k0_t3 : Fin k0_t3_loop.trips) : Fin 3 → Nat :=
  let c1_i32_403 : BitVec 32 := 1#32
  let v673 : Index := Scalar.indexCast c1_i32_403
  let c0_i32_82 : BitVec 32 := 0#32
  let c1_i32_84 : BitVec 32 := 1#32
  let arg17 : BitVec 32 := Scf.iv c0_i32_82 c1_i32_84 k0_t3
  let v674 : Index := Scalar.indexCast arg17
  let c64_404 : Index := 64#32
  ![1, v674.toNat, 64]
def k0_off51 (k0_t3 : Fin k0_t3_loop.trips) : Fin 3 → Nat :=
  let c1_i32_406 : BitVec 32 := 1#32
  let v679 : Index := Scalar.indexCast c1_i32_406
  let c0_i32_82 : BitVec 32 := 0#32
  let c1_i32_84 : BitVec 32 := 1#32
  let arg17 : BitVec 32 := Scf.iv c0_i32_82 c1_i32_84 k0_t3
  let c16_i32_405 : BitVec 32 := 16#32
  let v678 : BitVec 32 := Scalar.muli arg17 c16_i32_405
  let v680 : Index := Scalar.indexCast v678
  let c80 : Index := 80#32
  ![1, v680.toNat, 80]
def k0_off52 (k0_t3 : Fin k0_t3_loop.trips) (c1_i32_408 : BitVec 32) : Fin 3 → Nat :=
  let c1_i32_409 : BitVec 32 := 1#32
  let v685 : Index := Scalar.indexCast c1_i32_409
  let c0_i32_82 : BitVec 32 := 0#32
  let c1_i32_84 : BitVec 32 := 1#32
  let arg17 : BitVec 32 := Scf.iv c0_i32_82 c1_i32_84 k0_t3
  let c16_i32_407 : BitVec 32 := 16#32
  let v683 : BitVec 32 := Scalar.muli arg17 c16_i32_407
  let v684 : BitVec 32 := Scalar.addi v683 c1_i32_408
  let v686 : Index := Scalar.indexCast v684
  let c80_410 : Index := 80#32
  ![1, v686.toNat, 80]
def k0_off53 (k0_t3 : Fin k0_t3_loop.trips) : Fin 3 → Nat :=
  let c1_i32_467 : BitVec 32 := 1#32
  let v788 : Index := Scalar.indexCast c1_i32_467
  let c0_i32_82 : BitVec 32 := 0#32
  let c1_i32_84 : BitVec 32 := 1#32
  let arg17 : BitVec 32 := Scf.iv c0_i32_82 c1_i32_84 k0_t3
  let v789 : Index := Scalar.indexCast arg17
  let c80_468 : Index := 80#32
  ![1, v789.toNat, 80]
def k0_off54 (k0_t3 : Fin k0_t3_loop.trips) : Fin 3 → Nat :=
  let c1_i32_470 : BitVec 32 := 1#32
  let v794 : Index := Scalar.indexCast c1_i32_470
  let c0_i32_82 : BitVec 32 := 0#32
  let c1_i32_84 : BitVec 32 := 1#32
  let arg17 : BitVec 32 := Scf.iv c0_i32_82 c1_i32_84 k0_t3
  let c16_i32_469 : BitVec 32 := 16#32
  let v793 : BitVec 32 := Scalar.muli arg17 c16_i32_469
  let v795 : Index := Scalar.indexCast v793
  let c96 : Index := 96#32
  ![1, v795.toNat, 96]
def k0_off55 (k0_t3 : Fin k0_t3_loop.trips) (c1_i32_472 : BitVec 32) : Fin 3 → Nat :=
  let c1_i32_473 : BitVec 32 := 1#32
  let v800 : Index := Scalar.indexCast c1_i32_473
  let c0_i32_82 : BitVec 32 := 0#32
  let c1_i32_84 : BitVec 32 := 1#32
  let arg17 : BitVec 32 := Scf.iv c0_i32_82 c1_i32_84 k0_t3
  let c16_i32_471 : BitVec 32 := 16#32
  let v798 : BitVec 32 := Scalar.muli arg17 c16_i32_471
  let v799 : BitVec 32 := Scalar.addi v798 c1_i32_472
  let v801 : Index := Scalar.indexCast v799
  let c96_474 : Index := 96#32
  ![1, v801.toNat, 96]
def k0_off56 (k0_t3 : Fin k0_t3_loop.trips) : Fin 3 → Nat :=
  let c1_i32_531 : BitVec 32 := 1#32
  let v903 : Index := Scalar.indexCast c1_i32_531
  let c0_i32_82 : BitVec 32 := 0#32
  let c1_i32_84 : BitVec 32 := 1#32
  let arg17 : BitVec 32 := Scf.iv c0_i32_82 c1_i32_84 k0_t3
  let v904 : Index := Scalar.indexCast arg17
  let c96_532 : Index := 96#32
  ![1, v904.toNat, 96]
def k0_off57 (k0_t3 : Fin k0_t3_loop.trips) : Fin 3 → Nat :=
  let c1_i32_534 : BitVec 32 := 1#32
  let v909 : Index := Scalar.indexCast c1_i32_534
  let c0_i32_82 : BitVec 32 := 0#32
  let c1_i32_84 : BitVec 32 := 1#32
  let arg17 : BitVec 32 := Scf.iv c0_i32_82 c1_i32_84 k0_t3
  let c16_i32_533 : BitVec 32 := 16#32
  let v908 : BitVec 32 := Scalar.muli arg17 c16_i32_533
  let v910 : Index := Scalar.indexCast v908
  let c112 : Index := 112#32
  ![1, v910.toNat, 112]
def k0_off58 (k0_t3 : Fin k0_t3_loop.trips) (c1_i32_536 : BitVec 32) : Fin 3 → Nat :=
  let c1_i32_537 : BitVec 32 := 1#32
  let v915 : Index := Scalar.indexCast c1_i32_537
  let c0_i32_82 : BitVec 32 := 0#32
  let c1_i32_84 : BitVec 32 := 1#32
  let arg17 : BitVec 32 := Scf.iv c0_i32_82 c1_i32_84 k0_t3
  let c16_i32_535 : BitVec 32 := 16#32
  let v913 : BitVec 32 := Scalar.muli arg17 c16_i32_535
  let v914 : BitVec 32 := Scalar.addi v913 c1_i32_536
  let v916 : Index := Scalar.indexCast v914
  let c112_538 : Index := 112#32
  ![1, v916.toNat, 112]
def k0_off59 (k0_t3 : Fin k0_t3_loop.trips) : Fin 3 → Nat :=
  let c1_i32_595 : BitVec 32 := 1#32
  let v1018 : Index := Scalar.indexCast c1_i32_595
  let c0_i32_82 : BitVec 32 := 0#32
  let c1_i32_84 : BitVec 32 := 1#32
  let arg17 : BitVec 32 := Scf.iv c0_i32_82 c1_i32_84 k0_t3
  let v1019 : Index := Scalar.indexCast arg17
  let c112_596 : Index := 112#32
  ![1, v1019.toNat, 112]
def k0_off60 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c2_i32_70 : BitVec 32 := 2#32
  let c0_i32_19 : BitVec 32 := 0#32
  let c1_i32_20 : BitVec 32 := 1#32
  let arg16 : BitVec 32 := Scf.iv c0_i32_19 c1_i32_20 k0_t1
  let v77 : BitVec 32 := Scalar.muli c2_i32_70 arg16
  let c1_i32_71 : BitVec 32 := 1#32
  let v78 : BitVec 32 := Scalar.addi v77 c1_i32_71
  let c8_i32_86 : BitVec 32 := 8#32
  let v90 : BitVec 32 := Scalar.muli v78 c8_i32_86
  let v91 : BitVec 32 := Scalar.addi v2 v90
  let c0_i32_91 : BitVec 32 := 0#32
  ![v91.toNat, 0]
def k0_cond6 (k0_t1 : Fin k0_t1_loop.trips) : BitVec 1 :=
  let c0_i32_19 : BitVec 32 := 0#32
  let c1_i32_20 : BitVec 32 := 1#32
  let arg16 : BitVec 32 := Scf.iv c0_i32_19 c1_i32_20 k0_t1
  let c63_i32_95 : BitVec 32 := 63#32
  let v100 : BitVec 1 := Scalar.cmpi .slt arg16 c63_i32_95
  let v101 : BitVec 32 := Scalar.extui v100
  let c0_i32_96 : BitVec 32 := 0#32
  let v102 : BitVec 1 := Scalar.cmpi .ne v101 c0_i32_96
  v102

def k0_off61 (k0_t1 : Fin k0_t1_loop.trips) : Fin 2 → Nat :=
  let c2_i32_70 : BitVec 32 := 2#32
  let c0_i32_19 : BitVec 32 := 0#32
  let c1_i32_20 : BitVec 32 := 1#32
  let arg16 : BitVec 32 := Scf.iv c0_i32_19 c1_i32_20 k0_t1
  let v77 : BitVec 32 := Scalar.muli c2_i32_70 arg16
  let c1_i32_71 : BitVec 32 := 1#32
  let v78 : BitVec 32 := Scalar.addi v77 c1_i32_71
  let c2_i32_97 : BitVec 32 := 2#32
  let v103 : BitVec 32 := Scalar.addi v78 c2_i32_97
  let c0_i32_102 : BitVec 32 := 0#32
  ![v103.toNat, 0]
def k0_off62 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_26 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x1x32x17_S32768x17 : S1024x1x32x17.ShapeCasts S32768x17
  slices_S32768x17_S32768x1_0_0 : S32768x17.Slices ![0, 0] S32768x1
  shapeCasts_S32768x1_S32768 : S32768x1.ShapeCasts S32768
  shapeCasts_S32768_S256x128 : S32768.ShapeCasts S256x128
  slices_S32768x17_S32768x16_0_1 : S32768x17.Slices ![0, 1] S32768x16
  shapeCasts_S32768x16_S4096x128 : S32768x16.ShapeCasts S4096x128
  inb_S2x128x128_S1x128x128_0_0_0 : ∀ a, (![0, 0, 0] : Fin 3 → Nat) a + S1x128x128.size a ≤ S2x128x128.size a
  squeezes_S1x128x128_S128x128 : S1x128x128.Squeezes S128x128
  inb_S128x128_S1x128_0_0 : ∀ a, (![0, 0] : Fin 2 → Nat) a + S1x128.size a ≤ S128x128.size a
  squeezes_S1x128_S128 : S1x128.Squeezes S128
  inb_S100001x128_S100001x128_0_0 : ∀ a, (![0, 0] : Fin 2 → Nat) a + S100001x128.size a ≤ S100001x128.size a
  inb_S2_S1_0 : ∀ a, (![0] : Fin 1 → Nat) a + S1.size a ≤ S2.size a
  squeezes_S1_S_ : S1.Squeezes S_
  gathers_S100001x128_S128x128 : S100001x128.Gathers 0 S128x128
  inb_S2x128x128_S1x128x128_1_0_0 : ∀ a, (![1, 0, 0] : Fin 3 → Nat) a + S1x128x128.size a ≤ S2x128x128.size a
  inb_S128x128_S1x128_1_0 : ∀ a, (![1, 0] : Fin 2 → Nat) a + S1x128.size a ≤ S128x128.size a
  inb_S2_S1_1 : ∀ a, (![1] : Fin 1 → Nat) a + S1.size a ≤ S2.size a
  inb_S8x128_S1x128_0_0 : ∀ a, (![0, 0] : Fin 2 → Nat) a + S1x128.size a ≤ S8x128.size a
  inb_S2x8x128_S1x8x128_0_0_0 : ∀ a, (![0, 0, 0] : Fin 3 → Nat) a + S1x8x128.size a ≤ S2x8x128.size a
  squeezes_S1x8x128_S8x128 : S1x8x128.Squeezes S8x128
  h_S1x1x16 : 0 < S1x1x16.numel
  shapeCasts_S1x1x16_S16 : S1x1x16.ShapeCasts S16
  shapeCasts_S16_S1x1x16 : S16.ShapeCasts S1x1x16
  inb_S2x8x128_S1x8x128_1_0_0 : ∀ a, (![1, 0, 0] : Fin 3 → Nat) a + S1x8x128.size a ≤ S2x8x128.size a
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S32768x128_S1024x1x32x128 : S32768x128.ShapeCasts S1024x1x32x128
  dot_S4096x128_S128x128_S4096x128_1_0_0_1_n_n_wf : DotDims.WF S4096x128 S128x128 S4096x128 [1] [0] [0] [1] [] []
  hcc0_scratch5 : 0 + S2.numel ≤ 18
  hcc0_scratch6 : 2 + S2.numel ≤ 18
  hcc0_scratch7 : 4 + S_.numel ≤ 18
  hcc0_scratch8 : 5 + S_.numel ≤ 18
  hcc0_scoped0 : 6 + S_.numel ≤ 18
  hcc0_scoped1 : 7 + S_.numel ≤ 18
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128x128.size a ≤ S4096x128.size a
  k0_off2_inb : ∀ i : grid0.Coords, ∀ a, (k0_off2 i) a + S8x128.size a ≤ S256x128.size a
  k0_t1_ok : k0_t1_loop.OK
  k0_off3_inb : ∀ k0_t1 : Fin k0_t1_loop.trips, ∀ (k0_h1 : k0_cond1 k0_t1 = 1#1), ∀ a, (k0_off3 k0_t1) a + S1x128.size a ≤ S8x128.size a
  k0_off4_inb : ∀ (i : grid0.Coords) (k0_t1 : Fin k0_t1_loop.trips), ∀ (k0_h1 : k0_cond1 k0_t1 = 1#1), ∀ a, (k0_off4 i k0_t1) a + S128x128.size a ≤ S32768x128.size a
  k0_off5_inb : ∀ k0_t1 : Fin k0_t1_loop.trips, ∀ (k0_h1 : k0_cond1 k0_t1 = 1#1), ∀ (k0_h2 : k0_cond2 k0_t1 = 1#1), ∀ a, (k0_off5 k0_t1) a + S1x128.size a ≤ S8x128.size a
  k0_off6_inb : ∀ k0_t1 : Fin k0_t1_loop.trips, ∀ a, (k0_off6 k0_t1) a + S1x128.size a ≤ S128x128.size a
  k0_off7_inb : ∀ (i : grid0.Coords) (k0_t1 : Fin k0_t1_loop.trips), ∀ (k0_h3 : k0_cond3 k0_t1 = 1#1), ∀ a, (k0_off7 i) a + S8x128.size a ≤ S32768x128.size a
  k0_t2_ok : k0_t2_loop.OK
  k0_off8_inb : ∀ k0_t2 : Fin k0_t2_loop.trips, ∀ a, (k0_off8 k0_t2) a + S1x1x16.size a ≤ S2x128x128.size a
  k0_off9_inb : ∀ k0_t2 : Fin k0_t2_loop.trips, ∀ (r : Fin 15), ∀ a, (k0_off9 k0_t2 (BitVec.ofNat 32 (1 + r.val))) a + S1x1x16.size a ≤ S2x128x128.size a
  k0_off10_inb : ∀ k0_t2 : Fin k0_t2_loop.trips, ∀ a, (k0_off10 k0_t2) a + S1x1x16.size a ≤ S2x8x128.size a
  k0_off11_inb : ∀ k0_t2 : Fin k0_t2_loop.trips, ∀ a, (k0_off11 k0_t2) a + S1x1x16.size a ≤ S2x128x128.size a
  k0_off12_inb : ∀ k0_t2 : Fin k0_t2_loop.trips, ∀ (r : Fin 15), ∀ a, (k0_off12 k0_t2 (BitVec.ofNat 32 (1 + r.val))) a + S1x1x16.size a ≤ S2x128x128.size a
  k0_off13_inb : ∀ k0_t2 : Fin k0_t2_loop.trips, ∀ a, (k0_off13 k0_t2) a + S1x1x16.size a ≤ S2x8x128.size a
  k0_off14_inb : ∀ k0_t2 : Fin k0_t2_loop.trips, ∀ a, (k0_off14 k0_t2) a + S1x1x16.size a ≤ S2x128x128.size a
  k0_off15_inb : ∀ k0_t2 : Fin k0_t2_loop.trips, ∀ (r : Fin 15), ∀ a, (k0_off15 k0_t2 (BitVec.ofNat 32 (1 + r.val))) a + S1x1x16.size a ≤ S2x128x128.size a
  k0_off16_inb : ∀ k0_t2 : Fin k0_t2_loop.trips, ∀ a, (k0_off16 k0_t2) a + S1x1x16.size a ≤ S2x8x128.size a
  k0_off17_inb : ∀ k0_t2 : Fin k0_t2_loop.trips, ∀ a, (k0_off17 k0_t2) a + S1x1x16.size a ≤ S2x128x128.size a
  k0_off18_inb : ∀ k0_t2 : Fin k0_t2_loop.trips, ∀ (r : Fin 15), ∀ a, (k0_off18 k0_t2 (BitVec.ofNat 32 (1 + r.val))) a + S1x1x16.size a ≤ S2x128x128.size a
  k0_off19_inb : ∀ k0_t2 : Fin k0_t2_loop.trips, ∀ a, (k0_off19 k0_t2) a + S1x1x16.size a ≤ S2x8x128.size a
  k0_off20_inb : ∀ k0_t2 : Fin k0_t2_loop.trips, ∀ a, (k0_off20 k0_t2) a + S1x1x16.size a ≤ S2x128x128.size a
  k0_off21_inb : ∀ k0_t2 : Fin k0_t2_loop.trips, ∀ (r : Fin 15), ∀ a, (k0_off21 k0_t2 (BitVec.ofNat 32 (1 + r.val))) a + S1x1x16.size a ≤ S2x128x128.size a
  k0_off22_inb : ∀ k0_t2 : Fin k0_t2_loop.trips, ∀ a, (k0_off22 k0_t2) a + S1x1x16.size a ≤ S2x8x128.size a
  k0_off23_inb : ∀ k0_t2 : Fin k0_t2_loop.trips, ∀ a, (k0_off23 k0_t2) a + S1x1x16.size a ≤ S2x128x128.size a
  k0_off24_inb : ∀ k0_t2 : Fin k0_t2_loop.trips, ∀ (r : Fin 15), ∀ a, (k0_off24 k0_t2 (BitVec.ofNat 32 (1 + r.val))) a + S1x1x16.size a ≤ S2x128x128.size a
  k0_off25_inb : ∀ k0_t2 : Fin k0_t2_loop.trips, ∀ a, (k0_off25 k0_t2) a + S1x1x16.size a ≤ S2x8x128.size a
  k0_off26_inb : ∀ k0_t2 : Fin k0_t2_loop.trips, ∀ a, (k0_off26 k0_t2) a + S1x1x16.size a ≤ S2x128x128.size a
  k0_off27_inb : ∀ k0_t2 : Fin k0_t2_loop.trips, ∀ (r : Fin 15), ∀ a, (k0_off27 k0_t2 (BitVec.ofNat 32 (1 + r.val))) a + S1x1x16.size a ≤ S2x128x128.size a
  k0_off28_inb : ∀ k0_t2 : Fin k0_t2_loop.trips, ∀ a, (k0_off28 k0_t2) a + S1x1x16.size a ≤ S2x8x128.size a
  k0_off29_inb : ∀ k0_t2 : Fin k0_t2_loop.trips, ∀ a, (k0_off29 k0_t2) a + S1x1x16.size a ≤ S2x128x128.size a
  k0_off30_inb : ∀ k0_t2 : Fin k0_t2_loop.trips, ∀ (r : Fin 15), ∀ a, (k0_off30 k0_t2 (BitVec.ofNat 32 (1 + r.val))) a + S1x1x16.size a ≤ S2x128x128.size a
  k0_off31_inb : ∀ k0_t2 : Fin k0_t2_loop.trips, ∀ a, (k0_off31 k0_t2) a + S1x1x16.size a ≤ S2x8x128.size a
  k0_off32_inb : ∀ (i : grid0.Coords) (k0_t1 : Fin k0_t1_loop.trips), ∀ a, (k0_off32 i k0_t1) a + S8x128.size a ≤ S32768x128.size a
  k0_off33_inb : ∀ k0_t1 : Fin k0_t1_loop.trips, ∀ (k0_h4 : k0_cond4 k0_t1 = 1#1), ∀ a, (k0_off33 k0_t1) a + S1x128.size a ≤ S128x128.size a
  k0_off34_inb : ∀ k0_t1 : Fin k0_t1_loop.trips, ∀ a, (k0_off34 k0_t1) a + S1x128.size a ≤ S128x128.size a
  k0_off35_inb : ∀ (i : grid0.Coords) (k0_t1 : Fin k0_t1_loop.trips), ∀ (k0_h5 : k0_cond5 k0_t1 = 1#1), ∀ a, (k0_off35 i) a + S8x128.size a ≤ S32768x128.size a
  k0_t3_ok : k0_t3_loop.OK
  k0_off36_inb : ∀ k0_t3 : Fin k0_t3_loop.trips, ∀ a, (k0_off36 k0_t3) a + S1x1x16.size a ≤ S2x128x128.size a
  k0_off37_inb : ∀ k0_t3 : Fin k0_t3_loop.trips, ∀ (r : Fin 15), ∀ a, (k0_off37 k0_t3 (BitVec.ofNat 32 (1 + r.val))) a + S1x1x16.size a ≤ S2x128x128.size a
  k0_off38_inb : ∀ k0_t3 : Fin k0_t3_loop.trips, ∀ a, (k0_off38 k0_t3) a + S1x1x16.size a ≤ S2x8x128.size a
  k0_off39_inb : ∀ k0_t3 : Fin k0_t3_loop.trips, ∀ a, (k0_off39 k0_t3) a + S1x1x16.size a ≤ S2x128x128.size a
  k0_off40_inb : ∀ k0_t3 : Fin k0_t3_loop.trips, ∀ (r : Fin 15), ∀ a, (k0_off40 k0_t3 (BitVec.ofNat 32 (1 + r.val))) a + S1x1x16.size a ≤ S2x128x128.size a
  k0_off41_inb : ∀ k0_t3 : Fin k0_t3_loop.trips, ∀ a, (k0_off41 k0_t3) a + S1x1x16.size a ≤ S2x8x128.size a
  k0_off42_inb : ∀ k0_t3 : Fin k0_t3_loop.trips, ∀ a, (k0_off42 k0_t3) a + S1x1x16.size a ≤ S2x128x128.size a
  k0_off43_inb : ∀ k0_t3 : Fin k0_t3_loop.trips, ∀ (r : Fin 15), ∀ a, (k0_off43 k0_t3 (BitVec.ofNat 32 (1 + r.val))) a + S1x1x16.size a ≤ S2x128x128.size a
  k0_off44_inb : ∀ k0_t3 : Fin k0_t3_loop.trips, ∀ a, (k0_off44 k0_t3) a + S1x1x16.size a ≤ S2x8x128.size a
  k0_off45_inb : ∀ k0_t3 : Fin k0_t3_loop.trips, ∀ a, (k0_off45 k0_t3) a + S1x1x16.size a ≤ S2x128x128.size a
  k0_off46_inb : ∀ k0_t3 : Fin k0_t3_loop.trips, ∀ (r : Fin 15), ∀ a, (k0_off46 k0_t3 (BitVec.ofNat 32 (1 + r.val))) a + S1x1x16.size a ≤ S2x128x128.size a
  k0_off47_inb : ∀ k0_t3 : Fin k0_t3_loop.trips, ∀ a, (k0_off47 k0_t3) a + S1x1x16.size a ≤ S2x8x128.size a
  k0_off48_inb : ∀ k0_t3 : Fin k0_t3_loop.trips, ∀ a, (k0_off48 k0_t3) a + S1x1x16.size a ≤ S2x128x128.size a
  k0_off49_inb : ∀ k0_t3 : Fin k0_t3_loop.trips, ∀ (r : Fin 15), ∀ a, (k0_off49 k0_t3 (BitVec.ofNat 32 (1 + r.val))) a + S1x1x16.size a ≤ S2x128x128.size a
  k0_off50_inb : ∀ k0_t3 : Fin k0_t3_loop.trips, ∀ a, (k0_off50 k0_t3) a + S1x1x16.size a ≤ S2x8x128.size a
  k0_off51_inb : ∀ k0_t3 : Fin k0_t3_loop.trips, ∀ a, (k0_off51 k0_t3) a + S1x1x16.size a ≤ S2x128x128.size a
  k0_off52_inb : ∀ k0_t3 : Fin k0_t3_loop.trips, ∀ (r : Fin 15), ∀ a, (k0_off52 k0_t3 (BitVec.ofNat 32 (1 + r.val))) a + S1x1x16.size a ≤ S2x128x128.size a
  k0_off53_inb : ∀ k0_t3 : Fin k0_t3_loop.trips, ∀ a, (k0_off53 k0_t3) a + S1x1x16.size a ≤ S2x8x128.size a
  k0_off54_inb : ∀ k0_t3 : Fin k0_t3_loop.trips, ∀ a, (k0_off54 k0_t3) a + S1x1x16.size a ≤ S2x128x128.size a
  k0_off55_inb : ∀ k0_t3 : Fin k0_t3_loop.trips, ∀ (r : Fin 15), ∀ a, (k0_off55 k0_t3 (BitVec.ofNat 32 (1 + r.val))) a + S1x1x16.size a ≤ S2x128x128.size a
  k0_off56_inb : ∀ k0_t3 : Fin k0_t3_loop.trips, ∀ a, (k0_off56 k0_t3) a + S1x1x16.size a ≤ S2x8x128.size a
  k0_off57_inb : ∀ k0_t3 : Fin k0_t3_loop.trips, ∀ a, (k0_off57 k0_t3) a + S1x1x16.size a ≤ S2x128x128.size a
  k0_off58_inb : ∀ k0_t3 : Fin k0_t3_loop.trips, ∀ (r : Fin 15), ∀ a, (k0_off58 k0_t3 (BitVec.ofNat 32 (1 + r.val))) a + S1x1x16.size a ≤ S2x128x128.size a
  k0_off59_inb : ∀ k0_t3 : Fin k0_t3_loop.trips, ∀ a, (k0_off59 k0_t3) a + S1x1x16.size a ≤ S2x8x128.size a
  k0_off60_inb : ∀ (i : grid0.Coords) (k0_t1 : Fin k0_t1_loop.trips), ∀ a, (k0_off60 i k0_t1) a + S8x128.size a ≤ S32768x128.size a
  k0_off61_inb : ∀ k0_t1 : Fin k0_t1_loop.trips, ∀ (k0_h6 : k0_cond6 k0_t1 = 1#1), ∀ a, (k0_off61 k0_t1) a + S1x128.size a ≤ S128x128.size a
  k0_off62_inb : ∀ i : grid0.Coords, ∀ a, (k0_off62 i) a + S8x128.size a ≤ S32768x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S32768x128.size a
  hwx1_0 : ∀ i : grid1.Coords, EltTy.bits .f32 = 32 ∨ (Rect.block (s := S32768x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S32768x128.size a
  hwx1_1 : ∀ i : grid1.Coords, EltTy.bits .f32 = 32 ∨ (Rect.block (s := S32768x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x128.size a ≤ S32768x128.size a
  hwx1_6 : ∀ i : grid1.Coords, EltTy.bits .f32 = 32 ∨ (Rect.block (s := S32768x128) S4096x128.size (cc1_transform_6 i) (hinb1_6 i)).WholeWords (EltTy.packing .f32)

variable [Facts₀]

abbrev cc0_scratch5 : DmaSems sig S2 := SemArray.consecutive 0 S2 hcc0_scratch5
abbrev cc0_scratch6 : DmaSems sig S2 := SemArray.consecutive 2 S2 hcc0_scratch6
abbrev cc0_scratch7 : DmaSems sig S_ := SemArray.consecutive 4 S_ hcc0_scratch7
abbrev cc0_scratch8 : DmaSems sig S_ := SemArray.consecutive 5 S_ hcc0_scratch8
abbrev cc0_scoped0 : DmaSems sig S_ := SemArray.consecutive 6 S_ hcc0_scoped0
abbrev cc0_scoped1 : DmaSems sig S_ := SemArray.consecutive 7 S_ hcc0_scoped1
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win1_0 : Pipeline.Window sig grid1 :=
  Pipeline.Window.ofSpec (Memref.whole main_v6_0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S4096x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1024x1x32x17 : Shape := ⟨4, ![1024, 1, 32, 17]⟩
abbrev S100001x128 : Shape := ⟨2, ![100001, 128]⟩
abbrev S128x128 : Shape := ⟨2, ![128, 128]⟩
abbrev S557056 : Shape := ⟨1, ![557056]⟩
abbrev S_ : Shape := ⟨0, ![]⟩
abbrev S557056x1 : Shape := ⟨2, ![557056, 1]⟩
abbrev S1 : Shape := ⟨1, ![1]⟩
abbrev S1x1 : Shape := ⟨2, ![1, 1]⟩
abbrev S557056x128 : Shape := ⟨2, ![557056, 128]⟩
abbrev S1024x1x32x17x128 : Shape := ⟨5, ![1024, 1, 32, 17, 128]⟩
abbrev S1024x1x32x1x128 : Shape := ⟨5, ![1024, 1, 32, 1, 128]⟩
abbrev S1024x1x32x128 : Shape := ⟨4, ![1024, 1, 32, 128]⟩
abbrev S1024x1x32x16x128 : Shape := ⟨5, ![1024, 1, 32, 16, 128]⟩

abbrev nBuf : Space → Nat
  | .hbm => 59
  | .vmem => 0
  | .smem => 0
  | _ => 0

abbrev bufTy : (tb : Table) → Fin (tcTables nBuf tb) → BufTy
  | .hbm, ⟨0, _⟩ => ⟨S1024x1x32x17, .i32⟩
  | .hbm, ⟨1, _⟩ => ⟨S100001x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S557056, .i32⟩
  | .hbm, ⟨7, _⟩ => ⟨S_, .i32⟩
  | .hbm, ⟨8, _⟩ => ⟨S557056, .i32⟩
  | .hbm, ⟨9, _⟩ => ⟨S557056, .i1⟩
  | .hbm, ⟨10, _⟩ => ⟨S_, .i32⟩
  | .hbm, ⟨11, _⟩ => ⟨S557056, .i32⟩
  | .hbm, ⟨12, _⟩ => ⟨S557056, .i32⟩
  | .hbm, ⟨13, _⟩ => ⟨S557056, .i32⟩
  | .hbm, ⟨14, _⟩ => ⟨S557056x1, .i32⟩
  | .hbm, ⟨15, _⟩ => ⟨S1, .i32⟩
  | .hbm, ⟨16, _⟩ => ⟨S_, .i32⟩
  | .hbm, ⟨17, _⟩ => ⟨S557056x1, .i32⟩
  | .hbm, ⟨18, _⟩ => ⟨S557056x1, .i1⟩
  | .hbm, ⟨19, _⟩ => ⟨S1x1, .i32⟩
  | .hbm, ⟨20, _⟩ => ⟨S557056x1, .i32⟩
  | .hbm, ⟨21, _⟩ => ⟨S557056x1, .i1⟩
  | .hbm, ⟨22, _⟩ => ⟨S557056x1, .i1⟩
  | .hbm, ⟨23, _⟩ => ⟨S_, .i1⟩
  | .hbm, ⟨24, _⟩ => ⟨S557056, .i1⟩
  | .hbm, ⟨25, _⟩ => ⟨S557056x128, .f32⟩
  | .hbm, ⟨26, _⟩ => ⟨S557056x128, .i1⟩
  | .hbm, ⟨27, _⟩ => ⟨S_, .f32⟩
  | .hbm, ⟨28, _⟩ => ⟨S557056x128, .f32⟩
  | .hbm, ⟨29, _⟩ => ⟨S557056x128, .f32⟩
  | .hbm, ⟨30, _⟩ => ⟨S1024x1x32x17x128, .f32⟩
  | .hbm, ⟨31, _⟩ => ⟨S1024x1x32x1x128, .f32⟩
  | .hbm, ⟨32, _⟩ => ⟨S1024x1x32x128, .f32⟩
  | .hbm, ⟨33, _⟩ => ⟨S1024x1x32x16x128, .f32⟩
  | .hbm, ⟨34, _⟩ => ⟨S_, .f32⟩
  | .hbm, ⟨35, _⟩ => ⟨S1024x1x32x128, .f32⟩
  | .hbm, ⟨36, _⟩ => ⟨S_, .f32⟩
  | .hbm, ⟨37, _⟩ => ⟨S1024x1x32x128, .f32⟩
  | .hbm, ⟨38, _⟩ => ⟨S1024x1x32x128, .f32⟩
  | .hbm, ⟨39, _⟩ => ⟨S1024x1x32x128, .f32⟩
  | .hbm, ⟨40, _⟩ => ⟨S1024x1x32x128, .f32⟩
  | .hbm, ⟨41, _⟩ => ⟨S1024x1x32x128, .f32⟩
  | .hbm, ⟨42, _⟩ => ⟨S_, .f32⟩
  | .hbm, ⟨43, _⟩ => ⟨S1024x1x32x128, .f32⟩
  | .hbm, ⟨44, _⟩ => ⟨S1024x1x32x128, .f32⟩
  | .hbm, ⟨45, _⟩ => ⟨S_, .f32⟩
  | .hbm, ⟨46, _⟩ => ⟨S1024x1x32x128, .f32⟩
  | .hbm, ⟨47, _⟩ => ⟨S1024x1x32x128, .f32⟩
  | .hbm, ⟨48, _⟩ => ⟨S_, .f32⟩
  | .hbm, ⟨49, _⟩ => ⟨S1024x1x32x128, .f32⟩
  | .hbm, ⟨50, _⟩ => ⟨S_, .f32⟩
  | .hbm, ⟨51, _⟩ => ⟨S1024x1x32x128, .f32⟩
  | .hbm, ⟨52, _⟩ => ⟨S1024x1x32x128, .f32⟩
  | .hbm, ⟨53, _⟩ => ⟨S1024x1x32x128, .f32⟩
  | .hbm, ⟨54, _⟩ => ⟨S1024x1x32x128, .f32⟩
  | .hbm, ⟨55, _⟩ => ⟨S1024x1x32x128, .f32⟩
  | .hbm, ⟨56, _⟩ => ⟨S_, .f32⟩
  | .hbm, ⟨57, _⟩ => ⟨S1024x1x32x128, .f32⟩
  | .hbm, ⟨58, _⟩ => ⟨S1024x1x32x128, .f32⟩
  | _, _ => ⟨S1024x1x32x17, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_cst_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_call1_cst : Ref sig .tc := ⟨.hbm, 42, rfl⟩
abbrev main_call1_v0 : Ref sig .tc := ⟨.hbm, 43, rfl⟩
abbrev main_v12 : Ref sig .tc := ⟨.hbm, 44, rfl⟩
abbrev main_call2_cst : Ref sig .tc := ⟨.hbm, 45, rfl⟩
abbrev main_call2_v0 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_cst_2 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_call3_cst : Ref sig .tc := ⟨.hbm, 56, rfl⟩
abbrev main_call3_v0 : Ref sig .tc := ⟨.hbm, 57, rfl⟩
abbrev main_v20 : Ref sig .tc := ⟨.hbm, 58, rfl⟩

abbrev nD : Nat := 1
abbrev τ : Topo := Topo.v7x

variable {F : FTy → Type} [FloatOps F]

class Facts₀ : Prop where
  shapeCasts_S1024x1x32x17_S557056 : S1024x1x32x17.ShapeCasts S557056
  bcast_S_S557056 : S_.BroadcastsInDim S557056 (![] : Fin 0 → Fin S557056.rank)
  bcast_S557056_S557056x1_0 : S557056.BroadcastsInDim S557056x1 (![0] : Fin 1 → Fin S557056x1.rank)
  bcast_S_S557056x1 : S_.BroadcastsInDim S557056x1 (![] : Fin 0 → Fin S557056x1.rank)
  bcast_S1_S1x1_1 : S1.BroadcastsInDim S1x1 (![1] : Fin 1 → Fin S1x1.rank)
  bcast_S1x1_S557056x1_0_1 : S1x1.BroadcastsInDim S557056x1 (![0, 1] : Fin 2 → Fin S557056x1.rank)
  reducesTo_S557056x1_S557056_d1 : S557056x1.ReducesTo [1] S557056
  h_S_ : 0 < S_.numel
  bcast_S557056_S557056x128_0 : S557056.BroadcastsInDim S557056x128 (![0] : Fin 1 → Fin S557056x128.rank)
  bcast_S_S557056x128 : S_.BroadcastsInDim S557056x128 (![] : Fin 0 → Fin S557056x128.rank)
  shapeCasts_S557056x128_S1024x1x32x17x128 : S557056x128.ShapeCasts S1024x1x32x17x128
  slices_S1024x1x32x17x128_S1024x1x32x1x128_0_0_0_0_0 : S1024x1x32x17x128.Slices ![0, 0, 0, 0, 0] S1024x1x32x1x128
  shapeCasts_S1024x1x32x1x128_S1024x1x32x128 : S1024x1x32x1x128.ShapeCasts S1024x1x32x128
  slices_S1024x1x32x17x128_S1024x1x32x16x128_0_0_0_1_0 : S1024x1x32x17x128.Slices ![0, 0, 0, 1, 0] S1024x1x32x16x128
  reducesTo_S1024x1x32x16x128_S1024x1x32x128_d3 : S1024x1x32x16x128.ReducesTo [3] S1024x1x32x128
  bcast_S_S1024x1x32x128 : S_.BroadcastsInDim S1024x1x32x128 (![] : Fin 0 → Fin S1024x1x32x128.rank)
  gather_S100001x128_S557056x1_S557056x128_1_0_n_n_0_1_1128_wf : GatherDims.WF S100001x128 S557056x1 S557056x128 [1] [0] [] [0] [] 1 ![1, 128]
  dot_S1024x1x32x128_S128x128_S1024x1x32x128_3_0_012_1_n_n_wf : DotDims.WF S1024x1x32x128 S128x128 S1024x1x32x128 [3] [0] [0, 1, 2] [1] [] []

variable [Facts₀]

def gather_S100001x128_S557056x1_S557056x128_1_0_n_n_0_1_1128 : GatherDims S100001x128 S557056x1 S557056x128 where
  offsetDims := [1]
  collapsedSliceDims := [0]
  operandBatchingDims := []
  startIndicesBatchingDims := []
  startIndexMap := [0]
  indexVectorDim := 1
  sliceSizes := ![1, 128]
  wf := gather_S100001x128_S557056x1_S557056x128_1_0_n_n_0_1_1128_wf
def dot_S1024x1x32x128_S128x128_S1024x1x32x128_3_0_012_1_n_n : DotDims S1024x1x32x128 S128x128 S1024x1x32x128 where
  lhsContracting := [3]
  rhsContracting := [0]
  lhsNonContracting := [0, 1, 2]
  rhsNonContracting := [1]
  lhsBatch := []
  rhsBatch := []
  wf := dot_S1024x1x32x128_S128x128_S1024x1x32x128_3_0_012_1_n_n_wf

class Facts : Prop extends Facts₀ where

variable [Facts]
-- ==== Proof.RefTerm.lean ====
/-
  The reference's result as a term of its six arguments, built stage by stage at the ideal instance: the adjacency
  array flattened, the row lookup (negative indices wrapped, the rows gathered, rows of an out-of-range index filled),
  the rows arranged by batch position and slot, the node's own row and its sixteen neighbours' rows, the neighbours'
  mean, and the two dense layers with their rectifiers. Each definition is one or two operations of the program,
  spelled as the program spells them.
-/
import proofs.«208587_g27212912787602_cont_9to1_1073_18_alg».proof.Proof.Gen.ReferenceIdeal
import Idealize.ShloMosaic.PureOps.Ideal

noncomputable section

namespace Cert.RefSide

open Cert.ReferenceIdeal Cert.ReferenceIdeal.Gen Idealize.ShloMosaic

section Term

variable (a0 : IVec S1024x1x32x17 32) (a1 : FVec Ideal S100001x128 .f32) (a2 a3 a4 a5 : FVec Ideal S128x128 .f32)
variable (t : FVec Ideal S557056x128 .f32) (n : FVec Ideal S1024x1x32x16x128 .f32) (x : FVec Ideal S1024x1x32x128 .f32)
variable (w : FVec Ideal S128x128 .f32)

/-- The adjacency array as one vector of 557056 index words. -/
def flat : IVec S557056 32 := shapeCast S557056 a0 shapeCasts_S1024x1x32x17_S557056

/-- A negative index word counted from the table's end (100001 added), any other left as it is. -/
def wrapped : IVec S557056 32 :=
  select (cmpi .slt (flat a0) (broadcastInDim S557056 ![] bcast_S_S557056 (constantI S_ 32 0#32)))
    (addi (flat a0) (broadcastInDim S557056 ![] bcast_S_S557056 (constantI S_ 32 100001#32))) (flat a0)

/-- The index words as a column. -/
def idxCol : IVec S557056x1 32 := broadcastInDim S557056x1 ![0] bcast_S557056_S557056x1_0 (wrapped a0)

/-- Entry by entry: the index word lies in [0, 100000] as a signed integer. -/
def inRange : IVec S557056x1 1 :=
  andi (cmpi .sge (idxCol a0) (broadcastInDim S557056x1 ![] bcast_S_S557056x1 (constantI S_ 32 0#32)))
    (cmpi .sle (idxCol a0) (broadcastInDim S557056x1 ![0, 1] bcast_S1x1_S557056x1_0_1
      (broadcastInDim S1x1 ![1] bcast_S1_S1x1_1 (constantI S1 32 100000#32))))

/-- Row by row: every component of the row's start index is in range. -/
def mask : IVec S557056 1 :=
  Host.reduce IntOp.andi (inRange a0) (constantI S_ 1 1#1) reducesTo_S557056x1_S557056_d1 h_S_

/-- The gathered table rows (start indices clamped into the table). -/
def rows : FVec Ideal S557056x128 .f32 := Host.gather gather_S100001x128_S557056x1_S557056x128_1_0_n_n_0_1_1128 a1 (idxCol a0)

/-- The lookup's result: the gathered row where the index was in range, the fill value elsewhere. -/
def taken : FVec Ideal S557056x128 .f32 :=
  select (broadcastInDim S557056x128 ![0] bcast_S557056_S557056x128_0 (mask a0)) (rows a0 a1)
    (broadcastInDim S557056x128 ![] bcast_S_S557056x128 (constant S_ .f32 0x7FC00000#32))

/-- Looked-up rows arranged by batch position and neighbour slot. -/
def cube : FVec Ideal S1024x1x32x17x128 .f32 :=
  shapeCast S1024x1x32x17x128 t shapeCasts_S557056x128_S1024x1x32x17x128

/-- Slot 0: each node's own row. -/
def own : FVec Ideal S1024x1x32x128 .f32 :=
  shapeCast S1024x1x32x128
    (extractStridedSlice S1024x1x32x1x128 ![0, 0, 0, 0, 0] (cube t) slices_S1024x1x32x17x128_S1024x1x32x1x128_0_0_0_0_0)
    shapeCasts_S1024x1x32x1x128_S1024x1x32x128

/-- Slots 1 to 16: the neighbours' rows. -/
def neigh : FVec Ideal S1024x1x32x16x128 .f32 :=
  extractStridedSlice S1024x1x32x16x128 ![0, 0, 0, 1, 0] (cube t) slices_S1024x1x32x17x128_S1024x1x32x16x128_0_0_0_1_0

/-- The neighbours' mean: their sum from 0, divided by 16. -/
def mean : FVec Ideal S1024x1x32x128 .f32 :=
  Host.divf (Host.reduceAdd n (constant S_ .f32 0x00000000#32) reducesTo_S1024x1x32x16x128_S1024x1x32x128_d3 h_S_)
    (broadcastInDim S1024x1x32x128 ![] bcast_S_S1024x1x32x128 (constant S_ .f32 0x41800000#32))

/-- The zero array a rectifier compares with. -/
def zeros : FVec Ideal S1024x1x32x128 .f32 :=
  broadcastInDim S1024x1x32x128 ![] bcast_S_S1024x1x32x128 (constant S_ .f32 0x00000000#32)

/-- A product with a 128 x 128 matrix along the last axis. -/
def mm : FVec Ideal S1024x1x32x128 .f32 := Host.dotGeneral dot_S1024x1x32x128_S128x128_S1024x1x32x128_3_0_012_1_n_n none x w

/-- The first layer, rectified twice, from the looked-up rows. -/
def hid : FVec Ideal S1024x1x32x128 .f32 :=
  maximumf (maximumf (addf (mm (own t) a3) (mm (mean (neigh t)) a2)) zeros) zeros

/-- The second layer, rectified, from the first layer's result and the neighbours' rows. -/
def out2 : FVec Ideal S1024x1x32x128 .f32 := maximumf (addf (mm x a5) (mm (mean n) a4)) zeros

/-- The reference's result as a term of its six arguments. -/
def refOut : FVec Ideal S1024x1x32x128 .f32 :=
  out2 a4 a5 (neigh (taken a0 a1)) (hid a2 a3 (taken a0 a1))

end Term

end Cert.RefSide

end
-- ==== Proof.RefRun.lean ====
/-
  The reference program's run, read back. Its @main is a straight line of host operations once its three local
  functions (the row lookup, the select it calls, the rectifier) are unfolded at their calls: 53 operations, listed
  here in order, each callee's operations over the buffers of its call. From any memory, every weakly fair execution
  runs them to the end; the result buffer then holds the operations' composed term of the six arguments' launch
  contents (`refOut`, the term the module imported last builds stage by stage), and the arguments are unchanged.
  The fold is computed in three stretches (the lookup, the first layer, the second layer) and the stretches composed.
-/
import proofs.«208587_g27212912787602_cont_9to1_1073_18_alg».proof.Proof.Gen.ReferenceIdeal
import Idealize.ShloMosaic.Lib.StableHlo.Run
import proofs.«208587_g27212912787602_cont_9to1_1073_18_alg».proof.Proof.RefTerm

-- one declaration at a time: the folds below are long terms
set_option Elab.async false

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's 53 operations in order, the calls unfolded: the reshape of the adjacency array; the lookup's 23 (the
    select of its inner call among them) over the buffers of its call; the two reshapes and two slices; the mean,
    the two products and their sum; two rectifiers of three operations each; the mean again, two products, their sum;
    the last rectifier. -/
abbrev ops : List (HloOp τ sig (Elt F)) :=
  [ reshape main_arg0 main_v0 rfl shapeCasts_S1024x1x32x17_S557056,
    TRef.nullary main_call0.c (constantI S_ 32 0#32),
    TRef.unary main_call0.c main_call0.v0 (broadcastInDim S557056 ![] bcast_S_S557056),
    TRef.binary (.of main_v0 : TRef sig ⟨S557056, .i32⟩) main_call0.v0 main_call0.v1 (cmpi .slt),
    TRef.nullary main_call0.c_0 (constantI S_ 32 100001#32),
    TRef.unary main_call0.c_0 main_call0.v2 (broadcastInDim S557056 ![] bcast_S_S557056),
    TRef.binary (.of main_v0 : TRef sig ⟨S557056, .i32⟩) main_call0.v2 main_call0.v3 addi,
    TRef.ternary main_call0.v1 main_call0.v3 (.of main_v0 : TRef sig ⟨S557056, .i32⟩) main_call0.call0.v0 select,
    TRef.unary main_call0.call0.v0 main_call0.v5 (broadcastInDim S557056x1 ![0] bcast_S557056_S557056x1_0),
    TRef.nullary main_call0.c_1 (constantI S1 32 100000#32),
    TRef.nullary main_call0.c_2 (constantI S_ 32 0#32),
    TRef.unary main_call0.c_2 main_call0.v6 (broadcastInDim S557056x1 ![] bcast_S_S557056x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S557056x1 ![0, 1] bcast_S1x1_S557056x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S557056x1_S557056_d1 h_S_),
    TRef.binary (.of main_arg1 : TRef sig ⟨S100001x128, .f32⟩) main_call0.v5 main_call0.v13 (fun x i => Host.gather gather_S100001x128_S557056x1_S557056x128_1_0_n_n_0_1_1128 x i),
    TRef.unary main_call0.v12 main_call0.v14 (broadcastInDim S557056x128 ![0] bcast_S557056_S557056x128_0),
    TRef.nullary main_call0.cst (constant S_ .f32 0x7FC00000#32),
    TRef.unary main_call0.cst main_call0.v15 (broadcastInDim S557056x128 ![] bcast_S_S557056x128),
    TRef.ternary main_call0.v14 main_call0.v13 main_call0.v15 main_call0.v16 select,
    reshape main_v1 main_v2 rfl shapeCasts_S557056x128_S1024x1x32x17x128,
    unary main_v2 main_v3 ((extractStridedSlice S1024x1x32x1x128 ![0, 0, 0, 0, 0] · slices_S1024x1x32x17x128_S1024x1x32x1x128_0_0_0_0_0) : (⟨S1024x1x32x17x128, .f32⟩ : BufTy).Contents (Elt F) → (⟨S1024x1x32x1x128, .f32⟩ : BufTy).Contents (Elt F)),
    reshape main_v3 main_v4 rfl shapeCasts_S1024x1x32x1x128_S1024x1x32x128,
    unary main_v2 main_v5 ((extractStridedSlice S1024x1x32x16x128 ![0, 0, 0, 1, 0] · slices_S1024x1x32x17x128_S1024x1x32x16x128_0_0_0_1_0) : (⟨S1024x1x32x17x128, .f32⟩ : BufTy).Contents (Elt F) → (⟨S1024x1x32x16x128, .f32⟩ : BufTy).Contents (Elt F)),
    nullary main_cst (constant S_ .f32 0x00000000#32),
    binary main_v5 main_cst main_v6 ((fun x v => Host.reduceAdd x v reducesTo_S1024x1x32x16x128_S1024x1x32x128_d3 h_S_) : (⟨S1024x1x32x16x128, .f32⟩ : BufTy).Contents (Elt F) → (⟨S_, .f32⟩ : BufTy).Contents (Elt F) → (⟨S1024x1x32x128, .f32⟩ : BufTy).Contents (Elt F)),
    nullary main_cst_0 (constant S_ .f32 0x41800000#32),
    unary main_cst_0 main_v7 (broadcastInDim S1024x1x32x128 ![] bcast_S_S1024x1x32x128 : (⟨S_, .f32⟩ : BufTy).Contents (Elt F) → (⟨S1024x1x32x128, .f32⟩ : BufTy).Contents (Elt F)),
    binary main_v6 main_v7 main_v8 (Host.divf : (⟨S1024x1x32x128, .f32⟩ : BufTy).Contents (Elt F) → (⟨S1024x1x32x128, .f32⟩ : BufTy).Contents (Elt F) → (⟨S1024x1x32x128, .f32⟩ : BufTy).Contents (Elt F)),
    binary main_v8 main_arg2 main_v9 ((fun l r => Host.dotGeneral dot_S1024x1x32x128_S128x128_S1024x1x32x128_3_0_012_1_n_n none l r) : (⟨S1024x1x32x128, .f32⟩ : BufTy).Contents (Elt F) → (⟨S128x128, .f32⟩ : BufTy).Contents (Elt F) → (⟨S1024x1x32x128, .f32⟩ : BufTy).Contents (Elt F)),
    binary main_v4 main_arg3 main_v10 ((fun l r => Host.dotGeneral dot_S1024x1x32x128_S128x128_S1024x1x32x128_3_0_012_1_n_n none l r) : (⟨S1024x1x32x128, .f32⟩ : BufTy).Contents (Elt F) → (⟨S128x128, .f32⟩ : BufTy).Contents (Elt F) → (⟨S1024x1x32x128, .f32⟩ : BufTy).Contents (Elt F)),
    binary main_v10 main_v9 main_v11 (addf : (⟨S1024x1x32x128, .f32⟩ : BufTy).Contents (Elt F) → (⟨S1024x1x32x128, .f32⟩ : BufTy).Contents (Elt F) → (⟨S1024x1x32x128, .f32⟩ : BufTy).Contents (Elt F)),
    TRef.nullary main_call1.cst (constant S_ .f32 0x00000000#32),
    TRef.unary main_call1.cst main_call1.v0 (broadcastInDim S1024x1x32x128 ![] bcast_S_S1024x1x32x128),
    TRef.binary (.of main_v11 : TRef sig ⟨S1024x1x32x128, .f32⟩) main_call1.v0 main_call1.v1 maximumf,
    TRef.nullary main_call2.cst (constant S_ .f32 0x00000000#32),
    TRef.unary main_call2.cst main_call2.v0 (broadcastInDim S1024x1x32x128 ![] bcast_S_S1024x1x32x128),
    TRef.binary (.of main_v12 : TRef sig ⟨S1024x1x32x128, .f32⟩) main_call2.v0 main_call2.v1 maximumf,
    nullary main_cst_1 (constant S_ .f32 0x00000000#32),
    binary main_v5 main_cst_1 main_v14 ((fun x v => Host.reduceAdd x v reducesTo_S1024x1x32x16x128_S1024x1x32x128_d3 h_S_) : (⟨S1024x1x32x16x128, .f32⟩ : BufTy).Contents (Elt F) → (⟨S_, .f32⟩ : BufTy).Contents (Elt F) → (⟨S1024x1x32x128, .f32⟩ : BufTy).Contents (Elt F)),
    nullary main_cst_2 (constant S_ .f32 0x41800000#32),
    unary main_cst_2 main_v15 (broadcastInDim S1024x1x32x128 ![] bcast_S_S1024x1x32x128 : (⟨S_, .f32⟩ : BufTy).Contents (Elt F) → (⟨S1024x1x32x128, .f32⟩ : BufTy).Contents (Elt F)),
    binary main_v14 main_v15 main_v16 (Host.divf : (⟨S1024x1x32x128, .f32⟩ : BufTy).Contents (Elt F) → (⟨S1024x1x32x128, .f32⟩ : BufTy).Contents (Elt F) → (⟨S1024x1x32x128, .f32⟩ : BufTy).Contents (Elt F)),
    binary main_v16 main_arg4 main_v17 ((fun l r => Host.dotGeneral dot_S1024x1x32x128_S128x128_S1024x1x32x128_3_0_012_1_n_n none l r) : (⟨S1024x1x32x128, .f32⟩ : BufTy).Contents (Elt F) → (⟨S128x128, .f32⟩ : BufTy).Contents (Elt F) → (⟨S1024x1x32x128, .f32⟩ : BufTy).Contents (Elt F)),
    binary main_v13 main_arg5 main_v18 ((fun l r => Host.dotGeneral dot_S1024x1x32x128_S128x128_S1024x1x32x128_3_0_012_1_n_n none l r) : (⟨S1024x1x32x128, .f32⟩ : BufTy).Contents (Elt F) → (⟨S128x128, .f32⟩ : BufTy).Contents (Elt F) → (⟨S1024x1x32x128, .f32⟩ : BufTy).Contents (Elt F)),
    binary main_v18 main_v17 main_v19 (addf : (⟨S1024x1x32x128, .f32⟩ : BufTy).Contents (Elt F) → (⟨S1024x1x32x128, .f32⟩ : BufTy).Contents (Elt F) → (⟨S1024x1x32x128, .f32⟩ : BufTy).Contents (Elt F)),
    TRef.nullary main_call3.cst (constant S_ .f32 0x00000000#32),
    TRef.unary main_call3.cst main_call3.v0 (broadcastInDim S1024x1x32x128 ![] bcast_S_S1024x1x32x128),
    TRef.binary (.of main_v19 : TRef sig ⟨S1024x1x32x128, .f32⟩) main_call3.v0 main_call3.v1 maximumf ]

/-- The first 24: the adjacency array flattened and the row lookup. -/
abbrev ops₁ : List (HloOp τ sig (Elt F)) :=
  [ reshape main_arg0 main_v0 rfl shapeCasts_S1024x1x32x17_S557056,
    TRef.nullary main_call0.c (constantI S_ 32 0#32),
    TRef.unary main_call0.c main_call0.v0 (broadcastInDim S557056 ![] bcast_S_S557056),
    TRef.binary (.of main_v0 : TRef sig ⟨S557056, .i32⟩) main_call0.v0 main_call0.v1 (cmpi .slt),
    TRef.nullary main_call0.c_0 (constantI S_ 32 100001#32),
    TRef.unary main_call0.c_0 main_call0.v2 (broadcastInDim S557056 ![] bcast_S_S557056),
    TRef.binary (.of main_v0 : TRef sig ⟨S557056, .i32⟩) main_call0.v2 main_call0.v3 addi,
    TRef.ternary main_call0.v1 main_call0.v3 (.of main_v0 : TRef sig ⟨S557056, .i32⟩) main_call0.call0.v0 select,
    TRef.unary main_call0.call0.v0 main_call0.v5 (broadcastInDim S557056x1 ![0] bcast_S557056_S557056x1_0),
    TRef.nullary main_call0.c_1 (constantI S1 32 100000#32),
    TRef.nullary main_call0.c_2 (constantI S_ 32 0#32),
    TRef.unary main_call0.c_2 main_call0.v6 (broadcastInDim S557056x1 ![] bcast_S_S557056x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S557056x1 ![0, 1] bcast_S1x1_S557056x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S557056x1_S557056_d1 h_S_),
    TRef.binary (.of main_arg1 : TRef sig ⟨S100001x128, .f32⟩) main_call0.v5 main_call0.v13 (fun x i => Host.gather gather_S100001x128_S557056x1_S557056x128_1_0_n_n_0_1_1128 x i),
    TRef.unary main_call0.v12 main_call0.v14 (broadcastInDim S557056x128 ![0] bcast_S557056_S557056x128_0),
    TRef.nullary main_call0.cst (constant S_ .f32 0x7FC00000#32),
    TRef.unary main_call0.cst main_call0.v15 (broadcastInDim S557056x128 ![] bcast_S_S557056x128),
    TRef.ternary main_call0.v14 main_call0.v13 main_call0.v15 main_call0.v16 select ]

/-- The next 18: the looked-up rows arranged, the mean, the first layer and its two rectifiers. -/
abbrev ops₂ : List (HloOp τ sig (Elt F)) :=
  [ reshape main_v1 main_v2 rfl shapeCasts_S557056x128_S1024x1x32x17x128,
    unary main_v2 main_v3 ((extractStridedSlice S1024x1x32x1x128 ![0, 0, 0, 0, 0] · slices_S1024x1x32x17x128_S1024x1x32x1x128_0_0_0_0_0) : (⟨S1024x1x32x17x128, .f32⟩ : BufTy).Contents (Elt F) → (⟨S1024x1x32x1x128, .f32⟩ : BufTy).Contents (Elt F)),
    reshape main_v3 main_v4 rfl shapeCasts_S1024x1x32x1x128_S1024x1x32x128,
    unary main_v2 main_v5 ((extractStridedSlice S1024x1x32x16x128 ![0, 0, 0, 1, 0] · slices_S1024x1x32x17x128_S1024x1x32x16x128_0_0_0_1_0) : (⟨S1024x1x32x17x128, .f32⟩ : BufTy).Contents (Elt F) → (⟨S1024x1x32x16x128, .f32⟩ : BufTy).Contents (Elt F)),
    nullary main_cst (constant S_ .f32 0x00000000#32),
    binary main_v5 main_cst main_v6 ((fun x v => Host.reduceAdd x v reducesTo_S1024x1x32x16x128_S1024x1x32x128_d3 h_S_) : (⟨S1024x1x32x16x128, .f32⟩ : BufTy).Contents (Elt F) → (⟨S_, .f32⟩ : BufTy).Contents (Elt F) → (⟨S1024x1x32x128, .f32⟩ : BufTy).Contents (Elt F)),
    nullary main_cst_0 (constant S_ .f32 0x41800000#32),
    unary main_cst_0 main_v7 (broadcastInDim S1024x1x32x128 ![] bcast_S_S1024x1x32x128 : (⟨S_, .f32⟩ : BufTy).Contents (Elt F) → (⟨S1024x1x32x128, .f32⟩ : BufTy).Contents (Elt F)),
    binary main_v6 main_v7 main_v8 (Host.divf : (⟨S1024x1x32x128, .f32⟩ : BufTy).Contents (Elt F) → (⟨S1024x1x32x128, .f32⟩ : BufTy).Contents (Elt F) → (⟨S1024x1x32x128, .f32⟩ : BufTy).Contents (Elt F)),
    binary main_v8 main_arg2 main_v9 ((fun l r => Host.dotGeneral dot_S1024x1x32x128_S128x128_S1024x1x32x128_3_0_012_1_n_n none l r) : (⟨S1024x1x32x128, .f32⟩ : BufTy).Contents (Elt F) → (⟨S128x128, .f32⟩ : BufTy).Contents (Elt F) → (⟨S1024x1x32x128, .f32⟩ : BufTy).Contents (Elt F)),
    binary main_v4 main_arg3 main_v10 ((fun l r => Host.dotGeneral dot_S1024x1x32x128_S128x128_S1024x1x32x128_3_0_012_1_n_n none l r) : (⟨S1024x1x32x128, .f32⟩ : BufTy).Contents (Elt F) → (⟨S128x128, .f32⟩ : BufTy).Contents (Elt F) → (⟨S1024x1x32x128, .f32⟩ : BufTy).Contents (Elt F)),
    binary main_v10 main_v9 main_v11 (addf : (⟨S1024x1x32x128, .f32⟩ : BufTy).Contents (Elt F) → (⟨S1024x1x32x128, .f32⟩ : BufTy).Contents (Elt F) → (⟨S1024x1x32x128, .f32⟩ : BufTy).Contents (Elt F)),
    TRef.nullary main_call1.cst (constant S_ .f32 0x00000000#32),
    TRef.unary main_call1.cst main_call1.v0 (broadcastInDim S1024x1x32x128 ![] bcast_S_S1024x1x32x128),
    TRef.binary (.of main_v11 : TRef sig ⟨S1024x1x32x128, .f32⟩) main_call1.v0 main_call1.v1 maximumf,
    TRef.nullary main_call2.cst (constant S_ .f32 0x00000000#32),
    TRef.unary main_call2.cst main_call2.v0 (broadcastInDim S1024x1x32x128 ![] bcast_S_S1024x1x32x128),
    TRef.binary (.of main_v12 : TRef sig ⟨S1024x1x32x128, .f32⟩) main_call2.v0 main_call2.v1 maximumf ]

/-- The last 11: the mean again, the second layer and its rectifier. -/
abbrev ops₃ : List (HloOp τ sig (Elt F)) :=
  [ nullary main_cst_1 (constant S_ .f32 0x00000000#32),
    binary main_v5 main_cst_1 main_v14 ((fun x v => Host.reduceAdd x v reducesTo_S1024x1x32x16x128_S1024x1x32x128_d3 h_S_) : (⟨S1024x1x32x16x128, .f32⟩ : BufTy).Contents (Elt F) → (⟨S_, .f32⟩ : BufTy).Contents (Elt F) → (⟨S1024x1x32x128, .f32⟩ : BufTy).Contents (Elt F)),
    nullary main_cst_2 (constant S_ .f32 0x41800000#32),
    unary main_cst_2 main_v15 (broadcastInDim S1024x1x32x128 ![] bcast_S_S1024x1x32x128 : (⟨S_, .f32⟩ : BufTy).Contents (Elt F) → (⟨S1024x1x32x128, .f32⟩ : BufTy).Contents (Elt F)),
    binary main_v14 main_v15 main_v16 (Host.divf : (⟨S1024x1x32x128, .f32⟩ : BufTy).Contents (Elt F) → (⟨S1024x1x32x128, .f32⟩ : BufTy).Contents (Elt F) → (⟨S1024x1x32x128, .f32⟩ : BufTy).Contents (Elt F)),
    binary main_v16 main_arg4 main_v17 ((fun l r => Host.dotGeneral dot_S1024x1x32x128_S128x128_S1024x1x32x128_3_0_012_1_n_n none l r) : (⟨S1024x1x32x128, .f32⟩ : BufTy).Contents (Elt F) → (⟨S128x128, .f32⟩ : BufTy).Contents (Elt F) → (⟨S1024x1x32x128, .f32⟩ : BufTy).Contents (Elt F)),
    binary main_v13 main_arg5 main_v18 ((fun l r => Host.dotGeneral dot_S1024x1x32x128_S128x128_S1024x1x32x128_3_0_012_1_n_n none l r) : (⟨S1024x1x32x128, .f32⟩ : BufTy).Contents (Elt F) → (⟨S128x128, .f32⟩ : BufTy).Contents (Elt F) → (⟨S1024x1x32x128, .f32⟩ : BufTy).Contents (Elt F)),
    binary main_v18 main_v17 main_v19 (addf : (⟨S1024x1x32x128, .f32⟩ : BufTy).Contents (Elt F) → (⟨S1024x1x32x128, .f32⟩ : BufTy).Contents (Elt F) → (⟨S1024x1x32x128, .f32⟩ : BufTy).Contents (Elt F)),
    TRef.nullary main_call3.cst (constant S_ .f32 0x00000000#32),
    TRef.unary main_call3.cst main_call3.v0 (broadcastInDim S1024x1x32x128 ![] bcast_S_S1024x1x32x128),
    TRef.binary (.of main_v19 : TRef sig ⟨S1024x1x32x128, .f32⟩) main_call3.v0 main_call3.v1 maximumf ]

-- fifty-three binds re-associated: the rewrite under the chain recurses once per statement
set_option maxRecDepth 2048 in
/-- @main is that straight line: the functions' definitions unfolded at their calls, both sides are one chain of
    steps once sequencing is re-associated. -/
theorem main_eq (c : Dev nD) : main (F := F) c = seq ops := by
  simp only [main, fn_take.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., reshape_bufs_sub .., unary_bufs_sub .., nullary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩

/-- A typed reference's two transports cancel. -/
theorem ofBuf_toBuf {T : BufTy} {Val : EltTy → Type} (x : TRef sig T) (v : T.Contents Val) : x.ofBuf (x.toBuf v) = v := by
  obtain ⟨r, h, h2, h3⟩ := x
  subst h
  rfl

section Transports
variable {Val : EltTy → Type}
/-! At a literal reference whose buffer type is the value's, a transport is the identity. -/
theorem ofBuf_v0 (p1 p2 p3) (v : (⟨S557056, .i32⟩ : BufTy).Contents Val) :
    (TRef.of main_v0 p1 p2 p3 : TRef sig ⟨S557056, .i32⟩).ofBuf v = v := rfl
theorem ofBuf_arg1 (p1 p2 p3) (v : (⟨S100001x128, .f32⟩ : BufTy).Contents Val) :
    (TRef.of main_arg1 p1 p2 p3 : TRef sig ⟨S100001x128, .f32⟩).ofBuf v = v := rfl
theorem toBuf_v1 (p1 p2 p3) (v : (⟨S557056x128, .f32⟩ : BufTy).Contents Val) :
    (TRef.of main_v1 p1 p2 p3 : TRef sig ⟨S557056x128, .f32⟩).toBuf v = v := rfl
theorem ofBuf_v11 (p1 p2 p3) (v : (⟨S1024x1x32x128, .f32⟩ : BufTy).Contents Val) :
    (TRef.of main_v11 p1 p2 p3 : TRef sig ⟨S1024x1x32x128, .f32⟩).ofBuf v = v := rfl
theorem toBuf_v13 (p1 p2 p3) (v : (⟨S1024x1x32x128, .f32⟩ : BufTy).Contents Val) :
    (TRef.of main_v13 p1 p2 p3 : TRef sig ⟨S1024x1x32x128, .f32⟩).toBuf v = v := rfl
theorem ofBuf_v19 (p1 p2 p3) (v : (⟨S1024x1x32x128, .f32⟩ : BufTy).Contents Val) :
    (TRef.of main_v19 p1 p2 p3 : TRef sig ⟨S1024x1x32x128, .f32⟩).ofBuf v = v := rfl
theorem toBuf_v20 (p1 p2 p3) (v : (⟨S1024x1x32x128, .f32⟩ : BufTy).Contents Val) :
    (TRef.of main_v20 p1 p2 p3 : TRef sig ⟨S1024x1x32x128, .f32⟩).toBuf v = v := rfl
end Transports

/-- The fold over a concatenation is the folds in turn. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

theorem ops_split : (ops : List (HloOp τ sig (Elt F))) = ops₁ ++ (ops₂ ++ ops₃) := rfl

/-! ### Stage 1: the lookup -/

theorem s1_taken (V : Valuation τ sig (Elt Ideal)) :
    after ops₁ V (main_v1 : DevRef τ sig) = taken (V (main_arg0 : DevRef τ sig)) (V (main_arg1 : DevRef τ sig)) := by
  after_results_simp
  simp only [ofBuf_toBuf, ofBuf_v0, ofBuf_arg1, toBuf_v1]
  rfl

theorem s1_arg0 (V : Valuation τ sig (Elt Ideal)) :
    after ops₁ V (main_arg0 : DevRef τ sig) = (V (main_arg0 : DevRef τ sig)) := by
  after_results_simp
theorem s1_arg1 (V : Valuation τ sig (Elt Ideal)) :
    after ops₁ V (main_arg1 : DevRef τ sig) = (V (main_arg1 : DevRef τ sig)) := by
  after_results_simp
theorem s1_arg2 (V : Valuation τ sig (Elt Ideal)) :
    after ops₁ V (main_arg2 : DevRef τ sig) = (V (main_arg2 : DevRef τ sig)) := by
  after_results_simp
theorem s1_arg3 (V : Valuation τ sig (Elt Ideal)) :
    after ops₁ V (main_arg3 : DevRef τ sig) = (V (main_arg3 : DevRef τ sig)) := by
  after_results_simp
theorem s1_arg4 (V : Valuation τ sig (Elt Ideal)) :
    after ops₁ V (main_arg4 : DevRef τ sig) = (V (main_arg4 : DevRef τ sig)) := by
  after_results_simp
theorem s1_arg5 (V : Valuation τ sig (Elt Ideal)) :
    after ops₁ V (main_arg5 : DevRef τ sig) = (V (main_arg5 : DevRef τ sig)) := by
  after_results_simp

/-! ### Stage 2: the first layer -/

theorem s2_hid (V : Valuation τ sig (Elt Ideal)) :
    after ops₂ V (main_v13 : DevRef τ sig) = hid (V (main_arg2 : DevRef τ sig)) (V (main_arg3 : DevRef τ sig)) (V (main_v1 : DevRef τ sig)) := by
  after_results_simp
  simp only [ofBuf_toBuf, ofBuf_v11, toBuf_v13]
  rfl

theorem s2_neigh (V : Valuation τ sig (Elt Ideal)) :
    after ops₂ V (main_v5 : DevRef τ sig) = neigh (V (main_v1 : DevRef τ sig)) := by
  after_results_simp
  rfl

theorem s2_arg0 (V : Valuation τ sig (Elt Ideal)) :
    after ops₂ V (main_arg0 : DevRef τ sig) = (V (main_arg0 : DevRef τ sig)) := by
  after_results_simp
theorem s2_arg1 (V : Valuation τ sig (Elt Ideal)) :
    after ops₂ V (main_arg1 : DevRef τ sig) = (V (main_arg1 : DevRef τ sig)) := by
  after_results_simp
theorem s2_arg2 (V : Valuation τ sig (Elt Ideal)) :
    after ops₂ V (main_arg2 : DevRef τ sig) = (V (main_arg2 : DevRef τ sig)) := by
  after_results_simp
theorem s2_arg3 (V : Valuation τ sig (Elt Ideal)) :
    after ops₂ V (main_arg3 : DevRef τ sig) = (V (main_arg3 : DevRef τ sig)) := by
  after_results_simp
theorem s2_arg4 (V : Valuation τ sig (Elt Ideal)) :
    after ops₂ V (main_arg4 : DevRef τ sig) = (V (main_arg4 : DevRef τ sig)) := by
  after_results_simp
theorem s2_arg5 (V : Valuation τ sig (Elt Ideal)) :
    after ops₂ V (main_arg5 : DevRef τ sig) = (V (main_arg5 : DevRef τ sig)) := by
  after_results_simp

/-! ### Stage 3: the second layer -/

theorem s3_out (V : Valuation τ sig (Elt Ideal)) :
    after ops₃ V (main_v20 : DevRef τ sig) = out2 (V (main_arg4 : DevRef τ sig)) (V (main_arg5 : DevRef τ sig)) (V (main_v5 : DevRef τ sig)) (V (main_v13 : DevRef τ sig)) := by
  after_results_simp
  simp only [ofBuf_toBuf, ofBuf_v19, toBuf_v20]
  rfl

theorem s3_arg0 (V : Valuation τ sig (Elt Ideal)) :
    after ops₃ V (main_arg0 : DevRef τ sig) = (V (main_arg0 : DevRef τ sig)) := by
  after_results_simp
theorem s3_arg1 (V : Valuation τ sig (Elt Ideal)) :
    after ops₃ V (main_arg1 : DevRef τ sig) = (V (main_arg1 : DevRef τ sig)) := by
  after_results_simp
theorem s3_arg2 (V : Valuation τ sig (Elt Ideal)) :
    after ops₃ V (main_arg2 : DevRef τ sig) = (V (main_arg2 : DevRef τ sig)) := by
  after_results_simp
theorem s3_arg3 (V : Valuation τ sig (Elt Ideal)) :
    after ops₃ V (main_arg3 : DevRef τ sig) = (V (main_arg3 : DevRef τ sig)) := by
  after_results_simp
theorem s3_arg4 (V : Valuation τ sig (Elt Ideal)) :
    after ops₃ V (main_arg4 : DevRef τ sig) = (V (main_arg4 : DevRef τ sig)) := by
  after_results_simp
theorem s3_arg5 (V : Valuation τ sig (Elt Ideal)) :
    after ops₃ V (main_arg5 : DevRef τ sig) = (V (main_arg5 : DevRef τ sig)) := by
  after_results_simp

/-! ### The stages composed -/

/-- The fold of all 53 operations at the result buffer is the composed term. -/
theorem out_eq (V : Valuation τ sig (Elt Ideal)) :
    after ops V (main_v20 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [ops_split, after_app, after_app, s3_out, s2_arg4, s2_arg5, s2_neigh, s2_hid, s1_arg2, s1_arg3, s1_arg4, s1_arg5, s1_taken]
  rfl

theorem arg0_eq (V : Valuation τ sig (Elt Ideal)) :
    after ops V (main_arg0 : DevRef τ sig) = (V (main_arg0 : DevRef τ sig)) := by
  rw [ops_split, after_app, after_app, s3_arg0, s2_arg0, s1_arg0]
theorem arg1_eq (V : Valuation τ sig (Elt Ideal)) :
    after ops V (main_arg1 : DevRef τ sig) = (V (main_arg1 : DevRef τ sig)) := by
  rw [ops_split, after_app, after_app, s3_arg1, s2_arg1, s1_arg1]
theorem arg2_eq (V : Valuation τ sig (Elt Ideal)) :
    after ops V (main_arg2 : DevRef τ sig) = (V (main_arg2 : DevRef τ sig)) := by
  rw [ops_split, after_app, after_app, s3_arg2, s2_arg2, s1_arg2]
theorem arg3_eq (V : Valuation τ sig (Elt Ideal)) :
    after ops V (main_arg3 : DevRef τ sig) = (V (main_arg3 : DevRef τ sig)) := by
  rw [ops_split, after_app, after_app, s3_arg3, s2_arg3, s1_arg3]
theorem arg4_eq (V : Valuation τ sig (Elt Ideal)) :
    after ops V (main_arg4 : DevRef τ sig) = (V (main_arg4 : DevRef τ sig)) := by
  rw [ops_split, after_app, after_app, s3_arg4, s2_arg4, s1_arg4]
theorem arg5_eq (V : Valuation τ sig (Elt Ideal)) :
    after ops V (main_arg5 : DevRef τ sig) = (V (main_arg5 : DevRef τ sig)) := by
  rw [ops_split, after_app, after_app, s3_arg5, s2_arg5, s1_arg5]

/-- On every device, from any memory with zero counters: every weakly fair execution of @main terminates with the
    result buffer at the composed term of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20)
        = refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v20).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.RefSide

end
-- ==== Proof.Spec.lean ====
/-
  The function both programs compute, stated once over the argument arrays, index by index, on the extended reals.

  Entry (b, s) of the batch names seventeen rows of the embedding table through the adjacency array: the first is
  the node's own row, the other sixteen its neighbours'. The neighbours' rows are averaged (their sum times 1/16),
  and two dense layers follow, each the node's current features times a "self" matrix plus the averaged neighbours
  times an "aggregate" matrix, cut off below at zero:
    hidden = max (own · W0self + mean · W0agg) 0,      out = max (hidden · W1self + mean · W1agg) 0.
  An index word is clamped into the table, so the function is total; under the precondition every word already
  names a row.
-/
import Idealize.ShloMosaic.PureOps.Ideal
import Idealize.ShloMosaic.Lib.ValueIdx

noncomputable section

namespace Cert.Spec

open Idealize.ShloMosaic Idealize.ShloMosaic.ValueIdx

abbrev SAdj : Shape := ⟨4, ![1024, 1, 32, 17]⟩
abbrev SEmb : Shape := ⟨2, ![100001, 128]⟩
abbrev SW : Shape := ⟨2, ![128, 128]⟩
abbrev SOut : Shape := ⟨4, ![1024, 1, 32, 128]⟩

/-- The table row an index word names, clamped into the table's 100001 rows. -/
def rowOf (w : BitVec 32) : Fin 100001 := ⟨min w.toNat 100000, by omega⟩

theorem rowOf_val_of_le {w : BitVec 32} (h : w.toNat ≤ 100000) : (rowOf w).val = w.toNat := by
  simp [rowOf, h]

section

variable (adj : IVec SAdj 32) (emb : FVec Ideal SEmb .f32) (w0a w0s w1a w1s : FVec Ideal SW .f32)

/-- Column `k` of the table row that entry `t` of batch position `(b, s)` names. -/
def gathered (b : Fin 1024) (s : Fin 32) (t : Fin 17) (k : Fin 128) : EReal :=
  emb (ix2 (rowOf (adj (ix4 b (0 : Fin 1) s t))) k)

/-- Column `k` of the mean of the sixteen neighbours' rows: their sum times 1/16 (the word of 0.0625). -/
def aggr (b : Fin 1024) (s : Fin 32) (k : Fin 128) : EReal :=
  (∑ r : Fin 16, gathered adj emb b s ⟨r.val + 1, by omega⟩ k) * Ideal.ofBits .f32 0x3D800000#32

/-- The first layer at column `j`. -/
def hidden (b : Fin 1024) (s : Fin 32) (j : Fin 128) : EReal :=
  max ((∑ k : Fin 128, gathered adj emb b s 0 k * w0s (ix2 k j)) + (∑ k : Fin 128, aggr adj emb b s k * w0a (ix2 k j))) 0

/-- The second layer: the result array. -/
def out : FVec Ideal SOut .f32 := fun i =>
  max ((∑ k : Fin 128, hidden adj emb w0a w0s (i 0) (i 2) k * w1s (ix2 k (i 3)))
    + (∑ k : Fin 128, aggr adj emb (i 0) (i 2) k * w1a (ix2 k (i 3)))) 0

end

end Cert.Spec

end
-- ==== Proof.LibTakeCol.lean ====
/-
  A ROW LOOKUP THROUGH A COLUMN OF ROW NUMBERS, READ AT AN INDEX, and an `all` that holds.

  `jnp.take(x, idx, axis=0)` of a table `x : [N, C]` at an integer vector `idx : [R]` lowers to a gather over the
  indices as a column `[R, 1]`: offset_dims `[1]` (the result's last axis is the slice's column axis),
  collapsed_slice_dims `[0]` (the table's row axis has slice size 1 and disappears), start_index_map `[0]` (the one
  component of a start index is a row number), index_vector_dim `1` and slice_sizes `[1, C]`. Result element
  `(r, j)` is the table at row `idx[r, 0]` — read as a signed integer and CLAMPED into `[0, N − 1]`, as a gather
  clamps every start index — and column `j`. The statement is about the dimension numbers alone and holds for any
  element type. Beside it: a reduction by `and` from 1 over elements that are all 1 is 1 (the converse of the
  library's reading of an `all` that came out 1). Nothing here mentions a program.
-/
import Idealize.ShloMosaic.PureOps.Ideal
import Idealize.ShloMosaic.Lib.ValueIdx
import Idealize.ShloMosaic.Lib.ReduceAll

noncomputable section

namespace Cert.TakeCol

open Idealize.ShloMosaic Idealize.ShloMosaic.ValueIdx

variable {α : Type}

/-- An axis of a rank-2 shape is the first or the second. -/
theorem fin2_cases (a : Fin 2) : a = 0 ∨ a = 1 := by
  rcases a with ⟨v, hv⟩
  interval_cases v
  · exact Or.inl rfl
  · exact Or.inr rfl

/-- Those dimension numbers for a table `[N, C]`, start indices `[R, 1]` and result `[R, C]`; their conditions
    `wf` are decided on a program's literal shapes. -/
abbrev colDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE LOOKUP READ AT `(r, j)`: the table at row `idx[r, 0]` (signed, clamped into `[0, N − 1]`) and column `j`.
    On the row axis the table coordinate is the clamped start alone (the axis is collapsed: no offset, and there are
    no batching axes); on the column axis the start is `0` (the axis is not in the start index map) and the offset is
    the result's last coordinate. -/
theorem gather_col_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (j : Fin C) :
    Host.gather (colDims N R C wf) x idx (ix2 r j)
      = x (ix2 ⟨min (idx (ix2 r (0 : Fin 1))).toInt.toNat (N - 1), by omega⟩ j) := by
  unfold Host.gather
  congr 1
  funext a
  refine Fin.ext ?_
  show (colDims N R C wf).start (ix2 r j) idx a + (colDims N R C wf).batchCoord (ix2 r j) a
    + (colDims N R C wf).offCoord (ix2 r j) a = _
  rw [GatherDims.batchCoord_eq_zero _ _ _ List.not_mem_nil]
  rcases fin2_cases a with rfl | rfl
  · -- the row axis: collapsed, so no offset; the start is the clamped row number
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (colDims N R C wf).startIndexMap from List.mem_singleton.mpr rfl)]
    have hsi : (colDims N R C wf).siIdx (ix2 r j) ⟨List.idxOf (0 : Fin 2) (colDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · -- the column axis: not a start-index axis, so the start is 0; the offset is the result's last coordinate
    have h1 : (1 : Fin 2) ∉ (colDims N R C wf).startIndexMap := by
      show (1 : Fin 2) ∉ ([0] : List (Fin 2)); decide
    have hk : (1 : Fin 2) ∈ (colDims N R C wf).sKept := by
      rw [GatherDims.mem_sKept]
      show (1 : Fin 2) ∉ ([0] : List (Fin 2)) ∧ (1 : Fin 2) ∉ ([] : List (Fin 2)); decide
    unfold GatherDims.start GatherDims.offCoord
    rw [dif_neg h1, dif_pos hk]
    simp only [Nat.zero_add]
    rfl

/-- A left fold by `and` from 1 over a list of 1s is 1. -/
theorem foldl_andi_of_all_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_of_all_one f l fun n hn => h n (List.mem_cons_of_mem _ hn)

/-- A `stablehlo.reduce` by `and` from the constant 1 is 1 at `j` when every operand element that reduces into
    `j` is 1. -/
theorem reduce_andi_of_all_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_of_all_one x _ fun i hi => ?_
  rw [List.mem_filter] at hi
  exact hx i (by simpa using hi.2)

end Cert.TakeCol

end
-- ==== Proof.RefValue.lean ====
/-
  The reference's term is the specification, index by index. Under the hypothesis that every index word is at most
  100000: a word is then nonnegative as a signed integer, so the lookup's wrap-around select keeps it, the gather's
  clamp is the identity, and the fill mask is all true — the lookup is the plain row lookup. The reshapes and slices
  are index arithmetic (row (b*32 + s)*17 + t of the flat lookup is slot t of batch position (b, s)); the reduction
  over the sixteen neighbour slots from 0 is their sum; division by 16 is multiplication by 1/16 on the extended
  reals; each matrix product is a sum over the 128 columns; a rectifier is a maximum with 0, and rectifying twice
  is rectifying once.
-/
import proofs.«208587_g27212912787602_cont_9to1_1073_18_alg».proof.Proof.RefTerm
import proofs.«208587_g27212912787602_cont_9to1_1073_18_alg».proof.Proof.Spec
import proofs.«208587_g27212912787602_cont_9to1_1073_18_alg».proof.Proof.LibTakeCol
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Idealize.ShloMosaic Idealize.ShloMosaic.ValueIdx

/-! ## The two float literals -/

/-- The word of 16.0 denotes the real 16. -/
theorem ofBits_sixteen : Ideal.ofBits .f32 0x41800000#32 = ((16 : ℝ) : EReal) := by
  simp [Ideal.ofBits, Ideal.ieee, -EReal.coe_mul]; norm_num

/-- The word of 0.0625 denotes the real 1/16. -/
theorem ofBits_sixteenth : Ideal.ofBits .f32 0x3D800000#32 = ((1 / 16 : ℝ) : EReal) := by
  simp [Ideal.ofBits, Ideal.ieee, -EReal.coe_mul]; norm_num

/-! ## An index word that names a row -/

section Word
variable {w : BitVec 32} (h : w.toNat ≤ 100000)
include h

theorem word_toInt : w.toInt = (w.toNat : Int) := BitVec.toInt_eq_toNat_of_lt (by omega)

theorem word_not_neg : IntOp.cmpi .slt w 0#32 = 0#1 := by
  refine eq_zero_of_ne_one fun e => ?_
  have := IntOp.cmpi_slt.1 e
  rw [word_toInt h, show (0#32 : BitVec 32).toInt = 0 from by decide] at this
  omega

theorem word_ge : IntOp.cmpi .sge w 0#32 = 1#1 := by
  refine IntOp.cmpi_sge.2 ?_
  rw [word_toInt h, show (0#32 : BitVec 32).toInt = 0 from by decide]
  omega

theorem word_le : IntOp.cmpi .sle w 100000#32 = 1#1 := by
  refine IntOp.cmpi_sle.2 ?_
  rw [word_toInt h, show (100000#32 : BitVec 32).toInt = 100000 from by decide]
  omega

end Word

/-! ## The lookup -/

section Lookup
variable (a0 : IVec S1024x1x32x17 32) (a1 : FVec Ideal S100001x128 .f32) (hle : ∀ i, (a0 i).toNat ≤ 100000)

/-- A flattened index word is one of the adjacency array's. -/
theorem flat_le (hle : ∀ i, (a0 i).toNat ≤ 100000) (i : S557056.Idx) : (flat a0 i).toNat ≤ 100000 := by
  unfold flat shapeCast
  exact hle _

/-- No word is negative: the wrap-around select keeps it. -/
theorem wrapped_apply (hle : ∀ i, (a0 i).toNat ≤ 100000) (i : S557056.Idx) : wrapped a0 i = flat a0 i := by
  unfold wrapped
  rw [select_apply]
  show Scalar.select (IntOp.cmpi .slt (flat a0 i) 0#32) _ _ = _
  rw [word_not_neg (flat_le a0 hle i), select_zero]

/-- The index column at row `r` is the flattened word `r`. -/
theorem idxCol_apply (hle : ∀ i, (a0 i).toNat ≤ 100000) (r : Fin 557056) (c : Fin 1) :
    idxCol a0 (ix2 r c) = flat a0 (ix1 r) := by
  unfold idxCol
  rw [broadcastInDim_apply _ _ _ (ix2 r c) (ix1 r) (fun a => match a with | ⟨0, _⟩ => rfl)]
  exact wrapped_apply a0 hle _

/-- Every start index is in range. -/
theorem inRange_apply (hle : ∀ i, (a0 i).toNat ≤ 100000) (i : S557056x1.Idx) : inRange a0 i = 1#1 := by
  obtain ⟨r, c, rfl⟩ : ∃ (r : Fin 557056) (c : Fin 1), i = ix2 r c := ⟨i 0, i 1, eq_ix2 i⟩
  unfold inRange
  show IntOp.andi (IntOp.cmpi .sge (idxCol a0 (ix2 r c)) 0#32) (IntOp.cmpi .sle (idxCol a0 (ix2 r c)) 100000#32) = 1#1
  rw [idxCol_apply a0 hle, word_ge (flat_le a0 hle _), word_le (flat_le a0 hle _)]
  rfl

/-- So the fill mask is all true. -/
theorem mask_apply (hle : ∀ i, (a0 i).toNat ≤ 100000) (j : S557056.Idx) : mask a0 j = 1#1 :=
  Cert.TakeCol.reduce_andi_of_all_one _ _ _ _ j rfl fun i _ => inRange_apply a0 hle i

/-- The gathered row `r` is the table row the flattened word `r` names. -/
theorem rows_apply (hle : ∀ i, (a0 i).toNat ≤ 100000) (r : Fin 557056) (k : Fin 128) :
    rows a0 a1 (ix2 r k) = a1 (ix2 (Cert.Spec.rowOf (flat a0 (ix1 r))) k) := by
  show Host.gather (Cert.TakeCol.colDims 100001 557056 128 gather_S100001x128_S557056x1_S557056x128_1_0_n_n_0_1_1128_wf) a1
    (idxCol a0) (ix2 r k) = _
  rw [Cert.TakeCol.gather_col_apply (by decide)]
  refine congrArg a1 (congrArg (fun q => ix2 q k) (Fin.ext ?_))
  show min (idxCol a0 (ix2 r 0)).toInt.toNat (100001 - 1) = min (flat a0 (ix1 r)).toNat 100000
  rw [idxCol_apply a0 hle, word_toInt (flat_le a0 hle _)]
  rfl

/-- The lookup is the plain row lookup. -/
theorem taken_apply (hle : ∀ i, (a0 i).toNat ≤ 100000) (r : Fin 557056) (k : Fin 128) :
    taken a0 a1 (ix2 r k) = a1 (ix2 (Cert.Spec.rowOf (flat a0 (ix1 r))) k) := by
  unfold taken
  rw [select_apply,
    broadcastInDim_apply _ _ _ (ix2 r k) (ix1 r) (fun a => match a with | ⟨0, _⟩ => rfl),
    mask_apply a0 hle, select_one, rows_apply a0 a1 hle]

end Lookup

/-! ## The arrangement by batch position and slot -/

/-- The flat row of slot `u` of batch position `(b, s)`. -/
def rowAt (b : Fin 1024) (s : Fin 32) (u : Fin 17) : Fin 557056 :=
  ⟨(b.val * 32 + s.val) * 17 + u.val, by have := b.isLt; have := s.isLt; have := u.isLt; omega⟩

/-- The flattened index word at that row is the adjacency array's entry. -/
theorem flat_rowAt (a0 : IVec S1024x1x32x17 32) (b : Fin 1024) (s : Fin 32) (u : Fin 17) :
    flat a0 (ix1 (rowAt b s u)) = a0 (ix4 b (0 : Fin 1) s u) := by
  unfold flat
  refine shapeCast_apply _ _ _ _ ?_
  rw [Shape.rowMajor_val_four, Shape.rowMajor_val_one]
  show ((b.val * 1 + 0) * 32 + s.val) * 17 + u.val = (b.val * 32 + s.val) * 17 + u.val
  omega

section Layout
variable (t : FVec Ideal S557056x128 .f32)

theorem cube_apply (b : Fin 1024) (z : Fin 1) (s : Fin 32) (u : Fin 17) (k : Fin 128) :
    cube t (ix5 b z s u k) = t (ix2 (rowAt b s u) k) := by
  unfold cube
  refine shapeCast_apply _ _ _ _ ?_
  rw [Shape.rowMajor_val_two, Shape.rowMajor_val_five]
  have hz : z.val < 1 := z.isLt
  show ((b.val * 32 + s.val) * 17 + u.val) * 128 + k.val
    = (((b.val * 1 + z.val) * 32 + s.val) * 17 + u.val) * 128 + k.val
  omega

theorem own_apply (b : Fin 1024) (z : Fin 1) (s : Fin 32) (k : Fin 128) :
    own t (ix4 b z s k) = cube t (ix5 b z s (0 : Fin 17) k) := by
  unfold own
  refine (shapeCast_apply _ _ (ix4 b z s k) (ix5 b z s (0 : Fin 1) k) ?_).trans ?_
  · rw [Shape.rowMajor_val_five, Shape.rowMajor_val_four]
    show (((b.val * 1 + z.val) * 32 + s.val) * 1 + 0) * 128 + k.val = ((b.val * 1 + z.val) * 32 + s.val) * 128 + k.val
    omega
  · exact extractStridedSlice_apply _ _ _ _ (ix5 b z s (0 : Fin 17) k) fun a => match a with
      | ⟨0, _⟩ => by show b.val = 0 + b.val; omega
      | ⟨1, _⟩ => by show z.val = 0 + z.val; omega
      | ⟨2, _⟩ => by show s.val = 0 + s.val; omega
      | ⟨3, _⟩ => by show 0 = 0 + 0; omega
      | ⟨4, _⟩ => by show k.val = 0 + k.val; omega

theorem neigh_apply (b : Fin 1024) (z : Fin 1) (s : Fin 32) (u : Fin 16) (k : Fin 128) :
    neigh t (ix5 b z s u k) = cube t (ix5 b z s (⟨u.val + 1, by omega⟩ : Fin 17) k) := by
  unfold neigh
  exact extractStridedSlice_apply _ _ _ _ (ix5 b z s (⟨u.val + 1, by omega⟩ : Fin 17) k) fun a => match a with
    | ⟨0, _⟩ => by show b.val = 0 + b.val; omega
    | ⟨1, _⟩ => by show z.val = 0 + z.val; omega
    | ⟨2, _⟩ => by show s.val = 0 + s.val; omega
    | ⟨3, _⟩ => by show u.val + 1 = 1 + u.val; omega
    | ⟨4, _⟩ => by show k.val = 0 + k.val; omega

end Layout

/-! ## The mean, the products, the zero array -/

theorem zeros_apply (i : S1024x1x32x128.Idx) : zeros i = 0 := by
  unfold zeros
  show Ideal.ofBits .f32 0x00000000#32 = 0
  exact Ideal.ofBits_zero_f32

/-- The mean over the sixteen neighbour slots: their sum times 1/16. -/
theorem mean_apply (n : FVec Ideal S1024x1x32x16x128 .f32) (b : Fin 1024) (z : Fin 1) (s : Fin 32) (k : Fin 128) :
    mean n (ix4 b z s k) = (∑ u : Fin 16, n (ix5 b z s u k)) * Ideal.ofBits .f32 0x3D800000#32 := by
  have hR : S1024x1x32x16x128.Reduces [3] S1024x1x32x128 := by decide
  unfold mean
  show Ideal.div (Ideal.hostReduceAdd reducesTo_S1024x1x32x16x128_S1024x1x32x128_d3 n (Ideal.ofBits .f32 0x00000000#32) (ix4 b z s k))
    (Ideal.ofBits .f32 0x41800000#32) = _
  rw [ofBits_sixteen, Ideal.div_coe (by norm_num), ofBits_sixteenth, Ideal.hostReduceAdd_single _ hR, Ideal.ofBits_zero_f32, zero_add]
  show (∑ u : Fin 16, n (hR.lift (ix4 b z s k) u)) * _ = _
  refine congrArg (· * _) (Finset.sum_congr rfl fun u _ => congrArg n ?_)
  funext a
  apply Fin.ext
  match a with
  | ⟨0, _⟩ => rfl
  | ⟨1, _⟩ => rfl
  | ⟨2, _⟩ => rfl
  | ⟨3, _⟩ => rfl
  | ⟨4, _⟩ => rfl

/-- A product with a 128 x 128 matrix read at an index: the sum over the 128 columns. -/
theorem mm_apply (x : FVec Ideal S1024x1x32x128 .f32) (w : FVec Ideal S128x128 .f32)
    (b : Fin 1024) (z : Fin 1) (s : Fin 32) (j : Fin 128) :
    mm x w (ix4 b z s j) = ∑ k : Fin 128, x (ix4 b z s k) * w (ix2 k j) := by
  unfold mm
  show FloatOps.dotGeneral dot_S1024x1x32x128_S128x128_S1024x1x32x128_3_0_012_1_n_n none _ x w (ix4 b z s j) = _
  rw [Ideal.dotGeneral_apply, ← Equiv.sum_comp (contrEquiv1 dot_S1024x1x32x128_S128x128_S1024x1x32x128_3_0_012_1_n_n 128 rfl rfl).symm]
  refine Finset.sum_congr rfl fun c _ => ?_
  have c1 := contrEquiv1_symm_val dot_S1024x1x32x128_S128x128_S1024x1x32x128_3_0_012_1_n_n 128 rfl rfl c
  have l : (dot_S1024x1x32x128_S128x128_S1024x1x32x128_3_0_012_1_n_n).lhsIdx (ix4 b z s j) ((contrEquiv1 _ 128 rfl rfl).symm c) = ix4 b z s c := by
    funext ax; apply Fin.ext
    match ax with
    | ⟨0, _⟩ => simp [DotDims.lhsIdx, dot_S1024x1x32x128_S128x128_S1024x1x32x128_3_0_012_1_n_n] <;> rfl
    | ⟨1, _⟩ => simp [DotDims.lhsIdx, dot_S1024x1x32x128_S128x128_S1024x1x32x128_3_0_012_1_n_n] <;> rfl
    | ⟨2, _⟩ => simp [DotDims.lhsIdx, dot_S1024x1x32x128_S128x128_S1024x1x32x128_3_0_012_1_n_n] <;> rfl
    | ⟨3, _⟩ => simp [DotDims.lhsIdx, dot_S1024x1x32x128_S128x128_S1024x1x32x128_3_0_012_1_n_n] <;> exact c1
  have r : (dot_S1024x1x32x128_S128x128_S1024x1x32x128_3_0_012_1_n_n).rhsIdx (ix4 b z s j) ((contrEquiv1 _ 128 rfl rfl).symm c) = ix2 c j := by
    funext ax; apply Fin.ext
    match ax with
    | ⟨0, _⟩ => simp [DotDims.rhsIdx, dot_S1024x1x32x128_S128x128_S1024x1x32x128_3_0_012_1_n_n] <;> exact c1
    | ⟨1, _⟩ => simp [DotDims.rhsIdx, dot_S1024x1x32x128_S128x128_S1024x1x32x128_3_0_012_1_n_n] <;> rfl
  rw [l, r]

/-! ## The whole term -/

section Whole
variable (a0 : IVec S1024x1x32x17 32) (a1 : FVec Ideal S100001x128 .f32) (a2 a3 a4 a5 : FVec Ideal S128x128 .f32)

/-- Slot `u` of batch position `(b, s)` of the arranged lookup is the row the adjacency entry names. -/
theorem cube_taken (hle : ∀ i, (a0 i).toNat ≤ 100000) (b : Fin 1024) (z : Fin 1) (s : Fin 32) (u : Fin 17) (k : Fin 128) :
    cube (taken a0 a1) (ix5 b z s u k) = Cert.Spec.gathered a0 a1 b s u k := by
  rw [cube_apply, taken_apply a0 a1 hle, flat_rowAt]
  rfl

theorem own_taken (hle : ∀ i, (a0 i).toNat ≤ 100000) (b : Fin 1024) (z : Fin 1) (s : Fin 32) (k : Fin 128) :
    own (taken a0 a1) (ix4 b z s k) = Cert.Spec.gathered a0 a1 b s 0 k := by
  rw [own_apply, cube_taken a0 a1 hle]

theorem neigh_taken (hle : ∀ i, (a0 i).toNat ≤ 100000) (b : Fin 1024) (z : Fin 1) (s : Fin 32) (u : Fin 16) (k : Fin 128) :
    neigh (taken a0 a1) (ix5 b z s u k) = Cert.Spec.gathered a0 a1 b s ⟨u.val + 1, by omega⟩ k := by
  rw [neigh_apply, cube_taken a0 a1 hle]

theorem mean_taken (hle : ∀ i, (a0 i).toNat ≤ 100000) (b : Fin 1024) (z : Fin 1) (s : Fin 32) (k : Fin 128) :
    mean (neigh (taken a0 a1)) (ix4 b z s k) = Cert.Spec.aggr a0 a1 b s k := by
  rw [mean_apply]
  unfold Cert.Spec.aggr
  refine congrArg (fun S : EReal => S * Ideal.ofBits .f32 0x3D800000#32) ?_
  exact Finset.sum_congr rfl fun u _ => neigh_taken a0 a1 hle b z s u k

/-- The first layer: rectifying twice is rectifying once. -/
theorem hid_taken (hle : ∀ i, (a0 i).toNat ≤ 100000) (b : Fin 1024) (z : Fin 1) (s : Fin 32) (j : Fin 128) :
    hid a2 a3 (taken a0 a1) (ix4 b z s j) = Cert.Spec.hidden a0 a1 a2 a3 b s j := by
  unfold hid Cert.Spec.hidden
  rw [maximumf_apply, maximumf_apply, zeros_apply, addf_apply, mm_apply, mm_apply, max_assoc, max_self]
  simp only [own_taken a0 a1 hle, mean_taken a0 a1 hle]

/-- The reference's term is the specification. -/
theorem refOut_eq_spec (hle : ∀ i, (a0 i).toNat ≤ 100000) :
    refOut a0 a1 a2 a3 a4 a5 = Cert.Spec.out a0 a1 a2 a3 a4 a5 := by
  funext i
  obtain ⟨b, z, s, j, rfl⟩ : ∃ (b : Fin 1024) (z : Fin 1) (s : Fin 32) (j : Fin 128), i = ix4 b z s j :=
    ⟨i 0, i 1, i 2, i 3, eq_ix4 i⟩
  unfold refOut out2
  rw [maximumf_apply, zeros_apply, addf_apply, mm_apply, mm_apply]
  simp only [hid_taken a0 a1 a2 a3 hle, mean_taken a0 a1 hle]
  rfl

end Whole

end Cert.RefSide

end
-- ==== Proof.PreFacts.lean ====
/-
  What the precondition says of the index words. Its last conjunct is an "all" over the adjacency array of
  0 <= w and w <= 100000, both read signed; so every index word, read unsigned, is at most 100000 and names a row of
  the 100001-row table. The statement is about the integer argument alone and holds for any float values.
-/
import proofs.«208587_g27212912787602_cont_9to1_1073_18_alg».proof.Proof.Gen.Pre_input_domain
import Idealize.ShloMosaic.Lib.ReduceAll
import Idealize.ShloMosaic.Lib.ValueIdx

namespace Cert.RefSide

open Idealize.ShloMosaic Idealize.ShloMosaic.ValueIdx Cert.Pre_input_domain

/-- The scalar shape has one index. -/
instance : Subsingleton S_.Idx := ⟨fun _ _ => funext fun d => d.elim0⟩

/-- Under the precondition every index word is at most 100000. -/
theorem adj_le {F : FTy → Type} [FloatOps F] [Cert.Pre_input_domain.Facts] (a0 : IVec S1024x1x32x17 32)
    (a1 : FVec F S100001x128 .f32) (a2 a3 a4 a5 : FVec F S128x128 .f32)
    (h : fn (F := F) a0 a1 a2 a3 a4 a5 = fun _ => 1#1) : ∀ i, (a0 i).toNat ≤ 100000 := by
  intro i
  have h0 := congrFun h ix0
  dsimp only [fn, fn_part1] at h0
  -- the last conjunct: the "all" over the adjacency array
  obtain ⟨-, h29⟩ := IntOp.andi_eq_one.1 h0
  have h28 := Host.reduce_andi_all _ _ _ _ _ h29 i
  obtain ⟨hge, hle⟩ := IntOp.andi_eq_one.1 h28
  have hge' : (0#32 : BitVec 32).toInt ≤ (a0 i).toInt := IntOp.cmpi_sge.1 hge
  have hle' : (a0 i).toInt ≤ (100000#32 : BitVec 32).toInt := IntOp.cmpi_sle.1 hle
  have e0 : (0#32 : BitVec 32).toInt = 0 := by decide
  have e1 : (100000#32 : BitVec 32).toInt = 100000 := by decide
  rw [e0] at hge'
  rw [e1] at hle'
  have hc := BitVec.toInt_eq_toNat_cond (a0 i)
  have hlt := (a0 i).isLt
  split at hc <;> omega

end Cert.RefSide
-- ==== Proof.RefHalf.lean ====
/-
  The reference's two claims' worth, assembled: it runs to the end leaving its arguments unchanged (the frame), and
  under the precondition its result buffer ends at the specification of its arguments (its half of the value claim:
  the run's composed term, the term-is-specification equation, and the index range the precondition gives).
-/
import proofs.«208587_g27212912787602_cont_9to1_1073_18_alg».proof.Defs
import proofs.«208587_g27212912787602_cont_9to1_1073_18_alg».proof.Proof.Gen.ReferenceIdeal
import proofs.«208587_g27212912787602_cont_9to1_1073_18_alg».proof.Proof.Gen.Pre_input_domain
import proofs.«208587_g27212912787602_cont_9to1_1073_18_alg».proof.Proof.RefRun
import proofs.«208587_g27212912787602_cont_9to1_1073_18_alg».proof.Proof.RefValue
import proofs.«208587_g27212912787602_cont_9to1_1073_18_alg».proof.Proof.PreFacts

noncomputable section

namespace Cert.RefSide

open Idealize.ShloMosaic Idealize.SL.Sem

/-- The reference runs, faults nowhere, and leaves its six arguments as they were. -/
theorem frame : Cert.frame_ReferenceIdeal (hReferenceIdeal := Cert.ReferenceIdeal.Gen.facts)
    (hPre_input_domain := Cert.Pre_input_domain.Gen.facts) :=
  fun m g _ => (θ_run _ _ _).mono (fun _ h c => (h c).2) (run m g)

/-- Under the precondition the reference ends with its result at the specification of its arguments' launch
    contents, the arguments unchanged. -/
theorem ref_half (m : (ℓ : Loc Cert.ReferenceIdeal.nD Cert.ReferenceIdeal.τ Cert.ReferenceIdeal.sig) → Buf (Elt Ideal) ℓ) (g : Dev Cert.ReferenceIdeal.nD → PrngReg)
    (hpre : Cert.Pre_ReferenceIdeal (hPre_input_domain := Cert.Pre_input_domain.Gen.facts) m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v20)
          = Cert.Spec.out (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run _ _ _).mono
    (fun _ h c => ⟨(h c).1.trans (refOut_eq_spec _ _ _ _ _ _ (adj_le _ _ _ _ _ _ (hpre c))), (h c).2⟩)
    (run m g)

end Cert.RefSide

end
-- ==== Proof.Setup.lean ====
/-
  The launch set-up of the idealized kernel's program: one vector-subcore call on two SparseCores of sixteen vector
  subcores each, followed on the TensorCore by one pipelined region; the ghost state is the handshakes' rounds beside the
  region's cells and the local transfers' counters.
-/
import proofs.«208587_g27212912787602_cont_9to1_1073_18_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«208587_g27212912787602_cont_9to1_1073_18_alg».proof.Proof.Gen.KernelIdeal
import proofs.«208587_g27212912787602_cont_9to1_1073_18_alg».proof.Proof.Gen.KernelIdeal.Skeleton

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the region's cells, the transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.KI

end
-- ==== Proof.Pay.lean ====
/-
  What the call's handshakes carry, and the two gathered arrays as functions of the table and the index lists.

  The thirty-two vector subcores each own 1024 consecutive rows of the two result arrays: subcore s of SparseCore c
  is worker w = 2 s + c and owns rows [1024 w, 1024 (w + 1)). Row n of the first result is the table row that word n
  of the "own" index list names; row n of the second is the sum, left to right, of the sixteen table rows that words
  16 n … 16 n + 15 of the neighbour index list name. The table and the two index lists are only read: every subcore
  gets a read share of each.
-/
import proofs.«208587_g27212912787602_cont_9to1_1073_18_alg».proof.Proof.Setup
import proofs.«208587_g27212912787602_cont_9to1_1073_18_alg».proof.Proof.Spec

noncomputable section

namespace Cert.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The gathered values -/

/-- Word `q` of an index list laid out in rows of 128. -/
def wordAt {R : Nat} (idx : IVec (⟨2, ![R, 128]⟩ : Shape) 32) (q : Nat) (h : q < R * 128) : BitVec 32 :=
  idx (ix2 ⟨q / 128, by rw [Nat.div_lt_iff_lt_mul (by norm_num)]; exact h⟩ ⟨q % 128, Nat.mod_lt _ (by norm_num)⟩)

/-- The sum of sixteen terms, left to right. -/
def chain16 [FloatOps F] (f : Fin 16 → F .f32) : F .f32 :=
  FloatOps.addf (FloatOps.addf (FloatOps.addf (FloatOps.addf (FloatOps.addf (FloatOps.addf (FloatOps.addf (FloatOps.addf
    (FloatOps.addf (FloatOps.addf (FloatOps.addf (FloatOps.addf (FloatOps.addf (FloatOps.addf (FloatOps.addf (f 0) (f 1)) (f 2)) (f 3)) (f 4)) (f 5))
      (f 6)) (f 7)) (f 8)) (f 9)) (f 10)) (f 11)) (f 12)) (f 13)) (f 14)) (f 15)

/-- Row `n` of the first result: the table row word `n` of the own-index list names. -/
def selfVal (emb : FVec F S100001x128 .f32) (is : IVec S256x128 32) : FVec F S32768x128 .f32 := fun j =>
  emb (ix2 (Cert.Spec.rowOf (wordAt (R := 256) is (j 0).val (j 0).isLt)) (j 1))

/-- Row `n` of the second result: the left-to-right sum of the sixteen table rows words 16 n + r name. -/
def neiVal [FloatOps F] (emb : FVec F S100001x128 .f32) (inn : IVec S4096x128 32) : FVec F S32768x128 .f32 := fun j =>
  chain16 fun r => emb (ix2 (Cert.Spec.rowOf (wordAt (R := 4096) inn ((j 0).val * 16 + r.val)
    (by have h1 : (j 0).val < 32768 := (j 0).isLt; have h2 := r.isLt; omega))) (j 1))

/-! ## Locations, rows, shares -/

abbrev embLoc (d : Dev nD) : Loc nD τ sig := (SparseCore.T d).loc main_arg1
abbrev isLoc (d : Dev nD) : Loc nD τ sig := (SparseCore.T d).loc main_v3
abbrev inLoc (d : Dev nD) : Loc nD τ sig := (SparseCore.T d).loc main_v5
abbrev soLoc (d : Dev nD) : Loc nD τ sig := (SparseCore.T d).loc main_v6_0
abbrev noLoc (d : Dev nD) : Loc nD τ sig := (SparseCore.T d).loc main_v6_1

theorem hdiv32 : 32 ∣ S32768x128.size 0 := ⟨1024, rfl⟩
/-- The 1024 rows of worker `w`. -/
abbrev wRows (w : Fin 32) : Rect S32768x128 := Rect.part (s := S32768x128) (a₀ := 0) hdiv32 w
abbrev wRowSet (w : Fin 32) : Finset S32768x128.Idx := (wRows w).set
/-- The worker number of subcore `s` of SparseCore `c`. -/
def wOf (c : Fin 2) (s : Fin 16) : Fin 32 := ⟨s.val * 2 + c.val, by omega⟩

/-- SparseCore `c`'s read share of an array read by all, and subcore `s`'s share of that. -/
abbrev cShare (c : Fin 2) : PosShare TreeShare := Transfers.shareTok fullShare 2 c
abbrev tShare (c : Fin 2) (s : Fin 16) : PosShare TreeShare := Transfers.shareTok (cShare c) 16 s

variable (m : (ℓ : Loc nD τ sig) → Buf (Elt F) ℓ) (Is : IVec S256x128 32) (In : IVec S4096x128 32)

/-- What a subcore is handed: its read shares and its rows of the two results, at contents not chosen. -/
def tileIn (d : Dev nD) (c : Fin 2) (s : Fin 16) : sProp 𝕄 :=
  iprop((embLoc d ↦{tShare c s} m (embLoc d)) ∗ (isLoc d ↦{tShare c s} (Is : Buf (Elt F) (isLoc d))) ∗ (inLoc d ↦{tShare c s} (In : Buf (Elt F) (inLoc d)))
    ∗ (∃ f, soLoc d ↦[wRowSet (wOf c s)]{fullShare} f) ∗ (∃ f, noLoc d ↦[wRowSet (wOf c s)]{fullShare} f))

/-- What it hands back: the shares, and its rows at the gathered values. -/
def tileOut [FloatOps F] (d : Dev nD) (c : Fin 2) (s : Fin 16) : sProp 𝕄 :=
  iprop((embLoc d ↦{tShare c s} m (embLoc d)) ∗ (isLoc d ↦{tShare c s} (Is : Buf (Elt F) (isLoc d))) ∗ (inLoc d ↦{tShare c s} (In : Buf (Elt F) (inLoc d)))
    ∗ (soLoc d ↦[wRowSet (wOf c s)]{fullShare} (selfVal (m (embLoc d)) Is : Buf (Elt F) (soLoc d)))
    ∗ (noLoc d ↦[wRowSet (wOf c s)]{fullShare} (neiVal (m (embLoc d)) In : Buf (Elt F) (noLoc d))))

/-- What a SparseCore is handed: its read shares, and its sixteen subcores' rows. -/
def coreIn (d : Dev nD) (c : Fin 2) : sProp 𝕄 :=
  iprop((embLoc d ↦{cShare c} m (embLoc d)) ∗ (isLoc d ↦{cShare c} (Is : Buf (Elt F) (isLoc d))) ∗ (inLoc d ↦{cShare c} (In : Buf (Elt F) (inLoc d)))
    ∗ bigSep Finset.univ fun s : Fin 16 => iprop((∃ f, soLoc d ↦[wRowSet (wOf c s)]{fullShare} f) ∗ (∃ f, noLoc d ↦[wRowSet (wOf c s)]{fullShare} f)))

def coreOut [FloatOps F] (d : Dev nD) (c : Fin 2) : sProp 𝕄 :=
  iprop((embLoc d ↦{cShare c} m (embLoc d)) ∗ (isLoc d ↦{cShare c} (Is : Buf (Elt F) (isLoc d))) ∗ (inLoc d ↦{cShare c} (In : Buf (Elt F) (inLoc d)))
    ∗ bigSep Finset.univ fun s : Fin 16 => iprop((soLoc d ↦[wRowSet (wOf c s)]{fullShare} (selfVal (m (embLoc d)) Is : Buf (Elt F) (soLoc d)))
        ∗ (noLoc d ↦[wRowSet (wOf c s)]{fullShare} (neiVal (m (embLoc d)) In : Buf (Elt F) (noLoc d)))))

/-- The call's payloads. The kernel's own transfers need no ghost state of the launch's. -/
def P [FloatOps F] : (K (F := F)).Pay (nD := nD) (Val := Elt F) (Name := ℕ) (U := UU) where
  st := fun q d c => match q with | 0 => coreIn m Is In d (Fin.cast nCore_zero c)
  dn := fun q d c => match q with | 0 => coreOut m Is In d (Fin.cast nCore_zero c)
  go := fun q d c s => match q with | 0 => tileIn m Is In d (Fin.cast nCore_zero c) (Fin.cast nSub_zero s)
  td := fun q d c s => match q with | 0 => tileOut m Is In d (Fin.cast nCore_zero c) (Fin.cast nSub_zero s)
  x := fun _ _ => iprop(emp)

instance P_storable [FloatOps F] : (P (F := F) m Is In).IsStorable where
  st q d c := match q with | 0 => by unfold P coreIn; infer_instance
  dn q d c := match q with | 0 => by unfold P coreOut; infer_instance
  go q d c s := match q with | 0 => by unfold P tileIn; infer_instance
  td q d c s := match q with | 0 => by unfold P tileOut; infer_instance

end Cert.KI

end
-- ==== Proof.MainHost.lean ====
import proofs.«208587_g27212912787602_cont_9to1_1073_18_alg».proof.Proof.Pay

noncomputable section

namespace Cert.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after after_cons after_nil)
open Idealize.ShloMosaic.Tactic

variable {F : FTy → Type}

local notation "𝕄" => MT nD τ sig (HIx 1) (Elt F) ℕ UU ℕ

/-! ## The index lists the call reads, as functions of the adjacency array

The host prefix reshapes the adjacency array to one row of seventeen words per batch entry, cuts the first word of
every row (the node's own index) and the other sixteen (its neighbours'), and lays each list out in rows of 128. -/

/-- The own-index list: word `n` is the first word of batch entry `n`. -/
def isOf (adj : IVec S1024x1x32x17 32) : IVec S256x128 32 :=
  shapeCast S256x128 (shapeCast S32768 (extractStridedSlice S32768x1 ![0, 0]
    (shapeCast S32768x17 adj shapeCasts_S1024x1x32x17_S32768x17) slices_S32768x17_S32768x1_0_0)
    shapeCasts_S32768x1_S32768) shapeCasts_S32768_S256x128

/-- The neighbour-index list: word `16 n + r` is word `r + 1` of batch entry `n`. -/
def inOf (adj : IVec S1024x1x32x17 32) : IVec S4096x128 32 :=
  shapeCast S4096x128 (extractStridedSlice S32768x16 ![0, 1]
    (shapeCast S32768x17 adj shapeCasts_S1024x1x32x17_S32768x17) slices_S32768x17_S32768x16_0_1)
    shapeCasts_S32768x16_S4096x128

/-! ## The TensorCore's arrays -/

abbrev r_arg0 : DevRef τ sig := Proc.devRef .tc (main_arg0 : Ref sig .tc)
abbrev r_arg1 : DevRef τ sig := Proc.devRef .tc (main_arg1 : Ref sig .tc)
abbrev r_arg2 : DevRef τ sig := Proc.devRef .tc (main_arg2 : Ref sig .tc)
abbrev r_arg3 : DevRef τ sig := Proc.devRef .tc (main_arg3 : Ref sig .tc)
abbrev r_arg4 : DevRef τ sig := Proc.devRef .tc (main_arg4 : Ref sig .tc)
abbrev r_arg5 : DevRef τ sig := Proc.devRef .tc (main_arg5 : Ref sig .tc)
abbrev r_v0 : DevRef τ sig := Proc.devRef .tc (main_v0 : Ref sig .tc)
abbrev r_v1 : DevRef τ sig := Proc.devRef .tc (main_v1 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)
abbrev r_v5 : DevRef τ sig := Proc.devRef .tc (main_v5 : Ref sig .tc)
abbrev r_v6_0 : DevRef τ sig := Proc.devRef .tc (main_v6_0 : Ref sig .tc)
abbrev r_v6_1 : DevRef τ sig := Proc.devRef .tc (main_v6_1 : Ref sig .tc)
abbrev r_v7 : DevRef τ sig := Proc.devRef .tc (main_v7 : Ref sig .tc)
abbrev r_v8 : DevRef τ sig := Proc.devRef .tc (main_v8 : Ref sig .tc)

/-- The TensorCore's sixteen unscoped arrays. -/
abbrev S16 : Finset (DevRef τ sig) := {r_arg0, r_arg1, r_arg2, r_arg3, r_arg4, r_arg5, r_v0, r_v1, r_v2, r_v3, r_v4, r_v5, r_v6_0, r_v6_1, r_v7, r_v8}

theorem held_S16 (d : Dev nD) (W : Valuation τ sig (Elt F)) :
    (held (T d) S16 W : sProp 𝕄) = iprop(((SparseCore.T d).loc main_arg0 ↦{fullShare} W r_arg0) ∗ ((SparseCore.T d).loc main_arg1 ↦{fullShare} W r_arg1) ∗ ((SparseCore.T d).loc main_arg2 ↦{fullShare} W r_arg2) ∗ ((SparseCore.T d).loc main_arg3 ↦{fullShare} W r_arg3) ∗ ((SparseCore.T d).loc main_arg4 ↦{fullShare} W r_arg4) ∗ ((SparseCore.T d).loc main_arg5 ↦{fullShare} W r_arg5) ∗ ((SparseCore.T d).loc main_v0 ↦{fullShare} W r_v0) ∗ ((SparseCore.T d).loc main_v1 ↦{fullShare} W r_v1) ∗ ((SparseCore.T d).loc main_v2 ↦{fullShare} W r_v2) ∗ ((SparseCore.T d).loc main_v3 ↦{fullShare} W r_v3) ∗ ((SparseCore.T d).loc main_v4 ↦{fullShare} W r_v4) ∗ ((SparseCore.T d).loc main_v5 ↦{fullShare} W r_v5) ∗ ((SparseCore.T d).loc main_v6_0 ↦{fullShare} W r_v6_0) ∗ ((SparseCore.T d).loc main_v6_1 ↦{fullShare} W r_v6_1) ∗ ((SparseCore.T d).loc main_v7 ↦{fullShare} W r_v7) ∗ ((SparseCore.T d).loc main_v8 ↦{fullShare} W r_v8)) := by
  unfold held S16
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_arg4 ↦{fullShare} W main_arg4) ∗ ((SparseCore.T d).loc main_arg5 ↦{fullShare} W main_arg5) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6_0 ↦{fullShare} W main_v6_0) ∗ ((SparseCore.T d).loc main_v6_1 ↦{fullShare} W main_v6_1) ∗ ((SparseCore.T d).loc main_v7 ↦{fullShare} W main_v7) ∗ ((SparseCore.T d).loc main_v8 ↦{fullShare} W main_v8)) := by
  unfold unscopedBufs
  rw [show (Finset.univ.filter fun b : Ref sig .tc => ¬ b.isScoped) = {main_arg0, main_arg1, main_arg2, main_arg3, main_arg4, main_arg5, main_v0, main_v1, main_v2, main_v3, main_v4, main_v5, main_v6_0, main_v6_1, main_v7, main_v8} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

variable (m : (ℓ : Loc nD τ sig) → Buf (Elt F) ℓ)

/-- The launch valuation. -/
def V0 (d : Dev nD) : Valuation τ sig (Elt F) := fun b => m (d, b)

theorem unscoped_held (d : Dev nD) : (unscopedBufs d (fun b => m ((SparseCore.T d).loc b)) : sProp 𝕄) = held (T d) S16 (V0 m d) := by
  rw [unscopedBufs_eq, held_S16]; rfl

/-! ## The host prefix -/

section Ops
variable [FloatOps F]

def op1 : HloOp τ sig (Elt F) := StableHlo.reshape main_arg0 main_v0 rfl shapeCasts_S1024x1x32x17_S32768x17
def op2 : HloOp τ sig (Elt F) := StableHlo.unary main_v0 main_v1 ((extractStridedSlice S32768x1 ![0, 0] · slices_S32768x17_S32768x1_0_0) : (⟨S32768x17, .i32⟩ : BufTy).Contents (Elt F) → (⟨S32768x1, .i32⟩ : BufTy).Contents (Elt F))
def op3 : HloOp τ sig (Elt F) := StableHlo.reshape main_v1 main_v2 rfl shapeCasts_S32768x1_S32768
def op4 : HloOp τ sig (Elt F) := StableHlo.reshape main_v2 main_v3 rfl shapeCasts_S32768_S256x128
def op5 : HloOp τ sig (Elt F) := StableHlo.unary main_v0 main_v4 ((extractStridedSlice S32768x16 ![0, 1] · slices_S32768x17_S32768x16_0_1) : (⟨S32768x17, .i32⟩ : BufTy).Contents (Elt F) → (⟨S32768x16, .i32⟩ : BufTy).Contents (Elt F))
def op6 : HloOp τ sig (Elt F) := StableHlo.reshape main_v4 main_v5 rfl shapeCasts_S32768x16_S4096x128
def opLast : HloOp τ sig (Elt F) := StableHlo.reshape main_v7 main_v8 rfl shapeCasts_S32768x128_S1024x1x32x128

def hostOps : List (HloOp τ sig (Elt F)) := [op1, op2, op3, op4, op5, op6]

/-- @main as the host prefix, the call, the region, the last reshape. -/
theorem main_eq (d : Dev nD) :
    main (F := F) d = (StableHlo.seq (hostOps (F := F)) >>= fun _ => (K (F := F)).run d 0 >>= fun _ =>
      SparseCore.liftProg (Q := 1) (.op (.customCall (Pipeline.entry 0) ()) fun _ => .ret PUnit.unit) >>= fun _ =>
      hlo rfl (opLast (F := F)) (fun _ => .ret PUnit.unit) >>= fun _ => pure PUnit.unit) := rfl

end Ops

end Cert.KI

end
-- ==== Proof.MainVal.lean ====
import proofs.«208587_g27212912787602_cont_9to1_1073_18_alg».proof.Proof.Pay
import proofs.«208587_g27212912787602_cont_9to1_1073_18_alg».proof.Proof.MainHost

noncomputable section

namespace Cert.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after after_cons after_nil)
open Idealize.ShloMosaic.Tactic

variable {F : FTy → Type}

local notation "𝕄" => MT nD τ sig (HIx 1) (Elt F) ℕ UU ℕ

/-! ## The region's value and the program's, as whole-array functions -/

/-- Row `n`, column `j` of the dense layers' result: the body's payload of block `n / 4096` of the two gathered
    arrays and the four matrices, at `(n % 4096, j)`. -/
def mmVal [FloatOps F] (selfA neiA : FVec F S32768x128 .f32) (w0a w0s w1a w1s : FVec F S128x128 .f32) : FVec F S32768x128 .f32 := fun i =>
  k1_pay1 (F := F)
    (fun y => neiA (ix2 ⟨(i 0).val / 4096 * 4096 + (y 0).val, by have h1 : (i 0).val < 32768 := (i 0).isLt; have h2 : (y 0).val < 4096 := (y 0).isLt; omega⟩ (y 1)))
    (fun y => selfA (ix2 ⟨(i 0).val / 4096 * 4096 + (y 0).val, by have h1 : (i 0).val < 32768 := (i 0).isLt; have h2 : (y 0).val < 4096 := (y 0).isLt; omega⟩ (y 1)))
    w0s w0a w1s w1a (ix2 ⟨(i 0).val % 4096, Nat.mod_lt _ (by norm_num)⟩ (i 1))

/-- The program's result as a function of its six arguments. -/
def outVal [FloatOps F] (adj : IVec S1024x1x32x17 32) (emb : FVec F S100001x128 .f32) (w0a w0s w1a w1s : FVec F S128x128 .f32) : FVec F S1024x1x32x128 .f32 :=
  shapeCast S1024x1x32x128 (mmVal (selfVal emb (isOf adj)) (neiVal emb (inOf adj)) w0a w0s w1a w1s) shapeCasts_S32768x128_S1024x1x32x128

end Cert.KI

end
-- ==== Proof.MathChain.lean ====
/-
  The left-to-right sum of sixteen terms is, on the extended reals, their sum over Fin 16: addition there is
  associative and commutative with no exception at the infinities, so the grouping is immaterial. Hence row n of the
  neighbour array is, column by column, the sum over r of the table row that word 16 n + r of the neighbour list names,
  and row n of the own array is the table row word n of the own list names.
-/
import proofs.«208587_g27212912787602_cont_9to1_1073_18_alg».proof.Proof.Pay

noncomputable section

open scoped BigOperators

namespace Cert.KMath

open Cert.KernelIdeal Cert.KernelIdeal.Gen
open Idealize.ShloMosaic Idealize.ShloMosaic.ValueIdx

/-- Sixteen terms summed over Fin 16, written out from the left. -/
theorem sum16_unfold {M : Type*} [AddCommMonoid M] (f : Fin 16 → M) :
    ∑ r : Fin 16, f r
      = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- The left-to-right chain of sixteen additions is the sum. -/
theorem chain16_sum (f : Fin 16 → EReal) : Cert.KI.chain16 (F := Ideal) f = ∑ r : Fin 16, f r := by
  rw [sum16_unfold]
  rfl

/-- The neighbour array at (n, k): the sum over the sixteen neighbour words of entry n of the table rows they name. -/
theorem neiVal_apply (emb : FVec Ideal S100001x128 .f32) (inn : IVec S4096x128 32) (n : Fin 32768) (k : Fin 128) :
    Cert.KI.neiVal (F := Ideal) emb inn (ix2 n k)
      = ∑ r : Fin 16, emb (ix2 (Cert.Spec.rowOf (Cert.KI.wordAt (R := 4096) inn (n.val * 16 + r.val)
          (by have h1 := n.isLt; have h2 := r.isLt; omega))) k) := by
  unfold Cert.KI.neiVal
  exact chain16_sum _

/-- The own array at (n, k): the table row word n of the own list names. -/
theorem selfVal_apply (emb : FVec Ideal S100001x128 .f32) (is : IVec S256x128 32) (n : Fin 32768) (k : Fin 128) :
    Cert.KI.selfVal (F := Ideal) emb is (ix2 n k)
      = emb (ix2 (Cert.Spec.rowOf (Cert.KI.wordAt (R := 256) is n.val n.isLt)) k) := rfl

end Cert.KMath

end
-- ==== Proof.LibPlainDot.lean ====
/-
  A PLAIN MATRIX PRODUCT'S CONTRACTION AS A SUM OVER ITS INNER EXTENT.

  For dimension numbers of a product of an [M, K] matrix with a [K, N] matrix into [M, N] — one contracted axis, the
  left operand's second against the right operand's first, no batch axis — the contraction ranges over a rank-one
  index type of extent K. Whenever the record's operand indices at result entry (r, c) and contraction position k are
  (r, k) and (k, c) (four coordinate equations, each `rfl` for a record with literal axis lists), the contraction
      ∑ k, lhs (lhsIdx (r, c) k) * rhs (rhsIdx (r, c) k)
  is ∑ k : Fin K, lhs (r, k) * rhs (k, c). Both a vector unit's product into a zero accumulator and a host
  dot_general read as that contraction at the exact instance, so both are this sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The contraction of a plain product at entry `(r, c)`, re-indexed by the one contraction coordinate. -/
theorem contraction_eq_sum {M K N : Nat} (d : DotDims ⟨2, ![M, K]⟩ ⟨2, ![K, N]⟩ ⟨2, ![M, N]⟩)
    (hr : d.contr.rank = 1) (hs : d.contr.size ⟨0, by omega⟩ = K)
    (h1 : ∀ (j : (⟨2, ![M, N]⟩ : Shape).Idx) (k : d.contr.Idx), (d.lhsIdx j k 0).val = (j 0).val)
    (h2 : ∀ (j : (⟨2, ![M, N]⟩ : Shape).Idx) (k : d.contr.Idx), (d.lhsIdx j k 1).val = (k ⟨0, by omega⟩).val)
    (h3 : ∀ (j : (⟨2, ![M, N]⟩ : Shape).Idx) (k : d.contr.Idx), (d.rhsIdx j k 0).val = (k ⟨0, by omega⟩).val)
    (h4 : ∀ (j : (⟨2, ![M, N]⟩ : Shape).Idx) (k : d.contr.Idx), (d.rhsIdx j k 1).val = (j 1).val)
    (lhs : (⟨2, ![M, K]⟩ : Shape).Idx → EReal) (rhs : (⟨2, ![K, N]⟩ : Shape).Idx → EReal) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hr hs).symm]
  refine Finset.sum_congr rfl fun k _ => ?_
  have el : d.lhsIdx (ix2 r c) ((contrEquiv1 d K hr hs).symm k) = ix2 r k := by
    funext a
    refine Fin.ext ?_
    match a with
    | ⟨0, _⟩ => exact h1 _ _
    | ⟨1, _⟩ => exact (h2 _ _).trans (contrEquiv1_symm_val d K hr hs k)
  have er : d.rhsIdx (ix2 r c) ((contrEquiv1 d K hr hs).symm k) = ix2 k c := by
    funext a
    refine Fin.ext ?_
    match a with
    | ⟨0, _⟩ => exact (h3 _ _).trans (contrEquiv1_symm_val d K hr hs k)
    | ⟨1, _⟩ => exact h4 _ _
  rw [el, er]

end Idealize.ShloMosaic.PlainDot

end
-- ==== Proof.MathBlock.lean ====
/-
  One block of the dense part, read entry by entry on the extended reals.

  The block's rows are 4096 entries of the batch. With nei the block of neighbour sums and self the block of own
  rows, the averaged neighbours are nei times 1/16 (the word of 0.0625), the first layer is
      h = max (self · W0self + (nei/16) · W0agg) 0,
  and the stored value is max (h · W1self + (nei/16) · W1agg) 0. Each matrix product accumulates into zero, so at
  entry (r, j) it is the sum over k of the left operand at (r, k) times the right operand at (k, j); the other
  operations act entry by entry.
-/
import proofs.«208587_g27212912787602_cont_9to1_1073_18_alg».proof.Proof.Gen.KernelIdeal
import proofs.«208587_g27212912787602_cont_9to1_1073_18_alg».proof.Proof.Gen.KernelIdeal.Skeleton
import proofs.«208587_g27212912787602_cont_9to1_1073_18_alg».proof.Proof.LibPlainDot
import Idealize.ShloMosaic.Lib.Pipeline.Value

noncomputable section

open scoped BigOperators

namespace Cert.KMath

open Cert.KernelIdeal Cert.KernelIdeal.Gen
open Idealize.ShloMosaic Idealize.ShloMosaic.ValueIdx

/-- A product of a 4096 × 128 block with a 128 × 128 matrix into a zero accumulator, at entry (r, j): the sum over
    the inner coordinate. -/
theorem mm_apply (x : FVec Ideal S4096x128 .f32) (w : FVec Ideal S128x128 .f32) (r : Fin 4096) (j : Fin 128) :
    matmul dot_S4096x128_S128x128_S4096x128_1_0_0_1_n_n none x w (constant (F := Ideal) S4096x128 .f32 0x00000000#32) (ix2 r j)
      = ∑ k : Fin 128, x (ix2 r k) * w (ix2 k j) := by
  refine (Ideal.matmul_constant_zero_apply dot_S4096x128_S128x128_S4096x128_1_0_0_1_n_n none x w (ix2 r j)).trans ?_
  exact PlainDot.contraction_eq_sum (M := 4096) (K := 128) (N := 128) dot_S4096x128_S128x128_S4096x128_1_0_0_1_n_n rfl rfl
    (fun _ _ => rfl)
    (fun jj k => dot_S4096x128_S128x128_S4096x128_1_0_0_1_n_n.lhsIdx_val_of_single (cl := 1) rfl jj k)
    (fun jj k => dot_S4096x128_S128x128_S4096x128_1_0_0_1_n_n.rhsIdx_val_of_single (cr := 0) rfl jj k)
    (fun _ _ => rfl) x w r j

/-- A literal word read as a scalar is the extended real it encodes. -/
theorem scalar_ofBits (b : BitVec 32) : Scalar.ofBits (F := Ideal) .f32 b = Ideal.ofBits .f32 b := rfl

/-- The block's stored value at entry (r, j). -/
theorem k1_pay1_apply (nei self : FVec Ideal S4096x128 .f32) (w0s w0a w1s w1a : FVec Ideal S128x128 .f32)
    (r : Fin 4096) (j : Fin 128) :
    k1_pay1 (F := Ideal) nei self w0s w0a w1s w1a (ix2 r j)
      = max ((∑ k : Fin 128, (max ((∑ k' : Fin 128, self (ix2 r k') * w0s (ix2 k' k))
              + (∑ k' : Fin 128, (nei (ix2 r k') * Ideal.ofBits .f32 0x3D800000#32) * w0a (ix2 k' k))) 0) * w1s (ix2 k j))
          + (∑ k : Fin 128, (nei (ix2 r k) * Ideal.ofBits .f32 0x3D800000#32) * w1a (ix2 k j))) 0 := by
  unfold k1_pay1
  simp only [shapeCast_self, maximumf_apply, addf_apply, mm_apply, mulf_apply, broadcast_apply, scalar_ofBits,
    Ideal.ofBits_zero_f32]

end Cert.KMath

end
-- ==== Proof.MathIdx.lean ====
/-
  The two index lists as readings of the adjacency array.

  The adjacency array holds, for batch entry (b, s), seventeen words. Flattened to one row of seventeen words per
  entry, entry (b, s) is row n = 32 b + s. The own-index list is column 0 of those rows laid out 128 words to a row,
  so its word n is word 0 of entry (b, s); the neighbour-index list is columns 1 … 16 laid out 128 words to a row, so
  its word 16 n + r is word r + 1 of entry (b, s). Every word of either list is a word of the adjacency array, so a
  bound on all words of the array bounds all words of the lists.
-/
import proofs.«208587_g27212912787602_cont_9to1_1073_18_alg».proof.Proof.MainHost
import Idealize.ShloMosaic.Lib.Pipeline.Value

noncomputable section

namespace Cert.KMath

open Cert.KernelIdeal Cert.KernelIdeal.Gen
open Idealize.ShloMosaic Idealize.ShloMosaic.ValueIdx

/-- Row n = 32 b + s, column t of the flattened adjacency array is word t of entry (b, s). -/
theorem flat_apply (adj : IVec S1024x1x32x17 32) (b : Fin 1024) (s : Fin 32) (t : Fin 17) (n : Fin 32768)
    (hn : n.val = b.val * 32 + s.val) :
    shapeCast S32768x17 adj shapeCasts_S1024x1x32x17_S32768x17 (ix2 n t) = adj (ix4 b (0 : Fin 1) s t) := by
  refine shapeCast_apply adj _ (ix2 n t) (ix4 b (0 : Fin 1) s t) ?_
  rw [Shape.rowMajor_val_four, Shape.rowMajor_val_two]
  show ((b.val * 1 + 0) * 32 + s.val) * 17 + t.val = n.val * 17 + t.val
  omega

/-- Word n = 32 b + s of the own-index list is word 0 of entry (b, s). -/
theorem isOf_wordAt (adj : IVec S1024x1x32x17 32) (b : Fin 1024) (s : Fin 32) (n : Nat)
    (hn : n = b.val * 32 + s.val) (h : n < 256 * 128) :
    Cert.KI.wordAt (R := 256) (Cert.KI.isOf adj) n h = adj (ix4 b (0 : Fin 1) s (0 : Fin 17)) := by
  have hlt : n < 32768 := by omega
  unfold Cert.KI.wordAt Cert.KI.isOf
  refine (shapeCast_apply _ _ _ (ix1 (⟨n, hlt⟩ : Fin 32768)) ?_).trans ?_
  · rw [Shape.rowMajor_val_one, Shape.rowMajor_val_two]
    show n = n / 128 * 128 + n % 128
    omega
  refine (shapeCast_apply _ _ _ (ix2 (⟨n, hlt⟩ : Fin 32768) (0 : Fin 1)) ?_).trans ?_
  · rw [Shape.rowMajor_val_one, Shape.rowMajor_val_two]
    show n * 1 + 0 = n
    omega
  refine (extractStridedSlice_apply _ _ _ _ (ix2 (⟨n, hlt⟩ : Fin 32768) (0 : Fin 17)) ?_).trans ?_
  · intro a
    match a with
    | ⟨0, _⟩ => show n = 0 + n; omega
    | ⟨1, _⟩ => show 0 = 0 + 0; rfl
  exact flat_apply adj b s 0 ⟨n, hlt⟩ hn

/-- Word 16 n + r, n = 32 b + s, of the neighbour-index list is word r + 1 of entry (b, s). -/
theorem inOf_wordAt (adj : IVec S1024x1x32x17 32) (b : Fin 1024) (s : Fin 32) (r : Fin 16) (q : Nat)
    (hq : q = (b.val * 32 + s.val) * 16 + r.val) (h : q < 4096 * 128) :
    Cert.KI.wordAt (R := 4096) (Cert.KI.inOf adj) q h
      = adj (ix4 b (0 : Fin 1) s (⟨r.val + 1, by omega⟩ : Fin 17)) := by
  have hlt : b.val * 32 + s.val < 32768 := by omega
  unfold Cert.KI.wordAt Cert.KI.inOf
  refine (shapeCast_apply _ _ _ (ix2 (⟨b.val * 32 + s.val, hlt⟩ : Fin 32768) r) ?_).trans ?_
  · rw [Shape.rowMajor_val_two, Shape.rowMajor_val_two]
    show (b.val * 32 + s.val) * 16 + r.val = q / 128 * 128 + q % 128
    omega
  refine (extractStridedSlice_apply _ _ _ _
    (ix2 (⟨b.val * 32 + s.val, hlt⟩ : Fin 32768) (⟨r.val + 1, by omega⟩ : Fin 17)) ?_).trans ?_
  · intro a
    match a with
    | ⟨0, _⟩ => show b.val * 32 + s.val = 0 + (b.val * 32 + s.val); omega
    | ⟨1, _⟩ => show r.val + 1 = 1 + r.val; omega
  exact flat_apply adj b s ⟨r.val + 1, by omega⟩ ⟨b.val * 32 + s.val, hlt⟩ rfl

/-- Every word of the own-index list is a word of the adjacency array. -/
theorem isOf_range (adj : IVec S1024x1x32x17 32) (hadj : ∀ i, (adj i).toNat ≤ 100000) (j : S256x128.Idx) :
    (Cert.KI.isOf adj j).toNat ≤ 100000 := hadj _

/-- Every word of the neighbour-index list is a word of the adjacency array. -/
theorem inOf_range (adj : IVec S1024x1x32x17 32) (hadj : ∀ i, (adj i).toNat ≤ 100000) (j : S4096x128.Idx) :
    (Cert.KI.inOf adj j).toNat ≤ 100000 := hadj _

end Cert.KMath

end
-- ==== Proof.MathRow.lean ====
/-
  One row of the dense part is the specification at the batch entry it belongs to.

  Row n = 32 b + s of the own array is the table row that word 0 of entry (b, s) names, and row n of the neighbour
  array is the sum of the table rows that words 1 … 16 of the entry name. Substituted into the block's entry-by-entry
  reading, a block row that carries these two rows gives exactly the specification's value at (b, 0, s, j): the same
  sums, the same factor 1/16, the same two cut-offs at zero, in the same order. No law of arithmetic beyond the
  regrouping of the sixteen-term sum is used, so nothing needs to be finite.
-/
import proofs.«208587_g27212912787602_cont_9to1_1073_18_alg».proof.Proof.MathChain
import proofs.«208587_g27212912787602_cont_9to1_1073_18_alg».proof.Proof.MathBlock
import proofs.«208587_g27212912787602_cont_9to1_1073_18_alg».proof.Proof.MathIdx

noncomputable section

open scoped BigOperators

namespace Cert.KMath

open Cert.KernelIdeal Cert.KernelIdeal.Gen
open Idealize.ShloMosaic Idealize.ShloMosaic.ValueIdx

/-- Row 32 b + s of the own array: the table row the entry's own word names. -/
theorem selfRow (adj : IVec S1024x1x32x17 32) (emb : FVec Ideal S100001x128 .f32) (b : Fin 1024) (s : Fin 32)
    (n : Fin 32768) (hn : n.val = b.val * 32 + s.val) (k : Fin 128) :
    Cert.KI.selfVal (F := Ideal) emb (Cert.KI.isOf adj) (ix2 n k) = Cert.Spec.gathered adj emb b s 0 k := by
  rw [selfVal_apply]
  unfold Cert.Spec.gathered
  exact congrArg (fun w => emb (ix2 (Cert.Spec.rowOf w) k)) (isOf_wordAt adj b s n.val hn _)

/-- Row 32 b + s of the neighbour array: the sum of the table rows the entry's sixteen neighbour words name. -/
theorem neiRow (adj : IVec S1024x1x32x17 32) (emb : FVec Ideal S100001x128 .f32) (b : Fin 1024) (s : Fin 32)
    (n : Fin 32768) (hn : n.val = b.val * 32 + s.val) (k : Fin 128) :
    Cert.KI.neiVal (F := Ideal) emb (Cert.KI.inOf adj) (ix2 n k)
      = ∑ r : Fin 16, Cert.Spec.gathered adj emb b s ⟨r.val + 1, by omega⟩ k := by
  rw [neiVal_apply]
  refine Finset.sum_congr rfl fun r _ => ?_
  unfold Cert.Spec.gathered
  exact congrArg (fun w => emb (ix2 (Cert.Spec.rowOf w) k)) (inOf_wordAt adj b s r _ (by rw [hn]) _)

/-- A block whose row r carries rows 32 b + s of the two gathered arrays stores, at (r, j), the specification's
    value at (b, 0, s, j). -/
theorem block_eq_spec (adj : IVec S1024x1x32x17 32) (emb : FVec Ideal S100001x128 .f32)
    (w0a w0s w1a w1s : FVec Ideal S128x128 .f32) (b : Fin 1024) (s : Fin 32) (j : Fin 128)
    (n : Fin 32768) (hn : n.val = b.val * 32 + s.val)
    (nei self : FVec Ideal S4096x128 .f32) (r : Fin 4096)
    (hself : ∀ k : Fin 128, self (ix2 r k) = Cert.KI.selfVal (F := Ideal) emb (Cert.KI.isOf adj) (ix2 n k))
    (hnei : ∀ k : Fin 128, nei (ix2 r k) = Cert.KI.neiVal (F := Ideal) emb (Cert.KI.inOf adj) (ix2 n k)) :
    k1_pay1 (F := Ideal) nei self w0s w0a w1s w1a (ix2 r j)
      = Cert.Spec.out adj emb w0a w0s w1a w1s (ix4 b (0 : Fin 1) s j) := by
  rw [k1_pay1_apply]
  unfold Cert.Spec.out Cert.Spec.hidden Cert.Spec.aggr
  simp only [hself, hnei, selfRow adj emb b s n hn, neiRow adj emb b s n hn]

end Cert.KMath

end
-- ==== Proof.MathOut.lean ====
/-
  The program's whole result is the specification.

  Entry (b, 0, s, j) of the result array is, through the final reshape, row n = 32 b + s, column j of the dense
  part's [32768, 128] array; that row lies in block n / 4096 at block row n % 4096, and the block's rows are rows
  4096 (n / 4096) + r of the two gathered arrays, so the block row carries exactly rows n of both. The row's value is
  then the specification's by the reading of one block row.
-/
import proofs.«208587_g27212912787602_cont_9to1_1073_18_alg».proof.Proof.MainVal
import proofs.«208587_g27212912787602_cont_9to1_1073_18_alg».proof.Proof.MathRow

noncomputable section

open scoped BigOperators

namespace Cert.KMath

open Cert.KernelIdeal Cert.KernelIdeal.Gen
open Idealize.ShloMosaic Idealize.ShloMosaic.ValueIdx

/-- The kernel side's whole-array value is the specification. -/
theorem outVal_eq_spec (adj : IVec S1024x1x32x17 32) (emb : FVec Ideal S100001x128 .f32)
    (w0a w0s w1a w1s : FVec Ideal S128x128 .f32) :
    Cert.KI.outVal (F := Ideal) adj emb w0a w0s w1a w1s = Cert.Spec.out adj emb w0a w0s w1a w1s := by
  funext i
  obtain ⟨b, u, s, j, rfl⟩ : ∃ (b : Fin 1024) (u : Fin 1) (s : Fin 32) (j : Fin 128), i = ix4 b u s j :=
    ⟨i 0, i 1, i 2, i 3, eq_ix4 i⟩
  obtain rfl : u = 0 := Subsingleton.elim _ _
  have hlt : b.val * 32 + s.val < 32768 := by omega
  unfold Cert.KI.outVal
  refine (shapeCast_apply _ _ (ix4 b (0 : Fin 1) s j) (ix2 (⟨b.val * 32 + s.val, hlt⟩ : Fin 32768) j) ?_).trans ?_
  · rw [Shape.rowMajor_val_two, Shape.rowMajor_val_four]
    show (b.val * 32 + s.val) * 128 + j.val = ((b.val * 1 + 0) * 32 + s.val) * 128 + j.val
    omega
  unfold Cert.KI.mmVal
  refine block_eq_spec adj emb w0a w0s w1a w1s b s j ⟨b.val * 32 + s.val, hlt⟩ rfl _ _ _ ?_ ?_
  · intro k
    exact congrArg (fun q : Fin 32768 => Cert.KI.selfVal (F := Ideal) emb (Cert.KI.isOf adj) (ix2 q k))
      (Fin.ext (by
        show (b.val * 32 + s.val) / 4096 * 4096 + (b.val * 32 + s.val) % 4096 = b.val * 32 + s.val
        omega))
  · intro k
    exact congrArg (fun q : Fin 32768 => Cert.KI.neiVal (F := Ideal) emb (Cert.KI.inOf adj) (ix2 q k))
      (Fin.ext (by
        show (b.val * 32 + s.val) / 4096 * 4096 + (b.val * 32 + s.val) % 4096 = b.val * 32 + s.val
        omega))

end Cert.KMath

end
-- ==== Proof.MainCall.lean ====
import proofs.«208587_g27212912787602_cont_9to1_1073_18_alg».proof.Proof.Pay
import proofs.«208587_g27212912787602_cont_9to1_1073_18_alg».proof.Proof.MainHost

noncomputable section

namespace Cert.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after after_cons after_nil)
open Idealize.ShloMosaic.Tactic

variable {F : FTy → Type}

local notation "𝕄" => MT nD τ sig (HIx 1) (Elt F) ℕ UU ℕ

/-! ## What the call takes and hands back on the TensorCore

The table and the two index lists go out as read shares, one per SparseCore, the remainder kept; each result array
goes out as the thirty-two workers' row sets, which tile it, and comes back whole at the one gathered function. -/

/-- Worker numbers are pairs (SparseCore, subcore): `w = 2 s + c`. -/
def wEquiv : Fin 2 × Fin 16 ≃ Fin 32 where
  toFun p := wOf p.1 p.2
  invFun w := (⟨w.val % 2, Nat.mod_lt _ (by norm_num)⟩, ⟨w.val / 2, by have := w.isLt; omega⟩)
  left_inv p := by
    obtain ⟨c, s⟩ := p
    have hc := c.isLt; have hs := s.isLt
    refine Prod.ext (Fin.ext ?_) (Fin.ext ?_)
    · show (s.val * 2 + c.val) % 2 = c.val; omega
    · show (s.val * 2 + c.val) / 2 = s.val; omega
  right_inv w := by
    refine Fin.ext ?_
    show w.val / 2 * 2 + w.val % 2 = w.val; omega

theorem bigSep_workers {M : Type} [URA M] (Φ : Fin 32 → sProp M) :
    bigSep Finset.univ Φ = bigSep Finset.univ fun c : Fin 2 => bigSep Finset.univ fun s : Fin 16 => Φ (wOf c s) := by
  rw [← bigSep_univ_prod (fun p : Fin 2 × Fin 16 => Φ (wOf p.1 p.2)), ← Finset.map_univ_equiv wEquiv, bigSep_map]
  rfl

theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

/-- A result array whole is its thirty-two workers' row sets, at any one function. -/
theorem rows_so (d : Dev nD) (f : Buf (Elt F) (soLoc d)) :
    (soLoc d ↦{fullShare} f : sProp 𝕄)
      = bigSep Finset.univ fun c : Fin 2 => bigSep Finset.univ fun s : Fin 16 => soLoc d ↦[wRowSet (wOf c s)]{fullShare} f := by
  have h1 : (soLoc d ↦{fullShare} f : sProp 𝕄) = soLoc d ↦[(Finset.univ : Finset (Fin 32)).biUnion (fun w => wRowSet w)]{fullShare} f :=
    congrArg (fun I => (soLoc d ↦[I]{fullShare} f : sProp 𝕄)) (Rect.biUnion_part hdiv32).symm
  have h2 := pointsTo_biUnion (ℓ := soLoc d) (q := fullShare) (f := f) (Ix := HIx 1) (Name := ℕ) (U := UU) (Lvl := ℕ) (Finset.univ : Finset (Fin 32)) (fun w : Fin 32 => wRowSet w)
    (fun w _ w' _ h => Rect.part_disjoint hdiv32 h)
  exact h1.trans (h2.trans (bigSep_workers _))

theorem rows_no (d : Dev nD) (f : Buf (Elt F) (noLoc d)) :
    (noLoc d ↦{fullShare} f : sProp 𝕄)
      = bigSep Finset.univ fun c : Fin 2 => bigSep Finset.univ fun s : Fin 16 => noLoc d ↦[wRowSet (wOf c s)]{fullShare} f := by
  have h1 : (noLoc d ↦{fullShare} f : sProp 𝕄) = noLoc d ↦[(Finset.univ : Finset (Fin 32)).biUnion (fun w => wRowSet w)]{fullShare} f :=
    congrArg (fun I => (noLoc d ↦[I]{fullShare} f : sProp 𝕄)) (Rect.biUnion_part hdiv32).symm
  have h2 := pointsTo_biUnion (ℓ := noLoc d) (q := fullShare) (f := f) (Ix := HIx 1) (Name := ℕ) (U := UU) (Lvl := ℕ) (Finset.univ : Finset (Fin 32)) (fun w : Fin 32 => wRowSet w)
    (fun w _ w' _ h => Rect.part_disjoint hdiv32 h)
  exact h1.trans (h2.trans (bigSep_workers _))

/-- A read array's points-to is the kept remainder and one share per SparseCore. -/
theorem read_split {ℓ : Loc nD τ sig} (f : Buf (Elt F) ℓ) :
    (ℓ ↦{fullShare} f : sProp 𝕄) ⊢ iprop((ℓ ↦{Transfers.shareDrop fullShare 2} f) ∗ (ℓ ↦{cShare 0} f) ∗ (ℓ ↦{cShare 1} f)) :=
  (Transfers.pointsTo_toks_split fullShare 2).trans (Entails.of_eq (by rw [bigSep_fin2]))
theorem read_join {ℓ : Loc nD τ sig} (f : Buf (Elt F) ℓ) :
    iprop((ℓ ↦{Transfers.shareDrop fullShare 2} f) ∗ (ℓ ↦{cShare 0} f) ∗ (ℓ ↦{cShare 1} f)) ⊢ (ℓ ↦{fullShare} f : sProp 𝕄) :=
  (Entails.of_eq (by rw [bigSep_fin2])).trans (Transfers.pointsTo_toks_join fullShare 2)

theorem rows_ex {ℓ : Loc nD τ sig} (R : Fin 16 → Finset (Idx ℓ)) (f : Buf (Elt F) ℓ) :
    (bigSep Finset.univ fun s : Fin 16 => (ℓ ↦[R s]{fullShare} f : sProp 𝕄))
      ⊢ bigSep Finset.univ fun s : Fin 16 => (iprop(∃ f, ℓ ↦[R s]{fullShare} f) : sProp 𝕄) :=
  bigSep_mono fun s _ => show (ℓ ↦[R s]{fullShare} f : sProp 𝕄) ⊢ iprop(∃ f, ℓ ↦[R s]{fullShare} f) from by
    iintro H; iexists f; iexact H

/-- A result array at contents not chosen is its workers' rows at contents not chosen, by SparseCore. -/
theorem so_split (d : Dev nD) :
    (iprop(∃ f, soLoc d ↦{fullShare} f) : sProp 𝕄)
      ⊢ iprop((bigSep Finset.univ fun s : Fin 16 => iprop(∃ f, soLoc d ↦[wRowSet (wOf 0 s)]{fullShare} f))
          ∗ (bigSep Finset.univ fun s : Fin 16 => iprop(∃ f, soLoc d ↦[wRowSet (wOf 1 s)]{fullShare} f))) := by
  iintro ⟨%f, H⟩
  ihave H' := (Entails.of_eq ((rows_so d f).trans (bigSep_fin2 _))) $$ H
  icases H' with ⟨H0, H1⟩
  isplitl [H0]
  · iapply (rows_ex (ℓ := soLoc d) (fun s => wRowSet (wOf 0 s)) f) $$ H0
  · iapply (rows_ex (ℓ := soLoc d) (fun s => wRowSet (wOf 1 s)) f) $$ H1
theorem no_split (d : Dev nD) :
    (iprop(∃ f, noLoc d ↦{fullShare} f) : sProp 𝕄)
      ⊢ iprop((bigSep Finset.univ fun s : Fin 16 => iprop(∃ f, noLoc d ↦[wRowSet (wOf 0 s)]{fullShare} f))
          ∗ (bigSep Finset.univ fun s : Fin 16 => iprop(∃ f, noLoc d ↦[wRowSet (wOf 1 s)]{fullShare} f))) := by
  iintro ⟨%f, H⟩
  ihave H' := (Entails.of_eq ((rows_no d f).trans (bigSep_fin2 _))) $$ H
  icases H' with ⟨H0, H1⟩
  isplitl [H0]
  · iapply (rows_ex (ℓ := noLoc d) (fun s => wRowSet (wOf 0 s)) f) $$ H0
  · iapply (rows_ex (ℓ := noLoc d) (fun s => wRowSet (wOf 1 s)) f) $$ H1

variable (m : (ℓ : Loc nD τ sig) → Buf (Elt F) ℓ) (Is : IVec S256x128 32) (In : IVec S4096x128 32)

/-- What the TensorCore keeps of the three arrays the call only reads. -/
def readRem (d : Dev nD) : sProp 𝕄 :=
  iprop((embLoc d ↦{Transfers.shareDrop fullShare 2} m (embLoc d)) ∗ (isLoc d ↦{Transfers.shareDrop fullShare 2} (Is : Buf (Elt F) (isLoc d)))
    ∗ (inLoc d ↦{Transfers.shareDrop fullShare 2} (In : Buf (Elt F) (inLoc d))))

theorem st_eq [FloatOps F] (d : Dev nD) :
    (bigSep Finset.univ fun c : Fin ((K (F := F)).nCore 0) => (P m Is In).st 0 d c) = iprop(coreIn m Is In d 0 ∗ coreIn m Is In d 1) := by
  show (bigSep (Finset.univ : Finset (Fin 2)) fun c => coreIn m Is In d c) = _
  rw [bigSep_fin2]
theorem dn_eq [FloatOps F] (d : Dev nD) :
    (bigSep Finset.univ fun c : Fin ((K (F := F)).nCore 0) => (P m Is In).dn 0 d c) = iprop(coreOut m Is In d 0 ∗ coreOut m Is In d 1) := by
  show (bigSep (Finset.univ : Finset (Fin 2)) fun c => coreOut m Is In d c) = _
  rw [bigSep_fin2]

/-- Before the call: the three read arrays and the two result arrays whole make the two SparseCores' operands. -/
theorem call_in [FloatOps F] (d : Dev nD) :
    iprop((embLoc d ↦{fullShare} m (embLoc d)) ∗ (isLoc d ↦{fullShare} (Is : Buf (Elt F) (isLoc d))) ∗ (inLoc d ↦{fullShare} (In : Buf (Elt F) (inLoc d)))
        ∗ (∃ f, soLoc d ↦{fullShare} f) ∗ (∃ f, noLoc d ↦{fullShare} f))
      ⊢ iprop(readRem m Is In d ∗ bigSep Finset.univ fun c : Fin ((K (F := F)).nCore 0) => (P m Is In).st 0 d c) := by
  rw [st_eq]
  unfold readRem coreIn
  rw [bigSep_sep', bigSep_sep']
  iintro ⟨He, His, Hin, Hso, Hno⟩
  ihave He' := (read_split _) $$ He
  ihave His' := (read_split _) $$ His
  ihave Hin' := (read_split _) $$ Hin
  ihave Hso' := (so_split d) $$ Hso
  ihave Hno' := (no_split d) $$ Hno
  icases He' with ⟨He, He0, He1⟩
  icases His' with ⟨His, His0, His1⟩
  icases Hin' with ⟨Hin, Hin0, Hin1⟩
  icases Hso' with ⟨Hso0, Hso1⟩
  icases Hno' with ⟨Hno0, Hno1⟩
  isplitl [He His Hin]
  · isplitl [He]; · iexact He
    isplitl [His] <;> iassumption
  isplitl [He0 His0 Hin0 Hso0 Hno0]
  · isplitl [He0]; · iexact He0
    isplitl [His0]; · iexact His0
    isplitl [Hin0]; · iexact Hin0
    isplitl [Hso0] <;> iassumption
  · isplitl [He1]; · iexact He1
    isplitl [His1]; · iexact His1
    isplitl [Hin1]; · iexact Hin1
    isplitl [Hso1] <;> iassumption

/-- After the call: the shares rejoin and each result array is whole at its gathered value. -/
theorem call_out [FloatOps F] (d : Dev nD) :
    iprop(readRem m Is In d ∗ bigSep Finset.univ fun c : Fin ((K (F := F)).nCore 0) => (P m Is In).dn 0 d c)
      ⊢ iprop((embLoc d ↦{fullShare} m (embLoc d)) ∗ (isLoc d ↦{fullShare} (Is : Buf (Elt F) (isLoc d))) ∗ (inLoc d ↦{fullShare} (In : Buf (Elt F) (inLoc d)))
        ∗ (soLoc d ↦{fullShare} (selfVal (m (embLoc d)) Is : Buf (Elt F) (soLoc d)))
        ∗ (noLoc d ↦{fullShare} (neiVal (m (embLoc d)) In : Buf (Elt F) (noLoc d)))) := by
  rw [dn_eq]
  unfold readRem coreOut
  rw [rows_so, rows_no, bigSep_fin2, bigSep_fin2, bigSep_sep', bigSep_sep']
  iintro ⟨⟨He, His, Hin⟩, ⟨He0, His0, Hin0, Hso0, Hno0⟩, ⟨He1, His1, Hin1, Hso1, Hno1⟩⟩
  isplitl [He He0 He1]
  · iapply (read_join _)
    isplitl [He]; · iexact He
    isplitl [He0] <;> iassumption
  isplitl [His His0 His1]
  · iapply (read_join _)
    isplitl [His]; · iexact His
    isplitl [His0] <;> iassumption
  isplitl [Hin Hin0 Hin1]
  · iapply (read_join _)
    isplitl [Hin]; · iexact Hin
    isplitl [Hin0] <;> iassumption
  isplitl [Hso0 Hso1]
  · isplitl [Hso0] <;> iassumption
  · isplitl [Hno0] <;> iassumption

end Cert.KI

end
-- ==== Proof.MainBody.lean ====
import proofs.«208587_g27212912787602_cont_9to1_1073_18_alg».proof.Proof.Pay
import proofs.«208587_g27212912787602_cont_9to1_1073_18_alg».proof.Proof.MainCall
import proofs.«208587_g27212912787602_cont_9to1_1073_18_alg».proof.Proof.Gen.KernelIdeal.Launch
import proofs.«208587_g27212912787602_cont_9to1_1073_18_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Tactic

noncomputable section

namespace Cert.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after after_cons after_nil)
open Idealize.ShloMosaic.Tactic
open Idealize.ShloMosaic.TcCoe
open Idealize.ShloMosaic.Pipeline (Dat Cfg Window BodyObligation cellOf)
variable {F : FTy → Type}

local notation "𝕄" => MT nD τ sig (HIx 1) (Elt F) ℕ UU ℕ

/-! ## The dense layers' body on whole staging buffers

The body loads its six input buffers whole, computes both layers on the 4096 rows at once, and stores the result
whole: what it leaves in the result buffer is the one payload of the six contents. -/

abbrev rA : Rect S4096x128 := Rect.unit (s := S4096x128) ![0, 0] S4096x128.size inb_S4096x128_S4096x128_0_0
abbrev rW : Rect S128x128 := Rect.unit (s := S128x128) ![0, 0] S128x128.size inb_S128x128_S128x128_0_0

/-- The result buffer after the body, from the six input buffers' contents (self rows, neighbour sums, the four
    matrices in operand order): its one store as a piece. -/
def out6 [FloatOps F] (x0 x1 : Vec F S4096x128 .f32) (x2 x3 x4 x5 : Vec F S128x128 .f32) : Vec F S4096x128 .f32 :=
  View.canon [⟨rA, k1_pay1 (View.ld x1 rA) (View.ld x0 rA) (View.ld x3 rW) (View.ld x2 rW) (View.ld x5 rW) (View.ld x4 rW)⟩]

theorem zero2 : (![0, 0] : Fin 2 → Nat) = fun _ => 0 := by
  funext a; fin_cases a <;> rfl

/-- Loads and the store are of whole buffers: the result is the payload of the contents. -/
theorem out6_eq [FloatOps F] [∀ e, Nonempty (Elt F e)] (x0 x1 : Vec F S4096x128 .f32) (x2 x3 x4 x5 : Vec F S128x128 .f32) :
    out6 x0 x1 x2 x3 x4 x5 = k1_pay1 x1 x0 x3 x2 x5 x4 := by
  unfold out6 rA rW
  rw [View.canon_unit_zero (S := S4096x128) zero2, View.ld_unit_zero (S := S4096x128) zero2, View.ld_unit_zero (S := S4096x128) zero2,
    View.ld_unit_zero (S := S128x128) zero2, View.ld_unit_zero (S := S128x128) zero2, View.ld_unit_zero (S := S128x128) zero2,
    View.ld_unit_zero (S := S128x128) zero2]

set_option maxHeartbeats 1000000 in
/-- The body on whole staging memrefs, the inputs' at read contents and the result's at anything, runs to the
    continuation holding the inputs' as they were and the result's at `out6` of the inputs'. -/
theorem sound_kernel [FloatOps F] [∀ e, Nonempty (Elt F e)] (c : Dev nD) (E : Set ℕ) (i : grid1.Coords)
    (arg1 : Memref sig .tc .vmem S4096x128 .f32) (harg1 : arg1.IsWhole) (arg2 : Memref sig .tc .vmem S4096x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S4096x128 .f32) (harg7 : arg7.IsWhole)
    (x0 x1 : Vec F S4096x128 .f32) (x2 x3 x4 x5 : Vec F S128x128 .f32) (K : PUnit → sProp 𝕄) :
    iprop(owns (c.tc : Thread nD τ) arg1 fullShare x0 ∗ owns (c.tc : Thread nD τ) arg2 fullShare x1 ∗ owns (c.tc : Thread nD τ) arg3 fullShare x2
        ∗ owns (c.tc : Thread nD τ) arg4 fullShare x3 ∗ owns (c.tc : Thread nD τ) arg5 fullShare x4 ∗ owns (c.tc : Thread nD τ) arg6 fullShare x5
        ∗ (∃ d, owns (c.tc : Thread nD τ) arg7 fullShare d)
        ∗ (iprop(owns (c.tc : Thread nD τ) arg1 fullShare x0 ∗ owns (c.tc : Thread nD τ) arg2 fullShare x1 ∗ owns (c.tc : Thread nD τ) arg3 fullShare x2
            ∗ owns (c.tc : Thread nD τ) arg4 fullShare x3 ∗ owns (c.tc : Thread nD τ) arg5 fullShare x4 ∗ owns (c.tc : Thread nD τ) arg6 fullShare x5
            ∗ owns (c.tc : Thread nD τ) arg7 fullShare (out6 x0 x1 x2 x3 x4 x5)) -∗ K ⟨⟩))
      ⊢ wp frame (wpE (defs₀ (F := F)) Variants.none (c.tc : Thread nD τ) none) E (cc1__mm_body i arg1 harg1 arg2 harg2 arg3 harg3 arg4 harg4 arg5 harg5 arg6 harg6 arg7 harg7) K := by
  simp only [cc1__mm_body_eq_skeleton]; unfold cc1__mm_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (fun y => ⟨_, List.mem_singleton_self _, View.mem_set_unit_zero (S := S4096x128) zero2 inb_S4096x128_S4096x128_0_0 y⟩)

end Cert.KI

end
-- ==== Proof.MainRegion.lean ====
import proofs.«208587_g27212912787602_cont_9to1_1073_18_alg».proof.Proof.Pay
import proofs.«208587_g27212912787602_cont_9to1_1073_18_alg».proof.Proof.MainBody

noncomputable section

namespace Cert.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after after_cons after_nil)
open Idealize.ShloMosaic.Tactic
open Idealize.ShloMosaic.TcCoe
open Idealize.ShloMosaic.Pipeline (Dat Cfg Window BodyObligation cellOf)
variable {F : FTy → Type}

local notation "𝕄" => MT nD τ sig (HIx 1) (Elt F) ℕ UU ℕ

/-! ## The region's proof data

The region streams the two gathered arrays through eight blocks of 4096 rows, the four matrices staged once, and
writes each block of the result back. -/

variable (m : (ℓ : Loc nD τ sig) → Buf (Elt F) ℓ) (Is : IVec S256x128 32) (In : IVec S4096x128 32)

/-- The TensorCore's arrays as the region finds them: the launch contents but for the two gathered arrays. -/
def VR [FloatOps F] (d : Dev nD) : (b : Ref sig .tc) → Buf (Elt F) ((d.tc : Thread nD τ).loc b) :=
  Function.update (Function.update (fun b => m ((d.tc : Thread nD τ).loc b)) main_v6_0
      (selfVal (m (embLoc d)) Is : Buf (Elt F) ((d.tc : Thread nD τ).loc main_v6_0)))
    main_v6_1 (neiVal (m (embLoc d)) In : Buf (Elt F) ((d.tc : Thread nD τ).loc main_v6_1))

theorem VR_v60 [FloatOps F] (d : Dev nD) : VR m Is In d main_v6_0 = (selfVal (m (embLoc d)) Is : Buf (Elt F) ((d.tc : Thread nD τ).loc main_v6_0)) := by
  unfold VR; rw [Function.update_of_ne (by decide), Function.update_self]
theorem VR_v61 [FloatOps F] (d : Dev nD) : VR m Is In d main_v6_1 = (neiVal (m (embLoc d)) In : Buf (Elt F) ((d.tc : Thread nD τ).loc main_v6_1)) := by
  unfold VR; rw [Function.update_self]
theorem VR_other [FloatOps F] (d : Dev nD) (b : Ref sig .tc) (h0 : b ≠ main_v6_0) (h1 : b ≠ main_v6_1) : VR m Is In d b = m ((d.tc : Thread nD τ).loc b) := by
  unfold VR; rw [Function.update_of_ne h1, Function.update_of_ne h0]

/-- Window `w`'s block at point `t`, read off its array as the region finds it. -/
def iblk [FloatOps F] (d : Dev nD) (w : Fin cfg1.W) (t : Fin cfg1.N) : ((cfg1.win w).xblock (cfg1.grid.coords t)).Idx → Elt F (cfg1.win w).elt :=
  ((cfg1.win w).blk t).view.read (Elt F) (VR m Is In d (Pipeline.arrRef spec1 w))

/-- The proof data: the arrays as the region finds them; after the body each input's buffer at its block and the
    result's at the payload of the six blocks; nothing of the body's own between points; nothing owed. -/
def dats [FloatOps F] (_ : Fin 1) (d : Dev nD) : Dat τ (Elt F) (HIx 1) ℕ UU ℕ cfg1 d where
  A w := VR m Is In d (Pipeline.arrRef spec1 w)
  after w t := match w with
    | ⟨0, _⟩ => iblk m Is In d 0 t
    | ⟨1, _⟩ => iblk m Is In d 1 t
    | ⟨2, _⟩ => iblk m Is In d 2 t
    | ⟨3, _⟩ => iblk m Is In d 3 t
    | ⟨4, _⟩ => iblk m Is In d 4 t
    | ⟨5, _⟩ => iblk m Is In d 5 t
    | ⟨6, _⟩ => out6 (iblk m Is In d 0 t) (iblk m Is In d 1 t) (iblk m Is In d 2 t) (iblk m Is In d 3 t) (iblk m Is In d 4 t) (iblk m Is In d 5 t)
  Φ _ := Pipeline.scopedRest (Ix := HIx 1) (Name := ℕ) (U := UU) (Lvl := ℕ) (Val := Elt F) spec1 d
  q _ := fullShare
  owed _ := 0

section
variable [FloatOps F]

theorem A_eq (d : Dev nD) (w : Fin cfg1.W) : (dats m Is In 0 d).A w = VR m Is In d (Pipeline.arrRef spec1 w) := by
  dsimp only [dats]

theorem after_0 (d : Dev nD) (t : Fin cfg1.N) : (dats m Is In 0 d).after 0 t = iblk m Is In d 0 t := by dsimp only [dats]
theorem after_1 (d : Dev nD) (t : Fin cfg1.N) : (dats m Is In 0 d).after 1 t = iblk m Is In d 1 t := by dsimp only [dats]
theorem after_2 (d : Dev nD) (t : Fin cfg1.N) : (dats m Is In 0 d).after 2 t = iblk m Is In d 2 t := by dsimp only [dats]
theorem after_3 (d : Dev nD) (t : Fin cfg1.N) : (dats m Is In 0 d).after 3 t = iblk m Is In d 3 t := by dsimp only [dats]
theorem after_4 (d : Dev nD) (t : Fin cfg1.N) : (dats m Is In 0 d).after 4 t = iblk m Is In d 4 t := by dsimp only [dats]
theorem after_5 (d : Dev nD) (t : Fin cfg1.N) : (dats m Is In 0 d).after 5 t = iblk m Is In d 5 t := by dsimp only [dats]
theorem after_6 (d : Dev nD) (t : Fin cfg1.N) : (dats m Is In 0 d).after 6 t
    = out6 (iblk m Is In d 0 t) (iblk m Is In d 1 t) (iblk m Is In d 2 t) (iblk m Is In d 3 t) (iblk m Is In d 4 t) (iblk m Is In d 5 t) := by dsimp only [dats]

/-! Each input's current staging buffer holds its block at every point, fetched there or not: the body leaves the
    block in place, and an input not fetched at a point has the block index it had at the point before. -/
theorem before_0 (d : Dev nD) (t : Fin cfg1.N) (x) : (dats m Is In 0 d).before 0 t x = iblk m Is In d 0 t :=
  ((dats m Is In 0 d).before_in_eq_fetched 0 rfl (fun _ => rfl) (fun _ _ _ => rfl)
    (fun t => by rw [after_0]; unfold Dat.blockOf iblk; rw [A_eq]; try rfl) t x).trans
    (by unfold Dat.fetched Dat.blockOf iblk; rw [A_eq]; try rfl)
theorem before_1 (d : Dev nD) (t : Fin cfg1.N) (x) : (dats m Is In 0 d).before 1 t x = iblk m Is In d 1 t :=
  ((dats m Is In 0 d).before_in_eq_fetched 1 rfl (fun _ => rfl) (fun _ _ _ => rfl)
    (fun t => by rw [after_1]; unfold Dat.blockOf iblk; rw [A_eq]; try rfl) t x).trans
    (by unfold Dat.fetched Dat.blockOf iblk; rw [A_eq]; try rfl)
theorem before_2 (d : Dev nD) (t : Fin cfg1.N) (x) : (dats m Is In 0 d).before 2 t x = iblk m Is In d 2 t :=
  ((dats m Is In 0 d).before_in_eq_fetched 2 rfl (fun _ => rfl) (fun _ _ _ => rfl)
    (fun t => by rw [after_2]; unfold Dat.blockOf iblk; rw [A_eq]; try rfl) t x).trans
    (by unfold Dat.fetched Dat.blockOf iblk; rw [A_eq]; try rfl)
theorem before_3 (d : Dev nD) (t : Fin cfg1.N) (x) : (dats m Is In 0 d).before 3 t x = iblk m Is In d 3 t :=
  ((dats m Is In 0 d).before_in_eq_fetched 3 rfl (fun _ => rfl) (fun _ _ _ => rfl)
    (fun t => by rw [after_3]; unfold Dat.blockOf iblk; rw [A_eq]; try rfl) t x).trans
    (by unfold Dat.fetched Dat.blockOf iblk; rw [A_eq]; try rfl)
theorem before_4 (d : Dev nD) (t : Fin cfg1.N) (x) : (dats m Is In 0 d).before 4 t x = iblk m Is In d 4 t :=
  ((dats m Is In 0 d).before_in_eq_fetched 4 rfl (fun _ => rfl) (fun _ _ _ => rfl)
    (fun t => by rw [after_4]; unfold Dat.blockOf iblk; rw [A_eq]; try rfl) t x).trans
    (by unfold Dat.fetched Dat.blockOf iblk; rw [A_eq]; try rfl)
theorem before_5 (d : Dev nD) (t : Fin cfg1.N) (x) : (dats m Is In 0 d).before 5 t x = iblk m Is In d 5 t :=
  ((dats m Is In 0 d).before_in_eq_fetched 5 rfl (fun _ => rfl) (fun _ _ _ => rfl)
    (fun t => by rw [after_5]; unfold Dat.blockOf iblk; rw [A_eq]; try rfl) t x).trans
    (by unfold Dat.fetched Dat.blockOf iblk; rw [A_eq]; try rfl)

/-! ## The body obligation -/

def bodyPre (d : Dev nD) (t : Fin cfg1.N) : sProp 𝕄 :=
  iprop((dats m Is In 0 d).Φ t.castSucc ∗ (dats m Is In 0 d).owesAt (none : HIx 1) t.castSucc
    ∗ (∃ x, owns (d.tc : Thread nD τ) (st1_0 t) fullShare ((dats m Is In 0 d).before 0 t x))
    ∗ (∃ x, owns (d.tc : Thread nD τ) (st1_1 t) fullShare ((dats m Is In 0 d).before 1 t x))
    ∗ (∃ x, owns (d.tc : Thread nD τ) (st1_2 t) fullShare ((dats m Is In 0 d).before 2 t x))
    ∗ (∃ x, owns (d.tc : Thread nD τ) (st1_3 t) fullShare ((dats m Is In 0 d).before 3 t x))
    ∗ (∃ x, owns (d.tc : Thread nD τ) (st1_4 t) fullShare ((dats m Is In 0 d).before 4 t x))
    ∗ (∃ x, owns (d.tc : Thread nD τ) (st1_5 t) fullShare ((dats m Is In 0 d).before 5 t x))
    ∗ (∃ x, owns (d.tc : Thread nD τ) (st1_6 t) fullShare ((dats m Is In 0 d).before 6 t x)))

def bodyPost (d : Dev nD) (t : Fin cfg1.N) : sProp 𝕄 :=
  iprop((dats m Is In 0 d).Φ t.succ ∗ (dats m Is In 0 d).owesAt (none : HIx 1) t.succ
    ∗ owns (d.tc : Thread nD τ) (st1_0 t) fullShare ((dats m Is In 0 d).after 0 t)
    ∗ owns (d.tc : Thread nD τ) (st1_1 t) fullShare ((dats m Is In 0 d).after 1 t)
    ∗ owns (d.tc : Thread nD τ) (st1_2 t) fullShare ((dats m Is In 0 d).after 2 t)
    ∗ owns (d.tc : Thread nD τ) (st1_3 t) fullShare ((dats m Is In 0 d).after 3 t)
    ∗ owns (d.tc : Thread nD τ) (st1_4 t) fullShare ((dats m Is In 0 d).after 4 t)
    ∗ owns (d.tc : Thread nD τ) (st1_5 t) fullShare ((dats m Is In 0 d).after 5 t)
    ∗ owns (d.tc : Thread nD τ) (st1_6 t) fullShare ((dats m Is In 0 d).after 6 t))

theorem sound_body [∀ e, Nonempty (Elt F e)] (d : Dev nD) (t : Fin cfg1.N) :
    bodyPre m Is In d t ⊢ wp frame (wpE (defs₀ (F := F)) Variants.none (d.tc : Thread nD τ) none) Set.univ (bodyAt1 t) (fun _ => bodyPost m Is In d t) := by
  unfold bodyPre bodyPost bodyAt1
  simp only [before_0, before_1, before_2, before_3, before_4, before_5]
  rw [show (dats m Is In 0 d).Φ t.succ = (dats m Is In 0 d).Φ t.castSucc from rfl,
    show (dats m Is In 0 d).owesAt (none : HIx 1) t.succ = (dats m Is In 0 d).owesAt (none : HIx 1) t.castSucc from rfl,
    after_0, after_1, after_2, after_3, after_4, after_5, after_6]
  iintro ⟨HΦ, Ho, ⟨%x0, H0⟩, ⟨%x1, H1⟩, ⟨%x2, H2⟩, ⟨%x3, H3⟩, ⟨%x4, H4⟩, ⟨%x5, H5⟩, ⟨%x6, H6⟩⟩
  iapply (sound_kernel d Set.univ _ _ _ _ _ _ _ _ _ _ _ _ _ _ _ (iblk m Is In d 0 t) (iblk m Is In d 1 t) (iblk m Is In d 2 t)
    (iblk m Is In d 3 t) (iblk m Is In d 4 t) (iblk m Is In d 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation [∀ e, Nonempty (Elt F e)] (d : Dev nD) :
    BodyObligation (dats (F := F) m Is In 0 d) (defs₀ (F := F)) Variants.none (none : HIx 1) Set.univ := fun t => by
  rw [bigSep_W1, bigSep_W1]
  exact sound_body m Is In d t

end

end Cert.KI

end
-- ==== Proof.MainSeg.lean ====
import proofs.«208587_g27212912787602_cont_9to1_1073_18_alg».proof.Proof.Pay
import proofs.«208587_g27212912787602_cont_9to1_1073_18_alg».proof.Proof.MainRegion
import proofs.«208587_g27212912787602_cont_9to1_1073_18_alg».proof.Proof.MainVal

noncomputable section

namespace Cert.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after after_cons after_nil)
open Idealize.ShloMosaic.Tactic
open Idealize.ShloMosaic.TcCoe
open Idealize.ShloMosaic.Pipeline (Dat Cfg Window BodyObligation cellOf)
variable {F : FTy → Type}

local notation "𝕄" => MT nD τ sig (HIx 1) (Elt F) ℕ UU ℕ

/-! ## The region as a segment of @main -/

variable (m : (ℓ : Loc nD τ sig) → Buf (Elt F) ℓ) (Is : IVec S256x128 32) (In : IVec S4096x128 32)

/-- No table is prefetched. -/
abbrev adm : (p : Fin 1) → (pcfgs (F := F) p).Adm := fun p => (cfgs p).toPCfg_adm

theorem lev_le8 (g : GSem nD τ sig) (ι : HIx 1) : (K (F := F)).lev g ι ≤ 8 := by
  cases ι with
  | none => exact Nat.zero_le _
  | some q => have h1 := (K (F := F)).lev_some_le g q; have h2 := q.isLt; omega

theorem wbelow_any (d : Dev nD) (W : Waits sig (HIx 1)) : (K (F := F)).WBelow (T d) W 8 := fun p _ => lev_le8 _ _

section
variable [FloatOps F]

/-- The region's seven arrays, the result's at `F7`. -/
def arrs7 (d : Dev nD) (F7 : Buf (Elt F) ((T d : Thread nD τ).loc main_v7)) : sProp 𝕄 :=
  iprop((soLoc d ↦{fullShare} (selfVal (m (embLoc d)) Is : Buf (Elt F) (soLoc d))) ∗ (noLoc d ↦{fullShare} (neiVal (m (embLoc d)) In : Buf (Elt F) (noLoc d)))
    ∗ ((T d : Thread nD τ).loc main_arg2 ↦{fullShare} m ((T d : Thread nD τ).loc main_arg2)) ∗ ((T d : Thread nD τ).loc main_arg3 ↦{fullShare} m ((T d : Thread nD τ).loc main_arg3))
    ∗ ((T d : Thread nD τ).loc main_arg4 ↦{fullShare} m ((T d : Thread nD τ).loc main_arg4)) ∗ ((T d : Thread nD τ).loc main_arg5 ↦{fullShare} m ((T d : Thread nD τ).loc main_arg5))
    ∗ ((T d : Thread nD τ).loc main_v7 ↦{fullShare} F7))

/-- What the TensorCore owes after the one call: nothing, whatever its waits recorded. -/
def owes1 (d : Dev nD) : sProp 𝕄 := iprop(∃ W, owes (T d : Thread nD τ) (0 : CellTallies nD τ sig (HIx 1)) W)

set_option backward.isDefEq.respectTransparency.types false in
theorem arrays_eq7 (d : Dev nD) (G : (w : Fin cfg1.W) → Buf (Elt F) ((cfg1.win w).arr.view.loc (d.tc : Thread nD τ))) :
    (dats m Is In 0 d).arrays G = iprop((soLoc d ↦{fullShare} G 0) ∗ (noLoc d ↦{fullShare} G 1)
      ∗ ((T d : Thread nD τ).loc main_arg2 ↦{fullShare} G 2) ∗ ((T d : Thread nD τ).loc main_arg3 ↦{fullShare} G 3)
      ∗ ((T d : Thread nD τ).loc main_arg4 ↦{fullShare} G 4) ∗ ((T d : Thread nD τ).loc main_arg5 ↦{fullShare} G 5)
      ∗ ((T d : Thread nD τ).loc main_v7 ↦{fullShare} G 6)) := by
  rw [Pipeline.arrays_eq (Pipeline.pin (pcfgs (F := F)) adm) (dats m Is In) 0 d launch1.arr_whole
    (fun w => (dats m Is In 0 d).share_full (fun _ => rfl) w) G, bigSep_W1]

theorem arrAt_0 (d : Dev nD) (n : Nat) : (dats m Is In 0 d).arrAt 0 n = (selfVal (m (embLoc d)) Is : Buf (Elt F) (soLoc d)) :=
  ((dats m Is In 0 d).arrAt_in 0 rfl n).trans (VR_v60 m Is In d)
theorem arrAt_1 (d : Dev nD) (n : Nat) : (dats m Is In 0 d).arrAt 1 n = (neiVal (m (embLoc d)) In : Buf (Elt F) (noLoc d)) :=
  ((dats m Is In 0 d).arrAt_in 1 rfl n).trans (VR_v61 m Is In d)
theorem arrAt_2 (d : Dev nD) (n : Nat) : (dats m Is In 0 d).arrAt 2 n = m ((T d : Thread nD τ).loc main_arg2) :=
  ((dats m Is In 0 d).arrAt_in 2 rfl n).trans (VR_other m Is In d main_arg2 (by decide) (by decide))
theorem arrAt_3 (d : Dev nD) (n : Nat) : (dats m Is In 0 d).arrAt 3 n = m ((T d : Thread nD τ).loc main_arg3) :=
  ((dats m Is In 0 d).arrAt_in 3 rfl n).trans (VR_other m Is In d main_arg3 (by decide) (by decide))
theorem arrAt_4 (d : Dev nD) (n : Nat) : (dats m Is In 0 d).arrAt 4 n = m ((T d : Thread nD τ).loc main_arg4) :=
  ((dats m Is In 0 d).arrAt_in 4 rfl n).trans (VR_other m Is In d main_arg4 (by decide) (by decide))
theorem arrAt_5 (d : Dev nD) (n : Nat) : (dats m Is In 0 d).arrAt 5 n = m ((T d : Thread nD τ).loc main_arg5) :=
  ((dats m Is In 0 d).arrAt_in 5 rfl n).trans (VR_other m Is In d main_arg5 (by decide) (by decide))
theorem arrAt_6_zero (d : Dev nD) : (dats m Is In 0 d).arrAt 6 0 = m ((T d : Thread nD τ).loc main_v7) :=
  VR_other m Is In d main_v7 (by decide) (by decide)

/-- The result array after the region: its launch contents overwritten, point by point, by the blocks written back. -/
abbrev res7 (d : Dev nD) : Buf (Elt F) ((T d : Thread nD τ).loc main_v7) := (dats m Is In 0 d).arrAt 6 cfg1.N

theorem arrays_at (d : Dev nD) (n : Nat) :
    (dats m Is In 0 d).arrays ((dats m Is In 0 d).arrAt · n) = arrs7 m Is In d ((dats m Is In 0 d).arrAt 6 n) := by
  rw [arrays_eq7]; unfold arrs7
  rw [arrAt_0, arrAt_1, arrAt_2, arrAt_3, arrAt_4, arrAt_5]

end

section
variable [FloatOps F] [∀ e, Nonempty (Elt F e)]

/-- What the body keeps between points: the scoped buffers no window stages. -/
def ΦR (d : Dev nD) : sProp 𝕄 := Pipeline.scopedRest (Ix := HIx 1) (Name := ℕ) (U := UU) (Lvl := ℕ) (Val := Elt F) spec1 d

set_option backward.isDefEq.respectTransparency.types false in
/-- The region: the launch's layout, no semaphore of the kernel's own, the body obligation; entered from the seven
    arrays and the TensorCore owing nothing, left with the result at its contents after the eight write-backs. -/
def reg : Pipeline.RegionSeg (pcfgs (F := F)) adm (dats m Is In) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody d := (body_obligation m Is In d).loose
  hwaits := Pipeline.hwaits_of_owed_zero _ _ _ _ _ _ 0 fun _ _ => rfl
  pre d := iprop(arrs7 m Is In d (m ((T d : Thread nD τ).loc main_v7)) ∗ owes1 d)
  post d := iprop(arrs7 m Is In d (res7 m Is In d) ∗ owes1 d)
  X _ := iprop(emp)
  Y _ := iprop(emp)
  Z _ := iprop(emp)
  hentry d := by
    rw [arrays_at, arrAt_6_zero]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owes1
      icases HO with ⟨%W, HO⟩; iexists W; isplitr; · ipureintro; exact fun _ _ => Or.inl trivial
      iexact HO
    isplitr <;> iempintro
  hin d := by
    rw [show (dats m Is In 0 d).Φ 0 = ΦR d from rfl]; unfold ΦR
    iintro ⟨-, -, Hr⟩; iexact Hr
  hout d := by
    rw [show (dats m Is In 0 d).Φ (Fin.last cfg1.N) = ΦR d from rfl]; unfold ΦR
    iintro Hr
    isplitr; · iempintro
    isplitr; · unfold Pipeline.ownSems0; rw [Finset.univ_eq_empty, BI.bigSep_empty]; iempintro
    iexact Hr
  hexit d := by
    rw [arrays_at]
    iintro ⟨Ha, HO, -, -⟩
    imodintro
    isplitl [Ha]; · iexact Ha
    unfold Pipeline.Dat.owesAt Pipeline.owesWithin owes1
    icases HO with ⟨%W, -, HO⟩; iexists W; iexact HO

end

/-! ## The host prefix's values -/

section
variable [FloatOps F]

/-- The TensorCore's arrays when the call is reached. -/
def V1 (d : Dev nD) : Valuation τ sig (Elt F) := after (hostOps (F := F)) (V0 m d)

theorem V1_arg0 (d : Dev nD) : V1 m d r_arg0 = m ((T d : Thread nD τ).loc main_arg0) := by
  unfold V1 hostOps op1 op2 op3 op4 op5 op6; after_results; rfl
theorem V1_arg1 (d : Dev nD) : V1 m d r_arg1 = m ((T d : Thread nD τ).loc main_arg1) := by
  unfold V1 hostOps op1 op2 op3 op4 op5 op6; after_results; rfl
theorem V1_arg2 (d : Dev nD) : V1 m d r_arg2 = m ((T d : Thread nD τ).loc main_arg2) := by
  unfold V1 hostOps op1 op2 op3 op4 op5 op6; after_results; rfl
theorem V1_arg3 (d : Dev nD) : V1 m d r_arg3 = m ((T d : Thread nD τ).loc main_arg3) := by
  unfold V1 hostOps op1 op2 op3 op4 op5 op6; after_results; rfl
theorem V1_arg4 (d : Dev nD) : V1 m d r_arg4 = m ((T d : Thread nD τ).loc main_arg4) := by
  unfold V1 hostOps op1 op2 op3 op4 op5 op6; after_results; rfl
theorem V1_arg5 (d : Dev nD) : V1 m d r_arg5 = m ((T d : Thread nD τ).loc main_arg5) := by
  unfold V1 hostOps op1 op2 op3 op4 op5 op6; after_results; rfl
theorem V1_v6_0 (d : Dev nD) : V1 m d r_v6_0 = m ((T d : Thread nD τ).loc main_v6_0) := by
  unfold V1 hostOps op1 op2 op3 op4 op5 op6; after_results; rfl
theorem V1_v6_1 (d : Dev nD) : V1 m d r_v6_1 = m ((T d : Thread nD τ).loc main_v6_1) := by
  unfold V1 hostOps op1 op2 op3 op4 op5 op6; after_results; rfl
theorem V1_v7 (d : Dev nD) : V1 m d r_v7 = m ((T d : Thread nD τ).loc main_v7) := by
  unfold V1 hostOps op1 op2 op3 op4 op5 op6; after_results; rfl
theorem V1_v8 (d : Dev nD) : V1 m d r_v8 = m ((T d : Thread nD τ).loc main_v8) := by
  unfold V1 hostOps op1 op2 op3 op4 op5 op6; after_results; rfl
theorem V1_v3 (d : Dev nD) : V1 m d r_v3 = (isOf (m ((T d : Thread nD τ).loc main_arg0)) : Buf (Elt F) ((T d : Thread nD τ).loc main_v3)) := by
  unfold V1 hostOps op1 op2 op3 op4 op5 op6; after_results; rfl
theorem V1_v5 (d : Dev nD) : V1 m d r_v5 = (inOf (m ((T d : Thread nD τ).loc main_arg0)) : Buf (Elt F) ((T d : Thread nD τ).loc main_v5)) := by
  unfold V1 hostOps op1 op2 op3 op4 op5 op6; after_results; rfl

theorem held_V1 (d : Dev nD) :
    (held (T d) S16 (V1 m d) : sProp 𝕄) = iprop(((T d : Thread nD τ).loc main_arg0 ↦{fullShare} m ((T d : Thread nD τ).loc main_arg0))
      ∗ ((T d : Thread nD τ).loc main_arg1 ↦{fullShare} m ((T d : Thread nD τ).loc main_arg1))
      ∗ ((T d : Thread nD τ).loc main_arg2 ↦{fullShare} m ((T d : Thread nD τ).loc main_arg2))
      ∗ ((T d : Thread nD τ).loc main_arg3 ↦{fullShare} m ((T d : Thread nD τ).loc main_arg3))
      ∗ ((T d : Thread nD τ).loc main_arg4 ↦{fullShare} m ((T d : Thread nD τ).loc main_arg4))
      ∗ ((T d : Thread nD τ).loc main_arg5 ↦{fullShare} m ((T d : Thread nD τ).loc main_arg5))
      ∗ ((T d : Thread nD τ).loc main_v0 ↦{fullShare} V1 m d r_v0)
      ∗ ((T d : Thread nD τ).loc main_v1 ↦{fullShare} V1 m d r_v1)
      ∗ ((T d : Thread nD τ).loc main_v2 ↦{fullShare} V1 m d r_v2)
      ∗ ((T d : Thread nD τ).loc main_v3 ↦{fullShare} (isOf (m ((T d : Thread nD τ).loc main_arg0)) : Buf (Elt F) ((T d : Thread nD τ).loc main_v3)))
      ∗ ((T d : Thread nD τ).loc main_v4 ↦{fullShare} V1 m d r_v4)
      ∗ ((T d : Thread nD τ).loc main_v5 ↦{fullShare} (inOf (m ((T d : Thread nD τ).loc main_arg0)) : Buf (Elt F) ((T d : Thread nD τ).loc main_v5)))
      ∗ ((T d : Thread nD τ).loc main_v6_0 ↦{fullShare} m ((T d : Thread nD τ).loc main_v6_0))
      ∗ ((T d : Thread nD τ).loc main_v6_1 ↦{fullShare} m ((T d : Thread nD τ).loc main_v6_1))
      ∗ ((T d : Thread nD τ).loc main_v7 ↦{fullShare} m ((T d : Thread nD τ).loc main_v7))
      ∗ ((T d : Thread nD τ).loc main_v8 ↦{fullShare} m ((T d : Thread nD τ).loc main_v8))) := by
  rw [held_S16, V1_arg0, V1_arg1, V1_arg2, V1_arg3, V1_arg4, V1_arg5, V1_v6_0, V1_v6_1, V1_v7, V1_v8, V1_v3, V1_v5]

theorem hostOps_sub : ∀ op ∈ hostOps (F := F), op.bufs ⊆ S16 := by
  intro op h
  simp only [hostOps, List.mem_cons, List.mem_nil_iff, or_false] at h
  rcases h with rfl | rfl | rfl | rfl | rfl | rfl
  · exact show ({r_arg0, r_v0} : Finset (DevRef τ sig)) ⊆ S16 by decide
  · exact show ({r_v0, r_v1} : Finset (DevRef τ sig)) ⊆ S16 by decide
  · exact show ({r_v1, r_v2} : Finset (DevRef τ sig)) ⊆ S16 by decide
  · exact show ({r_v2, r_v3} : Finset (DevRef τ sig)) ⊆ S16 by decide
  · exact show ({r_v0, r_v4} : Finset (DevRef τ sig)) ⊆ S16 by decide
  · exact show ({r_v4, r_v5} : Finset (DevRef τ sig)) ⊆ S16 by decide

theorem hostOps_fresh : ∀ op ∈ hostOps (F := F), op.fresh = ∅ := by
  intro op h
  simp only [hostOps, List.mem_cons, List.mem_nil_iff, or_false] at h
  rcases h with rfl | rfl | rfl | rfl | rfl | rfl <;> rfl

abbrev S2 : Finset (DevRef τ sig) := {r_v7, r_v8}
theorem opLast_sub : (opLast (F := F)).bufs ⊆ S2 := show ({r_v7, r_v8} : Finset (DevRef τ sig)) ⊆ S2 by decide

end

end Cert.KI

end
-- ==== Proof.Main.lean ====
import proofs.«208587_g27212912787602_cont_9to1_1073_18_alg».proof.Proof.Pay
import proofs.«208587_g27212912787602_cont_9to1_1073_18_alg».proof.Proof.MainSeg

noncomputable section

namespace Cert.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after after_cons after_nil)
open Idealize.ShloMosaic.Tactic
open Idealize.ShloMosaic.TcCoe
open Idealize.ShloMosaic.Pipeline (Dat Cfg Window BodyObligation cellOf)
variable {F : FTy → Type}

local notation "𝕄" => MT nD τ sig (HIx 1) (Elt F) ℕ UU ℕ

variable (m : (ℓ : Loc nD τ sig) → Buf (Elt F) ℓ) (Is : IVec S256x128 32) (In : IVec S4096x128 32)
section
variable [FloatOps F] [∀ e, Nonempty (Elt F e)]

set_option backward.isDefEq.respectTransparency.types false in
set_option maxHeartbeats 1000000 in
/-- The region's call on the TensorCore, under the program's own body table. -/
theorem region_step' (d : Dev nD) (Φ : PUnit.{1} → sProp 𝕄) :
    iprop(boundary (T d : Thread nD τ) ∗ arrs7 m Is In d (m ((T d : Thread nD τ).loc main_v7)) ∗ owes1 d ∗ levAts (K (F := F)).L (K (F := F)).lev
        ∗ Pipeline.cellsGhost (Pipeline.pin (pcfgs (F := F)) adm) EP 0 d ∗ Pipeline.toksInit (Pipeline.pin (pcfgs (F := F)) adm) EP 0 d
        ∗ ((boundary (T d : Thread nD τ) ∗ arrs7 m Is In d (res7 m Is In d) ∗ owes1 d) -∗ Φ ⟨⟩))
      ⊢ wp frame (wpE (D (F := F)) 𝒱 (T d) none) Set.univ
          (.op (.customCall (Pipeline.entry 0) ()) fun _ => .ret PUnit.unit) Φ := by
  have h := Pipeline.RegionSeg.wp (pcfgs (F := F)) adm (dats m Is In) (none : HIx 1) cellOf_inj EP defs₀ 𝒱₀
    (K (F := F)).L (K (F := F)).lev (reg m Is In) d none (fun _ h => nomatch h) (fun _ => .ret PUnit.unit) Φ
  refine BIBase.Entails.trans ?_ h
  dsimp only [reg]
  iintro ⟨Hb, Ha, HO, #Hlev, Hcg, Htk, Hk⟩
  isplitl [Hk]
  · iintro ⟨Hb, Ha, HO⟩
    rw [wp_ret]; imodintro
    iapply Hk
    isplitl [Hb]; · iexact Hb
    isplitl [Ha] <;> iassumption
  isplitl [Hb]; · iexact Hb
  isplitl [Ha HO]; · isplitl [Ha] <;> iassumption
  isplitr; · iexact Hlev
  isplitl [Hcg] <;> iassumption

/-- The same inside the SparseCore program's extended body table. -/
theorem region_step (d : Dev nD) (Φ : PUnit.{1} → sProp 𝕄) :
    iprop(boundary (T d : Thread nD τ) ∗ arrs7 m Is In d (m ((T d : Thread nD τ).loc main_v7)) ∗ owes1 d ∗ levAts (K (F := F)).L (K (F := F)).lev
        ∗ Pipeline.cellsGhost (Pipeline.pin (pcfgs (F := F)) adm) EP 0 d ∗ Pipeline.toksInit (Pipeline.pin (pcfgs (F := F)) adm) EP 0 d
        ∗ ((boundary (T d : Thread nD τ) ∗ arrs7 m Is In d (res7 m Is In d) ∗ owes1 d) -∗ Φ ⟨⟩))
      ⊢ wp frame (wpE ((K (F := F)).defs (D (F := F))) 𝒱 (T d) none) Set.univ
          (SparseCore.liftProg (Q := 1) (.op (.customCall (Pipeline.entry 0) ()) fun _ => .ret PUnit.unit)) Φ :=
  (region_step' m Is In d Φ).trans ((K (F := F)).wp_liftProg (D (F := F)) 𝒱 (T d) Set.univ none _ Φ)

end

/-! ## @main on the TensorCore -/

variable (ρ : Dev nD → PrngReg)

section
variable [FloatOps F] [∀ e, Nonempty (Elt F e)]

/-- The index lists the call reads, off the launch memory (one device). -/
def Is0 : IVec S256x128 32 := isOf (m ((T (0 : Dev nD) : Thread nD τ).loc main_arg0))
def In0 : IVec S4096x128 32 := inOf (m ((T (0 : Dev nD) : Thread nD τ).loc main_arg0))

theorem phinj : Function.Injective (Pipeline.cellOf (nD := nD) (τ := τ) (Pipeline.pin (pcfgs (F := F)) adm)) := cellOf_inj

/-- What the launch element leaves a TensorCore for the region: its staging cells' ghost state and tokens. -/
def Gd (d : Dev nD) : sProp 𝕄 :=
  iprop(Pipeline.cellsGhost (Pipeline.pin (pcfgs (F := F)) adm) EP 0 d ∗ Pipeline.toksInit (Pipeline.pin (pcfgs (F := F)) adm) EP 0 d)

/-- What @main leaves the claim: the result at the reshape of `R`, the six arguments at their launch contents. -/
def FINr (d : Dev nD) (R : Buf (Elt F) ((T d : Thread nD τ).loc main_v7)) : sProp 𝕄 :=
  iprop(((T d : Thread nD τ).loc main_v8 ↦{fullShare}
      (shapeCast S1024x1x32x128 (R : FVec F S32768x128 .f32) shapeCasts_S32768x128_S1024x1x32x128 : Buf (Elt F) ((T d : Thread nD τ).loc main_v8)))
    ∗ ((T d : Thread nD τ).loc main_arg0 ↦{fullShare} m ((T d : Thread nD τ).loc main_arg0))
    ∗ ((T d : Thread nD τ).loc main_arg1 ↦{fullShare} m ((T d : Thread nD τ).loc main_arg1))
    ∗ ((T d : Thread nD τ).loc main_arg2 ↦{fullShare} m ((T d : Thread nD τ).loc main_arg2))
    ∗ ((T d : Thread nD τ).loc main_arg3 ↦{fullShare} m ((T d : Thread nD τ).loc main_arg3))
    ∗ ((T d : Thread nD τ).loc main_arg4 ↦{fullShare} m ((T d : Thread nD τ).loc main_arg4))
    ∗ ((T d : Thread nD τ).loc main_arg5 ↦{fullShare} m ((T d : Thread nD τ).loc main_arg5)))

/-- After the one call the TensorCore owes nothing; its state gives that up and takes it back, whatever its waits
    recorded (every level of a program of one call is at most 8). -/
theorem tcSt_open (d : Dev nD) :
    ((K (F := F)).tcSt EH d 1 : sProp 𝕄) ⊢ iprop(owes1 d ∗ (owes1 d -∗ (K (F := F)).tcSt EH d 1)) := by
  unfold SparseCore.Cfg.tcSt owes1
  rw [(K (F := F)).Otc_end d (le_refl 1)]
  iintro ⟨⟨%W, %hW, HO⟩, Hrest⟩
  isplitl [HO]; · iexists W; iexact HO
  iintro ⟨%W', HO⟩
  isplitl [HO]
  · iexists W'; isplitr; · ipureintro; exact wbelow_any d W'
    iexact HO
  iexact Hrest

theorem held_S2 (d : Dev nD) (W : Valuation τ sig (Elt F)) :
    (held (T d) S2 W : sProp 𝕄) = iprop(((T d : Thread nD τ).loc main_v7 ↦{fullShare} W r_v7) ∗ ((T d : Thread nD τ).loc main_v8 ↦{fullShare} W r_v8)) := by
  unfold held S2
  rw [SparseCore.bigSep_insert' (by decide), bigSep_singleton]

/-- The last reshape's valuation: the result array at `R`. -/
def V7 (d : Dev nD) (R : Buf (Elt F) ((T d : Thread nD τ).loc main_v7)) : Valuation τ sig (Elt F) := Function.update (V0 m d) r_v7 R
theorem V7_v7 (d : Dev nD) (R : Buf (Elt F) ((T d : Thread nD τ).loc main_v7)) : V7 m d R r_v7 = R := Function.update_self _ _ _
theorem V7_v8 (d : Dev nD) (R : Buf (Elt F) ((T d : Thread nD τ).loc main_v7)) : V7 m d R r_v8 = m ((T d : Thread nD τ).loc main_v8) :=
  Function.update_of_ne (show r_v8 ≠ r_v7 by decide) _ _
theorem last_v8 (d : Dev nD) (R : Buf (Elt F) ((T d : Thread nD τ).loc main_v7)) :
    (opLast (F := F)).result (V7 m d R) r_v8
      = (shapeCast S1024x1x32x128 (R : FVec F S32768x128 .f32) shapeCasts_S32768x128_S1024x1x32x128 : Buf (Elt F) ((T d : Thread nD τ).loc main_v8)) := by
  unfold opLast; rw [StableHlo.reshape_result, V7_v7]; rfl

set_option maxHeartbeats 1000000 in
/-- @main on the TensorCore: the host prefix, the call (the two gathered arrays out as rows and back whole), the
    region, the last reshape. -/
theorem hmain (κ : GSem nD τ sig → ℕ) (d : Dev nD) :
    iprop((K (F := F)).ctx EH (P m (Is0 m) (In0 m)) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FINr m d (res7 m (Is0 m) (In0 m) d)) := by
  obtain rfl : d = 0 := Subsingleton.elim _ _
  unfold SparseCore.Cfg.tcRes Gd
  rw [unscoped_held, main_eq]
  iintro ⟨#Hctx, Hst, ⟨Hb, Hheld, -, -⟩, Hcg, Htk⟩
  ihave Hlev := (SparseCore.Cfg.ctx_levAts (K := K (F := F)) (EH := EH) (P := P m (Is0 m) (In0 m)) κ) $$ Hctx
  -- the host prefix
  iapply (wp_seq (defs := (K (F := F)).defs (D (F := F))) 𝒱 none Set.univ (0 : Dev nD) S16 _ (hostOps (F := F)) hostOps_sub hostOps_fresh (V0 m 0)) $$ [Hb Hheld]
  · isplitl [Hb] <;> iassumption
  iintro ⟨Hb, Hheld⟩
  have hV1 : (held (T (0 : Dev nD)) S16 (after (hostOps (F := F)) (V0 m 0)) : sProp 𝕄) = _ := held_V1 m 0
  ihave Hh := (Entails.of_eq hV1) $$ Hheld
  icases Hh with ⟨Ha0, Ha1, Ha2, Ha3, Ha4, Ha5, -, -, -, Hv3, -, Hv5, Hv60, Hv61, Hv7, Hv8⟩
  -- the call
  rw [wp_bind]
  ihave Hin := (call_in m (Is0 m) (In0 m) 0) $$ [Ha1 Hv3 Hv5 Hv60 Hv61]
  · isplitl [Ha1]; · iexact Ha1
    isplitl [Hv3]; · iexact Hv3
    isplitl [Hv5]; · iexact Hv5
    isplitl [Hv60]; · iexists _; iexact Hv60
    iexists _; iexact Hv61
  icases Hin with ⟨Hrem, Hst0⟩
  iapply ((K (F := F)).wp_run (D (F := F)) 𝒱 (EH := EH) (P := P m (Is0 m) (In0 m)) κ 0 0) $$ [Hst Hst0 Hrem Hb Ha0 Ha2 Ha3 Ha4 Ha5 Hv7 Hv8 Hcg Htk]
  isplitr; · iexact Hctx
  isplitl [Hst]; · iexact Hst
  isplitl [Hst0]; · iexact Hst0
  iintro ⟨Hst, Hdn⟩
  ihave Hout := (call_out m (Is0 m) (In0 m) 0) $$ [Hrem Hdn]
  · isplitl [Hrem] <;> iassumption
  icases Hout with ⟨Ha1, -, -, Hv60, Hv61⟩
  -- the region
  have hopen : ((K (F := F)).tcSt EH (0 : Dev nD) ((0 : Fin 1).val + 1) : sProp 𝕄) ⊢ iprop(owes1 (0 : Dev nD) ∗ (owes1 (0 : Dev nD) -∗ (K (F := F)).tcSt EH (0 : Dev nD) 1)) := tcSt_open 0
  ihave Hst' := hopen $$ Hst
  icases Hst' with ⟨HO, Hback⟩
  rw [wp_bind]
  iapply (region_step m (Is0 m) (In0 m) 0 _) $$ [Hb Hv60 Hv61 Ha2 Ha3 Ha4 Ha5 Hv7 HO Hcg Htk Hback Ha0 Ha1 Hv8]
  isplitl [Hb]; · iexact Hb
  isplitl [Hv60 Hv61 Ha2 Ha3 Ha4 Ha5 Hv7]
  · unfold arrs7
    isplitl [Hv60]; · iexact Hv60
    isplitl [Hv61]; · iexact Hv61
    isplitl [Ha2]; · iexact Ha2
    isplitl [Ha3]; · iexact Ha3
    isplitl [Ha4]; · iexact Ha4
    isplitl [Ha5]; · iexact Ha5
    iexact Hv7
  isplitl [HO]; · iexact HO
  isplitr; · iexact Hlev
  isplitl [Hcg]; · iexact Hcg
  isplitl [Htk]; · iexact Htk
  iintro ⟨Hb, Ha, HO⟩
  unfold arrs7
  icases Ha with ⟨-, -, Ha2, Ha3, Ha4, Ha5, Hv7⟩
  ihave Hst := Hback $$ HO
  -- the last reshape
  rw [wp_bind]
  iapply (wp_hlo_within 𝒱 (SparseCore.T (0 : Dev nD)) none Set.univ (op := opLast (F := F)) (S := S2) opLast_sub
    (V := V7 m 0 (res7 m (Is0 m) (In0 m) 0))) $$ [Hb Hv7 Hv8]
  · isplitl [Hb]; · iexact Hb
    rw [held_S2, V7_v7, V7_v8]
    isplitl [Hv7] <;> iassumption
  iintro ⟨Hb, Hheld⟩
  ihave Hh := (Entails.of_eq (held_S2 0 _)) $$ Hheld
  icases Hh with ⟨-, Hv8⟩
  rw [wp_ret]; imodintro
  rw [wp_pure]; imodintro
  isplitl [Hst]; · iexact Hst
  unfold FINr
  isplitl [Hv8]; · rw [← last_v8]; iexact Hv8
  isplitl [Ha0]; · iexact Ha0
  isplitl [Ha1]; · iexact Ha1
  isplitl [Ha2]; · iexact Ha2
  isplitl [Ha3]; · iexact Ha3
  isplitl [Ha4]; · iexact Ha4
  iexact Ha5

end

/-! ## The launch element, the final memory, the run -/

section
variable [FloatOps F] [∀ e, Nonempty (Elt F e)]

/-- The launch element: the handshakes' rounds, the region's staging cells and transfers, no counter yet. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem bigSep_emp' {I : Type} (s : Finset I) : (bigSep s fun _ => iprop(emp)) = (iprop(emp) : sProp 𝕄) := bigSep_emp_const s

theorem bigSep_fin1 {M : Type} [URA M] (Φ : Fin 1 → sProp M) : bigSep Finset.univ Φ = Φ 0 := by
  rw [show (Finset.univ : Finset (Fin 1)) = {0} by decide, bigSep_singleton]

theorem own_EP (x : UP) :
    (BI.own (((Emb.inl : Emb UP (UP × Counters)).trans
      (embR (nD := nD) (τ := τ) (sig := sig) (Ix := HIx 1) (Val := Elt F) (Name := ℕ) (Lvl := ℕ) (A := UH) (B := UP × Counters))) x) : sProp 𝕄)
      = BI.own ((EP : Emb UP 𝕄) x) := rfl

theorem hu₀ : iprop(ownU (u₀ (F := F)) ∗ (P m (Is0 m) (In0 m)).oxCred ∗ (K (F := F)).freeSems0)
    ⊢ |={Set.univ}=> iprop(BI.own (EH (initOf (K (F := F)).hsCells (K (F := F)).hsToks)) ∗ (bigSep Finset.univ fun d : Dev nD => (Gd d : sProp 𝕄))
        ∗ bigSep Finset.univ fun thr : Thread nD τ => bigSep Finset.univ fun q : Fin 1 => (P m (Is0 m) (In0 m)).x q thr) := by
  unfold u₀
  iintro ⟨Hu, -, -⟩
  ihave H := (ownU_pair _ _) $$ Hu
  icases H with ⟨HH, HR⟩
  ihave HR' := (own_pair_emb (embR (A := UH)) _ _) $$ HR
  icases HR' with ⟨HP, -⟩
  ihave HP' := (Entails.of_eq (own_EP _)) $$ HP
  imod (Pipeline.fund_ghost (Pipeline.pin (pcfgs (F := F)) adm) EP phinj) $$ HP' with ⟨Hcg, Htk⟩
  imodintro
  isplitl [HH]; · iexact HH
  isplitl [Hcg Htk]
  · unfold Gd
    rw [bigSep_sep']
    isplitl [Hcg]
    · iapply (Entails.of_eq (bigSep_congr fun c _ => (bigSep_fin1 _))) $$ Hcg
    · iapply (Entails.of_eq (bigSep_congr fun c _ => (bigSep_fin1 _))) $$ Htk
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What the claim reads off a final memory: the result and the six arguments. -/
def fq (d : Dev nD) (R : Buf (Elt F) ((T d : Thread nD τ).loc main_v7)) (s' : Phys nD τ sig (Elt F)) : Prop :=
  s'.mem.mem ((T d : Thread nD τ).loc main_v8)
      = (shapeCast S1024x1x32x128 (R : FVec F S32768x128 .f32) shapeCasts_S32768x128_S1024x1x32x128 : Buf (Elt F) ((T d : Thread nD τ).loc main_v8))
    ∧ s'.mem.mem ((T d : Thread nD τ).loc main_arg0) = m ((T d : Thread nD τ).loc main_arg0)
    ∧ s'.mem.mem ((T d : Thread nD τ).loc main_arg1) = m ((T d : Thread nD τ).loc main_arg1)
    ∧ s'.mem.mem ((T d : Thread nD τ).loc main_arg2) = m ((T d : Thread nD τ).loc main_arg2)
    ∧ s'.mem.mem ((T d : Thread nD τ).loc main_arg3) = m ((T d : Thread nD τ).loc main_arg3)
    ∧ s'.mem.mem ((T d : Thread nD τ).loc main_arg4) = m ((T d : Thread nD τ).loc main_arg4)
    ∧ s'.mem.mem ((T d : Thread nD τ).loc main_arg5) = m ((T d : Thread nD τ).loc main_arg5)

theorem hfin (d : Dev nD) (R : Buf (Elt F) ((T d : Thread nD τ).loc main_v7)) (s' : Phys nD τ sig (Elt F)) :
    iprop(FINr m d R ∗ SI s') ⊢ (⌜fq m d R s'⌝ : sProp 𝕄) := by
  unfold FINr
  iintro ⟨⟨H8, H0, H1, H2, H3, H4, H5⟩, HSI⟩
  icombine HSI H8 gives %h8
  icombine HSI H0 gives %h0
  icombine HSI H1 gives %h1
  icombine HSI H2 gives %h2
  icombine HSI H3 gives %h3
  icombine HSI H4 gives %h4
  icombine HSI H5 gives %h5
  ipureintro
  exact ⟨Buf.eq_of_forall_mem_univ h8, Buf.eq_of_forall_mem_univ h0, Buf.eq_of_forall_mem_univ h1, Buf.eq_of_forall_mem_univ h2,
    Buf.eq_of_forall_mem_univ h3, Buf.eq_of_forall_mem_univ h4, Buf.eq_of_forall_mem_univ h5⟩

/-- The run's post: on every device the result is the reshape of the region's result array, the arguments unchanged. -/
def QC : PUnit × MemSt nD τ sig (Elt F) → Prop := fun r => ∀ c : Dev nD,
  r.2.mem ((T c : Thread nD τ).loc main_v8)
      = (shapeCast S1024x1x32x128 (res7 m (Is0 m) (In0 m) c : FVec F S32768x128 .f32) shapeCasts_S32768x128_S1024x1x32x128 : Buf (Elt F) ((T c : Thread nD τ).loc main_v8))
    ∧ r.2.mem ((T c : Thread nD τ).loc main_arg0) = m ((T c : Thread nD τ).loc main_arg0)
    ∧ r.2.mem ((T c : Thread nD τ).loc main_arg1) = m ((T c : Thread nD τ).loc main_arg1)
    ∧ r.2.mem ((T c : Thread nD τ).loc main_arg2) = m ((T c : Thread nD τ).loc main_arg2)
    ∧ r.2.mem ((T c : Thread nD τ).loc main_arg3) = m ((T c : Thread nD τ).loc main_arg3)
    ∧ r.2.mem ((T c : Thread nD τ).loc main_arg4) = m ((T c : Thread nD τ).loc main_arg4)
    ∧ r.2.mem ((T c : Thread nD τ).loc main_arg5) = m ((T c : Thread nD τ).loc main_arg5)

/-- The program's run, given the SparseCore kernel's two obligations. -/
theorem run_main (htile : (K (F := F)).TileObl (D (F := F)) 𝒱 (P m (Is0 m) (In0 m)) v₀ 0)
    (hvec : (K (F := F)).VecSplit (P m (Is0 m) (In0 m)) 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (Is0 m) (In0 m)) facts v₀
    (fun q hq => match q with | 0 => nomatch hq)
    (fun q _ => match q with | 0 => htile)
    (fun q _ => match q with | 0 => hvec)
    m ρ main Gd (fun d => FINr m d (res7 m (Is0 m) (In0 m) d)) (u₀ (F := F)) (hu₀ m) (hmain m ρ)
    (fun d => fq m d (res7 m (Is0 m) (In0 m) d)) (fun d s' => hfin m d _ s') (QC m) (fun _ h => h)

end

end Cert.KI

end
-- ==== Proof.MainPre.lean ====
/-
  The program's run under the precondition. The precondition bounds every word of the adjacency array by 100000; the
  two index lists the SparseCore call reads are rearrangements of that array's words, so their words are bounded too,
  which is what the call's per-subcore obligation asks. The run itself, the per-subcore obligation and the split of
  the call's operands among the subcores enter as hypotheses of the shapes their own modules state.
-/
import proofs.«208587_g27212912787602_cont_9to1_1073_18_alg».proof.Proof.MainSeg
import proofs.«208587_g27212912787602_cont_9to1_1073_18_alg».proof.Proof.MainVal
import proofs.«208587_g27212912787602_cont_9to1_1073_18_alg».proof.Proof.PreFacts
import proofs.«208587_g27212912787602_cont_9to1_1073_18_alg».proof.Proof.Gen.Pre_input_domain

noncomputable section

namespace Cert.KI

open Cert.KernelIdeal Cert.KernelIdeal.Gen
open Idealize.ShloMosaic Idealize.ShloMosaic.ValueIdx
open Idealize.ShloMosaic.SparseCore (S V T)
open Idealize.SL.Sem

variable {F : FTy → Type} [FloatOps F] [∀ e, Nonempty (Elt F e)]

/-- From the run given the call's two obligations, the obligation given the index lists' ranges, and the split: the
    run under the precondition. -/
theorem run_pre_of (post : ((ℓ : Loc nD τ sig) → Buf (Elt F) ℓ) → PUnit × MemSt nD τ sig (Elt F) → Prop)
    (hrun : ∀ (m : (ℓ : Loc nD τ sig) → Buf (Elt F) ℓ) (ρ : Dev nD → PrngReg),
      (K (F := F)).TileObl (D (F := F)) 𝒱 (P m (isOf (m ((T (0 : Dev nD) : Thread nD τ).loc main_arg0))) (inOf (m ((T (0 : Dev nD) : Thread nD τ).loc main_arg0)))) v₀ 0 →
      (K (F := F)).VecSplit (P m (isOf (m ((T (0 : Dev nD) : Thread nD τ).loc main_arg0))) (inOf (m ((T (0 : Dev nD) : Thread nD τ).loc main_arg0)))) 0 →
      θ_run (Cert.KernelIdeal.defs (F := F)) (Cert.KernelIdeal.threads (F := F)) ⟨m, fun _ => 0, ρ⟩ (post m))
    (htile : ∀ (m : (ℓ : Loc nD τ sig) → Buf (Elt F) ℓ) (Is : IVec S256x128 32) (In : IVec S4096x128 32),
      (∀ j, (Is j).toNat ≤ 100000) → (∀ j, (In j).toNat ≤ 100000) → (K (F := F)).TileObl (D (F := F)) 𝒱 (P m Is In) v₀ 0)
    (hvec : ∀ (m : (ℓ : Loc nD τ sig) → Buf (Elt F) ℓ) (Is : IVec S256x128 32) (In : IVec S4096x128 32), (K (F := F)).VecSplit (P m Is In) 0)
    (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) :
    θ_run (Cert.KernelIdeal.defs (F := F)) (Cert.KernelIdeal.threads (F := F)) ⟨m, fun _ => 0, ρ⟩ (post m) :=
  have hadj := Cert.RefSide.adj_le _ _ _ _ _ _ (hpre 0)
  hrun m ρ (htile m _ _ (fun _ => hadj _) (fun _ => hadj _)) (hvec m _ _)

end Cert.KI

end
-- ==== Proof.MainValue.lean ====
import proofs.«208587_g27212912787602_cont_9to1_1073_18_alg».proof.Proof.Pay
import proofs.«208587_g27212912787602_cont_9to1_1073_18_alg».proof.Proof.Main
import Idealize.ShloMosaic.Lib.Pipeline.Value

noncomputable section

namespace Cert.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after after_cons after_nil)
open Idealize.ShloMosaic.Tactic
open Idealize.ShloMosaic.TcCoe
open Idealize.ShloMosaic.Pipeline (Dat Cfg Window BodyObligation cellOf)
variable {F : FTy → Type}

local notation "𝕄" => MT nD τ sig (HIx 1) (Elt F) ℕ UU ℕ

/-! ## The region's result array is the one whole-array function -/

theorem index_rows0 : ∀ t : Fin cfg1.N, (cfg1.win 0).index t = ![t.val, 0] := by decide +kernel
theorem index_rows1 : ∀ t : Fin cfg1.N, (cfg1.win 1).index t = ![t.val, 0] := by decide +kernel
theorem index_rows6 : ∀ t : Fin cfg1.N, (cfg1.win 6).index t = ![t.val, 0] := by decide +kernel
theorem index_mat2 : ∀ t : Fin cfg1.N, (cfg1.win 2).index t = ![0, 0] := by decide +kernel
theorem index_mat3 : ∀ t : Fin cfg1.N, (cfg1.win 3).index t = ![0, 0] := by decide +kernel
theorem index_mat4 : ∀ t : Fin cfg1.N, (cfg1.win 4).index t = ![0, 0] := by decide +kernel
theorem index_mat5 : ∀ t : Fin cfg1.N, (cfg1.win 5).index t = ![0, 0] := by decide +kernel

/-! Where an element of block `t` sits: row `4096 t + y₀` of a row-blocked array; itself in a matrix staged whole. -/
theorem emb_rows0 (t : Fin cfg1.N) (y : ((cfg1.win 0).xblock (cfg1.grid.coords t)).Idx) :
    (((cfg1.win 0).blk t).view.emb y : S32768x128.Idx)
      = ix2 ⟨t.val * 4096 + (y 0).val, by have h1 := t.isLt; have h2 : (y 0).val < 4096 := (y 0).isLt; have h8 : cfg1.N = 8 := N_1; omega⟩ (y 1) := by
  funext a
  refine Fin.ext ?_
  have h := (cfg1.win 0).rect_emb_val t y a
  rw [index_rows0] at h
  fin_cases a
  · exact h
  · refine h.trans ?_; show 0 * 128 + (y 1).val = (y 1).val; omega

theorem emb_rows1 (t : Fin cfg1.N) (y : ((cfg1.win 1).xblock (cfg1.grid.coords t)).Idx) :
    (((cfg1.win 1).blk t).view.emb y : S32768x128.Idx)
      = ix2 ⟨t.val * 4096 + (y 0).val, by have h1 := t.isLt; have h2 : (y 0).val < 4096 := (y 0).isLt; have h8 : cfg1.N = 8 := N_1; omega⟩ (y 1) := by
  funext a
  refine Fin.ext ?_
  have h := (cfg1.win 1).rect_emb_val t y a
  rw [index_rows1] at h
  fin_cases a
  · exact h
  · refine h.trans ?_; show 0 * 128 + (y 1).val = (y 1).val; omega

theorem emb_rows6 (t : Fin cfg1.N) (y : ((cfg1.win 6).xblock (cfg1.grid.coords t)).Idx) :
    (((cfg1.win 6).blk t).view.emb y : S32768x128.Idx)
      = ix2 ⟨t.val * 4096 + (y 0).val, by have h1 := t.isLt; have h2 : (y 0).val < 4096 := (y 0).isLt; have h8 : cfg1.N = 8 := N_1; omega⟩ (y 1) := by
  funext a
  refine Fin.ext ?_
  have h := (cfg1.win 6).rect_emb_val t y a
  rw [index_rows6] at h
  fin_cases a
  · exact h
  · refine h.trans ?_; show 0 * 128 + (y 1).val = (y 1).val; omega

theorem emb_mat2 (t : Fin cfg1.N) (y : ((cfg1.win 2).xblock (cfg1.grid.coords t)).Idx) :
    (((cfg1.win 2).blk t).view.emb y : S128x128.Idx) = y := by
  funext a
  refine Fin.ext ?_
  have h := (cfg1.win 2).rect_emb_val t y a
  rw [index_mat2] at h
  fin_cases a
  · refine h.trans ?_; show 0 * 128 + (y 0).val = (y 0).val; omega
  · refine h.trans ?_; show 0 * 128 + (y 1).val = (y 1).val; omega

theorem emb_mat3 (t : Fin cfg1.N) (y : ((cfg1.win 3).xblock (cfg1.grid.coords t)).Idx) :
    (((cfg1.win 3).blk t).view.emb y : S128x128.Idx) = y := by
  funext a
  refine Fin.ext ?_
  have h := (cfg1.win 3).rect_emb_val t y a
  rw [index_mat3] at h
  fin_cases a
  · refine h.trans ?_; show 0 * 128 + (y 0).val = (y 0).val; omega
  · refine h.trans ?_; show 0 * 128 + (y 1).val = (y 1).val; omega

theorem emb_mat4 (t : Fin cfg1.N) (y : ((cfg1.win 4).xblock (cfg1.grid.coords t)).Idx) :
    (((cfg1.win 4).blk t).view.emb y : S128x128.Idx) = y := by
  funext a
  refine Fin.ext ?_
  have h := (cfg1.win 4).rect_emb_val t y a
  rw [index_mat4] at h
  fin_cases a
  · refine h.trans ?_; show 0 * 128 + (y 0).val = (y 0).val; omega
  · refine h.trans ?_; show 0 * 128 + (y 1).val = (y 1).val; omega

theorem emb_mat5 (t : Fin cfg1.N) (y : ((cfg1.win 5).xblock (cfg1.grid.coords t)).Idx) :
    (((cfg1.win 5).blk t).view.emb y : S128x128.Idx) = y := by
  funext a
  refine Fin.ext ?_
  have h := (cfg1.win 5).rect_emb_val t y a
  rw [index_mat5] at h
  fin_cases a
  · refine h.trans ?_; show 0 * 128 + (y 0).val = (y 0).val; omega
  · refine h.trans ?_; show 0 * 128 + (y 1).val = (y 1).val; omega

variable (m : (ℓ : Loc nD τ sig) → Buf (Elt F) ℓ) (Is : IVec S256x128 32) (In : IVec S4096x128 32)

section
variable [FloatOps F] [∀ e, Nonempty (Elt F e)]

theorem iblk0_apply (d : Dev nD) (t : Fin cfg1.N) (y : ((cfg1.win 0).xblock (cfg1.grid.coords t)).Idx) :
    iblk m Is In d 0 t y = selfVal (m (embLoc d)) Is (ix2 ⟨t.val * 4096 + (y 0).val, by have h1 := t.isLt; have h2 : (y 0).val < 4096 := (y 0).isLt; have h8 : cfg1.N = 8 := N_1; omega⟩ (y 1)) := by
  show (VR m Is In d main_v6_0) (((cfg1.win 0).blk t).view.emb y) = _
  rw [VR_v60, emb_rows0]; rfl
theorem iblk1_apply (d : Dev nD) (t : Fin cfg1.N) (y : ((cfg1.win 1).xblock (cfg1.grid.coords t)).Idx) :
    iblk m Is In d 1 t y = neiVal (m (embLoc d)) In (ix2 ⟨t.val * 4096 + (y 0).val, by have h1 := t.isLt; have h2 : (y 0).val < 4096 := (y 0).isLt; have h8 : cfg1.N = 8 := N_1; omega⟩ (y 1)) := by
  show (VR m Is In d main_v6_1) (((cfg1.win 1).blk t).view.emb y) = _
  rw [VR_v61, emb_rows1]; rfl
theorem iblk2_eq (d : Dev nD) (t : Fin cfg1.N) : iblk m Is In d 2 t = (m ((T d : Thread nD τ).loc main_arg2) : FVec F S128x128 .f32) := by
  funext y
  show (VR m Is In d main_arg2) (((cfg1.win 2).blk t).view.emb y) = _
  rw [VR_other m Is In d main_arg2 (by decide) (by decide), emb_mat2]
theorem iblk3_eq (d : Dev nD) (t : Fin cfg1.N) : iblk m Is In d 3 t = (m ((T d : Thread nD τ).loc main_arg3) : FVec F S128x128 .f32) := by
  funext y
  show (VR m Is In d main_arg3) (((cfg1.win 3).blk t).view.emb y) = _
  rw [VR_other m Is In d main_arg3 (by decide) (by decide), emb_mat3]
theorem iblk4_eq (d : Dev nD) (t : Fin cfg1.N) : iblk m Is In d 4 t = (m ((T d : Thread nD τ).loc main_arg4) : FVec F S128x128 .f32) := by
  funext y
  show (VR m Is In d main_arg4) (((cfg1.win 4).blk t).view.emb y) = _
  rw [VR_other m Is In d main_arg4 (by decide) (by decide), emb_mat4]
theorem iblk5_eq (d : Dev nD) (t : Fin cfg1.N) : iblk m Is In d 5 t = (m ((T d : Thread nD τ).loc main_arg5) : FVec F S128x128 .f32) := by
  funext y
  show (VR m Is In d main_arg5) (((cfg1.win 5).blk t).view.emb y) = _
  rw [VR_other m Is In d main_arg5 (by decide) (by decide), emb_mat5]

end

section
variable [FloatOps F] [∀ e, Nonempty (Elt F e)]

/-- Every row of the result lies in the block of the point that writes it back. -/
theorem cover6 (i : S32768x128.Idx) : ∃ t : Fin cfg1.N, (cfg1.win 6).flush t = true ∧ i ∈ ((cfg1.win 6).blk t).view.set := by
  have h8 : cfg1.N = 8 := N_1
  have hi : (i 0).val < 32768 := (i 0).isLt
  have ht : (i 0).val / 4096 < cfg1.N := by rw [h8]; omega
  refine ⟨⟨(i 0).val / 4096, ht⟩, flush1_6 _, ?_⟩
  have e : i = (((cfg1.win 6).blk ⟨(i 0).val / 4096, ht⟩).view.emb
      (ix2 (⟨(i 0).val % 4096, Nat.mod_lt _ (by norm_num)⟩ : Fin 4096) (i 1) : ((cfg1.win 6).xblock (cfg1.grid.coords ⟨(i 0).val / 4096, ht⟩)).Idx) : S32768x128.Idx) := by
    rw [emb_rows6]
    funext a
    fin_cases a
    · refine Fin.ext ?_
      show (i 0).val = (i 0).val / 4096 * 4096 + (i 0).val % 4096
      omega
    · rfl
  have hm := View.emb_mem_set ((cfg1.win 6).blk ⟨(i 0).val / 4096, ht⟩).view
    (ix2 (⟨(i 0).val % 4096, Nat.mod_lt _ (by norm_num)⟩ : Fin 4096) (i 1) : ((cfg1.win 6).xblock (cfg1.grid.coords ⟨(i 0).val / 4096, ht⟩)).Idx)
  rw [← e] at hm
  exact hm

theorem pay_congr {A A' B B' : Vec F S4096x128 .f32} (M3 M2 M5 M4 : Vec F S128x128 .f32) {z z' : S4096x128.Idx}
    (hA : A = A') (hB : B = B') (hz : z = z') : k1_pay1 A B M3 M2 M5 M4 z = k1_pay1 A' B' M3 M2 M5 M4 z' := by
  subst hA hB hz; rfl

/-- THE VALUE of the region: the result array ends at the one whole-array function of the two gathered arrays and
    the four matrices. -/
theorem res7_eq (d : Dev nD) :
    res7 m Is In d = (mmVal (selfVal (m (embLoc d)) Is) (neiVal (m (embLoc d)) In) (m ((T d : Thread nD τ).loc main_arg2)) (m ((T d : Thread nD τ).loc main_arg3))
      (m ((T d : Thread nD τ).loc main_arg4)) (m ((T d : Thread nD τ).loc main_arg5)) : Buf (Elt F) ((T d : Thread nD τ).loc main_v7)) := by
  unfold res7
  refine (dats m Is In 0 d).arrAt_eq_of_cover 6 _ (fun t _ => ?_) cover6
  funext y
  show (dats m Is In 0 d).after 6 t y = mmVal _ _ _ _ _ _ (((cfg1.win 6).blk t).view.emb y)
  rw [after_6, out6_eq, emb_rows6, iblk2_eq, iblk3_eq, iblk4_eq, iblk5_eq]
  have h2 : (y 0).val < 4096 := (y 0).isLt
  have hq : (t.val * 4096 + (y 0).val) / 4096 * 4096 = t.val * 4096 := by omega
  have hr : (t.val * 4096 + (y 0).val) % 4096 = (y 0).val := by omega
  refine pay_congr _ _ _ _ (funext fun y' => ?_) (funext fun y' => ?_) ?_
  · rw [iblk1_apply]
    exact congrArg (fun a => neiVal (m (embLoc d)) In (ix2 a (y' 1))) (Fin.ext (by show t.val * 4096 + (y' 0).val = (t.val * 4096 + (y 0).val) / 4096 * 4096 + (y' 0).val; omega))
  · rw [iblk0_apply]
    exact congrArg (fun a => selfVal (m (embLoc d)) Is (ix2 a (y' 1))) (Fin.ext (by show t.val * 4096 + (y' 0).val = (t.val * 4096 + (y 0).val) / 4096 * 4096 + (y' 0).val; omega))
  · funext a
    fin_cases a
    · exact Fin.ext hr.symm
    · rfl

/-- The program's result array is `outVal` of its six arguments. -/
theorem out_val (c : Dev nD) :
    (shapeCast S1024x1x32x128 (res7 m (Is0 m) (In0 m) c : FVec F S32768x128 .f32) shapeCasts_S32768x128_S1024x1x32x128 : Buf (Elt F) ((T c : Thread nD τ).loc main_v8))
      = outVal (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  obtain rfl : c = 0 := Subsingleton.elim _ _
  rw [res7_eq]
  rfl

end

end Cert.KI

end
-- ==== Proof.ReduceFrame.lean ====
/-
  The two inner reduction loops of a vector subcore, by their footprint.

  The rows scratch is [2, 128, 128] and the sums scratch [2, 8, 128]; slot j of each is its rows at leading index j.
  Trip p of slot j's loop reads rows 16 p … 16 p + 15 of slot j of the rows scratch, sixteen lanes at a time, and
  stores their left-to-right sum into row p of slot j of the sums scratch. A slot is held as the whole scratch less
  the other slot's rows, so that the other slot may meanwhile be lent to a transfer.
-/
import proofs.«208587_g27212912787602_cont_9to1_1073_18_alg».proof.Proof.Pay
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]
variable (d : Dev nD) (L : grid0.Coords)
/- The vector subcore at grid point `L` of device `d`. -/
local notation "thrL" => (V d ((L 0).castLE hcore0) ((L 1).castLE hsub0) : Thread nD τ)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)
local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)

/-- Slot 0's loop invariant when only the footprint matters: the rows scratch less slot 1's rows at its contents,
    the sums scratch less slot 1's rows at some contents. -/
def invF0 (R : Buf (Elt F) ((s2W).view.loc thrL)) (_ : Nat) (_ : Unit) : sProp 𝕄 :=
  iprop(((s2W).view.loc thrL ↦[Finset.univ \ (rows1M).view.set]{fullShare} R)
    ∗ ∃ N', (s3W).view.loc thrL ↦[Finset.univ \ (nbuf1M).view.set]{fullShare} N')

/-- The eight trips of slot 0's reduction read only slot 0's rows and write only slot 0's sums: every load and
    store of a trip lies at leading index 0, so it misses slot 1's rows of either scratch. -/
theorem reduce0F (R : Buf (Elt F) ((s2W).view.loc thrL)) (N : Buf (Elt F) ((s3W).view.loc thrL))
    (v2 c0 c1 : BitVec 32) (k1 : Fin k0_t1_loop.trips) :
    (iprop(((s2W).view.loc thrL ↦[Finset.univ \ (rows1M).view.set]{fullShare} R) ∗ ((s3W).view.loc thrL ↦[Finset.univ \ (nbuf1M).view.set]{fullShare} N)) : sProp 𝕄)
      ⊢ wp frame (wpE (defs₀ (F := F)) 𝒱₀ thrL none) Set.univ
          (Scf.Loop.for k0_t2_loop k0_t2_ok ⟨⟩ (k0_t2_body L embW (Memref.isWhole_whole _) inW (Memref.isWhole_whole _) isW (Memref.isWhole_whole _) soW (Memref.isWhole_whole _) noW (Memref.isWhole_whole _)
            s0W (Memref.isWhole_whole _) s1W (Memref.isWhole_whole _) s2W (Memref.isWhole_whole _) s3W (Memref.isWhole_whole _) s4W (Memref.isWhole_whole _)
            cc0_scratch5 cc0_scratch6 cc0_scratch7 cc0_scratch8 cc0_scoped0 cc0_scoped1 v2 c0 c1 k1))
          fun _ => iprop(((s2W).view.loc thrL ↦[Finset.univ \ (rows1M).view.set]{fullShare} R)
            ∗ ∃ N', (s3W).view.loc thrL ↦[Finset.univ \ (nbuf1M).view.set]{fullShare} N') := by
  iintro ⟨HR, HN⟩
  sl_for (invF0 d L R) $$ [HR HN]
  case region =>
    intro k _
    unfold invF0
    iintro ⟨HR, %N', HN⟩
    sl_exec_parts
    sl_step
    isplitl [HR]; · iexact HR
    iexists _; iexact HN
  isplitl [HR HN]
  · unfold invF0
    isplitl [HR]; · iexact HR
    iexists _; iexact HN
  iintro %_ HI
  unfold invF0
  iexact HI

/-- Slot 1's loop invariant when only the footprint matters: the rows scratch less slot 0's rows at its contents,
    the sums scratch less slot 0's rows at some contents. -/
def invF1 (R : Buf (Elt F) ((s2W).view.loc thrL)) (_ : Nat) (_ : Unit) : sProp 𝕄 :=
  iprop(((s2W).view.loc thrL ↦[Finset.univ \ (rows0M).view.set]{fullShare} R)
    ∗ ∃ N', (s3W).view.loc thrL ↦[Finset.univ \ (nbuf0M).view.set]{fullShare} N')

/-- The eight trips of slot 1's reduction read only slot 1's rows and write only slot 1's sums: every load and
    store of a trip lies at leading index 1, so it misses slot 0's rows of either scratch. -/
theorem reduce1F (R : Buf (Elt F) ((s2W).view.loc thrL)) (N : Buf (Elt F) ((s3W).view.loc thrL))
    (v2 : BitVec 32) (k1 : Fin k0_t1_loop.trips) (a16 v52 : BitVec 32) :
    (iprop(((s2W).view.loc thrL ↦[Finset.univ \ (rows0M).view.set]{fullShare} R) ∗ ((s3W).view.loc thrL ↦[Finset.univ \ (nbuf0M).view.set]{fullShare} N)) : sProp 𝕄)
      ⊢ wp frame (wpE (defs₀ (F := F)) 𝒱₀ thrL none) Set.univ
          (Scf.Loop.for k0_t3_loop k0_t3_ok ⟨⟩ (k0_t3_body L embW (Memref.isWhole_whole _) inW (Memref.isWhole_whole _) isW (Memref.isWhole_whole _) soW (Memref.isWhole_whole _) noW (Memref.isWhole_whole _)
            s0W (Memref.isWhole_whole _) s1W (Memref.isWhole_whole _) s2W (Memref.isWhole_whole _) s3W (Memref.isWhole_whole _) s4W (Memref.isWhole_whole _)
            cc0_scratch5 cc0_scratch6 cc0_scratch7 cc0_scratch8 cc0_scoped0 cc0_scoped1 v2 k1 a16 v52))
          fun _ => iprop(((s2W).view.loc thrL ↦[Finset.univ \ (rows0M).view.set]{fullShare} R)
            ∗ ∃ N', (s3W).view.loc thrL ↦[Finset.univ \ (nbuf0M).view.set]{fullShare} N') := by
  iintro ⟨HR, HN⟩
  sl_for (invF1 d L R) $$ [HR HN]
  case region =>
    intro k _
    unfold invF1
    iintro ⟨HR, %N', HN⟩
    sl_exec_parts
    sl_step
    isplitl [HR]; · iexact HR
    iexists _; iexact HN
  isplitl [HR HN]
  · unfold invF1
    isplitl [HR]; · iexact HR
    iexists _; iexact HN
  iintro %_ HI
  unfold invF1
  iexact HI

end Cert.KI
end
-- ==== Proof.Halves.lean ====
/-
  The two slots of each scratch are complementary.

  The rows scratch [2, 128, 128] and the sums scratch [2, 8, 128] are each cut by their leading index into slot 0 and
  slot 1. An index lies in one slot exactly when it does not lie in the other, so the elements under one slot are the
  whole scratch less the elements under the other.
-/
import proofs.«208587_g27212912787602_cont_9to1_1073_18_alg».proof.Proof.Pay
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]
variable (d : Dev nD) (L : grid0.Coords)
/- The vector subcore at grid point `L` of device `d`. -/
local notation "thrL" => (V d ((L 0).castLE hcore0) ((L 1).castLE hsub0) : Thread nD τ)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)
local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)

omit [FloatOps F] in
theorem rows0_eq : ((rows0M).view.set : Finset (Idx ((s2W).view.loc thrL))) = Finset.univ \ (rows1M).view.set := by
  rw [Memref.set_view_squeeze, Memref.set_view_squeeze]
  show ((View.whole cc0_scratch2).slice (Rect.unit (s := S2x128x128) ![0, 0, 0] S1x128x128.size Facts₀.inb_S2x128x128_S1x128x128_0_0_0)).set
      = Finset.univ \ ((View.whole cc0_scratch2).slice (Rect.unit (s := S2x128x128) ![1, 0, 0] S1x128x128.size Facts₀.inb_S2x128x128_S1x128x128_1_0_0)).set
  rw [View.set_slice_whole, View.set_slice_whole]
  ext i
  simp only [Finset.mem_sdiff, Finset.mem_univ, true_and, Rect.mem_set_unit]
  show (∀ a : Fin 3, (![0, 0, 0] : Fin 3 → Nat) a ≤ (i a : Nat) ∧ (i a : Nat) < (![0, 0, 0] : Fin 3 → Nat) a + (![1, 128, 128] : Fin 3 → Nat) a)
      ↔ ¬ ∀ a : Fin 3, (![1, 0, 0] : Fin 3 → Nat) a ≤ (i a : Nat) ∧ (i a : Nat) < (![1, 0, 0] : Fin 3 → Nat) a + (![1, 128, 128] : Fin 3 → Nat) a
  have h0 : (i 0 : Nat) < 2 := (i 0).isLt
  have h1 : (i 1 : Nat) < 128 := (i 1).isLt
  have h2 : (i 2 : Nat) < 128 := (i 2).isLt
  rw [Fin.forall_fin_succ, Fin.forall_fin_succ, Fin.forall_fin_succ, Fin.forall_fin_succ, Fin.forall_fin_succ, Fin.forall_fin_succ]
  simp only [IsEmpty.forall_iff, and_true, Matrix.cons_val_zero, Matrix.cons_val_succ, Matrix.cons_val_one, Matrix.cons_val_two,
    Matrix.head_cons, Matrix.tail_cons, Fin.succ_zero_eq_one, Fin.succ_one_eq_two]
  omega

omit [FloatOps F] in
theorem rows1_eq : ((rows1M).view.set : Finset (Idx ((s2W).view.loc thrL))) = Finset.univ \ (rows0M).view.set := by
  rw [Memref.set_view_squeeze, Memref.set_view_squeeze]
  show ((View.whole cc0_scratch2).slice (Rect.unit (s := S2x128x128) ![1, 0, 0] S1x128x128.size Facts₀.inb_S2x128x128_S1x128x128_1_0_0)).set
      = Finset.univ \ ((View.whole cc0_scratch2).slice (Rect.unit (s := S2x128x128) ![0, 0, 0] S1x128x128.size Facts₀.inb_S2x128x128_S1x128x128_0_0_0)).set
  rw [View.set_slice_whole, View.set_slice_whole]
  ext i
  simp only [Finset.mem_sdiff, Finset.mem_univ, true_and, Rect.mem_set_unit]
  show (∀ a : Fin 3, (![1, 0, 0] : Fin 3 → Nat) a ≤ (i a : Nat) ∧ (i a : Nat) < (![1, 0, 0] : Fin 3 → Nat) a + (![1, 128, 128] : Fin 3 → Nat) a)
      ↔ ¬ ∀ a : Fin 3, (![0, 0, 0] : Fin 3 → Nat) a ≤ (i a : Nat) ∧ (i a : Nat) < (![0, 0, 0] : Fin 3 → Nat) a + (![1, 128, 128] : Fin 3 → Nat) a
  have h0 : (i 0 : Nat) < 2 := (i 0).isLt
  have h1 : (i 1 : Nat) < 128 := (i 1).isLt
  have h2 : (i 2 : Nat) < 128 := (i 2).isLt
  rw [Fin.forall_fin_succ, Fin.forall_fin_succ, Fin.forall_fin_succ, Fin.forall_fin_succ, Fin.forall_fin_succ, Fin.forall_fin_succ]
  simp only [IsEmpty.forall_iff, and_true, Matrix.cons_val_zero, Matrix.cons_val_succ, Matrix.cons_val_one, Matrix.cons_val_two,
    Matrix.head_cons, Matrix.tail_cons, Fin.succ_zero_eq_one, Fin.succ_one_eq_two]
  omega

omit [FloatOps F] in
theorem nbuf0_eq : ((nbuf0M).view.set : Finset (Idx ((s3W).view.loc thrL))) = Finset.univ \ (nbuf1M).view.set := by
  rw [Memref.set_view_squeeze, Memref.set_view_squeeze]
  show ((View.whole cc0_scratch3).slice (Rect.unit (s := S2x8x128) ![0, 0, 0] S1x8x128.size Facts₀.inb_S2x8x128_S1x8x128_0_0_0)).set
      = Finset.univ \ ((View.whole cc0_scratch3).slice (Rect.unit (s := S2x8x128) ![1, 0, 0] S1x8x128.size Facts₀.inb_S2x8x128_S1x8x128_1_0_0)).set
  rw [View.set_slice_whole, View.set_slice_whole]
  ext i
  simp only [Finset.mem_sdiff, Finset.mem_univ, true_and, Rect.mem_set_unit]
  show (∀ a : Fin 3, (![0, 0, 0] : Fin 3 → Nat) a ≤ (i a : Nat) ∧ (i a : Nat) < (![0, 0, 0] : Fin 3 → Nat) a + (![1, 8, 128] : Fin 3 → Nat) a)
      ↔ ¬ ∀ a : Fin 3, (![1, 0, 0] : Fin 3 → Nat) a ≤ (i a : Nat) ∧ (i a : Nat) < (![1, 0, 0] : Fin 3 → Nat) a + (![1, 8, 128] : Fin 3 → Nat) a
  have h0 : (i 0 : Nat) < 2 := (i 0).isLt
  have h1 : (i 1 : Nat) < 8 := (i 1).isLt
  have h2 : (i 2 : Nat) < 128 := (i 2).isLt
  rw [Fin.forall_fin_succ, Fin.forall_fin_succ, Fin.forall_fin_succ, Fin.forall_fin_succ, Fin.forall_fin_succ, Fin.forall_fin_succ]
  simp only [IsEmpty.forall_iff, and_true, Matrix.cons_val_zero, Matrix.cons_val_succ, Matrix.cons_val_one, Matrix.cons_val_two,
    Matrix.head_cons, Matrix.tail_cons, Fin.succ_zero_eq_one, Fin.succ_one_eq_two]
  omega

omit [FloatOps F] in
theorem nbuf1_eq : ((nbuf1M).view.set : Finset (Idx ((s3W).view.loc thrL))) = Finset.univ \ (nbuf0M).view.set := by
  rw [Memref.set_view_squeeze, Memref.set_view_squeeze]
  show ((View.whole cc0_scratch3).slice (Rect.unit (s := S2x8x128) ![1, 0, 0] S1x8x128.size Facts₀.inb_S2x8x128_S1x8x128_1_0_0)).set
      = Finset.univ \ ((View.whole cc0_scratch3).slice (Rect.unit (s := S2x8x128) ![0, 0, 0] S1x8x128.size Facts₀.inb_S2x8x128_S1x8x128_0_0_0)).set
  rw [View.set_slice_whole, View.set_slice_whole]
  ext i
  simp only [Finset.mem_sdiff, Finset.mem_univ, true_and, Rect.mem_set_unit]
  show (∀ a : Fin 3, (![1, 0, 0] : Fin 3 → Nat) a ≤ (i a : Nat) ∧ (i a : Nat) < (![1, 0, 0] : Fin 3 → Nat) a + (![1, 8, 128] : Fin 3 → Nat) a)
      ↔ ¬ ∀ a : Fin 3, (![0, 0, 0] : Fin 3 → Nat) a ≤ (i a : Nat) ∧ (i a : Nat) < (![0, 0, 0] : Fin 3 → Nat) a + (![1, 8, 128] : Fin 3 → Nat) a
  have h0 : (i 0 : Nat) < 2 := (i 0).isLt
  have h1 : (i 1 : Nat) < 8 := (i 1).isLt
  have h2 : (i 2 : Nat) < 128 := (i 2).isLt
  rw [Fin.forall_fin_succ, Fin.forall_fin_succ, Fin.forall_fin_succ, Fin.forall_fin_succ, Fin.forall_fin_succ, Fin.forall_fin_succ]
  simp only [IsEmpty.forall_iff, and_true, Matrix.cons_val_zero, Matrix.cons_val_succ, Matrix.cons_val_one, Matrix.cons_val_two,
    Matrix.head_cons, Matrix.tail_cons, Fin.succ_zero_eq_one, Fin.succ_one_eq_two]
  omega

end Cert.KI
end
-- ==== Proof.Geom.lean ====
/-
  Rows of the two result arrays: which rows a window of 8 or 128 rows covers, which rows a worker owns, and when two
  such sets of rows are apart.

  Both result arrays have 32768 rows of 128 columns. A window is a unit-stride rectangle of 8 (or 128) whole rows
  starting at row off 0; element y lies in it exactly when off 0 ≤ y 0 < off 0 + 8 (or + 128). Worker w = 2 s + c owns
  the 1024 rows from 1024 w = 2048 s + 1024 c. Two windows whose row ranges do not meet are disjoint, and a window
  inside a worker's rows is disjoint from everything outside those rows. The program's own windows of the neighbour
  array start at row 2048 s + 1024 c + 16 k (first slot) and + 16 k + 8 (second slot) for the pair number k < 64: chunk
  2 k and chunk 2 k + 1 of the worker's 128 chunks of eight rows, so all of them lie inside the worker's rows and any
  two of different chunk numbers are apart.
-/
import proofs.«208587_g27212912787602_cont_9to1_1073_18_alg».proof.Proof.Pay

set_option quotPrecheck false

noncomputable section

namespace Cert.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)

/-! ## Membership -/

/-- An eight-row window of the neighbour result. -/
theorem mem_win8 (off : Fin 2 → Nat) (inb : ∀ a, off a + S8x128.size a ≤ S32768x128.size a) (h1 : off 1 = 0)
    (y : S32768x128.Idx) :
    y ∈ ((noW).slice (Rect.unit (s := S32768x128) off S8x128.size inb) (fun _ => rfl)).view.set
      ↔ off 0 ≤ (y 0).val ∧ (y 0).val < off 0 + 8 := by
  have e : ((noW).slice (Rect.unit (s := S32768x128) off S8x128.size inb) (fun _ => rfl)).view.set
      = (Rect.unit (s := S32768x128) off S8x128.size inb).set := View.set_slice_whole _ _
  rw [e, Rect.mem_set_unit]
  constructor
  · intro h; exact h 0
  · intro h a
    match a with
    | ⟨0, _⟩ => exact h
    | ⟨1, _⟩ =>
      have hy : (y 1).val < 128 := (y 1).isLt
      show off 1 ≤ (y 1).val ∧ (y 1).val < off 1 + 128
      omega

/-- A 128-row window of the own result. -/
theorem mem_win128 (off : Fin 2 → Nat) (inb : ∀ a, off a + S128x128.size a ≤ S32768x128.size a) (h1 : off 1 = 0)
    (y : S32768x128.Idx) :
    y ∈ ((soW).slice (Rect.unit (s := S32768x128) off S128x128.size inb) (fun _ => rfl)).view.set
      ↔ off 0 ≤ (y 0).val ∧ (y 0).val < off 0 + 128 := by
  have e : ((soW).slice (Rect.unit (s := S32768x128) off S128x128.size inb) (fun _ => rfl)).view.set
      = (Rect.unit (s := S32768x128) off S128x128.size inb).set := View.set_slice_whole _ _
  rw [e, Rect.mem_set_unit]
  constructor
  · intro h; exact h 0
  · intro h a
    match a with
    | ⟨0, _⟩ => exact h
    | ⟨1, _⟩ =>
      have hy : (y 1).val < 128 := (y 1).isLt
      show off 1 ≤ (y 1).val ∧ (y 1).val < off 1 + 128
      omega

/-- The rows of worker 2 s + c. -/
theorem mem_wRowSet (c : Fin 2) (s : Fin 16) (y : S32768x128.Idx) :
    y ∈ wRowSet (wOf c s)
      ↔ 2048 * s.val + 1024 * c.val ≤ (y 0).val ∧ (y 0).val < 2048 * s.val + 1024 * c.val + 1024 := by
  show y ∈ (Rect.unit (s := S32768x128) _ _ _).set ↔ _
  rw [Rect.mem_set_unit]
  constructor
  · intro h
    have h0 := h 0
    change (s.val * 2 + c.val) * 1024 ≤ (y 0).val ∧ (y 0).val < (s.val * 2 + c.val) * 1024 + 1024 at h0
    omega
  · intro h a
    match a with
    | ⟨0, _⟩ =>
      show (s.val * 2 + c.val) * 1024 ≤ (y 0).val ∧ (y 0).val < (s.val * 2 + c.val) * 1024 + 1024
      omega
    | ⟨1, _⟩ =>
      have hy : (y 1).val < 128 := (y 1).isLt
      show 0 * 128 ≤ (y 1).val ∧ (y 1).val < 0 * 128 + 128
      omega

/-! ## Windows apart -/

/-- An eight-row window inside a worker's rows misses everything outside them. -/
theorem win8_disj_others (c : Fin 2) (s : Fin 16) (off : Fin 2 → Nat)
    (inb : ∀ a, off a + S8x128.size a ≤ S32768x128.size a) (h1 : off 1 = 0)
    (hlo : 2048 * s.val + 1024 * c.val ≤ off 0) (hhi : off 0 + 8 ≤ 2048 * s.val + 1024 * c.val + 1024) :
    Disjoint ((noW).slice (Rect.unit (s := S32768x128) off S8x128.size inb) (fun _ => rfl)).view.set
      (Finset.univ \ wRowSet (wOf c s)) := by
  rw [Finset.disjoint_left]
  intro y hy hy'
  have h := (mem_win8 off inb h1 y).mp hy
  exact (Finset.mem_sdiff.mp hy').2 ((mem_wRowSet c s y).mpr (by omega))

/-- A 128-row window inside a worker's rows misses everything outside them. -/
theorem win128_disj_others (c : Fin 2) (s : Fin 16) (off : Fin 2 → Nat)
    (inb : ∀ a, off a + S128x128.size a ≤ S32768x128.size a) (h1 : off 1 = 0)
    (hlo : 2048 * s.val + 1024 * c.val ≤ off 0) (hhi : off 0 + 128 ≤ 2048 * s.val + 1024 * c.val + 1024) :
    Disjoint ((soW).slice (Rect.unit (s := S32768x128) off S128x128.size inb) (fun _ => rfl)).view.set
      (Finset.univ \ wRowSet (wOf c s)) := by
  rw [Finset.disjoint_left]
  intro y hy hy'
  have h := (mem_win128 off inb h1 y).mp hy
  exact (Finset.mem_sdiff.mp hy').2 ((mem_wRowSet c s y).mpr (by omega))

/-- An eight-row window inside a worker's rows is among them. -/
theorem win8_subset (c : Fin 2) (s : Fin 16) (off : Fin 2 → Nat)
    (inb : ∀ a, off a + S8x128.size a ≤ S32768x128.size a) (h1 : off 1 = 0)
    (hlo : 2048 * s.val + 1024 * c.val ≤ off 0) (hhi : off 0 + 8 ≤ 2048 * s.val + 1024 * c.val + 1024) :
    ((noW).slice (Rect.unit (s := S32768x128) off S8x128.size inb) (fun _ => rfl)).view.set ⊆ wRowSet (wOf c s) := by
  intro y hy
  have h := (mem_win8 off inb h1 y).mp hy
  exact (mem_wRowSet c s y).mpr (by omega)

/-- A 128-row window inside a worker's rows is among them. -/
theorem win128_subset (c : Fin 2) (s : Fin 16) (off : Fin 2 → Nat)
    (inb : ∀ a, off a + S128x128.size a ≤ S32768x128.size a) (h1 : off 1 = 0)
    (hlo : 2048 * s.val + 1024 * c.val ≤ off 0) (hhi : off 0 + 128 ≤ 2048 * s.val + 1024 * c.val + 1024) :
    ((soW).slice (Rect.unit (s := S32768x128) off S128x128.size inb) (fun _ => rfl)).view.set ⊆ wRowSet (wOf c s) := by
  intro y hy
  have h := (mem_win128 off inb h1 y).mp hy
  exact (mem_wRowSet c s y).mpr (by omega)

/-- Two eight-row windows whose row ranges do not meet. -/
theorem win8_disj (off off' : Fin 2 → Nat) (inb : ∀ a, off a + S8x128.size a ≤ S32768x128.size a)
    (inb' : ∀ a, off' a + S8x128.size a ≤ S32768x128.size a) (h : off 0 + 8 ≤ off' 0 ∨ off' 0 + 8 ≤ off 0) :
    Disjoint ((noW).slice (Rect.unit (s := S32768x128) off S8x128.size inb) (fun _ => rfl)).view.set
      ((noW).slice (Rect.unit (s := S32768x128) off' S8x128.size inb') (fun _ => rfl)).view.set := by
  have e : ((noW).slice (Rect.unit (s := S32768x128) off S8x128.size inb) (fun _ => rfl)).view.set
      = (Rect.unit (s := S32768x128) off S8x128.size inb).set := View.set_slice_whole _ _
  have e' : ((noW).slice (Rect.unit (s := S32768x128) off' S8x128.size inb') (fun _ => rfl)).view.set
      = (Rect.unit (s := S32768x128) off' S8x128.size inb').set := View.set_slice_whole _ _
  rw [e, e']
  exact Rect.unit_disjoint (0 : Fin 2) h

/-- Two 128-row windows whose row ranges do not meet. -/
theorem win128_disj (off off' : Fin 2 → Nat) (inb : ∀ a, off a + S128x128.size a ≤ S32768x128.size a)
    (inb' : ∀ a, off' a + S128x128.size a ≤ S32768x128.size a) (h : off 0 + 128 ≤ off' 0 ∨ off' 0 + 128 ≤ off 0) :
    Disjoint ((soW).slice (Rect.unit (s := S32768x128) off S128x128.size inb) (fun _ => rfl)).view.set
      ((soW).slice (Rect.unit (s := S32768x128) off' S128x128.size inb') (fun _ => rfl)).view.set := by
  have e : ((soW).slice (Rect.unit (s := S32768x128) off S128x128.size inb) (fun _ => rfl)).view.set
      = (Rect.unit (s := S32768x128) off S128x128.size inb).set := View.set_slice_whole _ _
  have e' : ((soW).slice (Rect.unit (s := S32768x128) off' S128x128.size inb') (fun _ => rfl)).view.set
      = (Rect.unit (s := S32768x128) off' S128x128.size inb').set := View.set_slice_whole _ _
  rw [e, e']
  exact Rect.unit_disjoint (0 : Fin 2) h

/-! ## The program's own windows of the neighbour result -/

/-- The SparseCore and the subcore of a grid point. -/
abbrev cL (L : grid0.Coords) : Fin 2 := Fin.cast rfl (L 0)
abbrev sL (L : grid0.Coords) : Fin 16 := Fin.cast rfl (L 1)

theorem off32_0 (L : grid0.Coords) (k : Fin k0_t1_loop.trips) :
    k0_off32 L k 0 = 2048 * (L 1).val + 1024 * (L 0).val + 16 * k.val := by rw [k0_off32_eq]; rfl
theorem off32_1 (L : grid0.Coords) (k : Fin k0_t1_loop.trips) : k0_off32 L k 1 = 0 := by rw [k0_off32_eq]; rfl
theorem off60_0 (L : grid0.Coords) (k : Fin k0_t1_loop.trips) :
    k0_off60 L k 0 = 2048 * (L 1).val + 1024 * (L 0).val + 16 * k.val + 8 := by rw [k0_off60_eq]; rfl
theorem off60_1 (L : grid0.Coords) (k : Fin k0_t1_loop.trips) : k0_off60 L k 1 = 0 := by rw [k0_off60_eq]; rfl
theorem off7_0 (L : grid0.Coords) : k0_off7 L 0 = 2048 * (L 1).val + 1024 * (L 0).val := by rw [k0_off7_eq]; rfl
theorem off7_1 (L : grid0.Coords) : k0_off7 L 1 = 0 := by rw [k0_off7_eq]; rfl
theorem off35_0 (L : grid0.Coords) : k0_off35 L 0 = 2048 * (L 1).val + 1024 * (L 0).val := by rw [k0_off35_eq]; rfl
theorem off35_1 (L : grid0.Coords) : k0_off35 L 1 = 0 := by rw [k0_off35_eq]; rfl
theorem off62_0 (L : grid0.Coords) : k0_off62 L 0 = 2048 * (L 1).val + 1024 * (L 0).val := by rw [k0_off62_eq]; rfl
theorem off62_1 (L : grid0.Coords) : k0_off62 L 1 = 0 := by rw [k0_off62_eq]; rfl

theorem trips_lt (k : Fin k0_t1_loop.trips) : k.val < 64 := by
  have h : k0_t1_loop.trips = 64 := by decide
  have := k.isLt
  omega

/-- The first slot's window of pair k lies in the worker's rows: it misses everything outside them, -/
theorem off32_disj_others (L : grid0.Coords) (k : Fin k0_t1_loop.trips) :
    Disjoint ((noW).slice (Rect.unit (s := S32768x128) (k0_off32 L k) S8x128.size (k0_off32_inb L k)) (fun _ => rfl)).view.set
      (Finset.univ \ wRowSet (wOf (cL L) (sL L))) := by
  have hk := trips_lt k
  refine win8_disj_others (cL L) (sL L) _ _ (off32_1 L k) ?_ ?_
  · rw [off32_0]; show 2048 * (L 1).val + 1024 * (L 0).val ≤ _; omega
  · rw [off32_0]; show _ ≤ 2048 * (L 1).val + 1024 * (L 0).val + 1024; omega

/-- and is among them. -/
theorem off32_subset (L : grid0.Coords) (k : Fin k0_t1_loop.trips) :
    ((noW).slice (Rect.unit (s := S32768x128) (k0_off32 L k) S8x128.size (k0_off32_inb L k)) (fun _ => rfl)).view.set
      ⊆ wRowSet (wOf (cL L) (sL L)) := by
  have hk := trips_lt k
  refine win8_subset (cL L) (sL L) _ _ (off32_1 L k) ?_ ?_
  · rw [off32_0]; show 2048 * (L 1).val + 1024 * (L 0).val ≤ _; omega
  · rw [off32_0]; show _ ≤ 2048 * (L 1).val + 1024 * (L 0).val + 1024; omega

/-- The second slot's window of pair k likewise. -/
theorem off60_disj_others (L : grid0.Coords) (k : Fin k0_t1_loop.trips) :
    Disjoint ((noW).slice (Rect.unit (s := S32768x128) (k0_off60 L k) S8x128.size (k0_off60_inb L k)) (fun _ => rfl)).view.set
      (Finset.univ \ wRowSet (wOf (cL L) (sL L))) := by
  have hk := trips_lt k
  refine win8_disj_others (cL L) (sL L) _ _ (off60_1 L k) ?_ ?_
  · rw [off60_0]; show 2048 * (L 1).val + 1024 * (L 0).val ≤ _; omega
  · rw [off60_0]; show _ ≤ 2048 * (L 1).val + 1024 * (L 0).val + 1024; omega

theorem off60_subset (L : grid0.Coords) (k : Fin k0_t1_loop.trips) :
    ((noW).slice (Rect.unit (s := S32768x128) (k0_off60 L k) S8x128.size (k0_off60_inb L k)) (fun _ => rfl)).view.set
      ⊆ wRowSet (wOf (cL L) (sL L)) := by
  have hk := trips_lt k
  refine win8_subset (cL L) (sL L) _ _ (off60_1 L k) ?_ ?_
  · rw [off60_0]; show 2048 * (L 1).val + 1024 * (L 0).val ≤ _; omega
  · rw [off60_0]; show _ ≤ 2048 * (L 1).val + 1024 * (L 0).val + 1024; omega

/-- First-slot windows of different pairs are apart. -/
theorem off32_off32_disj (L : grid0.Coords) (k k' : Fin k0_t1_loop.trips) (h : k.val ≠ k'.val) :
    Disjoint ((noW).slice (Rect.unit (s := S32768x128) (k0_off32 L k) S8x128.size (k0_off32_inb L k)) (fun _ => rfl)).view.set
      ((noW).slice (Rect.unit (s := S32768x128) (k0_off32 L k') S8x128.size (k0_off32_inb L k')) (fun _ => rfl)).view.set := by
  refine win8_disj _ _ _ _ ?_
  rw [off32_0, off32_0]; omega

/-- Second-slot windows of different pairs are apart. -/
theorem off60_off60_disj (L : grid0.Coords) (k k' : Fin k0_t1_loop.trips) (h : k.val ≠ k'.val) :
    Disjoint ((noW).slice (Rect.unit (s := S32768x128) (k0_off60 L k) S8x128.size (k0_off60_inb L k)) (fun _ => rfl)).view.set
      ((noW).slice (Rect.unit (s := S32768x128) (k0_off60 L k') S8x128.size (k0_off60_inb L k')) (fun _ => rfl)).view.set := by
  refine win8_disj _ _ _ _ ?_
  rw [off60_0, off60_0]; omega

/-- A first-slot window and a second-slot window are always apart: an even and an odd chunk. -/
theorem off32_off60_disj (L : grid0.Coords) (k k' : Fin k0_t1_loop.trips) :
    Disjoint ((noW).slice (Rect.unit (s := S32768x128) (k0_off32 L k) S8x128.size (k0_off32_inb L k)) (fun _ => rfl)).view.set
      ((noW).slice (Rect.unit (s := S32768x128) (k0_off60 L k') S8x128.size (k0_off60_inb L k')) (fun _ => rfl)).view.set := by
  refine win8_disj _ _ _ _ ?_
  rw [off32_0, off60_0]; omega

theorem off60_off32_disj (L : grid0.Coords) (k k' : Fin k0_t1_loop.trips) :
    Disjoint ((noW).slice (Rect.unit (s := S32768x128) (k0_off60 L k) S8x128.size (k0_off60_inb L k)) (fun _ => rfl)).view.set
      ((noW).slice (Rect.unit (s := S32768x128) (k0_off32 L k') S8x128.size (k0_off32_inb L k')) (fun _ => rfl)).view.set :=
  (off32_off60_disj L k' k).symm

end Cert.KI

end
-- ==== Proof.GeomOps.lean ====
/-
  Putting a returned window back, and what a write through a window changes.

  A window I of a set S of elements, held at contents f, and the rest of S (less a further set J still lent out) held
  at contents g, join to S less J at the contents that are f on I and g elsewhere. A write of a payload through an
  8-row (or 128-row) window of a result array changes exactly the window's elements: off the window the contents stay,
  and the element under window index x — row off 0 + x 0, column x 1 — takes the payload at x.
-/
import proofs.«208587_g27212912787602_cont_9to1_1073_18_alg».proof.Proof.Pay

set_option quotPrecheck false

noncomputable section

namespace Cert.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)

/-! ## Joining a returned window -/

section Join
variable {ℓ : Loc nD τ sig} {I J S : Finset (Idx ℓ)} {f g : Buf (Elt F) ℓ} {q : PosShare TreeShare}

/-- A window and the rest of its set. -/
theorem join_plain (hI : I ⊆ S) :
    iprop((ℓ ↦[I]{q} f) ∗ (ℓ ↦[S \ I]{q} g)) ⊢ (ℓ ↦[S]{q} (I.piecewise f g) : sProp 𝕄) :=
  pointsTo_join_subset hI

/-- A window and the rest of its set less a further lent set, the window cut out first. -/
theorem join_hole (hI : I ⊆ S) (hIJ : Disjoint I J) :
    iprop((ℓ ↦[I]{q} f) ∗ (ℓ ↦[(S \ I) \ J]{q} g)) ⊢ (ℓ ↦[S \ J]{q} (I.piecewise f g) : sProp 𝕄) := by
  have h : I ⊆ S \ J := fun i hi => Finset.mem_sdiff.mpr ⟨hI hi, Finset.disjoint_left.mp hIJ hi⟩
  rw [sdiff_sdiff_comm]
  exact pointsTo_join_subset h

/-- The same with the lent set cut out first. -/
theorem join_hole' (hI : I ⊆ S) (hIJ : Disjoint I J) :
    iprop((ℓ ↦[I]{q} f) ∗ (ℓ ↦[(S \ J) \ I]{q} g)) ⊢ (ℓ ↦[S \ J]{q} (I.piecewise f g) : sProp 𝕄) :=
  pointsTo_join_subset fun i hi => Finset.mem_sdiff.mpr ⟨hI hi, Finset.disjoint_left.mp hIJ hi⟩

end Join

/-! ## A write through a window -/

/-- Off an eight-row window of the neighbour result a write through it changes nothing. -/
theorem win8_write_off (off : Fin 2 → Nat) (inb : ∀ a, off a + S8x128.size a ≤ S32768x128.size a)
    (g : ((noW).slice (Rect.unit (s := S32768x128) off S8x128.size inb) (fun _ => rfl)).view.ty.Contents (Elt F))
    (w : (Rect.unit (s := S32768x128) off S8x128.size inb).shape.Idx → Elt F .f32)
    (y : ((noW).slice (Rect.unit (s := S32768x128) off S8x128.size inb) (fun _ => rfl)).view.ty.Idx)
    (hy : y ∉ ((noW).slice (Rect.unit (s := S32768x128) off S8x128.size inb) (fun _ => rfl)).view.set) :
    ((noW).slice (Rect.unit (s := S32768x128) off S8x128.size inb) (fun _ => rfl)).view.write (Elt F) g w Finset.univ y = g y :=
  View.write_of_not_mem g w Finset.univ hy

/-- Under window index x the write leaves the payload at x. -/
theorem win8_write_emb (off : Fin 2 → Nat) (inb : ∀ a, off a + S8x128.size a ≤ S32768x128.size a)
    (g : ((noW).slice (Rect.unit (s := S32768x128) off S8x128.size inb) (fun _ => rfl)).view.ty.Contents (Elt F))
    (w : (Rect.unit (s := S32768x128) off S8x128.size inb).shape.Idx → Elt F .f32)
    (x : (Rect.unit (s := S32768x128) off S8x128.size inb).shape.Idx) :
    ((noW).slice (Rect.unit (s := S32768x128) off S8x128.size inb) (fun _ => rfl)).view.write (Elt F) g w Finset.univ
        (((noW).slice (Rect.unit (s := S32768x128) off S8x128.size inb) (fun _ => rfl)).view.emb x) = w x := by
  rw [View.write_emb_of_mem g w (Finset.mem_univ x)]
  rfl

/-- The element under window index x: row off 0 + x 0, column x 1. -/
theorem win8_emb (off : Fin 2 → Nat) (inb : ∀ a, off a + S8x128.size a ≤ S32768x128.size a) (h1 : off 1 = 0)
    (x : (Rect.unit (s := S32768x128) off S8x128.size inb).shape.Idx) :
    (((noW).slice (Rect.unit (s := S32768x128) off S8x128.size inb) (fun _ => rfl)).view.emb x : S32768x128.Idx)
      = ix2 (⟨off 0 + (x 0).val, by have h := inb 0; have hx : (x 0).val < 8 := (x 0).isLt; change off 0 + 8 ≤ 32768 at h; omega⟩ : Fin 32768)
          (⟨(x 1).val, (x 1).isLt⟩ : Fin 128) := by
  funext a
  refine Fin.ext ?_
  match a with
  | ⟨0, _⟩ => show off 0 + 1 * (x 0).val = off 0 + (x 0).val; omega
  | ⟨1, _⟩ => show off 1 + 1 * (x 1).val = (x 1).val; omega

/-- The 128-row twins for the own result. -/
theorem win128_write_off (off : Fin 2 → Nat) (inb : ∀ a, off a + S128x128.size a ≤ S32768x128.size a)
    (g : ((soW).slice (Rect.unit (s := S32768x128) off S128x128.size inb) (fun _ => rfl)).view.ty.Contents (Elt F))
    (w : (Rect.unit (s := S32768x128) off S128x128.size inb).shape.Idx → Elt F .f32)
    (y : ((soW).slice (Rect.unit (s := S32768x128) off S128x128.size inb) (fun _ => rfl)).view.ty.Idx)
    (hy : y ∉ ((soW).slice (Rect.unit (s := S32768x128) off S128x128.size inb) (fun _ => rfl)).view.set) :
    ((soW).slice (Rect.unit (s := S32768x128) off S128x128.size inb) (fun _ => rfl)).view.write (Elt F) g w Finset.univ y = g y :=
  View.write_of_not_mem g w Finset.univ hy

theorem win128_write_emb (off : Fin 2 → Nat) (inb : ∀ a, off a + S128x128.size a ≤ S32768x128.size a)
    (g : ((soW).slice (Rect.unit (s := S32768x128) off S128x128.size inb) (fun _ => rfl)).view.ty.Contents (Elt F))
    (w : (Rect.unit (s := S32768x128) off S128x128.size inb).shape.Idx → Elt F .f32)
    (x : (Rect.unit (s := S32768x128) off S128x128.size inb).shape.Idx) :
    ((soW).slice (Rect.unit (s := S32768x128) off S128x128.size inb) (fun _ => rfl)).view.write (Elt F) g w Finset.univ
        (((soW).slice (Rect.unit (s := S32768x128) off S128x128.size inb) (fun _ => rfl)).view.emb x) = w x := by
  rw [View.write_emb_of_mem g w (Finset.mem_univ x)]
  rfl

theorem win128_emb (off : Fin 2 → Nat) (inb : ∀ a, off a + S128x128.size a ≤ S32768x128.size a) (h1 : off 1 = 0)
    (x : (Rect.unit (s := S32768x128) off S128x128.size inb).shape.Idx) :
    (((soW).slice (Rect.unit (s := S32768x128) off S128x128.size inb) (fun _ => rfl)).view.emb x : S32768x128.Idx)
      = ix2 (⟨off 0 + (x 0).val, by have h := inb 0; have hx : (x 0).val < 128 := (x 0).isLt; change off 0 + 128 ≤ 32768 at h; omega⟩ : Fin 32768)
          (⟨(x 1).val, (x 1).isLt⟩ : Fin 128) := by
  funext a
  refine Fin.ext ?_
  match a with
  | ⟨0, _⟩ => show off 0 + 1 * (x 0).val = off 0 + (x 0).val; omega
  | ⟨1, _⟩ => show off 1 + 1 * (x 1).val = (x 1).val; omega

end Cert.KI

end
-- ==== Proof.TileInv.lean ====
/-
  The invariant of a vector subcore's main loop. Before trip n the subcore has, per slot, the gather of chunk
  2 n + slot in flight into the slot's half of the rows scratch; for n > 0 the copies of the sums of chunks
  2 n - 2 and 2 n - 1 in flight out of the two halves of the sums scratch into their eight-row windows of the
  neighbour-sum result; the own-row gather of block (n + 3) / 8 in flight while n ≤ 60; the rows of the two
  results below those windows at the gathered values; the index scratches unchanged.
-/
import proofs.«208587_g27212912787602_cont_9to1_1073_18_alg».proof.Proof.Pay
import proofs.«208587_g27212912787602_cont_9to1_1073_18_alg».proof.Proof.ReduceFrame
import proofs.«208587_g27212912787602_cont_9to1_1073_18_alg».proof.Proof.Halves
import proofs.«208587_g27212912787602_cont_9to1_1073_18_alg».proof.Proof.Geom
import proofs.«208587_g27212912787602_cont_9to1_1073_18_alg».proof.Proof.GeomOps
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
abbrev cV (L : grid0.Coords) : Fin τ.nSC := (L 0).castLE hcore0
abbrev jV (L : grid0.Coords) : Fin τ.nSub := (L 1).castLE hsub0
abbrev thr : Thread nD τ := V d (cV L) (jV L)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)

set_option quotPrecheck false
local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)
/-- Row `o 0` of the neighbour-index scratch, as an offsets list. -/
abbrev offN (o : Fin 2 → Nat) (h : ∀ a, o a + S1x128.size a ≤ S128x128.size a) : Memref sig .scVector .vmem S128 .i32 :=
  ((Memref.whole cc0_scratch0 : Memref sig .scVector .vmem S128x128 .i32).slice (Rect.unit (s := S128x128) o S1x128.size h) (fun _ => rfl)).squeeze S128 squeezes_S1x128_S128
/-- Row `o 0` of the own-index scratch, as an offsets list. -/
abbrev offS (o : Fin 2 → Nat) (h : ∀ a, o a + S1x128.size a ≤ S8x128.size a) : Memref sig .scVector .vmem S128 .i32 :=
  ((Memref.whole cc0_scratch1 : Memref sig .scVector .vmem S8x128 .i32).slice (Rect.unit (s := S8x128) o S1x128.size h) (fun _ => rfl)).squeeze S128 squeezes_S1x128_S128
local notation "embV" => ((Memref.whole Cert.KernelIdeal.main_arg1_scv : Memref Cert.KernelIdeal.sig Kind.scVector Space.hbm Cert.KernelIdeal.S100001x128 EltTy.f32).slice (Rect.unit (s := Cert.KernelIdeal.S100001x128) ![0, 0] Cert.KernelIdeal.S100001x128.size Cert.KernelIdeal.Facts₀.inb_S100001x128_S100001x128_0_0) (fun _ => rfl))

abbrev cell (k : DmaSem sig) : GSem nD τ sig := (thr d L, SemLoc.dma k)
abbrev sLoc (b : Ref sig .scVector) : Loc nD τ sig := (thr d L).loc b

theorem inbN (r : Nat) (h : r < 128) : ∀ a, (![r, 0] : Fin 2 → Nat) a + S1x128.size a ≤ S128x128.size a := by
  intro a; fin_cases a <;> simp <;> omega
/-- Row `r` of the neighbour-index scratch as an offsets list. -/
abbrev offNr (r : Nat) (h : r < 128) : Memref sig .scVector .vmem S128 .i32 := offN ![r, 0] (inbN r h)

theorem cond1_iff : ∀ k : Fin k0_t1_loop.trips, k0_cond1 k = 1#1 ↔ k.val % 8 = 4 := by decide +kernel
theorem cond3_iff : ∀ k : Fin k0_t1_loop.trips, k0_cond3 k = 1#1 ↔ 0 < k.val := by decide +kernel
theorem cond4_iff : ∀ k : Fin k0_t1_loop.trips, k0_cond4 k = 1#1 ↔ k.val < 63 := by decide +kernel
theorem cond5_iff : ∀ k : Fin k0_t1_loop.trips, k0_cond5 k = 1#1 ↔ 0 < k.val := by decide +kernel
theorem cond6_iff : ∀ k : Fin k0_t1_loop.trips, k0_cond6 k = 1#1 ↔ k.val < 63 := by decide +kernel
theorem trips64 : k0_t1_loop.trips = 64 := by decide

omit [FloatOps F] in
theorem inbS (r : Nat) (h : r < 8) : ∀ a, (![r, 0] : Fin 2 → Nat) a + S1x128.size a ≤ S8x128.size a := by
  intro a; fin_cases a <;> simp <;> omega
abbrev offSr (r : Nat) (h : r < 8) : Memref sig .scVector .vmem S128 .i32 := offS ![r, 0] (inbS r h)

/-- Run a first piece by a lemma of its own, then go on. -/
theorem wp_seq2 {α β γ : Type} {p : Prog (TpuEff nD τ sig (Elt F) Λ₀ (.scVector (cV L) (jV L))) α}
    {k1 : α → Prog (TpuEff nD τ sig (Elt F) Λ₀ (.scVector (cV L) (jV L))) β} {k2 : β → Prog (TpuEff nD τ sig (Elt F) Λ₀ (.scVector (cV L) (jV L))) γ}
    {P : sProp 𝕄} {Q' : α → sProp 𝕄} {Q : γ → sProp 𝕄}
    (h : P ⊢ wp frame (wpE (defs₀ (F := F)) 𝒱₀ (thr d L) none) Set.univ p Q') :
    iprop(P ∗ (∀ a, Q' a -∗ wp frame (wpE (defs₀ (F := F)) 𝒱₀ (thr d L) none) Set.univ (k1 a >>= k2) Q))
      ⊢ wp frame (wpE (defs₀ (F := F)) 𝒱₀ (thr d L) none) Set.univ ((p >>= k1) >>= k2) Q := by
  rw [Prog.bind_assoc, wp_bind]
  exact (sep_mono h .rfl).trans (wp_wand_r _ _ _)

variable (q : PosShare TreeShare)
variable (idxn : Buf (Elt F) ((s0W).view.loc (thr d L))) (idxs : Buf (Elt F) ((s1W).view.loc (thr d L)))
variable (O : CellTallies nD τ sig (HIx 1)) (W0 : Waits sig (HIx 1))

/-- The two read shares of the neighbour-index scratch, one per slot. -/
abbrev tA : PosShare TreeShare := Transfers.shareTok fullShare 1 0
abbrev tB : PosShare TreeShare := Transfers.shareDrop fullShare 1
/-- The first row of the subcore's 1024 rows. -/
abbrev base (L : grid0.Coords) : Nat := 2048 * (L 1).val + 1024 * (L 0).val
/-- Everything of a result array that is NOT this subcore's. -/
def Oth (L : grid0.Coords) : Finset S32768x128.Idx := Finset.univ \ wRowSet (wOf (cL L) (sL L))
/-- The eight rows at `off` of the neighbour-sum result; the 128 rows at `off` of the own-row result. -/
abbrev W8 (off : Fin 2 → Nat) (inb : ∀ a, off a + S8x128.size a ≤ S32768x128.size a) : Finset (Idx ((noW).view.loc (thr d L))) :=
  ((noW).slice (Rect.unit (s := S32768x128) off S8x128.size inb) (fun _ => rfl)).view.set
abbrev W128 (off : Fin 2 → Nat) (inb : ∀ a, off a + S128x128.size a ≤ S32768x128.size a) : Finset (Idx ((soW).view.loc (thr d L))) :=
  ((soW).slice (Rect.unit (s := S32768x128) off S128x128.size inb) (fun _ => rfl)).view.set

/-- Slot contents after the gather of chunk `c`: row a is the table row word a of index row c names. -/
def RowsOK (slot : Fin 2) (c : Nat) (R : Buf (Elt F) ((s2W).view.loc (thr d L))) : Prop :=
  ∀ (a b : Fin 128), R (ix3 slot a b) = m (embLoc d) (ix2 (Cert.Spec.rowOf (idxn (ix2 (⟨c % 128, Nat.mod_lt _ (by norm_num)⟩ : Fin 128) a))) b)
/-- The own-rows scratch after the gather of block `j`. -/
def SRowsOK (j : Nat) (R : Buf (Elt F) ((s4W).view.loc (thr d L))) : Prop :=
  ∀ (a b : Fin 128), R (ix2 a b) = m (embLoc d) (ix2 (Cert.Spec.rowOf (idxs (ix2 (⟨j % 8, Nat.mod_lt _ (by norm_num)⟩ : Fin 8) a))) b)

/-- The gather into slot 0 before trip n. -/
def gPart0 (n : Nat) : sProp 𝕄 :=
  if n < 64 then
    iprop(∃ (o : Fin 2 → Nat) (h : ∀ a, o a + S1x128.size a ≤ S128x128.size a) (R : Buf (Elt F) ((s2W).view.loc (thr d L))),
      ⌜o 0 = 2 * n ∧ o 1 = 0 ∧ RowsOK m d L idxn 0 (2 * n) R⌝
      ∗ Transfers.Flight countersEmb (thr d L) (SemLoc.dma (0 : DmaSem sig)) (default : HIx 1) 524288
          iprop((((rows0M).view.loc (thr d L) ↦[(rows0M).view.set]{fullShare} R)
            ∗ ((offN o h).view.loc (thr d L) ↦[(offN o h).view.set]{tA} (idxn : Buf (Elt F) ((offN o h).view.loc (thr d L)))))
            ∗ ((embW).view.loc (thr d L) ↦[(embV).view.set]{Transfers.shareTok q 5 0} m (embLoc d)))
      ∗ ((s0W).view.loc (thr d L) ↦[Finset.univ \ ((offN o h).view.set : Finset (Idx ((s0W).view.loc (thr d L))))]{tA} idxn)
      ∗ ((embW).view.loc (thr d L) ↦[Finset.univ \ (embV).view.set]{Transfers.shareTok q 5 0} m (embLoc d)))
  else
    iprop(semVal (cell d L 0) 0 ∗ (∃ R, (rows0M).view.loc (thr d L) ↦[(rows0M).view.set]{fullShare} R)
      ∗ ((s0W).view.loc (thr d L) ↦{tA} idxn) ∗ ((embW).view.loc (thr d L) ↦{Transfers.shareTok q 5 0} m (embLoc d)))

/-- The gather into slot 1 before trip n. -/
def gPart1 (n : Nat) : sProp 𝕄 :=
  if n < 64 then
    iprop(∃ (o : Fin 2 → Nat) (h : ∀ a, o a + S1x128.size a ≤ S128x128.size a) (R : Buf (Elt F) ((s2W).view.loc (thr d L))),
      ⌜o 0 = 2 * n + 1 ∧ o 1 = 0 ∧ RowsOK m d L idxn 1 (2 * n + 1) R⌝
      ∗ Transfers.Flight countersEmb (thr d L) (SemLoc.dma (1 : DmaSem sig)) (default : HIx 1) 524288
          iprop((((rows1M).view.loc (thr d L) ↦[(rows1M).view.set]{fullShare} R)
            ∗ ((offN o h).view.loc (thr d L) ↦[(offN o h).view.set]{tB} (idxn : Buf (Elt F) ((offN o h).view.loc (thr d L)))))
            ∗ ((embW).view.loc (thr d L) ↦[(embV).view.set]{Transfers.shareTok q 5 1} m (embLoc d)))
      ∗ ((s0W).view.loc (thr d L) ↦[Finset.univ \ ((offN o h).view.set : Finset (Idx ((s0W).view.loc (thr d L))))]{tB} idxn)
      ∗ ((embW).view.loc (thr d L) ↦[Finset.univ \ (embV).view.set]{Transfers.shareTok q 5 1} m (embLoc d)))
  else
    iprop(semVal (cell d L 1) 0 ∗ (∃ R, (rows1M).view.loc (thr d L) ↦[(rows1M).view.set]{fullShare} R)
      ∗ ((s0W).view.loc (thr d L) ↦{tB} idxn) ∗ ((embW).view.loc (thr d L) ↦{Transfers.shareTok q 5 1} m (embLoc d)))

/-- The neighbour-sum result and the two copies out before trip n. -/
def oPart (n : Nat) : sProp 𝕄 :=
  if 0 < n then
    iprop(∃ (offA offB : Fin 2 → Nat) (inbA : ∀ a, offA a + S8x128.size a ≤ S32768x128.size a) (inbB : ∀ a, offB a + S8x128.size a ≤ S32768x128.size a)
        (gA gB g : Buf (Elt F) ((noW).view.loc (thr d L))) (NA NB : Buf (Elt F) ((s3W).view.loc (thr d L))),
      ⌜(offA 0 = base L + 16 * (n - 1) ∧ offA 1 = 0 ∧ offB 0 = base L + 16 * (n - 1) + 8 ∧ offB 1 = 0)
        ∧ (∀ y ∈ W8 d L offA inbA, gA y = neiVal (m (embLoc d)) In y) ∧ (∀ y ∈ W8 d L offB inbB, gB y = neiVal (m (embLoc d)) In y)
        ∧ (∀ y : S32768x128.Idx, base L ≤ (y 0).val → (y 0).val < base L + 16 * (n - 1) → g y = neiVal (m (embLoc d)) In y)⌝
      ∗ Transfers.Flight countersEmb (thr d L) (SemLoc.dma (2 : DmaSem sig)) (default : HIx 1) 32768
          iprop(((noW).view.loc (thr d L) ↦[W8 d L offA inbA]{fullShare} gA) ∗ ((s3W).view.loc (thr d L) ↦[(nbuf0M).view.set]{fullShare} NA))
      ∗ Transfers.Flight countersEmb (thr d L) (SemLoc.dma (3 : DmaSem sig)) (default : HIx 1) 32768
          iprop(((noW).view.loc (thr d L) ↦[W8 d L offB inbB]{fullShare} gB) ∗ ((s3W).view.loc (thr d L) ↦[(nbuf1M).view.set]{fullShare} NB))
      ∗ ((noW).view.loc (thr d L) ↦[((Finset.univ \ Oth L) \ W8 d L offA inbA) \ W8 d L offB inbB]{fullShare} g))
  else
    iprop(semVal (cell d L 2) 0 ∗ semVal (cell d L 3) 0
      ∗ (∃ N, (s3W).view.loc (thr d L) ↦[Finset.univ \ (nbuf1M).view.set]{fullShare} N)
      ∗ (∃ N, (s3W).view.loc (thr d L) ↦[Finset.univ \ (nbuf0M).view.set]{fullShare} N)
      ∗ ∃ g, (noW).view.loc (thr d L) ↦[Finset.univ \ Oth L]{fullShare} g)

/-- The own-row stream and result before trip n: block (n + 3) / 8 is in flight while n ≤ 60. -/
def sPart (n : Nat) : sProp 𝕄 :=
  iprop((if n ≤ 60 then
      iprop(∃ (o : Fin 2 → Nat) (h : ∀ a, o a + S1x128.size a ≤ S8x128.size a) (R : Buf (Elt F) ((s4W).view.loc (thr d L))),
        ⌜o 0 = (n + 3) / 8 ∧ o 1 = 0 ∧ SRowsOK m d L idxs ((n + 3) / 8) R⌝
        ∗ Transfers.Flight countersEmb (thr d L) (SemLoc.dma (4 : DmaSem sig)) (default : HIx 1) 524288
            iprop((((s4W).view.loc (thr d L) ↦[(s4W).view.set]{fullShare} R)
              ∗ ((offS o h).view.loc (thr d L) ↦[(offS o h).view.set]{fullShare} (idxs : Buf (Elt F) ((offS o h).view.loc (thr d L)))))
              ∗ ((embW).view.loc (thr d L) ↦[(embV).view.set]{Transfers.shareTok q 5 4} m (embLoc d)))
        ∗ ((s1W).view.loc (thr d L) ↦[Finset.univ \ ((offS o h).view.set : Finset (Idx ((s1W).view.loc (thr d L))))]{fullShare} idxs)
        ∗ ((embW).view.loc (thr d L) ↦[Finset.univ \ (embV).view.set]{Transfers.shareTok q 5 4} m (embLoc d)))
    else
      iprop(semVal (cell d L 4) 0 ∗ (∃ R, (s4W).view.loc (thr d L) ↦[(s4W).view.set]{fullShare} R)
        ∗ ((s1W).view.loc (thr d L) ↦{fullShare} idxs) ∗ ((embW).view.loc (thr d L) ↦{Transfers.shareTok q 5 4} m (embLoc d))))
    ∗ semVal (cell d L 5) 0
    ∗ ∃ gs : Buf (Elt F) ((soW).view.loc (thr d L)),
        ⌜∀ y : S32768x128.Idx, base L ≤ (y 0).val → (y 0).val < base L + 128 * ((n + 3) / 8) → gs y = selfVal (m (embLoc d)) Is y⌝
        ∗ ((soW).view.loc (thr d L) ↦[Finset.univ \ Oth L]{fullShare} gs))

omit [FloatOps F] in
theorem rowN_lt (L : grid0.Coords) (c : Fin 128) : 128 * (2 * (L 1).val + (L 0).val) + c.val < 4096 := by
  have h1 : (L 1).val < 16 := (L 1).isLt; have h0 : (L 0).val < 2 := (L 0).isLt; have := c.isLt; omega
omit [FloatOps F] in
theorem rowS_lt (L : grid0.Coords) (j : Fin 8) : 8 * (2 * (L 1).val + (L 0).val) + j.val < 256 := by
  have h1 : (L 1).val < 16 := (L 1).isLt; have h0 : (L 0).val < 2 := (L 0).isLt; have := j.isLt; omega

/-- The invariant before trip n. -/
def inv (n : Nat) (_ : PUnit) : sProp 𝕄 :=
  iprop(Transfers.MayWaits (thr d L) (none : HIx 1) O
    ∗ gPart0 m d L q idxn n ∗ gPart1 m d L q idxn n ∗ oPart m In d L n ∗ sPart m Is d L q idxs n
    ∗ ∃ W', ⌜∀ p ∈ W', p ∈ W0 ∨ p.2 = none⌝ ∗ owes (thr d L) O W')

end Cert.KI

end
-- ==== Proof.GatherVal.lean ====
/-
  What an indirect gather delivers, index by index, and what the scratch it lands in holds afterwards.

  The gather reads an offsets list of 128 words — one row of an index scratch — and copies, for each k, the table row
  that word k names into row k of its destination. Every word is below the table's 100001 rows, so clamping it into the
  table changes nothing, and element (p, q) of what is delivered is the table at (word p of the list, q). The list is
  row o 0 of the neighbour-index scratch (128 rows) or of the own-index scratch (8 rows), read in row-major order.
  The destination is a whole slot of the rows scratch — slot J is the elements (J, a, b) — or the whole own-rows
  scratch; written whole with a payload G, the slot holds G (a, b) at (J, a, b).
-/
import proofs.«208587_g27212912787602_cont_9to1_1073_18_alg».proof.Proof.Pay
import Idealize.ShloMosaic.Lib.SparseCore.Stream
import Idealize.ShloMosaic.Lib.Writes
import Idealize.ShloMosaic.Lib.Exec.Geometry

set_option quotPrecheck false

noncomputable section

namespace Cert.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "embW" => (Memref.whole Cert.KernelIdeal.main_arg1_scv : Memref Cert.KernelIdeal.sig Kind.scVector Space.hbm Cert.KernelIdeal.S100001x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s4W" => (Memref.whole Cert.KernelIdeal.cc0_scratch4 : Memref Cert.KernelIdeal.sig Kind.scVector Space.vmem Cert.KernelIdeal.S128x128 EltTy.f32)
local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "embV" => ((Memref.whole Cert.KernelIdeal.main_arg1_scv : Memref Cert.KernelIdeal.sig Kind.scVector Space.hbm Cert.KernelIdeal.S100001x128 EltTy.f32).slice (Rect.unit (s := Cert.KernelIdeal.S100001x128) ![0, 0] Cert.KernelIdeal.S100001x128.size Cert.KernelIdeal.Facts₀.inb_S100001x128_S100001x128_0_0) (fun _ => rfl))

/-! ## The gather's payload -/

/-- The table read through the slice at zero offsets of its own sizes is the table. -/
theorem embV_read (emb : (embW).view.ty.Contents (Elt F)) : (embV).view.read (Elt F) emb = emb :=
  Memref.read_access_unit_zero (Elt F) main_arg1_scv (off := ![0, 0]) (by funext a; fin_cases a <;> rfl) _ emb

/-- The index of a list of 128 words at row-major position k is k. -/
theorem rowMajor128_symm (k : Fin 128) (h : S128.numel = 128) : S128.rowMajor.symm (k.cast h.symm) = ix1 k := by
  rw [Equiv.symm_apply_eq]
  refine Fin.ext ?_
  rw [Shape.rowMajor_val_one]
  rfl

/-- Word k of row o 0 of a scratch of rows of 128 words, read as an offsets list. -/
theorem rowN_emb (o : Fin 2 → Nat) (h : ∀ a, o a + S1x128.size a ≤ S128x128.size a) (h1 : o 1 = 0) (k : Fin 128) :
    ((((s0W).slice (Rect.unit (s := S128x128) o S1x128.size h) (fun _ => rfl)).squeeze S128 squeezes_S1x128_S128).view.emb (ix1 k) : S128x128.Idx)
      = ix2 (⟨o 0, by have := h 0; change o 0 + 1 ≤ 128 at this; omega⟩ : Fin 128) k := by
  have hj : Shape.reshapeEquiv (s := (Rect.unit (s := S128x128) o S1x128.size h).shape) (s' := S128) squeezes_S1x128_S128.numel_eq (ix1 k)
      = (ix2 (0 : Fin 1) k : S1x128.Idx) :=
    Shape.reshapeEquiv_eq_of_rowMajor _ (by
      rw [Shape.rowMajor_val_one]
      refine (Shape.rowMajor_val_two (d := ![1, 128]) (ix2 (0 : Fin 1) k)).trans ?_
      show 0 * 128 + k.val = k.val
      omega)
  show (Rect.unit (s := S128x128) o S1x128.size h).emb (Shape.reshapeEquiv squeezes_S1x128_S128.numel_eq (ix1 k)) = _
  rw [hj]
  funext a
  refine Fin.ext ?_
  match a with
  | ⟨0, _⟩ => show o 0 + 1 * 0 = o 0; omega
  | ⟨1, _⟩ => show o 1 + 1 * k.val = k.val; omega

/-- Word k of row o 0 of the neighbour-index scratch, read through the row as an offsets list. -/
theorem rowN_read (o : Fin 2 → Nat) (h : ∀ a, o a + S1x128.size a ≤ S128x128.size a) (h1 : o 1 = 0)
    (idxn : (s0W).view.ty.Contents (Elt F)) (k : Fin 128) :
    (((s0W).slice (Rect.unit (s := S128x128) o S1x128.size h) (fun _ => rfl)).squeeze S128 squeezes_S1x128_S128).view.read (Elt F) idxn (ix1 k)
      = idxn (ix2 (⟨o 0, by have := h 0; change o 0 + 1 ≤ 128 at this; omega⟩ : Fin 128) k) := by
  show idxn ((((s0W).slice (Rect.unit (s := S128x128) o S1x128.size h) (fun _ => rfl)).squeeze S128 squeezes_S1x128_S128).view.emb (ix1 k)) = _
  rw [rowN_emb o h h1 k]

/-- The gather through row o 0 of the neighbour-index scratch: row p of the destination is the table row that word p
    of that scratch row names. -/
theorem gather_val_n' (emb : (embW).view.ty.Contents (Elt F)) (idxn : (s0W).view.ty.Contents (Elt F))
    (o : Fin 2 → Nat) (h : ∀ a, o a + S1x128.size a ≤ S128x128.size a) (h1 : o 1 = 0)
    (hin : ∀ x, ((((s0W).slice (Rect.unit (s := S128x128) o S1x128.size h) (fun _ => rfl)).squeeze S128 squeezes_S1x128_S128).view.read (Elt F) idxn x).toNat
      < S100001x128.size gathers_S100001x128_S128x128.axis)
    (p q : Fin 128) :
    SparseCore.gatherPayload gathers_S100001x128_S128x128 ((embV).view.read (Elt F) emb)
        (SparseCore.rows ((((s0W).slice (Rect.unit (s := S128x128) o S1x128.size h) (fun _ => rfl)).squeeze S128 squeezes_S1x128_S128).view.read (Elt F) idxn) rfl hin) (ix2 p q)
      = emb (ix2 (Cert.Spec.rowOf (idxn (ix2 (⟨o 0, by have := h 0; change o 0 + 1 ≤ 128 at this; omega⟩ : Fin 128) p))) q) := by
  rw [embV_read]
  unfold SparseCore.gatherPayload
  refine congrArg emb ?_
  funext b
  refine Fin.ext ?_
  match b with
  | ⟨0, hb⟩ =>
    have e1 := congrArg Fin.val (Shape.Gathers.idx_axis gathers_S100001x128_S128x128
      (SparseCore.rows ((((s0W).slice (Rect.unit (s := S128x128) o S1x128.size h) (fun _ => rfl)).squeeze S128 squeezes_S1x128_S128).view.read (Elt F) idxn) rfl hin) (ix2 p q))
    have e2 : S128.rowMajor.symm (p.cast (rfl : S128.numel = 128).symm) = ix1 p := rowMajor128_symm p rfl
    have e3 := rowN_read o h h1 idxn p
    have hlt := hin (ix1 p)
    rw [e3] at hlt
    refine e1.trans ?_
    show ((((s0W).slice (Rect.unit (s := S128x128) o S1x128.size h) (fun _ => rfl)).squeeze S128 squeezes_S1x128_S128).view.read (Elt F) idxn
        (S128.rowMajor.symm (p.cast (rfl : S128.numel = 128).symm))).toNat
      = min (idxn (ix2 (⟨o 0, by have := h 0; change o 0 + 1 ≤ 128 at this; omega⟩ : Fin 128) p)).toNat 100000
    rw [e2, e3]
    change _ < 100001 at hlt
    omega
  | ⟨1, hb⟩ =>
    exact Shape.Gathers.idx_of_ne gathers_S100001x128_S128x128 _ (ix2 p q) ⟨1, hb⟩ Nat.one_ne_zero

/-- The same at an index of the destination. -/
theorem gather_val_n (emb : (embW).view.ty.Contents (Elt F)) (idxn : (s0W).view.ty.Contents (Elt F))
    (o : Fin 2 → Nat) (h : ∀ a, o a + S1x128.size a ≤ S128x128.size a) (h1 : o 1 = 0)
    (hin : ∀ x, ((((s0W).slice (Rect.unit (s := S128x128) o S1x128.size h) (fun _ => rfl)).squeeze S128 squeezes_S1x128_S128).view.read (Elt F) idxn x).toNat
      < S100001x128.size gathers_S100001x128_S128x128.axis)
    (x : S128x128.Idx) :
    SparseCore.gatherPayload gathers_S100001x128_S128x128 ((embV).view.read (Elt F) emb)
        (SparseCore.rows ((((s0W).slice (Rect.unit (s := S128x128) o S1x128.size h) (fun _ => rfl)).squeeze S128 squeezes_S1x128_S128).view.read (Elt F) idxn) rfl hin) x
      = emb (ix2 (Cert.Spec.rowOf (idxn (ix2 (⟨o 0, by have := h 0; change o 0 + 1 ≤ 128 at this; omega⟩ : Fin 128) (x 0)))) (x 1)) := by
  obtain ⟨p, q, rfl⟩ : ∃ (p q : Fin 128), x = ix2 p q := ⟨x 0, x 1, eq_ix2 x⟩
  exact gather_val_n' emb idxn o h h1 hin p q

/-- The same for the own-index scratch of eight rows. -/
theorem rowS_emb (o : Fin 2 → Nat) (h : ∀ a, o a + S1x128.size a ≤ S8x128.size a) (h1 : o 1 = 0) (k : Fin 128) :
    ((((s1W).slice (Rect.unit (s := S8x128) o S1x128.size h) (fun _ => rfl)).squeeze S128 squeezes_S1x128_S128).view.emb (ix1 k) : S8x128.Idx)
      = ix2 (⟨o 0, by have := h 0; change o 0 + 1 ≤ 8 at this; omega⟩ : Fin 8) k := by
  have hj : Shape.reshapeEquiv (s := (Rect.unit (s := S8x128) o S1x128.size h).shape) (s' := S128) squeezes_S1x128_S128.numel_eq (ix1 k)
      = (ix2 (0 : Fin 1) k : S1x128.Idx) :=
    Shape.reshapeEquiv_eq_of_rowMajor _ (by
      rw [Shape.rowMajor_val_one]
      refine (Shape.rowMajor_val_two (d := ![1, 128]) (ix2 (0 : Fin 1) k)).trans ?_
      show 0 * 128 + k.val = k.val
      omega)
  show (Rect.unit (s := S8x128) o S1x128.size h).emb (Shape.reshapeEquiv squeezes_S1x128_S128.numel_eq (ix1 k)) = _
  rw [hj]
  funext a
  refine Fin.ext ?_
  match a with
  | ⟨0, _⟩ => show o 0 + 1 * 0 = o 0; omega
  | ⟨1, _⟩ => show o 1 + 1 * k.val = k.val; omega

/-- Word k of row o 0 of the own-index scratch, read through the row as an offsets list. -/
theorem rowS_read (o : Fin 2 → Nat) (h : ∀ a, o a + S1x128.size a ≤ S8x128.size a) (h1 : o 1 = 0)
    (idxs : (s1W).view.ty.Contents (Elt F)) (k : Fin 128) :
    (((s1W).slice (Rect.unit (s := S8x128) o S1x128.size h) (fun _ => rfl)).squeeze S128 squeezes_S1x128_S128).view.read (Elt F) idxs (ix1 k)
      = idxs (ix2 (⟨o 0, by have := h 0; change o 0 + 1 ≤ 8 at this; omega⟩ : Fin 8) k) := by
  show idxs ((((s1W).slice (Rect.unit (s := S8x128) o S1x128.size h) (fun _ => rfl)).squeeze S128 squeezes_S1x128_S128).view.emb (ix1 k)) = _
  rw [rowS_emb o h h1 k]

/-- The gather through row o 0 of the own-index scratch: row p of the destination is the table row that word p
    of that scratch row names. -/
theorem gather_val_s' (emb : (embW).view.ty.Contents (Elt F)) (idxs : (s1W).view.ty.Contents (Elt F))
    (o : Fin 2 → Nat) (h : ∀ a, o a + S1x128.size a ≤ S8x128.size a) (h1 : o 1 = 0)
    (hin : ∀ x, ((((s1W).slice (Rect.unit (s := S8x128) o S1x128.size h) (fun _ => rfl)).squeeze S128 squeezes_S1x128_S128).view.read (Elt F) idxs x).toNat
      < S100001x128.size gathers_S100001x128_S128x128.axis)
    (p q : Fin 128) :
    SparseCore.gatherPayload gathers_S100001x128_S128x128 ((embV).view.read (Elt F) emb)
        (SparseCore.rows ((((s1W).slice (Rect.unit (s := S8x128) o S1x128.size h) (fun _ => rfl)).squeeze S128 squeezes_S1x128_S128).view.read (Elt F) idxs) rfl hin) (ix2 p q)
      = emb (ix2 (Cert.Spec.rowOf (idxs (ix2 (⟨o 0, by have := h 0; change o 0 + 1 ≤ 8 at this; omega⟩ : Fin 8) p))) q) := by
  rw [embV_read]
  unfold SparseCore.gatherPayload
  refine congrArg emb ?_
  funext b
  refine Fin.ext ?_
  match b with
  | ⟨0, hb⟩ =>
    have e1 := congrArg Fin.val (Shape.Gathers.idx_axis gathers_S100001x128_S128x128
      (SparseCore.rows ((((s1W).slice (Rect.unit (s := S8x128) o S1x128.size h) (fun _ => rfl)).squeeze S128 squeezes_S1x128_S128).view.read (Elt F) idxs) rfl hin) (ix2 p q))
    have e2 : S128.rowMajor.symm (p.cast (rfl : S128.numel = 128).symm) = ix1 p := rowMajor128_symm p rfl
    have e3 := rowS_read o h h1 idxs p
    have hlt := hin (ix1 p)
    rw [e3] at hlt
    refine e1.trans ?_
    show ((((s1W).slice (Rect.unit (s := S8x128) o S1x128.size h) (fun _ => rfl)).squeeze S128 squeezes_S1x128_S128).view.read (Elt F) idxs
        (S128.rowMajor.symm (p.cast (rfl : S128.numel = 128).symm))).toNat
      = min (idxs (ix2 (⟨o 0, by have := h 0; change o 0 + 1 ≤ 8 at this; omega⟩ : Fin 8) p)).toNat 100000
    rw [e2, e3]
    change _ < 100001 at hlt
    omega
  | ⟨1, hb⟩ =>
    exact Shape.Gathers.idx_of_ne gathers_S100001x128_S128x128 _ (ix2 p q) ⟨1, hb⟩ Nat.one_ne_zero

/-- The same at an index of the destination. -/
theorem gather_val_s (emb : (embW).view.ty.Contents (Elt F)) (idxs : (s1W).view.ty.Contents (Elt F))
    (o : Fin 2 → Nat) (h : ∀ a, o a + S1x128.size a ≤ S8x128.size a) (h1 : o 1 = 0)
    (hin : ∀ x, ((((s1W).slice (Rect.unit (s := S8x128) o S1x128.size h) (fun _ => rfl)).squeeze S128 squeezes_S1x128_S128).view.read (Elt F) idxs x).toNat
      < S100001x128.size gathers_S100001x128_S128x128.axis)
    (x : S128x128.Idx) :
    SparseCore.gatherPayload gathers_S100001x128_S128x128 ((embV).view.read (Elt F) emb)
        (SparseCore.rows ((((s1W).slice (Rect.unit (s := S8x128) o S1x128.size h) (fun _ => rfl)).squeeze S128 squeezes_S1x128_S128).view.read (Elt F) idxs) rfl hin) x
      = emb (ix2 (Cert.Spec.rowOf (idxs (ix2 (⟨o 0, by have := h 0; change o 0 + 1 ≤ 8 at this; omega⟩ : Fin 8) (x 0)))) (x 1)) := by
  obtain ⟨p, q, rfl⟩ : ∃ (p q : Fin 128), x = ix2 p q := ⟨x 0, x 1, eq_ix2 x⟩
  exact gather_val_s' emb idxs o h h1 hin p q

/-! ## What a slot of the rows scratch, and the own-rows scratch, hold after a whole write -/

/-- Row a, column b of the slot at leading offset off 0 of the rows scratch is element (off 0, a, b) of the scratch. -/
theorem slot_emb (off : Fin 3 → Nat) (inb : ∀ a, off a + S1x128x128.size a ≤ S2x128x128.size a) (h1 : off 1 = 0) (h2 : off 2 = 0)
    (a b : Fin 128) :
    ((((s2W).slice (Rect.unit (s := S2x128x128) off S1x128x128.size inb) (fun _ => rfl)).squeeze S128x128 squeezes_S1x128x128_S128x128).view.emb (ix2 a b) : S2x128x128.Idx)
      = ix3 (⟨off 0, by have := inb 0; change off 0 + 1 ≤ 2 at this; omega⟩ : Fin 2) a b := by
  have hj : Shape.reshapeEquiv (s := (Rect.unit (s := S2x128x128) off S1x128x128.size inb).shape) (s' := S128x128) squeezes_S1x128x128_S128x128.numel_eq (ix2 a b)
      = (ix3 (0 : Fin 1) a b : S1x128x128.Idx) :=
    Shape.reshapeEquiv_eq_of_rowMajor _ (by
      rw [Shape.rowMajor_val_two]
      refine (Shape.rowMajor_val_three (d := ![1, 128, 128]) (ix3 (0 : Fin 1) a b)).trans ?_
      show (0 * 128 + a.val) * 128 + b.val = a.val * 128 + b.val
      omega)
  show (Rect.unit (s := S2x128x128) off S1x128x128.size inb).emb (Shape.reshapeEquiv squeezes_S1x128x128_S128x128.numel_eq (ix2 a b)) = _
  rw [hj]
  funext c
  refine Fin.ext ?_
  match c with
  | ⟨0, _⟩ => show off 0 + 1 * 0 = off 0; omega
  | ⟨1, _⟩ => show off 1 + 1 * a.val = a.val; omega
  | ⟨2, _⟩ => show off 2 + 1 * b.val = b.val; omega

/-- The slot's elements are those of leading coordinate off 0. -/
theorem mem_slot (off : Fin 3 → Nat) (inb : ∀ a, off a + S1x128x128.size a ≤ S2x128x128.size a) (h1 : off 1 = 0) (h2 : off 2 = 0)
    (y : S2x128x128.Idx) :
    y ∈ (((s2W).slice (Rect.unit (s := S2x128x128) off S1x128x128.size inb) (fun _ => rfl)).squeeze S128x128 squeezes_S1x128x128_S128x128).view.set
      ↔ (y 0).val = off 0 := by
  have e : (((s2W).slice (Rect.unit (s := S2x128x128) off S1x128x128.size inb) (fun _ => rfl)).squeeze S128x128 squeezes_S1x128x128_S128x128).view.set
      = (Rect.unit (s := S2x128x128) off S1x128x128.size inb).set :=
    (View.set_reshape _ _).trans (View.set_slice_whole _ _)
  rw [e, Rect.mem_set_unit]
  constructor
  · intro h
    have h0 := h 0
    change off 0 ≤ (y 0).val ∧ (y 0).val < off 0 + 1 at h0
    omega
  · intro h c
    match c with
    | ⟨0, _⟩ => show off 0 ≤ (y 0).val ∧ (y 0).val < off 0 + 1; omega
    | ⟨1, _⟩ => have hy : (y 1).val < 128 := (y 1).isLt; show off 1 ≤ (y 1).val ∧ (y 1).val < off 1 + 128; omega
    | ⟨2, _⟩ => have hy : (y 2).val < 128 := (y 2).isLt; show off 2 ≤ (y 2).val ∧ (y 2).val < off 2 + 128; omega

/-- A whole write of G through the slot leaves G (a, b) at element (off 0, a, b). -/
theorem slot_writes (off : Fin 3 → Nat) (inb : ∀ a, off a + S1x128x128.size a ≤ S2x128x128.size a) (h1 : off 1 = 0) (h2 : off 2 = 0)
    (f : (s2W).view.ty.Contents (Elt F)) (G : S128x128.Idx → Elt F .f32) (a b : Fin 128) :
    (((s2W).slice (Rect.unit (s := S2x128x128) off S1x128x128.size inb) (fun _ => rfl)).squeeze S128x128 squeezes_S1x128x128_S128x128).view.writes (Elt F) f
        [⟨Rect.whole S128x128, G⟩] (ix3 (⟨off 0, by have := inb 0; change off 0 + 1 ≤ 2 at this; omega⟩ : Fin 2) a b)
      = G (ix2 a b) := by
  rw [← View.write_univ_eq_writes_whole, View.writes_nil, ← slot_emb off inb h1 h2 a b]
  refine (View.write_emb_of_mem _ _ (Finset.mem_univ _)).trans ?_
  rfl

/-- The two slots of the program. -/
theorem rows0_writes (f : (s2W).view.ty.Contents (Elt F)) (G : S128x128.Idx → Elt F .f32) (a b : Fin 128) :
    (rows0M).view.writes (Elt F) f [⟨Rect.whole S128x128, G⟩] (ix3 (0 : Fin 2) a b) = G (ix2 a b) :=
  slot_writes ![0, 0, 0] inb_S2x128x128_S1x128x128_0_0_0 rfl rfl f G a b
theorem rows1_writes (f : (s2W).view.ty.Contents (Elt F)) (G : S128x128.Idx → Elt F .f32) (a b : Fin 128) :
    (rows1M).view.writes (Elt F) f [⟨Rect.whole S128x128, G⟩] (ix3 (1 : Fin 2) a b) = G (ix2 a b) :=
  slot_writes ![1, 0, 0] inb_S2x128x128_S1x128x128_1_0_0 rfl rfl f G a b
theorem mem_rows0 (y : S2x128x128.Idx) : y ∈ (rows0M).view.set ↔ (y 0).val = 0 :=
  mem_slot ![0, 0, 0] inb_S2x128x128_S1x128x128_0_0_0 rfl rfl y
theorem mem_rows1 (y : S2x128x128.Idx) : y ∈ (rows1M).view.set ↔ (y 0).val = 1 :=
  mem_slot ![1, 0, 0] inb_S2x128x128_S1x128x128_1_0_0 rfl rfl y

/-- A whole write through the own-rows scratch leaves the payload. -/
theorem s4_writes (f : (s4W).view.ty.Contents (Elt F)) (G : S128x128.Idx → Elt F .f32) :
    (s4W).view.writes (Elt F) f [⟨Rect.whole S128x128, G⟩] = G :=
  Memref.write_access_whole_univ (Elt F) cc0_scratch4 f G
theorem mem_s4 (y : S128x128.Idx) : y ∈ (s4W).view.set := by
  have e : (s4W).view.set = Finset.univ := View.set_whole _
  rw [e]
  exact Finset.mem_univ _

end Cert.KI

end
-- ==== Proof.Tile.lean ====
/-
  A vector subcore's task around its main loop: the subcore's own storage taken apart into the five scratch buffers
  and eight DMA cells, the two index blocks fetched, the table's share cut into read tokens, the first three gathers
  issued, the loop at its invariant, the last two copies out waited for, and the results' rows, the scratch buffers
  and the cells put back together.
-/
import proofs.«208587_g27212912787602_cont_9to1_1073_18_alg».proof.Proof.TileInv
import proofs.«208587_g27212912787602_cont_9to1_1073_18_alg».proof.Proof.GatherVal
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)

local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)
local notation "embV" => ((Memref.whole Cert.KernelIdeal.main_arg1_scv : Memref Cert.KernelIdeal.sig Kind.scVector Space.hbm Cert.KernelIdeal.S100001x128 EltTy.f32).slice (Rect.unit (s := Cert.KernelIdeal.S100001x128) ![0, 0] Cert.KernelIdeal.S100001x128.size Cert.KernelIdeal.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

omit [FloatOps F] in
theorem toks5 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 5} f) ∗ (ℓ ↦[S]{Transfers.shareTok q 5 0} f) ∗ (ℓ ↦[S]{Transfers.shareTok q 5 1} f)
      ∗ (ℓ ↦[S]{Transfers.shareTok q 5 2} f) ∗ (ℓ ↦[S]{Transfers.shareTok q 5 3} f) ∗ (ℓ ↦[S]{Transfers.shareTok q 5 4} f)) := by
  have h := Transfers.pointsTo_toks (nD := nD) (τ := τ) (sig := sig) (Ix := HIx 1) (Val := Elt F) (Name := ℕ) (U := UU) (Lvl := ℕ) (ℓ := ℓ) (S := S) (f := f) q 5
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton] at h
  exact h

omit [FloatOps F] in
theorem toks1 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 1} f) ∗ (ℓ ↦[S]{Transfers.shareTok q 1 0} f)) := by
  have h := Transfers.pointsTo_toks (nD := nD) (τ := τ) (sig := sig) (Ix := HIx 1) (Val := Elt F) (Name := ℕ) (U := UU) (Lvl := ℕ) (ℓ := ℓ) (S := S) (f := f) q 1
  rw [show (Finset.univ : Finset (Fin 1)) = {0} by decide, bigSep_singleton] at h
  exact h

/-! ## The subcore's own storage: five scratch buffers and eight DMA cells, and the rest -/

omit [FloatOps F] in
theorem cell_ne (i j : DmaSem sig) (h : i ≠ j) : cell d L i ≠ cell d L j := fun e => h (SemLoc.dma.inj (Prod.mk.inj e).2)

/-- The subcore's other scoped cells. -/
abbrev cellsRest : Finset (GSem nD τ sig) := (((((((((ownCells (thr d L)).erase (cell d L 0)).erase (cell d L 1)).erase (cell d L 2)).erase (cell d L 3)).erase (cell d L 4)).erase (cell d L 5)).erase (cell d L 6)).erase (cell d L 7))
/-- The subcore's other buffers. -/
abbrev bufsRest : Finset (DevRef τ sig) := ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))

omit [FloatOps F] in
theorem ownSems0_V8 :
    (ownSems0 (thr d L) : sProp 𝕄)
      = iprop(semVal (cell d L 0) 0 ∗ semVal (cell d L 1) 0 ∗ semVal (cell d L 2) 0 ∗ semVal (cell d L 3) 0 ∗ semVal (cell d L 4) 0 ∗ semVal (cell d L 5) 0 ∗ semVal (cell d L 6) 0 ∗ semVal (cell d L 7) 0
          ∗ bigSep (cellsRest d L) fun g => semVal g 0) := by
  unfold SparseCore.Cfg.ownSems0
  rw [SparseCore.bigSep_erase' ((mem_ownCells (g := cell d L 0)).mpr ⟨rfl, by show (SemLoc.dma (0 : DmaSem sig) : SemLoc sig).isScoped .scVector = true; decide⟩),
    SparseCore.bigSep_erase' (Finset.mem_erase.mpr ⟨cell_ne d L 1 0 (by decide), (mem_ownCells (g := cell d L 1)).mpr ⟨rfl, by show (SemLoc.dma (1 : DmaSem sig) : SemLoc sig).isScoped .scVector = true; decide⟩⟩),
    SparseCore.bigSep_erase' (Finset.mem_erase.mpr ⟨cell_ne d L 2 1 (by decide), Finset.mem_erase.mpr ⟨cell_ne d L 2 0 (by decide), (mem_ownCells (g := cell d L 2)).mpr ⟨rfl, by show (SemLoc.dma (2 : DmaSem sig) : SemLoc sig).isScoped .scVector = true; decide⟩⟩⟩),
    SparseCore.bigSep_erase' (Finset.mem_erase.mpr ⟨cell_ne d L 3 2 (by decide), Finset.mem_erase.mpr ⟨cell_ne d L 3 1 (by decide), Finset.mem_erase.mpr ⟨cell_ne d L 3 0 (by decide), (mem_ownCells (g := cell d L 3)).mpr ⟨rfl, by show (SemLoc.dma (3 : DmaSem sig) : SemLoc sig).isScoped .scVector = true; decide⟩⟩⟩⟩),
    SparseCore.bigSep_erase' (Finset.mem_erase.mpr ⟨cell_ne d L 4 3 (by decide), Finset.mem_erase.mpr ⟨cell_ne d L 4 2 (by decide), Finset.mem_erase.mpr ⟨cell_ne d L 4 1 (by decide), Finset.mem_erase.mpr ⟨cell_ne d L 4 0 (by decide), (mem_ownCells (g := cell d L 4)).mpr ⟨rfl, by show (SemLoc.dma (4 : DmaSem sig) : SemLoc sig).isScoped .scVector = true; decide⟩⟩⟩⟩⟩),
    SparseCore.bigSep_erase' (Finset.mem_erase.mpr ⟨cell_ne d L 5 4 (by decide), Finset.mem_erase.mpr ⟨cell_ne d L 5 3 (by decide), Finset.mem_erase.mpr ⟨cell_ne d L 5 2 (by decide), Finset.mem_erase.mpr ⟨cell_ne d L 5 1 (by decide), Finset.mem_erase.mpr ⟨cell_ne d L 5 0 (by decide), (mem_ownCells (g := cell d L 5)).mpr ⟨rfl, by show (SemLoc.dma (5 : DmaSem sig) : SemLoc sig).isScoped .scVector = true; decide⟩⟩⟩⟩⟩⟩),
    SparseCore.bigSep_erase' (Finset.mem_erase.mpr ⟨cell_ne d L 6 5 (by decide), Finset.mem_erase.mpr ⟨cell_ne d L 6 4 (by decide), Finset.mem_erase.mpr ⟨cell_ne d L 6 3 (by decide), Finset.mem_erase.mpr ⟨cell_ne d L 6 2 (by decide), Finset.mem_erase.mpr ⟨cell_ne d L 6 1 (by decide), Finset.mem_erase.mpr ⟨cell_ne d L 6 0 (by decide), (mem_ownCells (g := cell d L 6)).mpr ⟨rfl, by show (SemLoc.dma (6 : DmaSem sig) : SemLoc sig).isScoped .scVector = true; decide⟩⟩⟩⟩⟩⟩⟩),
    SparseCore.bigSep_erase' (Finset.mem_erase.mpr ⟨cell_ne d L 7 6 (by decide), Finset.mem_erase.mpr ⟨cell_ne d L 7 5 (by decide), Finset.mem_erase.mpr ⟨cell_ne d L 7 4 (by decide), Finset.mem_erase.mpr ⟨cell_ne d L 7 3 (by decide), Finset.mem_erase.mpr ⟨cell_ne d L 7 2 (by decide), Finset.mem_erase.mpr ⟨cell_ne d L 7 1 (by decide), Finset.mem_erase.mpr ⟨cell_ne d L 7 0 (by decide), (mem_ownCells (g := cell d L 7)).mpr ⟨rfl, by show (SemLoc.dma (7 : DmaSem sig) : SemLoc sig).isScoped .scVector = true; decide⟩⟩⟩⟩⟩⟩⟩⟩)]

omit [FloatOps F] in
theorem ownBufs_V5 :
    (ownBufs (thr d L) : sProp 𝕄)
      = iprop((∃ f, sLoc d L cc0_scratch0 ↦{fullShare} f) ∗ (∃ f, sLoc d L cc0_scratch1 ↦{fullShare} f) ∗ (∃ f, sLoc d L cc0_scratch2 ↦{fullShare} f) ∗ (∃ f, sLoc d L cc0_scratch3 ↦{fullShare} f) ∗ (∃ f, sLoc d L cc0_scratch4 ↦{fullShare} f)
          ∗ bigSep (bufsRest L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

/-! ## What the two index fetches land -/

omit [FloatOps F] in
theorem payN_apply (c a : Fin 128) :
    ((inW).slice (Rect.unit (s := S4096x128) (k0_off1 L) S128x128.size (k0_off1_inb L)) (fun _ => rfl)).view.read (Elt F) (In : (inW).view.ty.Contents (Elt F)) (ix2 c a)
      = In (ix2 (⟨128 * (2 * (L 1).val + (L 0).val) + c.val, by have h0 : (L 0).val < 2 := (L 0).isLt; have h1 : (L 1).val < 16 := (L 1).isLt; have hc := c.isLt; omega⟩ : Fin 4096) a) := by
  show In (((inW).slice (Rect.unit (s := S4096x128) (k0_off1 L) S128x128.size (k0_off1_inb L)) (fun _ => rfl)).view.emb (ix2 c a)) = _
  refine congrArg In ?_
  funext b
  refine Fin.ext ?_
  match b with
  | ⟨0, _⟩ => show k0_off1 L 0 + 1 * c.val = 128 * (2 * (L 1).val + (L 0).val) + c.val; rw [k0_off1_eq]; show 256 * (L 1).val + 128 * (L 0).val + 1 * c.val = _; omega
  | ⟨1, _⟩ => show k0_off1 L 1 + 1 * a.val = a.val; rw [k0_off1_eq]; show 0 + 1 * a.val = a.val; omega

omit [FloatOps F] in
theorem payS_apply (j : Fin 8) (a : Fin 128) :
    ((isW).slice (Rect.unit (s := S256x128) (k0_off2 L) S8x128.size (k0_off2_inb L)) (fun _ => rfl)).view.read (Elt F) (Is : (isW).view.ty.Contents (Elt F)) (ix2 j a)
      = Is (ix2 (⟨8 * (2 * (L 1).val + (L 0).val) + j.val, by have h0 : (L 0).val < 2 := (L 0).isLt; have h1 : (L 1).val < 16 := (L 1).isLt; have hj := j.isLt; omega⟩ : Fin 256) a) := by
  show Is (((isW).slice (Rect.unit (s := S256x128) (k0_off2 L) S8x128.size (k0_off2_inb L)) (fun _ => rfl)).view.emb (ix2 j a)) = _
  refine congrArg Is ?_
  funext b
  refine Fin.ext ?_
  match b with
  | ⟨0, _⟩ => show k0_off2 L 0 + 1 * j.val = 8 * (2 * (L 1).val + (L 0).val) + j.val; rw [k0_off2_eq]; show 16 * (L 1).val + 8 * (L 0).val + 1 * j.val = _; omega
  | ⟨1, _⟩ => show k0_off2 L 1 + 1 * a.val = a.val; rw [k0_off2_eq]; show 0 + 1 * a.val = a.val; omega

/-! ## The invariant after the last trip -/

/-- After the last trip: nothing gathers any more, the last two copies out are in flight. -/
theorem inv64_elim (acc : PUnit) :
    inv m Is In d L q idxn idxs O W0 64 acc ⊢ iprop(Transfers.MayWaits (thr d L) (none : HIx 1) O
      ∗ (semVal (cell d L 0) 0 ∗ (∃ R, (rows0M).view.loc (thr d L) ↦[(rows0M).view.set]{fullShare} R)
      ∗ ((s0W).view.loc (thr d L) ↦{tA} idxn) ∗ ((embW).view.loc (thr d L) ↦{Transfers.shareTok q 5 0} m (embLoc d)))
      ∗ (semVal (cell d L 1) 0 ∗ (∃ R, (rows1M).view.loc (thr d L) ↦[(rows1M).view.set]{fullShare} R)
      ∗ ((s0W).view.loc (thr d L) ↦{tB} idxn) ∗ ((embW).view.loc (thr d L) ↦{Transfers.shareTok q 5 1} m (embLoc d)))
      ∗ (∃ (offA offB : Fin 2 → Nat) (inbA : ∀ a, offA a + S8x128.size a ≤ S32768x128.size a) (inbB : ∀ a, offB a + S8x128.size a ≤ S32768x128.size a)
        (gA gB g : Buf (Elt F) ((noW).view.loc (thr d L))) (NA NB : Buf (Elt F) ((s3W).view.loc (thr d L))),
      ⌜(offA 0 = base L + 16 * (64 - 1) ∧ offA 1 = 0 ∧ offB 0 = base L + 16 * (64 - 1) + 8 ∧ offB 1 = 0)
        ∧ (∀ y ∈ W8 d L offA inbA, gA y = neiVal (m (embLoc d)) In y) ∧ (∀ y ∈ W8 d L offB inbB, gB y = neiVal (m (embLoc d)) In y)
        ∧ (∀ y : S32768x128.Idx, base L ≤ (y 0).val → (y 0).val < base L + 16 * (64 - 1) → g y = neiVal (m (embLoc d)) In y)⌝
      ∗ Transfers.Flight countersEmb (thr d L) (SemLoc.dma (2 : DmaSem sig)) (default : HIx 1) 32768
          iprop(((noW).view.loc (thr d L) ↦[W8 d L offA inbA]{fullShare} gA) ∗ ((s3W).view.loc (thr d L) ↦[(nbuf0M).view.set]{fullShare} NA))
      ∗ Transfers.Flight countersEmb (thr d L) (SemLoc.dma (3 : DmaSem sig)) (default : HIx 1) 32768
          iprop(((noW).view.loc (thr d L) ↦[W8 d L offB inbB]{fullShare} gB) ∗ ((s3W).view.loc (thr d L) ↦[(nbuf1M).view.set]{fullShare} NB))
      ∗ ((noW).view.loc (thr d L) ↦[((Finset.univ \ Oth L) \ W8 d L offA inbA) \ W8 d L offB inbB]{fullShare} g))
      ∗ ((semVal (cell d L 4) 0 ∗ (∃ R, (s4W).view.loc (thr d L) ↦[(s4W).view.set]{fullShare} R)
        ∗ ((s1W).view.loc (thr d L) ↦{fullShare} idxs) ∗ ((embW).view.loc (thr d L) ↦{Transfers.shareTok q 5 4} m (embLoc d)))
    ∗ semVal (cell d L 5) 0
    ∗ ∃ gs : Buf (Elt F) ((soW).view.loc (thr d L)),
        ⌜∀ y : S32768x128.Idx, base L ≤ (y 0).val → (y 0).val < base L + 128 * ((64 + 3) / 8) → gs y = selfVal (m (embLoc d)) Is y⌝
        ∗ ((soW).view.loc (thr d L) ↦[Finset.univ \ Oth L]{fullShare} gs))
      ∗ ∃ W', ⌜∀ p ∈ W', p ∈ W0 ∨ p.2 = none⌝ ∗ owes (thr d L) O W') := by
  unfold inv gPart0 gPart1 oPart sPart
  rw [if_neg (by decide : ¬ (64 < 64)), if_pos (by decide : 0 < 64), if_neg (by decide : ¬ (64 ≤ 60))]
  exact .rfl

set_option maxHeartbeats 4000000 in
theorem tile_body (hF : (K (F := F)).Facts) (hIs : ∀ j, (Is j).toNat ≤ 100000) (hIn : ∀ j, (In j).toNat ≤ 100000)
    (O : CellTallies nD τ sig (HIx 1)) (W : Waits sig (HIx 1)) (hO : ∀ g, O g none = 0)
    (hstep : ∀ (idxn : Buf (Elt F) ((s0W).view.loc (thr d L))) (idxs : Buf (Elt F) ((s1W).view.loc (thr d L)))
        (hn : ∀ y, (idxn y).toNat ≤ 100000) (hs : ∀ y, (idxs y).toNat ≤ 100000)
        (hidxn : ∀ (c a : Fin 128), idxn (ix2 c a) = In (ix2 (⟨128 * (2 * (L 1).val + (L 0).val) + c.val, by have h0 : (L 0).val < 2 := (L 0).isLt; have h1 : (L 1).val < 16 := (L 1).isLt; have hc := c.isLt; omega⟩ : Fin 4096) a))
        (hidxs : ∀ (j : Fin 8) (a : Fin 128), idxs (ix2 j a) = Is (ix2 (⟨8 * (2 * (L 1).val + (L 0).val) + j.val, by have h0 : (L 0).val < 2 := (L 0).isLt; have h1 : (L 1).val < 16 := (L 1).isLt; have hj := j.isLt; omega⟩ : Fin 256) a))
        (W0 : Waits sig (HIx 1)) (v2 : BitVec 32) (k : Fin k0_t1_loop.trips) (acc : PUnit),
        inv m Is In d L (tShare (cL L) (sL L)) idxn idxs O W0 k.val acc ⊢ wp frame (wpE (defs₀ (F := F)) 𝒱₀ (thr d L) none) Set.univ
          (k0_t1_body L embW (Memref.isWhole_whole _) inW (Memref.isWhole_whole _) isW (Memref.isWhole_whole _) soW (Memref.isWhole_whole _) noW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scoped0 cc0_scoped1 v2 k acc)
          (inv m Is In d L (tShare (cL L) (sL L)) idxn idxs O W0 (k.val + 1))) :
    iprop(levAts (K (F := F)).L (K (F := F)).lev ∗ emp ∗ tileIn m Is In d (cL L) (sL L) ∗ scopedBufs (thr d L) ∗ scopedSems0 (thr d L) ∗ owes (thr d L) O W)
      ⊢ wp frame (wpE (defs₀ (F := F)) 𝒱₀ (thr d L) none) Set.univ (cc0__sc_body L embW (Memref.isWhole_whole _) inW (Memref.isWhole_whole _) isW (Memref.isWhole_whole _) soW (Memref.isWhole_whole _) noW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scoped0 cc0_scoped1)
          fun _ => iprop(tileOut m Is In d (cL L) (sL L) ∗ scopedBufs (thr d L) ∗ scopedSems0 (thr d L) ∗ ∃ W', ⌜∀ p ∈ W', p ∈ W ∨ p.2 = none⌝ ∗ owes (thr d L) O W') := by
  simp only [cc0__sc_body_eq_skeleton]; unfold cc0__sc_body_skel
  simp only [k0_part51_eq_skeleton]; unfold k0_part51_skel
  rw [(K (F := F)).scopedBufs_V hF d (cV L) (jV L), SparseCore.Cfg.scopedSems0_V (Val := Elt F) d (cV L) (jV L), ownSems0_V8, ownBufs_V5]
  unfold tileIn
  iintro ⟨#Hlv, -, ⟨Hemb, His, Hin, ⟨%fso, Hso⟩, ⟨%fno, Hno⟩⟩, ⟨⟨%f0, H0⟩, ⟨%f1, H1⟩, ⟨%f2, H2⟩, ⟨%f3, H3⟩, ⟨%f4, H4⟩, Hbufs⟩,
    ⟨Hc0, Hc1, Hc2, Hc3, Hc4, Hc5, Hc6, Hc7, Hsems⟩, HO⟩
  ihave Hmw := ((K (F := F)).mayWaits_none (thr := thr d L) hO) $$ Hlv
  have e_emb : ∀ q' f, ((embW).view.loc (thr d L) ↦{q'} f : sProp 𝕄) = (embLoc d ↦{q'} f) := fun q' f => by simp only [Memref.view_whole, View.set_whole]
  have e_in : ∀ q' f, ((inW).view.loc (thr d L) ↦{q'} f : sProp 𝕄) = (inLoc d ↦{q'} f) := fun q' f => by simp only [Memref.view_whole, View.set_whole]
  have e_is : ∀ q' f, ((isW).view.loc (thr d L) ↦{q'} f : sProp 𝕄) = (isLoc d ↦{q'} f) := fun q' f => by simp only [Memref.view_whole, View.set_whole]
  have e_0 : ∀ f, ((s0W).view.loc (thr d L) ↦{fullShare} f : sProp 𝕄) = (sLoc d L cc0_scratch0 ↦{fullShare} f) := fun f => by simp only [Memref.view_whole, View.set_whole]
  have e_1 : ∀ f, ((s1W).view.loc (thr d L) ↦{fullShare} f : sProp 𝕄) = (sLoc d L cc0_scratch1 ↦{fullShare} f) := fun f => by simp only [Memref.view_whole, View.set_whole]
  have e_2 : ∀ f, ((s2W).view.loc (thr d L) ↦{fullShare} f : sProp 𝕄) = (sLoc d L cc0_scratch2 ↦{fullShare} f) := fun f => by simp only [Memref.view_whole, View.set_whole]
  have e_3 : ∀ f, ((s3W).view.loc (thr d L) ↦{fullShare} f : sProp 𝕄) = (sLoc d L cc0_scratch3 ↦{fullShare} f) := fun f => by simp only [Memref.view_whole, View.set_whole]
  have e_4 : ∀ f, ((s4W).view.loc (thr d L) ↦{fullShare} f : sProp 𝕄) = (sLoc d L cc0_scratch4 ↦{fullShare} f) := fun f => by simp only [Memref.view_whole, View.set_whole]
  ihave Hemb' := (Entails.of_eq (e_emb _ _).symm) $$ Hemb
  ihave Hin' := (Entails.of_eq (e_in _ _).symm) $$ Hin
  ihave His' := (Entails.of_eq (e_is _ _).symm) $$ His
  ihave H0' := (Entails.of_eq (e_0 _).symm) $$ H0
  ihave H1' := (Entails.of_eq (e_1 _).symm) $$ H1
  ihave H2' := (Entails.of_eq (e_2 _).symm) $$ H2
  ihave H3' := (Entails.of_eq (e_3 _).symm) $$ H3
  ihave H4' := (Entails.of_eq (e_4 _).symm) $$ H4
  -- the two index lists fetched
  sl_exec
  generalize hidxn : View.write (Elt F) (s0W).view f0 (tile_body.sl.dma0 (F := F) In L) Finset.univ = idxn
  generalize hidxs : View.write (Elt F) (s1W).view f1 (tile_body.sl.dma0_1 (F := F) Is L) Finset.univ = idxs
  have hn : ∀ y, (idxn y).toNat ≤ 100000 := by subst hidxn; intro y; rw [View.write_whole_univ]; exact hIn _
  have hs : ∀ y, (idxs y).toNat ≤ 100000 := by subst hidxs; intro y; rw [View.write_whole_univ]; exact hIs _
  -- the table's share as five read tokens: cells 0, 1 and 4 read it
  ihave Hemb5 := (toks5 (tShare (cL L) (sL L))).1 $$ Hemb'
  icases Hemb5 with ⟨HembD, HE0, HE1, HE2, HE3, HE4⟩
  ihave H0t := (toks1 fullShare).1 $$ H0'
  icases H0t with ⟨H0B, H0A⟩
  -- slot 0: its half of the rows scratch, offsets row 0
  have hsub2 : (rows0M).view.set ⊆ (Finset.univ : Finset (Idx ((s2W).view.loc (thr d L)))) := Finset.subset_univ _
  ihave H2s := (pointsTo_split_subset hsub2).1 $$ H2'
  icases H2s with ⟨H2a0, H2b⟩
  have e2a : ∀ f, ((s2W).view.loc (thr d L) ↦[(rows0M).view.set]{fullShare} f : sProp 𝕄) = ((rows0M).view.loc (thr d L) ↦[(rows0M).view.set]{fullShare} f) := fun _ => rfl
  ihave H2a := (Entails.of_eq (e2a _)) $$ H2a0
  have hsubA0 : (offN ![0, 0] inb_S128x128_S1x128_0_0).view.set ⊆ (Finset.univ : Finset (Idx ((s0W).view.loc (thr d L)))) := Finset.subset_univ _
  ihave HA0 := (pointsTo_split_subset hsubA0).1 $$ H0A
  icases HA0 with ⟨HA0a, HA0b⟩
  have eA : ∀ o h qq f, ((s0W).view.loc (thr d L) ↦[(offN o h).view.set]{qq} f : sProp 𝕄) = ((offN o h).view.loc (thr d L) ↦[(offN o h).view.set]{qq} f) := fun _ _ _ _ => rfl
  ihave HA0a' := (Entails.of_eq (eA _ _ _ _)) $$ HA0a
  have hin0 : ∀ x, ((offN ![0, 0] inb_S128x128_S1x128_0_0).view.read (Elt F) idxn x).toNat < S100001x128.size gathers_S100001x128_S128x128.axis := fun x => Nat.lt_succ_of_le (hn _)
  sl_exec
  -- slot 1: the other half, offsets row 1, the other share of the index scratch
  have e2b : ((Finset.univ : Finset (Idx ((s2W).view.loc (thr d L)))) \ (rows0M).view.set) = (rows1M).view.set := rows1_eq.symm
  ihave H2b1 := (Entails.of_eq (congrArg (fun S => ((s2W).view.loc (thr d L) ↦[S]{fullShare} f2 : sProp 𝕄)) e2b)) $$ H2b
  have e2c : ∀ f, ((s2W).view.loc (thr d L) ↦[(rows1M).view.set]{fullShare} f : sProp 𝕄) = ((rows1M).view.loc (thr d L) ↦[(rows1M).view.set]{fullShare} f) := fun _ => rfl
  ihave H2b' := (Entails.of_eq (e2c _)) $$ H2b1
  have hsubB1 : (offN ![1, 0] inb_S128x128_S1x128_1_0).view.set ⊆ (Finset.univ : Finset (Idx ((s0W).view.loc (thr d L)))) := Finset.subset_univ _
  ihave HB1 := (pointsTo_split_subset hsubB1).1 $$ H0B
  icases HB1 with ⟨HB1a, HB1b⟩
  ihave HB1a' := (Entails.of_eq (eA _ _ _ _)) $$ HB1a
  have hin1 : ∀ x, ((offN ![1, 0] inb_S128x128_S1x128_1_0).view.read (Elt F) idxn x).toNat < S100001x128.size gathers_S100001x128_S128x128.axis := fun x => Nat.lt_succ_of_le (hn _)
  sl_exec
  -- the own rows: the whole scratch, offsets row 0 of the own-index scratch
  have e4a : ∀ f, ((s4W).view.loc (thr d L) ↦{fullShare} f : sProp 𝕄) = ((s4W).view.loc (thr d L) ↦[(s4W).view.set]{fullShare} f) := fun f => by simp only [Memref.view_whole, View.set_whole]
  ihave H4a := (Entails.of_eq (e4a _)) $$ H4'
  have hsubS0 : (offS ![0, 0] inb_S8x128_S1x128_0_0).view.set ⊆ (Finset.univ : Finset (Idx ((s1W).view.loc (thr d L)))) := Finset.subset_univ _
  ihave HS0 := (pointsTo_split_subset hsubS0).1 $$ H1'
  icases HS0 with ⟨HS0a, HS0b⟩
  have eS : ∀ o h qq f, ((s1W).view.loc (thr d L) ↦[(offS o h).view.set]{qq} f : sProp 𝕄) = ((offS o h).view.loc (thr d L) ↦[(offS o h).view.set]{qq} f) := fun _ _ _ _ => rfl
  ihave HS0a' := (Entails.of_eq (eS _ _ _ _)) $$ HS0a
  have hinS : ∀ x, ((offS ![0, 0] inb_S8x128_S1x128_0_0).view.read (Elt F) idxs x).toNat < S100001x128.size gathers_S100001x128_S128x128.axis := fun x => Nat.lt_succ_of_le (hs _)
  sl_exec
  -- what the index scratches hold
  have hidxn' : ∀ (c a : Fin 128), idxn (ix2 c a) = In (ix2 (⟨128 * (2 * (L 1).val + (L 0).val) + c.val, by have h0 : (L 0).val < 2 := (L 0).isLt; have h1 : (L 1).val < 16 := (L 1).isLt; have hc := c.isLt; omega⟩ : Fin 4096) a) := by
    intro c a; rw [← hidxn, View.write_whole_univ]; exact payN_apply In L c a
  have hidxs' : ∀ (j : Fin 8) (a : Fin 128), idxs (ix2 j a) = Is (ix2 (⟨8 * (2 * (L 1).val + (L 0).val) + j.val, by have h0 : (L 0).val < 2 := (L 0).isLt; have h1 : (L 1).val < 16 := (L 1).isLt; have hj := j.isLt; omega⟩ : Fin 256) a) := by
    intro j a; rw [← hidxs, View.write_whole_univ]; exact payS_apply Is L j a
  -- the sums scratch by halves; the two results as the subcore's rows
  have hsub3 : (Finset.univ \ (nbuf1M).view.set : Finset (Idx ((s3W).view.loc (thr d L)))) ⊆ Finset.univ := Finset.subset_univ _
  ihave H3s := (pointsTo_split_subset hsub3).1 $$ H3'
  icases H3s with ⟨H3a, H3b0⟩
  have e3b : ((Finset.univ : Finset (Idx ((s3W).view.loc (thr d L)))) \ (Finset.univ \ (nbuf1M).view.set)) = Finset.univ \ (nbuf0M).view.set := by
    rw [← nbuf0_eq]
  ihave H3b := (Entails.of_eq (congrArg (fun S => ((s3W).view.loc (thr d L) ↦[S]{fullShare} f3 : sProp 𝕄)) e3b)) $$ H3b0
  have eOth : wRowSet (wOf (cL L) (sL L)) = (Finset.univ \ Oth L : Finset S32768x128.Idx) := by
    unfold Oth; exact (Finset.sdiff_sdiff_eq_self (Finset.subset_univ _)).symm
  have e_no : ∀ f, (noLoc d ↦[wRowSet (wOf (cL L) (sL L))]{fullShare} f : sProp 𝕄) = ((noW).view.loc (thr d L) ↦[Finset.univ \ Oth L]{fullShare} f) :=
    fun f => congrArg (fun S => (noLoc d ↦[S]{fullShare} f : sProp 𝕄)) eOth
  have e_so : ∀ f, (soLoc d ↦[wRowSet (wOf (cL L) (sL L))]{fullShare} f : sProp 𝕄) = ((soW).view.loc (thr d L) ↦[Finset.univ \ Oth L]{fullShare} f) :=
    fun f => congrArg (fun S => (soLoc d ↦[S]{fullShare} f : sProp 𝕄)) eOth
  ihave Hno' := (Entails.of_eq (e_no _)) $$ Hno
  ihave Hso' := (Entails.of_eq (e_so _)) $$ Hso
  -- the loop
  sl_for (inv m Is In d L (tShare (cL L) (sL L)) idxn idxs O (insert (SemLoc.dma (7 : DmaSem sig), (default : HIx 1)) (insert (SemLoc.dma (6 : DmaSem sig), (default : HIx 1)) W)))
    $$ [Hc0 HA0b HE0 Hc1 HB1b HE1 Hc2 Hc3 H3a H3b Hno' Hc4 HS0b HE4 Hc5 Hso' HO]
  · intro k acc
    exact hstep idxn idxs hn hs hidxn' hidxs' _ _ k acc
  · unfold inv gPart0 gPart1 oPart sPart
    rw [if_pos (by decide : (0 : Nat) < 64), if_pos (by decide : (0 : Nat) < 64), if_neg (by decide : ¬ (0 : Nat) < 0), if_pos (by decide : (0 : Nat) ≤ 60)]
    isplitr; · iexact Hmw
    isplitl [Hc0 HA0b HE0]
    · iexists ![0, 0], inb_S128x128_S1x128_0_0, ((rows0M).view.writes (Elt F) f2 [⟨Rect.whole S128x128, tile_body.sl.gather0 m d idxn hin0⟩] : Buf (Elt F) ((s2W).view.loc (thr d L)))
      isplitr
      · ipureintro
        refine ⟨rfl, rfl, fun a b => ?_⟩
        rw [rows0_writes]
        exact gather_val_n' (m (embLoc d)) idxn ![0, 0] inb_S128x128_S1x128_0_0 rfl hin0 a b
      isplitl [Hc0]; · iexact Hc0
      isplitl [HA0b] <;> iassumption
    isplitl [Hc1 HB1b HE1]
    · iexists ![1, 0], inb_S128x128_S1x128_1_0, ((rows1M).view.writes (Elt F) f2 [⟨Rect.whole S128x128, tile_body.sl.gather0_1 m d idxn hin1⟩] : Buf (Elt F) ((s2W).view.loc (thr d L)))
      isplitr
      · ipureintro
        refine ⟨rfl, rfl, fun a b => ?_⟩
        rw [rows1_writes]
        exact gather_val_n' (m (embLoc d)) idxn ![1, 0] inb_S128x128_S1x128_1_0 rfl hin1 a b
      isplitl [Hc1]; · iexact Hc1
      isplitl [HB1b] <;> iassumption
    isplitl [Hc2 Hc3 H3a H3b Hno']
    · isplitl [Hc2]; · iexact Hc2
      isplitl [Hc3]; · iexact Hc3
      isplitl [H3a]; · iexists _; iexact H3a
      isplitl [H3b]; · iexists _; iexact H3b
      iexists _; iexact Hno'
    isplitl [Hc4 HS0b HE4 Hc5 Hso']
    · isplitl [Hc4 HS0b HE4]
      · iexists ![0, 0], inb_S8x128_S1x128_0_0, ((s4W).view.writes (Elt F) f4 [⟨Rect.whole S128x128, tile_body.sl.gather0_2 m d idxs hinS⟩] : Buf (Elt F) ((s4W).view.loc (thr d L)))
        isplitr
        · ipureintro
          refine ⟨rfl, rfl, fun a b => ?_⟩
          rw [s4_writes]
          exact gather_val_s' (m (embLoc d)) idxs ![0, 0] inb_S8x128_S1x128_0_0 rfl hinS a b
        isplitl [Hc4]; · iexact Hc4
        isplitl [HS0b] <;> iassumption
      isplitl [Hc5]; · iexact Hc5
      iexists fso
      isplitr
      · ipureintro
        intro y h1 h2
        exact absurd h2 (by omega)
      iexact Hso'
    iexists (insert (SemLoc.dma (7 : DmaSem sig), (default : HIx 1)) (insert (SemLoc.dma (6 : DmaSem sig), (default : HIx 1)) W))
    isplitr
    · ipureintro; exact fun p hp => Or.inl hp
    iexact HO
  iintro %acc HI
  have e64 : Scf.trips k0_t1_loop.lb k0_t1_loop.ub k0_t1_loop.st = 64 := by decide
  ihave HI' := (Entails.of_eq (congrArg (fun n => inv m Is In d L (tShare (cL L) (sL L)) idxn idxs O (insert (SemLoc.dma (7 : DmaSem sig), (default : HIx 1)) (insert (SemLoc.dma (6 : DmaSem sig), (default : HIx 1)) W)) n acc) e64)) $$ HI
  ihave H64 := (inv64_elim m Is In d L (tShare (cL L) (sL L)) idxn idxs O (insert (SemLoc.dma (7 : DmaSem sig), (default : HIx 1)) (insert (SemLoc.dma (6 : DmaSem sig), (default : HIx 1)) W)) acc) $$ HI'
  icases H64 with ⟨-, ⟨Hc0, ⟨%R0, Hr0⟩, H0A, HE0⟩, ⟨Hc1, ⟨%R1, Hr1⟩, H0B, HE1⟩,
    ⟨%offA, %offB, %inbA, %inbB, %gA, %gB, %g, %NA, %NB, %hf, HF2, HF3, Hnor⟩,
    ⟨⟨Hc4, ⟨%R4, H4⟩, H1, HE4⟩, Hc5, ⟨%gs, %hgs, Hsor⟩⟩, ⟨%W', %hW', HO⟩⟩
  sl_exec
  -- the subcore's rows of the two results
  have hsv : (sL L).val = (L 1).val := rfl
  have hcv : (cL L).val = (L 0).val := rfl
  obtain ⟨⟨hA0, hA1, hB0, hB1⟩, hgA, hgB, hg⟩ := hf
  have hL0 : (L 0).val < 2 := (L 0).isLt
  have hL1 : (L 1).val < 16 := (L 1).isLt
  have hWAsub : W8 d L offA inbA ⊆ wRowSet (wOf (cL L) (sL L)) :=
    win8_subset (cL L) (sL L) offA inbA hA1 (by rw [hA0, hsv, hcv]; first | done | (unfold base; omega)) (by rw [hA0, hsv, hcv]; first | done | (unfold base; omega))
  have hWBsub : W8 d L offB inbB ⊆ wRowSet (wOf (cL L) (sL L)) :=
    win8_subset (cL L) (sL L) offB inbB hB1 (by rw [hB0, hsv, hcv]; first | done | (unfold base; omega)) (by rw [hB0, hsv, hcv]; first | done | (unfold base; omega))
  have hAB : Disjoint (W8 d L offA inbA) (W8 d L offB inbB) := win8_disj offA offB inbA inbB (Or.inl (by rw [hA0, hB0]; first | done | omega))
  have hB2 : W8 d L offB inbB ⊆ (Finset.univ \ Oth L) \ W8 d L offA inbA :=
    Finset.subset_sdiff.2 ⟨eOth ▸ hWBsub, hAB.symm⟩
  have hA2 : W8 d L offA inbA ⊆ Finset.univ \ Oth L := eOth ▸ hWAsub
  ihave Hn1 := (pointsTo_join_subset (f := g) (g := gB) hB2) $$ [HF3_dst Hnor]
  · isplitl [HF3_dst] <;> iassumption
  ihave Hn2 := (pointsTo_join_subset (g := gA) hA2) $$ [HF2_dst Hn1]
  · isplitl [HF2_dst] <;> iassumption
  ihave Hn3 := (Entails.of_eq (e_no _).symm) $$ Hn2
  have hnei : ∀ y ∈ wRowSet (wOf (cL L) (sL L)),
      (W8 d L offA inbA).piecewise gA ((W8 d L offB inbB).piecewise gB g) y = (neiVal (m (embLoc d)) In : Buf (Elt F) (noLoc d)) y := by
    intro y hy
    by_cases hyA : y ∈ W8 d L offA inbA
    · rw [Finset.piecewise_eq_of_mem _ _ _ hyA]; exact hgA y hyA
    rw [Finset.piecewise_eq_of_notMem _ _ _ hyA]
    by_cases hyB : y ∈ W8 d L offB inbB
    · rw [Finset.piecewise_eq_of_mem _ _ _ hyB]; exact hgB y hyB
    rw [Finset.piecewise_eq_of_notMem _ _ _ hyB]
    have h1 := (mem_wRowSet (cL L) (sL L) y).1 hy
    have h2 := fun h => hyA ((mem_win8 offA inbA hA1 y).2 h)
    have h3 := fun h => hyB ((mem_win8 offB inbB hB1 y).2 h)
    rw [hsv, hcv] at h1
    rw [hA0] at h2
    rw [hB0] at h3
    refine hg y (by unfold base; omega) ?_
    unfold base at h2 h3 ⊢
    by_contra hc
    have : base L + 16 * (64 - 1) ≤ (y 0).val := by unfold base; omega
    unfold base at this
    by_cases h8 : (y 0).val < 2048 * (L 1).val + 1024 * (L 0).val + 16 * (64 - 1) + 8
    · exact h2 ⟨by omega, by omega⟩
    · exact h3 ⟨by omega, by omega⟩
  ihave Hn4 := (Entails.of_eq (pointsTo_congr hnei)) $$ Hn3
  ihave Hs1 := (Entails.of_eq (e_so _).symm) $$ Hsor
  have hself : ∀ y ∈ wRowSet (wOf (cL L) (sL L)), gs y = (selfVal (m (embLoc d)) Is : Buf (Elt F) (soLoc d)) y := by
    intro y hy
    have h1 := (mem_wRowSet (cL L) (sL L) y).1 hy
    rw [hsv, hcv] at h1
    exact hgs y (by unfold base; omega) (by unfold base; omega)
  ihave Hs2 := (Entails.of_eq (pointsTo_congr hself)) $$ Hs1
  -- the table's share rejoined; the index lists
  ihave Hemb6 := (toks5 (tShare (cL L) (sL L))).2 $$ [HembD HE0 HE1 HE2 HE3 HE4]
  · isplitl [HembD]; · iexact HembD
    isplitl [HE0]; · iexact HE0
    isplitl [HE1]; · iexact HE1
    isplitl [HE2]; · iexact HE2
    isplitl [HE3] <;> iassumption
  ihave Hemb7 := (Entails.of_eq (e_emb _ _)) $$ Hemb6
  ihave Hin7 := (Entails.of_eq (e_in _ _)) $$ Hin'
  ihave His7 := (Entails.of_eq (e_is _ _)) $$ His'
  -- the scratch buffers whole again
  ihave H0j := (toks1 fullShare).2 $$ [H0B H0A]
  · isplitl [H0B] <;> iassumption
  ihave H0k := (Entails.of_eq (e_0 _)) $$ H0j
  ihave H1k := (Entails.of_eq (e_1 _)) $$ H1
  have e2r0 : ∀ f, ((rows0M).view.loc (thr d L) ↦[(rows0M).view.set]{fullShare} f : sProp 𝕄) = ((s2W).view.loc (thr d L) ↦[(rows0M).view.set]{fullShare} f) := fun _ => rfl
  have e2r1 : ∀ f, ((rows1M).view.loc (thr d L) ↦[(rows1M).view.set]{fullShare} f : sProp 𝕄) = ((s2W).view.loc (thr d L) ↦[Finset.univ \ (rows0M).view.set]{fullShare} f) :=
    fun f => congrArg (fun S => ((s2W).view.loc (thr d L) ↦[S]{fullShare} f : sProp 𝕄)) rows1_eq
  ihave Hr0' := (Entails.of_eq (e2r0 _)) $$ Hr0
  ihave Hr1' := (Entails.of_eq (e2r1 _)) $$ Hr1
  ihave H2j := (pointsTo_join_subset (f := R1) (g := R0) (Finset.subset_univ ((rows0M).view.set : Finset (Idx ((s2W).view.loc (thr d L)))))) $$ [Hr0' Hr1']
  · isplitl [Hr0'] <;> iassumption
  ihave H2k := (Entails.of_eq (e_2 _)) $$ H2j
  have e3r1 : ∀ f, ((s3W).view.loc (thr d L) ↦[(nbuf1M).view.set]{fullShare} f : sProp 𝕄) = ((s3W).view.loc (thr d L) ↦[Finset.univ \ (nbuf0M).view.set]{fullShare} f) :=
    fun f => congrArg (fun S => ((s3W).view.loc (thr d L) ↦[S]{fullShare} f : sProp 𝕄)) nbuf1_eq
  ihave HF3s := (Entails.of_eq (e3r1 _)) $$ HF3_src
  ihave H3j := (pointsTo_join_subset (f := NB) (g := NA) (Finset.subset_univ ((nbuf0M).view.set : Finset (Idx ((s3W).view.loc (thr d L)))))) $$ [HF2_src HF3s]
  · isplitl [HF2_src] <;> iassumption
  ihave H3k := (Entails.of_eq (e_3 _)) $$ H3j
  ihave H4j := (Entails.of_eq (e4a _).symm) $$ H4
  ihave H4k := (Entails.of_eq (e_4 _)) $$ H4j
  sl_step
  unfold tileOut
  isplitl [Hemb7 His7 Hin7 Hs2 Hn4]
  · isplitl [Hemb7]; · iexact Hemb7
    isplitl [His7]; · iexact His7
    isplitl [Hin7]; · iexact Hin7
    isplitl [Hs2] <;> iassumption
  isplitl [H0k H1k H2k H3k H4k Hbufs]
  · isplitl [H0k]; · iexists _; iexact H0k
    isplitl [H1k]; · iexists _; iexact H1k
    isplitl [H2k]; · iexists _; iexact H2k
    isplitl [H3k]; · iexists _; iexact H3k
    isplitl [H4k]; · iexists _; iexact H4k
    iexact Hbufs
  isplitl [Hc0 Hc1 HF2 HF3 Hc4 Hc5 Hc6 Hc7 Hsems]
  · isplitl [Hc0]; · iexact Hc0
    isplitl [Hc1]; · iexact Hc1
    isplitl [HF2]; · iexact HF2
    isplitl [HF3]; · iexact HF3
    isplitl [Hc4]; · iexact Hc4
    isplitl [Hc5]; · iexact Hc5
    isplitl [Hc6]; · iexact Hc6
    isplitl [Hc7]; · iexact Hc7
    iexact Hsems
  iexists _
  isplitr
  swap; · iexact HO
  ipureintro
  intro p hp
  rcases Finset.mem_insert.mp hp with rfl | hp
  · exact Or.inr rfl
  rcases Finset.mem_insert.mp hp with rfl | hp
  · exact Or.inr rfl
  rcases hW' p hp with h | h
  · rcases Finset.mem_insert.mp h with rfl | h
    · exact Or.inr rfl
    rcases Finset.mem_insert.mp h with rfl | h
    · exact Or.inr rfl
    exact Or.inl h
  · exact Or.inr h

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s) embW (Memref.isWhole_whole _) inW (Memref.isWhole_whole _) isW (Memref.isWhole_whole _) soW (Memref.isWhole_whole _) noW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The per-subcore obligation of the call, from one trip of the main loop at the invariant. -/
theorem tileObl_of (hF : (K (F := F)).Facts) (hIs : ∀ j, (Is j).toNat ≤ 100000) (hIn : ∀ j, (In j).toNat ≤ 100000)
    (hstep : ∀ (d : Dev nD) (L : grid0.Coords) (O : CellTallies nD τ sig (HIx 1))
        (idxn : Buf (Elt F) ((s0W).view.loc (thr d L))) (idxs : Buf (Elt F) ((s1W).view.loc (thr d L)))
        (hn : ∀ y, (idxn y).toNat ≤ 100000) (hs : ∀ y, (idxs y).toNat ≤ 100000)
        (hidxn : ∀ (c a : Fin 128), idxn (ix2 c a) = In (ix2 (⟨128 * (2 * (L 1).val + (L 0).val) + c.val, by have h0 : (L 0).val < 2 := (L 0).isLt; have h1 : (L 1).val < 16 := (L 1).isLt; have hc := c.isLt; omega⟩ : Fin 4096) a))
        (hidxs : ∀ (j : Fin 8) (a : Fin 128), idxs (ix2 j a) = Is (ix2 (⟨8 * (2 * (L 1).val + (L 0).val) + j.val, by have h0 : (L 0).val < 2 := (L 0).isLt; have h1 : (L 1).val < 16 := (L 1).isLt; have hj := j.isLt; omega⟩ : Fin 256) a))
        (W0 : Waits sig (HIx 1)) (v2 : BitVec 32) (k : Fin k0_t1_loop.trips) (acc : PUnit),
        (∀ g, O g none = 0) →
        inv m Is In d L (tShare (cL L) (sL L)) idxn idxs O W0 k.val acc ⊢ wp frame (wpE (defs₀ (F := F)) 𝒱₀ (thr d L) none) Set.univ
          (k0_t1_body L embW (Memref.isWhole_whole _) inW (Memref.isWhole_whole _) isW (Memref.isWhole_whole _) soW (Memref.isWhole_whole _) noW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scoped0 cc0_scoped1 v2 k acc)
          (inv m Is In d L (tShare (cL L) (sL L)) idxn idxs O W0 (k.val + 1))) :
    (K (F := F)).TileObl (D (F := F)) 𝒱 (P m Is In) v₀ 0 := by
  intro d c i O W hO _ _
  simp only [show (P m Is In).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m Is In d (coordsV ⟨_, hc.1⟩ ⟨_, hc.2⟩) hF hIs hIn O W hO
    (fun idxn idxs hn hs hidxn hidxs W0 v2 k acc => hstep d _ O idxn idxs hn hs hidxn hidxs W0 v2 k acc hO)).trans (wp_mono frame _ _ fun _ => obl_post)

end Cert.KI
end
-- ==== Proof.ReduceLib.lean ====
/-
  The reduction loops, the arithmetic of one trip: vocabulary.

  Trip k of slot j's loop loads, for each of eight chunks of sixteen lanes, rows 16 k … 16 k + 15 of slot j of the rows
  scratch at those lanes, adds them left to right, and stores the sum at those lanes of row k of slot j of the sums
  scratch. Here: what a row of sums is to hold, what a load of a row reads, which elements a store of a chunk covers.
-/
import proofs.«208587_g27212912787602_cont_9to1_1073_18_alg».proof.Proof.Pay
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]
variable (d : Dev nD) (L : grid0.Coords)
/- The vector subcore at grid point `L` of device `d`. -/
local notation "thrL" => (V d ((L 0).castLE hcore0) ((L 1).castLE hsub0) : Thread nD τ)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)
local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)

/-- What row `y 1` of slot `j` of the sums scratch is to hold at lane `y 2`: the left-to-right sum, at that lane, of rows
    16 (y 1) … 16 (y 1) + 15 of slot `j` of the rows scratch. -/
def sumRow (j : Fin 2) (R : Buf (Elt F) ((s2W).view.loc thrL)) (y : S2x8x128.Idx) : F .f32 :=
  chain16 fun r : Fin 16 => R (ix3 j (⟨16 * (y 1).val + r.val, by have : (y 1).val < 8 := (y 1).isLt; omega⟩ : Fin 128) (y 2))

/-- Row `p` of slot `j` of the sums scratch holds the sums of rows 16 p … 16 p + 15 of slot `j` of the rows scratch. -/
def rowDone (j : Fin 2) (R : Buf (Elt F) ((s2W).view.loc thrL)) (N' : Buf (Elt F) ((s3W).view.loc thrL)) (p : Fin 8) : Prop :=
  ∀ l : Fin 128, N' (ix3 j p l) = chain16 fun r : Fin 16 => R (ix3 j ⟨16 * p.val + r.val, by omega⟩ l)

/-- Sixteen lanes of one row of the rows scratch, as a load through the whole scratch reads them. -/
abbrev rdAt (R : Buf (Elt F) ((s2W).view.loc thrL)) (off : Fin 3 → Nat) (inb : ∀ a, off a + S1x1x16.size a ≤ S2x128x128.size a) :
    Vec F S1x1x16 .f32 :=
  View.readAt (Elt F) (s2W).view (Rect.unit (s := S2x128x128) off S1x1x16.size inb).toLoadRect R

omit [FloatOps F] in
/-- A load at offsets (j, row, lane) reads lanes lane … lane + 15 of row `row` of slot `j`. -/
theorem rdRow (R : Buf (Elt F) ((s2W).view.loc thrL)) (off : Fin 3 → Nat) (inb : ∀ a, off a + S1x1x16.size a ≤ S2x128x128.size a)
    (j row lane : Nat) (hj : j < 2) (hrow : row < 128) (hlane : lane + 16 ≤ 128) (h : off = ![j, row, lane]) (x : S1x1x16.Idx) :
    rdAt d L R off inb x
      = R (ix3 (⟨j, hj⟩ : Fin 2) (⟨row, hrow⟩ : Fin 128) (⟨lane + (x 2).val, by have : (x 2).val < 16 := (x 2).isLt; omega⟩ : Fin 128)) := by
  subst h
  show R _ = R _
  congr 1
  have h0 : (x 0).val = 0 := by have : (x 0).val < 1 := (x 0).isLt; omega
  have h1 : (x 1).val = 0 := by have : (x 1).val < 1 := (x 1).isLt; omega
  funext a
  match a with
  | ⟨0, _⟩ => exact Fin.ext (show j + 1 * (x 0).val = j by omega)
  | ⟨1, _⟩ => exact Fin.ext (show row + 1 * (x 1).val = row by omega)
  | ⟨2, _⟩ => exact Fin.ext (show lane + 1 * (x 2).val = lane + (x 2).val by omega)

/-- A store of sixteen lanes at offsets (j, row, lane) of the sums scratch writes lanes lane … lane + 15 of row `row` of slot `j`. -/
theorem embRow (off : Fin 3 → Nat) (inb : ∀ a, off a + S1x1x16.size a ≤ S2x8x128.size a)
    (j row lane : Nat) (hj : j < 2) (hrow : row < 8) (hlane : lane + 16 ≤ 128) (h : off = ![j, row, lane]) (x : S1x1x16.Idx) :
    (Rect.unit (s := S2x8x128) off S1x1x16.size inb).emb x
      = ix3 (⟨j, hj⟩ : Fin 2) (⟨row, hrow⟩ : Fin 8) (⟨lane + (x 2).val, by have : (x 2).val < 16 := (x 2).isLt; omega⟩ : Fin 128) := by
  subst h
  have h0 : (x 0).val = 0 := by have : (x 0).val < 1 := (x 0).isLt; omega
  have h1 : (x 1).val = 0 := by have : (x 1).val < 1 := (x 1).isLt; omega
  funext a
  match a with
  | ⟨0, _⟩ => exact Fin.ext (show j + 1 * (x 0).val = j by omega)
  | ⟨1, _⟩ => exact Fin.ext (show row + 1 * (x 1).val = row by omega)
  | ⟨2, _⟩ => exact Fin.ext (show lane + 1 * (x 2).val = lane + (x 2).val by omega)

/-- Lane `l` of row `p` of slot `a` lies under the store at offsets (j, row, lane) when a = j, p = row and lane ≤ l < lane + 16; -/
theorem memRow (off : Fin 3 → Nat) (inb : ∀ a, off a + S1x1x16.size a ≤ S2x8x128.size a) (j row lane : Nat) (h : off = ![j, row, lane])
    (a : Fin 2) (p : Fin 8) (l : Fin 128) (ha : a.val = j) (hp : p.val = row) (hl : lane ≤ l.val ∧ l.val < lane + 16) :
    (ix3 a p l : S2x8x128.Idx) ∈ (Rect.unit (s := S2x8x128) off S1x1x16.size inb).set := by
  subst h
  rw [Rect.mem_set_unit]
  intro b
  match b with
  | ⟨0, _⟩ => exact ⟨show j ≤ a.val by omega, show a.val < j + 1 by omega⟩
  | ⟨1, _⟩ => exact ⟨show row ≤ p.val by omega, show p.val < row + 1 by omega⟩
  | ⟨2, _⟩ => exact ⟨show lane ≤ l.val by omega, show l.val < lane + 16 by omega⟩

/-- and it does not when p is another row. -/
theorem notMemRow (off : Fin 3 → Nat) (inb : ∀ a, off a + S1x1x16.size a ≤ S2x8x128.size a) (j row lane : Nat) (h : off = ![j, row, lane])
    (a : Fin 2) (p : Fin 8) (l : Fin 128) (hp : p.val ≠ row) :
    (ix3 a p l : S2x8x128.Idx) ∉ (Rect.unit (s := S2x8x128) off S1x1x16.size inb).set := by
  subst h
  rw [Rect.mem_set_unit]
  intro hm
  have h1 := hm ⟨1, by decide⟩
  have h1' : row ≤ p.val ∧ p.val < row + 1 := h1
  omega

end Cert.KI
end
-- ==== Proof.ReduceVal0.lean ====
/-
  The reduction loop of slot 0, the arithmetic of one trip.

  Each of the eight chunks of a trip stores, lane by lane, the left-to-right sum of the sixteen vectors it loaded
  (the additions and the casts between sixteen lanes and a 1 x 1 x 16 block are pointwise), and those vectors are
  sixteen consecutive rows of slot 0 of the rows scratch at the chunk's lanes. So after the trip's eight stores row k
  of slot 0 of the sums scratch holds its sums, and the rows below k are as they were.
-/
import proofs.«208587_g27212912787602_cont_9to1_1073_18_alg».proof.Proof.Pay
import proofs.«208587_g27212912787602_cont_9to1_1073_18_alg».proof.Proof.ReduceLib
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]
variable (d : Dev nD) (L : grid0.Coords)
/- The vector subcore at grid point `L` of device `d`. -/
local notation "thrL" => (V d ((L 0).castLE hcore0) ((L 1).castLE hsub0) : Thread nD τ)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)
local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)

/-- Chunk 0 of slot 0: the stored vector, lane by lane, is the left-to-right sum of the sixteen loaded vectors. -/
theorem pay0_0 (v0 v1 v2 v3 v4 v5 v6 v7 v8 v9 v10 v11 v12 v13 v14 v15 : Vec F S1x1x16 .f32) (x : S1x1x16.Idx) :
    (k0_pay4 (k0_pay3 (k0_pay2 (k0_pay1 v0 v1 v2 v3 v4) v5 v6 v7 v8 v9 v10) v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay4, k0_pay3, k0_pay2, k0_pay1, shapeCast, addf, Shape.reshapeEquiv_reshapeEquiv, Shape.reshapeEquiv_self]

/-- What chunk 0 of a trip of slot 0 stores: the sum of the sixteen vectors it loads. -/
def pc0_0 (R : Buf (Elt F) ((s2W).view.loc thrL)) (k : Fin k0_t2_loop.trips) : FVec F S1x1x16 .f32 :=
  (k0_pay4 (k0_pay3 (k0_pay2 (k0_pay1 (rdAt d L R (k0_off8 k) (k0_off8_inb k)) (rdAt d L R (k0_off9 k 1#32) (k0_off9_inb k ⟨0, by decide⟩)) (rdAt d L R (k0_off9 k 2#32) (k0_off9_inb k ⟨1, by decide⟩)) (rdAt d L R (k0_off9 k 3#32) (k0_off9_inb k ⟨2, by decide⟩)) (rdAt d L R (k0_off9 k 4#32) (k0_off9_inb k ⟨3, by decide⟩))) (rdAt d L R (k0_off9 k 5#32) (k0_off9_inb k ⟨4, by decide⟩)) (rdAt d L R (k0_off9 k 6#32) (k0_off9_inb k ⟨5, by decide⟩)) (rdAt d L R (k0_off9 k 7#32) (k0_off9_inb k ⟨6, by decide⟩)) (rdAt d L R (k0_off9 k 8#32) (k0_off9_inb k ⟨7, by decide⟩)) (rdAt d L R (k0_off9 k 9#32) (k0_off9_inb k ⟨8, by decide⟩)) (rdAt d L R (k0_off9 k 10#32) (k0_off9_inb k ⟨9, by decide⟩))) (rdAt d L R (k0_off9 k 11#32) (k0_off9_inb k ⟨10, by decide⟩)) (rdAt d L R (k0_off9 k 12#32) (k0_off9_inb k ⟨11, by decide⟩)) (rdAt d L R (k0_off9 k 13#32) (k0_off9_inb k ⟨12, by decide⟩)) (rdAt d L R (k0_off9 k 14#32) (k0_off9_inb k ⟨13, by decide⟩)) (rdAt d L R (k0_off9 k 15#32) (k0_off9_inb k ⟨14, by decide⟩))))

/-- Chunk 0 of trip k of slot 0 stores, at lanes 0 … 15 of row k, the sums that row is to hold. -/
theorem chunk0_0 (R : Buf (Elt F) ((s2W).view.loc thrL)) (k : Fin k0_t2_loop.trips) (x : S1x1x16.Idx) :
    pc0_0 d L R k x
      = sumRow d L 0 R ((Rect.unit (s := S2x8x128) (k0_off10 k) S1x1x16.size (k0_off10_inb k)).emb x) := by
  have hk : k.val < 8 := lt_of_lt_of_le k.isLt k0_t2_abs.2.1
  unfold pc0_0
  rw [pay0_0]
  rw [rdRow d L R _ _ 0 (16 * k.val) 0 (by omega) (by omega) (by omega) (show k0_off8 k = ![0, 16 * k.val, 0] from k0_off8_eq k) x,
    rdRow d L R _ _ 0 (16 * k.val + 1) 0 (by omega) (by omega) (by omega) (show k0_off9 k 1#32 = ![0, 16 * k.val + 1, 0] from k0_off9_eq k ⟨0, by decide⟩) x,
    rdRow d L R _ _ 0 (16 * k.val + 2) 0 (by omega) (by omega) (by omega) (show k0_off9 k 2#32 = ![0, 16 * k.val + 2, 0] from k0_off9_eq k ⟨1, by decide⟩) x,
    rdRow d L R _ _ 0 (16 * k.val + 3) 0 (by omega) (by omega) (by omega) (show k0_off9 k 3#32 = ![0, 16 * k.val + 3, 0] from k0_off9_eq k ⟨2, by decide⟩) x,
    rdRow d L R _ _ 0 (16 * k.val + 4) 0 (by omega) (by omega) (by omega) (show k0_off9 k 4#32 = ![0, 16 * k.val + 4, 0] from k0_off9_eq k ⟨3, by decide⟩) x,
    rdRow d L R _ _ 0 (16 * k.val + 5) 0 (by omega) (by omega) (by omega) (show k0_off9 k 5#32 = ![0, 16 * k.val + 5, 0] from k0_off9_eq k ⟨4, by decide⟩) x,
    rdRow d L R _ _ 0 (16 * k.val + 6) 0 (by omega) (by omega) (by omega) (show k0_off9 k 6#32 = ![0, 16 * k.val + 6, 0] from k0_off9_eq k ⟨5, by decide⟩) x,
    rdRow d L R _ _ 0 (16 * k.val + 7) 0 (by omega) (by omega) (by omega) (show k0_off9 k 7#32 = ![0, 16 * k.val + 7, 0] from k0_off9_eq k ⟨6, by decide⟩) x,
    rdRow d L R _ _ 0 (16 * k.val + 8) 0 (by omega) (by omega) (by omega) (show k0_off9 k 8#32 = ![0, 16 * k.val + 8, 0] from k0_off9_eq k ⟨7, by decide⟩) x,
    rdRow d L R _ _ 0 (16 * k.val + 9) 0 (by omega) (by omega) (by omega) (show k0_off9 k 9#32 = ![0, 16 * k.val + 9, 0] from k0_off9_eq k ⟨8, by decide⟩) x,
    rdRow d L R _ _ 0 (16 * k.val + 10) 0 (by omega) (by omega) (by omega) (show k0_off9 k 10#32 = ![0, 16 * k.val + 10, 0] from k0_off9_eq k ⟨9, by decide⟩) x,
    rdRow d L R _ _ 0 (16 * k.val + 11) 0 (by omega) (by omega) (by omega) (show k0_off9 k 11#32 = ![0, 16 * k.val + 11, 0] from k0_off9_eq k ⟨10, by decide⟩) x,
    rdRow d L R _ _ 0 (16 * k.val + 12) 0 (by omega) (by omega) (by omega) (show k0_off9 k 12#32 = ![0, 16 * k.val + 12, 0] from k0_off9_eq k ⟨11, by decide⟩) x,
    rdRow d L R _ _ 0 (16 * k.val + 13) 0 (by omega) (by omega) (by omega) (show k0_off9 k 13#32 = ![0, 16 * k.val + 13, 0] from k0_off9_eq k ⟨12, by decide⟩) x,
    rdRow d L R _ _ 0 (16 * k.val + 14) 0 (by omega) (by omega) (by omega) (show k0_off9 k 14#32 = ![0, 16 * k.val + 14, 0] from k0_off9_eq k ⟨13, by decide⟩) x,
    rdRow d L R _ _ 0 (16 * k.val + 15) 0 (by omega) (by omega) (by omega) (show k0_off9 k 15#32 = ![0, 16 * k.val + 15, 0] from k0_off9_eq k ⟨14, by decide⟩) x]
  rw [embRow _ _ 0 k.val 0 (by omega) (by omega) (by omega) (show k0_off10 k = ![0, k.val, 0] from k0_off10_eq k) x]
  rfl

/-- Chunk 1 of slot 0: the stored vector, lane by lane, is the left-to-right sum of the sixteen loaded vectors. -/
theorem pay0_1 (v0 v1 v2 v3 v4 v5 v6 v7 v8 v9 v10 v11 v12 v13 v14 v15 : Vec F S1x1x16 .f32) (x : S1x1x16.Idx) :
    (k0_pay8 (k0_pay7 (k0_pay6 (k0_pay5 v0 v1 v2 v3 v4) v5 v6 v7 v8 v9 v10) v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay8, k0_pay7, k0_pay6, k0_pay5, shapeCast, addf, Shape.reshapeEquiv_reshapeEquiv, Shape.reshapeEquiv_self]

/-- What chunk 1 of a trip of slot 0 stores: the sum of the sixteen vectors it loads. -/
def pc0_1 (R : Buf (Elt F) ((s2W).view.loc thrL)) (k : Fin k0_t2_loop.trips) : FVec F S1x1x16 .f32 :=
  (k0_pay8 (k0_pay7 (k0_pay6 (k0_pay5 (rdAt d L R (k0_off11 k) (k0_off11_inb k)) (rdAt d L R (k0_off12 k 1#32) (k0_off12_inb k ⟨0, by decide⟩)) (rdAt d L R (k0_off12 k 2#32) (k0_off12_inb k ⟨1, by decide⟩)) (rdAt d L R (k0_off12 k 3#32) (k0_off12_inb k ⟨2, by decide⟩)) (rdAt d L R (k0_off12 k 4#32) (k0_off12_inb k ⟨3, by decide⟩))) (rdAt d L R (k0_off12 k 5#32) (k0_off12_inb k ⟨4, by decide⟩)) (rdAt d L R (k0_off12 k 6#32) (k0_off12_inb k ⟨5, by decide⟩)) (rdAt d L R (k0_off12 k 7#32) (k0_off12_inb k ⟨6, by decide⟩)) (rdAt d L R (k0_off12 k 8#32) (k0_off12_inb k ⟨7, by decide⟩)) (rdAt d L R (k0_off12 k 9#32) (k0_off12_inb k ⟨8, by decide⟩)) (rdAt d L R (k0_off12 k 10#32) (k0_off12_inb k ⟨9, by decide⟩))) (rdAt d L R (k0_off12 k 11#32) (k0_off12_inb k ⟨10, by decide⟩)) (rdAt d L R (k0_off12 k 12#32) (k0_off12_inb k ⟨11, by decide⟩)) (rdAt d L R (k0_off12 k 13#32) (k0_off12_inb k ⟨12, by decide⟩)) (rdAt d L R (k0_off12 k 14#32) (k0_off12_inb k ⟨13, by decide⟩)) (rdAt d L R (k0_off12 k 15#32) (k0_off12_inb k ⟨14, by decide⟩))))

/-- Chunk 1 of trip k of slot 0 stores, at lanes 16 … 31 of row k, the sums that row is to hold. -/
theorem chunk0_1 (R : Buf (Elt F) ((s2W).view.loc thrL)) (k : Fin k0_t2_loop.trips) (x : S1x1x16.Idx) :
    pc0_1 d L R k x
      = sumRow d L 0 R ((Rect.unit (s := S2x8x128) (k0_off13 k) S1x1x16.size (k0_off13_inb k)).emb x) := by
  have hk : k.val < 8 := lt_of_lt_of_le k.isLt k0_t2_abs.2.1
  unfold pc0_1
  rw [pay0_1]
  rw [rdRow d L R _ _ 0 (16 * k.val) 16 (by omega) (by omega) (by omega) (show k0_off11 k = ![0, 16 * k.val, 16] from k0_off11_eq k) x,
    rdRow d L R _ _ 0 (16 * k.val + 1) 16 (by omega) (by omega) (by omega) (show k0_off12 k 1#32 = ![0, 16 * k.val + 1, 16] from k0_off12_eq k ⟨0, by decide⟩) x,
    rdRow d L R _ _ 0 (16 * k.val + 2) 16 (by omega) (by omega) (by omega) (show k0_off12 k 2#32 = ![0, 16 * k.val + 2, 16] from k0_off12_eq k ⟨1, by decide⟩) x,
    rdRow d L R _ _ 0 (16 * k.val + 3) 16 (by omega) (by omega) (by omega) (show k0_off12 k 3#32 = ![0, 16 * k.val + 3, 16] from k0_off12_eq k ⟨2, by decide⟩) x,
    rdRow d L R _ _ 0 (16 * k.val + 4) 16 (by omega) (by omega) (by omega) (show k0_off12 k 4#32 = ![0, 16 * k.val + 4, 16] from k0_off12_eq k ⟨3, by decide⟩) x,
    rdRow d L R _ _ 0 (16 * k.val + 5) 16 (by omega) (by omega) (by omega) (show k0_off12 k 5#32 = ![0, 16 * k.val + 5, 16] from k0_off12_eq k ⟨4, by decide⟩) x,
    rdRow d L R _ _ 0 (16 * k.val + 6) 16 (by omega) (by omega) (by omega) (show k0_off12 k 6#32 = ![0, 16 * k.val + 6, 16] from k0_off12_eq k ⟨5, by decide⟩) x,
    rdRow d L R _ _ 0 (16 * k.val + 7) 16 (by omega) (by omega) (by omega) (show k0_off12 k 7#32 = ![0, 16 * k.val + 7, 16] from k0_off12_eq k ⟨6, by decide⟩) x,
    rdRow d L R _ _ 0 (16 * k.val + 8) 16 (by omega) (by omega) (by omega) (show k0_off12 k 8#32 = ![0, 16 * k.val + 8, 16] from k0_off12_eq k ⟨7, by decide⟩) x,
    rdRow d L R _ _ 0 (16 * k.val + 9) 16 (by omega) (by omega) (by omega) (show k0_off12 k 9#32 = ![0, 16 * k.val + 9, 16] from k0_off12_eq k ⟨8, by decide⟩) x,
    rdRow d L R _ _ 0 (16 * k.val + 10) 16 (by omega) (by omega) (by omega) (show k0_off12 k 10#32 = ![0, 16 * k.val + 10, 16] from k0_off12_eq k ⟨9, by decide⟩) x,
    rdRow d L R _ _ 0 (16 * k.val + 11) 16 (by omega) (by omega) (by omega) (show k0_off12 k 11#32 = ![0, 16 * k.val + 11, 16] from k0_off12_eq k ⟨10, by decide⟩) x,
    rdRow d L R _ _ 0 (16 * k.val + 12) 16 (by omega) (by omega) (by omega) (show k0_off12 k 12#32 = ![0, 16 * k.val + 12, 16] from k0_off12_eq k ⟨11, by decide⟩) x,
    rdRow d L R _ _ 0 (16 * k.val + 13) 16 (by omega) (by omega) (by omega) (show k0_off12 k 13#32 = ![0, 16 * k.val + 13, 16] from k0_off12_eq k ⟨12, by decide⟩) x,
    rdRow d L R _ _ 0 (16 * k.val + 14) 16 (by omega) (by omega) (by omega) (show k0_off12 k 14#32 = ![0, 16 * k.val + 14, 16] from k0_off12_eq k ⟨13, by decide⟩) x,
    rdRow d L R _ _ 0 (16 * k.val + 15) 16 (by omega) (by omega) (by omega) (show k0_off12 k 15#32 = ![0, 16 * k.val + 15, 16] from k0_off12_eq k ⟨14, by decide⟩) x]
  rw [embRow _ _ 0 k.val 16 (by omega) (by omega) (by omega) (show k0_off13 k = ![0, k.val, 16] from k0_off13_eq k) x]
  rfl

/-- Chunk 2 of slot 0: the stored vector, lane by lane, is the left-to-right sum of the sixteen loaded vectors. -/
theorem pay0_2 (v0 v1 v2 v3 v4 v5 v6 v7 v8 v9 v10 v11 v12 v13 v14 v15 : Vec F S1x1x16 .f32) (x : S1x1x16.Idx) :
    (k0_pay13 (k0_pay12 (k0_pay10 (k0_pay9 v0 v1 v2 v3 v4) v5 v6 v7 v8 v9) (k0_pay11 v10) v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay13, k0_pay12, k0_pay10, k0_pay9, k0_pay11, shapeCast, addf, Shape.reshapeEquiv_reshapeEquiv, Shape.reshapeEquiv_self]

/-- What chunk 2 of a trip of slot 0 stores: the sum of the sixteen vectors it loads. -/
def pc0_2 (R : Buf (Elt F) ((s2W).view.loc thrL)) (k : Fin k0_t2_loop.trips) : FVec F S1x1x16 .f32 :=
  (k0_pay13 (k0_pay12 (k0_pay10 (k0_pay9 (rdAt d L R (k0_off14 k) (k0_off14_inb k)) (rdAt d L R (k0_off15 k 1#32) (k0_off15_inb k ⟨0, by decide⟩)) (rdAt d L R (k0_off15 k 2#32) (k0_off15_inb k ⟨1, by decide⟩)) (rdAt d L R (k0_off15 k 3#32) (k0_off15_inb k ⟨2, by decide⟩)) (rdAt d L R (k0_off15 k 4#32) (k0_off15_inb k ⟨3, by decide⟩))) (rdAt d L R (k0_off15 k 5#32) (k0_off15_inb k ⟨4, by decide⟩)) (rdAt d L R (k0_off15 k 6#32) (k0_off15_inb k ⟨5, by decide⟩)) (rdAt d L R (k0_off15 k 7#32) (k0_off15_inb k ⟨6, by decide⟩)) (rdAt d L R (k0_off15 k 8#32) (k0_off15_inb k ⟨7, by decide⟩)) (rdAt d L R (k0_off15 k 9#32) (k0_off15_inb k ⟨8, by decide⟩))) (k0_pay11 (rdAt d L R (k0_off15 k 10#32) (k0_off15_inb k ⟨9, by decide⟩))) (rdAt d L R (k0_off15 k 11#32) (k0_off15_inb k ⟨10, by decide⟩)) (rdAt d L R (k0_off15 k 12#32) (k0_off15_inb k ⟨11, by decide⟩)) (rdAt d L R (k0_off15 k 13#32) (k0_off15_inb k ⟨12, by decide⟩)) (rdAt d L R (k0_off15 k 14#32) (k0_off15_inb k ⟨13, by decide⟩)) (rdAt d L R (k0_off15 k 15#32) (k0_off15_inb k ⟨14, by decide⟩))))

/-- Chunk 2 of trip k of slot 0 stores, at lanes 32 … 47 of row k, the sums that row is to hold. -/
theorem chunk0_2 (R : Buf (Elt F) ((s2W).view.loc thrL)) (k : Fin k0_t2_loop.trips) (x : S1x1x16.Idx) :
    pc0_2 d L R k x
      = sumRow d L 0 R ((Rect.unit (s := S2x8x128) (k0_off16 k) S1x1x16.size (k0_off16_inb k)).emb x) := by
  have hk : k.val < 8 := lt_of_lt_of_le k.isLt k0_t2_abs.2.1
  unfold pc0_2
  rw [pay0_2]
  rw [rdRow d L R _ _ 0 (16 * k.val) 32 (by omega) (by omega) (by omega) (show k0_off14 k = ![0, 16 * k.val, 32] from k0_off14_eq k) x,
    rdRow d L R _ _ 0 (16 * k.val + 1) 32 (by omega) (by omega) (by omega) (show k0_off15 k 1#32 = ![0, 16 * k.val + 1, 32] from k0_off15_eq k ⟨0, by decide⟩) x,
    rdRow d L R _ _ 0 (16 * k.val + 2) 32 (by omega) (by omega) (by omega) (show k0_off15 k 2#32 = ![0, 16 * k.val + 2, 32] from k0_off15_eq k ⟨1, by decide⟩) x,
    rdRow d L R _ _ 0 (16 * k.val + 3) 32 (by omega) (by omega) (by omega) (show k0_off15 k 3#32 = ![0, 16 * k.val + 3, 32] from k0_off15_eq k ⟨2, by decide⟩) x,
    rdRow d L R _ _ 0 (16 * k.val + 4) 32 (by omega) (by omega) (by omega) (show k0_off15 k 4#32 = ![0, 16 * k.val + 4, 32] from k0_off15_eq k ⟨3, by decide⟩) x,
    rdRow d L R _ _ 0 (16 * k.val + 5) 32 (by omega) (by omega) (by omega) (show k0_off15 k 5#32 = ![0, 16 * k.val + 5, 32] from k0_off15_eq k ⟨4, by decide⟩) x,
    rdRow d L R _ _ 0 (16 * k.val + 6) 32 (by omega) (by omega) (by omega) (show k0_off15 k 6#32 = ![0, 16 * k.val + 6, 32] from k0_off15_eq k ⟨5, by decide⟩) x,
    rdRow d L R _ _ 0 (16 * k.val + 7) 32 (by omega) (by omega) (by omega) (show k0_off15 k 7#32 = ![0, 16 * k.val + 7, 32] from k0_off15_eq k ⟨6, by decide⟩) x,
    rdRow d L R _ _ 0 (16 * k.val + 8) 32 (by omega) (by omega) (by omega) (show k0_off15 k 8#32 = ![0, 16 * k.val + 8, 32] from k0_off15_eq k ⟨7, by decide⟩) x,
    rdRow d L R _ _ 0 (16 * k.val + 9) 32 (by omega) (by omega) (by omega) (show k0_off15 k 9#32 = ![0, 16 * k.val + 9, 32] from k0_off15_eq k ⟨8, by decide⟩) x,
    rdRow d L R _ _ 0 (16 * k.val + 10) 32 (by omega) (by omega) (by omega) (show k0_off15 k 10#32 = ![0, 16 * k.val + 10, 32] from k0_off15_eq k ⟨9, by decide⟩) x,
    rdRow d L R _ _ 0 (16 * k.val + 11) 32 (by omega) (by omega) (by omega) (show k0_off15 k 11#32 = ![0, 16 * k.val + 11, 32] from k0_off15_eq k ⟨10, by decide⟩) x,
    rdRow d L R _ _ 0 (16 * k.val + 12) 32 (by omega) (by omega) (by omega) (show k0_off15 k 12#32 = ![0, 16 * k.val + 12, 32] from k0_off15_eq k ⟨11, by decide⟩) x,
    rdRow d L R _ _ 0 (16 * k.val + 13) 32 (by omega) (by omega) (by omega) (show k0_off15 k 13#32 = ![0, 16 * k.val + 13, 32] from k0_off15_eq k ⟨12, by decide⟩) x,
    rdRow d L R _ _ 0 (16 * k.val + 14) 32 (by omega) (by omega) (by omega) (show k0_off15 k 14#32 = ![0, 16 * k.val + 14, 32] from k0_off15_eq k ⟨13, by decide⟩) x,
    rdRow d L R _ _ 0 (16 * k.val + 15) 32 (by omega) (by omega) (by omega) (show k0_off15 k 15#32 = ![0, 16 * k.val + 15, 32] from k0_off15_eq k ⟨14, by decide⟩) x]
  rw [embRow _ _ 0 k.val 32 (by omega) (by omega) (by omega) (show k0_off16 k = ![0, k.val, 32] from k0_off16_eq k) x]
  rfl

/-- Chunk 3 of slot 0: the stored vector, lane by lane, is the left-to-right sum of the sixteen loaded vectors. -/
theorem pay0_3 (v0 v1 v2 v3 v4 v5 v6 v7 v8 v9 v10 v11 v12 v13 v14 v15 : Vec F S1x1x16 .f32) (x : S1x1x16.Idx) :
    (k0_pay17 (k0_pay16 (k0_pay15 (k0_pay14 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay17, k0_pay16, k0_pay15, k0_pay14, shapeCast, addf, Shape.reshapeEquiv_reshapeEquiv, Shape.reshapeEquiv_self]

/-- What chunk 3 of a trip of slot 0 stores: the sum of the sixteen vectors it loads. -/
def pc0_3 (R : Buf (Elt F) ((s2W).view.loc thrL)) (k : Fin k0_t2_loop.trips) : FVec F S1x1x16 .f32 :=
  (k0_pay17 (k0_pay16 (k0_pay15 (k0_pay14 (rdAt d L R (k0_off17 k) (k0_off17_inb k)) (rdAt d L R (k0_off18 k 1#32) (k0_off18_inb k ⟨0, by decide⟩)) (rdAt d L R (k0_off18 k 2#32) (k0_off18_inb k ⟨1, by decide⟩)) (rdAt d L R (k0_off18 k 3#32) (k0_off18_inb k ⟨2, by decide⟩)) (rdAt d L R (k0_off18 k 4#32) (k0_off18_inb k ⟨3, by decide⟩))) (rdAt d L R (k0_off18 k 5#32) (k0_off18_inb k ⟨4, by decide⟩)) (rdAt d L R (k0_off18 k 6#32) (k0_off18_inb k ⟨5, by decide⟩)) (rdAt d L R (k0_off18 k 7#32) (k0_off18_inb k ⟨6, by decide⟩)) (rdAt d L R (k0_off18 k 8#32) (k0_off18_inb k ⟨7, by decide⟩)) (rdAt d L R (k0_off18 k 9#32) (k0_off18_inb k ⟨8, by decide⟩))) (rdAt d L R (k0_off18 k 10#32) (k0_off18_inb k ⟨9, by decide⟩)) (rdAt d L R (k0_off18 k 11#32) (k0_off18_inb k ⟨10, by decide⟩)) (rdAt d L R (k0_off18 k 12#32) (k0_off18_inb k ⟨11, by decide⟩)) (rdAt d L R (k0_off18 k 13#32) (k0_off18_inb k ⟨12, by decide⟩)) (rdAt d L R (k0_off18 k 14#32) (k0_off18_inb k ⟨13, by decide⟩)) (rdAt d L R (k0_off18 k 15#32) (k0_off18_inb k ⟨14, by decide⟩))))

/-- Chunk 3 of trip k of slot 0 stores, at lanes 48 … 63 of row k, the sums that row is to hold. -/
theorem chunk0_3 (R : Buf (Elt F) ((s2W).view.loc thrL)) (k : Fin k0_t2_loop.trips) (x : S1x1x16.Idx) :
    pc0_3 d L R k x
      = sumRow d L 0 R ((Rect.unit (s := S2x8x128) (k0_off19 k) S1x1x16.size (k0_off19_inb k)).emb x) := by
  have hk : k.val < 8 := lt_of_lt_of_le k.isLt k0_t2_abs.2.1
  unfold pc0_3
  rw [pay0_3]
  rw [rdRow d L R _ _ 0 (16 * k.val) 48 (by omega) (by omega) (by omega) (show k0_off17 k = ![0, 16 * k.val, 48] from k0_off17_eq k) x,
    rdRow d L R _ _ 0 (16 * k.val + 1) 48 (by omega) (by omega) (by omega) (show k0_off18 k 1#32 = ![0, 16 * k.val + 1, 48] from k0_off18_eq k ⟨0, by decide⟩) x,
    rdRow d L R _ _ 0 (16 * k.val + 2) 48 (by omega) (by omega) (by omega) (show k0_off18 k 2#32 = ![0, 16 * k.val + 2, 48] from k0_off18_eq k ⟨1, by decide⟩) x,
    rdRow d L R _ _ 0 (16 * k.val + 3) 48 (by omega) (by omega) (by omega) (show k0_off18 k 3#32 = ![0, 16 * k.val + 3, 48] from k0_off18_eq k ⟨2, by decide⟩) x,
    rdRow d L R _ _ 0 (16 * k.val + 4) 48 (by omega) (by omega) (by omega) (show k0_off18 k 4#32 = ![0, 16 * k.val + 4, 48] from k0_off18_eq k ⟨3, by decide⟩) x,
    rdRow d L R _ _ 0 (16 * k.val + 5) 48 (by omega) (by omega) (by omega) (show k0_off18 k 5#32 = ![0, 16 * k.val + 5, 48] from k0_off18_eq k ⟨4, by decide⟩) x,
    rdRow d L R _ _ 0 (16 * k.val + 6) 48 (by omega) (by omega) (by omega) (show k0_off18 k 6#32 = ![0, 16 * k.val + 6, 48] from k0_off18_eq k ⟨5, by decide⟩) x,
    rdRow d L R _ _ 0 (16 * k.val + 7) 48 (by omega) (by omega) (by omega) (show k0_off18 k 7#32 = ![0, 16 * k.val + 7, 48] from k0_off18_eq k ⟨6, by decide⟩) x,
    rdRow d L R _ _ 0 (16 * k.val + 8) 48 (by omega) (by omega) (by omega) (show k0_off18 k 8#32 = ![0, 16 * k.val + 8, 48] from k0_off18_eq k ⟨7, by decide⟩) x,
    rdRow d L R _ _ 0 (16 * k.val + 9) 48 (by omega) (by omega) (by omega) (show k0_off18 k 9#32 = ![0, 16 * k.val + 9, 48] from k0_off18_eq k ⟨8, by decide⟩) x,
    rdRow d L R _ _ 0 (16 * k.val + 10) 48 (by omega) (by omega) (by omega) (show k0_off18 k 10#32 = ![0, 16 * k.val + 10, 48] from k0_off18_eq k ⟨9, by decide⟩) x,
    rdRow d L R _ _ 0 (16 * k.val + 11) 48 (by omega) (by omega) (by omega) (show k0_off18 k 11#32 = ![0, 16 * k.val + 11, 48] from k0_off18_eq k ⟨10, by decide⟩) x,
    rdRow d L R _ _ 0 (16 * k.val + 12) 48 (by omega) (by omega) (by omega) (show k0_off18 k 12#32 = ![0, 16 * k.val + 12, 48] from k0_off18_eq k ⟨11, by decide⟩) x,
    rdRow d L R _ _ 0 (16 * k.val + 13) 48 (by omega) (by omega) (by omega) (show k0_off18 k 13#32 = ![0, 16 * k.val + 13, 48] from k0_off18_eq k ⟨12, by decide⟩) x,
    rdRow d L R _ _ 0 (16 * k.val + 14) 48 (by omega) (by omega) (by omega) (show k0_off18 k 14#32 = ![0, 16 * k.val + 14, 48] from k0_off18_eq k ⟨13, by decide⟩) x,
    rdRow d L R _ _ 0 (16 * k.val + 15) 48 (by omega) (by omega) (by omega) (show k0_off18 k 15#32 = ![0, 16 * k.val + 15, 48] from k0_off18_eq k ⟨14, by decide⟩) x]
  rw [embRow _ _ 0 k.val 48 (by omega) (by omega) (by omega) (show k0_off19 k = ![0, k.val, 48] from k0_off19_eq k) x]
  rfl

/-- Chunk 4 of slot 0: the stored vector, lane by lane, is the left-to-right sum of the sixteen loaded vectors. -/
theorem pay0_4 (v0 v1 v2 v3 v4 v5 v6 v7 v8 v9 v10 v11 v12 v13 v14 v15 : Vec F S1x1x16 .f32) (x : S1x1x16.Idx) :
    (k0_pay21 (k0_pay20 (k0_pay19 (k0_pay18 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay21, k0_pay20, k0_pay19, k0_pay18, shapeCast, addf, Shape.reshapeEquiv_reshapeEquiv, Shape.reshapeEquiv_self]

/-- What chunk 4 of a trip of slot 0 stores: the sum of the sixteen vectors it loads. -/
def pc0_4 (R : Buf (Elt F) ((s2W).view.loc thrL)) (k : Fin k0_t2_loop.trips) : FVec F S1x1x16 .f32 :=
  (k0_pay21 (k0_pay20 (k0_pay19 (k0_pay18 (rdAt d L R (k0_off20 k) (k0_off20_inb k)) (rdAt d L R (k0_off21 k 1#32) (k0_off21_inb k ⟨0, by decide⟩)) (rdAt d L R (k0_off21 k 2#32) (k0_off21_inb k ⟨1, by decide⟩)) (rdAt d L R (k0_off21 k 3#32) (k0_off21_inb k ⟨2, by decide⟩)) (rdAt d L R (k0_off21 k 4#32) (k0_off21_inb k ⟨3, by decide⟩))) (rdAt d L R (k0_off21 k 5#32) (k0_off21_inb k ⟨4, by decide⟩)) (rdAt d L R (k0_off21 k 6#32) (k0_off21_inb k ⟨5, by decide⟩)) (rdAt d L R (k0_off21 k 7#32) (k0_off21_inb k ⟨6, by decide⟩)) (rdAt d L R (k0_off21 k 8#32) (k0_off21_inb k ⟨7, by decide⟩)) (rdAt d L R (k0_off21 k 9#32) (k0_off21_inb k ⟨8, by decide⟩))) (rdAt d L R (k0_off21 k 10#32) (k0_off21_inb k ⟨9, by decide⟩)) (rdAt d L R (k0_off21 k 11#32) (k0_off21_inb k ⟨10, by decide⟩)) (rdAt d L R (k0_off21 k 12#32) (k0_off21_inb k ⟨11, by decide⟩)) (rdAt d L R (k0_off21 k 13#32) (k0_off21_inb k ⟨12, by decide⟩)) (rdAt d L R (k0_off21 k 14#32) (k0_off21_inb k ⟨13, by decide⟩)) (rdAt d L R (k0_off21 k 15#32) (k0_off21_inb k ⟨14, by decide⟩))))

/-- Chunk 4 of trip k of slot 0 stores, at lanes 64 … 79 of row k, the sums that row is to hold. -/
theorem chunk0_4 (R : Buf (Elt F) ((s2W).view.loc thrL)) (k : Fin k0_t2_loop.trips) (x : S1x1x16.Idx) :
    pc0_4 d L R k x
      = sumRow d L 0 R ((Rect.unit (s := S2x8x128) (k0_off22 k) S1x1x16.size (k0_off22_inb k)).emb x) := by
  have hk : k.val < 8 := lt_of_lt_of_le k.isLt k0_t2_abs.2.1
  unfold pc0_4
  rw [pay0_4]
  rw [rdRow d L R _ _ 0 (16 * k.val) 64 (by omega) (by omega) (by omega) (show k0_off20 k = ![0, 16 * k.val, 64] from k0_off20_eq k) x,
    rdRow d L R _ _ 0 (16 * k.val + 1) 64 (by omega) (by omega) (by omega) (show k0_off21 k 1#32 = ![0, 16 * k.val + 1, 64] from k0_off21_eq k ⟨0, by decide⟩) x,
    rdRow d L R _ _ 0 (16 * k.val + 2) 64 (by omega) (by omega) (by omega) (show k0_off21 k 2#32 = ![0, 16 * k.val + 2, 64] from k0_off21_eq k ⟨1, by decide⟩) x,
    rdRow d L R _ _ 0 (16 * k.val + 3) 64 (by omega) (by omega) (by omega) (show k0_off21 k 3#32 = ![0, 16 * k.val + 3, 64] from k0_off21_eq k ⟨2, by decide⟩) x,
    rdRow d L R _ _ 0 (16 * k.val + 4) 64 (by omega) (by omega) (by omega) (show k0_off21 k 4#32 = ![0, 16 * k.val + 4, 64] from k0_off21_eq k ⟨3, by decide⟩) x,
    rdRow d L R _ _ 0 (16 * k.val + 5) 64 (by omega) (by omega) (by omega) (show k0_off21 k 5#32 = ![0, 16 * k.val + 5, 64] from k0_off21_eq k ⟨4, by decide⟩) x,
    rdRow d L R _ _ 0 (16 * k.val + 6) 64 (by omega) (by omega) (by omega) (show k0_off21 k 6#32 = ![0, 16 * k.val + 6, 64] from k0_off21_eq k ⟨5, by decide⟩) x,
    rdRow d L R _ _ 0 (16 * k.val + 7) 64 (by omega) (by omega) (by omega) (show k0_off21 k 7#32 = ![0, 16 * k.val + 7, 64] from k0_off21_eq k ⟨6, by decide⟩) x,
    rdRow d L R _ _ 0 (16 * k.val + 8) 64 (by omega) (by omega) (by omega) (show k0_off21 k 8#32 = ![0, 16 * k.val + 8, 64] from k0_off21_eq k ⟨7, by decide⟩) x,
    rdRow d L R _ _ 0 (16 * k.val + 9) 64 (by omega) (by omega) (by omega) (show k0_off21 k 9#32 = ![0, 16 * k.val + 9, 64] from k0_off21_eq k ⟨8, by decide⟩) x,
    rdRow d L R _ _ 0 (16 * k.val + 10) 64 (by omega) (by omega) (by omega) (show k0_off21 k 10#32 = ![0, 16 * k.val + 10, 64] from k0_off21_eq k ⟨9, by decide⟩) x,
    rdRow d L R _ _ 0 (16 * k.val + 11) 64 (by omega) (by omega) (by omega) (show k0_off21 k 11#32 = ![0, 16 * k.val + 11, 64] from k0_off21_eq k ⟨10, by decide⟩) x,
    rdRow d L R _ _ 0 (16 * k.val + 12) 64 (by omega) (by omega) (by omega) (show k0_off21 k 12#32 = ![0, 16 * k.val + 12, 64] from k0_off21_eq k ⟨11, by decide⟩) x,
    rdRow d L R _ _ 0 (16 * k.val + 13) 64 (by omega) (by omega) (by omega) (show k0_off21 k 13#32 = ![0, 16 * k.val + 13, 64] from k0_off21_eq k ⟨12, by decide⟩) x,
    rdRow d L R _ _ 0 (16 * k.val + 14) 64 (by omega) (by omega) (by omega) (show k0_off21 k 14#32 = ![0, 16 * k.val + 14, 64] from k0_off21_eq k ⟨13, by decide⟩) x,
    rdRow d L R _ _ 0 (16 * k.val + 15) 64 (by omega) (by omega) (by omega) (show k0_off21 k 15#32 = ![0, 16 * k.val + 15, 64] from k0_off21_eq k ⟨14, by decide⟩) x]
  rw [embRow _ _ 0 k.val 64 (by omega) (by omega) (by omega) (show k0_off22 k = ![0, k.val, 64] from k0_off22_eq k) x]
  rfl

/-- Chunk 5 of slot 0: the stored vector, lane by lane, is the left-to-right sum of the sixteen loaded vectors. -/
theorem pay0_5 (v0 v1 v2 v3 v4 v5 v6 v7 v8 v9 v10 v11 v12 v13 v14 v15 : Vec F S1x1x16 .f32) (x : S1x1x16.Idx) :
    (k0_pay25 (k0_pay24 (k0_pay23 (k0_pay22 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay25, k0_pay24, k0_pay23, k0_pay22, shapeCast, addf, Shape.reshapeEquiv_reshapeEquiv, Shape.reshapeEquiv_self]

/-- What chunk 5 of a trip of slot 0 stores: the sum of the sixteen vectors it loads. -/
def pc0_5 (R : Buf (Elt F) ((s2W).view.loc thrL)) (k : Fin k0_t2_loop.trips) : FVec F S1x1x16 .f32 :=
  (k0_pay25 (k0_pay24 (k0_pay23 (k0_pay22 (rdAt d L R (k0_off23 k) (k0_off23_inb k)) (rdAt d L R (k0_off24 k 1#32) (k0_off24_inb k ⟨0, by decide⟩)) (rdAt d L R (k0_off24 k 2#32) (k0_off24_inb k ⟨1, by decide⟩)) (rdAt d L R (k0_off24 k 3#32) (k0_off24_inb k ⟨2, by decide⟩)) (rdAt d L R (k0_off24 k 4#32) (k0_off24_inb k ⟨3, by decide⟩))) (rdAt d L R (k0_off24 k 5#32) (k0_off24_inb k ⟨4, by decide⟩)) (rdAt d L R (k0_off24 k 6#32) (k0_off24_inb k ⟨5, by decide⟩)) (rdAt d L R (k0_off24 k 7#32) (k0_off24_inb k ⟨6, by decide⟩)) (rdAt d L R (k0_off24 k 8#32) (k0_off24_inb k ⟨7, by decide⟩)) (rdAt d L R (k0_off24 k 9#32) (k0_off24_inb k ⟨8, by decide⟩))) (rdAt d L R (k0_off24 k 10#32) (k0_off24_inb k ⟨9, by decide⟩)) (rdAt d L R (k0_off24 k 11#32) (k0_off24_inb k ⟨10, by decide⟩)) (rdAt d L R (k0_off24 k 12#32) (k0_off24_inb k ⟨11, by decide⟩)) (rdAt d L R (k0_off24 k 13#32) (k0_off24_inb k ⟨12, by decide⟩)) (rdAt d L R (k0_off24 k 14#32) (k0_off24_inb k ⟨13, by decide⟩)) (rdAt d L R (k0_off24 k 15#32) (k0_off24_inb k ⟨14, by decide⟩))))

/-- Chunk 5 of trip k of slot 0 stores, at lanes 80 … 95 of row k, the sums that row is to hold. -/
theorem chunk0_5 (R : Buf (Elt F) ((s2W).view.loc thrL)) (k : Fin k0_t2_loop.trips) (x : S1x1x16.Idx) :
    pc0_5 d L R k x
      = sumRow d L 0 R ((Rect.unit (s := S2x8x128) (k0_off25 k) S1x1x16.size (k0_off25_inb k)).emb x) := by
  have hk : k.val < 8 := lt_of_lt_of_le k.isLt k0_t2_abs.2.1
  unfold pc0_5
  rw [pay0_5]
  rw [rdRow d L R _ _ 0 (16 * k.val) 80 (by omega) (by omega) (by omega) (show k0_off23 k = ![0, 16 * k.val, 80] from k0_off23_eq k) x,
    rdRow d L R _ _ 0 (16 * k.val + 1) 80 (by omega) (by omega) (by omega) (show k0_off24 k 1#32 = ![0, 16 * k.val + 1, 80] from k0_off24_eq k ⟨0, by decide⟩) x,
    rdRow d L R _ _ 0 (16 * k.val + 2) 80 (by omega) (by omega) (by omega) (show k0_off24 k 2#32 = ![0, 16 * k.val + 2, 80] from k0_off24_eq k ⟨1, by decide⟩) x,
    rdRow d L R _ _ 0 (16 * k.val + 3) 80 (by omega) (by omega) (by omega) (show k0_off24 k 3#32 = ![0, 16 * k.val + 3, 80] from k0_off24_eq k ⟨2, by decide⟩) x,
    rdRow d L R _ _ 0 (16 * k.val + 4) 80 (by omega) (by omega) (by omega) (show k0_off24 k 4#32 = ![0, 16 * k.val + 4, 80] from k0_off24_eq k ⟨3, by decide⟩) x,
    rdRow d L R _ _ 0 (16 * k.val + 5) 80 (by omega) (by omega) (by omega) (show k0_off24 k 5#32 = ![0, 16 * k.val + 5, 80] from k0_off24_eq k ⟨4, by decide⟩) x,
    rdRow d L R _ _ 0 (16 * k.val + 6) 80 (by omega) (by omega) (by omega) (show k0_off24 k 6#32 = ![0, 16 * k.val + 6, 80] from k0_off24_eq k ⟨5, by decide⟩) x,
    rdRow d L R _ _ 0 (16 * k.val + 7) 80 (by omega) (by omega) (by omega) (show k0_off24 k 7#32 = ![0, 16 * k.val + 7, 80] from k0_off24_eq k ⟨6, by decide⟩) x,
    rdRow d L R _ _ 0 (16 * k.val + 8) 80 (by omega) (by omega) (by omega) (show k0_off24 k 8#32 = ![0, 16 * k.val + 8, 80] from k0_off24_eq k ⟨7, by decide⟩) x,
    rdRow d L R _ _ 0 (16 * k.val + 9) 80 (by omega) (by omega) (by omega) (show k0_off24 k 9#32 = ![0, 16 * k.val + 9, 80] from k0_off24_eq k ⟨8, by decide⟩) x,
    rdRow d L R _ _ 0 (16 * k.val + 10) 80 (by omega) (by omega) (by omega) (show k0_off24 k 10#32 = ![0, 16 * k.val + 10, 80] from k0_off24_eq k ⟨9, by decide⟩) x,
    rdRow d L R _ _ 0 (16 * k.val + 11) 80 (by omega) (by omega) (by omega) (show k0_off24 k 11#32 = ![0, 16 * k.val + 11, 80] from k0_off24_eq k ⟨10, by decide⟩) x,
    rdRow d L R _ _ 0 (16 * k.val + 12) 80 (by omega) (by omega) (by omega) (show k0_off24 k 12#32 = ![0, 16 * k.val + 12, 80] from k0_off24_eq k ⟨11, by decide⟩) x,
    rdRow d L R _ _ 0 (16 * k.val + 13) 80 (by omega) (by omega) (by omega) (show k0_off24 k 13#32 = ![0, 16 * k.val + 13, 80] from k0_off24_eq k ⟨12, by decide⟩) x,
    rdRow d L R _ _ 0 (16 * k.val + 14) 80 (by omega) (by omega) (by omega) (show k0_off24 k 14#32 = ![0, 16 * k.val + 14, 80] from k0_off24_eq k ⟨13, by decide⟩) x,
    rdRow d L R _ _ 0 (16 * k.val + 15) 80 (by omega) (by omega) (by omega) (show k0_off24 k 15#32 = ![0, 16 * k.val + 15, 80] from k0_off24_eq k ⟨14, by decide⟩) x]
  rw [embRow _ _ 0 k.val 80 (by omega) (by omega) (by omega) (show k0_off25 k = ![0, k.val, 80] from k0_off25_eq k) x]
  rfl

/-- Chunk 6 of slot 0: the stored vector, lane by lane, is the left-to-right sum of the sixteen loaded vectors. -/
theorem pay0_6 (v0 v1 v2 v3 v4 v5 v6 v7 v8 v9 v10 v11 v12 v13 v14 v15 : Vec F S1x1x16 .f32) (x : S1x1x16.Idx) :
    (k0_pay29 (k0_pay28 (k0_pay27 (k0_pay26 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay29, k0_pay28, k0_pay27, k0_pay26, shapeCast, addf, Shape.reshapeEquiv_reshapeEquiv, Shape.reshapeEquiv_self]

/-- What chunk 6 of a trip of slot 0 stores: the sum of the sixteen vectors it loads. -/
def pc0_6 (R : Buf (Elt F) ((s2W).view.loc thrL)) (k : Fin k0_t2_loop.trips) : FVec F S1x1x16 .f32 :=
  (k0_pay29 (k0_pay28 (k0_pay27 (k0_pay26 (rdAt d L R (k0_off26 k) (k0_off26_inb k)) (rdAt d L R (k0_off27 k 1#32) (k0_off27_inb k ⟨0, by decide⟩)) (rdAt d L R (k0_off27 k 2#32) (k0_off27_inb k ⟨1, by decide⟩)) (rdAt d L R (k0_off27 k 3#32) (k0_off27_inb k ⟨2, by decide⟩)) (rdAt d L R (k0_off27 k 4#32) (k0_off27_inb k ⟨3, by decide⟩))) (rdAt d L R (k0_off27 k 5#32) (k0_off27_inb k ⟨4, by decide⟩)) (rdAt d L R (k0_off27 k 6#32) (k0_off27_inb k ⟨5, by decide⟩)) (rdAt d L R (k0_off27 k 7#32) (k0_off27_inb k ⟨6, by decide⟩)) (rdAt d L R (k0_off27 k 8#32) (k0_off27_inb k ⟨7, by decide⟩)) (rdAt d L R (k0_off27 k 9#32) (k0_off27_inb k ⟨8, by decide⟩))) (rdAt d L R (k0_off27 k 10#32) (k0_off27_inb k ⟨9, by decide⟩)) (rdAt d L R (k0_off27 k 11#32) (k0_off27_inb k ⟨10, by decide⟩)) (rdAt d L R (k0_off27 k 12#32) (k0_off27_inb k ⟨11, by decide⟩)) (rdAt d L R (k0_off27 k 13#32) (k0_off27_inb k ⟨12, by decide⟩)) (rdAt d L R (k0_off27 k 14#32) (k0_off27_inb k ⟨13, by decide⟩)) (rdAt d L R (k0_off27 k 15#32) (k0_off27_inb k ⟨14, by decide⟩))))

/-- Chunk 6 of trip k of slot 0 stores, at lanes 96 … 111 of row k, the sums that row is to hold. -/
theorem chunk0_6 (R : Buf (Elt F) ((s2W).view.loc thrL)) (k : Fin k0_t2_loop.trips) (x : S1x1x16.Idx) :
    pc0_6 d L R k x
      = sumRow d L 0 R ((Rect.unit (s := S2x8x128) (k0_off28 k) S1x1x16.size (k0_off28_inb k)).emb x) := by
  have hk : k.val < 8 := lt_of_lt_of_le k.isLt k0_t2_abs.2.1
  unfold pc0_6
  rw [pay0_6]
  rw [rdRow d L R _ _ 0 (16 * k.val) 96 (by omega) (by omega) (by omega) (show k0_off26 k = ![0, 16 * k.val, 96] from k0_off26_eq k) x,
    rdRow d L R _ _ 0 (16 * k.val + 1) 96 (by omega) (by omega) (by omega) (show k0_off27 k 1#32 = ![0, 16 * k.val + 1, 96] from k0_off27_eq k ⟨0, by decide⟩) x,
    rdRow d L R _ _ 0 (16 * k.val + 2) 96 (by omega) (by omega) (by omega) (show k0_off27 k 2#32 = ![0, 16 * k.val + 2, 96] from k0_off27_eq k ⟨1, by decide⟩) x,
    rdRow d L R _ _ 0 (16 * k.val + 3) 96 (by omega) (by omega) (by omega) (show k0_off27 k 3#32 = ![0, 16 * k.val + 3, 96] from k0_off27_eq k ⟨2, by decide⟩) x,
    rdRow d L R _ _ 0 (16 * k.val + 4) 96 (by omega) (by omega) (by omega) (show k0_off27 k 4#32 = ![0, 16 * k.val + 4, 96] from k0_off27_eq k ⟨3, by decide⟩) x,
    rdRow d L R _ _ 0 (16 * k.val + 5) 96 (by omega) (by omega) (by omega) (show k0_off27 k 5#32 = ![0, 16 * k.val + 5, 96] from k0_off27_eq k ⟨4, by decide⟩) x,
    rdRow d L R _ _ 0 (16 * k.val + 6) 96 (by omega) (by omega) (by omega) (show k0_off27 k 6#32 = ![0, 16 * k.val + 6, 96] from k0_off27_eq k ⟨5, by decide⟩) x,
    rdRow d L R _ _ 0 (16 * k.val + 7) 96 (by omega) (by omega) (by omega) (show k0_off27 k 7#32 = ![0, 16 * k.val + 7, 96] from k0_off27_eq k ⟨6, by decide⟩) x,
    rdRow d L R _ _ 0 (16 * k.val + 8) 96 (by omega) (by omega) (by omega) (show k0_off27 k 8#32 = ![0, 16 * k.val + 8, 96] from k0_off27_eq k ⟨7, by decide⟩) x,
    rdRow d L R _ _ 0 (16 * k.val + 9) 96 (by omega) (by omega) (by omega) (show k0_off27 k 9#32 = ![0, 16 * k.val + 9, 96] from k0_off27_eq k ⟨8, by decide⟩) x,
    rdRow d L R _ _ 0 (16 * k.val + 10) 96 (by omega) (by omega) (by omega) (show k0_off27 k 10#32 = ![0, 16 * k.val + 10, 96] from k0_off27_eq k ⟨9, by decide⟩) x,
    rdRow d L R _ _ 0 (16 * k.val + 11) 96 (by omega) (by omega) (by omega) (show k0_off27 k 11#32 = ![0, 16 * k.val + 11, 96] from k0_off27_eq k ⟨10, by decide⟩) x,
    rdRow d L R _ _ 0 (16 * k.val + 12) 96 (by omega) (by omega) (by omega) (show k0_off27 k 12#32 = ![0, 16 * k.val + 12, 96] from k0_off27_eq k ⟨11, by decide⟩) x,
    rdRow d L R _ _ 0 (16 * k.val + 13) 96 (by omega) (by omega) (by omega) (show k0_off27 k 13#32 = ![0, 16 * k.val + 13, 96] from k0_off27_eq k ⟨12, by decide⟩) x,
    rdRow d L R _ _ 0 (16 * k.val + 14) 96 (by omega) (by omega) (by omega) (show k0_off27 k 14#32 = ![0, 16 * k.val + 14, 96] from k0_off27_eq k ⟨13, by decide⟩) x,
    rdRow d L R _ _ 0 (16 * k.val + 15) 96 (by omega) (by omega) (by omega) (show k0_off27 k 15#32 = ![0, 16 * k.val + 15, 96] from k0_off27_eq k ⟨14, by decide⟩) x]
  rw [embRow _ _ 0 k.val 96 (by omega) (by omega) (by omega) (show k0_off28 k = ![0, k.val, 96] from k0_off28_eq k) x]
  rfl

/-- Chunk 7 of slot 0: the stored vector, lane by lane, is the left-to-right sum of the sixteen loaded vectors. -/
theorem pay0_7 (v0 v1 v2 v3 v4 v5 v6 v7 v8 v9 v10 v11 v12 v13 v14 v15 : Vec F S1x1x16 .f32) (x : S1x1x16.Idx) :
    (k0_pay67 (k0_pay32 (k0_pay31 (k0_pay30 v0 v1 v2 v3 v4) v5 v6 v7 v8 v9) v10 v11 v12 v13 v14) (k0_pay33 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay67, k0_pay32, k0_pay31, k0_pay30, k0_pay33, shapeCast, addf, Shape.reshapeEquiv_reshapeEquiv, Shape.reshapeEquiv_self]

/-- What chunk 7 of a trip of slot 0 stores: the sum of the sixteen vectors it loads. -/
def pc0_7 (R : Buf (Elt F) ((s2W).view.loc thrL)) (k : Fin k0_t2_loop.trips) : FVec F S1x1x16 .f32 :=
  (k0_pay67 (k0_pay32 (k0_pay31 (k0_pay30 (rdAt d L R (k0_off29 k) (k0_off29_inb k)) (rdAt d L R (k0_off30 k 1#32) (k0_off30_inb k ⟨0, by decide⟩)) (rdAt d L R (k0_off30 k 2#32) (k0_off30_inb k ⟨1, by decide⟩)) (rdAt d L R (k0_off30 k 3#32) (k0_off30_inb k ⟨2, by decide⟩)) (rdAt d L R (k0_off30 k 4#32) (k0_off30_inb k ⟨3, by decide⟩))) (rdAt d L R (k0_off30 k 5#32) (k0_off30_inb k ⟨4, by decide⟩)) (rdAt d L R (k0_off30 k 6#32) (k0_off30_inb k ⟨5, by decide⟩)) (rdAt d L R (k0_off30 k 7#32) (k0_off30_inb k ⟨6, by decide⟩)) (rdAt d L R (k0_off30 k 8#32) (k0_off30_inb k ⟨7, by decide⟩)) (rdAt d L R (k0_off30 k 9#32) (k0_off30_inb k ⟨8, by decide⟩))) (rdAt d L R (k0_off30 k 10#32) (k0_off30_inb k ⟨9, by decide⟩)) (rdAt d L R (k0_off30 k 11#32) (k0_off30_inb k ⟨10, by decide⟩)) (rdAt d L R (k0_off30 k 12#32) (k0_off30_inb k ⟨11, by decide⟩)) (rdAt d L R (k0_off30 k 13#32) (k0_off30_inb k ⟨12, by decide⟩)) (rdAt d L R (k0_off30 k 14#32) (k0_off30_inb k ⟨13, by decide⟩))) (k0_pay33 (rdAt d L R (k0_off30 k 15#32) (k0_off30_inb k ⟨14, by decide⟩))))

/-- Chunk 7 of trip k of slot 0 stores, at lanes 112 … 127 of row k, the sums that row is to hold. -/
theorem chunk0_7 (R : Buf (Elt F) ((s2W).view.loc thrL)) (k : Fin k0_t2_loop.trips) (x : S1x1x16.Idx) :
    pc0_7 d L R k x
      = sumRow d L 0 R ((Rect.unit (s := S2x8x128) (k0_off31 k) S1x1x16.size (k0_off31_inb k)).emb x) := by
  have hk : k.val < 8 := lt_of_lt_of_le k.isLt k0_t2_abs.2.1
  unfold pc0_7
  rw [pay0_7]
  rw [rdRow d L R _ _ 0 (16 * k.val) 112 (by omega) (by omega) (by omega) (show k0_off29 k = ![0, 16 * k.val, 112] from k0_off29_eq k) x,
    rdRow d L R _ _ 0 (16 * k.val + 1) 112 (by omega) (by omega) (by omega) (show k0_off30 k 1#32 = ![0, 16 * k.val + 1, 112] from k0_off30_eq k ⟨0, by decide⟩) x,
    rdRow d L R _ _ 0 (16 * k.val + 2) 112 (by omega) (by omega) (by omega) (show k0_off30 k 2#32 = ![0, 16 * k.val + 2, 112] from k0_off30_eq k ⟨1, by decide⟩) x,
    rdRow d L R _ _ 0 (16 * k.val + 3) 112 (by omega) (by omega) (by omega) (show k0_off30 k 3#32 = ![0, 16 * k.val + 3, 112] from k0_off30_eq k ⟨2, by decide⟩) x,
    rdRow d L R _ _ 0 (16 * k.val + 4) 112 (by omega) (by omega) (by omega) (show k0_off30 k 4#32 = ![0, 16 * k.val + 4, 112] from k0_off30_eq k ⟨3, by decide⟩) x,
    rdRow d L R _ _ 0 (16 * k.val + 5) 112 (by omega) (by omega) (by omega) (show k0_off30 k 5#32 = ![0, 16 * k.val + 5, 112] from k0_off30_eq k ⟨4, by decide⟩) x,
    rdRow d L R _ _ 0 (16 * k.val + 6) 112 (by omega) (by omega) (by omega) (show k0_off30 k 6#32 = ![0, 16 * k.val + 6, 112] from k0_off30_eq k ⟨5, by decide⟩) x,
    rdRow d L R _ _ 0 (16 * k.val + 7) 112 (by omega) (by omega) (by omega) (show k0_off30 k 7#32 = ![0, 16 * k.val + 7, 112] from k0_off30_eq k ⟨6, by decide⟩) x,
    rdRow d L R _ _ 0 (16 * k.val + 8) 112 (by omega) (by omega) (by omega) (show k0_off30 k 8#32 = ![0, 16 * k.val + 8, 112] from k0_off30_eq k ⟨7, by decide⟩) x,
    rdRow d L R _ _ 0 (16 * k.val + 9) 112 (by omega) (by omega) (by omega) (show k0_off30 k 9#32 = ![0, 16 * k.val + 9, 112] from k0_off30_eq k ⟨8, by decide⟩) x,
    rdRow d L R _ _ 0 (16 * k.val + 10) 112 (by omega) (by omega) (by omega) (show k0_off30 k 10#32 = ![0, 16 * k.val + 10, 112] from k0_off30_eq k ⟨9, by decide⟩) x,
    rdRow d L R _ _ 0 (16 * k.val + 11) 112 (by omega) (by omega) (by omega) (show k0_off30 k 11#32 = ![0, 16 * k.val + 11, 112] from k0_off30_eq k ⟨10, by decide⟩) x,
    rdRow d L R _ _ 0 (16 * k.val + 12) 112 (by omega) (by omega) (by omega) (show k0_off30 k 12#32 = ![0, 16 * k.val + 12, 112] from k0_off30_eq k ⟨11, by decide⟩) x,
    rdRow d L R _ _ 0 (16 * k.val + 13) 112 (by omega) (by omega) (by omega) (show k0_off30 k 13#32 = ![0, 16 * k.val + 13, 112] from k0_off30_eq k ⟨12, by decide⟩) x,
    rdRow d L R _ _ 0 (16 * k.val + 14) 112 (by omega) (by omega) (by omega) (show k0_off30 k 14#32 = ![0, 16 * k.val + 14, 112] from k0_off30_eq k ⟨13, by decide⟩) x,
    rdRow d L R _ _ 0 (16 * k.val + 15) 112 (by omega) (by omega) (by omega) (show k0_off30 k 15#32 = ![0, 16 * k.val + 15, 112] from k0_off30_eq k ⟨14, by decide⟩) x]
  rw [embRow _ _ 0 k.val 112 (by omega) (by omega) (by omega) (show k0_off31 k = ![0, k.val, 112] from k0_off31_eq k) x]
  rfl

/-- The store of chunk 0 of trip k of slot 0: its rectangle and what it stores. -/
def piece0_0 (R : Buf (Elt F) ((s2W).view.loc thrL)) (k : Fin k0_t2_loop.trips) : View.Piece (Elt F) cc0_scratch3.ty.shape cc0_scratch3.ty.elt :=
  ⟨Rect.unit (s := S2x8x128) (k0_off10 k) S1x1x16.size (k0_off10_inb k), pc0_0 d L R k⟩

/-- The store of chunk 1 of trip k of slot 0: its rectangle and what it stores. -/
def piece0_1 (R : Buf (Elt F) ((s2W).view.loc thrL)) (k : Fin k0_t2_loop.trips) : View.Piece (Elt F) cc0_scratch3.ty.shape cc0_scratch3.ty.elt :=
  ⟨Rect.unit (s := S2x8x128) (k0_off13 k) S1x1x16.size (k0_off13_inb k), pc0_1 d L R k⟩

/-- The store of chunk 2 of trip k of slot 0: its rectangle and what it stores. -/
def piece0_2 (R : Buf (Elt F) ((s2W).view.loc thrL)) (k : Fin k0_t2_loop.trips) : View.Piece (Elt F) cc0_scratch3.ty.shape cc0_scratch3.ty.elt :=
  ⟨Rect.unit (s := S2x8x128) (k0_off16 k) S1x1x16.size (k0_off16_inb k), pc0_2 d L R k⟩

/-- The store of chunk 3 of trip k of slot 0: its rectangle and what it stores. -/
def piece0_3 (R : Buf (Elt F) ((s2W).view.loc thrL)) (k : Fin k0_t2_loop.trips) : View.Piece (Elt F) cc0_scratch3.ty.shape cc0_scratch3.ty.elt :=
  ⟨Rect.unit (s := S2x8x128) (k0_off19 k) S1x1x16.size (k0_off19_inb k), pc0_3 d L R k⟩

/-- The store of chunk 4 of trip k of slot 0: its rectangle and what it stores. -/
def piece0_4 (R : Buf (Elt F) ((s2W).view.loc thrL)) (k : Fin k0_t2_loop.trips) : View.Piece (Elt F) cc0_scratch3.ty.shape cc0_scratch3.ty.elt :=
  ⟨Rect.unit (s := S2x8x128) (k0_off22 k) S1x1x16.size (k0_off22_inb k), pc0_4 d L R k⟩

/-- The store of chunk 5 of trip k of slot 0: its rectangle and what it stores. -/
def piece0_5 (R : Buf (Elt F) ((s2W).view.loc thrL)) (k : Fin k0_t2_loop.trips) : View.Piece (Elt F) cc0_scratch3.ty.shape cc0_scratch3.ty.elt :=
  ⟨Rect.unit (s := S2x8x128) (k0_off25 k) S1x1x16.size (k0_off25_inb k), pc0_5 d L R k⟩

/-- The store of chunk 6 of trip k of slot 0: its rectangle and what it stores. -/
def piece0_6 (R : Buf (Elt F) ((s2W).view.loc thrL)) (k : Fin k0_t2_loop.trips) : View.Piece (Elt F) cc0_scratch3.ty.shape cc0_scratch3.ty.elt :=
  ⟨Rect.unit (s := S2x8x128) (k0_off28 k) S1x1x16.size (k0_off28_inb k), pc0_6 d L R k⟩

/-- The store of chunk 7 of trip k of slot 0: its rectangle and what it stores. -/
def piece0_7 (R : Buf (Elt F) ((s2W).view.loc thrL)) (k : Fin k0_t2_loop.trips) : View.Piece (Elt F) cc0_scratch3.ty.shape cc0_scratch3.ty.elt :=
  ⟨Rect.unit (s := S2x8x128) (k0_off31 k) S1x1x16.size (k0_off31_inb k), pc0_7 d L R k⟩

/-- The eight stores of trip k of slot 0, the last first. -/
def pieces0 (R : Buf (Elt F) ((s2W).view.loc thrL)) (k : Fin k0_t2_loop.trips) : List (View.Piece (Elt F) cc0_scratch3.ty.shape cc0_scratch3.ty.elt) :=
  [piece0_7 d L R k, piece0_6 d L R k, piece0_5 d L R k, piece0_4 d L R k, piece0_3 d L R k, piece0_2 d L R k, piece0_1 d L R k, piece0_0 d L R k]

/-- One trip of slot 0: if rows below k of the slot's sums hold their sums before the trip's eight stores, rows below k + 1 do after
    them. Row k is covered lane by lane by the eight chunks, each storing that row's sums; the other rows are not touched. -/
theorem tripPure0 (R : Buf (Elt F) ((s2W).view.loc thrL)) (N' : Buf (Elt F) ((s3W).view.loc thrL)) (k : Fin k0_t2_loop.trips)
    (hdone : ∀ p : Fin 8, p.val < k.val → rowDone d L 0 R N' p) :
    ∀ p : Fin 8, p.val < k.val + 1 → rowDone d L 0 R ((s3W).view.writes (Elt F) N' (pieces0 d L R k)) p := by
  have hk : k.val < 8 := lt_of_lt_of_le k.isLt k0_t2_abs.2.1
  intro p hp l
  have hpieces : ∀ q ∈ pieces0 d L R k, ∀ x : q.1.shape.Idx, q.2 x = sumRow d L 0 R (q.1.emb x) := by
    intro q hq
    simp only [pieces0, List.mem_cons, List.not_mem_nil, _root_.or_false] at hq
    rcases hq with rfl | rfl | rfl | rfl | rfl | rfl | rfl | rfl
    · exact fun x => chunk0_7 d L R k x
    · exact fun x => chunk0_6 d L R k x
    · exact fun x => chunk0_5 d L R k x
    · exact fun x => chunk0_4 d L R k x
    · exact fun x => chunk0_3 d L R k x
    · exact fun x => chunk0_2 d L R k x
    · exact fun x => chunk0_1 d L R k x
    · exact fun x => chunk0_0 d L R k x
  by_cases hpk : p.val = k.val
  · have hcov : ∃ q ∈ pieces0 d L R k, (ix3 0 p l : S2x8x128.Idx) ∈ q.1.set := by
      have hl := l.isLt
      rcases (show l.val / 16 = 0 ∨ l.val / 16 = 1 ∨ l.val / 16 = 2 ∨ l.val / 16 = 3 ∨ l.val / 16 = 4 ∨ l.val / 16 = 5 ∨ l.val / 16 = 6 ∨ l.val / 16 = 7 by omega)
        with h | h | h | h | h | h | h | h
      · exact ⟨piece0_0 d L R k, (List.mem_cons_of_mem _ (List.mem_cons_of_mem _ (List.mem_cons_of_mem _ (List.mem_cons_of_mem _ (List.mem_cons_of_mem _ (List.mem_cons_of_mem _ (List.mem_cons_of_mem _ List.mem_cons_self))))))),
          memRow _ (k0_off10_inb k) 0 k.val 0 (show k0_off10 k = ![0, k.val, 0] from k0_off10_eq k) 0 p l rfl hpk (by omega)⟩
      · exact ⟨piece0_1 d L R k, (List.mem_cons_of_mem _ (List.mem_cons_of_mem _ (List.mem_cons_of_mem _ (List.mem_cons_of_mem _ (List.mem_cons_of_mem _ (List.mem_cons_of_mem _ List.mem_cons_self)))))),
          memRow _ (k0_off13_inb k) 0 k.val 16 (show k0_off13 k = ![0, k.val, 16] from k0_off13_eq k) 0 p l rfl hpk (by omega)⟩
      · exact ⟨piece0_2 d L R k, (List.mem_cons_of_mem _ (List.mem_cons_of_mem _ (List.mem_cons_of_mem _ (List.mem_cons_of_mem _ (List.mem_cons_of_mem _ List.mem_cons_self))))),
          memRow _ (k0_off16_inb k) 0 k.val 32 (show k0_off16 k = ![0, k.val, 32] from k0_off16_eq k) 0 p l rfl hpk (by omega)⟩
      · exact ⟨piece0_3 d L R k, (List.mem_cons_of_mem _ (List.mem_cons_of_mem _ (List.mem_cons_of_mem _ (List.mem_cons_of_mem _ List.mem_cons_self)))),
          memRow _ (k0_off19_inb k) 0 k.val 48 (show k0_off19 k = ![0, k.val, 48] from k0_off19_eq k) 0 p l rfl hpk (by omega)⟩
      · exact ⟨piece0_4 d L R k, (List.mem_cons_of_mem _ (List.mem_cons_of_mem _ (List.mem_cons_of_mem _ List.mem_cons_self))),
          memRow _ (k0_off22_inb k) 0 k.val 64 (show k0_off22 k = ![0, k.val, 64] from k0_off22_eq k) 0 p l rfl hpk (by omega)⟩
      · exact ⟨piece0_5 d L R k, (List.mem_cons_of_mem _ (List.mem_cons_of_mem _ List.mem_cons_self)),
          memRow _ (k0_off25_inb k) 0 k.val 80 (show k0_off25 k = ![0, k.val, 80] from k0_off25_eq k) 0 p l rfl hpk (by omega)⟩
      · exact ⟨piece0_6 d L R k, (List.mem_cons_of_mem _ List.mem_cons_self),
          memRow _ (k0_off28_inb k) 0 k.val 96 (show k0_off28 k = ![0, k.val, 96] from k0_off28_eq k) 0 p l rfl hpk (by omega)⟩
      · exact ⟨piece0_7 d L R k, List.mem_cons_self,
          memRow _ (k0_off31_inb k) 0 k.val 112 (show k0_off31 k = ![0, k.val, 112] from k0_off31_eq k) 0 p l rfl hpk (by omega)⟩
    exact View.read_writes_apply_of_pieces (s3W).view N' (sumRow d L 0 R) (pieces0 d L R k) hpieces (ix3 0 p l) hcov
  · have hlt : p.val < k.val := by omega
    have hnm : ∀ q ∈ pieces0 d L R k, (ix3 0 p l : S2x8x128.Idx) ∉ q.1.set := by
      intro q hq
      simp only [pieces0, List.mem_cons, List.not_mem_nil, _root_.or_false] at hq
      rcases hq with rfl | rfl | rfl | rfl | rfl | rfl | rfl | rfl
      · exact notMemRow _ (k0_off31_inb k) 0 k.val 112 (show k0_off31 k = ![0, k.val, 112] from k0_off31_eq k) 0 p l hpk
      · exact notMemRow _ (k0_off28_inb k) 0 k.val 96 (show k0_off28 k = ![0, k.val, 96] from k0_off28_eq k) 0 p l hpk
      · exact notMemRow _ (k0_off25_inb k) 0 k.val 80 (show k0_off25 k = ![0, k.val, 80] from k0_off25_eq k) 0 p l hpk
      · exact notMemRow _ (k0_off22_inb k) 0 k.val 64 (show k0_off22 k = ![0, k.val, 64] from k0_off22_eq k) 0 p l hpk
      · exact notMemRow _ (k0_off19_inb k) 0 k.val 48 (show k0_off19 k = ![0, k.val, 48] from k0_off19_eq k) 0 p l hpk
      · exact notMemRow _ (k0_off16_inb k) 0 k.val 32 (show k0_off16 k = ![0, k.val, 32] from k0_off16_eq k) 0 p l hpk
      · exact notMemRow _ (k0_off13_inb k) 0 k.val 16 (show k0_off13 k = ![0, k.val, 16] from k0_off13_eq k) 0 p l hpk
      · exact notMemRow _ (k0_off10_inb k) 0 k.val 0 (show k0_off10 k = ![0, k.val, 0] from k0_off10_eq k) 0 p l hpk
    exact (View.read_writes_apply_of_forall_not_mem (s3W).view N' (ix3 0 p l) (pieces0 d L R k) hnm).trans (hdone p hlt l)

end Cert.KI
end
-- ==== Proof.ReduceVal1.lean ====
/-
  The reduction loop of slot 1, the arithmetic of one trip.

  Each of the eight chunks of a trip stores, lane by lane, the left-to-right sum of the sixteen vectors it loaded
  (the additions and the casts between sixteen lanes and a 1 x 1 x 16 block are pointwise), and those vectors are
  sixteen consecutive rows of slot 1 of the rows scratch at the chunk's lanes. So after the trip's eight stores row k
  of slot 1 of the sums scratch holds its sums, and the rows below k are as they were.
-/
import proofs.«208587_g27212912787602_cont_9to1_1073_18_alg».proof.Proof.Pay
import proofs.«208587_g27212912787602_cont_9to1_1073_18_alg».proof.Proof.ReduceLib
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]
variable (d : Dev nD) (L : grid0.Coords)
/- The vector subcore at grid point `L` of device `d`. -/
local notation "thrL" => (V d ((L 0).castLE hcore0) ((L 1).castLE hsub0) : Thread nD τ)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)
local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)

/-- Chunk 0 of slot 1: the stored vector, lane by lane, is the left-to-right sum of the sixteen loaded vectors. -/
theorem pay1_0 (v0 v1 v2 v3 v4 v5 v6 v7 v8 v9 v10 v11 v12 v13 v14 v15 : Vec F S1x1x16 .f32) (x : S1x1x16.Idx) :
    (k0_pay37 (k0_pay36 (k0_pay35 (k0_pay34 v0 v1 v2 v3 v4) v5 v6 v7 v8 v9 v10) v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay37, k0_pay36, k0_pay35, k0_pay34, shapeCast, addf, Shape.reshapeEquiv_reshapeEquiv, Shape.reshapeEquiv_self]

/-- What chunk 0 of a trip of slot 1 stores: the sum of the sixteen vectors it loads. -/
def pc1_0 (R : Buf (Elt F) ((s2W).view.loc thrL)) (k : Fin k0_t3_loop.trips) : FVec F S1x1x16 .f32 :=
  (k0_pay37 (k0_pay36 (k0_pay35 (k0_pay34 (rdAt d L R (k0_off36 k) (k0_off36_inb k)) (rdAt d L R (k0_off37 k 1#32) (k0_off37_inb k ⟨0, by decide⟩)) (rdAt d L R (k0_off37 k 2#32) (k0_off37_inb k ⟨1, by decide⟩)) (rdAt d L R (k0_off37 k 3#32) (k0_off37_inb k ⟨2, by decide⟩)) (rdAt d L R (k0_off37 k 4#32) (k0_off37_inb k ⟨3, by decide⟩))) (rdAt d L R (k0_off37 k 5#32) (k0_off37_inb k ⟨4, by decide⟩)) (rdAt d L R (k0_off37 k 6#32) (k0_off37_inb k ⟨5, by decide⟩)) (rdAt d L R (k0_off37 k 7#32) (k0_off37_inb k ⟨6, by decide⟩)) (rdAt d L R (k0_off37 k 8#32) (k0_off37_inb k ⟨7, by decide⟩)) (rdAt d L R (k0_off37 k 9#32) (k0_off37_inb k ⟨8, by decide⟩)) (rdAt d L R (k0_off37 k 10#32) (k0_off37_inb k ⟨9, by decide⟩))) (rdAt d L R (k0_off37 k 11#32) (k0_off37_inb k ⟨10, by decide⟩)) (rdAt d L R (k0_off37 k 12#32) (k0_off37_inb k ⟨11, by decide⟩)) (rdAt d L R (k0_off37 k 13#32) (k0_off37_inb k ⟨12, by decide⟩)) (rdAt d L R (k0_off37 k 14#32) (k0_off37_inb k ⟨13, by decide⟩)) (rdAt d L R (k0_off37 k 15#32) (k0_off37_inb k ⟨14, by decide⟩))))

/-- Chunk 0 of trip k of slot 1 stores, at lanes 0 … 15 of row k, the sums that row is to hold. -/
theorem chunk1_0 (R : Buf (Elt F) ((s2W).view.loc thrL)) (k : Fin k0_t3_loop.trips) (x : S1x1x16.Idx) :
    pc1_0 d L R k x
      = sumRow d L 1 R ((Rect.unit (s := S2x8x128) (k0_off38 k) S1x1x16.size (k0_off38_inb k)).emb x) := by
  have hk : k.val < 8 := lt_of_lt_of_le k.isLt k0_t3_abs.2.1
  unfold pc1_0
  rw [pay1_0]
  rw [rdRow d L R _ _ 1 (16 * k.val) 0 (by omega) (by omega) (by omega) (show k0_off36 k = ![1, 16 * k.val, 0] from k0_off36_eq k) x,
    rdRow d L R _ _ 1 (16 * k.val + 1) 0 (by omega) (by omega) (by omega) (show k0_off37 k 1#32 = ![1, 16 * k.val + 1, 0] from k0_off37_eq k ⟨0, by decide⟩) x,
    rdRow d L R _ _ 1 (16 * k.val + 2) 0 (by omega) (by omega) (by omega) (show k0_off37 k 2#32 = ![1, 16 * k.val + 2, 0] from k0_off37_eq k ⟨1, by decide⟩) x,
    rdRow d L R _ _ 1 (16 * k.val + 3) 0 (by omega) (by omega) (by omega) (show k0_off37 k 3#32 = ![1, 16 * k.val + 3, 0] from k0_off37_eq k ⟨2, by decide⟩) x,
    rdRow d L R _ _ 1 (16 * k.val + 4) 0 (by omega) (by omega) (by omega) (show k0_off37 k 4#32 = ![1, 16 * k.val + 4, 0] from k0_off37_eq k ⟨3, by decide⟩) x,
    rdRow d L R _ _ 1 (16 * k.val + 5) 0 (by omega) (by omega) (by omega) (show k0_off37 k 5#32 = ![1, 16 * k.val + 5, 0] from k0_off37_eq k ⟨4, by decide⟩) x,
    rdRow d L R _ _ 1 (16 * k.val + 6) 0 (by omega) (by omega) (by omega) (show k0_off37 k 6#32 = ![1, 16 * k.val + 6, 0] from k0_off37_eq k ⟨5, by decide⟩) x,
    rdRow d L R _ _ 1 (16 * k.val + 7) 0 (by omega) (by omega) (by omega) (show k0_off37 k 7#32 = ![1, 16 * k.val + 7, 0] from k0_off37_eq k ⟨6, by decide⟩) x,
    rdRow d L R _ _ 1 (16 * k.val + 8) 0 (by omega) (by omega) (by omega) (show k0_off37 k 8#32 = ![1, 16 * k.val + 8, 0] from k0_off37_eq k ⟨7, by decide⟩) x,
    rdRow d L R _ _ 1 (16 * k.val + 9) 0 (by omega) (by omega) (by omega) (show k0_off37 k 9#32 = ![1, 16 * k.val + 9, 0] from k0_off37_eq k ⟨8, by decide⟩) x,
    rdRow d L R _ _ 1 (16 * k.val + 10) 0 (by omega) (by omega) (by omega) (show k0_off37 k 10#32 = ![1, 16 * k.val + 10, 0] from k0_off37_eq k ⟨9, by decide⟩) x,
    rdRow d L R _ _ 1 (16 * k.val + 11) 0 (by omega) (by omega) (by omega) (show k0_off37 k 11#32 = ![1, 16 * k.val + 11, 0] from k0_off37_eq k ⟨10, by decide⟩) x,
    rdRow d L R _ _ 1 (16 * k.val + 12) 0 (by omega) (by omega) (by omega) (show k0_off37 k 12#32 = ![1, 16 * k.val + 12, 0] from k0_off37_eq k ⟨11, by decide⟩) x,
    rdRow d L R _ _ 1 (16 * k.val + 13) 0 (by omega) (by omega) (by omega) (show k0_off37 k 13#32 = ![1, 16 * k.val + 13, 0] from k0_off37_eq k ⟨12, by decide⟩) x,
    rdRow d L R _ _ 1 (16 * k.val + 14) 0 (by omega) (by omega) (by omega) (show k0_off37 k 14#32 = ![1, 16 * k.val + 14, 0] from k0_off37_eq k ⟨13, by decide⟩) x,
    rdRow d L R _ _ 1 (16 * k.val + 15) 0 (by omega) (by omega) (by omega) (show k0_off37 k 15#32 = ![1, 16 * k.val + 15, 0] from k0_off37_eq k ⟨14, by decide⟩) x]
  rw [embRow _ _ 1 k.val 0 (by omega) (by omega) (by omega) (show k0_off38 k = ![1, k.val, 0] from k0_off38_eq k) x]
  rfl

/-- Chunk 1 of slot 1: the stored vector, lane by lane, is the left-to-right sum of the sixteen loaded vectors. -/
theorem pay1_1 (v0 v1 v2 v3 v4 v5 v6 v7 v8 v9 v10 v11 v12 v13 v14 v15 : Vec F S1x1x16 .f32) (x : S1x1x16.Idx) :
    (k0_pay41 (k0_pay40 (k0_pay39 (k0_pay38 v0 v1 v2 v3 v4) v5 v6 v7 v8 v9 v10) v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay41, k0_pay40, k0_pay39, k0_pay38, shapeCast, addf, Shape.reshapeEquiv_reshapeEquiv, Shape.reshapeEquiv_self]

/-- What chunk 1 of a trip of slot 1 stores: the sum of the sixteen vectors it loads. -/
def pc1_1 (R : Buf (Elt F) ((s2W).view.loc thrL)) (k : Fin k0_t3_loop.trips) : FVec F S1x1x16 .f32 :=
  (k0_pay41 (k0_pay40 (k0_pay39 (k0_pay38 (rdAt d L R (k0_off39 k) (k0_off39_inb k)) (rdAt d L R (k0_off40 k 1#32) (k0_off40_inb k ⟨0, by decide⟩)) (rdAt d L R (k0_off40 k 2#32) (k0_off40_inb k ⟨1, by decide⟩)) (rdAt d L R (k0_off40 k 3#32) (k0_off40_inb k ⟨2, by decide⟩)) (rdAt d L R (k0_off40 k 4#32) (k0_off40_inb k ⟨3, by decide⟩))) (rdAt d L R (k0_off40 k 5#32) (k0_off40_inb k ⟨4, by decide⟩)) (rdAt d L R (k0_off40 k 6#32) (k0_off40_inb k ⟨5, by decide⟩)) (rdAt d L R (k0_off40 k 7#32) (k0_off40_inb k ⟨6, by decide⟩)) (rdAt d L R (k0_off40 k 8#32) (k0_off40_inb k ⟨7, by decide⟩)) (rdAt d L R (k0_off40 k 9#32) (k0_off40_inb k ⟨8, by decide⟩)) (rdAt d L R (k0_off40 k 10#32) (k0_off40_inb k ⟨9, by decide⟩))) (rdAt d L R (k0_off40 k 11#32) (k0_off40_inb k ⟨10, by decide⟩)) (rdAt d L R (k0_off40 k 12#32) (k0_off40_inb k ⟨11, by decide⟩)) (rdAt d L R (k0_off40 k 13#32) (k0_off40_inb k ⟨12, by decide⟩)) (rdAt d L R (k0_off40 k 14#32) (k0_off40_inb k ⟨13, by decide⟩)) (rdAt d L R (k0_off40 k 15#32) (k0_off40_inb k ⟨14, by decide⟩))))

/-- Chunk 1 of trip k of slot 1 stores, at lanes 16 … 31 of row k, the sums that row is to hold. -/
theorem chunk1_1 (R : Buf (Elt F) ((s2W).view.loc thrL)) (k : Fin k0_t3_loop.trips) (x : S1x1x16.Idx) :
    pc1_1 d L R k x
      = sumRow d L 1 R ((Rect.unit (s := S2x8x128) (k0_off41 k) S1x1x16.size (k0_off41_inb k)).emb x) := by
  have hk : k.val < 8 := lt_of_lt_of_le k.isLt k0_t3_abs.2.1
  unfold pc1_1
  rw [pay1_1]
  rw [rdRow d L R _ _ 1 (16 * k.val) 16 (by omega) (by omega) (by omega) (show k0_off39 k = ![1, 16 * k.val, 16] from k0_off39_eq k) x,
    rdRow d L R _ _ 1 (16 * k.val + 1) 16 (by omega) (by omega) (by omega) (show k0_off40 k 1#32 = ![1, 16 * k.val + 1, 16] from k0_off40_eq k ⟨0, by decide⟩) x,
    rdRow d L R _ _ 1 (16 * k.val + 2) 16 (by omega) (by omega) (by omega) (show k0_off40 k 2#32 = ![1, 16 * k.val + 2, 16] from k0_off40_eq k ⟨1, by decide⟩) x,
    rdRow d L R _ _ 1 (16 * k.val + 3) 16 (by omega) (by omega) (by omega) (show k0_off40 k 3#32 = ![1, 16 * k.val + 3, 16] from k0_off40_eq k ⟨2, by decide⟩) x,
    rdRow d L R _ _ 1 (16 * k.val + 4) 16 (by omega) (by omega) (by omega) (show k0_off40 k 4#32 = ![1, 16 * k.val + 4, 16] from k0_off40_eq k ⟨3, by decide⟩) x,
    rdRow d L R _ _ 1 (16 * k.val + 5) 16 (by omega) (by omega) (by omega) (show k0_off40 k 5#32 = ![1, 16 * k.val + 5, 16] from k0_off40_eq k ⟨4, by decide⟩) x,
    rdRow d L R _ _ 1 (16 * k.val + 6) 16 (by omega) (by omega) (by omega) (show k0_off40 k 6#32 = ![1, 16 * k.val + 6, 16] from k0_off40_eq k ⟨5, by decide⟩) x,
    rdRow d L R _ _ 1 (16 * k.val + 7) 16 (by omega) (by omega) (by omega) (show k0_off40 k 7#32 = ![1, 16 * k.val + 7, 16] from k0_off40_eq k ⟨6, by decide⟩) x,
    rdRow d L R _ _ 1 (16 * k.val + 8) 16 (by omega) (by omega) (by omega) (show k0_off40 k 8#32 = ![1, 16 * k.val + 8, 16] from k0_off40_eq k ⟨7, by decide⟩) x,
    rdRow d L R _ _ 1 (16 * k.val + 9) 16 (by omega) (by omega) (by omega) (show k0_off40 k 9#32 = ![1, 16 * k.val + 9, 16] from k0_off40_eq k ⟨8, by decide⟩) x,
    rdRow d L R _ _ 1 (16 * k.val + 10) 16 (by omega) (by omega) (by omega) (show k0_off40 k 10#32 = ![1, 16 * k.val + 10, 16] from k0_off40_eq k ⟨9, by decide⟩) x,
    rdRow d L R _ _ 1 (16 * k.val + 11) 16 (by omega) (by omega) (by omega) (show k0_off40 k 11#32 = ![1, 16 * k.val + 11, 16] from k0_off40_eq k ⟨10, by decide⟩) x,
    rdRow d L R _ _ 1 (16 * k.val + 12) 16 (by omega) (by omega) (by omega) (show k0_off40 k 12#32 = ![1, 16 * k.val + 12, 16] from k0_off40_eq k ⟨11, by decide⟩) x,
    rdRow d L R _ _ 1 (16 * k.val + 13) 16 (by omega) (by omega) (by omega) (show k0_off40 k 13#32 = ![1, 16 * k.val + 13, 16] from k0_off40_eq k ⟨12, by decide⟩) x,
    rdRow d L R _ _ 1 (16 * k.val + 14) 16 (by omega) (by omega) (by omega) (show k0_off40 k 14#32 = ![1, 16 * k.val + 14, 16] from k0_off40_eq k ⟨13, by decide⟩) x,
    rdRow d L R _ _ 1 (16 * k.val + 15) 16 (by omega) (by omega) (by omega) (show k0_off40 k 15#32 = ![1, 16 * k.val + 15, 16] from k0_off40_eq k ⟨14, by decide⟩) x]
  rw [embRow _ _ 1 k.val 16 (by omega) (by omega) (by omega) (show k0_off41 k = ![1, k.val, 16] from k0_off41_eq k) x]
  rfl

/-- Chunk 2 of slot 1: the stored vector, lane by lane, is the left-to-right sum of the sixteen loaded vectors. -/
theorem pay1_2 (v0 v1 v2 v3 v4 v5 v6 v7 v8 v9 v10 v11 v12 v13 v14 v15 : Vec F S1x1x16 .f32) (x : S1x1x16.Idx) :
    (k0_pay46 (k0_pay45 (k0_pay43 (k0_pay42 v0 v1 v2 v3 v4) v5 v6 v7 v8 v9) (k0_pay44 v10) v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay46, k0_pay45, k0_pay43, k0_pay42, k0_pay44, shapeCast, addf, Shape.reshapeEquiv_reshapeEquiv, Shape.reshapeEquiv_self]

/-- What chunk 2 of a trip of slot 1 stores: the sum of the sixteen vectors it loads. -/
def pc1_2 (R : Buf (Elt F) ((s2W).view.loc thrL)) (k : Fin k0_t3_loop.trips) : FVec F S1x1x16 .f32 :=
  (k0_pay46 (k0_pay45 (k0_pay43 (k0_pay42 (rdAt d L R (k0_off42 k) (k0_off42_inb k)) (rdAt d L R (k0_off43 k 1#32) (k0_off43_inb k ⟨0, by decide⟩)) (rdAt d L R (k0_off43 k 2#32) (k0_off43_inb k ⟨1, by decide⟩)) (rdAt d L R (k0_off43 k 3#32) (k0_off43_inb k ⟨2, by decide⟩)) (rdAt d L R (k0_off43 k 4#32) (k0_off43_inb k ⟨3, by decide⟩))) (rdAt d L R (k0_off43 k 5#32) (k0_off43_inb k ⟨4, by decide⟩)) (rdAt d L R (k0_off43 k 6#32) (k0_off43_inb k ⟨5, by decide⟩)) (rdAt d L R (k0_off43 k 7#32) (k0_off43_inb k ⟨6, by decide⟩)) (rdAt d L R (k0_off43 k 8#32) (k0_off43_inb k ⟨7, by decide⟩)) (rdAt d L R (k0_off43 k 9#32) (k0_off43_inb k ⟨8, by decide⟩))) (k0_pay44 (rdAt d L R (k0_off43 k 10#32) (k0_off43_inb k ⟨9, by decide⟩))) (rdAt d L R (k0_off43 k 11#32) (k0_off43_inb k ⟨10, by decide⟩)) (rdAt d L R (k0_off43 k 12#32) (k0_off43_inb k ⟨11, by decide⟩)) (rdAt d L R (k0_off43 k 13#32) (k0_off43_inb k ⟨12, by decide⟩)) (rdAt d L R (k0_off43 k 14#32) (k0_off43_inb k ⟨13, by decide⟩)) (rdAt d L R (k0_off43 k 15#32) (k0_off43_inb k ⟨14, by decide⟩))))

/-- Chunk 2 of trip k of slot 1 stores, at lanes 32 … 47 of row k, the sums that row is to hold. -/
theorem chunk1_2 (R : Buf (Elt F) ((s2W).view.loc thrL)) (k : Fin k0_t3_loop.trips) (x : S1x1x16.Idx) :
    pc1_2 d L R k x
      = sumRow d L 1 R ((Rect.unit (s := S2x8x128) (k0_off44 k) S1x1x16.size (k0_off44_inb k)).emb x) := by
  have hk : k.val < 8 := lt_of_lt_of_le k.isLt k0_t3_abs.2.1
  unfold pc1_2
  rw [pay1_2]
  rw [rdRow d L R _ _ 1 (16 * k.val) 32 (by omega) (by omega) (by omega) (show k0_off42 k = ![1, 16 * k.val, 32] from k0_off42_eq k) x,
    rdRow d L R _ _ 1 (16 * k.val + 1) 32 (by omega) (by omega) (by omega) (show k0_off43 k 1#32 = ![1, 16 * k.val + 1, 32] from k0_off43_eq k ⟨0, by decide⟩) x,
    rdRow d L R _ _ 1 (16 * k.val + 2) 32 (by omega) (by omega) (by omega) (show k0_off43 k 2#32 = ![1, 16 * k.val + 2, 32] from k0_off43_eq k ⟨1, by decide⟩) x,
    rdRow d L R _ _ 1 (16 * k.val + 3) 32 (by omega) (by omega) (by omega) (show k0_off43 k 3#32 = ![1, 16 * k.val + 3, 32] from k0_off43_eq k ⟨2, by decide⟩) x,
    rdRow d L R _ _ 1 (16 * k.val + 4) 32 (by omega) (by omega) (by omega) (show k0_off43 k 4#32 = ![1, 16 * k.val + 4, 32] from k0_off43_eq k ⟨3, by decide⟩) x,
    rdRow d L R _ _ 1 (16 * k.val + 5) 32 (by omega) (by omega) (by omega) (show k0_off43 k 5#32 = ![1, 16 * k.val + 5, 32] from k0_off43_eq k ⟨4, by decide⟩) x,
    rdRow d L R _ _ 1 (16 * k.val + 6) 32 (by omega) (by omega) (by omega) (show k0_off43 k 6#32 = ![1, 16 * k.val + 6, 32] from k0_off43_eq k ⟨5, by decide⟩) x,
    rdRow d L R _ _ 1 (16 * k.val + 7) 32 (by omega) (by omega) (by omega) (show k0_off43 k 7#32 = ![1, 16 * k.val + 7, 32] from k0_off43_eq k ⟨6, by decide⟩) x,
    rdRow d L R _ _ 1 (16 * k.val + 8) 32 (by omega) (by omega) (by omega) (show k0_off43 k 8#32 = ![1, 16 * k.val + 8, 32] from k0_off43_eq k ⟨7, by decide⟩) x,
    rdRow d L R _ _ 1 (16 * k.val + 9) 32 (by omega) (by omega) (by omega) (show k0_off43 k 9#32 = ![1, 16 * k.val + 9, 32] from k0_off43_eq k ⟨8, by decide⟩) x,
    rdRow d L R _ _ 1 (16 * k.val + 10) 32 (by omega) (by omega) (by omega) (show k0_off43 k 10#32 = ![1, 16 * k.val + 10, 32] from k0_off43_eq k ⟨9, by decide⟩) x,
    rdRow d L R _ _ 1 (16 * k.val + 11) 32 (by omega) (by omega) (by omega) (show k0_off43 k 11#32 = ![1, 16 * k.val + 11, 32] from k0_off43_eq k ⟨10, by decide⟩) x,
    rdRow d L R _ _ 1 (16 * k.val + 12) 32 (by omega) (by omega) (by omega) (show k0_off43 k 12#32 = ![1, 16 * k.val + 12, 32] from k0_off43_eq k ⟨11, by decide⟩) x,
    rdRow d L R _ _ 1 (16 * k.val + 13) 32 (by omega) (by omega) (by omega) (show k0_off43 k 13#32 = ![1, 16 * k.val + 13, 32] from k0_off43_eq k ⟨12, by decide⟩) x,
    rdRow d L R _ _ 1 (16 * k.val + 14) 32 (by omega) (by omega) (by omega) (show k0_off43 k 14#32 = ![1, 16 * k.val + 14, 32] from k0_off43_eq k ⟨13, by decide⟩) x,
    rdRow d L R _ _ 1 (16 * k.val + 15) 32 (by omega) (by omega) (by omega) (show k0_off43 k 15#32 = ![1, 16 * k.val + 15, 32] from k0_off43_eq k ⟨14, by decide⟩) x]
  rw [embRow _ _ 1 k.val 32 (by omega) (by omega) (by omega) (show k0_off44 k = ![1, k.val, 32] from k0_off44_eq k) x]
  rfl

/-- Chunk 3 of slot 1: the stored vector, lane by lane, is the left-to-right sum of the sixteen loaded vectors. -/
theorem pay1_3 (v0 v1 v2 v3 v4 v5 v6 v7 v8 v9 v10 v11 v12 v13 v14 v15 : Vec F S1x1x16 .f32) (x : S1x1x16.Idx) :
    (k0_pay50 (k0_pay49 (k0_pay48 (k0_pay47 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay50, k0_pay49, k0_pay48, k0_pay47, shapeCast, addf, Shape.reshapeEquiv_reshapeEquiv, Shape.reshapeEquiv_self]

/-- What chunk 3 of a trip of slot 1 stores: the sum of the sixteen vectors it loads. -/
def pc1_3 (R : Buf (Elt F) ((s2W).view.loc thrL)) (k : Fin k0_t3_loop.trips) : FVec F S1x1x16 .f32 :=
  (k0_pay50 (k0_pay49 (k0_pay48 (k0_pay47 (rdAt d L R (k0_off45 k) (k0_off45_inb k)) (rdAt d L R (k0_off46 k 1#32) (k0_off46_inb k ⟨0, by decide⟩)) (rdAt d L R (k0_off46 k 2#32) (k0_off46_inb k ⟨1, by decide⟩)) (rdAt d L R (k0_off46 k 3#32) (k0_off46_inb k ⟨2, by decide⟩)) (rdAt d L R (k0_off46 k 4#32) (k0_off46_inb k ⟨3, by decide⟩))) (rdAt d L R (k0_off46 k 5#32) (k0_off46_inb k ⟨4, by decide⟩)) (rdAt d L R (k0_off46 k 6#32) (k0_off46_inb k ⟨5, by decide⟩)) (rdAt d L R (k0_off46 k 7#32) (k0_off46_inb k ⟨6, by decide⟩)) (rdAt d L R (k0_off46 k 8#32) (k0_off46_inb k ⟨7, by decide⟩)) (rdAt d L R (k0_off46 k 9#32) (k0_off46_inb k ⟨8, by decide⟩))) (rdAt d L R (k0_off46 k 10#32) (k0_off46_inb k ⟨9, by decide⟩)) (rdAt d L R (k0_off46 k 11#32) (k0_off46_inb k ⟨10, by decide⟩)) (rdAt d L R (k0_off46 k 12#32) (k0_off46_inb k ⟨11, by decide⟩)) (rdAt d L R (k0_off46 k 13#32) (k0_off46_inb k ⟨12, by decide⟩)) (rdAt d L R (k0_off46 k 14#32) (k0_off46_inb k ⟨13, by decide⟩)) (rdAt d L R (k0_off46 k 15#32) (k0_off46_inb k ⟨14, by decide⟩))))

/-- Chunk 3 of trip k of slot 1 stores, at lanes 48 … 63 of row k, the sums that row is to hold. -/
theorem chunk1_3 (R : Buf (Elt F) ((s2W).view.loc thrL)) (k : Fin k0_t3_loop.trips) (x : S1x1x16.Idx) :
    pc1_3 d L R k x
      = sumRow d L 1 R ((Rect.unit (s := S2x8x128) (k0_off47 k) S1x1x16.size (k0_off47_inb k)).emb x) := by
  have hk : k.val < 8 := lt_of_lt_of_le k.isLt k0_t3_abs.2.1
  unfold pc1_3
  rw [pay1_3]
  rw [rdRow d L R _ _ 1 (16 * k.val) 48 (by omega) (by omega) (by omega) (show k0_off45 k = ![1, 16 * k.val, 48] from k0_off45_eq k) x,
    rdRow d L R _ _ 1 (16 * k.val + 1) 48 (by omega) (by omega) (by omega) (show k0_off46 k 1#32 = ![1, 16 * k.val + 1, 48] from k0_off46_eq k ⟨0, by decide⟩) x,
    rdRow d L R _ _ 1 (16 * k.val + 2) 48 (by omega) (by omega) (by omega) (show k0_off46 k 2#32 = ![1, 16 * k.val + 2, 48] from k0_off46_eq k ⟨1, by decide⟩) x,
    rdRow d L R _ _ 1 (16 * k.val + 3) 48 (by omega) (by omega) (by omega) (show k0_off46 k 3#32 = ![1, 16 * k.val + 3, 48] from k0_off46_eq k ⟨2, by decide⟩) x,
    rdRow d L R _ _ 1 (16 * k.val + 4) 48 (by omega) (by omega) (by omega) (show k0_off46 k 4#32 = ![1, 16 * k.val + 4, 48] from k0_off46_eq k ⟨3, by decide⟩) x,
    rdRow d L R _ _ 1 (16 * k.val + 5) 48 (by omega) (by omega) (by omega) (show k0_off46 k 5#32 = ![1, 16 * k.val + 5, 48] from k0_off46_eq k ⟨4, by decide⟩) x,
    rdRow d L R _ _ 1 (16 * k.val + 6) 48 (by omega) (by omega) (by omega) (show k0_off46 k 6#32 = ![1, 16 * k.val + 6, 48] from k0_off46_eq k ⟨5, by decide⟩) x,
    rdRow d L R _ _ 1 (16 * k.val + 7) 48 (by omega) (by omega) (by omega) (show k0_off46 k 7#32 = ![1, 16 * k.val + 7, 48] from k0_off46_eq k ⟨6, by decide⟩) x,
    rdRow d L R _ _ 1 (16 * k.val + 8) 48 (by omega) (by omega) (by omega) (show k0_off46 k 8#32 = ![1, 16 * k.val + 8, 48] from k0_off46_eq k ⟨7, by decide⟩) x,
    rdRow d L R _ _ 1 (16 * k.val + 9) 48 (by omega) (by omega) (by omega) (show k0_off46 k 9#32 = ![1, 16 * k.val + 9, 48] from k0_off46_eq k ⟨8, by decide⟩) x,
    rdRow d L R _ _ 1 (16 * k.val + 10) 48 (by omega) (by omega) (by omega) (show k0_off46 k 10#32 = ![1, 16 * k.val + 10, 48] from k0_off46_eq k ⟨9, by decide⟩) x,
    rdRow d L R _ _ 1 (16 * k.val + 11) 48 (by omega) (by omega) (by omega) (show k0_off46 k 11#32 = ![1, 16 * k.val + 11, 48] from k0_off46_eq k ⟨10, by decide⟩) x,
    rdRow d L R _ _ 1 (16 * k.val + 12) 48 (by omega) (by omega) (by omega) (show k0_off46 k 12#32 = ![1, 16 * k.val + 12, 48] from k0_off46_eq k ⟨11, by decide⟩) x,
    rdRow d L R _ _ 1 (16 * k.val + 13) 48 (by omega) (by omega) (by omega) (show k0_off46 k 13#32 = ![1, 16 * k.val + 13, 48] from k0_off46_eq k ⟨12, by decide⟩) x,
    rdRow d L R _ _ 1 (16 * k.val + 14) 48 (by omega) (by omega) (by omega) (show k0_off46 k 14#32 = ![1, 16 * k.val + 14, 48] from k0_off46_eq k ⟨13, by decide⟩) x,
    rdRow d L R _ _ 1 (16 * k.val + 15) 48 (by omega) (by omega) (by omega) (show k0_off46 k 15#32 = ![1, 16 * k.val + 15, 48] from k0_off46_eq k ⟨14, by decide⟩) x]
  rw [embRow _ _ 1 k.val 48 (by omega) (by omega) (by omega) (show k0_off47 k = ![1, k.val, 48] from k0_off47_eq k) x]
  rfl

/-- Chunk 4 of slot 1: the stored vector, lane by lane, is the left-to-right sum of the sixteen loaded vectors. -/
theorem pay1_4 (v0 v1 v2 v3 v4 v5 v6 v7 v8 v9 v10 v11 v12 v13 v14 v15 : Vec F S1x1x16 .f32) (x : S1x1x16.Idx) :
    (k0_pay54 (k0_pay53 (k0_pay52 (k0_pay51 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay54, k0_pay53, k0_pay52, k0_pay51, shapeCast, addf, Shape.reshapeEquiv_reshapeEquiv, Shape.reshapeEquiv_self]

/-- What chunk 4 of a trip of slot 1 stores: the sum of the sixteen vectors it loads. -/
def pc1_4 (R : Buf (Elt F) ((s2W).view.loc thrL)) (k : Fin k0_t3_loop.trips) : FVec F S1x1x16 .f32 :=
  (k0_pay54 (k0_pay53 (k0_pay52 (k0_pay51 (rdAt d L R (k0_off48 k) (k0_off48_inb k)) (rdAt d L R (k0_off49 k 1#32) (k0_off49_inb k ⟨0, by decide⟩)) (rdAt d L R (k0_off49 k 2#32) (k0_off49_inb k ⟨1, by decide⟩)) (rdAt d L R (k0_off49 k 3#32) (k0_off49_inb k ⟨2, by decide⟩)) (rdAt d L R (k0_off49 k 4#32) (k0_off49_inb k ⟨3, by decide⟩))) (rdAt d L R (k0_off49 k 5#32) (k0_off49_inb k ⟨4, by decide⟩)) (rdAt d L R (k0_off49 k 6#32) (k0_off49_inb k ⟨5, by decide⟩)) (rdAt d L R (k0_off49 k 7#32) (k0_off49_inb k ⟨6, by decide⟩)) (rdAt d L R (k0_off49 k 8#32) (k0_off49_inb k ⟨7, by decide⟩)) (rdAt d L R (k0_off49 k 9#32) (k0_off49_inb k ⟨8, by decide⟩))) (rdAt d L R (k0_off49 k 10#32) (k0_off49_inb k ⟨9, by decide⟩)) (rdAt d L R (k0_off49 k 11#32) (k0_off49_inb k ⟨10, by decide⟩)) (rdAt d L R (k0_off49 k 12#32) (k0_off49_inb k ⟨11, by decide⟩)) (rdAt d L R (k0_off49 k 13#32) (k0_off49_inb k ⟨12, by decide⟩)) (rdAt d L R (k0_off49 k 14#32) (k0_off49_inb k ⟨13, by decide⟩)) (rdAt d L R (k0_off49 k 15#32) (k0_off49_inb k ⟨14, by decide⟩))))

/-- Chunk 4 of trip k of slot 1 stores, at lanes 64 … 79 of row k, the sums that row is to hold. -/
theorem chunk1_4 (R : Buf (Elt F) ((s2W).view.loc thrL)) (k : Fin k0_t3_loop.trips) (x : S1x1x16.Idx) :
    pc1_4 d L R k x
      = sumRow d L 1 R ((Rect.unit (s := S2x8x128) (k0_off50 k) S1x1x16.size (k0_off50_inb k)).emb x) := by
  have hk : k.val < 8 := lt_of_lt_of_le k.isLt k0_t3_abs.2.1
  unfold pc1_4
  rw [pay1_4]
  rw [rdRow d L R _ _ 1 (16 * k.val) 64 (by omega) (by omega) (by omega) (show k0_off48 k = ![1, 16 * k.val, 64] from k0_off48_eq k) x,
    rdRow d L R _ _ 1 (16 * k.val + 1) 64 (by omega) (by omega) (by omega) (show k0_off49 k 1#32 = ![1, 16 * k.val + 1, 64] from k0_off49_eq k ⟨0, by decide⟩) x,
    rdRow d L R _ _ 1 (16 * k.val + 2) 64 (by omega) (by omega) (by omega) (show k0_off49 k 2#32 = ![1, 16 * k.val + 2, 64] from k0_off49_eq k ⟨1, by decide⟩) x,
    rdRow d L R _ _ 1 (16 * k.val + 3) 64 (by omega) (by omega) (by omega) (show k0_off49 k 3#32 = ![1, 16 * k.val + 3, 64] from k0_off49_eq k ⟨2, by decide⟩) x,
    rdRow d L R _ _ 1 (16 * k.val + 4) 64 (by omega) (by omega) (by omega) (show k0_off49 k 4#32 = ![1, 16 * k.val + 4, 64] from k0_off49_eq k ⟨3, by decide⟩) x,
    rdRow d L R _ _ 1 (16 * k.val + 5) 64 (by omega) (by omega) (by omega) (show k0_off49 k 5#32 = ![1, 16 * k.val + 5, 64] from k0_off49_eq k ⟨4, by decide⟩) x,
    rdRow d L R _ _ 1 (16 * k.val + 6) 64 (by omega) (by omega) (by omega) (show k0_off49 k 6#32 = ![1, 16 * k.val + 6, 64] from k0_off49_eq k ⟨5, by decide⟩) x,
    rdRow d L R _ _ 1 (16 * k.val + 7) 64 (by omega) (by omega) (by omega) (show k0_off49 k 7#32 = ![1, 16 * k.val + 7, 64] from k0_off49_eq k ⟨6, by decide⟩) x,
    rdRow d L R _ _ 1 (16 * k.val + 8) 64 (by omega) (by omega) (by omega) (show k0_off49 k 8#32 = ![1, 16 * k.val + 8, 64] from k0_off49_eq k ⟨7, by decide⟩) x,
    rdRow d L R _ _ 1 (16 * k.val + 9) 64 (by omega) (by omega) (by omega) (show k0_off49 k 9#32 = ![1, 16 * k.val + 9, 64] from k0_off49_eq k ⟨8, by decide⟩) x,
    rdRow d L R _ _ 1 (16 * k.val + 10) 64 (by omega) (by omega) (by omega) (show k0_off49 k 10#32 = ![1, 16 * k.val + 10, 64] from k0_off49_eq k ⟨9, by decide⟩) x,
    rdRow d L R _ _ 1 (16 * k.val + 11) 64 (by omega) (by omega) (by omega) (show k0_off49 k 11#32 = ![1, 16 * k.val + 11, 64] from k0_off49_eq k ⟨10, by decide⟩) x,
    rdRow d L R _ _ 1 (16 * k.val + 12) 64 (by omega) (by omega) (by omega) (show k0_off49 k 12#32 = ![1, 16 * k.val + 12, 64] from k0_off49_eq k ⟨11, by decide⟩) x,
    rdRow d L R _ _ 1 (16 * k.val + 13) 64 (by omega) (by omega) (by omega) (show k0_off49 k 13#32 = ![1, 16 * k.val + 13, 64] from k0_off49_eq k ⟨12, by decide⟩) x,
    rdRow d L R _ _ 1 (16 * k.val + 14) 64 (by omega) (by omega) (by omega) (show k0_off49 k 14#32 = ![1, 16 * k.val + 14, 64] from k0_off49_eq k ⟨13, by decide⟩) x,
    rdRow d L R _ _ 1 (16 * k.val + 15) 64 (by omega) (by omega) (by omega) (show k0_off49 k 15#32 = ![1, 16 * k.val + 15, 64] from k0_off49_eq k ⟨14, by decide⟩) x]
  rw [embRow _ _ 1 k.val 64 (by omega) (by omega) (by omega) (show k0_off50 k = ![1, k.val, 64] from k0_off50_eq k) x]
  rfl

/-- Chunk 5 of slot 1: the stored vector, lane by lane, is the left-to-right sum of the sixteen loaded vectors. -/
theorem pay1_5 (v0 v1 v2 v3 v4 v5 v6 v7 v8 v9 v10 v11 v12 v13 v14 v15 : Vec F S1x1x16 .f32) (x : S1x1x16.Idx) :
    (k0_pay58 (k0_pay57 (k0_pay56 (k0_pay55 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay58, k0_pay57, k0_pay56, k0_pay55, shapeCast, addf, Shape.reshapeEquiv_reshapeEquiv, Shape.reshapeEquiv_self]

/-- What chunk 5 of a trip of slot 1 stores: the sum of the sixteen vectors it loads. -/
def pc1_5 (R : Buf (Elt F) ((s2W).view.loc thrL)) (k : Fin k0_t3_loop.trips) : FVec F S1x1x16 .f32 :=
  (k0_pay58 (k0_pay57 (k0_pay56 (k0_pay55 (rdAt d L R (k0_off51 k) (k0_off51_inb k)) (rdAt d L R (k0_off52 k 1#32) (k0_off52_inb k ⟨0, by decide⟩)) (rdAt d L R (k0_off52 k 2#32) (k0_off52_inb k ⟨1, by decide⟩)) (rdAt d L R (k0_off52 k 3#32) (k0_off52_inb k ⟨2, by decide⟩)) (rdAt d L R (k0_off52 k 4#32) (k0_off52_inb k ⟨3, by decide⟩))) (rdAt d L R (k0_off52 k 5#32) (k0_off52_inb k ⟨4, by decide⟩)) (rdAt d L R (k0_off52 k 6#32) (k0_off52_inb k ⟨5, by decide⟩)) (rdAt d L R (k0_off52 k 7#32) (k0_off52_inb k ⟨6, by decide⟩)) (rdAt d L R (k0_off52 k 8#32) (k0_off52_inb k ⟨7, by decide⟩)) (rdAt d L R (k0_off52 k 9#32) (k0_off52_inb k ⟨8, by decide⟩))) (rdAt d L R (k0_off52 k 10#32) (k0_off52_inb k ⟨9, by decide⟩)) (rdAt d L R (k0_off52 k 11#32) (k0_off52_inb k ⟨10, by decide⟩)) (rdAt d L R (k0_off52 k 12#32) (k0_off52_inb k ⟨11, by decide⟩)) (rdAt d L R (k0_off52 k 13#32) (k0_off52_inb k ⟨12, by decide⟩)) (rdAt d L R (k0_off52 k 14#32) (k0_off52_inb k ⟨13, by decide⟩)) (rdAt d L R (k0_off52 k 15#32) (k0_off52_inb k ⟨14, by decide⟩))))

/-- Chunk 5 of trip k of slot 1 stores, at lanes 80 … 95 of row k, the sums that row is to hold. -/
theorem chunk1_5 (R : Buf (Elt F) ((s2W).view.loc thrL)) (k : Fin k0_t3_loop.trips) (x : S1x1x16.Idx) :
    pc1_5 d L R k x
      = sumRow d L 1 R ((Rect.unit (s := S2x8x128) (k0_off53 k) S1x1x16.size (k0_off53_inb k)).emb x) := by
  have hk : k.val < 8 := lt_of_lt_of_le k.isLt k0_t3_abs.2.1
  unfold pc1_5
  rw [pay1_5]
  rw [rdRow d L R _ _ 1 (16 * k.val) 80 (by omega) (by omega) (by omega) (show k0_off51 k = ![1, 16 * k.val, 80] from k0_off51_eq k) x,
    rdRow d L R _ _ 1 (16 * k.val + 1) 80 (by omega) (by omega) (by omega) (show k0_off52 k 1#32 = ![1, 16 * k.val + 1, 80] from k0_off52_eq k ⟨0, by decide⟩) x,
    rdRow d L R _ _ 1 (16 * k.val + 2) 80 (by omega) (by omega) (by omega) (show k0_off52 k 2#32 = ![1, 16 * k.val + 2, 80] from k0_off52_eq k ⟨1, by decide⟩) x,
    rdRow d L R _ _ 1 (16 * k.val + 3) 80 (by omega) (by omega) (by omega) (show k0_off52 k 3#32 = ![1, 16 * k.val + 3, 80] from k0_off52_eq k ⟨2, by decide⟩) x,
    rdRow d L R _ _ 1 (16 * k.val + 4) 80 (by omega) (by omega) (by omega) (show k0_off52 k 4#32 = ![1, 16 * k.val + 4, 80] from k0_off52_eq k ⟨3, by decide⟩) x,
    rdRow d L R _ _ 1 (16 * k.val + 5) 80 (by omega) (by omega) (by omega) (show k0_off52 k 5#32 = ![1, 16 * k.val + 5, 80] from k0_off52_eq k ⟨4, by decide⟩) x,
    rdRow d L R _ _ 1 (16 * k.val + 6) 80 (by omega) (by omega) (by omega) (show k0_off52 k 6#32 = ![1, 16 * k.val + 6, 80] from k0_off52_eq k ⟨5, by decide⟩) x,
    rdRow d L R _ _ 1 (16 * k.val + 7) 80 (by omega) (by omega) (by omega) (show k0_off52 k 7#32 = ![1, 16 * k.val + 7, 80] from k0_off52_eq k ⟨6, by decide⟩) x,
    rdRow d L R _ _ 1 (16 * k.val + 8) 80 (by omega) (by omega) (by omega) (show k0_off52 k 8#32 = ![1, 16 * k.val + 8, 80] from k0_off52_eq k ⟨7, by decide⟩) x,
    rdRow d L R _ _ 1 (16 * k.val + 9) 80 (by omega) (by omega) (by omega) (show k0_off52 k 9#32 = ![1, 16 * k.val + 9, 80] from k0_off52_eq k ⟨8, by decide⟩) x,
    rdRow d L R _ _ 1 (16 * k.val + 10) 80 (by omega) (by omega) (by omega) (show k0_off52 k 10#32 = ![1, 16 * k.val + 10, 80] from k0_off52_eq k ⟨9, by decide⟩) x,
    rdRow d L R _ _ 1 (16 * k.val + 11) 80 (by omega) (by omega) (by omega) (show k0_off52 k 11#32 = ![1, 16 * k.val + 11, 80] from k0_off52_eq k ⟨10, by decide⟩) x,
    rdRow d L R _ _ 1 (16 * k.val + 12) 80 (by omega) (by omega) (by omega) (show k0_off52 k 12#32 = ![1, 16 * k.val + 12, 80] from k0_off52_eq k ⟨11, by decide⟩) x,
    rdRow d L R _ _ 1 (16 * k.val + 13) 80 (by omega) (by omega) (by omega) (show k0_off52 k 13#32 = ![1, 16 * k.val + 13, 80] from k0_off52_eq k ⟨12, by decide⟩) x,
    rdRow d L R _ _ 1 (16 * k.val + 14) 80 (by omega) (by omega) (by omega) (show k0_off52 k 14#32 = ![1, 16 * k.val + 14, 80] from k0_off52_eq k ⟨13, by decide⟩) x,
    rdRow d L R _ _ 1 (16 * k.val + 15) 80 (by omega) (by omega) (by omega) (show k0_off52 k 15#32 = ![1, 16 * k.val + 15, 80] from k0_off52_eq k ⟨14, by decide⟩) x]
  rw [embRow _ _ 1 k.val 80 (by omega) (by omega) (by omega) (show k0_off53 k = ![1, k.val, 80] from k0_off53_eq k) x]
  rfl

/-- Chunk 6 of slot 1: the stored vector, lane by lane, is the left-to-right sum of the sixteen loaded vectors. -/
theorem pay1_6 (v0 v1 v2 v3 v4 v5 v6 v7 v8 v9 v10 v11 v12 v13 v14 v15 : Vec F S1x1x16 .f32) (x : S1x1x16.Idx) :
    (k0_pay62 (k0_pay61 (k0_pay60 (k0_pay59 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay62, k0_pay61, k0_pay60, k0_pay59, shapeCast, addf, Shape.reshapeEquiv_reshapeEquiv, Shape.reshapeEquiv_self]

/-- What chunk 6 of a trip of slot 1 stores: the sum of the sixteen vectors it loads. -/
def pc1_6 (R : Buf (Elt F) ((s2W).view.loc thrL)) (k : Fin k0_t3_loop.trips) : FVec F S1x1x16 .f32 :=
  (k0_pay62 (k0_pay61 (k0_pay60 (k0_pay59 (rdAt d L R (k0_off54 k) (k0_off54_inb k)) (rdAt d L R (k0_off55 k 1#32) (k0_off55_inb k ⟨0, by decide⟩)) (rdAt d L R (k0_off55 k 2#32) (k0_off55_inb k ⟨1, by decide⟩)) (rdAt d L R (k0_off55 k 3#32) (k0_off55_inb k ⟨2, by decide⟩)) (rdAt d L R (k0_off55 k 4#32) (k0_off55_inb k ⟨3, by decide⟩))) (rdAt d L R (k0_off55 k 5#32) (k0_off55_inb k ⟨4, by decide⟩)) (rdAt d L R (k0_off55 k 6#32) (k0_off55_inb k ⟨5, by decide⟩)) (rdAt d L R (k0_off55 k 7#32) (k0_off55_inb k ⟨6, by decide⟩)) (rdAt d L R (k0_off55 k 8#32) (k0_off55_inb k ⟨7, by decide⟩)) (rdAt d L R (k0_off55 k 9#32) (k0_off55_inb k ⟨8, by decide⟩))) (rdAt d L R (k0_off55 k 10#32) (k0_off55_inb k ⟨9, by decide⟩)) (rdAt d L R (k0_off55 k 11#32) (k0_off55_inb k ⟨10, by decide⟩)) (rdAt d L R (k0_off55 k 12#32) (k0_off55_inb k ⟨11, by decide⟩)) (rdAt d L R (k0_off55 k 13#32) (k0_off55_inb k ⟨12, by decide⟩)) (rdAt d L R (k0_off55 k 14#32) (k0_off55_inb k ⟨13, by decide⟩)) (rdAt d L R (k0_off55 k 15#32) (k0_off55_inb k ⟨14, by decide⟩))))

/-- Chunk 6 of trip k of slot 1 stores, at lanes 96 … 111 of row k, the sums that row is to hold. -/
theorem chunk1_6 (R : Buf (Elt F) ((s2W).view.loc thrL)) (k : Fin k0_t3_loop.trips) (x : S1x1x16.Idx) :
    pc1_6 d L R k x
      = sumRow d L 1 R ((Rect.unit (s := S2x8x128) (k0_off56 k) S1x1x16.size (k0_off56_inb k)).emb x) := by
  have hk : k.val < 8 := lt_of_lt_of_le k.isLt k0_t3_abs.2.1
  unfold pc1_6
  rw [pay1_6]
  rw [rdRow d L R _ _ 1 (16 * k.val) 96 (by omega) (by omega) (by omega) (show k0_off54 k = ![1, 16 * k.val, 96] from k0_off54_eq k) x,
    rdRow d L R _ _ 1 (16 * k.val + 1) 96 (by omega) (by omega) (by omega) (show k0_off55 k 1#32 = ![1, 16 * k.val + 1, 96] from k0_off55_eq k ⟨0, by decide⟩) x,
    rdRow d L R _ _ 1 (16 * k.val + 2) 96 (by omega) (by omega) (by omega) (show k0_off55 k 2#32 = ![1, 16 * k.val + 2, 96] from k0_off55_eq k ⟨1, by decide⟩) x,
    rdRow d L R _ _ 1 (16 * k.val + 3) 96 (by omega) (by omega) (by omega) (show k0_off55 k 3#32 = ![1, 16 * k.val + 3, 96] from k0_off55_eq k ⟨2, by decide⟩) x,
    rdRow d L R _ _ 1 (16 * k.val + 4) 96 (by omega) (by omega) (by omega) (show k0_off55 k 4#32 = ![1, 16 * k.val + 4, 96] from k0_off55_eq k ⟨3, by decide⟩) x,
    rdRow d L R _ _ 1 (16 * k.val + 5) 96 (by omega) (by omega) (by omega) (show k0_off55 k 5#32 = ![1, 16 * k.val + 5, 96] from k0_off55_eq k ⟨4, by decide⟩) x,
    rdRow d L R _ _ 1 (16 * k.val + 6) 96 (by omega) (by omega) (by omega) (show k0_off55 k 6#32 = ![1, 16 * k.val + 6, 96] from k0_off55_eq k ⟨5, by decide⟩) x,
    rdRow d L R _ _ 1 (16 * k.val + 7) 96 (by omega) (by omega) (by omega) (show k0_off55 k 7#32 = ![1, 16 * k.val + 7, 96] from k0_off55_eq k ⟨6, by decide⟩) x,
    rdRow d L R _ _ 1 (16 * k.val + 8) 96 (by omega) (by omega) (by omega) (show k0_off55 k 8#32 = ![1, 16 * k.val + 8, 96] from k0_off55_eq k ⟨7, by decide⟩) x,
    rdRow d L R _ _ 1 (16 * k.val + 9) 96 (by omega) (by omega) (by omega) (show k0_off55 k 9#32 = ![1, 16 * k.val + 9, 96] from k0_off55_eq k ⟨8, by decide⟩) x,
    rdRow d L R _ _ 1 (16 * k.val + 10) 96 (by omega) (by omega) (by omega) (show k0_off55 k 10#32 = ![1, 16 * k.val + 10, 96] from k0_off55_eq k ⟨9, by decide⟩) x,
    rdRow d L R _ _ 1 (16 * k.val + 11) 96 (by omega) (by omega) (by omega) (show k0_off55 k 11#32 = ![1, 16 * k.val + 11, 96] from k0_off55_eq k ⟨10, by decide⟩) x,
    rdRow d L R _ _ 1 (16 * k.val + 12) 96 (by omega) (by omega) (by omega) (show k0_off55 k 12#32 = ![1, 16 * k.val + 12, 96] from k0_off55_eq k ⟨11, by decide⟩) x,
    rdRow d L R _ _ 1 (16 * k.val + 13) 96 (by omega) (by omega) (by omega) (show k0_off55 k 13#32 = ![1, 16 * k.val + 13, 96] from k0_off55_eq k ⟨12, by decide⟩) x,
    rdRow d L R _ _ 1 (16 * k.val + 14) 96 (by omega) (by omega) (by omega) (show k0_off55 k 14#32 = ![1, 16 * k.val + 14, 96] from k0_off55_eq k ⟨13, by decide⟩) x,
    rdRow d L R _ _ 1 (16 * k.val + 15) 96 (by omega) (by omega) (by omega) (show k0_off55 k 15#32 = ![1, 16 * k.val + 15, 96] from k0_off55_eq k ⟨14, by decide⟩) x]
  rw [embRow _ _ 1 k.val 96 (by omega) (by omega) (by omega) (show k0_off56 k = ![1, k.val, 96] from k0_off56_eq k) x]
  rfl

/-- Chunk 7 of slot 1: the stored vector, lane by lane, is the left-to-right sum of the sixteen loaded vectors. -/
theorem pay1_7 (v0 v1 v2 v3 v4 v5 v6 v7 v8 v9 v10 v11 v12 v13 v14 v15 : Vec F S1x1x16 .f32) (x : S1x1x16.Idx) :
    (k0_pay68 (k0_pay65 (k0_pay64 (k0_pay63 v0 v1 v2 v3 v4) v5 v6 v7 v8 v9) v10 v11 v12 v13 v14) (k0_pay66 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay68, k0_pay65, k0_pay64, k0_pay63, k0_pay66, shapeCast, addf, Shape.reshapeEquiv_reshapeEquiv, Shape.reshapeEquiv_self]

/-- What chunk 7 of a trip of slot 1 stores: the sum of the sixteen vectors it loads. -/
def pc1_7 (R : Buf (Elt F) ((s2W).view.loc thrL)) (k : Fin k0_t3_loop.trips) : FVec F S1x1x16 .f32 :=
  (k0_pay68 (k0_pay65 (k0_pay64 (k0_pay63 (rdAt d L R (k0_off57 k) (k0_off57_inb k)) (rdAt d L R (k0_off58 k 1#32) (k0_off58_inb k ⟨0, by decide⟩)) (rdAt d L R (k0_off58 k 2#32) (k0_off58_inb k ⟨1, by decide⟩)) (rdAt d L R (k0_off58 k 3#32) (k0_off58_inb k ⟨2, by decide⟩)) (rdAt d L R (k0_off58 k 4#32) (k0_off58_inb k ⟨3, by decide⟩))) (rdAt d L R (k0_off58 k 5#32) (k0_off58_inb k ⟨4, by decide⟩)) (rdAt d L R (k0_off58 k 6#32) (k0_off58_inb k ⟨5, by decide⟩)) (rdAt d L R (k0_off58 k 7#32) (k0_off58_inb k ⟨6, by decide⟩)) (rdAt d L R (k0_off58 k 8#32) (k0_off58_inb k ⟨7, by decide⟩)) (rdAt d L R (k0_off58 k 9#32) (k0_off58_inb k ⟨8, by decide⟩))) (rdAt d L R (k0_off58 k 10#32) (k0_off58_inb k ⟨9, by decide⟩)) (rdAt d L R (k0_off58 k 11#32) (k0_off58_inb k ⟨10, by decide⟩)) (rdAt d L R (k0_off58 k 12#32) (k0_off58_inb k ⟨11, by decide⟩)) (rdAt d L R (k0_off58 k 13#32) (k0_off58_inb k ⟨12, by decide⟩)) (rdAt d L R (k0_off58 k 14#32) (k0_off58_inb k ⟨13, by decide⟩))) (k0_pay66 (rdAt d L R (k0_off58 k 15#32) (k0_off58_inb k ⟨14, by decide⟩))))

/-- Chunk 7 of trip k of slot 1 stores, at lanes 112 … 127 of row k, the sums that row is to hold. -/
theorem chunk1_7 (R : Buf (Elt F) ((s2W).view.loc thrL)) (k : Fin k0_t3_loop.trips) (x : S1x1x16.Idx) :
    pc1_7 d L R k x
      = sumRow d L 1 R ((Rect.unit (s := S2x8x128) (k0_off59 k) S1x1x16.size (k0_off59_inb k)).emb x) := by
  have hk : k.val < 8 := lt_of_lt_of_le k.isLt k0_t3_abs.2.1
  unfold pc1_7
  rw [pay1_7]
  rw [rdRow d L R _ _ 1 (16 * k.val) 112 (by omega) (by omega) (by omega) (show k0_off57 k = ![1, 16 * k.val, 112] from k0_off57_eq k) x,
    rdRow d L R _ _ 1 (16 * k.val + 1) 112 (by omega) (by omega) (by omega) (show k0_off58 k 1#32 = ![1, 16 * k.val + 1, 112] from k0_off58_eq k ⟨0, by decide⟩) x,
    rdRow d L R _ _ 1 (16 * k.val + 2) 112 (by omega) (by omega) (by omega) (show k0_off58 k 2#32 = ![1, 16 * k.val + 2, 112] from k0_off58_eq k ⟨1, by decide⟩) x,
    rdRow d L R _ _ 1 (16 * k.val + 3) 112 (by omega) (by omega) (by omega) (show k0_off58 k 3#32 = ![1, 16 * k.val + 3, 112] from k0_off58_eq k ⟨2, by decide⟩) x,
    rdRow d L R _ _ 1 (16 * k.val + 4) 112 (by omega) (by omega) (by omega) (show k0_off58 k 4#32 = ![1, 16 * k.val + 4, 112] from k0_off58_eq k ⟨3, by decide⟩) x,
    rdRow d L R _ _ 1 (16 * k.val + 5) 112 (by omega) (by omega) (by omega) (show k0_off58 k 5#32 = ![1, 16 * k.val + 5, 112] from k0_off58_eq k ⟨4, by decide⟩) x,
    rdRow d L R _ _ 1 (16 * k.val + 6) 112 (by omega) (by omega) (by omega) (show k0_off58 k 6#32 = ![1, 16 * k.val + 6, 112] from k0_off58_eq k ⟨5, by decide⟩) x,
    rdRow d L R _ _ 1 (16 * k.val + 7) 112 (by omega) (by omega) (by omega) (show k0_off58 k 7#32 = ![1, 16 * k.val + 7, 112] from k0_off58_eq k ⟨6, by decide⟩) x,
    rdRow d L R _ _ 1 (16 * k.val + 8) 112 (by omega) (by omega) (by omega) (show k0_off58 k 8#32 = ![1, 16 * k.val + 8, 112] from k0_off58_eq k ⟨7, by decide⟩) x,
    rdRow d L R _ _ 1 (16 * k.val + 9) 112 (by omega) (by omega) (by omega) (show k0_off58 k 9#32 = ![1, 16 * k.val + 9, 112] from k0_off58_eq k ⟨8, by decide⟩) x,
    rdRow d L R _ _ 1 (16 * k.val + 10) 112 (by omega) (by omega) (by omega) (show k0_off58 k 10#32 = ![1, 16 * k.val + 10, 112] from k0_off58_eq k ⟨9, by decide⟩) x,
    rdRow d L R _ _ 1 (16 * k.val + 11) 112 (by omega) (by omega) (by omega) (show k0_off58 k 11#32 = ![1, 16 * k.val + 11, 112] from k0_off58_eq k ⟨10, by decide⟩) x,
    rdRow d L R _ _ 1 (16 * k.val + 12) 112 (by omega) (by omega) (by omega) (show k0_off58 k 12#32 = ![1, 16 * k.val + 12, 112] from k0_off58_eq k ⟨11, by decide⟩) x,
    rdRow d L R _ _ 1 (16 * k.val + 13) 112 (by omega) (by omega) (by omega) (show k0_off58 k 13#32 = ![1, 16 * k.val + 13, 112] from k0_off58_eq k ⟨12, by decide⟩) x,
    rdRow d L R _ _ 1 (16 * k.val + 14) 112 (by omega) (by omega) (by omega) (show k0_off58 k 14#32 = ![1, 16 * k.val + 14, 112] from k0_off58_eq k ⟨13, by decide⟩) x,
    rdRow d L R _ _ 1 (16 * k.val + 15) 112 (by omega) (by omega) (by omega) (show k0_off58 k 15#32 = ![1, 16 * k.val + 15, 112] from k0_off58_eq k ⟨14, by decide⟩) x]
  rw [embRow _ _ 1 k.val 112 (by omega) (by omega) (by omega) (show k0_off59 k = ![1, k.val, 112] from k0_off59_eq k) x]
  rfl

/-- The store of chunk 0 of trip k of slot 1: its rectangle and what it stores. -/
def piece1_0 (R : Buf (Elt F) ((s2W).view.loc thrL)) (k : Fin k0_t3_loop.trips) : View.Piece (Elt F) cc0_scratch3.ty.shape cc0_scratch3.ty.elt :=
  ⟨Rect.unit (s := S2x8x128) (k0_off38 k) S1x1x16.size (k0_off38_inb k), pc1_0 d L R k⟩

/-- The store of chunk 1 of trip k of slot 1: its rectangle and what it stores. -/
def piece1_1 (R : Buf (Elt F) ((s2W).view.loc thrL)) (k : Fin k0_t3_loop.trips) : View.Piece (Elt F) cc0_scratch3.ty.shape cc0_scratch3.ty.elt :=
  ⟨Rect.unit (s := S2x8x128) (k0_off41 k) S1x1x16.size (k0_off41_inb k), pc1_1 d L R k⟩

/-- The store of chunk 2 of trip k of slot 1: its rectangle and what it stores. -/
def piece1_2 (R : Buf (Elt F) ((s2W).view.loc thrL)) (k : Fin k0_t3_loop.trips) : View.Piece (Elt F) cc0_scratch3.ty.shape cc0_scratch3.ty.elt :=
  ⟨Rect.unit (s := S2x8x128) (k0_off44 k) S1x1x16.size (k0_off44_inb k), pc1_2 d L R k⟩

/-- The store of chunk 3 of trip k of slot 1: its rectangle and what it stores. -/
def piece1_3 (R : Buf (Elt F) ((s2W).view.loc thrL)) (k : Fin k0_t3_loop.trips) : View.Piece (Elt F) cc0_scratch3.ty.shape cc0_scratch3.ty.elt :=
  ⟨Rect.unit (s := S2x8x128) (k0_off47 k) S1x1x16.size (k0_off47_inb k), pc1_3 d L R k⟩

/-- The store of chunk 4 of trip k of slot 1: its rectangle and what it stores. -/
def piece1_4 (R : Buf (Elt F) ((s2W).view.loc thrL)) (k : Fin k0_t3_loop.trips) : View.Piece (Elt F) cc0_scratch3.ty.shape cc0_scratch3.ty.elt :=
  ⟨Rect.unit (s := S2x8x128) (k0_off50 k) S1x1x16.size (k0_off50_inb k), pc1_4 d L R k⟩

/-- The store of chunk 5 of trip k of slot 1: its rectangle and what it stores. -/
def piece1_5 (R : Buf (Elt F) ((s2W).view.loc thrL)) (k : Fin k0_t3_loop.trips) : View.Piece (Elt F) cc0_scratch3.ty.shape cc0_scratch3.ty.elt :=
  ⟨Rect.unit (s := S2x8x128) (k0_off53 k) S1x1x16.size (k0_off53_inb k), pc1_5 d L R k⟩

/-- The store of chunk 6 of trip k of slot 1: its rectangle and what it stores. -/
def piece1_6 (R : Buf (Elt F) ((s2W).view.loc thrL)) (k : Fin k0_t3_loop.trips) : View.Piece (Elt F) cc0_scratch3.ty.shape cc0_scratch3.ty.elt :=
  ⟨Rect.unit (s := S2x8x128) (k0_off56 k) S1x1x16.size (k0_off56_inb k), pc1_6 d L R k⟩

/-- The store of chunk 7 of trip k of slot 1: its rectangle and what it stores. -/
def piece1_7 (R : Buf (Elt F) ((s2W).view.loc thrL)) (k : Fin k0_t3_loop.trips) : View.Piece (Elt F) cc0_scratch3.ty.shape cc0_scratch3.ty.elt :=
  ⟨Rect.unit (s := S2x8x128) (k0_off59 k) S1x1x16.size (k0_off59_inb k), pc1_7 d L R k⟩

/-- The eight stores of trip k of slot 1, the last first. -/
def pieces1 (R : Buf (Elt F) ((s2W).view.loc thrL)) (k : Fin k0_t3_loop.trips) : List (View.Piece (Elt F) cc0_scratch3.ty.shape cc0_scratch3.ty.elt) :=
  [piece1_7 d L R k, piece1_6 d L R k, piece1_5 d L R k, piece1_4 d L R k, piece1_3 d L R k, piece1_2 d L R k, piece1_1 d L R k, piece1_0 d L R k]

/-- One trip of slot 1: if rows below k of the slot's sums hold their sums before the trip's eight stores, rows below k + 1 do after
    them. Row k is covered lane by lane by the eight chunks, each storing that row's sums; the other rows are not touched. -/
theorem tripPure1 (R : Buf (Elt F) ((s2W).view.loc thrL)) (N' : Buf (Elt F) ((s3W).view.loc thrL)) (k : Fin k0_t3_loop.trips)
    (hdone : ∀ p : Fin 8, p.val < k.val → rowDone d L 1 R N' p) :
    ∀ p : Fin 8, p.val < k.val + 1 → rowDone d L 1 R ((s3W).view.writes (Elt F) N' (pieces1 d L R k)) p := by
  have hk : k.val < 8 := lt_of_lt_of_le k.isLt k0_t3_abs.2.1
  intro p hp l
  have hpieces : ∀ q ∈ pieces1 d L R k, ∀ x : q.1.shape.Idx, q.2 x = sumRow d L 1 R (q.1.emb x) := by
    intro q hq
    simp only [pieces1, List.mem_cons, List.not_mem_nil, _root_.or_false] at hq
    rcases hq with rfl | rfl | rfl | rfl | rfl | rfl | rfl | rfl
    · exact fun x => chunk1_7 d L R k x
    · exact fun x => chunk1_6 d L R k x
    · exact fun x => chunk1_5 d L R k x
    · exact fun x => chunk1_4 d L R k x
    · exact fun x => chunk1_3 d L R k x
    · exact fun x => chunk1_2 d L R k x
    · exact fun x => chunk1_1 d L R k x
    · exact fun x => chunk1_0 d L R k x
  by_cases hpk : p.val = k.val
  · have hcov : ∃ q ∈ pieces1 d L R k, (ix3 1 p l : S2x8x128.Idx) ∈ q.1.set := by
      have hl := l.isLt
      rcases (show l.val / 16 = 0 ∨ l.val / 16 = 1 ∨ l.val / 16 = 2 ∨ l.val / 16 = 3 ∨ l.val / 16 = 4 ∨ l.val / 16 = 5 ∨ l.val / 16 = 6 ∨ l.val / 16 = 7 by omega)
        with h | h | h | h | h | h | h | h
      · exact ⟨piece1_0 d L R k, (List.mem_cons_of_mem _ (List.mem_cons_of_mem _ (List.mem_cons_of_mem _ (List.mem_cons_of_mem _ (List.mem_cons_of_mem _ (List.mem_cons_of_mem _ (List.mem_cons_of_mem _ List.mem_cons_self))))))),
          memRow _ (k0_off38_inb k) 1 k.val 0 (show k0_off38 k = ![1, k.val, 0] from k0_off38_eq k) 1 p l rfl hpk (by omega)⟩
      · exact ⟨piece1_1 d L R k, (List.mem_cons_of_mem _ (List.mem_cons_of_mem _ (List.mem_cons_of_mem _ (List.mem_cons_of_mem _ (List.mem_cons_of_mem _ (List.mem_cons_of_mem _ List.mem_cons_self)))))),
          memRow _ (k0_off41_inb k) 1 k.val 16 (show k0_off41 k = ![1, k.val, 16] from k0_off41_eq k) 1 p l rfl hpk (by omega)⟩
      · exact ⟨piece1_2 d L R k, (List.mem_cons_of_mem _ (List.mem_cons_of_mem _ (List.mem_cons_of_mem _ (List.mem_cons_of_mem _ (List.mem_cons_of_mem _ List.mem_cons_self))))),
          memRow _ (k0_off44_inb k) 1 k.val 32 (show k0_off44 k = ![1, k.val, 32] from k0_off44_eq k) 1 p l rfl hpk (by omega)⟩
      · exact ⟨piece1_3 d L R k, (List.mem_cons_of_mem _ (List.mem_cons_of_mem _ (List.mem_cons_of_mem _ (List.mem_cons_of_mem _ List.mem_cons_self)))),
          memRow _ (k0_off47_inb k) 1 k.val 48 (show k0_off47 k = ![1, k.val, 48] from k0_off47_eq k) 1 p l rfl hpk (by omega)⟩
      · exact ⟨piece1_4 d L R k, (List.mem_cons_of_mem _ (List.mem_cons_of_mem _ (List.mem_cons_of_mem _ List.mem_cons_self))),
          memRow _ (k0_off50_inb k) 1 k.val 64 (show k0_off50 k = ![1, k.val, 64] from k0_off50_eq k) 1 p l rfl hpk (by omega)⟩
      · exact ⟨piece1_5 d L R k, (List.mem_cons_of_mem _ (List.mem_cons_of_mem _ List.mem_cons_self)),
          memRow _ (k0_off53_inb k) 1 k.val 80 (show k0_off53 k = ![1, k.val, 80] from k0_off53_eq k) 1 p l rfl hpk (by omega)⟩
      · exact ⟨piece1_6 d L R k, (List.mem_cons_of_mem _ List.mem_cons_self),
          memRow _ (k0_off56_inb k) 1 k.val 96 (show k0_off56 k = ![1, k.val, 96] from k0_off56_eq k) 1 p l rfl hpk (by omega)⟩
      · exact ⟨piece1_7 d L R k, List.mem_cons_self,
          memRow _ (k0_off59_inb k) 1 k.val 112 (show k0_off59 k = ![1, k.val, 112] from k0_off59_eq k) 1 p l rfl hpk (by omega)⟩
    exact View.read_writes_apply_of_pieces (s3W).view N' (sumRow d L 1 R) (pieces1 d L R k) hpieces (ix3 1 p l) hcov
  · have hlt : p.val < k.val := by omega
    have hnm : ∀ q ∈ pieces1 d L R k, (ix3 1 p l : S2x8x128.Idx) ∉ q.1.set := by
      intro q hq
      simp only [pieces1, List.mem_cons, List.not_mem_nil, _root_.or_false] at hq
      rcases hq with rfl | rfl | rfl | rfl | rfl | rfl | rfl | rfl
      · exact notMemRow _ (k0_off59_inb k) 1 k.val 112 (show k0_off59 k = ![1, k.val, 112] from k0_off59_eq k) 1 p l hpk
      · exact notMemRow _ (k0_off56_inb k) 1 k.val 96 (show k0_off56 k = ![1, k.val, 96] from k0_off56_eq k) 1 p l hpk
      · exact notMemRow _ (k0_off53_inb k) 1 k.val 80 (show k0_off53 k = ![1, k.val, 80] from k0_off53_eq k) 1 p l hpk
      · exact notMemRow _ (k0_off50_inb k) 1 k.val 64 (show k0_off50 k = ![1, k.val, 64] from k0_off50_eq k) 1 p l hpk
      · exact notMemRow _ (k0_off47_inb k) 1 k.val 48 (show k0_off47 k = ![1, k.val, 48] from k0_off47_eq k) 1 p l hpk
      · exact notMemRow _ (k0_off44_inb k) 1 k.val 32 (show k0_off44 k = ![1, k.val, 32] from k0_off44_eq k) 1 p l hpk
      · exact notMemRow _ (k0_off41_inb k) 1 k.val 16 (show k0_off41 k = ![1, k.val, 16] from k0_off41_eq k) 1 p l hpk
      · exact notMemRow _ (k0_off38_inb k) 1 k.val 0 (show k0_off38 k = ![1, k.val, 0] from k0_off38_eq k) 1 p l hpk
    exact (View.read_writes_apply_of_forall_not_mem (s3W).view N' (ix3 1 p l) (pieces1 d L R k) hnm).trans (hdone p hlt l)

end Cert.KI
end
-- ==== Proof.Reduce.lean ====
/-
  The two inner reduction loops of a vector subcore, with the values they leave.

  Slot j's loop makes eight trips; trip p sums rows 16 p … 16 p + 15 of slot j of the rows scratch [2, 128, 128] into
  row p of slot j of the sums scratch [2, 8, 128], sixteen lanes at a time, left to right. The loop is run at the
  invariant "the rows below the trip hold their sums"; one trip's arithmetic is the slot's trip lemma. A slot is held
  as the whole scratch less the other slot's rows.
-/
import proofs.«208587_g27212912787602_cont_9to1_1073_18_alg».proof.Proof.Pay
import proofs.«208587_g27212912787602_cont_9to1_1073_18_alg».proof.Proof.ReduceFrame
import proofs.«208587_g27212912787602_cont_9to1_1073_18_alg».proof.Proof.ReduceVal0
import proofs.«208587_g27212912787602_cont_9to1_1073_18_alg».proof.Proof.ReduceVal1
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]
variable (d : Dev nD) (L : grid0.Coords)
/- The vector subcore at grid point `L` of device `d`. -/
local notation "thrL" => (V d ((L 0).castLE hcore0) ((L 1).castLE hsub0) : Thread nD τ)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)
local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)

/-- Slot 0's loop invariant: the rows scratch less slot 1's rows at its contents; the sums scratch less slot 1's rows at
    contents whose rows below the trip hold their sums. -/
def inv0 (R : Buf (Elt F) ((s2W).view.loc thrL)) (k : Nat) (_ : Unit) : sProp 𝕄 :=
  iprop(((s2W).view.loc thrL ↦[Finset.univ \ (rows1M).view.set]{fullShare} R)
    ∗ ∃ N', ((s3W).view.loc thrL ↦[Finset.univ \ (nbuf1M).view.set]{fullShare} N') ∗ ⌜∀ p : Fin 8, p.val < k → rowDone d L 0 R N' p⌝)

/-- Slot 0's reduction: after its eight trips each of the eight rows of slot 0 of the sums scratch holds, lane by lane, the
    left-to-right sum of the sixteen rows of slot 0 of the rows scratch it stands for; the rows scratch is unchanged. -/
theorem reduce0 (R : Buf (Elt F) ((s2W).view.loc thrL)) (N : Buf (Elt F) ((s3W).view.loc thrL))
    (v2 c0 c1 : BitVec 32) (k1 : Fin k0_t1_loop.trips) :
    (iprop(((s2W).view.loc thrL ↦[Finset.univ \ (rows1M).view.set]{fullShare} R) ∗ ((s3W).view.loc thrL ↦[Finset.univ \ (nbuf1M).view.set]{fullShare} N)) : sProp 𝕄)
      ⊢ wp frame (wpE (defs₀ (F := F)) 𝒱₀ thrL none) Set.univ
          (Scf.Loop.for k0_t2_loop k0_t2_ok ⟨⟩ (k0_t2_body L embW (Memref.isWhole_whole _) inW (Memref.isWhole_whole _) isW (Memref.isWhole_whole _) soW (Memref.isWhole_whole _) noW (Memref.isWhole_whole _)
            s0W (Memref.isWhole_whole _) s1W (Memref.isWhole_whole _) s2W (Memref.isWhole_whole _) s3W (Memref.isWhole_whole _) s4W (Memref.isWhole_whole _)
            cc0_scratch5 cc0_scratch6 cc0_scratch7 cc0_scratch8 cc0_scoped0 cc0_scoped1 v2 c0 c1 k1))
          fun _ => iprop(((s2W).view.loc thrL ↦[Finset.univ \ (rows1M).view.set]{fullShare} R)
            ∗ ∃ N', ((s3W).view.loc thrL ↦[Finset.univ \ (nbuf1M).view.set]{fullShare} N')
              ∗ ⌜∀ (p : Fin 8) (l : Fin 128), N' (ix3 (0 : Fin 2) p l)
                  = chain16 fun r : Fin 16 => R (ix3 (0 : Fin 2) ⟨16 * p.val + r.val, by omega⟩ l)⌝) := by
  iintro ⟨HR, HN⟩
  sl_for (inv0 d L R) $$ [HR HN]
  case region =>
    intro k _
    unfold inv0
    iintro ⟨HR, %N', HN, %hdone⟩
    sl_exec_parts
    sl_step
    isplitl [HR]; · iexact HR
    iexists _
    isplitl [HN]; · iexact HN
    ipureintro
    exact tripPure0 d L R N' k hdone
  isplitl [HR HN]
  · unfold inv0
    isplitl [HR]; · iexact HR
    iexists _
    isplitl [HN]; · iexact HN
    ipureintro; intro p hp; exact absurd hp (Nat.not_lt_zero _)
  iintro %_ HI
  unfold inv0
  icases HI with ⟨HR, %N', HN, %hdone⟩
  isplitl [HR]; · iexact HR
  iexists _
  isplitl [HN]; · iexact HN
  ipureintro; intro p l; exact hdone p p.isLt l

/-- Slot 1's loop invariant: the rows scratch less slot 0's rows at its contents; the sums scratch less slot 0's rows at
    contents whose rows below the trip hold their sums. -/
def inv1 (R : Buf (Elt F) ((s2W).view.loc thrL)) (k : Nat) (_ : Unit) : sProp 𝕄 :=
  iprop(((s2W).view.loc thrL ↦[Finset.univ \ (rows0M).view.set]{fullShare} R)
    ∗ ∃ N', ((s3W).view.loc thrL ↦[Finset.univ \ (nbuf0M).view.set]{fullShare} N') ∗ ⌜∀ p : Fin 8, p.val < k → rowDone d L 1 R N' p⌝)

/-- Slot 1's reduction: after its eight trips each of the eight rows of slot 1 of the sums scratch holds, lane by lane, the
    left-to-right sum of the sixteen rows of slot 1 of the rows scratch it stands for; the rows scratch is unchanged. -/
theorem reduce1 (R : Buf (Elt F) ((s2W).view.loc thrL)) (N : Buf (Elt F) ((s3W).view.loc thrL))
    (v2 : BitVec 32) (k1 : Fin k0_t1_loop.trips) (a16 v52 : BitVec 32) :
    (iprop(((s2W).view.loc thrL ↦[Finset.univ \ (rows0M).view.set]{fullShare} R) ∗ ((s3W).view.loc thrL ↦[Finset.univ \ (nbuf0M).view.set]{fullShare} N)) : sProp 𝕄)
      ⊢ wp frame (wpE (defs₀ (F := F)) 𝒱₀ thrL none) Set.univ
          (Scf.Loop.for k0_t3_loop k0_t3_ok ⟨⟩ (k0_t3_body L embW (Memref.isWhole_whole _) inW (Memref.isWhole_whole _) isW (Memref.isWhole_whole _) soW (Memref.isWhole_whole _) noW (Memref.isWhole_whole _)
            s0W (Memref.isWhole_whole _) s1W (Memref.isWhole_whole _) s2W (Memref.isWhole_whole _) s3W (Memref.isWhole_whole _) s4W (Memref.isWhole_whole _)
            cc0_scratch5 cc0_scratch6 cc0_scratch7 cc0_scratch8 cc0_scoped0 cc0_scoped1 v2 k1 a16 v52))
          fun _ => iprop(((s2W).view.loc thrL ↦[Finset.univ \ (rows0M).view.set]{fullShare} R)
            ∗ ∃ N', ((s3W).view.loc thrL ↦[Finset.univ \ (nbuf0M).view.set]{fullShare} N')
              ∗ ⌜∀ (p : Fin 8) (l : Fin 128), N' (ix3 (1 : Fin 2) p l)
                  = chain16 fun r : Fin 16 => R (ix3 (1 : Fin 2) ⟨16 * p.val + r.val, by omega⟩ l)⌝) := by
  iintro ⟨HR, HN⟩
  sl_for (inv1 d L R) $$ [HR HN]
  case region =>
    intro k _
    unfold inv1
    iintro ⟨HR, %N', HN, %hdone⟩
    sl_exec_parts
    sl_step
    isplitl [HR]; · iexact HR
    iexists _
    isplitl [HN]; · iexact HN
    ipureintro
    exact tripPure1 d L R N' k hdone
  isplitl [HR HN]
  · unfold inv1
    isplitl [HR]; · iexact HR
    iexists _
    isplitl [HN]; · iexact HN
    ipureintro; intro p hp; exact absurd hp (Nat.not_lt_zero _)
  iintro %_ HI
  unfold inv1
  icases HI with ⟨HR, %N', HN, %hdone⟩
  isplitl [HR]; · iexact HR
  iexists _
  isplitl [HN]; · iexact HN
  ipureintro; intro p l; exact hdone p p.isLt l

end Cert.KI
end
-- ==== Proof.TileHarvest.lean ====
/-
  The own-row stream of a vector subcore at a trip that harvests.

  At trips k with k % 8 = 4 the subcore waits for the gather of block k / 8 of its own rows, copies the 128 gathered
  rows into rows base + 128 (k / 8) … of the own-row result, waits for that copy, and, unless this was the last block,
  starts the gather of block k / 8 + 1. Here: the offsets of that window and of the next block's index row in closed
  form; that the window lies in the subcore's own rows; what the own-rows scratch holds after the next gather; which
  rows of the result are done after the copy; and how the pieces the run leaves make up the stream's invariant at the
  next trip.
-/
import proofs.«208587_g27212912787602_cont_9to1_1073_18_alg».proof.Proof.TileInv
import proofs.«208587_g27212912787602_cont_9to1_1073_18_alg».proof.Proof.GatherVal
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)

local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)
local notation "embV" => ((Memref.whole Cert.KernelIdeal.main_arg1_scv : Memref Cert.KernelIdeal.sig Kind.scVector Space.hbm Cert.KernelIdeal.S100001x128 EltTy.f32).slice (Rect.unit (s := Cert.KernelIdeal.S100001x128) ![0, 0] Cert.KernelIdeal.S100001x128.size Cert.KernelIdeal.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

/-! ## Closed forms -/

theorem cond2_iff : ∀ k : Fin k0_t1_loop.trips, k0_cond2 k = 1#1 ↔ k.val < 56 := by decide +kernel
theorem off4_eq : ∀ (i : grid0.Coords) (k : Fin k0_t1_loop.trips), k0_off4 i k = ![2048 * (i 1).val + 1024 * (i 0).val + 128 * (k.val / 8), 0] := by decide +kernel
theorem off5_eq : ∀ k : Fin k0_t1_loop.trips, k0_off5 k = ![k.val / 8 + 1, 0] := by decide +kernel
theorem off4_0 (L : grid0.Coords) (k : Fin k0_t1_loop.trips) : k0_off4 L k 0 = base L + 128 * (k.val / 8) := by rw [off4_eq]; rfl
theorem off4_1 (L : grid0.Coords) (k : Fin k0_t1_loop.trips) : k0_off4 L k 1 = 0 := by rw [off4_eq]; rfl
theorem off5_0 (k : Fin k0_t1_loop.trips) : k0_off5 k 0 = k.val / 8 + 1 := by rw [off5_eq]; rfl
theorem off5_1 (k : Fin k0_t1_loop.trips) : k0_off5 k 1 = 0 := by rw [off5_eq]; rfl

/-! ## The window of the own-row result -/

/-- The 128 rows a harvesting trip copies into lie in the subcore's own rows: they miss everything outside them. -/
theorem off4_disj_others (L : grid0.Coords) (k : Fin k0_t1_loop.trips) (h1 : k0_cond1 k = 1#1) :
    Disjoint ((soW).slice (Rect.unit (s := S32768x128) (k0_off4 L k) S128x128.size (k0_off4_inb L k h1)) (fun _ => rfl)).view.set (Oth L) := by
  have hk := trips_lt k
  unfold Oth
  refine win128_disj_others (cL L) (sL L) _ _ (off4_1 L k) ?_ ?_
  · rw [off4_0]; show 2048 * (L 1).val + 1024 * (L 0).val ≤ 2048 * (L 1).val + 1024 * (L 0).val + 128 * (k.val / 8); omega
  · rw [off4_0]; show 2048 * (L 1).val + 1024 * (L 0).val + 128 * (k.val / 8) + 128 ≤ 2048 * (L 1).val + 1024 * (L 0).val + 1024; omega

/-! ## The values -/

/-- After the gather of block k / 8 + 1 the own-rows scratch holds that block's table rows. -/
theorem harvest_srows (k : Fin k0_t1_loop.trips) (h1 : k0_cond1 k = 1#1) (h2 : k0_cond2 k = 1#1) (hk8 : k.val % 8 = 4) (hk56 : k.val < 56)
    (R : Buf (Elt F) ((s4W).view.loc (thr d L)))
    (hinS : ∀ x, ((offS (k0_off5 k) (k0_off5_inb k h1 h2)).view.read (Elt F) idxs x).toNat < S100001x128.size gathers_S100001x128_S128x128.axis) :
    SRowsOK m d L idxs ((k.val + 1 + 3) / 8)
      ((s4W).view.writes (Elt F) R [⟨Rect.whole cc0_scratch4.ty.shape,
        SparseCore.gatherPayload gathers_S100001x128_S128x128 ((embV).view.read (Elt F) (m (embLoc d)))
          (SparseCore.rows ((offS (k0_off5 k) (k0_off5_inb k h1 h2)).view.read (Elt F) idxs) rfl hinS)⟩]) := by
  unfold SRowsOK
  intro a b
  refine (congrFun (s4_writes R _) (ix2 a b)).trans ?_
  rw [gather_val_s' (m (embLoc d)) idxs (k0_off5 k) (k0_off5_inb k h1 h2) (off5_1 k) hinS a b]
  have e0 := off5_0 k
  have e8 : (k.val + 1 + 3) / 8 % 8 = k.val / 8 + 1 := by omega
  simp only [e0, e8]

/-- After the copy of block k / 8 the rows of the own-row result below base + 128 (k / 8 + 1) hold the gathered rows: the window's
    128 rows are the block's rows, which the own-index scratch names as the own-index list does; the rows below were done before. -/
theorem harvest_rows
    (hidxs : ∀ (j : Fin 8) (a : Fin 128), idxs (ix2 j a)
      = Is (ix2 (⟨8 * (2 * (L 1).val + (L 0).val) + j.val, by
          have h1 : (L 1).val < 16 := (L 1).isLt; have h0 : (L 0).val < 2 := (L 0).isLt; have := j.isLt; omega⟩ : Fin 256) a))
    (k : Fin k0_t1_loop.trips) (h1 : k0_cond1 k = 1#1) (hk8 : k.val % 8 = 4)
    (R : Buf (Elt F) ((s4W).view.loc (thr d L))) (hR : SRowsOK m d L idxs ((k.val + 3) / 8) R)
    (gs : Buf (Elt F) ((soW).view.loc (thr d L)))
    (hgs : ∀ y : S32768x128.Idx, base L ≤ (y 0).val → (y 0).val < base L + 128 * ((k.val + 3) / 8) → gs y = selfVal (m (embLoc d)) Is y) :
    ∀ y : S32768x128.Idx, base L ≤ (y 0).val → (y 0).val < base L + 128 * ((k.val + 1 + 3) / 8) →
      View.write (Elt F) ((soW).slice (Rect.unit (s := S32768x128) (k0_off4 L k) S128x128.size (k0_off4_inb L k h1)) (fun _ => rfl)).view gs
        (ReadAs.same.apply ((s4W).view.read (Elt F) R)) Finset.univ y = selfVal (m (embLoc d)) Is y := by
  intro y hlo hhi
  have hk := trips_lt k
  have o0 := off4_0 L k
  have o1 := off4_1 L k
  have hL1 : (L 1).val < 16 := (L 1).isLt
  have hL0 : (L 0).val < 2 := (L 0).isLt
  have hy1 : (y 1).val < 128 := (y 1).isLt
  by_cases hin : y ∈ ((soW).slice (Rect.unit (s := S32768x128) (k0_off4 L k) S128x128.size (k0_off4_inb L k h1)) (fun _ => rfl)).view.set
  · have hb := (mem_win128 _ _ o1 y).mp hin
    rw [o0] at hb
    have ha : (y 0).val - (base L + 128 * (k.val / 8)) < 128 := by omega
    let a : Fin 128 := ⟨(y 0).val - (base L + 128 * (k.val / 8)), ha⟩
    let b : Fin 128 := ⟨(y 1).val, hy1⟩
    have hy : ((soW).slice (Rect.unit (s := S32768x128) (k0_off4 L k) S128x128.size (k0_off4_inb L k h1)) (fun _ => rfl)).view.emb (ix2 a b) = y := by
      rw [win128_emb _ _ o1 (ix2 a b)]
      funext c
      refine Fin.ext ?_
      match c with
      | ⟨0, _⟩ => show k0_off4 L k 0 + ((y 0).val - (base L + 128 * (k.val / 8))) = (y 0).val; rw [o0]; omega
      | ⟨1, _⟩ => rfl
    have hw := win128_write_emb (k0_off4 L k) (k0_off4_inb L k h1) gs (ReadAs.same.apply ((s4W).view.read (Elt F) R)) (ix2 a b)
    rw [hy] at hw
    rw [hw]
    show R (ix2 a b) = _
    rw [hR a b, hidxs]
    unfold selfVal wordAt
    have eA : (⟨8 * (2 * (L 1).val + (L 0).val) + ((k.val + 3) / 8 % 8), by omega⟩ : Fin 256) = ⟨(y 0).val / 128, by have := (y 0).isLt; show (y 0).val / 128 < 256; have : (y 0).val < 32768 := (y 0).isLt; omega⟩ :=
      Fin.ext (by show 8 * (2 * (L 1).val + (L 0).val) + ((k.val + 3) / 8 % 8) = (y 0).val / 128; unfold base at hb; omega)
    have ea : a = ⟨(y 0).val % 128, Nat.mod_lt _ (by norm_num)⟩ := Fin.ext (by show (y 0).val - (base L + 128 * (k.val / 8)) = (y 0).val % 128; unfold base at hb ⊢; omega)
    have eb : b = y 1 := Fin.ext rfl
    simp only [eA, ea, eb]
  · have hb := (mem_win128 _ _ o1 y).not.mp hin
    rw [o0] at hb
    rw [win128_write_off (k0_off4 L k) (k0_off4_inb L k h1) gs (ReadAs.same.apply ((s4W).view.read (Elt F) R)) y hin]
    exact hgs y hlo (by omega)

/-! ## The stream's invariant from its pieces -/

/-- With a gather in flight. -/
theorem sPart_fold (n : Nat) (hn : n ≤ 60) (o : Fin 2 → Nat) (ho : ∀ a, o a + S1x128.size a ≤ S8x128.size a)
    (R : Buf (Elt F) ((s4W).view.loc (thr d L)))
    (hpure : o 0 = (n + 3) / 8 ∧ o 1 = 0 ∧ SRowsOK m d L idxs ((n + 3) / 8) R)
    (gs : Buf (Elt F) ((soW).view.loc (thr d L)))
    (hgs : ∀ y : S32768x128.Idx, base L ≤ (y 0).val → (y 0).val < base L + 128 * ((n + 3) / 8) → gs y = selfVal (m (embLoc d)) Is y) :
    (iprop(Transfers.Flight countersEmb (thr d L) (SemLoc.dma (4 : DmaSem sig)) (default : HIx 1) 524288
            iprop((((s4W).view.loc (thr d L) ↦[(s4W).view.set]{fullShare} R)
              ∗ ((offS o ho).view.loc (thr d L) ↦[(offS o ho).view.set]{fullShare} (idxs : Buf (Elt F) ((offS o ho).view.loc (thr d L)))))
              ∗ ((embW).view.loc (thr d L) ↦[(embV).view.set]{Transfers.shareTok q 5 4} m (embLoc d)))
        ∗ ((s1W).view.loc (thr d L) ↦[Finset.univ \ ((offS o ho).view.set : Finset (Idx ((s1W).view.loc (thr d L))))]{fullShare} idxs)
        ∗ ((embW).view.loc (thr d L) ↦[Finset.univ \ (embV).view.set]{Transfers.shareTok q 5 4} m (embLoc d))
        ∗ semVal (cell d L 5) 0
        ∗ ((soW).view.loc (thr d L) ↦[Finset.univ \ Oth L]{fullShare} gs)) : sProp 𝕄)
      ⊢ sPart m Is d L q idxs n := by
  unfold sPart
  rw [if_pos hn]
  iintro ⟨HF, H1, HE, Hc, Hs⟩
  isplitl [HF H1 HE]
  · iexists o, ho, R
    isplitr; · ipureintro; exact hpure
    isplitl [HF]; · iexact HF
    isplitl [H1]; · iexact H1
    iexact HE
  isplitl [Hc]; · iexact Hc
  iexists gs
  isplitr; · ipureintro; exact hgs
  iexact Hs

/-- With the last block harvested: nothing in flight. -/
theorem sPart_fold_idle (n : Nat) (hn : ¬ n ≤ 60) (R : Buf (Elt F) ((s4W).view.loc (thr d L)))
    (gs : Buf (Elt F) ((soW).view.loc (thr d L)))
    (hgs : ∀ y : S32768x128.Idx, base L ≤ (y 0).val → (y 0).val < base L + 128 * ((n + 3) / 8) → gs y = selfVal (m (embLoc d)) Is y) :
    (iprop(semVal (cell d L 4) 0 ∗ ((s4W).view.loc (thr d L) ↦[(s4W).view.set]{fullShare} R)
        ∗ ((s1W).view.loc (thr d L) ↦{fullShare} idxs) ∗ ((embW).view.loc (thr d L) ↦{Transfers.shareTok q 5 4} m (embLoc d))
        ∗ semVal (cell d L 5) 0
        ∗ ((soW).view.loc (thr d L) ↦[Finset.univ \ Oth L]{fullShare} gs)) : sProp 𝕄)
      ⊢ sPart m Is d L q idxs n := by
  unfold sPart
  rw [if_neg hn]
  iintro ⟨H4, HR, H1, HE, Hc, Hs⟩
  isplitl [H4 HR H1 HE]
  · isplitl [H4]; · iexact H4
    isplitl [HR]; · iexists R; iexact HR
    isplitl [H1]; · iexact H1
    iexact HE
  isplitl [Hc]; · iexact Hc
  iexists gs
  isplitr; · ipureintro; exact hgs
  iexact Hs

end Cert.KI
end
-- ==== Proof.TripVal.lean ====
/-
  The values a trip of the main loop leaves, stated on contents.

  After the gather of chunk c into a slot of the rows scratch, row a of the slot is the table row that word a of index
  row c names. The reduction writes, for each of the chunk's eight result rows p and each column, the left-to-right sum
  of the sixteen slot rows 16 p + r. Result row n = base + 8 c + p sums the words 16 n + r of the neighbour list; with
  base = 1024 w these are words 16 p + r of row 128 w + c of the list, which the subcore's copy of its 128 list rows
  holds as row c. So the eight rows written out are rows base + 8 c … base + 8 c + 7 of the neighbour result. Joining
  the two windows of a trip back onto the rows already done extends the done rows by sixteen.
-/
import proofs.«208587_g27212912787602_cont_9to1_1073_18_alg».proof.Proof.TileInv
import proofs.«208587_g27212912787602_cont_9to1_1073_18_alg».proof.Proof.GatherVal
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)

local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)
local notation "embV" => ((Memref.whole Cert.KernelIdeal.main_arg1_scv : Memref Cert.KernelIdeal.sig Kind.scVector Space.hbm Cert.KernelIdeal.S100001x128 EltTy.f32).slice (Rect.unit (s := Cert.KernelIdeal.S100001x128) ![0, 0] Cert.KernelIdeal.S100001x128.size Cert.KernelIdeal.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

/-! ## The slot after a gather -/

omit [FloatOps F] in
/-- Slot 0 after the gather through index row c. -/
theorem rowsOK_gather0 (o : Fin 2 → Nat) (h : ∀ a, o a + S1x128.size a ≤ S128x128.size a) (h1 : o 1 = 0) (c : Nat) (hc : o 0 = c)
    (hc128 : c < 128)
    (hin : ∀ x, ((offN o h).view.read (Elt F) idxn x).toNat < S100001x128.size gathers_S100001x128_S128x128.axis)
    (f : Buf (Elt F) ((s2W).view.loc (thr d L))) :
    RowsOK m d L idxn 0 c ((rows0M).view.writes (Elt F) f [⟨Rect.whole S128x128,
      SparseCore.gatherPayload gathers_S100001x128_S128x128 ((embV).view.read (Elt F) (m (embLoc d))) (SparseCore.rows ((offN o h).view.read (Elt F) idxn) rfl hin)⟩]) := by
  intro a b
  subst hc
  rw [rows0_writes f _ a b, gather_val_n' (m (embLoc d)) idxn o h h1 hin a b]
  have e : (⟨o 0, by have := h 0; change o 0 + 1 ≤ 128 at this; omega⟩ : Fin 128) = ⟨o 0 % 128, Nat.mod_lt _ (by norm_num)⟩ :=
    Fin.ext (Nat.mod_eq_of_lt hc128).symm
  rw [e]

omit [FloatOps F] in
/-- Slot 1 after the gather through index row c. -/
theorem rowsOK_gather1 (o : Fin 2 → Nat) (h : ∀ a, o a + S1x128.size a ≤ S128x128.size a) (h1 : o 1 = 0) (c : Nat) (hc : o 0 = c)
    (hc128 : c < 128)
    (hin : ∀ x, ((offN o h).view.read (Elt F) idxn x).toNat < S100001x128.size gathers_S100001x128_S128x128.axis)
    (f : Buf (Elt F) ((s2W).view.loc (thr d L))) :
    RowsOK m d L idxn 1 c ((rows1M).view.writes (Elt F) f [⟨Rect.whole S128x128,
      SparseCore.gatherPayload gathers_S100001x128_S128x128 ((embV).view.read (Elt F) (m (embLoc d))) (SparseCore.rows ((offN o h).view.read (Elt F) idxn) rfl hin)⟩]) := by
  intro a b
  subst hc
  rw [rows1_writes f _ a b, gather_val_n' (m (embLoc d)) idxn o h h1 hin a b]
  have e : (⟨o 0, by have := h 0; change o 0 + 1 ≤ 128 at this; omega⟩ : Fin 128) = ⟨o 0 % 128, Nat.mod_lt _ (by norm_num)⟩ :=
    Fin.ext (Nat.mod_eq_of_lt hc128).symm
  rw [e]

/-! ## The eight rows a chunk's sums are -/

/-- The sums of chunk c, copied out to the eight rows at base + 8 c, are those rows of the neighbour result. -/
theorem nei_window_val (slot : Fin 2) (c : Nat) (hc : c < 128) (off : Fin 2 → Nat)
    (inb : ∀ a, off a + S8x128.size a ≤ S32768x128.size a) (h0 : off 0 = base L + 8 * c) (h1 : off 1 = 0)
    (R : Buf (Elt F) ((s2W).view.loc (thr d L))) (N' : Buf (Elt F) ((s3W).view.loc (thr d L)))
    (hR : RowsOK m d L idxn slot c R)
    (hN : ∀ (p : Fin 8) (l : Fin 128), N' (ix3 slot p l)
      = chain16 fun r : Fin 16 => R (ix3 slot (⟨16 * p.val + r.val, by have := p.isLt; have := r.isLt; omega⟩ : Fin 128) l))
    (hidxn : ∀ (c a : Fin 128), idxn (ix2 c a)
      = In (ix2 (⟨128 * (2 * (L 1).val + (L 0).val) + c.val, by
          have h1 : (L 1).val < 16 := (L 1).isLt; have h0 : (L 0).val < 2 := (L 0).isLt; have := c.isLt; omega⟩ : Fin 4096) a))
    (gA : Buf (Elt F) ((noW).view.loc (thr d L)))
    (hgA : ∀ x : S8x128.Idx, gA (ix2 (⟨off 0 + (x 0).val, by
        have h := inb 0; have hx : (x 0).val < 8 := (x 0).isLt; change off 0 + 8 ≤ 32768 at h; omega⟩ : Fin 32768) (x 1))
      = N' (ix3 slot (x 0) (x 1))) :
    ∀ y ∈ W8 d L off inb, gA y = neiVal (m (embLoc d)) In y := by
  intro y hy
  have hm := (mem_win8 off inb h1 y).mp hy
  obtain ⟨n, l, rfl⟩ : ∃ (n : Fin 32768) (l : Fin 128), y = ix2 n l := ⟨y 0, y 1, eq_ix2 y⟩
  have hm' : off 0 ≤ n.val ∧ n.val < off 0 + 8 := hm
  have hp : n.val - off 0 < 8 := by omega
  have hL1 : (L 1).val < 16 := (L 1).isLt
  have hL0 : (L 0).val < 2 := (L 0).isLt
  have hn : n = (⟨off 0 + (⟨n.val - off 0, hp⟩ : Fin 8).val, by have := n.isLt; show off 0 + (n.val - off 0) < 32768; omega⟩ : Fin 32768) :=
    Fin.ext (by show n.val = off 0 + (n.val - off 0); omega)
  have e1 : gA (ix2 n l) = N' (ix3 slot (⟨n.val - off 0, hp⟩ : Fin 8) l) := by
    have := hgA (ix2 (⟨n.val - off 0, hp⟩ : Fin 8) l)
    rw [← hn] at this
    exact this
  rw [e1, hN]
  clear e1 hn
  unfold neiVal
  refine congrArg chain16 (funext fun r => ?_)
  have hr := r.isLt
  rw [hR]
  refine congrArg (fun w => m (embLoc d) (ix2 (Cert.Spec.rowOf w) l)) ?_
  have hcm : c % 128 = c := Nat.mod_eq_of_lt hc
  have e2 := hidxn (⟨c % 128, Nat.mod_lt _ (by norm_num)⟩ : Fin 128) (⟨16 * (n.val - off 0) + r.val, by omega⟩ : Fin 128)
  refine e2.trans ?_
  unfold wordAt
  refine congrArg In ?_
  have h0' : off 0 = 2048 * (L 1).val + 1024 * (L 0).val + 8 * c := h0
  have hq : n.val * 16 + r.val = 128 * (128 * (2 * (L 1).val + (L 0).val) + c) + (16 * (n.val - off 0) + r.val) := by
    omega
  funext a
  refine Fin.ext ?_
  match a with
  | ⟨0, _⟩ =>
    show 128 * (2 * (L 1).val + (L 0).val) + c % 128 = (n.val * 16 + r.val) / 128
    rw [hq, hcm, Nat.mul_add_div (by norm_num), Nat.div_eq_of_lt (by omega)]
    omega
  | ⟨1, _⟩ =>
    show 16 * (n.val - off 0) + r.val = (n.val * 16 + r.val) % 128
    rw [hq, Nat.mul_add_mod, Nat.mod_eq_of_lt (by omega)]

/-! ## The window a copy out wrote -/

omit [FloatOps F] in
/-- Row p, column l of the half of the sums scratch at leading offset o3 0 is element (o3 0, p, l) of the scratch. -/
theorem nbuf_emb (o3 : Fin 3 → Nat) (inb3 : ∀ a, o3 a + S1x8x128.size a ≤ S2x8x128.size a) (h1 : o3 1 = 0) (h2 : o3 2 = 0)
    (p : Fin 8) (l : Fin 128) :
    ((((s3W).slice (Rect.unit (s := S2x8x128) o3 S1x8x128.size inb3) (fun _ => rfl)).squeeze S8x128 squeezes_S1x8x128_S8x128).view.emb (ix2 p l) : S2x8x128.Idx)
      = ix3 (⟨o3 0, by have := inb3 0; change o3 0 + 1 ≤ 2 at this; omega⟩ : Fin 2) p l := by
  have hj : Shape.reshapeEquiv (s := (Rect.unit (s := S2x8x128) o3 S1x8x128.size inb3).shape) (s' := S8x128) squeezes_S1x8x128_S8x128.numel_eq (ix2 p l)
      = (ix3 (0 : Fin 1) p l : S1x8x128.Idx) :=
    Shape.reshapeEquiv_eq_of_rowMajor _ (by
      rw [Shape.rowMajor_val_two]
      refine (Shape.rowMajor_val_three (d := ![1, 8, 128]) (ix3 (0 : Fin 1) p l)).trans ?_
      show (0 * 8 + p.val) * 128 + l.val = p.val * 128 + l.val
      omega)
  show (Rect.unit (s := S2x8x128) o3 S1x8x128.size inb3).emb (Shape.reshapeEquiv squeezes_S1x8x128_S8x128.numel_eq (ix2 p l)) = _
  rw [hj]
  funext c
  refine Fin.ext ?_
  match c with
  | ⟨0, _⟩ => show o3 0 + 1 * 0 = o3 0; omega
  | ⟨1, _⟩ => show o3 1 + 1 * p.val = p.val; omega
  | ⟨2, _⟩ => show o3 2 + 1 * l.val = l.val; omega

omit [FloatOps F] in
/-- What the half of the sums scratch reads at (p, l). -/
theorem nbuf_read (o3 : Fin 3 → Nat) (inb3 : ∀ a, o3 a + S1x8x128.size a ≤ S2x8x128.size a) (h1 : o3 1 = 0) (h2 : o3 2 = 0)
    (N' : Buf (Elt F) ((s3W).view.loc (thr d L))) (p : Fin 8) (l : Fin 128) :
    (((s3W).slice (Rect.unit (s := S2x8x128) o3 S1x8x128.size inb3) (fun _ => rfl)).squeeze S8x128 squeezes_S1x8x128_S8x128).view.read (Elt F) N' (ix2 p l)
      = N' (ix3 (⟨o3 0, by have := inb3 0; change o3 0 + 1 ≤ 2 at this; omega⟩ : Fin 2) p l) := by
  show N' ((((s3W).slice (Rect.unit (s := S2x8x128) o3 S1x8x128.size inb3) (fun _ => rfl)).squeeze S8x128 squeezes_S1x8x128_S8x128).view.emb (ix2 p l)) = _
  rw [nbuf_emb o3 inb3 h1 h2 p l]

omit [FloatOps F] in
/-- A write of a half of the sums scratch through an eight-row window of the neighbour result leaves, at row
    off 0 + p, column l, the half's (p, l). -/
theorem win8_copy_write (o3 : Fin 3 → Nat) (inb3 : ∀ a, o3 a + S1x8x128.size a ≤ S2x8x128.size a) (h31 : o3 1 = 0) (h32 : o3 2 = 0)
    (off : Fin 2 → Nat) (inb : ∀ a, off a + S8x128.size a ≤ S32768x128.size a) (h1 : off 1 = 0)
    (gprev : Buf (Elt F) ((noW).view.loc (thr d L))) (N' : Buf (Elt F) ((s3W).view.loc (thr d L))) (x : S8x128.Idx) :
    ((noW).slice (Rect.unit (s := S32768x128) off S8x128.size inb) (fun _ => rfl)).view.write (Elt F) gprev
        (ReadAs.same.apply ((((s3W).slice (Rect.unit (s := S2x8x128) o3 S1x8x128.size inb3) (fun _ => rfl)).squeeze S8x128 squeezes_S1x8x128_S8x128).view.read (Elt F) N'))
        Finset.univ
        (ix2 (⟨off 0 + (x 0).val, by have h := inb 0; have hx : (x 0).val < 8 := (x 0).isLt; change off 0 + 8 ≤ 32768 at h; omega⟩ : Fin 32768) (x 1))
      = N' (ix3 (⟨o3 0, by have := inb3 0; change o3 0 + 1 ≤ 2 at this; omega⟩ : Fin 2) (x 0) (x 1)) := by
  obtain ⟨p, l, rfl⟩ : ∃ (p : Fin 8) (l : Fin 128), x = ix2 p l := ⟨x 0, x 1, eq_ix2 x⟩
  have e := win8_emb off inb h1 (ix2 p l)
  have e' : (ix2 (⟨off 0 + p.val, by have h := inb 0; have hx := p.isLt; change off 0 + 8 ≤ 32768 at h; omega⟩ : Fin 32768) l : S32768x128.Idx)
      = ((noW).slice (Rect.unit (s := S32768x128) off S8x128.size inb) (fun _ => rfl)).view.emb (ix2 p l) := e.symm
  show ((noW).slice (Rect.unit (s := S32768x128) off S8x128.size inb) (fun _ => rfl)).view.write (Elt F) gprev _ Finset.univ
      (ix2 (⟨off 0 + p.val, _⟩ : Fin 32768) l) = N' (ix3 _ p l)
  rw [e', win8_write_emb]
  exact nbuf_read d L o3 inb3 h31 h32 N' p l

omit [FloatOps F] in
/-- The same spelled as a list of one whole piece. -/
theorem win8_copy_writes (o3 : Fin 3 → Nat) (inb3 : ∀ a, o3 a + S1x8x128.size a ≤ S2x8x128.size a) (h31 : o3 1 = 0) (h32 : o3 2 = 0)
    (off : Fin 2 → Nat) (inb : ∀ a, off a + S8x128.size a ≤ S32768x128.size a) (h1 : off 1 = 0)
    (gprev : Buf (Elt F) ((noW).view.loc (thr d L))) (N' : Buf (Elt F) ((s3W).view.loc (thr d L))) (x : S8x128.Idx) :
    ((noW).slice (Rect.unit (s := S32768x128) off S8x128.size inb) (fun _ => rfl)).view.writes (Elt F) gprev
        [⟨Rect.whole S8x128, ReadAs.same.apply ((((s3W).slice (Rect.unit (s := S2x8x128) o3 S1x8x128.size inb3) (fun _ => rfl)).squeeze S8x128 squeezes_S1x8x128_S8x128).view.read (Elt F) N')⟩]
        (ix2 (⟨off 0 + (x 0).val, by have h := inb 0; have hx : (x 0).val < 8 := (x 0).isLt; change off 0 + 8 ≤ 32768 at h; omega⟩ : Fin 32768) (x 1))
      = N' (ix3 (⟨o3 0, by have := inb3 0; change o3 0 + 1 ≤ 2 at this; omega⟩ : Fin 2) (x 0) (x 1)) := by
  refine (congrFun (View.write_univ_eq_writes_whole (Val := Elt F)
    ((noW).slice (Rect.unit (s := S32768x128) off S8x128.size inb) (fun _ => rfl)).view gprev [] _).symm _).trans ?_
  exact win8_copy_write d L o3 inb3 h31 h32 off inb h1 gprev N' x

omit [FloatOps F] in
/-- The program's two halves. -/
theorem win8_copy0_write (off : Fin 2 → Nat) (inb : ∀ a, off a + S8x128.size a ≤ S32768x128.size a) (h1 : off 1 = 0)
    (gprev : Buf (Elt F) ((noW).view.loc (thr d L))) (N' : Buf (Elt F) ((s3W).view.loc (thr d L))) (x : S8x128.Idx) :
    ((noW).slice (Rect.unit (s := S32768x128) off S8x128.size inb) (fun _ => rfl)).view.write (Elt F) gprev
        (ReadAs.same.apply ((nbuf0M).view.read (Elt F) N')) Finset.univ
        (ix2 (⟨off 0 + (x 0).val, by have h := inb 0; have hx : (x 0).val < 8 := (x 0).isLt; change off 0 + 8 ≤ 32768 at h; omega⟩ : Fin 32768) (x 1))
      = N' (ix3 (0 : Fin 2) (x 0) (x 1)) :=
  win8_copy_write d L ![0, 0, 0] inb_S2x8x128_S1x8x128_0_0_0 rfl rfl off inb h1 gprev N' x
omit [FloatOps F] in
theorem win8_copy1_write (off : Fin 2 → Nat) (inb : ∀ a, off a + S8x128.size a ≤ S32768x128.size a) (h1 : off 1 = 0)
    (gprev : Buf (Elt F) ((noW).view.loc (thr d L))) (N' : Buf (Elt F) ((s3W).view.loc (thr d L))) (x : S8x128.Idx) :
    ((noW).slice (Rect.unit (s := S32768x128) off S8x128.size inb) (fun _ => rfl)).view.write (Elt F) gprev
        (ReadAs.same.apply ((nbuf1M).view.read (Elt F) N')) Finset.univ
        (ix2 (⟨off 0 + (x 0).val, by have h := inb 0; have hx : (x 0).val < 8 := (x 0).isLt; change off 0 + 8 ≤ 32768 at h; omega⟩ : Fin 32768) (x 1))
      = N' (ix3 (1 : Fin 2) (x 0) (x 1)) :=
  win8_copy_write d L ![1, 0, 0] inb_S2x8x128_S1x8x128_1_0_0 rfl rfl off inb h1 gprev N' x
omit [FloatOps F] in
theorem win8_copy0_writes (off : Fin 2 → Nat) (inb : ∀ a, off a + S8x128.size a ≤ S32768x128.size a) (h1 : off 1 = 0)
    (gprev : Buf (Elt F) ((noW).view.loc (thr d L))) (N' : Buf (Elt F) ((s3W).view.loc (thr d L))) (x : S8x128.Idx) :
    ((noW).slice (Rect.unit (s := S32768x128) off S8x128.size inb) (fun _ => rfl)).view.writes (Elt F) gprev
        [⟨Rect.whole S8x128, ReadAs.same.apply ((nbuf0M).view.read (Elt F) N')⟩]
        (ix2 (⟨off 0 + (x 0).val, by have h := inb 0; have hx : (x 0).val < 8 := (x 0).isLt; change off 0 + 8 ≤ 32768 at h; omega⟩ : Fin 32768) (x 1))
      = N' (ix3 (0 : Fin 2) (x 0) (x 1)) :=
  win8_copy_writes d L ![0, 0, 0] inb_S2x8x128_S1x8x128_0_0_0 rfl rfl off inb h1 gprev N' x
omit [FloatOps F] in
theorem win8_copy1_writes (off : Fin 2 → Nat) (inb : ∀ a, off a + S8x128.size a ≤ S32768x128.size a) (h1 : off 1 = 0)
    (gprev : Buf (Elt F) ((noW).view.loc (thr d L))) (N' : Buf (Elt F) ((s3W).view.loc (thr d L))) (x : S8x128.Idx) :
    ((noW).slice (Rect.unit (s := S32768x128) off S8x128.size inb) (fun _ => rfl)).view.writes (Elt F) gprev
        [⟨Rect.whole S8x128, ReadAs.same.apply ((nbuf1M).view.read (Elt F) N')⟩]
        (ix2 (⟨off 0 + (x 0).val, by have h := inb 0; have hx : (x 0).val < 8 := (x 0).isLt; change off 0 + 8 ≤ 32768 at h; omega⟩ : Fin 32768) (x 1))
      = N' (ix3 (1 : Fin 2) (x 0) (x 1)) :=
  win8_copy_writes d L ![1, 0, 0] inb_S2x8x128_S1x8x128_1_0_0 rfl rfl off inb h1 gprev N' x

/-! ## The done rows after a trip -/

/-- The two windows of trip n - 1, put back over the rows done before it, give the rows done before trip n. -/
theorem done_rows (n : Nat) (offA offB : Fin 2 → Nat) (inbA : ∀ a, offA a + S8x128.size a ≤ S32768x128.size a)
    (inbB : ∀ a, offB a + S8x128.size a ≤ S32768x128.size a)
    (hA0 : offA 0 = base L + 16 * (n - 1)) (hA1 : offA 1 = 0) (hB0 : offB 0 = base L + 16 * (n - 1) + 8) (hB1 : offB 1 = 0)
    (gA gB g : Buf (Elt F) ((noW).view.loc (thr d L)))
    (hgA : ∀ y ∈ W8 d L offA inbA, gA y = neiVal (m (embLoc d)) In y)
    (hgB : ∀ y ∈ W8 d L offB inbB, gB y = neiVal (m (embLoc d)) In y)
    (hg : ∀ y : S32768x128.Idx, base L ≤ (y 0).val → (y 0).val < base L + 16 * (n - 1) → g y = neiVal (m (embLoc d)) In y)
    (hn : 0 < n) :
    ∀ y : S32768x128.Idx, base L ≤ (y 0).val → (y 0).val < base L + 16 * n →
      ((W8 d L offB inbB).piecewise gB ((W8 d L offA inbA).piecewise gA g)) y = neiVal (m (embLoc d)) In y := by
  intro y hlo hhi
  by_cases hB : y ∈ W8 d L offB inbB
  · rw [Finset.piecewise_eq_of_mem _ _ _ hB]; exact hgB y hB
  · rw [Finset.piecewise_eq_of_notMem _ _ _ hB]
    by_cases hA : y ∈ W8 d L offA inbA
    · rw [Finset.piecewise_eq_of_mem _ _ _ hA]; exact hgA y hA
    · rw [Finset.piecewise_eq_of_notMem _ _ _ hA]
      refine hg y hlo ?_
      have hA' := mt (mem_win8 offA inbA hA1 y).mpr hA
      have hB' := mt (mem_win8 offB inbB hB1 y).mpr hB
      omega

end Cert.KI

end
-- ==== Proof.TileStepA.lean ====
import proofs.«208587_g27212912787602_cont_9to1_1073_18_alg».proof.Proof.TileInv
import proofs.«208587_g27212912787602_cont_9to1_1073_18_alg».proof.Proof.GatherVal
import proofs.«208587_g27212912787602_cont_9to1_1073_18_alg».proof.Proof.Reduce
import proofs.«208587_g27212912787602_cont_9to1_1073_18_alg».proof.Proof.TileHarvest
import proofs.«208587_g27212912787602_cont_9to1_1073_18_alg».proof.Proof.TripVal
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)

local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)
local notation "embV" => ((Memref.whole Cert.KernelIdeal.main_arg1_scv : Memref Cert.KernelIdeal.sig Kind.scVector Space.hbm Cert.KernelIdeal.S100001x128 EltTy.f32).slice (Rect.unit (s := Cert.KernelIdeal.S100001x128) ![0, 0] Cert.KernelIdeal.S100001x128.size Cert.KernelIdeal.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

set_option maxHeartbeats 4000000 in
theorem stepA (hn : ∀ y, (idxn y).toNat ≤ 100000) (hs : ∀ y, (idxs y).toNat ≤ 100000)
    (hidxn : ∀ (c a : Fin 128), idxn (ix2 c a) = In (ix2 ⟨128 * (2 * (L 1).val + (L 0).val) + c.val, rowN_lt L c⟩ a))
    (hidxs : ∀ (j : Fin 8) (a : Fin 128), idxs (ix2 j a) = Is (ix2 ⟨8 * (2 * (L 1).val + (L 0).val) + j.val, rowS_lt L j⟩ a))
    (hO : ∀ g, O g none = 0) (v2 : BitVec 32) (k : Fin k0_t1_loop.trips) (hk : k.val = 0) (acc : PUnit) :
    inv m Is In d L q idxn idxs O W0 k.val acc ⊢ wp frame (wpE (defs₀ (F := F)) 𝒱₀ (thr d L) none) Set.univ
      (k0_t1_body L embW (Memref.isWhole_whole _) inW (Memref.isWhole_whole _) isW (Memref.isWhole_whole _) soW (Memref.isWhole_whole _) noW (Memref.isWhole_whole _)
        s0W (Memref.isWhole_whole _) s1W (Memref.isWhole_whole _) s2W (Memref.isWhole_whole _) s3W (Memref.isWhole_whole _) s4W (Memref.isWhole_whole _)
        cc0_scratch5 cc0_scratch6 cc0_scratch7 cc0_scratch8 cc0_scoped0 cc0_scoped1 v2 k acc)
      (fun acc' => inv m Is In d L q idxn idxs O W0 (k.val + 1) acc') := by
  have hnk0 : ¬ 0 < k.val := by omega
  have hk63 : k.val < 63 := by omega
  have hk8 : k.val % 8 ≠ 4 := by omega
  have h1 : ¬ k0_cond1 k = 1#1 := fun h => hk8 ((cond1_iff k).1 h)
  have h3 : ¬ k0_cond3 k = 1#1 := fun h => hnk0 ((cond3_iff k).1 h)
  have h5 : ¬ k0_cond5 k = 1#1 := fun h => hnk0 ((cond5_iff k).1 h)
  have h4 : k0_cond4 k = 1#1 := (cond4_iff k).2 hk63
  have h6 : k0_cond6 k = 1#1 := (cond6_iff k).2 hk63
  have hk64 : k.val < 64 := by have := trips_lt k; omega
  have hk0' : 0 < k.val + 1 := by omega
  have hk64' : k.val + 1 < 64 := by omega
  have hS : sPart m Is d L q idxs (k.val + 1) = sPart m Is d L q idxs k.val := by
    unfold sPart
    rw [show (k.val + 1 + 3) / 8 = (k.val + 3) / 8 by omega]
    by_cases h60 : k.val ≤ 60
    · rw [if_pos h60, if_pos (by omega : k.val + 1 ≤ 60)]
    · rw [if_neg h60, if_neg (by omega : ¬ k.val + 1 ≤ 60)]
  unfold k0_t1_body
  rw [k0_part49_eq_skeleton, k0_part50_eq_skeleton]; unfold k0_part49_skel k0_part50_skel
  unfold inv gPart0 gPart1 oPart
  rw [if_pos hk64, if_pos hk64, if_neg hnk0, if_pos hk64', if_pos hk64', if_pos hk0', hS]
  iintro ⟨Hmw, ⟨%o0, %ho0, %R0, %hf0, HG0, H0r, HE0r⟩, ⟨%o1, %ho1, %R1, %hf1, HG1, H1r, HE1r⟩,
    ⟨HO0, HO1, ⟨%NA, Hnb0⟩, ⟨%NB, Hnb1⟩, ⟨%g, Hno⟩⟩, HS, ⟨%W', %hW', HO⟩⟩
  -- the respellings used below
  have e2 : ∀ f, ((rows0M).view.loc (thr d L) ↦[(rows0M).view.set]{fullShare} f : sProp 𝕄) = ((s2W).view.loc (thr d L) ↦[Finset.univ \ (rows1M).view.set]{fullShare} f) :=
    fun f => congrArg (fun S => ((s2W).view.loc (thr d L) ↦[S]{fullShare} f : sProp 𝕄)) rows0_eq
  have e2' : ∀ f, ((rows1M).view.loc (thr d L) ↦[(rows1M).view.set]{fullShare} f : sProp 𝕄) = ((s2W).view.loc (thr d L) ↦[Finset.univ \ (rows0M).view.set]{fullShare} f) :=
    fun f => congrArg (fun S => ((s2W).view.loc (thr d L) ↦[S]{fullShare} f : sProp 𝕄)) rows1_eq
  have e3 : ∀ f, ((nbuf0M).view.loc (thr d L) ↦[(nbuf0M).view.set]{fullShare} f : sProp 𝕄) = ((s3W).view.loc (thr d L) ↦[Finset.univ \ (nbuf1M).view.set]{fullShare} f) :=
    fun f => congrArg (fun S => ((s3W).view.loc (thr d L) ↦[S]{fullShare} f : sProp 𝕄)) nbuf0_eq
  have e3' : ∀ f, ((nbuf1M).view.loc (thr d L) ↦[(nbuf1M).view.set]{fullShare} f : sProp 𝕄) = ((s3W).view.loc (thr d L) ↦[Finset.univ \ (nbuf0M).view.set]{fullShare} f) :=
    fun f => congrArg (fun S => ((s3W).view.loc (thr d L) ↦[S]{fullShare} f : sProp 𝕄)) nbuf1_eq
  have eA : ∀ o h qq f, ((s0W).view.loc (thr d L) ↦[(offN o h).view.set]{qq} f : sProp 𝕄) = ((offN o h).view.loc (thr d L) ↦[(offN o h).view.set]{qq} f) := fun _ _ _ _ => rfl
  have eW : ∀ off inb f, ((noW).view.loc (thr d L) ↦[W8 d L off inb]{fullShare} f : sProp 𝕄)
      = (((noW).slice (Rect.unit (s := S32768x128) off S8x128.size inb) (fun _ => rfl)).view.loc (thr d L) ↦[((noW).slice (Rect.unit (s := S32768x128) off S8x128.size inb) (fun _ => rfl)).view.set]{fullShare} f) := fun _ _ _ => rfl
  have hsubN : ∀ o h, ((offN o h).view.set : Finset (Idx ((s0W).view.loc (thr d L)))) ⊆ Finset.univ := fun _ _ => Finset.subset_univ _
  have hw32 : Disjoint ((noW).slice (Rect.unit (s := S32768x128) (k0_off32 L k) S8x128.size (k0_off32_inb L k)) (fun _ => rfl)).view.set (Oth L) := by unfold Oth; exact off32_disj_others L k
  have hw60 : Disjoint ((noW).slice (Rect.unit (s := S32768x128) (k0_off60 L k) S8x128.size (k0_off60_inb L k)) (fun _ => rfl)).view.set (Oth L) := by unfold Oth; exact off60_disj_others L k
  have hw60A : Disjoint (W8 d L (k0_off60 L k) (k0_off60_inb L k)) (W8 d L (k0_off32 L k) (k0_off32_inb L k)) := off60_off32_disj L k k
  -- slot 0: its gather lands
  sl_exec
  ihave Hrows := (Entails.of_eq (e2 _)) $$ HG0_dst
  iapply (wp_seq2 d L (reduce0 d L R0 NA v2 (0#32) (1#32) k))
  isplitl [Hrows Hnb0]
  · isplitl [Hrows] <;> iassumption
  iintro %_ ⟨Hrows, %NA', Hnb0, %hNA'⟩
  ihave HG0d := (Entails.of_eq (e2 _).symm) $$ Hrows
  ihave H3x := (Entails.of_eq (e3 _).symm) $$ Hnb0
  ihave H0s := (pointsTo_split_subset (hsubN (k0_off33 k) (k0_off33_inb k h4))).1 $$ H0r
  icases H0s with ⟨H0a, H0b⟩
  ihave H0a' := (Entails.of_eq (eA _ _ _ _)) $$ H0a
  have hinA : ∀ x, ((offN (k0_off33 k) (k0_off33_inb k h4)).view.read (Elt F) idxn x).toNat < S100001x128.size gathers_S100001x128_S128x128.axis := fun x => Nat.lt_succ_of_le (hn _)
  have hW32sub : W8 d L (k0_off32 L k) (k0_off32_inb L k) ⊆ Finset.univ \ Oth L := Finset.subset_sdiff.2 ⟨Finset.subset_univ _, hw32⟩
  ihave Hs32 := (pointsTo_split_subset hW32sub).1 $$ Hno
  icases Hs32 with ⟨Hwin32, Hno3⟩
  ihave Hwin32' := (Entails.of_eq (eW _ _ _)) $$ Hwin32
  sl_exec (disch := exact View.amount_pos _ _ (show 0 < S8x128.numel by decide))
  -- slot 1: the same
  ihave Hrows1 := (Entails.of_eq (e2' _)) $$ HG1_dst
  iapply (wp_seq2 d L (reduce1 d L R1 NB v2 k _ _))
  isplitl [Hrows1 Hnb1]
  · isplitl [Hrows1] <;> iassumption
  iintro %_ ⟨Hrows1, %NB', Hnb1, %hNB'⟩
  ihave HG1d := (Entails.of_eq (e2' _).symm) $$ Hrows1
  ihave H3y := (Entails.of_eq (e3' _).symm) $$ Hnb1
  ihave H1s := (pointsTo_split_subset (hsubN (k0_off61 k) (k0_off61_inb k h6))).1 $$ H1r
  icases H1s with ⟨H1a, H1b⟩
  ihave H1a' := (Entails.of_eq (eA _ _ _ _)) $$ H1a
  have hinB : ∀ x, ((offN (k0_off61 k) (k0_off61_inb k h6)).view.read (Elt F) idxn x).toNat < S100001x128.size gathers_S100001x128_S128x128.axis := fun x => Nat.lt_succ_of_le (hn _)
  have hW60sub : W8 d L (k0_off60 L k) (k0_off60_inb L k) ⊆ (Finset.univ \ Oth L) \ W8 d L (k0_off32 L k) (k0_off32_inb L k) :=
    Finset.subset_sdiff.2 ⟨Finset.subset_sdiff.2 ⟨Finset.subset_univ _, hw60⟩, hw60A⟩
  ihave Hs60 := (pointsTo_split_subset hW60sub).1 $$ Hno3
  icases Hs60 with ⟨Hwin60, Hno5⟩
  ihave Hwin60' := (Entails.of_eq (eW _ _ _)) $$ Hwin60
  sl_exec (disch := exact View.amount_pos _ _ (show 0 < S8x128.numel by decide))
  sl_step
  -- the invariant before the next trip
  isplitl [Hmw]; · iexact Hmw
  isplitl [HG0 H0b HE0r]
  · iexists (k0_off33 k), (k0_off33_inb k h4), _
    isplitr [HG0 H0b HE0r]
    swap
    · isplitl [HG0]; · iexact HG0
      isplitl [H0b]; · iexact H0b
      iexact HE0r
    · ipureintro
      exact ⟨by rw [k0_off33_eq]; show 2 * k.val + 2 = 2 * (k.val + 1); omega, by rw [k0_off33_eq]; rfl,
        rowsOK_gather0 (m := m) (d := d) (L := L) (idxn := idxn) (k0_off33 k) (k0_off33_inb k h4) (by rw [k0_off33_eq]; rfl) (2 * (k.val + 1)) (by rw [k0_off33_eq]; show 2 * k.val + 2 = _; omega) (by omega) hinA R0⟩
  isplitl [HG1 H1b HE1r]
  · iexists (k0_off61 k), (k0_off61_inb k h6), _
    isplitr [HG1 H1b HE1r]
    swap
    · isplitl [HG1]; · iexact HG1
      isplitl [H1b]; · iexact H1b
      iexact HE1r
    · ipureintro
      exact ⟨by rw [k0_off61_eq]; show 2 * k.val + 3 = 2 * (k.val + 1) + 1; omega, by rw [k0_off61_eq]; rfl,
        rowsOK_gather1 (m := m) (d := d) (L := L) (idxn := idxn) (k0_off61 k) (k0_off61_inb k h6) (by rw [k0_off61_eq]; rfl) (2 * (k.val + 1) + 1) (by rw [k0_off61_eq]; show 2 * k.val + 3 = _; omega) (by omega) hinB R1⟩
  isplitl [HO0 HO1 Hno5]
  · iexists (k0_off32 L k), (k0_off60 L k), (k0_off32_inb L k), (k0_off60_inb L k), _, _, _, _, _
    isplitr [HO0 HO1 Hno5]
    swap
    · isplitl [HO0]; · iexact HO0
      isplitl [HO1]; · iexact HO1
      iexact Hno5
    · ipureintro
      refine ⟨⟨by rw [off32_0]; show _ = base L + 16 * (k.val + 1 - 1); simp, off32_1 L k, by rw [off60_0]; show _ = base L + 16 * (k.val + 1 - 1) + 8; simp, off60_1 L k⟩, ?_, ?_, ?_⟩
      · exact nei_window_val (m := m) (In := In) (d := d) (L := L) (idxn := idxn) 0 (2 * k.val) (by omega) (k0_off32 L k) (k0_off32_inb L k) (by rw [off32_0]; unfold base; omega) (off32_1 L k) R0 NA' (by have := hf0.2.2; exact this) hNA' hidxn _
          (fun x => win8_copy0_writes d L (k0_off32 L k) (k0_off32_inb L k) (off32_1 L k) _ NA' x)
      · exact nei_window_val (m := m) (In := In) (d := d) (L := L) (idxn := idxn) 1 (2 * k.val + 1) (by omega) (k0_off60 L k) (k0_off60_inb L k) (by rw [off60_0]; unfold base; omega) (off60_1 L k) R1 NB' (by have := hf1.2.2; exact this) hNB' hidxn _
          (fun x => win8_copy1_writes d L (k0_off60 L k) (k0_off60_inb L k) (off60_1 L k) _ NB' x)
      · intro y h1y h2y; omega
  isplitl [HS]; · iexact HS
  iexists _
  isplitr [HO]
  swap
  · iexact HO
  · ipureintro; intro p hp
    repeat (rcases Finset.mem_insert.mp hp with hp | hp; exact .inr (hp ▸ rfl))
    exact hW' p hp
end Cert.KI
end
-- ==== Proof.TileStepB.lean ====
import proofs.«208587_g27212912787602_cont_9to1_1073_18_alg».proof.Proof.TileInv
import proofs.«208587_g27212912787602_cont_9to1_1073_18_alg».proof.Proof.GatherVal
import proofs.«208587_g27212912787602_cont_9to1_1073_18_alg».proof.Proof.Reduce
import proofs.«208587_g27212912787602_cont_9to1_1073_18_alg».proof.Proof.TileHarvest
import proofs.«208587_g27212912787602_cont_9to1_1073_18_alg».proof.Proof.TripVal
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)

local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)
local notation "embV" => ((Memref.whole Cert.KernelIdeal.main_arg1_scv : Memref Cert.KernelIdeal.sig Kind.scVector Space.hbm Cert.KernelIdeal.S100001x128 EltTy.f32).slice (Rect.unit (s := Cert.KernelIdeal.S100001x128) ![0, 0] Cert.KernelIdeal.S100001x128.size Cert.KernelIdeal.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

set_option maxHeartbeats 4000000 in
theorem stepB (hn : ∀ y, (idxn y).toNat ≤ 100000) (hs : ∀ y, (idxs y).toNat ≤ 100000)
    (hidxn : ∀ (c a : Fin 128), idxn (ix2 c a) = In (ix2 ⟨128 * (2 * (L 1).val + (L 0).val) + c.val, rowN_lt L c⟩ a))
    (hidxs : ∀ (j : Fin 8) (a : Fin 128), idxs (ix2 j a) = Is (ix2 ⟨8 * (2 * (L 1).val + (L 0).val) + j.val, rowS_lt L j⟩ a))
    (hO : ∀ g, O g none = 0) (v2 : BitVec 32) (k : Fin k0_t1_loop.trips) (hk0 : 0 < k.val) (hk63 : k.val < 63) (hk8 : k.val % 8 ≠ 4) (acc : PUnit) :
    inv m Is In d L q idxn idxs O W0 k.val acc ⊢ wp frame (wpE (defs₀ (F := F)) 𝒱₀ (thr d L) none) Set.univ
      (k0_t1_body L embW (Memref.isWhole_whole _) inW (Memref.isWhole_whole _) isW (Memref.isWhole_whole _) soW (Memref.isWhole_whole _) noW (Memref.isWhole_whole _)
        s0W (Memref.isWhole_whole _) s1W (Memref.isWhole_whole _) s2W (Memref.isWhole_whole _) s3W (Memref.isWhole_whole _) s4W (Memref.isWhole_whole _)
        cc0_scratch5 cc0_scratch6 cc0_scratch7 cc0_scratch8 cc0_scoped0 cc0_scoped1 v2 k acc)
      (fun acc' => inv m Is In d L q idxn idxs O W0 (k.val + 1) acc') := by
  have h1 : ¬ k0_cond1 k = 1#1 := fun h => hk8 ((cond1_iff k).1 h)
  have h3 : k0_cond3 k = 1#1 := (cond3_iff k).2 hk0
  have h5 : k0_cond5 k = 1#1 := (cond5_iff k).2 hk0
  have h4 : k0_cond4 k = 1#1 := (cond4_iff k).2 hk63
  have h6 : k0_cond6 k = 1#1 := (cond6_iff k).2 hk63
  have hk64 : k.val < 64 := by have := trips_lt k; omega
  have hk0' : 0 < k.val + 1 := by omega
  have hk64' : k.val + 1 < 64 := by omega
  have hS : sPart m Is d L q idxs (k.val + 1) = sPart m Is d L q idxs k.val := by
    unfold sPart
    rw [show (k.val + 1 + 3) / 8 = (k.val + 3) / 8 by omega]
    by_cases h60 : k.val ≤ 60
    · rw [if_pos h60, if_pos (by omega : k.val + 1 ≤ 60)]
    · rw [if_neg h60, if_neg (by omega : ¬ k.val + 1 ≤ 60)]
  unfold k0_t1_body
  rw [k0_part49_eq_skeleton, k0_part50_eq_skeleton]; unfold k0_part49_skel k0_part50_skel
  unfold inv gPart0 gPart1 oPart
  rw [if_pos hk64, if_pos hk64, if_pos hk0, if_pos hk64', if_pos hk64', if_pos hk0', hS]
  iintro ⟨Hmw, ⟨%o0, %ho0, %R0, %hf0, HG0, H0r, HE0r⟩, ⟨%o1, %ho1, %R1, %hf1, HG1, H1r, HE1r⟩,
    ⟨%offA, %offB, %inbA, %inbB, %gA, %gB, %g, %NA, %NB, %hfo, HO0, HO1, Hno⟩, HS, ⟨%W', %hW', HO⟩⟩
  -- the respellings used below
  have e2 : ∀ f, ((rows0M).view.loc (thr d L) ↦[(rows0M).view.set]{fullShare} f : sProp 𝕄) = ((s2W).view.loc (thr d L) ↦[Finset.univ \ (rows1M).view.set]{fullShare} f) :=
    fun f => congrArg (fun S => ((s2W).view.loc (thr d L) ↦[S]{fullShare} f : sProp 𝕄)) rows0_eq
  have e2' : ∀ f, ((rows1M).view.loc (thr d L) ↦[(rows1M).view.set]{fullShare} f : sProp 𝕄) = ((s2W).view.loc (thr d L) ↦[Finset.univ \ (rows0M).view.set]{fullShare} f) :=
    fun f => congrArg (fun S => ((s2W).view.loc (thr d L) ↦[S]{fullShare} f : sProp 𝕄)) rows1_eq
  have e3 : ∀ f, ((nbuf0M).view.loc (thr d L) ↦[(nbuf0M).view.set]{fullShare} f : sProp 𝕄) = ((s3W).view.loc (thr d L) ↦[Finset.univ \ (nbuf1M).view.set]{fullShare} f) :=
    fun f => congrArg (fun S => ((s3W).view.loc (thr d L) ↦[S]{fullShare} f : sProp 𝕄)) nbuf0_eq
  have e3' : ∀ f, ((nbuf1M).view.loc (thr d L) ↦[(nbuf1M).view.set]{fullShare} f : sProp 𝕄) = ((s3W).view.loc (thr d L) ↦[Finset.univ \ (nbuf0M).view.set]{fullShare} f) :=
    fun f => congrArg (fun S => ((s3W).view.loc (thr d L) ↦[S]{fullShare} f : sProp 𝕄)) nbuf1_eq
  have eA : ∀ o h qq f, ((s0W).view.loc (thr d L) ↦[(offN o h).view.set]{qq} f : sProp 𝕄) = ((offN o h).view.loc (thr d L) ↦[(offN o h).view.set]{qq} f) := fun _ _ _ _ => rfl
  have eW : ∀ off inb f, ((noW).view.loc (thr d L) ↦[W8 d L off inb]{fullShare} f : sProp 𝕄)
      = (((noW).slice (Rect.unit (s := S32768x128) off S8x128.size inb) (fun _ => rfl)).view.loc (thr d L) ↦[((noW).slice (Rect.unit (s := S32768x128) off S8x128.size inb) (fun _ => rfl)).view.set]{fullShare} f) := fun _ _ _ => rfl
  have hsubN : ∀ o h, ((offN o h).view.set : Finset (Idx ((s0W).view.loc (thr d L)))) ⊆ Finset.univ := fun _ _ => Finset.subset_univ _
  have hw32 : Disjoint ((noW).slice (Rect.unit (s := S32768x128) (k0_off32 L k) S8x128.size (k0_off32_inb L k)) (fun _ => rfl)).view.set (Oth L) := by unfold Oth; exact off32_disj_others L k
  have hw60 : Disjoint ((noW).slice (Rect.unit (s := S32768x128) (k0_off60 L k) S8x128.size (k0_off60_inb L k)) (fun _ => rfl)).view.set (Oth L) := by unfold Oth; exact off60_disj_others L k
  have hw60A : Disjoint (W8 d L (k0_off60 L k) (k0_off60_inb L k)) (W8 d L (k0_off32 L k) (k0_off32_inb L k)) := off60_off32_disj L k k
  obtain ⟨⟨hA0, hA1, hB0, hB1⟩, hgA, hgB, hg⟩ := hfo
  have hAO : W8 d L offA inbA ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offA inbA hA1 (by rw [hA0]; show base L ≤ _; omega) (by rw [hA0]; show _ ≤ base L + 1024; omega) hy)⟩
  have hBO : W8 d L offB inbB ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offB inbB hB1 (by rw [hB0]; show base L ≤ _; omega) (by rw [hB0]; show _ ≤ base L + 1024; omega) hy)⟩
  have hAB : Disjoint (W8 d L offA inbA) (W8 d L offB inbB) := win8_disj offA offB inbA inbB (Or.inl (by rw [hA0, hB0]))
  have hw32B : Disjoint (W8 d L (k0_off32 L k) (k0_off32_inb L k)) (W8 d L offB inbB) := win8_disj _ offB _ inbB (Or.inr (by rw [off32_0, hB0]; show _ ≤ base L + 16 * k.val; omega))
  -- slot 0: its gather lands, the copy of two chunks ago too
  sl_exec
  ihave Hrows := (Entails.of_eq (e2 _)) $$ HG0_dst
  ihave Hnb0 := (Entails.of_eq (e3 _)) $$ HO0_src
  iapply (wp_seq2 d L (reduce0 d L R0 NA v2 (0#32) (1#32) k))
  isplitl [Hrows Hnb0]
  · isplitl [Hrows] <;> iassumption
  iintro %_ ⟨Hrows, %NA', Hnb0, %hNA'⟩
  ihave Hno2 := (join_hole (f := gA) (g := g) hAO hAB) $$ [HO0_dst Hno]
  · isplitl [HO0_dst] <;> iassumption
  ihave HG0d := (Entails.of_eq (e2 _).symm) $$ Hrows
  ihave H3x := (Entails.of_eq (e3 _).symm) $$ Hnb0
  ihave H0s := (pointsTo_split_subset (hsubN (k0_off33 k) (k0_off33_inb k h4))).1 $$ H0r
  icases H0s with ⟨H0a, H0b⟩
  ihave H0a' := (Entails.of_eq (eA _ _ _ _)) $$ H0a
  have hinA : ∀ x, ((offN (k0_off33 k) (k0_off33_inb k h4)).view.read (Elt F) idxn x).toNat < S100001x128.size gathers_S100001x128_S128x128.axis := fun x => Nat.lt_succ_of_le (hn _)
  have hW32sub : W8 d L (k0_off32 L k) (k0_off32_inb L k) ⊆ (Finset.univ \ Oth L) \ W8 d L offB inbB :=
    Finset.subset_sdiff.2 ⟨Finset.subset_sdiff.2 ⟨Finset.subset_univ _, hw32⟩, hw32B⟩
  ihave Hs32 := (pointsTo_split_subset hW32sub).1 $$ Hno2
  icases Hs32 with ⟨Hwin32, Hno3⟩
  ihave Hwin32' := (Entails.of_eq (eW _ _ _)) $$ Hwin32
  sl_exec (disch := exact View.amount_pos _ _ (show 0 < S8x128.numel by decide))
  -- slot 1: the same
  ihave Hrows1 := (Entails.of_eq (e2' _)) $$ HG1_dst
  ihave Hnb1 := (Entails.of_eq (e3' _)) $$ HO1_src
  iapply (wp_seq2 d L (reduce1 d L R1 NB v2 k _ _))
  isplitl [Hrows1 Hnb1]
  · isplitl [Hrows1] <;> iassumption
  iintro %_ ⟨Hrows1, %NB', Hnb1, %hNB'⟩
  ihave Hno4 := (join_hole (f := gB) (g := (W8 d L offA inbA).piecewise gA g) hBO hw32B.symm) $$ [HO1_dst Hno3]
  · isplitl [HO1_dst] <;> iassumption
  ihave HG1d := (Entails.of_eq (e2' _).symm) $$ Hrows1
  ihave H3y := (Entails.of_eq (e3' _).symm) $$ Hnb1
  ihave H1s := (pointsTo_split_subset (hsubN (k0_off61 k) (k0_off61_inb k h6))).1 $$ H1r
  icases H1s with ⟨H1a, H1b⟩
  ihave H1a' := (Entails.of_eq (eA _ _ _ _)) $$ H1a
  have hinB : ∀ x, ((offN (k0_off61 k) (k0_off61_inb k h6)).view.read (Elt F) idxn x).toNat < S100001x128.size gathers_S100001x128_S128x128.axis := fun x => Nat.lt_succ_of_le (hn _)
  have hW60sub : W8 d L (k0_off60 L k) (k0_off60_inb L k) ⊆ (Finset.univ \ Oth L) \ W8 d L (k0_off32 L k) (k0_off32_inb L k) :=
    Finset.subset_sdiff.2 ⟨Finset.subset_sdiff.2 ⟨Finset.subset_univ _, hw60⟩, hw60A⟩
  ihave Hs60 := (pointsTo_split_subset hW60sub).1 $$ Hno4
  icases Hs60 with ⟨Hwin60, Hno5⟩
  ihave Hwin60' := (Entails.of_eq (eW _ _ _)) $$ Hwin60
  sl_exec (disch := exact View.amount_pos _ _ (show 0 < S8x128.numel by decide))
  sl_step
  -- the invariant before the next trip
  isplitl [Hmw]; · iexact Hmw
  isplitl [HG0 H0b HE0r]
  · iexists (k0_off33 k), (k0_off33_inb k h4), _
    isplitr [HG0 H0b HE0r]
    swap
    · isplitl [HG0]; · iexact HG0
      isplitl [H0b]; · iexact H0b
      iexact HE0r
    · ipureintro
      exact ⟨by rw [k0_off33_eq]; show 2 * k.val + 2 = 2 * (k.val + 1); omega, by rw [k0_off33_eq]; rfl,
        rowsOK_gather0 (m := m) (d := d) (L := L) (idxn := idxn) (k0_off33 k) (k0_off33_inb k h4) (by rw [k0_off33_eq]; rfl) (2 * (k.val + 1)) (by rw [k0_off33_eq]; show 2 * k.val + 2 = _; omega) (by omega) hinA R0⟩
  isplitl [HG1 H1b HE1r]
  · iexists (k0_off61 k), (k0_off61_inb k h6), _
    isplitr [HG1 H1b HE1r]
    swap
    · isplitl [HG1]; · iexact HG1
      isplitl [H1b]; · iexact H1b
      iexact HE1r
    · ipureintro
      exact ⟨by rw [k0_off61_eq]; show 2 * k.val + 3 = 2 * (k.val + 1) + 1; omega, by rw [k0_off61_eq]; rfl,
        rowsOK_gather1 (m := m) (d := d) (L := L) (idxn := idxn) (k0_off61 k) (k0_off61_inb k h6) (by rw [k0_off61_eq]; rfl) (2 * (k.val + 1) + 1) (by rw [k0_off61_eq]; show 2 * k.val + 3 = _; omega) (by omega) hinB R1⟩
  isplitl [HO0 HO1 Hno5]
  · iexists (k0_off32 L k), (k0_off60 L k), (k0_off32_inb L k), (k0_off60_inb L k), _, _, _, _, _
    isplitr [HO0 HO1 Hno5]
    swap
    · isplitl [HO0]; · iexact HO0
      isplitl [HO1]; · iexact HO1
      iexact Hno5
    · ipureintro
      refine ⟨⟨by rw [off32_0]; show _ = base L + 16 * (k.val + 1 - 1); simp, off32_1 L k, by rw [off60_0]; show _ = base L + 16 * (k.val + 1 - 1) + 8; simp, off60_1 L k⟩, ?_, ?_, ?_⟩
      · exact nei_window_val (m := m) (In := In) (d := d) (L := L) (idxn := idxn) 0 (2 * k.val) (by omega) (k0_off32 L k) (k0_off32_inb L k) (by rw [off32_0]; unfold base; omega) (off32_1 L k) R0 NA' (by have := hf0.2.2; exact this) hNA' hidxn _
          (fun x => win8_copy0_writes d L (k0_off32 L k) (k0_off32_inb L k) (off32_1 L k) _ NA' x)
      · exact nei_window_val (m := m) (In := In) (d := d) (L := L) (idxn := idxn) 1 (2 * k.val + 1) (by omega) (k0_off60 L k) (k0_off60_inb L k) (by rw [off60_0]; unfold base; omega) (off60_1 L k) R1 NB' (by have := hf1.2.2; exact this) hNB' hidxn _
          (fun x => win8_copy1_writes d L (k0_off60 L k) (k0_off60_inb L k) (off60_1 L k) _ NB' x)
      · exact done_rows (m := m) (In := In) (d := d) (L := L) k.val offA offB inbA inbB hA0 hA1 hB0 hB1 gA gB g hgA hgB hg hk0 |> fun h => by simpa using h
  isplitl [HS]; · iexact HS
  iexists _
  isplitr [HO]
  swap
  · iexact HO
  · ipureintro; intro p hp
    repeat (rcases Finset.mem_insert.mp hp with hp | hp; exact .inr (hp ▸ rfl))
    exact hW' p hp
end Cert.KI
end
-- ==== Proof.TileStepC.lean ====
import proofs.«208587_g27212912787602_cont_9to1_1073_18_alg».proof.Proof.TileInv
import proofs.«208587_g27212912787602_cont_9to1_1073_18_alg».proof.Proof.GatherVal
import proofs.«208587_g27212912787602_cont_9to1_1073_18_alg».proof.Proof.Reduce
import proofs.«208587_g27212912787602_cont_9to1_1073_18_alg».proof.Proof.TileHarvest
import proofs.«208587_g27212912787602_cont_9to1_1073_18_alg».proof.Proof.TripVal
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)

local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)
local notation "embV" => ((Memref.whole Cert.KernelIdeal.main_arg1_scv : Memref Cert.KernelIdeal.sig Kind.scVector Space.hbm Cert.KernelIdeal.S100001x128 EltTy.f32).slice (Rect.unit (s := Cert.KernelIdeal.S100001x128) ![0, 0] Cert.KernelIdeal.S100001x128.size Cert.KernelIdeal.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

set_option maxHeartbeats 4000000 in
theorem stepC (hn : ∀ y, (idxn y).toNat ≤ 100000) (hs : ∀ y, (idxs y).toNat ≤ 100000)
    (hidxn : ∀ (c a : Fin 128), idxn (ix2 c a) = In (ix2 ⟨128 * (2 * (L 1).val + (L 0).val) + c.val, rowN_lt L c⟩ a))
    (hidxs : ∀ (j : Fin 8) (a : Fin 128), idxs (ix2 j a) = Is (ix2 ⟨8 * (2 * (L 1).val + (L 0).val) + j.val, rowS_lt L j⟩ a))
    (hO : ∀ g, O g none = 0) (v2 : BitVec 32) (k : Fin k0_t1_loop.trips) (hk8 : k.val % 8 = 4) (hk56 : k.val < 56) (acc : PUnit) :
    inv m Is In d L q idxn idxs O W0 k.val acc ⊢ wp frame (wpE (defs₀ (F := F)) 𝒱₀ (thr d L) none) Set.univ
      (k0_t1_body L embW (Memref.isWhole_whole _) inW (Memref.isWhole_whole _) isW (Memref.isWhole_whole _) soW (Memref.isWhole_whole _) noW (Memref.isWhole_whole _)
        s0W (Memref.isWhole_whole _) s1W (Memref.isWhole_whole _) s2W (Memref.isWhole_whole _) s3W (Memref.isWhole_whole _) s4W (Memref.isWhole_whole _)
        cc0_scratch5 cc0_scratch6 cc0_scratch7 cc0_scratch8 cc0_scoped0 cc0_scoped1 v2 k acc)
      (fun acc' => inv m Is In d L q idxn idxs O W0 (k.val + 1) acc') := by
  have hk0 : 0 < k.val := by omega
  have hk63 : k.val < 63 := by omega
  have hk60 : k.val ≤ 60 := by omega
  have h1 : k0_cond1 k = 1#1 := (cond1_iff k).2 hk8
  have h2 : k0_cond2 k = 1#1 := (cond2_iff k).2 hk56
  have h3 : k0_cond3 k = 1#1 := (cond3_iff k).2 hk0
  have h5 : k0_cond5 k = 1#1 := (cond5_iff k).2 hk0
  have h4 : k0_cond4 k = 1#1 := (cond4_iff k).2 hk63
  have h6 : k0_cond6 k = 1#1 := (cond6_iff k).2 hk63
  have hk64 : k.val < 64 := by have := trips_lt k; omega
  have hk0' : 0 < k.val + 1 := by omega
  have hk64' : k.val + 1 < 64 := by omega
  have hw4 := off4_disj_others L k h1
  unfold k0_t1_body
  rw [k0_part49_eq_skeleton, k0_part50_eq_skeleton]; unfold k0_part49_skel k0_part50_skel
  unfold inv gPart0 gPart1 oPart
  rw [if_pos hk64, if_pos hk64, if_pos hk0, if_pos hk64', if_pos hk64', if_pos hk0']
  generalize hSP : sPart m Is d L q idxs (k.val + 1) = SP
  unfold sPart
  rw [if_pos hk60]
  iintro ⟨Hmw, ⟨%o0, %ho0, %R0, %hf0, HG0, H0r, HE0r⟩, ⟨%o1, %ho1, %R1, %hf1, HG1, H1r, HE1r⟩,
    ⟨%offA, %offB, %inbA, %inbB, %gA, %gB, %g, %NA, %NB, %hfo, HO0, HO1, Hno⟩, ⟨⟨%oS, %hoS, %RS, %hfS, HS4, HS1r, HSEr⟩, Hc5, %gs, %hgs, Hso⟩, ⟨%W', %hW', HO⟩⟩
  -- the respellings used below
  have e2 : ∀ f, ((rows0M).view.loc (thr d L) ↦[(rows0M).view.set]{fullShare} f : sProp 𝕄) = ((s2W).view.loc (thr d L) ↦[Finset.univ \ (rows1M).view.set]{fullShare} f) :=
    fun f => congrArg (fun S => ((s2W).view.loc (thr d L) ↦[S]{fullShare} f : sProp 𝕄)) rows0_eq
  have e2' : ∀ f, ((rows1M).view.loc (thr d L) ↦[(rows1M).view.set]{fullShare} f : sProp 𝕄) = ((s2W).view.loc (thr d L) ↦[Finset.univ \ (rows0M).view.set]{fullShare} f) :=
    fun f => congrArg (fun S => ((s2W).view.loc (thr d L) ↦[S]{fullShare} f : sProp 𝕄)) rows1_eq
  have e3 : ∀ f, ((nbuf0M).view.loc (thr d L) ↦[(nbuf0M).view.set]{fullShare} f : sProp 𝕄) = ((s3W).view.loc (thr d L) ↦[Finset.univ \ (nbuf1M).view.set]{fullShare} f) :=
    fun f => congrArg (fun S => ((s3W).view.loc (thr d L) ↦[S]{fullShare} f : sProp 𝕄)) nbuf0_eq
  have e3' : ∀ f, ((nbuf1M).view.loc (thr d L) ↦[(nbuf1M).view.set]{fullShare} f : sProp 𝕄) = ((s3W).view.loc (thr d L) ↦[Finset.univ \ (nbuf0M).view.set]{fullShare} f) :=
    fun f => congrArg (fun S => ((s3W).view.loc (thr d L) ↦[S]{fullShare} f : sProp 𝕄)) nbuf1_eq
  have eA : ∀ o h qq f, ((s0W).view.loc (thr d L) ↦[(offN o h).view.set]{qq} f : sProp 𝕄) = ((offN o h).view.loc (thr d L) ↦[(offN o h).view.set]{qq} f) := fun _ _ _ _ => rfl
  have eW : ∀ off inb f, ((noW).view.loc (thr d L) ↦[W8 d L off inb]{fullShare} f : sProp 𝕄)
      = (((noW).slice (Rect.unit (s := S32768x128) off S8x128.size inb) (fun _ => rfl)).view.loc (thr d L) ↦[((noW).slice (Rect.unit (s := S32768x128) off S8x128.size inb) (fun _ => rfl)).view.set]{fullShare} f) := fun _ _ _ => rfl
  have hsubN : ∀ o h, ((offN o h).view.set : Finset (Idx ((s0W).view.loc (thr d L)))) ⊆ Finset.univ := fun _ _ => Finset.subset_univ _
  have hw32 : Disjoint ((noW).slice (Rect.unit (s := S32768x128) (k0_off32 L k) S8x128.size (k0_off32_inb L k)) (fun _ => rfl)).view.set (Oth L) := by unfold Oth; exact off32_disj_others L k
  have hw60 : Disjoint ((noW).slice (Rect.unit (s := S32768x128) (k0_off60 L k) S8x128.size (k0_off60_inb L k)) (fun _ => rfl)).view.set (Oth L) := by unfold Oth; exact off60_disj_others L k
  have hw60A : Disjoint (W8 d L (k0_off60 L k) (k0_off60_inb L k)) (W8 d L (k0_off32 L k) (k0_off32_inb L k)) := off60_off32_disj L k k
  obtain ⟨⟨hA0, hA1, hB0, hB1⟩, hgA, hgB, hg⟩ := hfo
  have hAO : W8 d L offA inbA ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offA inbA hA1 (by rw [hA0]; show base L ≤ _; omega) (by rw [hA0]; show _ ≤ base L + 1024; omega) hy)⟩
  have hBO : W8 d L offB inbB ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offB inbB hB1 (by rw [hB0]; show base L ≤ _; omega) (by rw [hB0]; show _ ≤ base L + 1024; omega) hy)⟩
  have hAB : Disjoint (W8 d L offA inbA) (W8 d L offB inbB) := win8_disj offA offB inbA inbB (Or.inl (by rw [hA0, hB0]))
  have hw32B : Disjoint (W8 d L (k0_off32 L k) (k0_off32_inb L k)) (W8 d L offB inbB) := win8_disj _ offB _ inbB (Or.inr (by rw [off32_0, hB0]; show _ ≤ base L + 16 * k.val; omega))
  -- the own rows of block k / 8 are harvested and the next block's gather issued
  sl_exec (disch := exact View.amount_pos _ _ (show 0 < S128x128.numel by decide))
  have e1 : ∀ f, ((offS oS hoS).view.loc (thr d L) ↦{fullShare} f : sProp 𝕄) = ((s1W).view.loc (thr d L) ↦{fullShare} f) := fun _ => rfl
  ihave HS1w := (Entails.of_eq (e1 _)) $$ HS1r
  have hsubS : ((offS (k0_off5 k) (k0_off5_inb k h1 h2)).view.set : Finset (Idx ((s1W).view.loc (thr d L)))) ⊆ Finset.univ := Finset.subset_univ _
  ihave HS1s := (pointsTo_split_subset hsubS).1 $$ HS1w
  icases HS1s with ⟨HS1a, HS1b⟩
  have eS : ∀ o h qq f, ((s1W).view.loc (thr d L) ↦[(offS o h).view.set]{qq} f : sProp 𝕄) = ((offS o h).view.loc (thr d L) ↦[(offS o h).view.set]{qq} f) := fun _ _ _ _ => rfl
  ihave HS1a' := (Entails.of_eq (eS _ _ _ _)) $$ HS1a
  have hinS : ∀ x, ((offS (k0_off5 k) (k0_off5_inb k h1 h2)).view.read (Elt F) idxs x).toNat < S100001x128.size gathers_S100001x128_S128x128.axis := fun x => Nat.lt_succ_of_le (hs _)
  sl_exec
  ihave HS := (sPart_fold (m := m) (Is := Is) (d := d) (L := L) (q := q) (idxs := idxs) (k.val + 1) (by omega) (k0_off5 k) (k0_off5_inb k h1 h2) _
      ⟨by rw [off5_0]; omega, off5_1 k, harvest_srows (m := m) (d := d) (L := L) (idxs := idxs) k h1 h2 hk8 hk56 RS hinS⟩ _
      (harvest_rows (m := m) (Is := Is) (d := d) (L := L) (idxs := idxs) hidxs k h1 hk8 RS hfS.2.2 gs hgs)) $$ [HS4 HS1b HSEr Hc5 Hso]
  · isplitl [HS4]; · iexact HS4
    isplitl [HS1b]; · iexact HS1b
    isplitl [HSEr]; · iexact HSEr
    isplitl [Hc5]; · iexact Hc5
    iexact Hso
  -- slot 0: its gather lands, the copy of two chunks ago too
  ihave Hrows := (Entails.of_eq (e2 _)) $$ HG0_dst
  ihave Hnb0 := (Entails.of_eq (e3 _)) $$ HO0_src
  iapply (wp_seq2 d L (reduce0 d L R0 NA v2 (0#32) (1#32) k))
  isplitl [Hrows Hnb0]
  · isplitl [Hrows] <;> iassumption
  iintro %_ ⟨Hrows, %NA', Hnb0, %hNA'⟩
  ihave Hno2 := (join_hole (f := gA) (g := g) hAO hAB) $$ [HO0_dst Hno]
  · isplitl [HO0_dst] <;> iassumption
  ihave HG0d := (Entails.of_eq (e2 _).symm) $$ Hrows
  ihave H3x := (Entails.of_eq (e3 _).symm) $$ Hnb0
  ihave H0s := (pointsTo_split_subset (hsubN (k0_off33 k) (k0_off33_inb k h4))).1 $$ H0r
  icases H0s with ⟨H0a, H0b⟩
  ihave H0a' := (Entails.of_eq (eA _ _ _ _)) $$ H0a
  have hinA : ∀ x, ((offN (k0_off33 k) (k0_off33_inb k h4)).view.read (Elt F) idxn x).toNat < S100001x128.size gathers_S100001x128_S128x128.axis := fun x => Nat.lt_succ_of_le (hn _)
  have hW32sub : W8 d L (k0_off32 L k) (k0_off32_inb L k) ⊆ (Finset.univ \ Oth L) \ W8 d L offB inbB :=
    Finset.subset_sdiff.2 ⟨Finset.subset_sdiff.2 ⟨Finset.subset_univ _, hw32⟩, hw32B⟩
  ihave Hs32 := (pointsTo_split_subset hW32sub).1 $$ Hno2
  icases Hs32 with ⟨Hwin32, Hno3⟩
  ihave Hwin32' := (Entails.of_eq (eW _ _ _)) $$ Hwin32
  sl_exec (disch := exact View.amount_pos _ _ (show 0 < S8x128.numel by decide))
  -- slot 1: the same
  ihave Hrows1 := (Entails.of_eq (e2' _)) $$ HG1_dst
  ihave Hnb1 := (Entails.of_eq (e3' _)) $$ HO1_src
  iapply (wp_seq2 d L (reduce1 d L R1 NB v2 k _ _))
  isplitl [Hrows1 Hnb1]
  · isplitl [Hrows1] <;> iassumption
  iintro %_ ⟨Hrows1, %NB', Hnb1, %hNB'⟩
  ihave Hno4 := (join_hole (f := gB) (g := (W8 d L offA inbA).piecewise gA g) hBO hw32B.symm) $$ [HO1_dst Hno3]
  · isplitl [HO1_dst] <;> iassumption
  ihave HG1d := (Entails.of_eq (e2' _).symm) $$ Hrows1
  ihave H3y := (Entails.of_eq (e3' _).symm) $$ Hnb1
  ihave H1s := (pointsTo_split_subset (hsubN (k0_off61 k) (k0_off61_inb k h6))).1 $$ H1r
  icases H1s with ⟨H1a, H1b⟩
  ihave H1a' := (Entails.of_eq (eA _ _ _ _)) $$ H1a
  have hinB : ∀ x, ((offN (k0_off61 k) (k0_off61_inb k h6)).view.read (Elt F) idxn x).toNat < S100001x128.size gathers_S100001x128_S128x128.axis := fun x => Nat.lt_succ_of_le (hn _)
  have hW60sub : W8 d L (k0_off60 L k) (k0_off60_inb L k) ⊆ (Finset.univ \ Oth L) \ W8 d L (k0_off32 L k) (k0_off32_inb L k) :=
    Finset.subset_sdiff.2 ⟨Finset.subset_sdiff.2 ⟨Finset.subset_univ _, hw60⟩, hw60A⟩
  ihave Hs60 := (pointsTo_split_subset hW60sub).1 $$ Hno4
  icases Hs60 with ⟨Hwin60, Hno5⟩
  ihave Hwin60' := (Entails.of_eq (eW _ _ _)) $$ Hwin60
  sl_exec (disch := exact View.amount_pos _ _ (show 0 < S8x128.numel by decide))
  sl_step
  -- the invariant before the next trip
  isplitl [Hmw]; · iexact Hmw
  isplitl [HG0 H0b HE0r]
  · iexists (k0_off33 k), (k0_off33_inb k h4), _
    isplitr [HG0 H0b HE0r]
    swap
    · isplitl [HG0]; · iexact HG0
      isplitl [H0b]; · iexact H0b
      iexact HE0r
    · ipureintro
      exact ⟨by rw [k0_off33_eq]; show 2 * k.val + 2 = 2 * (k.val + 1); omega, by rw [k0_off33_eq]; rfl,
        rowsOK_gather0 (m := m) (d := d) (L := L) (idxn := idxn) (k0_off33 k) (k0_off33_inb k h4) (by rw [k0_off33_eq]; rfl) (2 * (k.val + 1)) (by rw [k0_off33_eq]; show 2 * k.val + 2 = _; omega) (by omega) hinA R0⟩
  isplitl [HG1 H1b HE1r]
  · iexists (k0_off61 k), (k0_off61_inb k h6), _
    isplitr [HG1 H1b HE1r]
    swap
    · isplitl [HG1]; · iexact HG1
      isplitl [H1b]; · iexact H1b
      iexact HE1r
    · ipureintro
      exact ⟨by rw [k0_off61_eq]; show 2 * k.val + 3 = 2 * (k.val + 1) + 1; omega, by rw [k0_off61_eq]; rfl,
        rowsOK_gather1 (m := m) (d := d) (L := L) (idxn := idxn) (k0_off61 k) (k0_off61_inb k h6) (by rw [k0_off61_eq]; rfl) (2 * (k.val + 1) + 1) (by rw [k0_off61_eq]; show 2 * k.val + 3 = _; omega) (by omega) hinB R1⟩
  isplitl [HO0 HO1 Hno5]
  · iexists (k0_off32 L k), (k0_off60 L k), (k0_off32_inb L k), (k0_off60_inb L k), _, _, _, _, _
    isplitr [HO0 HO1 Hno5]
    swap
    · isplitl [HO0]; · iexact HO0
      isplitl [HO1]; · iexact HO1
      iexact Hno5
    · ipureintro
      refine ⟨⟨by rw [off32_0]; show _ = base L + 16 * (k.val + 1 - 1); simp, off32_1 L k, by rw [off60_0]; show _ = base L + 16 * (k.val + 1 - 1) + 8; simp, off60_1 L k⟩, ?_, ?_, ?_⟩
      · exact nei_window_val (m := m) (In := In) (d := d) (L := L) (idxn := idxn) 0 (2 * k.val) (by omega) (k0_off32 L k) (k0_off32_inb L k) (by rw [off32_0]; unfold base; omega) (off32_1 L k) R0 NA' (by have := hf0.2.2; exact this) hNA' hidxn _
          (fun x => win8_copy0_writes d L (k0_off32 L k) (k0_off32_inb L k) (off32_1 L k) _ NA' x)
      · exact nei_window_val (m := m) (In := In) (d := d) (L := L) (idxn := idxn) 1 (2 * k.val + 1) (by omega) (k0_off60 L k) (k0_off60_inb L k) (by rw [off60_0]; unfold base; omega) (off60_1 L k) R1 NB' (by have := hf1.2.2; exact this) hNB' hidxn _
          (fun x => win8_copy1_writes d L (k0_off60 L k) (k0_off60_inb L k) (off60_1 L k) _ NB' x)
      · exact done_rows (m := m) (In := In) (d := d) (L := L) k.val offA offB inbA inbB hA0 hA1 hB0 hB1 gA gB g hgA hgB hg hk0 |> fun h => by simpa using h
  isplitl [HS]; · rw [← hSP]; iexact HS
  iexists _
  isplitr [HO]
  swap
  · iexact HO
  · ipureintro; intro p hp
    repeat (rcases Finset.mem_insert.mp hp with hp | hp; exact .inr (hp ▸ rfl))
    exact hW' p hp
end Cert.KI
end
-- ==== Proof.TileStepD.lean ====
import proofs.«208587_g27212912787602_cont_9to1_1073_18_alg».proof.Proof.TileInv
import proofs.«208587_g27212912787602_cont_9to1_1073_18_alg».proof.Proof.GatherVal
import proofs.«208587_g27212912787602_cont_9to1_1073_18_alg».proof.Proof.Reduce
import proofs.«208587_g27212912787602_cont_9to1_1073_18_alg».proof.Proof.TileHarvest
import proofs.«208587_g27212912787602_cont_9to1_1073_18_alg».proof.Proof.TripVal
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)

local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)
local notation "embV" => ((Memref.whole Cert.KernelIdeal.main_arg1_scv : Memref Cert.KernelIdeal.sig Kind.scVector Space.hbm Cert.KernelIdeal.S100001x128 EltTy.f32).slice (Rect.unit (s := Cert.KernelIdeal.S100001x128) ![0, 0] Cert.KernelIdeal.S100001x128.size Cert.KernelIdeal.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

set_option maxHeartbeats 4000000 in
theorem stepD (hn : ∀ y, (idxn y).toNat ≤ 100000) (hs : ∀ y, (idxs y).toNat ≤ 100000)
    (hidxn : ∀ (c a : Fin 128), idxn (ix2 c a) = In (ix2 ⟨128 * (2 * (L 1).val + (L 0).val) + c.val, rowN_lt L c⟩ a))
    (hidxs : ∀ (j : Fin 8) (a : Fin 128), idxs (ix2 j a) = Is (ix2 ⟨8 * (2 * (L 1).val + (L 0).val) + j.val, rowS_lt L j⟩ a))
    (hO : ∀ g, O g none = 0) (v2 : BitVec 32) (k : Fin k0_t1_loop.trips) (hk : k.val = 60) (acc : PUnit) :
    inv m Is In d L q idxn idxs O W0 k.val acc ⊢ wp frame (wpE (defs₀ (F := F)) 𝒱₀ (thr d L) none) Set.univ
      (k0_t1_body L embW (Memref.isWhole_whole _) inW (Memref.isWhole_whole _) isW (Memref.isWhole_whole _) soW (Memref.isWhole_whole _) noW (Memref.isWhole_whole _)
        s0W (Memref.isWhole_whole _) s1W (Memref.isWhole_whole _) s2W (Memref.isWhole_whole _) s3W (Memref.isWhole_whole _) s4W (Memref.isWhole_whole _)
        cc0_scratch5 cc0_scratch6 cc0_scratch7 cc0_scratch8 cc0_scoped0 cc0_scoped1 v2 k acc)
      (fun acc' => inv m Is In d L q idxn idxs O W0 (k.val + 1) acc') := by
  have hk0 : 0 < k.val := by omega
  have hk63 : k.val < 63 := by omega
  have hk8 : k.val % 8 = 4 := by omega
  have hk60 : k.val ≤ 60 := by omega
  have h1 : k0_cond1 k = 1#1 := (cond1_iff k).2 hk8
  have h2 : ¬ k0_cond2 k = 1#1 := fun h => by have := (cond2_iff k).1 h; omega
  have hk56 : ¬ k.val < 56 := by omega
  have h3 : k0_cond3 k = 1#1 := (cond3_iff k).2 hk0
  have h5 : k0_cond5 k = 1#1 := (cond5_iff k).2 hk0
  have h4 : k0_cond4 k = 1#1 := (cond4_iff k).2 hk63
  have h6 : k0_cond6 k = 1#1 := (cond6_iff k).2 hk63
  have hk64 : k.val < 64 := by have := trips_lt k; omega
  have hk0' : 0 < k.val + 1 := by omega
  have hk64' : k.val + 1 < 64 := by omega
  have hw4 := off4_disj_others L k h1
  unfold k0_t1_body
  rw [k0_part49_eq_skeleton, k0_part50_eq_skeleton]; unfold k0_part49_skel k0_part50_skel
  unfold inv gPart0 gPart1 oPart
  rw [if_pos hk64, if_pos hk64, if_pos hk0, if_pos hk64', if_pos hk64', if_pos hk0']
  generalize hSP : sPart m Is d L q idxs (k.val + 1) = SP
  unfold sPart
  rw [if_pos hk60]
  iintro ⟨Hmw, ⟨%o0, %ho0, %R0, %hf0, HG0, H0r, HE0r⟩, ⟨%o1, %ho1, %R1, %hf1, HG1, H1r, HE1r⟩,
    ⟨%offA, %offB, %inbA, %inbB, %gA, %gB, %g, %NA, %NB, %hfo, HO0, HO1, Hno⟩, ⟨⟨%oS, %hoS, %RS, %hfS, HS4, HS1r, HSEr⟩, Hc5, %gs, %hgs, Hso⟩, ⟨%W', %hW', HO⟩⟩
  -- the respellings used below
  have e2 : ∀ f, ((rows0M).view.loc (thr d L) ↦[(rows0M).view.set]{fullShare} f : sProp 𝕄) = ((s2W).view.loc (thr d L) ↦[Finset.univ \ (rows1M).view.set]{fullShare} f) :=
    fun f => congrArg (fun S => ((s2W).view.loc (thr d L) ↦[S]{fullShare} f : sProp 𝕄)) rows0_eq
  have e2' : ∀ f, ((rows1M).view.loc (thr d L) ↦[(rows1M).view.set]{fullShare} f : sProp 𝕄) = ((s2W).view.loc (thr d L) ↦[Finset.univ \ (rows0M).view.set]{fullShare} f) :=
    fun f => congrArg (fun S => ((s2W).view.loc (thr d L) ↦[S]{fullShare} f : sProp 𝕄)) rows1_eq
  have e3 : ∀ f, ((nbuf0M).view.loc (thr d L) ↦[(nbuf0M).view.set]{fullShare} f : sProp 𝕄) = ((s3W).view.loc (thr d L) ↦[Finset.univ \ (nbuf1M).view.set]{fullShare} f) :=
    fun f => congrArg (fun S => ((s3W).view.loc (thr d L) ↦[S]{fullShare} f : sProp 𝕄)) nbuf0_eq
  have e3' : ∀ f, ((nbuf1M).view.loc (thr d L) ↦[(nbuf1M).view.set]{fullShare} f : sProp 𝕄) = ((s3W).view.loc (thr d L) ↦[Finset.univ \ (nbuf0M).view.set]{fullShare} f) :=
    fun f => congrArg (fun S => ((s3W).view.loc (thr d L) ↦[S]{fullShare} f : sProp 𝕄)) nbuf1_eq
  have eA : ∀ o h qq f, ((s0W).view.loc (thr d L) ↦[(offN o h).view.set]{qq} f : sProp 𝕄) = ((offN o h).view.loc (thr d L) ↦[(offN o h).view.set]{qq} f) := fun _ _ _ _ => rfl
  have eW : ∀ off inb f, ((noW).view.loc (thr d L) ↦[W8 d L off inb]{fullShare} f : sProp 𝕄)
      = (((noW).slice (Rect.unit (s := S32768x128) off S8x128.size inb) (fun _ => rfl)).view.loc (thr d L) ↦[((noW).slice (Rect.unit (s := S32768x128) off S8x128.size inb) (fun _ => rfl)).view.set]{fullShare} f) := fun _ _ _ => rfl
  have hsubN : ∀ o h, ((offN o h).view.set : Finset (Idx ((s0W).view.loc (thr d L)))) ⊆ Finset.univ := fun _ _ => Finset.subset_univ _
  have hw32 : Disjoint ((noW).slice (Rect.unit (s := S32768x128) (k0_off32 L k) S8x128.size (k0_off32_inb L k)) (fun _ => rfl)).view.set (Oth L) := by unfold Oth; exact off32_disj_others L k
  have hw60 : Disjoint ((noW).slice (Rect.unit (s := S32768x128) (k0_off60 L k) S8x128.size (k0_off60_inb L k)) (fun _ => rfl)).view.set (Oth L) := by unfold Oth; exact off60_disj_others L k
  have hw60A : Disjoint (W8 d L (k0_off60 L k) (k0_off60_inb L k)) (W8 d L (k0_off32 L k) (k0_off32_inb L k)) := off60_off32_disj L k k
  obtain ⟨⟨hA0, hA1, hB0, hB1⟩, hgA, hgB, hg⟩ := hfo
  have hAO : W8 d L offA inbA ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offA inbA hA1 (by rw [hA0]; show base L ≤ _; omega) (by rw [hA0]; show _ ≤ base L + 1024; omega) hy)⟩
  have hBO : W8 d L offB inbB ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offB inbB hB1 (by rw [hB0]; show base L ≤ _; omega) (by rw [hB0]; show _ ≤ base L + 1024; omega) hy)⟩
  have hAB : Disjoint (W8 d L offA inbA) (W8 d L offB inbB) := win8_disj offA offB inbA inbB (Or.inl (by rw [hA0, hB0]))
  have hw32B : Disjoint (W8 d L (k0_off32 L k) (k0_off32_inb L k)) (W8 d L offB inbB) := win8_disj _ offB _ inbB (Or.inr (by rw [off32_0, hB0]; show _ ≤ base L + 16 * k.val; omega))
  -- the own rows of the last block are harvested; no further gather
  sl_exec (disch := exact View.amount_pos _ _ (show 0 < S128x128.numel by decide))
  have e1 : ∀ f, ((offS oS hoS).view.loc (thr d L) ↦{fullShare} f : sProp 𝕄) = ((s1W).view.loc (thr d L) ↦{fullShare} f) := fun _ => rfl
  ihave HS1w := (Entails.of_eq (e1 _)) $$ HS1r
  ihave HS := (sPart_fold_idle (m := m) (Is := Is) (d := d) (L := L) (q := q) (idxs := idxs) (k.val + 1) (by omega) RS _
      (harvest_rows (m := m) (Is := Is) (d := d) (L := L) (idxs := idxs) hidxs k h1 hk8 RS hfS.2.2 gs hgs)) $$ [HS4 HS4_dst HS1w HSEr Hc5 Hso]
  · isplitl [HS4]; · iexact HS4
    isplitl [HS4_dst]; · iexact HS4_dst
    isplitl [HS1w]; · iexact HS1w
    isplitl [HSEr]; · iexact HSEr
    isplitl [Hc5]; · iexact Hc5
    iexact Hso
  -- slot 0: its gather lands, the copy of two chunks ago too
  ihave Hrows := (Entails.of_eq (e2 _)) $$ HG0_dst
  ihave Hnb0 := (Entails.of_eq (e3 _)) $$ HO0_src
  iapply (wp_seq2 d L (reduce0 d L R0 NA v2 (0#32) (1#32) k))
  isplitl [Hrows Hnb0]
  · isplitl [Hrows] <;> iassumption
  iintro %_ ⟨Hrows, %NA', Hnb0, %hNA'⟩
  ihave Hno2 := (join_hole (f := gA) (g := g) hAO hAB) $$ [HO0_dst Hno]
  · isplitl [HO0_dst] <;> iassumption
  ihave HG0d := (Entails.of_eq (e2 _).symm) $$ Hrows
  ihave H3x := (Entails.of_eq (e3 _).symm) $$ Hnb0
  ihave H0s := (pointsTo_split_subset (hsubN (k0_off33 k) (k0_off33_inb k h4))).1 $$ H0r
  icases H0s with ⟨H0a, H0b⟩
  ihave H0a' := (Entails.of_eq (eA _ _ _ _)) $$ H0a
  have hinA : ∀ x, ((offN (k0_off33 k) (k0_off33_inb k h4)).view.read (Elt F) idxn x).toNat < S100001x128.size gathers_S100001x128_S128x128.axis := fun x => Nat.lt_succ_of_le (hn _)
  have hW32sub : W8 d L (k0_off32 L k) (k0_off32_inb L k) ⊆ (Finset.univ \ Oth L) \ W8 d L offB inbB :=
    Finset.subset_sdiff.2 ⟨Finset.subset_sdiff.2 ⟨Finset.subset_univ _, hw32⟩, hw32B⟩
  ihave Hs32 := (pointsTo_split_subset hW32sub).1 $$ Hno2
  icases Hs32 with ⟨Hwin32, Hno3⟩
  ihave Hwin32' := (Entails.of_eq (eW _ _ _)) $$ Hwin32
  sl_exec (disch := exact View.amount_pos _ _ (show 0 < S8x128.numel by decide))
  -- slot 1: the same
  ihave Hrows1 := (Entails.of_eq (e2' _)) $$ HG1_dst
  ihave Hnb1 := (Entails.of_eq (e3' _)) $$ HO1_src
  iapply (wp_seq2 d L (reduce1 d L R1 NB v2 k _ _))
  isplitl [Hrows1 Hnb1]
  · isplitl [Hrows1] <;> iassumption
  iintro %_ ⟨Hrows1, %NB', Hnb1, %hNB'⟩
  ihave Hno4 := (join_hole (f := gB) (g := (W8 d L offA inbA).piecewise gA g) hBO hw32B.symm) $$ [HO1_dst Hno3]
  · isplitl [HO1_dst] <;> iassumption
  ihave HG1d := (Entails.of_eq (e2' _).symm) $$ Hrows1
  ihave H3y := (Entails.of_eq (e3' _).symm) $$ Hnb1
  ihave H1s := (pointsTo_split_subset (hsubN (k0_off61 k) (k0_off61_inb k h6))).1 $$ H1r
  icases H1s with ⟨H1a, H1b⟩
  ihave H1a' := (Entails.of_eq (eA _ _ _ _)) $$ H1a
  have hinB : ∀ x, ((offN (k0_off61 k) (k0_off61_inb k h6)).view.read (Elt F) idxn x).toNat < S100001x128.size gathers_S100001x128_S128x128.axis := fun x => Nat.lt_succ_of_le (hn _)
  have hW60sub : W8 d L (k0_off60 L k) (k0_off60_inb L k) ⊆ (Finset.univ \ Oth L) \ W8 d L (k0_off32 L k) (k0_off32_inb L k) :=
    Finset.subset_sdiff.2 ⟨Finset.subset_sdiff.2 ⟨Finset.subset_univ _, hw60⟩, hw60A⟩
  ihave Hs60 := (pointsTo_split_subset hW60sub).1 $$ Hno4
  icases Hs60 with ⟨Hwin60, Hno5⟩
  ihave Hwin60' := (Entails.of_eq (eW _ _ _)) $$ Hwin60
  sl_exec (disch := exact View.amount_pos _ _ (show 0 < S8x128.numel by decide))
  sl_step
  -- the invariant before the next trip
  isplitl [Hmw]; · iexact Hmw
  isplitl [HG0 H0b HE0r]
  · iexists (k0_off33 k), (k0_off33_inb k h4), _
    isplitr [HG0 H0b HE0r]
    swap
    · isplitl [HG0]; · iexact HG0
      isplitl [H0b]; · iexact H0b
      iexact HE0r
    · ipureintro
      exact ⟨by rw [k0_off33_eq]; show 2 * k.val + 2 = 2 * (k.val + 1); omega, by rw [k0_off33_eq]; rfl,
        rowsOK_gather0 (m := m) (d := d) (L := L) (idxn := idxn) (k0_off33 k) (k0_off33_inb k h4) (by rw [k0_off33_eq]; rfl) (2 * (k.val + 1)) (by rw [k0_off33_eq]; show 2 * k.val + 2 = _; omega) (by omega) hinA R0⟩
  isplitl [HG1 H1b HE1r]
  · iexists (k0_off61 k), (k0_off61_inb k h6), _
    isplitr [HG1 H1b HE1r]
    swap
    · isplitl [HG1]; · iexact HG1
      isplitl [H1b]; · iexact H1b
      iexact HE1r
    · ipureintro
      exact ⟨by rw [k0_off61_eq]; show 2 * k.val + 3 = 2 * (k.val + 1) + 1; omega, by rw [k0_off61_eq]; rfl,
        rowsOK_gather1 (m := m) (d := d) (L := L) (idxn := idxn) (k0_off61 k) (k0_off61_inb k h6) (by rw [k0_off61_eq]; rfl) (2 * (k.val + 1) + 1) (by rw [k0_off61_eq]; show 2 * k.val + 3 = _; omega) (by omega) hinB R1⟩
  isplitl [HO0 HO1 Hno5]
  · iexists (k0_off32 L k), (k0_off60 L k), (k0_off32_inb L k), (k0_off60_inb L k), _, _, _, _, _
    isplitr [HO0 HO1 Hno5]
    swap
    · isplitl [HO0]; · iexact HO0
      isplitl [HO1]; · iexact HO1
      iexact Hno5
    · ipureintro
      refine ⟨⟨by rw [off32_0]; show _ = base L + 16 * (k.val + 1 - 1); simp, off32_1 L k, by rw [off60_0]; show _ = base L + 16 * (k.val + 1 - 1) + 8; simp, off60_1 L k⟩, ?_, ?_, ?_⟩
      · exact nei_window_val (m := m) (In := In) (d := d) (L := L) (idxn := idxn) 0 (2 * k.val) (by omega) (k0_off32 L k) (k0_off32_inb L k) (by rw [off32_0]; unfold base; omega) (off32_1 L k) R0 NA' (by have := hf0.2.2; exact this) hNA' hidxn _
          (fun x => win8_copy0_writes d L (k0_off32 L k) (k0_off32_inb L k) (off32_1 L k) _ NA' x)
      · exact nei_window_val (m := m) (In := In) (d := d) (L := L) (idxn := idxn) 1 (2 * k.val + 1) (by omega) (k0_off60 L k) (k0_off60_inb L k) (by rw [off60_0]; unfold base; omega) (off60_1 L k) R1 NB' (by have := hf1.2.2; exact this) hNB' hidxn _
          (fun x => win8_copy1_writes d L (k0_off60 L k) (k0_off60_inb L k) (off60_1 L k) _ NB' x)
      · exact done_rows (m := m) (In := In) (d := d) (L := L) k.val offA offB inbA inbB hA0 hA1 hB0 hB1 gA gB g hgA hgB hg hk0 |> fun h => by simpa using h
  isplitl [HS]; · rw [← hSP]; iexact HS
  iexists _
  isplitr [HO]
  swap
  · iexact HO
  · ipureintro; intro p hp
    repeat (rcases Finset.mem_insert.mp hp with hp | hp; exact .inr (hp ▸ rfl))
    exact hW' p hp
end Cert.KI
end
-- ==== Proof.TileStepE.lean ====
import proofs.«208587_g27212912787602_cont_9to1_1073_18_alg».proof.Proof.TileInv
import proofs.«208587_g27212912787602_cont_9to1_1073_18_alg».proof.Proof.GatherVal
import proofs.«208587_g27212912787602_cont_9to1_1073_18_alg».proof.Proof.Reduce
import proofs.«208587_g27212912787602_cont_9to1_1073_18_alg».proof.Proof.TileHarvest
import proofs.«208587_g27212912787602_cont_9to1_1073_18_alg».proof.Proof.TripVal
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)

local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)
local notation "embV" => ((Memref.whole Cert.KernelIdeal.main_arg1_scv : Memref Cert.KernelIdeal.sig Kind.scVector Space.hbm Cert.KernelIdeal.S100001x128 EltTy.f32).slice (Rect.unit (s := Cert.KernelIdeal.S100001x128) ![0, 0] Cert.KernelIdeal.S100001x128.size Cert.KernelIdeal.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

set_option maxHeartbeats 4000000 in
theorem stepE (hn : ∀ y, (idxn y).toNat ≤ 100000) (hs : ∀ y, (idxs y).toNat ≤ 100000)
    (hidxn : ∀ (c a : Fin 128), idxn (ix2 c a) = In (ix2 ⟨128 * (2 * (L 1).val + (L 0).val) + c.val, rowN_lt L c⟩ a))
    (hidxs : ∀ (j : Fin 8) (a : Fin 128), idxs (ix2 j a) = Is (ix2 ⟨8 * (2 * (L 1).val + (L 0).val) + j.val, rowS_lt L j⟩ a))
    (hO : ∀ g, O g none = 0) (v2 : BitVec 32) (k : Fin k0_t1_loop.trips) (hk : k.val = 63) (acc : PUnit) :
    inv m Is In d L q idxn idxs O W0 k.val acc ⊢ wp frame (wpE (defs₀ (F := F)) 𝒱₀ (thr d L) none) Set.univ
      (k0_t1_body L embW (Memref.isWhole_whole _) inW (Memref.isWhole_whole _) isW (Memref.isWhole_whole _) soW (Memref.isWhole_whole _) noW (Memref.isWhole_whole _)
        s0W (Memref.isWhole_whole _) s1W (Memref.isWhole_whole _) s2W (Memref.isWhole_whole _) s3W (Memref.isWhole_whole _) s4W (Memref.isWhole_whole _)
        cc0_scratch5 cc0_scratch6 cc0_scratch7 cc0_scratch8 cc0_scoped0 cc0_scoped1 v2 k acc)
      (fun acc' => inv m Is In d L q idxn idxs O W0 (k.val + 1) acc') := by
  have hk0 : 0 < k.val := by omega
  have hnk63 : ¬ k.val < 63 := by omega
  have hk8 : k.val % 8 ≠ 4 := by omega
  have hn64' : ¬ k.val + 1 < 64 := by omega
  have h1 : ¬ k0_cond1 k = 1#1 := fun h => hk8 ((cond1_iff k).1 h)
  have h3 : k0_cond3 k = 1#1 := (cond3_iff k).2 hk0
  have h5 : k0_cond5 k = 1#1 := (cond5_iff k).2 hk0
  have h4 : ¬ k0_cond4 k = 1#1 := fun h => hnk63 ((cond4_iff k).1 h)
  have h6 : ¬ k0_cond6 k = 1#1 := fun h => hnk63 ((cond6_iff k).1 h)
  have hk64 : k.val < 64 := by have := trips_lt k; omega
  have hk0' : 0 < k.val + 1 := by omega
  have hS : sPart m Is d L q idxs (k.val + 1) = sPart m Is d L q idxs k.val := by
    unfold sPart
    rw [show (k.val + 1 + 3) / 8 = (k.val + 3) / 8 by omega]
    by_cases h60 : k.val ≤ 60
    · rw [if_pos h60, if_pos (by omega : k.val + 1 ≤ 60)]
    · rw [if_neg h60, if_neg (by omega : ¬ k.val + 1 ≤ 60)]
  unfold k0_t1_body
  rw [k0_part49_eq_skeleton, k0_part50_eq_skeleton]; unfold k0_part49_skel k0_part50_skel
  unfold inv gPart0 gPart1 oPart
  rw [if_pos hk64, if_pos hk64, if_pos hk0, if_neg hn64', if_neg hn64', if_pos hk0', hS]
  iintro ⟨Hmw, ⟨%o0, %ho0, %R0, %hf0, HG0, H0r, HE0r⟩, ⟨%o1, %ho1, %R1, %hf1, HG1, H1r, HE1r⟩,
    ⟨%offA, %offB, %inbA, %inbB, %gA, %gB, %g, %NA, %NB, %hfo, HO0, HO1, Hno⟩, HS, ⟨%W', %hW', HO⟩⟩
  -- the respellings used below
  have e2 : ∀ f, ((rows0M).view.loc (thr d L) ↦[(rows0M).view.set]{fullShare} f : sProp 𝕄) = ((s2W).view.loc (thr d L) ↦[Finset.univ \ (rows1M).view.set]{fullShare} f) :=
    fun f => congrArg (fun S => ((s2W).view.loc (thr d L) ↦[S]{fullShare} f : sProp 𝕄)) rows0_eq
  have e2' : ∀ f, ((rows1M).view.loc (thr d L) ↦[(rows1M).view.set]{fullShare} f : sProp 𝕄) = ((s2W).view.loc (thr d L) ↦[Finset.univ \ (rows0M).view.set]{fullShare} f) :=
    fun f => congrArg (fun S => ((s2W).view.loc (thr d L) ↦[S]{fullShare} f : sProp 𝕄)) rows1_eq
  have e3 : ∀ f, ((nbuf0M).view.loc (thr d L) ↦[(nbuf0M).view.set]{fullShare} f : sProp 𝕄) = ((s3W).view.loc (thr d L) ↦[Finset.univ \ (nbuf1M).view.set]{fullShare} f) :=
    fun f => congrArg (fun S => ((s3W).view.loc (thr d L) ↦[S]{fullShare} f : sProp 𝕄)) nbuf0_eq
  have e3' : ∀ f, ((nbuf1M).view.loc (thr d L) ↦[(nbuf1M).view.set]{fullShare} f : sProp 𝕄) = ((s3W).view.loc (thr d L) ↦[Finset.univ \ (nbuf0M).view.set]{fullShare} f) :=
    fun f => congrArg (fun S => ((s3W).view.loc (thr d L) ↦[S]{fullShare} f : sProp 𝕄)) nbuf1_eq
  have eA : ∀ o h qq f, ((s0W).view.loc (thr d L) ↦[(offN o h).view.set]{qq} f : sProp 𝕄) = ((offN o h).view.loc (thr d L) ↦[(offN o h).view.set]{qq} f) := fun _ _ _ _ => rfl
  have eW : ∀ off inb f, ((noW).view.loc (thr d L) ↦[W8 d L off inb]{fullShare} f : sProp 𝕄)
      = (((noW).slice (Rect.unit (s := S32768x128) off S8x128.size inb) (fun _ => rfl)).view.loc (thr d L) ↦[((noW).slice (Rect.unit (s := S32768x128) off S8x128.size inb) (fun _ => rfl)).view.set]{fullShare} f) := fun _ _ _ => rfl
  have hsubN : ∀ o h, ((offN o h).view.set : Finset (Idx ((s0W).view.loc (thr d L)))) ⊆ Finset.univ := fun _ _ => Finset.subset_univ _
  have hw32 : Disjoint ((noW).slice (Rect.unit (s := S32768x128) (k0_off32 L k) S8x128.size (k0_off32_inb L k)) (fun _ => rfl)).view.set (Oth L) := by unfold Oth; exact off32_disj_others L k
  have hw60 : Disjoint ((noW).slice (Rect.unit (s := S32768x128) (k0_off60 L k) S8x128.size (k0_off60_inb L k)) (fun _ => rfl)).view.set (Oth L) := by unfold Oth; exact off60_disj_others L k
  have hw60A : Disjoint (W8 d L (k0_off60 L k) (k0_off60_inb L k)) (W8 d L (k0_off32 L k) (k0_off32_inb L k)) := off60_off32_disj L k k
  obtain ⟨⟨hA0, hA1, hB0, hB1⟩, hgA, hgB, hg⟩ := hfo
  have hAO : W8 d L offA inbA ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offA inbA hA1 (by rw [hA0]; show base L ≤ _; omega) (by rw [hA0]; show _ ≤ base L + 1024; omega) hy)⟩
  have hBO : W8 d L offB inbB ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offB inbB hB1 (by rw [hB0]; show base L ≤ _; omega) (by rw [hB0]; show _ ≤ base L + 1024; omega) hy)⟩
  have hAB : Disjoint (W8 d L offA inbA) (W8 d L offB inbB) := win8_disj offA offB inbA inbB (Or.inl (by rw [hA0, hB0]))
  have hw32B : Disjoint (W8 d L (k0_off32 L k) (k0_off32_inb L k)) (W8 d L offB inbB) := win8_disj _ offB _ inbB (Or.inr (by rw [off32_0, hB0]; show _ ≤ base L + 16 * k.val; omega))
  -- slot 0: its gather lands, the copy of two chunks ago too
  sl_exec
  ihave Hrows := (Entails.of_eq (e2 _)) $$ HG0_dst
  ihave Hnb0 := (Entails.of_eq (e3 _)) $$ HO0_src
  iapply (wp_seq2 d L (reduce0 d L R0 NA v2 (0#32) (1#32) k))
  isplitl [Hrows Hnb0]
  · isplitl [Hrows] <;> iassumption
  iintro %_ ⟨Hrows, %NA', Hnb0, %hNA'⟩
  ihave Hno2 := (join_hole (f := gA) (g := g) hAO hAB) $$ [HO0_dst Hno]
  · isplitl [HO0_dst] <;> iassumption
  ihave HG0d := (Entails.of_eq (e2 _).symm) $$ Hrows
  ihave H3x := (Entails.of_eq (e3 _).symm) $$ Hnb0
  have hW32sub : W8 d L (k0_off32 L k) (k0_off32_inb L k) ⊆ (Finset.univ \ Oth L) \ W8 d L offB inbB :=
    Finset.subset_sdiff.2 ⟨Finset.subset_sdiff.2 ⟨Finset.subset_univ _, hw32⟩, hw32B⟩
  ihave Hs32 := (pointsTo_split_subset hW32sub).1 $$ Hno2
  icases Hs32 with ⟨Hwin32, Hno3⟩
  ihave Hwin32' := (Entails.of_eq (eW _ _ _)) $$ Hwin32
  sl_exec (disch := exact View.amount_pos _ _ (show 0 < S8x128.numel by decide))
  -- slot 1: the same
  ihave Hrows1 := (Entails.of_eq (e2' _)) $$ HG1_dst
  ihave Hnb1 := (Entails.of_eq (e3' _)) $$ HO1_src
  iapply (wp_seq2 d L (reduce1 d L R1 NB v2 k _ _))
  isplitl [Hrows1 Hnb1]
  · isplitl [Hrows1] <;> iassumption
  iintro %_ ⟨Hrows1, %NB', Hnb1, %hNB'⟩
  ihave Hno4 := (join_hole (f := gB) (g := (W8 d L offA inbA).piecewise gA g) hBO hw32B.symm) $$ [HO1_dst Hno3]
  · isplitl [HO1_dst] <;> iassumption
  ihave HG1d := (Entails.of_eq (e2' _).symm) $$ Hrows1
  ihave H3y := (Entails.of_eq (e3' _).symm) $$ Hnb1
  have hW60sub : W8 d L (k0_off60 L k) (k0_off60_inb L k) ⊆ (Finset.univ \ Oth L) \ W8 d L (k0_off32 L k) (k0_off32_inb L k) :=
    Finset.subset_sdiff.2 ⟨Finset.subset_sdiff.2 ⟨Finset.subset_univ _, hw60⟩, hw60A⟩
  ihave Hs60 := (pointsTo_split_subset hW60sub).1 $$ Hno4
  icases Hs60 with ⟨Hwin60, Hno5⟩
  ihave Hwin60' := (Entails.of_eq (eW _ _ _)) $$ Hwin60
  sl_exec (disch := exact View.amount_pos _ _ (show 0 < S8x128.numel by decide))
  sl_step
  -- the invariant before the next trip
  isplitl [Hmw]; · iexact Hmw
  isplitl [HG0 HG0d H0r HE0r]
  · isplitl [HG0]; · iexact HG0
    isplitl [HG0d]; · iexists _; iexact HG0d
    isplitl [H0r]; · iexact H0r
    iexact HE0r
  isplitl [HG1 HG1d H1r HE1r]
  · isplitl [HG1]; · iexact HG1
    isplitl [HG1d]; · iexists _; iexact HG1d
    isplitl [H1r]; · iexact H1r
    iexact HE1r
  isplitl [HO0 HO1 Hno5]
  · iexists (k0_off32 L k), (k0_off60 L k), (k0_off32_inb L k), (k0_off60_inb L k), _, _, _, _, _
    isplitr [HO0 HO1 Hno5]
    swap
    · isplitl [HO0]; · iexact HO0
      isplitl [HO1]; · iexact HO1
      iexact Hno5
    · ipureintro
      refine ⟨⟨by rw [off32_0]; show _ = base L + 16 * (k.val + 1 - 1); simp, off32_1 L k, by rw [off60_0]; show _ = base L + 16 * (k.val + 1 - 1) + 8; simp, off60_1 L k⟩, ?_, ?_, ?_⟩
      · exact nei_window_val (m := m) (In := In) (d := d) (L := L) (idxn := idxn) 0 (2 * k.val) (by omega) (k0_off32 L k) (k0_off32_inb L k) (by rw [off32_0]; unfold base; omega) (off32_1 L k) R0 NA' (by have := hf0.2.2; exact this) hNA' hidxn _
          (fun x => win8_copy0_writes d L (k0_off32 L k) (k0_off32_inb L k) (off32_1 L k) _ NA' x)
      · exact nei_window_val (m := m) (In := In) (d := d) (L := L) (idxn := idxn) 1 (2 * k.val + 1) (by omega) (k0_off60 L k) (k0_off60_inb L k) (by rw [off60_0]; unfold base; omega) (off60_1 L k) R1 NB' (by have := hf1.2.2; exact this) hNB' hidxn _
          (fun x => win8_copy1_writes d L (k0_off60 L k) (k0_off60_inb L k) (off60_1 L k) _ NB' x)
      · exact done_rows (m := m) (In := In) (d := d) (L := L) k.val offA offB inbA inbB hA0 hA1 hB0 hB1 gA gB g hgA hgB hg hk0 |> fun h => by simpa using h
  isplitl [HS]; · iexact HS
  iexists _
  isplitr [HO]
  swap
  · iexact HO
  · ipureintro; intro p hp
    repeat (rcases Finset.mem_insert.mp hp with hp | hp; exact .inr (hp ▸ rfl))
    exact hW' p hp
end Cert.KI
end
-- ==== Proof.TileTrip.lean ====
import proofs.«208587_g27212912787602_cont_9to1_1073_18_alg».proof.Proof.TileInv
import proofs.«208587_g27212912787602_cont_9to1_1073_18_alg».proof.Proof.GatherVal
import proofs.«208587_g27212912787602_cont_9to1_1073_18_alg».proof.Proof.Reduce
import proofs.«208587_g27212912787602_cont_9to1_1073_18_alg».proof.Proof.TileHarvest
import proofs.«208587_g27212912787602_cont_9to1_1073_18_alg».proof.Proof.TripVal
import proofs.«208587_g27212912787602_cont_9to1_1073_18_alg».proof.Proof.TileStepA
import proofs.«208587_g27212912787602_cont_9to1_1073_18_alg».proof.Proof.TileStepB
import proofs.«208587_g27212912787602_cont_9to1_1073_18_alg».proof.Proof.TileStepC
import proofs.«208587_g27212912787602_cont_9to1_1073_18_alg».proof.Proof.TileStepD
import proofs.«208587_g27212912787602_cont_9to1_1073_18_alg».proof.Proof.TileStepE
set_option quotPrecheck false
noncomputable section
namespace Cert.KI
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.KernelIdeal.main_arg1_scv : Memref Cert.KernelIdeal.sig Kind.scVector Space.hbm Cert.KernelIdeal.S100001x128 EltTy.f32)
local notation "inW" => (Memref.whole Cert.KernelIdeal.main_v5_scv : Memref Cert.KernelIdeal.sig Kind.scVector Space.hbm Cert.KernelIdeal.S4096x128 EltTy.i32)
local notation "isW" => (Memref.whole Cert.KernelIdeal.main_v3_scv : Memref Cert.KernelIdeal.sig Kind.scVector Space.hbm Cert.KernelIdeal.S256x128 EltTy.i32)
local notation "soW" => (Memref.whole Cert.KernelIdeal.main_v6_0_scv : Memref Cert.KernelIdeal.sig Kind.scVector Space.hbm Cert.KernelIdeal.S32768x128 EltTy.f32)
local notation "noW" => (Memref.whole Cert.KernelIdeal.main_v6_1_scv : Memref Cert.KernelIdeal.sig Kind.scVector Space.hbm Cert.KernelIdeal.S32768x128 EltTy.f32)
local notation "s0W" => (Memref.whole Cert.KernelIdeal.cc0_scratch0 : Memref Cert.KernelIdeal.sig Kind.scVector Space.vmem Cert.KernelIdeal.S128x128 EltTy.i32)
local notation "s1W" => (Memref.whole Cert.KernelIdeal.cc0_scratch1 : Memref Cert.KernelIdeal.sig Kind.scVector Space.vmem Cert.KernelIdeal.S8x128 EltTy.i32)
local notation "s2W" => (Memref.whole Cert.KernelIdeal.cc0_scratch2 : Memref Cert.KernelIdeal.sig Kind.scVector Space.vmem Cert.KernelIdeal.S2x128x128 EltTy.f32)
local notation "s3W" => (Memref.whole Cert.KernelIdeal.cc0_scratch3 : Memref Cert.KernelIdeal.sig Kind.scVector Space.vmem Cert.KernelIdeal.S2x8x128 EltTy.f32)
local notation "s4W" => (Memref.whole Cert.KernelIdeal.cc0_scratch4 : Memref Cert.KernelIdeal.sig Kind.scVector Space.vmem Cert.KernelIdeal.S128x128 EltTy.f32)

local notation "rows0M" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Facts₀.inb_S2x128x128_S1x128x128_0_0_0) (fun _ => rfl)).squeeze Cert.KernelIdeal.S128x128 Cert.KernelIdeal.Facts₀.squeezes_S1x128x128_S128x128)
local notation "rows1M" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Facts₀.inb_S2x128x128_S1x128x128_1_0_0) (fun _ => rfl)).squeeze Cert.KernelIdeal.S128x128 Cert.KernelIdeal.Facts₀.squeezes_S1x128x128_S128x128)
local notation "nbuf0M" => (((Memref.whole Cert.KernelIdeal.cc0_scratch3 : Memref Cert.KernelIdeal.sig Kind.scVector Space.vmem Cert.KernelIdeal.S2x8x128 EltTy.f32).slice (Rect.unit (s := Cert.KernelIdeal.S2x8x128) ![0, 0, 0] Cert.KernelIdeal.S1x8x128.size Cert.KernelIdeal.Facts₀.inb_S2x8x128_S1x8x128_0_0_0) (fun _ => rfl)).squeeze Cert.KernelIdeal.S8x128 Cert.KernelIdeal.Facts₀.squeezes_S1x8x128_S8x128)
local notation "nbuf1M" => (((Memref.whole Cert.KernelIdeal.cc0_scratch3 : Memref Cert.KernelIdeal.sig Kind.scVector Space.vmem Cert.KernelIdeal.S2x8x128 EltTy.f32).slice (Rect.unit (s := Cert.KernelIdeal.S2x8x128) ![1, 0, 0] Cert.KernelIdeal.S1x8x128.size Cert.KernelIdeal.Facts₀.inb_S2x8x128_S1x8x128_1_0_0) (fun _ => rfl)).squeeze Cert.KernelIdeal.S8x128 Cert.KernelIdeal.Facts₀.squeezes_S1x8x128_S8x128)
local notation "embV" => ((Memref.whole Cert.KernelIdeal.main_arg1_scv : Memref Cert.KernelIdeal.sig Kind.scVector Space.hbm Cert.KernelIdeal.S100001x128 EltTy.f32).slice (Rect.unit (s := Cert.KernelIdeal.S100001x128) ![0, 0] Cert.KernelIdeal.S100001x128.size Cert.KernelIdeal.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

/-- One trip of the main loop, from the invariant before it to the invariant after it: the five kinds of trip. -/
theorem step (hn : ∀ y, (idxn y).toNat ≤ 100000) (hs : ∀ y, (idxs y).toNat ≤ 100000)
    (hidxn : ∀ (c a : Fin 128), idxn (ix2 c a) = In (ix2 ⟨128 * (2 * (L 1).val + (L 0).val) + c.val, rowN_lt L c⟩ a))
    (hidxs : ∀ (j : Fin 8) (a : Fin 128), idxs (ix2 j a) = Is (ix2 ⟨8 * (2 * (L 1).val + (L 0).val) + j.val, rowS_lt L j⟩ a))
    (hO : ∀ g, O g none = 0) (v2 : BitVec 32) (k : Fin k0_t1_loop.trips) (acc : PUnit) :
    inv m Is In d L q idxn idxs O W0 k.val acc ⊢ wp frame (wpE (defs₀ (F := F)) 𝒱₀ (thr d L) none) Set.univ
      (k0_t1_body L embW (Memref.isWhole_whole _) inW (Memref.isWhole_whole _) isW (Memref.isWhole_whole _) soW (Memref.isWhole_whole _) noW (Memref.isWhole_whole _)
        s0W (Memref.isWhole_whole _) s1W (Memref.isWhole_whole _) s2W (Memref.isWhole_whole _) s3W (Memref.isWhole_whole _) s4W (Memref.isWhole_whole _)
        cc0_scratch5 cc0_scratch6 cc0_scratch7 cc0_scratch8 cc0_scoped0 cc0_scoped1 v2 k acc)
      (inv m Is In d L q idxn idxs O W0 (k.val + 1)) := by
  have hk64 : k.val < 64 := trips_lt k
  by_cases h0 : k.val = 0
  · exact stepA m Is In d L q idxn idxs O W0 hn hs hidxn hidxs hO v2 k h0 acc
  by_cases h63 : k.val = 63
  · exact stepE m Is In d L q idxn idxs O W0 hn hs hidxn hidxs hO v2 k h63 acc
  by_cases h8 : k.val % 8 = 4
  · by_cases h60 : k.val = 60
    · exact stepD m Is In d L q idxn idxs O W0 hn hs hidxn hidxs hO v2 k h60 acc
    · exact stepC m Is In d L q idxn idxs O W0 hn hs hidxn hidxs hO v2 k h8 (by omega) acc
  · exact stepB m Is In d L q idxn idxs O W0 hn hs hidxn hidxs hO v2 k (by omega) (by omega) h8 acc

end Cert.KI

end
-- ==== Proof.TileFinal.lean ====
/-
  The vector subcore's task, proved: the five kinds of trip put together under the loop's wrapper.
-/
import proofs.«208587_g27212912787602_cont_9to1_1073_18_alg».proof.Proof.Tile
import proofs.«208587_g27212912787602_cont_9to1_1073_18_alg».proof.Proof.TileTrip
noncomputable section
namespace Cert.KI
open Cert.KernelIdeal Cert.KernelIdeal.Gen
open Idealize.ShloMosaic Idealize.ShloMosaic.ValueIdx
open Idealize.ShloMosaic.SparseCore (S V T)
variable {F : FTy → Type} [FloatOps F]

theorem tileObl (m : (ℓ : Loc nD τ sig) → Buf (Elt F) ℓ) (Is : IVec S256x128 32) (In : IVec S4096x128 32)
    (hIs : ∀ j, (Is j).toNat ≤ 100000) (hIn : ∀ j, (In j).toNat ≤ 100000) :
    (K (F := F)).TileObl (D (F := F)) 𝒱 (P m Is In) v₀ 0 :=
  tileObl_of m Is In facts hIs hIn
    (fun d L O idxn idxs hn hs hidxn hidxs W0 v2 k acc hO =>
      step m Is In d L (tShare (cL L) (sL L)) idxn idxs O W0 hn hs hidxn hidxs hO v2 k acc)

end Cert.KI

end
-- ==== Proof.TileSplit.lean ====
/-
  How a SparseCore's share of the call splits among its sixteen vector subcores, and how their results gather.

  The table and the two index lists are only read. A SparseCore holds each of them at its own read share; halving
  that share sixteen times gives sixteen read tokens, one per subcore, and a remainder. The tokens go out with the
  subcores' rows of the two result arrays, which the SparseCore already holds subcore by subcore; the remainders stay
  behind. When the subcores hand back their tokens and their rows, now at the gathered values, each remainder and its
  sixteen tokens join to the SparseCore's share again, and the rows are the SparseCore's rows at the gathered values.
-/
import proofs.«208587_g27212912787602_cont_9to1_1073_18_alg».proof.Proof.Pay

noncomputable section

namespace Cert.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (Is : IVec S256x128 32) (In : IVec S4096x128 32)

/-- A family over the call's subcores is a family over sixteen. -/
theorem bigSep_subcores (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- The split of a SparseCore's operands into its subcores', and the gathering of their results. -/
theorem vecSplit' : (K (F := F)).VecSplit' (P m Is In) 0 := by
  intro d c
  show coreIn m Is In d (Fin.cast nCore_zero c) ⊢ |={Set.univ}=> iprop(
      (bigSep Finset.univ fun i : Fin ((K (F := F)).nSub 0) => tileIn m Is In d (Fin.cast nCore_zero c) (Fin.cast nSub_zero i))
      ∗ ((bigSep Finset.univ fun i : Fin ((K (F := F)).nSub 0) => tileOut m Is In d (Fin.cast nCore_zero c) (Fin.cast nSub_zero i))
          -∗ coreOut m Is In d (Fin.cast nCore_zero c)))
  generalize (Fin.cast nCore_zero c : Fin 2) = c'
  rw [bigSep_subcores (F := F) (fun i => tileIn m Is In d c' i), bigSep_subcores (F := F) (fun i => tileOut m Is In d c' i)]
  unfold coreIn tileIn tileOut coreOut
  simp only [bigSep_sep']
  iintro ⟨He, Hs, Hn, Hso, Hno⟩
  ihave He' := (Transfers.pointsTo_toks_split (cShare c') 16) $$ He
  ihave Hs' := (Transfers.pointsTo_toks_split (cShare c') 16) $$ Hs
  ihave Hn' := (Transfers.pointsTo_toks_split (cShare c') 16) $$ Hn
  icases He' with ⟨Hed, Het⟩
  icases Hs' with ⟨Hsd, Hst⟩
  icases Hn' with ⟨Hnd, Hnt⟩
  imodintro
  isplitl [Het Hst Hnt Hso Hno]
  · isplitl [Het]; · iexact Het
    isplitl [Hst]; · iexact Hst
    isplitl [Hnt]; · iexact Hnt
    isplitl [Hso]; · iexact Hso
    iexact Hno
  iintro ⟨Het, Hst, Hnt, Hso, Hno⟩
  isplitl [Hed Het]
  · iapply (Transfers.pointsTo_toks_join (cShare c') 16)
    isplitl [Hed]; · iexact Hed
    iexact Het
  isplitl [Hsd Hst]
  · iapply (Transfers.pointsTo_toks_join (cShare c') 16)
    isplitl [Hsd]; · iexact Hsd
    iexact Hst
  isplitl [Hnd Hnt]
  · iapply (Transfers.pointsTo_toks_join (cShare c') 16)
    isplitl [Hnd]; · iexact Hnd
    iexact Hnt
  isplitl [Hso]; · iexact Hso
  iexact Hno

/-- The same with the sequencer's own buffers set aside. -/
theorem vecSplit : (K (F := F)).VecSplit (P m Is In) 0 := SparseCore.Cfg.VecSplit.of_plain (vecSplit' m Is In)

end Cert.KI

end
-- ==== Proof.SetupB.lean ====
/-
  The launch set-up of the kernel's program: one vector-subcore call on two SparseCores of sixteen vector
  subcores each, followed on the TensorCore by one pipelined region; the ghost state is the handshakes' rounds beside the
  region's cells and the local transfers' counters.
-/
import proofs.«208587_g27212912787602_cont_9to1_1073_18_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«208587_g27212912787602_cont_9to1_1073_18_alg».proof.Proof.Gen.Kernel
import proofs.«208587_g27212912787602_cont_9to1_1073_18_alg».proof.Proof.Gen.Kernel.Skeleton

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the region's cells, the transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.KB

end
-- ==== Proof.PayB.lean ====
/-
  What the call's handshakes carry, and the two gathered arrays as functions of the table and the index lists.

  The thirty-two vector subcores each own 1024 consecutive rows of the two result arrays: subcore s of SparseCore c
  is worker w = 2 s + c and owns rows [1024 w, 1024 (w + 1)). Row n of the first result is the table row that word n
  of the "own" index list names; row n of the second is the sum, left to right, of the sixteen table rows that words
  16 n … 16 n + 15 of the neighbour index list name. The table and the two index lists are only read: every subcore
  gets a read share of each.
-/
import proofs.«208587_g27212912787602_cont_9to1_1073_18_alg».proof.Proof.SetupB
import proofs.«208587_g27212912787602_cont_9to1_1073_18_alg».proof.Proof.Spec

noncomputable section

namespace Cert.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The gathered values -/

/-- Word `q` of an index list laid out in rows of 128. -/
def wordAt {R : Nat} (idx : IVec (⟨2, ![R, 128]⟩ : Shape) 32) (q : Nat) (h : q < R * 128) : BitVec 32 :=
  idx (ix2 ⟨q / 128, by rw [Nat.div_lt_iff_lt_mul (by norm_num)]; exact h⟩ ⟨q % 128, Nat.mod_lt _ (by norm_num)⟩)

/-- The sum of sixteen terms, left to right. -/
def chain16 [FloatOps F] (f : Fin 16 → F .f32) : F .f32 :=
  FloatOps.addf (FloatOps.addf (FloatOps.addf (FloatOps.addf (FloatOps.addf (FloatOps.addf (FloatOps.addf (FloatOps.addf
    (FloatOps.addf (FloatOps.addf (FloatOps.addf (FloatOps.addf (FloatOps.addf (FloatOps.addf (FloatOps.addf (f 0) (f 1)) (f 2)) (f 3)) (f 4)) (f 5))
      (f 6)) (f 7)) (f 8)) (f 9)) (f 10)) (f 11)) (f 12)) (f 13)) (f 14)) (f 15)

/-- Row `n` of the first result: the table row word `n` of the own-index list names. -/
def selfVal (emb : FVec F S100001x128 .f32) (is : IVec S256x128 32) : FVec F S32768x128 .f32 := fun j =>
  emb (ix2 (Cert.Spec.rowOf (wordAt (R := 256) is (j 0).val (j 0).isLt)) (j 1))

/-- Row `n` of the second result: the left-to-right sum of the sixteen table rows words 16 n + r name. -/
def neiVal [FloatOps F] (emb : FVec F S100001x128 .f32) (inn : IVec S4096x128 32) : FVec F S32768x128 .f32 := fun j =>
  chain16 fun r => emb (ix2 (Cert.Spec.rowOf (wordAt (R := 4096) inn ((j 0).val * 16 + r.val)
    (by have h1 : (j 0).val < 32768 := (j 0).isLt; have h2 := r.isLt; omega))) (j 1))

/-! ## Locations, rows, shares -/

abbrev embLoc (d : Dev nD) : Loc nD τ sig := (SparseCore.T d).loc main_arg1
abbrev isLoc (d : Dev nD) : Loc nD τ sig := (SparseCore.T d).loc main_v3
abbrev inLoc (d : Dev nD) : Loc nD τ sig := (SparseCore.T d).loc main_v5
abbrev soLoc (d : Dev nD) : Loc nD τ sig := (SparseCore.T d).loc main_v6_0
abbrev noLoc (d : Dev nD) : Loc nD τ sig := (SparseCore.T d).loc main_v6_1

theorem hdiv32 : 32 ∣ S32768x128.size 0 := ⟨1024, rfl⟩
/-- The 1024 rows of worker `w`. -/
abbrev wRows (w : Fin 32) : Rect S32768x128 := Rect.part (s := S32768x128) (a₀ := 0) hdiv32 w
abbrev wRowSet (w : Fin 32) : Finset S32768x128.Idx := (wRows w).set
/-- The worker number of subcore `s` of SparseCore `c`. -/
def wOf (c : Fin 2) (s : Fin 16) : Fin 32 := ⟨s.val * 2 + c.val, by omega⟩

/-- SparseCore `c`'s read share of an array read by all, and subcore `s`'s share of that. -/
abbrev cShare (c : Fin 2) : PosShare TreeShare := Transfers.shareTok fullShare 2 c
abbrev tShare (c : Fin 2) (s : Fin 16) : PosShare TreeShare := Transfers.shareTok (cShare c) 16 s

variable (m : (ℓ : Loc nD τ sig) → Buf (Elt F) ℓ) (Is : IVec S256x128 32) (In : IVec S4096x128 32)

/-- What a subcore is handed: its read shares and its rows of the two results, at contents not chosen. -/
def tileIn (d : Dev nD) (c : Fin 2) (s : Fin 16) : sProp 𝕄 :=
  iprop((embLoc d ↦{tShare c s} m (embLoc d)) ∗ (isLoc d ↦{tShare c s} (Is : Buf (Elt F) (isLoc d))) ∗ (inLoc d ↦{tShare c s} (In : Buf (Elt F) (inLoc d)))
    ∗ (∃ f, soLoc d ↦[wRowSet (wOf c s)]{fullShare} f) ∗ (∃ f, noLoc d ↦[wRowSet (wOf c s)]{fullShare} f))

/-- What it hands back: the shares, and its rows at the gathered values. -/
def tileOut [FloatOps F] (d : Dev nD) (c : Fin 2) (s : Fin 16) : sProp 𝕄 :=
  iprop((embLoc d ↦{tShare c s} m (embLoc d)) ∗ (isLoc d ↦{tShare c s} (Is : Buf (Elt F) (isLoc d))) ∗ (inLoc d ↦{tShare c s} (In : Buf (Elt F) (inLoc d)))
    ∗ (soLoc d ↦[wRowSet (wOf c s)]{fullShare} (selfVal (m (embLoc d)) Is : Buf (Elt F) (soLoc d)))
    ∗ (noLoc d ↦[wRowSet (wOf c s)]{fullShare} (neiVal (m (embLoc d)) In : Buf (Elt F) (noLoc d))))

/-- What a SparseCore is handed: its read shares, and its sixteen subcores' rows. -/
def coreIn (d : Dev nD) (c : Fin 2) : sProp 𝕄 :=
  iprop((embLoc d ↦{cShare c} m (embLoc d)) ∗ (isLoc d ↦{cShare c} (Is : Buf (Elt F) (isLoc d))) ∗ (inLoc d ↦{cShare c} (In : Buf (Elt F) (inLoc d)))
    ∗ bigSep Finset.univ fun s : Fin 16 => iprop((∃ f, soLoc d ↦[wRowSet (wOf c s)]{fullShare} f) ∗ (∃ f, noLoc d ↦[wRowSet (wOf c s)]{fullShare} f)))

def coreOut [FloatOps F] (d : Dev nD) (c : Fin 2) : sProp 𝕄 :=
  iprop((embLoc d ↦{cShare c} m (embLoc d)) ∗ (isLoc d ↦{cShare c} (Is : Buf (Elt F) (isLoc d))) ∗ (inLoc d ↦{cShare c} (In : Buf (Elt F) (inLoc d)))
    ∗ bigSep Finset.univ fun s : Fin 16 => iprop((soLoc d ↦[wRowSet (wOf c s)]{fullShare} (selfVal (m (embLoc d)) Is : Buf (Elt F) (soLoc d)))
        ∗ (noLoc d ↦[wRowSet (wOf c s)]{fullShare} (neiVal (m (embLoc d)) In : Buf (Elt F) (noLoc d)))))

/-- The call's payloads. The kernel's own transfers need no ghost state of the launch's. -/
def P [FloatOps F] : (K (F := F)).Pay (nD := nD) (Val := Elt F) (Name := ℕ) (U := UU) where
  st := fun q d c => match q with | 0 => coreIn m Is In d (Fin.cast nCore_zero c)
  dn := fun q d c => match q with | 0 => coreOut m Is In d (Fin.cast nCore_zero c)
  go := fun q d c s => match q with | 0 => tileIn m Is In d (Fin.cast nCore_zero c) (Fin.cast nSub_zero s)
  td := fun q d c s => match q with | 0 => tileOut m Is In d (Fin.cast nCore_zero c) (Fin.cast nSub_zero s)
  x := fun _ _ => iprop(emp)

instance P_storable [FloatOps F] : (P (F := F) m Is In).IsStorable where
  st q d c := match q with | 0 => by unfold P coreIn; infer_instance
  dn q d c := match q with | 0 => by unfold P coreOut; infer_instance
  go q d c s := match q with | 0 => by unfold P tileIn; infer_instance
  td q d c s := match q with | 0 => by unfold P tileOut; infer_instance

end Cert.KB

end
-- ==== Proof.MainHostB.lean ====
import proofs.«208587_g27212912787602_cont_9to1_1073_18_alg».proof.Proof.PayB

noncomputable section

namespace Cert.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after after_cons after_nil)
open Idealize.ShloMosaic.Tactic

variable {F : FTy → Type}

local notation "𝕄" => MT nD τ sig (HIx 1) (Elt F) ℕ UU ℕ

/-! ## The index lists the call reads, as functions of the adjacency array

The host prefix reshapes the adjacency array to one row of seventeen words per batch entry, cuts the first word of
every row (the node's own index) and the other sixteen (its neighbours'), and lays each list out in rows of 128. -/

/-- The own-index list: word `n` is the first word of batch entry `n`. -/
def isOf (adj : IVec S1024x1x32x17 32) : IVec S256x128 32 :=
  shapeCast S256x128 (shapeCast S32768 (extractStridedSlice S32768x1 ![0, 0]
    (shapeCast S32768x17 adj shapeCasts_S1024x1x32x17_S32768x17) slices_S32768x17_S32768x1_0_0)
    shapeCasts_S32768x1_S32768) shapeCasts_S32768_S256x128

/-- The neighbour-index list: word `16 n + r` is word `r + 1` of batch entry `n`. -/
def inOf (adj : IVec S1024x1x32x17 32) : IVec S4096x128 32 :=
  shapeCast S4096x128 (extractStridedSlice S32768x16 ![0, 1]
    (shapeCast S32768x17 adj shapeCasts_S1024x1x32x17_S32768x17) slices_S32768x17_S32768x16_0_1)
    shapeCasts_S32768x16_S4096x128

/-! ## The TensorCore's arrays -/

abbrev r_arg0 : DevRef τ sig := Proc.devRef .tc (main_arg0 : Ref sig .tc)
abbrev r_arg1 : DevRef τ sig := Proc.devRef .tc (main_arg1 : Ref sig .tc)
abbrev r_arg2 : DevRef τ sig := Proc.devRef .tc (main_arg2 : Ref sig .tc)
abbrev r_arg3 : DevRef τ sig := Proc.devRef .tc (main_arg3 : Ref sig .tc)
abbrev r_arg4 : DevRef τ sig := Proc.devRef .tc (main_arg4 : Ref sig .tc)
abbrev r_arg5 : DevRef τ sig := Proc.devRef .tc (main_arg5 : Ref sig .tc)
abbrev r_v0 : DevRef τ sig := Proc.devRef .tc (main_v0 : Ref sig .tc)
abbrev r_v1 : DevRef τ sig := Proc.devRef .tc (main_v1 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)
abbrev r_v5 : DevRef τ sig := Proc.devRef .tc (main_v5 : Ref sig .tc)
abbrev r_v6_0 : DevRef τ sig := Proc.devRef .tc (main_v6_0 : Ref sig .tc)
abbrev r_v6_1 : DevRef τ sig := Proc.devRef .tc (main_v6_1 : Ref sig .tc)
abbrev r_v7 : DevRef τ sig := Proc.devRef .tc (main_v7 : Ref sig .tc)
abbrev r_v8 : DevRef τ sig := Proc.devRef .tc (main_v8 : Ref sig .tc)

/-- The TensorCore's sixteen unscoped arrays. -/
abbrev S16 : Finset (DevRef τ sig) := {r_arg0, r_arg1, r_arg2, r_arg3, r_arg4, r_arg5, r_v0, r_v1, r_v2, r_v3, r_v4, r_v5, r_v6_0, r_v6_1, r_v7, r_v8}

theorem held_S16 (d : Dev nD) (W : Valuation τ sig (Elt F)) :
    (held (T d) S16 W : sProp 𝕄) = iprop(((SparseCore.T d).loc main_arg0 ↦{fullShare} W r_arg0) ∗ ((SparseCore.T d).loc main_arg1 ↦{fullShare} W r_arg1) ∗ ((SparseCore.T d).loc main_arg2 ↦{fullShare} W r_arg2) ∗ ((SparseCore.T d).loc main_arg3 ↦{fullShare} W r_arg3) ∗ ((SparseCore.T d).loc main_arg4 ↦{fullShare} W r_arg4) ∗ ((SparseCore.T d).loc main_arg5 ↦{fullShare} W r_arg5) ∗ ((SparseCore.T d).loc main_v0 ↦{fullShare} W r_v0) ∗ ((SparseCore.T d).loc main_v1 ↦{fullShare} W r_v1) ∗ ((SparseCore.T d).loc main_v2 ↦{fullShare} W r_v2) ∗ ((SparseCore.T d).loc main_v3 ↦{fullShare} W r_v3) ∗ ((SparseCore.T d).loc main_v4 ↦{fullShare} W r_v4) ∗ ((SparseCore.T d).loc main_v5 ↦{fullShare} W r_v5) ∗ ((SparseCore.T d).loc main_v6_0 ↦{fullShare} W r_v6_0) ∗ ((SparseCore.T d).loc main_v6_1 ↦{fullShare} W r_v6_1) ∗ ((SparseCore.T d).loc main_v7 ↦{fullShare} W r_v7) ∗ ((SparseCore.T d).loc main_v8 ↦{fullShare} W r_v8)) := by
  unfold held S16
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_arg4 ↦{fullShare} W main_arg4) ∗ ((SparseCore.T d).loc main_arg5 ↦{fullShare} W main_arg5) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6_0 ↦{fullShare} W main_v6_0) ∗ ((SparseCore.T d).loc main_v6_1 ↦{fullShare} W main_v6_1) ∗ ((SparseCore.T d).loc main_v7 ↦{fullShare} W main_v7) ∗ ((SparseCore.T d).loc main_v8 ↦{fullShare} W main_v8)) := by
  unfold unscopedBufs
  rw [show (Finset.univ.filter fun b : Ref sig .tc => ¬ b.isScoped) = {main_arg0, main_arg1, main_arg2, main_arg3, main_arg4, main_arg5, main_v0, main_v1, main_v2, main_v3, main_v4, main_v5, main_v6_0, main_v6_1, main_v7, main_v8} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

variable (m : (ℓ : Loc nD τ sig) → Buf (Elt F) ℓ)

/-- The launch valuation. -/
def V0 (d : Dev nD) : Valuation τ sig (Elt F) := fun b => m (d, b)

theorem unscoped_held (d : Dev nD) : (unscopedBufs d (fun b => m ((SparseCore.T d).loc b)) : sProp 𝕄) = held (T d) S16 (V0 m d) := by
  rw [unscopedBufs_eq, held_S16]; rfl

/-! ## The host prefix -/

section Ops
variable [FloatOps F]

def op1 : HloOp τ sig (Elt F) := StableHlo.reshape main_arg0 main_v0 rfl shapeCasts_S1024x1x32x17_S32768x17
def op2 : HloOp τ sig (Elt F) := StableHlo.unary main_v0 main_v1 ((extractStridedSlice S32768x1 ![0, 0] · slices_S32768x17_S32768x1_0_0) : (⟨S32768x17, .i32⟩ : BufTy).Contents (Elt F) → (⟨S32768x1, .i32⟩ : BufTy).Contents (Elt F))
def op3 : HloOp τ sig (Elt F) := StableHlo.reshape main_v1 main_v2 rfl shapeCasts_S32768x1_S32768
def op4 : HloOp τ sig (Elt F) := StableHlo.reshape main_v2 main_v3 rfl shapeCasts_S32768_S256x128
def op5 : HloOp τ sig (Elt F) := StableHlo.unary main_v0 main_v4 ((extractStridedSlice S32768x16 ![0, 1] · slices_S32768x17_S32768x16_0_1) : (⟨S32768x17, .i32⟩ : BufTy).Contents (Elt F) → (⟨S32768x16, .i32⟩ : BufTy).Contents (Elt F))
def op6 : HloOp τ sig (Elt F) := StableHlo.reshape main_v4 main_v5 rfl shapeCasts_S32768x16_S4096x128
def opLast : HloOp τ sig (Elt F) := StableHlo.reshape main_v7 main_v8 rfl shapeCasts_S32768x128_S1024x1x32x128

def hostOps : List (HloOp τ sig (Elt F)) := [op1, op2, op3, op4, op5, op6]

/-- @main as the host prefix, the call, the region, the last reshape. -/
theorem main_eq (d : Dev nD) :
    main (F := F) d = (StableHlo.seq (hostOps (F := F)) >>= fun _ => (K (F := F)).run d 0 >>= fun _ =>
      SparseCore.liftProg (Q := 1) (.op (.customCall (Pipeline.entry 0) ()) fun _ => .ret PUnit.unit) >>= fun _ =>
      hlo rfl (opLast (F := F)) (fun _ => .ret PUnit.unit) >>= fun _ => pure PUnit.unit) := rfl

end Ops

end Cert.KB

end
-- ==== Proof.MainCallB.lean ====
import proofs.«208587_g27212912787602_cont_9to1_1073_18_alg».proof.Proof.PayB
import proofs.«208587_g27212912787602_cont_9to1_1073_18_alg».proof.Proof.MainHostB

noncomputable section

namespace Cert.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after after_cons after_nil)
open Idealize.ShloMosaic.Tactic

variable {F : FTy → Type}

local notation "𝕄" => MT nD τ sig (HIx 1) (Elt F) ℕ UU ℕ

/-! ## What the call takes and hands back on the TensorCore

The table and the two index lists go out as read shares, one per SparseCore, the remainder kept; each result array
goes out as the thirty-two workers' row sets, which tile it, and comes back whole at the one gathered function. -/

/-- Worker numbers are pairs (SparseCore, subcore): `w = 2 s + c`. -/
def wEquiv : Fin 2 × Fin 16 ≃ Fin 32 where
  toFun p := wOf p.1 p.2
  invFun w := (⟨w.val % 2, Nat.mod_lt _ (by norm_num)⟩, ⟨w.val / 2, by have := w.isLt; omega⟩)
  left_inv p := by
    obtain ⟨c, s⟩ := p
    have hc := c.isLt; have hs := s.isLt
    refine Prod.ext (Fin.ext ?_) (Fin.ext ?_)
    · show (s.val * 2 + c.val) % 2 = c.val; omega
    · show (s.val * 2 + c.val) / 2 = s.val; omega
  right_inv w := by
    refine Fin.ext ?_
    show w.val / 2 * 2 + w.val % 2 = w.val; omega

theorem bigSep_workers {M : Type} [URA M] (Φ : Fin 32 → sProp M) :
    bigSep Finset.univ Φ = bigSep Finset.univ fun c : Fin 2 => bigSep Finset.univ fun s : Fin 16 => Φ (wOf c s) := by
  rw [← bigSep_univ_prod (fun p : Fin 2 × Fin 16 => Φ (wOf p.1 p.2)), ← Finset.map_univ_equiv wEquiv, bigSep_map]
  rfl

theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

/-- A result array whole is its thirty-two workers' row sets, at any one function. -/
theorem rows_so (d : Dev nD) (f : Buf (Elt F) (soLoc d)) :
    (soLoc d ↦{fullShare} f : sProp 𝕄)
      = bigSep Finset.univ fun c : Fin 2 => bigSep Finset.univ fun s : Fin 16 => soLoc d ↦[wRowSet (wOf c s)]{fullShare} f := by
  have h1 : (soLoc d ↦{fullShare} f : sProp 𝕄) = soLoc d ↦[(Finset.univ : Finset (Fin 32)).biUnion (fun w => wRowSet w)]{fullShare} f :=
    congrArg (fun I => (soLoc d ↦[I]{fullShare} f : sProp 𝕄)) (Rect.biUnion_part hdiv32).symm
  have h2 := pointsTo_biUnion (ℓ := soLoc d) (q := fullShare) (f := f) (Ix := HIx 1) (Name := ℕ) (U := UU) (Lvl := ℕ) (Finset.univ : Finset (Fin 32)) (fun w : Fin 32 => wRowSet w)
    (fun w _ w' _ h => Rect.part_disjoint hdiv32 h)
  exact h1.trans (h2.trans (bigSep_workers _))

theorem rows_no (d : Dev nD) (f : Buf (Elt F) (noLoc d)) :
    (noLoc d ↦{fullShare} f : sProp 𝕄)
      = bigSep Finset.univ fun c : Fin 2 => bigSep Finset.univ fun s : Fin 16 => noLoc d ↦[wRowSet (wOf c s)]{fullShare} f := by
  have h1 : (noLoc d ↦{fullShare} f : sProp 𝕄) = noLoc d ↦[(Finset.univ : Finset (Fin 32)).biUnion (fun w => wRowSet w)]{fullShare} f :=
    congrArg (fun I => (noLoc d ↦[I]{fullShare} f : sProp 𝕄)) (Rect.biUnion_part hdiv32).symm
  have h2 := pointsTo_biUnion (ℓ := noLoc d) (q := fullShare) (f := f) (Ix := HIx 1) (Name := ℕ) (U := UU) (Lvl := ℕ) (Finset.univ : Finset (Fin 32)) (fun w : Fin 32 => wRowSet w)
    (fun w _ w' _ h => Rect.part_disjoint hdiv32 h)
  exact h1.trans (h2.trans (bigSep_workers _))

/-- A read array's points-to is the kept remainder and one share per SparseCore. -/
theorem read_split {ℓ : Loc nD τ sig} (f : Buf (Elt F) ℓ) :
    (ℓ ↦{fullShare} f : sProp 𝕄) ⊢ iprop((ℓ ↦{Transfers.shareDrop fullShare 2} f) ∗ (ℓ ↦{cShare 0} f) ∗ (ℓ ↦{cShare 1} f)) :=
  (Transfers.pointsTo_toks_split fullShare 2).trans (Entails.of_eq (by rw [bigSep_fin2]))
theorem read_join {ℓ : Loc nD τ sig} (f : Buf (Elt F) ℓ) :
    iprop((ℓ ↦{Transfers.shareDrop fullShare 2} f) ∗ (ℓ ↦{cShare 0} f) ∗ (ℓ ↦{cShare 1} f)) ⊢ (ℓ ↦{fullShare} f : sProp 𝕄) :=
  (Entails.of_eq (by rw [bigSep_fin2])).trans (Transfers.pointsTo_toks_join fullShare 2)

theorem rows_ex {ℓ : Loc nD τ sig} (R : Fin 16 → Finset (Idx ℓ)) (f : Buf (Elt F) ℓ) :
    (bigSep Finset.univ fun s : Fin 16 => (ℓ ↦[R s]{fullShare} f : sProp 𝕄))
      ⊢ bigSep Finset.univ fun s : Fin 16 => (iprop(∃ f, ℓ ↦[R s]{fullShare} f) : sProp 𝕄) :=
  bigSep_mono fun s _ => show (ℓ ↦[R s]{fullShare} f : sProp 𝕄) ⊢ iprop(∃ f, ℓ ↦[R s]{fullShare} f) from by
    iintro H; iexists f; iexact H

/-- A result array at contents not chosen is its workers' rows at contents not chosen, by SparseCore. -/
theorem so_split (d : Dev nD) :
    (iprop(∃ f, soLoc d ↦{fullShare} f) : sProp 𝕄)
      ⊢ iprop((bigSep Finset.univ fun s : Fin 16 => iprop(∃ f, soLoc d ↦[wRowSet (wOf 0 s)]{fullShare} f))
          ∗ (bigSep Finset.univ fun s : Fin 16 => iprop(∃ f, soLoc d ↦[wRowSet (wOf 1 s)]{fullShare} f))) := by
  iintro ⟨%f, H⟩
  ihave H' := (Entails.of_eq ((rows_so d f).trans (bigSep_fin2 _))) $$ H
  icases H' with ⟨H0, H1⟩
  isplitl [H0]
  · iapply (rows_ex (ℓ := soLoc d) (fun s => wRowSet (wOf 0 s)) f) $$ H0
  · iapply (rows_ex (ℓ := soLoc d) (fun s => wRowSet (wOf 1 s)) f) $$ H1
theorem no_split (d : Dev nD) :
    (iprop(∃ f, noLoc d ↦{fullShare} f) : sProp 𝕄)
      ⊢ iprop((bigSep Finset.univ fun s : Fin 16 => iprop(∃ f, noLoc d ↦[wRowSet (wOf 0 s)]{fullShare} f))
          ∗ (bigSep Finset.univ fun s : Fin 16 => iprop(∃ f, noLoc d ↦[wRowSet (wOf 1 s)]{fullShare} f))) := by
  iintro ⟨%f, H⟩
  ihave H' := (Entails.of_eq ((rows_no d f).trans (bigSep_fin2 _))) $$ H
  icases H' with ⟨H0, H1⟩
  isplitl [H0]
  · iapply (rows_ex (ℓ := noLoc d) (fun s => wRowSet (wOf 0 s)) f) $$ H0
  · iapply (rows_ex (ℓ := noLoc d) (fun s => wRowSet (wOf 1 s)) f) $$ H1

variable (m : (ℓ : Loc nD τ sig) → Buf (Elt F) ℓ) (Is : IVec S256x128 32) (In : IVec S4096x128 32)

/-- What the TensorCore keeps of the three arrays the call only reads. -/
def readRem (d : Dev nD) : sProp 𝕄 :=
  iprop((embLoc d ↦{Transfers.shareDrop fullShare 2} m (embLoc d)) ∗ (isLoc d ↦{Transfers.shareDrop fullShare 2} (Is : Buf (Elt F) (isLoc d)))
    ∗ (inLoc d ↦{Transfers.shareDrop fullShare 2} (In : Buf (Elt F) (inLoc d))))

theorem st_eq [FloatOps F] (d : Dev nD) :
    (bigSep Finset.univ fun c : Fin ((K (F := F)).nCore 0) => (P m Is In).st 0 d c) = iprop(coreIn m Is In d 0 ∗ coreIn m Is In d 1) := by
  show (bigSep (Finset.univ : Finset (Fin 2)) fun c => coreIn m Is In d c) = _
  rw [bigSep_fin2]
theorem dn_eq [FloatOps F] (d : Dev nD) :
    (bigSep Finset.univ fun c : Fin ((K (F := F)).nCore 0) => (P m Is In).dn 0 d c) = iprop(coreOut m Is In d 0 ∗ coreOut m Is In d 1) := by
  show (bigSep (Finset.univ : Finset (Fin 2)) fun c => coreOut m Is In d c) = _
  rw [bigSep_fin2]

/-- Before the call: the three read arrays and the two result arrays whole make the two SparseCores' operands. -/
theorem call_in [FloatOps F] (d : Dev nD) :
    iprop((embLoc d ↦{fullShare} m (embLoc d)) ∗ (isLoc d ↦{fullShare} (Is : Buf (Elt F) (isLoc d))) ∗ (inLoc d ↦{fullShare} (In : Buf (Elt F) (inLoc d)))
        ∗ (∃ f, soLoc d ↦{fullShare} f) ∗ (∃ f, noLoc d ↦{fullShare} f))
      ⊢ iprop(readRem m Is In d ∗ bigSep Finset.univ fun c : Fin ((K (F := F)).nCore 0) => (P m Is In).st 0 d c) := by
  rw [st_eq]
  unfold readRem coreIn
  rw [bigSep_sep', bigSep_sep']
  iintro ⟨He, His, Hin, Hso, Hno⟩
  ihave He' := (read_split _) $$ He
  ihave His' := (read_split _) $$ His
  ihave Hin' := (read_split _) $$ Hin
  ihave Hso' := (so_split d) $$ Hso
  ihave Hno' := (no_split d) $$ Hno
  icases He' with ⟨He, He0, He1⟩
  icases His' with ⟨His, His0, His1⟩
  icases Hin' with ⟨Hin, Hin0, Hin1⟩
  icases Hso' with ⟨Hso0, Hso1⟩
  icases Hno' with ⟨Hno0, Hno1⟩
  isplitl [He His Hin]
  · isplitl [He]; · iexact He
    isplitl [His] <;> iassumption
  isplitl [He0 His0 Hin0 Hso0 Hno0]
  · isplitl [He0]; · iexact He0
    isplitl [His0]; · iexact His0
    isplitl [Hin0]; · iexact Hin0
    isplitl [Hso0] <;> iassumption
  · isplitl [He1]; · iexact He1
    isplitl [His1]; · iexact His1
    isplitl [Hin1]; · iexact Hin1
    isplitl [Hso1] <;> iassumption

/-- After the call: the shares rejoin and each result array is whole at its gathered value. -/
theorem call_out [FloatOps F] (d : Dev nD) :
    iprop(readRem m Is In d ∗ bigSep Finset.univ fun c : Fin ((K (F := F)).nCore 0) => (P m Is In).dn 0 d c)
      ⊢ iprop((embLoc d ↦{fullShare} m (embLoc d)) ∗ (isLoc d ↦{fullShare} (Is : Buf (Elt F) (isLoc d))) ∗ (inLoc d ↦{fullShare} (In : Buf (Elt F) (inLoc d)))
        ∗ (soLoc d ↦{fullShare} (selfVal (m (embLoc d)) Is : Buf (Elt F) (soLoc d)))
        ∗ (noLoc d ↦{fullShare} (neiVal (m (embLoc d)) In : Buf (Elt F) (noLoc d)))) := by
  rw [dn_eq]
  unfold readRem coreOut
  rw [rows_so, rows_no, bigSep_fin2, bigSep_fin2, bigSep_sep', bigSep_sep']
  iintro ⟨⟨He, His, Hin⟩, ⟨He0, His0, Hin0, Hso0, Hno0⟩, ⟨He1, His1, Hin1, Hso1, Hno1⟩⟩
  isplitl [He He0 He1]
  · iapply (read_join _)
    isplitl [He]; · iexact He
    isplitl [He0] <;> iassumption
  isplitl [His His0 His1]
  · iapply (read_join _)
    isplitl [His]; · iexact His
    isplitl [His0] <;> iassumption
  isplitl [Hin Hin0 Hin1]
  · iapply (read_join _)
    isplitl [Hin]; · iexact Hin
    isplitl [Hin0] <;> iassumption
  isplitl [Hso0 Hso1]
  · isplitl [Hso0] <;> iassumption
  · isplitl [Hno0] <;> iassumption

end Cert.KB

end
-- ==== Proof.MainBodyB.lean ====
import proofs.«208587_g27212912787602_cont_9to1_1073_18_alg».proof.Proof.PayB
import proofs.«208587_g27212912787602_cont_9to1_1073_18_alg».proof.Proof.MainCallB
import proofs.«208587_g27212912787602_cont_9to1_1073_18_alg».proof.Proof.Gen.Kernel.Launch
import proofs.«208587_g27212912787602_cont_9to1_1073_18_alg».proof.Proof.Gen.Kernel.Points
import Idealize.ShloMosaic.Lib.Pipeline.FrameBody
import Idealize.ShloMosaic.Lib.Pipeline.Value
import Idealize.ShloMosaic.Lib.Pipeline.Regions
import Idealize.ShloMosaic.Lib.Tactic

noncomputable section

namespace Cert.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after after_cons after_nil)
open Idealize.ShloMosaic.Tactic
open Idealize.ShloMosaic.TcCoe
open Idealize.ShloMosaic.Pipeline (Dat Cfg Window BodyObligation cellOf)
variable {F : FTy → Type}

local notation "𝕄" => MT nD τ sig (HIx 1) (Elt F) ℕ UU ℕ

/-! ## The dense layers' body on whole staging buffers

The body loads its six input buffers whole, computes both layers on the 4096 rows at once, and stores the result
whole: what it leaves in the result buffer is the one payload of the six contents. -/

abbrev rA : Rect S4096x128 := Rect.unit (s := S4096x128) ![0, 0] S4096x128.size inb_S4096x128_S4096x128_0_0
abbrev rW : Rect S128x128 := Rect.unit (s := S128x128) ![0, 0] S128x128.size inb_S128x128_S128x128_0_0

/-- The result buffer after the body, from the six input buffers' contents (self rows, neighbour sums, the four
    matrices in operand order): its one store as a piece. -/
def out6 [FloatOps F] (x0 x1 : Vec F S4096x128 .f32) (x2 x3 x4 x5 : Vec F S128x128 .f32) : Vec F S4096x128 .f32 :=
  View.canon [⟨rA, k1_pay1 (View.ld x1 rA) (View.ld x0 rA) (View.ld x3 rW) (View.ld x2 rW) (View.ld x5 rW) (View.ld x4 rW)⟩]

theorem zero2 : (![0, 0] : Fin 2 → Nat) = fun _ => 0 := by
  funext a; fin_cases a <;> rfl

/-- Loads and the store are of whole buffers: the result is the payload of the contents. -/
theorem out6_eq [FloatOps F] [∀ e, Nonempty (Elt F e)] (x0 x1 : Vec F S4096x128 .f32) (x2 x3 x4 x5 : Vec F S128x128 .f32) :
    out6 x0 x1 x2 x3 x4 x5 = k1_pay1 x1 x0 x3 x2 x5 x4 := by
  unfold out6 rA rW
  rw [View.canon_unit_zero (S := S4096x128) zero2, View.ld_unit_zero (S := S4096x128) zero2, View.ld_unit_zero (S := S4096x128) zero2,
    View.ld_unit_zero (S := S128x128) zero2, View.ld_unit_zero (S := S128x128) zero2, View.ld_unit_zero (S := S128x128) zero2,
    View.ld_unit_zero (S := S128x128) zero2]

set_option maxHeartbeats 1000000 in
/-- The body on whole staging memrefs, the inputs' at read contents and the result's at anything, runs to the
    continuation holding the inputs' as they were and the result's at `out6` of the inputs'. -/
theorem sound_kernel [FloatOps F] [∀ e, Nonempty (Elt F e)] (c : Dev nD) (E : Set ℕ) (i : grid1.Coords)
    (arg1 : Memref sig .tc .vmem S4096x128 .f32) (harg1 : arg1.IsWhole) (arg2 : Memref sig .tc .vmem S4096x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S4096x128 .f32) (harg7 : arg7.IsWhole)
    (x0 x1 : Vec F S4096x128 .f32) (x2 x3 x4 x5 : Vec F S128x128 .f32) (K : PUnit → sProp 𝕄) :
    iprop(owns (c.tc : Thread nD τ) arg1 fullShare x0 ∗ owns (c.tc : Thread nD τ) arg2 fullShare x1 ∗ owns (c.tc : Thread nD τ) arg3 fullShare x2
        ∗ owns (c.tc : Thread nD τ) arg4 fullShare x3 ∗ owns (c.tc : Thread nD τ) arg5 fullShare x4 ∗ owns (c.tc : Thread nD τ) arg6 fullShare x5
        ∗ (∃ d, owns (c.tc : Thread nD τ) arg7 fullShare d)
        ∗ (iprop(owns (c.tc : Thread nD τ) arg1 fullShare x0 ∗ owns (c.tc : Thread nD τ) arg2 fullShare x1 ∗ owns (c.tc : Thread nD τ) arg3 fullShare x2
            ∗ owns (c.tc : Thread nD τ) arg4 fullShare x3 ∗ owns (c.tc : Thread nD τ) arg5 fullShare x4 ∗ owns (c.tc : Thread nD τ) arg6 fullShare x5
            ∗ owns (c.tc : Thread nD τ) arg7 fullShare (out6 x0 x1 x2 x3 x4 x5)) -∗ K ⟨⟩))
      ⊢ wp frame (wpE (defs₀ (F := F)) Variants.none (c.tc : Thread nD τ) none) E (cc1__mm_body i arg1 harg1 arg2 harg2 arg3 harg3 arg4 harg4 arg5 harg5 arg6 harg6 arg7 harg7) K := by
  simp only [cc1__mm_body_eq_skeleton]; unfold cc1__mm_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (fun y => ⟨_, List.mem_singleton_self _, View.mem_set_unit_zero (S := S4096x128) zero2 inb_S4096x128_S4096x128_0_0 y⟩)

end Cert.KB

end
-- ==== Proof.MainRegionB.lean ====
import proofs.«208587_g27212912787602_cont_9to1_1073_18_alg».proof.Proof.PayB
import proofs.«208587_g27212912787602_cont_9to1_1073_18_alg».proof.Proof.MainBodyB

noncomputable section

namespace Cert.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after after_cons after_nil)
open Idealize.ShloMosaic.Tactic
open Idealize.ShloMosaic.TcCoe
open Idealize.ShloMosaic.Pipeline (Dat Cfg Window BodyObligation cellOf)
variable {F : FTy → Type}

local notation "𝕄" => MT nD τ sig (HIx 1) (Elt F) ℕ UU ℕ

/-! ## The region's proof data

The region streams the two gathered arrays through eight blocks of 4096 rows, the four matrices staged once, and
writes each block of the result back. -/

variable (m : (ℓ : Loc nD τ sig) → Buf (Elt F) ℓ) (Is : IVec S256x128 32) (In : IVec S4096x128 32)

/-- The TensorCore's arrays as the region finds them: the launch contents but for the two gathered arrays. -/
def VR [FloatOps F] (d : Dev nD) : (b : Ref sig .tc) → Buf (Elt F) ((d.tc : Thread nD τ).loc b) :=
  Function.update (Function.update (fun b => m ((d.tc : Thread nD τ).loc b)) main_v6_0
      (selfVal (m (embLoc d)) Is : Buf (Elt F) ((d.tc : Thread nD τ).loc main_v6_0)))
    main_v6_1 (neiVal (m (embLoc d)) In : Buf (Elt F) ((d.tc : Thread nD τ).loc main_v6_1))

theorem VR_v60 [FloatOps F] (d : Dev nD) : VR m Is In d main_v6_0 = (selfVal (m (embLoc d)) Is : Buf (Elt F) ((d.tc : Thread nD τ).loc main_v6_0)) := by
  unfold VR; rw [Function.update_of_ne (by decide), Function.update_self]
theorem VR_v61 [FloatOps F] (d : Dev nD) : VR m Is In d main_v6_1 = (neiVal (m (embLoc d)) In : Buf (Elt F) ((d.tc : Thread nD τ).loc main_v6_1)) := by
  unfold VR; rw [Function.update_self]
theorem VR_other [FloatOps F] (d : Dev nD) (b : Ref sig .tc) (h0 : b ≠ main_v6_0) (h1 : b ≠ main_v6_1) : VR m Is In d b = m ((d.tc : Thread nD τ).loc b) := by
  unfold VR; rw [Function.update_of_ne h1, Function.update_of_ne h0]

/-- Window `w`'s block at point `t`, read off its array as the region finds it. -/
def iblk [FloatOps F] (d : Dev nD) (w : Fin cfg1.W) (t : Fin cfg1.N) : ((cfg1.win w).xblock (cfg1.grid.coords t)).Idx → Elt F (cfg1.win w).elt :=
  ((cfg1.win w).blk t).view.read (Elt F) (VR m Is In d (Pipeline.arrRef spec1 w))

/-- The proof data: the arrays as the region finds them; after the body each input's buffer at its block and the
    result's at the payload of the six blocks; nothing of the body's own between points; nothing owed. -/
def dats [FloatOps F] (_ : Fin 1) (d : Dev nD) : Dat τ (Elt F) (HIx 1) ℕ UU ℕ cfg1 d where
  A w := VR m Is In d (Pipeline.arrRef spec1 w)
  after w t := match w with
    | ⟨0, _⟩ => iblk m Is In d 0 t
    | ⟨1, _⟩ => iblk m Is In d 1 t
    | ⟨2, _⟩ => iblk m Is In d 2 t
    | ⟨3, _⟩ => iblk m Is In d 3 t
    | ⟨4, _⟩ => iblk m Is In d 4 t
    | ⟨5, _⟩ => iblk m Is In d 5 t
    | ⟨6, _⟩ => out6 (iblk m Is In d 0 t) (iblk m Is In d 1 t) (iblk m Is In d 2 t) (iblk m Is In d 3 t) (iblk m Is In d 4 t) (iblk m Is In d 5 t)
  Φ _ := Pipeline.scopedRest (Ix := HIx 1) (Name := ℕ) (U := UU) (Lvl := ℕ) (Val := Elt F) spec1 d
  q _ := fullShare
  owed _ := 0

section
variable [FloatOps F]

theorem A_eq (d : Dev nD) (w : Fin cfg1.W) : (dats m Is In 0 d).A w = VR m Is In d (Pipeline.arrRef spec1 w) := by
  dsimp only [dats]

theorem after_0 (d : Dev nD) (t : Fin cfg1.N) : (dats m Is In 0 d).after 0 t = iblk m Is In d 0 t := by dsimp only [dats]
theorem after_1 (d : Dev nD) (t : Fin cfg1.N) : (dats m Is In 0 d).after 1 t = iblk m Is In d 1 t := by dsimp only [dats]
theorem after_2 (d : Dev nD) (t : Fin cfg1.N) : (dats m Is In 0 d).after 2 t = iblk m Is In d 2 t := by dsimp only [dats]
theorem after_3 (d : Dev nD) (t : Fin cfg1.N) : (dats m Is In 0 d).after 3 t = iblk m Is In d 3 t := by dsimp only [dats]
theorem after_4 (d : Dev nD) (t : Fin cfg1.N) : (dats m Is In 0 d).after 4 t = iblk m Is In d 4 t := by dsimp only [dats]
theorem after_5 (d : Dev nD) (t : Fin cfg1.N) : (dats m Is In 0 d).after 5 t = iblk m Is In d 5 t := by dsimp only [dats]
theorem after_6 (d : Dev nD) (t : Fin cfg1.N) : (dats m Is In 0 d).after 6 t
    = out6 (iblk m Is In d 0 t) (iblk m Is In d 1 t) (iblk m Is In d 2 t) (iblk m Is In d 3 t) (iblk m Is In d 4 t) (iblk m Is In d 5 t) := by dsimp only [dats]

/-! Each input's current staging buffer holds its block at every point, fetched there or not: the body leaves the
    block in place, and an input not fetched at a point has the block index it had at the point before. -/
theorem before_0 (d : Dev nD) (t : Fin cfg1.N) (x) : (dats m Is In 0 d).before 0 t x = iblk m Is In d 0 t :=
  ((dats m Is In 0 d).before_in_eq_fetched 0 rfl (fun _ => rfl) (fun _ _ _ => rfl)
    (fun t => by rw [after_0]; unfold Dat.blockOf iblk; rw [A_eq]; try rfl) t x).trans
    (by unfold Dat.fetched Dat.blockOf iblk; rw [A_eq]; try rfl)
theorem before_1 (d : Dev nD) (t : Fin cfg1.N) (x) : (dats m Is In 0 d).before 1 t x = iblk m Is In d 1 t :=
  ((dats m Is In 0 d).before_in_eq_fetched 1 rfl (fun _ => rfl) (fun _ _ _ => rfl)
    (fun t => by rw [after_1]; unfold Dat.blockOf iblk; rw [A_eq]; try rfl) t x).trans
    (by unfold Dat.fetched Dat.blockOf iblk; rw [A_eq]; try rfl)
theorem before_2 (d : Dev nD) (t : Fin cfg1.N) (x) : (dats m Is In 0 d).before 2 t x = iblk m Is In d 2 t :=
  ((dats m Is In 0 d).before_in_eq_fetched 2 rfl (fun _ => rfl) (fun _ _ _ => rfl)
    (fun t => by rw [after_2]; unfold Dat.blockOf iblk; rw [A_eq]; try rfl) t x).trans
    (by unfold Dat.fetched Dat.blockOf iblk; rw [A_eq]; try rfl)
theorem before_3 (d : Dev nD) (t : Fin cfg1.N) (x) : (dats m Is In 0 d).before 3 t x = iblk m Is In d 3 t :=
  ((dats m Is In 0 d).before_in_eq_fetched 3 rfl (fun _ => rfl) (fun _ _ _ => rfl)
    (fun t => by rw [after_3]; unfold Dat.blockOf iblk; rw [A_eq]; try rfl) t x).trans
    (by unfold Dat.fetched Dat.blockOf iblk; rw [A_eq]; try rfl)
theorem before_4 (d : Dev nD) (t : Fin cfg1.N) (x) : (dats m Is In 0 d).before 4 t x = iblk m Is In d 4 t :=
  ((dats m Is In 0 d).before_in_eq_fetched 4 rfl (fun _ => rfl) (fun _ _ _ => rfl)
    (fun t => by rw [after_4]; unfold Dat.blockOf iblk; rw [A_eq]; try rfl) t x).trans
    (by unfold Dat.fetched Dat.blockOf iblk; rw [A_eq]; try rfl)
theorem before_5 (d : Dev nD) (t : Fin cfg1.N) (x) : (dats m Is In 0 d).before 5 t x = iblk m Is In d 5 t :=
  ((dats m Is In 0 d).before_in_eq_fetched 5 rfl (fun _ => rfl) (fun _ _ _ => rfl)
    (fun t => by rw [after_5]; unfold Dat.blockOf iblk; rw [A_eq]; try rfl) t x).trans
    (by unfold Dat.fetched Dat.blockOf iblk; rw [A_eq]; try rfl)

/-! ## The body obligation -/

def bodyPre (d : Dev nD) (t : Fin cfg1.N) : sProp 𝕄 :=
  iprop((dats m Is In 0 d).Φ t.castSucc ∗ (dats m Is In 0 d).owesAt (none : HIx 1) t.castSucc
    ∗ (∃ x, owns (d.tc : Thread nD τ) (st1_0 t) fullShare ((dats m Is In 0 d).before 0 t x))
    ∗ (∃ x, owns (d.tc : Thread nD τ) (st1_1 t) fullShare ((dats m Is In 0 d).before 1 t x))
    ∗ (∃ x, owns (d.tc : Thread nD τ) (st1_2 t) fullShare ((dats m Is In 0 d).before 2 t x))
    ∗ (∃ x, owns (d.tc : Thread nD τ) (st1_3 t) fullShare ((dats m Is In 0 d).before 3 t x))
    ∗ (∃ x, owns (d.tc : Thread nD τ) (st1_4 t) fullShare ((dats m Is In 0 d).before 4 t x))
    ∗ (∃ x, owns (d.tc : Thread nD τ) (st1_5 t) fullShare ((dats m Is In 0 d).before 5 t x))
    ∗ (∃ x, owns (d.tc : Thread nD τ) (st1_6 t) fullShare ((dats m Is In 0 d).before 6 t x)))

def bodyPost (d : Dev nD) (t : Fin cfg1.N) : sProp 𝕄 :=
  iprop((dats m Is In 0 d).Φ t.succ ∗ (dats m Is In 0 d).owesAt (none : HIx 1) t.succ
    ∗ owns (d.tc : Thread nD τ) (st1_0 t) fullShare ((dats m Is In 0 d).after 0 t)
    ∗ owns (d.tc : Thread nD τ) (st1_1 t) fullShare ((dats m Is In 0 d).after 1 t)
    ∗ owns (d.tc : Thread nD τ) (st1_2 t) fullShare ((dats m Is In 0 d).after 2 t)
    ∗ owns (d.tc : Thread nD τ) (st1_3 t) fullShare ((dats m Is In 0 d).after 3 t)
    ∗ owns (d.tc : Thread nD τ) (st1_4 t) fullShare ((dats m Is In 0 d).after 4 t)
    ∗ owns (d.tc : Thread nD τ) (st1_5 t) fullShare ((dats m Is In 0 d).after 5 t)
    ∗ owns (d.tc : Thread nD τ) (st1_6 t) fullShare ((dats m Is In 0 d).after 6 t))

theorem sound_body [∀ e, Nonempty (Elt F e)] (d : Dev nD) (t : Fin cfg1.N) :
    bodyPre m Is In d t ⊢ wp frame (wpE (defs₀ (F := F)) Variants.none (d.tc : Thread nD τ) none) Set.univ (bodyAt1 t) (fun _ => bodyPost m Is In d t) := by
  unfold bodyPre bodyPost bodyAt1
  simp only [before_0, before_1, before_2, before_3, before_4, before_5]
  rw [show (dats m Is In 0 d).Φ t.succ = (dats m Is In 0 d).Φ t.castSucc from rfl,
    show (dats m Is In 0 d).owesAt (none : HIx 1) t.succ = (dats m Is In 0 d).owesAt (none : HIx 1) t.castSucc from rfl,
    after_0, after_1, after_2, after_3, after_4, after_5, after_6]
  iintro ⟨HΦ, Ho, ⟨%x0, H0⟩, ⟨%x1, H1⟩, ⟨%x2, H2⟩, ⟨%x3, H3⟩, ⟨%x4, H4⟩, ⟨%x5, H5⟩, ⟨%x6, H6⟩⟩
  iapply (sound_kernel d Set.univ _ _ _ _ _ _ _ _ _ _ _ _ _ _ _ (iblk m Is In d 0 t) (iblk m Is In d 1 t) (iblk m Is In d 2 t)
    (iblk m Is In d 3 t) (iblk m Is In d 4 t) (iblk m Is In d 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation [∀ e, Nonempty (Elt F e)] (d : Dev nD) :
    BodyObligation (dats (F := F) m Is In 0 d) (defs₀ (F := F)) Variants.none (none : HIx 1) Set.univ := fun t => by
  rw [bigSep_W1, bigSep_W1]
  exact sound_body m Is In d t

end

end Cert.KB

end
-- ==== Proof.MainValB.lean ====
import proofs.«208587_g27212912787602_cont_9to1_1073_18_alg».proof.Proof.PayB
import proofs.«208587_g27212912787602_cont_9to1_1073_18_alg».proof.Proof.MainHostB

noncomputable section

namespace Cert.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after after_cons after_nil)
open Idealize.ShloMosaic.Tactic

variable {F : FTy → Type}

local notation "𝕄" => MT nD τ sig (HIx 1) (Elt F) ℕ UU ℕ

/-! ## The region's value and the program's, as whole-array functions -/

/-- Row `n`, column `j` of the dense layers' result: the body's payload of block `n / 4096` of the two gathered
    arrays and the four matrices, at `(n % 4096, j)`. -/
def mmVal [FloatOps F] (selfA neiA : FVec F S32768x128 .f32) (w0a w0s w1a w1s : FVec F S128x128 .f32) : FVec F S32768x128 .f32 := fun i =>
  k1_pay1 (F := F)
    (fun y => neiA (ix2 ⟨(i 0).val / 4096 * 4096 + (y 0).val, by have h1 : (i 0).val < 32768 := (i 0).isLt; have h2 : (y 0).val < 4096 := (y 0).isLt; omega⟩ (y 1)))
    (fun y => selfA (ix2 ⟨(i 0).val / 4096 * 4096 + (y 0).val, by have h1 : (i 0).val < 32768 := (i 0).isLt; have h2 : (y 0).val < 4096 := (y 0).isLt; omega⟩ (y 1)))
    w0s w0a w1s w1a (ix2 ⟨(i 0).val % 4096, Nat.mod_lt _ (by norm_num)⟩ (i 1))

/-- The program's result as a function of its six arguments. -/
def outVal [FloatOps F] (adj : IVec S1024x1x32x17 32) (emb : FVec F S100001x128 .f32) (w0a w0s w1a w1s : FVec F S128x128 .f32) : FVec F S1024x1x32x128 .f32 :=
  shapeCast S1024x1x32x128 (mmVal (selfVal emb (isOf adj)) (neiVal emb (inOf adj)) w0a w0s w1a w1s) shapeCasts_S32768x128_S1024x1x32x128

end Cert.KB

end
-- ==== Proof.MainSegB.lean ====
import proofs.«208587_g27212912787602_cont_9to1_1073_18_alg».proof.Proof.PayB
import proofs.«208587_g27212912787602_cont_9to1_1073_18_alg».proof.Proof.MainRegionB
import proofs.«208587_g27212912787602_cont_9to1_1073_18_alg».proof.Proof.MainValB

noncomputable section

namespace Cert.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after after_cons after_nil)
open Idealize.ShloMosaic.Tactic
open Idealize.ShloMosaic.TcCoe
open Idealize.ShloMosaic.Pipeline (Dat Cfg Window BodyObligation cellOf)
variable {F : FTy → Type}

local notation "𝕄" => MT nD τ sig (HIx 1) (Elt F) ℕ UU ℕ

/-! ## The region as a segment of @main -/

variable (m : (ℓ : Loc nD τ sig) → Buf (Elt F) ℓ) (Is : IVec S256x128 32) (In : IVec S4096x128 32)

/-- No table is prefetched. -/
abbrev adm : (p : Fin 1) → (pcfgs (F := F) p).Adm := fun p => (cfgs p).toPCfg_adm

theorem lev_le8 (g : GSem nD τ sig) (ι : HIx 1) : (K (F := F)).lev g ι ≤ 8 := by
  cases ι with
  | none => exact Nat.zero_le _
  | some q => have h1 := (K (F := F)).lev_some_le g q; have h2 := q.isLt; omega

theorem wbelow_any (d : Dev nD) (W : Waits sig (HIx 1)) : (K (F := F)).WBelow (T d) W 8 := fun p _ => lev_le8 _ _

section
variable [FloatOps F]

/-- The region's seven arrays, the result's at `F7`. -/
def arrs7 (d : Dev nD) (F7 : Buf (Elt F) ((T d : Thread nD τ).loc main_v7)) : sProp 𝕄 :=
  iprop((soLoc d ↦{fullShare} (selfVal (m (embLoc d)) Is : Buf (Elt F) (soLoc d))) ∗ (noLoc d ↦{fullShare} (neiVal (m (embLoc d)) In : Buf (Elt F) (noLoc d)))
    ∗ ((T d : Thread nD τ).loc main_arg2 ↦{fullShare} m ((T d : Thread nD τ).loc main_arg2)) ∗ ((T d : Thread nD τ).loc main_arg3 ↦{fullShare} m ((T d : Thread nD τ).loc main_arg3))
    ∗ ((T d : Thread nD τ).loc main_arg4 ↦{fullShare} m ((T d : Thread nD τ).loc main_arg4)) ∗ ((T d : Thread nD τ).loc main_arg5 ↦{fullShare} m ((T d : Thread nD τ).loc main_arg5))
    ∗ ((T d : Thread nD τ).loc main_v7 ↦{fullShare} F7))

/-- What the TensorCore owes after the one call: nothing, whatever its waits recorded. -/
def owes1 (d : Dev nD) : sProp 𝕄 := iprop(∃ W, owes (T d : Thread nD τ) (0 : CellTallies nD τ sig (HIx 1)) W)

set_option backward.isDefEq.respectTransparency.types false in
theorem arrays_eq7 (d : Dev nD) (G : (w : Fin cfg1.W) → Buf (Elt F) ((cfg1.win w).arr.view.loc (d.tc : Thread nD τ))) :
    (dats m Is In 0 d).arrays G = iprop((soLoc d ↦{fullShare} G 0) ∗ (noLoc d ↦{fullShare} G 1)
      ∗ ((T d : Thread nD τ).loc main_arg2 ↦{fullShare} G 2) ∗ ((T d : Thread nD τ).loc main_arg3 ↦{fullShare} G 3)
      ∗ ((T d : Thread nD τ).loc main_arg4 ↦{fullShare} G 4) ∗ ((T d : Thread nD τ).loc main_arg5 ↦{fullShare} G 5)
      ∗ ((T d : Thread nD τ).loc main_v7 ↦{fullShare} G 6)) := by
  rw [Pipeline.arrays_eq (Pipeline.pin (pcfgs (F := F)) adm) (dats m Is In) 0 d launch1.arr_whole
    (fun w => (dats m Is In 0 d).share_full (fun _ => rfl) w) G, bigSep_W1]

theorem arrAt_0 (d : Dev nD) (n : Nat) : (dats m Is In 0 d).arrAt 0 n = (selfVal (m (embLoc d)) Is : Buf (Elt F) (soLoc d)) :=
  ((dats m Is In 0 d).arrAt_in 0 rfl n).trans (VR_v60 m Is In d)
theorem arrAt_1 (d : Dev nD) (n : Nat) : (dats m Is In 0 d).arrAt 1 n = (neiVal (m (embLoc d)) In : Buf (Elt F) (noLoc d)) :=
  ((dats m Is In 0 d).arrAt_in 1 rfl n).trans (VR_v61 m Is In d)
theorem arrAt_2 (d : Dev nD) (n : Nat) : (dats m Is In 0 d).arrAt 2 n = m ((T d : Thread nD τ).loc main_arg2) :=
  ((dats m Is In 0 d).arrAt_in 2 rfl n).trans (VR_other m Is In d main_arg2 (by decide) (by decide))
theorem arrAt_3 (d : Dev nD) (n : Nat) : (dats m Is In 0 d).arrAt 3 n = m ((T d : Thread nD τ).loc main_arg3) :=
  ((dats m Is In 0 d).arrAt_in 3 rfl n).trans (VR_other m Is In d main_arg3 (by decide) (by decide))
theorem arrAt_4 (d : Dev nD) (n : Nat) : (dats m Is In 0 d).arrAt 4 n = m ((T d : Thread nD τ).loc main_arg4) :=
  ((dats m Is In 0 d).arrAt_in 4 rfl n).trans (VR_other m Is In d main_arg4 (by decide) (by decide))
theorem arrAt_5 (d : Dev nD) (n : Nat) : (dats m Is In 0 d).arrAt 5 n = m ((T d : Thread nD τ).loc main_arg5) :=
  ((dats m Is In 0 d).arrAt_in 5 rfl n).trans (VR_other m Is In d main_arg5 (by decide) (by decide))
theorem arrAt_6_zero (d : Dev nD) : (dats m Is In 0 d).arrAt 6 0 = m ((T d : Thread nD τ).loc main_v7) :=
  VR_other m Is In d main_v7 (by decide) (by decide)

/-- The result array after the region: its launch contents overwritten, point by point, by the blocks written back. -/
abbrev res7 (d : Dev nD) : Buf (Elt F) ((T d : Thread nD τ).loc main_v7) := (dats m Is In 0 d).arrAt 6 cfg1.N

theorem arrays_at (d : Dev nD) (n : Nat) :
    (dats m Is In 0 d).arrays ((dats m Is In 0 d).arrAt · n) = arrs7 m Is In d ((dats m Is In 0 d).arrAt 6 n) := by
  rw [arrays_eq7]; unfold arrs7
  rw [arrAt_0, arrAt_1, arrAt_2, arrAt_3, arrAt_4, arrAt_5]

end

section
variable [FloatOps F] [∀ e, Nonempty (Elt F e)]

/-- What the body keeps between points: the scoped buffers no window stages. -/
def ΦR (d : Dev nD) : sProp 𝕄 := Pipeline.scopedRest (Ix := HIx 1) (Name := ℕ) (U := UU) (Lvl := ℕ) (Val := Elt F) spec1 d

set_option backward.isDefEq.respectTransparency.types false in
/-- The region: the launch's layout, no semaphore of the kernel's own, the body obligation; entered from the seven
    arrays and the TensorCore owing nothing, left with the result at its contents after the eight write-backs. -/
def reg : Pipeline.RegionSeg (pcfgs (F := F)) adm (dats m Is In) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody d := (body_obligation m Is In d).loose
  hwaits := Pipeline.hwaits_of_owed_zero _ _ _ _ _ _ 0 fun _ _ => rfl
  pre d := iprop(arrs7 m Is In d (m ((T d : Thread nD τ).loc main_v7)) ∗ owes1 d)
  post d := iprop(arrs7 m Is In d (res7 m Is In d) ∗ owes1 d)
  X _ := iprop(emp)
  Y _ := iprop(emp)
  Z _ := iprop(emp)
  hentry d := by
    rw [arrays_at, arrAt_6_zero]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owes1
      icases HO with ⟨%W, HO⟩; iexists W; isplitr; · ipureintro; exact fun _ _ => Or.inl trivial
      iexact HO
    isplitr <;> iempintro
  hin d := by
    rw [show (dats m Is In 0 d).Φ 0 = ΦR d from rfl]; unfold ΦR
    iintro ⟨-, -, Hr⟩; iexact Hr
  hout d := by
    rw [show (dats m Is In 0 d).Φ (Fin.last cfg1.N) = ΦR d from rfl]; unfold ΦR
    iintro Hr
    isplitr; · iempintro
    isplitr; · unfold Pipeline.ownSems0; rw [Finset.univ_eq_empty, BI.bigSep_empty]; iempintro
    iexact Hr
  hexit d := by
    rw [arrays_at]
    iintro ⟨Ha, HO, -, -⟩
    imodintro
    isplitl [Ha]; · iexact Ha
    unfold Pipeline.Dat.owesAt Pipeline.owesWithin owes1
    icases HO with ⟨%W, -, HO⟩; iexists W; iexact HO

end

/-! ## The host prefix's values -/

section
variable [FloatOps F]

/-- The TensorCore's arrays when the call is reached. -/
def V1 (d : Dev nD) : Valuation τ sig (Elt F) := after (hostOps (F := F)) (V0 m d)

theorem V1_arg0 (d : Dev nD) : V1 m d r_arg0 = m ((T d : Thread nD τ).loc main_arg0) := by
  unfold V1 hostOps op1 op2 op3 op4 op5 op6; after_results; rfl
theorem V1_arg1 (d : Dev nD) : V1 m d r_arg1 = m ((T d : Thread nD τ).loc main_arg1) := by
  unfold V1 hostOps op1 op2 op3 op4 op5 op6; after_results; rfl
theorem V1_arg2 (d : Dev nD) : V1 m d r_arg2 = m ((T d : Thread nD τ).loc main_arg2) := by
  unfold V1 hostOps op1 op2 op3 op4 op5 op6; after_results; rfl
theorem V1_arg3 (d : Dev nD) : V1 m d r_arg3 = m ((T d : Thread nD τ).loc main_arg3) := by
  unfold V1 hostOps op1 op2 op3 op4 op5 op6; after_results; rfl
theorem V1_arg4 (d : Dev nD) : V1 m d r_arg4 = m ((T d : Thread nD τ).loc main_arg4) := by
  unfold V1 hostOps op1 op2 op3 op4 op5 op6; after_results; rfl
theorem V1_arg5 (d : Dev nD) : V1 m d r_arg5 = m ((T d : Thread nD τ).loc main_arg5) := by
  unfold V1 hostOps op1 op2 op3 op4 op5 op6; after_results; rfl
theorem V1_v6_0 (d : Dev nD) : V1 m d r_v6_0 = m ((T d : Thread nD τ).loc main_v6_0) := by
  unfold V1 hostOps op1 op2 op3 op4 op5 op6; after_results; rfl
theorem V1_v6_1 (d : Dev nD) : V1 m d r_v6_1 = m ((T d : Thread nD τ).loc main_v6_1) := by
  unfold V1 hostOps op1 op2 op3 op4 op5 op6; after_results; rfl
theorem V1_v7 (d : Dev nD) : V1 m d r_v7 = m ((T d : Thread nD τ).loc main_v7) := by
  unfold V1 hostOps op1 op2 op3 op4 op5 op6; after_results; rfl
theorem V1_v8 (d : Dev nD) : V1 m d r_v8 = m ((T d : Thread nD τ).loc main_v8) := by
  unfold V1 hostOps op1 op2 op3 op4 op5 op6; after_results; rfl
theorem V1_v3 (d : Dev nD) : V1 m d r_v3 = (isOf (m ((T d : Thread nD τ).loc main_arg0)) : Buf (Elt F) ((T d : Thread nD τ).loc main_v3)) := by
  unfold V1 hostOps op1 op2 op3 op4 op5 op6; after_results; rfl
theorem V1_v5 (d : Dev nD) : V1 m d r_v5 = (inOf (m ((T d : Thread nD τ).loc main_arg0)) : Buf (Elt F) ((T d : Thread nD τ).loc main_v5)) := by
  unfold V1 hostOps op1 op2 op3 op4 op5 op6; after_results; rfl

theorem held_V1 (d : Dev nD) :
    (held (T d) S16 (V1 m d) : sProp 𝕄) = iprop(((T d : Thread nD τ).loc main_arg0 ↦{fullShare} m ((T d : Thread nD τ).loc main_arg0))
      ∗ ((T d : Thread nD τ).loc main_arg1 ↦{fullShare} m ((T d : Thread nD τ).loc main_arg1))
      ∗ ((T d : Thread nD τ).loc main_arg2 ↦{fullShare} m ((T d : Thread nD τ).loc main_arg2))
      ∗ ((T d : Thread nD τ).loc main_arg3 ↦{fullShare} m ((T d : Thread nD τ).loc main_arg3))
      ∗ ((T d : Thread nD τ).loc main_arg4 ↦{fullShare} m ((T d : Thread nD τ).loc main_arg4))
      ∗ ((T d : Thread nD τ).loc main_arg5 ↦{fullShare} m ((T d : Thread nD τ).loc main_arg5))
      ∗ ((T d : Thread nD τ).loc main_v0 ↦{fullShare} V1 m d r_v0)
      ∗ ((T d : Thread nD τ).loc main_v1 ↦{fullShare} V1 m d r_v1)
      ∗ ((T d : Thread nD τ).loc main_v2 ↦{fullShare} V1 m d r_v2)
      ∗ ((T d : Thread nD τ).loc main_v3 ↦{fullShare} (isOf (m ((T d : Thread nD τ).loc main_arg0)) : Buf (Elt F) ((T d : Thread nD τ).loc main_v3)))
      ∗ ((T d : Thread nD τ).loc main_v4 ↦{fullShare} V1 m d r_v4)
      ∗ ((T d : Thread nD τ).loc main_v5 ↦{fullShare} (inOf (m ((T d : Thread nD τ).loc main_arg0)) : Buf (Elt F) ((T d : Thread nD τ).loc main_v5)))
      ∗ ((T d : Thread nD τ).loc main_v6_0 ↦{fullShare} m ((T d : Thread nD τ).loc main_v6_0))
      ∗ ((T d : Thread nD τ).loc main_v6_1 ↦{fullShare} m ((T d : Thread nD τ).loc main_v6_1))
      ∗ ((T d : Thread nD τ).loc main_v7 ↦{fullShare} m ((T d : Thread nD τ).loc main_v7))
      ∗ ((T d : Thread nD τ).loc main_v8 ↦{fullShare} m ((T d : Thread nD τ).loc main_v8))) := by
  rw [held_S16, V1_arg0, V1_arg1, V1_arg2, V1_arg3, V1_arg4, V1_arg5, V1_v6_0, V1_v6_1, V1_v7, V1_v8, V1_v3, V1_v5]

theorem hostOps_sub : ∀ op ∈ hostOps (F := F), op.bufs ⊆ S16 := by
  intro op h
  simp only [hostOps, List.mem_cons, List.mem_nil_iff, or_false] at h
  rcases h with rfl | rfl | rfl | rfl | rfl | rfl
  · exact show ({r_arg0, r_v0} : Finset (DevRef τ sig)) ⊆ S16 by decide
  · exact show ({r_v0, r_v1} : Finset (DevRef τ sig)) ⊆ S16 by decide
  · exact show ({r_v1, r_v2} : Finset (DevRef τ sig)) ⊆ S16 by decide
  · exact show ({r_v2, r_v3} : Finset (DevRef τ sig)) ⊆ S16 by decide
  · exact show ({r_v0, r_v4} : Finset (DevRef τ sig)) ⊆ S16 by decide
  · exact show ({r_v4, r_v5} : Finset (DevRef τ sig)) ⊆ S16 by decide

theorem hostOps_fresh : ∀ op ∈ hostOps (F := F), op.fresh = ∅ := by
  intro op h
  simp only [hostOps, List.mem_cons, List.mem_nil_iff, or_false] at h
  rcases h with rfl | rfl | rfl | rfl | rfl | rfl <;> rfl

abbrev S2 : Finset (DevRef τ sig) := {r_v7, r_v8}
theorem opLast_sub : (opLast (F := F)).bufs ⊆ S2 := show ({r_v7, r_v8} : Finset (DevRef τ sig)) ⊆ S2 by decide

end

end Cert.KB

end
-- ==== Proof.MainB.lean ====
import proofs.«208587_g27212912787602_cont_9to1_1073_18_alg».proof.Proof.PayB
import proofs.«208587_g27212912787602_cont_9to1_1073_18_alg».proof.Proof.MainSegB

noncomputable section

namespace Cert.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after after_cons after_nil)
open Idealize.ShloMosaic.Tactic
open Idealize.ShloMosaic.TcCoe
open Idealize.ShloMosaic.Pipeline (Dat Cfg Window BodyObligation cellOf)
variable {F : FTy → Type}

local notation "𝕄" => MT nD τ sig (HIx 1) (Elt F) ℕ UU ℕ

variable (m : (ℓ : Loc nD τ sig) → Buf (Elt F) ℓ) (Is : IVec S256x128 32) (In : IVec S4096x128 32)
section
variable [FloatOps F] [∀ e, Nonempty (Elt F e)]

set_option backward.isDefEq.respectTransparency.types false in
set_option maxHeartbeats 1000000 in
/-- The region's call on the TensorCore, under the program's own body table. -/
theorem region_step' (d : Dev nD) (Φ : PUnit.{1} → sProp 𝕄) :
    iprop(boundary (T d : Thread nD τ) ∗ arrs7 m Is In d (m ((T d : Thread nD τ).loc main_v7)) ∗ owes1 d ∗ levAts (K (F := F)).L (K (F := F)).lev
        ∗ Pipeline.cellsGhost (Pipeline.pin (pcfgs (F := F)) adm) EP 0 d ∗ Pipeline.toksInit (Pipeline.pin (pcfgs (F := F)) adm) EP 0 d
        ∗ ((boundary (T d : Thread nD τ) ∗ arrs7 m Is In d (res7 m Is In d) ∗ owes1 d) -∗ Φ ⟨⟩))
      ⊢ wp frame (wpE (D (F := F)) 𝒱 (T d) none) Set.univ
          (.op (.customCall (Pipeline.entry 0) ()) fun _ => .ret PUnit.unit) Φ := by
  have h := Pipeline.RegionSeg.wp (pcfgs (F := F)) adm (dats m Is In) (none : HIx 1) cellOf_inj EP defs₀ 𝒱₀
    (K (F := F)).L (K (F := F)).lev (reg m Is In) d none (fun _ h => nomatch h) (fun _ => .ret PUnit.unit) Φ
  refine BIBase.Entails.trans ?_ h
  dsimp only [reg]
  iintro ⟨Hb, Ha, HO, #Hlev, Hcg, Htk, Hk⟩
  isplitl [Hk]
  · iintro ⟨Hb, Ha, HO⟩
    rw [wp_ret]; imodintro
    iapply Hk
    isplitl [Hb]; · iexact Hb
    isplitl [Ha] <;> iassumption
  isplitl [Hb]; · iexact Hb
  isplitl [Ha HO]; · isplitl [Ha] <;> iassumption
  isplitr; · iexact Hlev
  isplitl [Hcg] <;> iassumption

/-- The same inside the SparseCore program's extended body table. -/
theorem region_step (d : Dev nD) (Φ : PUnit.{1} → sProp 𝕄) :
    iprop(boundary (T d : Thread nD τ) ∗ arrs7 m Is In d (m ((T d : Thread nD τ).loc main_v7)) ∗ owes1 d ∗ levAts (K (F := F)).L (K (F := F)).lev
        ∗ Pipeline.cellsGhost (Pipeline.pin (pcfgs (F := F)) adm) EP 0 d ∗ Pipeline.toksInit (Pipeline.pin (pcfgs (F := F)) adm) EP 0 d
        ∗ ((boundary (T d : Thread nD τ) ∗ arrs7 m Is In d (res7 m Is In d) ∗ owes1 d) -∗ Φ ⟨⟩))
      ⊢ wp frame (wpE ((K (F := F)).defs (D (F := F))) 𝒱 (T d) none) Set.univ
          (SparseCore.liftProg (Q := 1) (.op (.customCall (Pipeline.entry 0) ()) fun _ => .ret PUnit.unit)) Φ :=
  (region_step' m Is In d Φ).trans ((K (F := F)).wp_liftProg (D (F := F)) 𝒱 (T d) Set.univ none _ Φ)

end

/-! ## @main on the TensorCore -/

variable (ρ : Dev nD → PrngReg)

section
variable [FloatOps F] [∀ e, Nonempty (Elt F e)]

/-- The index lists the call reads, off the launch memory (one device). -/
def Is0 : IVec S256x128 32 := isOf (m ((T (0 : Dev nD) : Thread nD τ).loc main_arg0))
def In0 : IVec S4096x128 32 := inOf (m ((T (0 : Dev nD) : Thread nD τ).loc main_arg0))

theorem phinj : Function.Injective (Pipeline.cellOf (nD := nD) (τ := τ) (Pipeline.pin (pcfgs (F := F)) adm)) := cellOf_inj

/-- What the launch element leaves a TensorCore for the region: its staging cells' ghost state and tokens. -/
def Gd (d : Dev nD) : sProp 𝕄 :=
  iprop(Pipeline.cellsGhost (Pipeline.pin (pcfgs (F := F)) adm) EP 0 d ∗ Pipeline.toksInit (Pipeline.pin (pcfgs (F := F)) adm) EP 0 d)

/-- What @main leaves the claim: the result at the reshape of `R`, the six arguments at their launch contents. -/
def FINr (d : Dev nD) (R : Buf (Elt F) ((T d : Thread nD τ).loc main_v7)) : sProp 𝕄 :=
  iprop(((T d : Thread nD τ).loc main_v8 ↦{fullShare}
      (shapeCast S1024x1x32x128 (R : FVec F S32768x128 .f32) shapeCasts_S32768x128_S1024x1x32x128 : Buf (Elt F) ((T d : Thread nD τ).loc main_v8)))
    ∗ ((T d : Thread nD τ).loc main_arg0 ↦{fullShare} m ((T d : Thread nD τ).loc main_arg0))
    ∗ ((T d : Thread nD τ).loc main_arg1 ↦{fullShare} m ((T d : Thread nD τ).loc main_arg1))
    ∗ ((T d : Thread nD τ).loc main_arg2 ↦{fullShare} m ((T d : Thread nD τ).loc main_arg2))
    ∗ ((T d : Thread nD τ).loc main_arg3 ↦{fullShare} m ((T d : Thread nD τ).loc main_arg3))
    ∗ ((T d : Thread nD τ).loc main_arg4 ↦{fullShare} m ((T d : Thread nD τ).loc main_arg4))
    ∗ ((T d : Thread nD τ).loc main_arg5 ↦{fullShare} m ((T d : Thread nD τ).loc main_arg5)))

/-- After the one call the TensorCore owes nothing; its state gives that up and takes it back, whatever its waits
    recorded (every level of a program of one call is at most 8). -/
theorem tcSt_open (d : Dev nD) :
    ((K (F := F)).tcSt EH d 1 : sProp 𝕄) ⊢ iprop(owes1 d ∗ (owes1 d -∗ (K (F := F)).tcSt EH d 1)) := by
  unfold SparseCore.Cfg.tcSt owes1
  rw [(K (F := F)).Otc_end d (le_refl 1)]
  iintro ⟨⟨%W, %hW, HO⟩, Hrest⟩
  isplitl [HO]; · iexists W; iexact HO
  iintro ⟨%W', HO⟩
  isplitl [HO]
  · iexists W'; isplitr; · ipureintro; exact wbelow_any d W'
    iexact HO
  iexact Hrest

theorem held_S2 (d : Dev nD) (W : Valuation τ sig (Elt F)) :
    (held (T d) S2 W : sProp 𝕄) = iprop(((T d : Thread nD τ).loc main_v7 ↦{fullShare} W r_v7) ∗ ((T d : Thread nD τ).loc main_v8 ↦{fullShare} W r_v8)) := by
  unfold held S2
  rw [SparseCore.bigSep_insert' (by decide), bigSep_singleton]

/-- The last reshape's valuation: the result array at `R`. -/
def V7 (d : Dev nD) (R : Buf (Elt F) ((T d : Thread nD τ).loc main_v7)) : Valuation τ sig (Elt F) := Function.update (V0 m d) r_v7 R
theorem V7_v7 (d : Dev nD) (R : Buf (Elt F) ((T d : Thread nD τ).loc main_v7)) : V7 m d R r_v7 = R := Function.update_self _ _ _
theorem V7_v8 (d : Dev nD) (R : Buf (Elt F) ((T d : Thread nD τ).loc main_v7)) : V7 m d R r_v8 = m ((T d : Thread nD τ).loc main_v8) :=
  Function.update_of_ne (show r_v8 ≠ r_v7 by decide) _ _
theorem last_v8 (d : Dev nD) (R : Buf (Elt F) ((T d : Thread nD τ).loc main_v7)) :
    (opLast (F := F)).result (V7 m d R) r_v8
      = (shapeCast S1024x1x32x128 (R : FVec F S32768x128 .f32) shapeCasts_S32768x128_S1024x1x32x128 : Buf (Elt F) ((T d : Thread nD τ).loc main_v8)) := by
  unfold opLast; rw [StableHlo.reshape_result, V7_v7]; rfl

set_option maxHeartbeats 1000000 in
/-- @main on the TensorCore: the host prefix, the call (the two gathered arrays out as rows and back whole), the
    region, the last reshape. -/
theorem hmain (κ : GSem nD τ sig → ℕ) (d : Dev nD) :
    iprop((K (F := F)).ctx EH (P m (Is0 m) (In0 m)) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FINr m d (res7 m (Is0 m) (In0 m) d)) := by
  obtain rfl : d = 0 := Subsingleton.elim _ _
  unfold SparseCore.Cfg.tcRes Gd
  rw [unscoped_held, main_eq]
  iintro ⟨#Hctx, Hst, ⟨Hb, Hheld, -, -⟩, Hcg, Htk⟩
  ihave Hlev := (SparseCore.Cfg.ctx_levAts (K := K (F := F)) (EH := EH) (P := P m (Is0 m) (In0 m)) κ) $$ Hctx
  -- the host prefix
  iapply (wp_seq (defs := (K (F := F)).defs (D (F := F))) 𝒱 none Set.univ (0 : Dev nD) S16 _ (hostOps (F := F)) hostOps_sub hostOps_fresh (V0 m 0)) $$ [Hb Hheld]
  · isplitl [Hb] <;> iassumption
  iintro ⟨Hb, Hheld⟩
  have hV1 : (held (T (0 : Dev nD)) S16 (after (hostOps (F := F)) (V0 m 0)) : sProp 𝕄) = _ := held_V1 m 0
  ihave Hh := (Entails.of_eq hV1) $$ Hheld
  icases Hh with ⟨Ha0, Ha1, Ha2, Ha3, Ha4, Ha5, -, -, -, Hv3, -, Hv5, Hv60, Hv61, Hv7, Hv8⟩
  -- the call
  rw [wp_bind]
  ihave Hin := (call_in m (Is0 m) (In0 m) 0) $$ [Ha1 Hv3 Hv5 Hv60 Hv61]
  · isplitl [Ha1]; · iexact Ha1
    isplitl [Hv3]; · iexact Hv3
    isplitl [Hv5]; · iexact Hv5
    isplitl [Hv60]; · iexists _; iexact Hv60
    iexists _; iexact Hv61
  icases Hin with ⟨Hrem, Hst0⟩
  iapply ((K (F := F)).wp_run (D (F := F)) 𝒱 (EH := EH) (P := P m (Is0 m) (In0 m)) κ 0 0) $$ [Hst Hst0 Hrem Hb Ha0 Ha2 Ha3 Ha4 Ha5 Hv7 Hv8 Hcg Htk]
  isplitr; · iexact Hctx
  isplitl [Hst]; · iexact Hst
  isplitl [Hst0]; · iexact Hst0
  iintro ⟨Hst, Hdn⟩
  ihave Hout := (call_out m (Is0 m) (In0 m) 0) $$ [Hrem Hdn]
  · isplitl [Hrem] <;> iassumption
  icases Hout with ⟨Ha1, -, -, Hv60, Hv61⟩
  -- the region
  have hopen : ((K (F := F)).tcSt EH (0 : Dev nD) ((0 : Fin 1).val + 1) : sProp 𝕄) ⊢ iprop(owes1 (0 : Dev nD) ∗ (owes1 (0 : Dev nD) -∗ (K (F := F)).tcSt EH (0 : Dev nD) 1)) := tcSt_open 0
  ihave Hst' := hopen $$ Hst
  icases Hst' with ⟨HO, Hback⟩
  rw [wp_bind]
  iapply (region_step m (Is0 m) (In0 m) 0 _) $$ [Hb Hv60 Hv61 Ha2 Ha3 Ha4 Ha5 Hv7 HO Hcg Htk Hback Ha0 Ha1 Hv8]
  isplitl [Hb]; · iexact Hb
  isplitl [Hv60 Hv61 Ha2 Ha3 Ha4 Ha5 Hv7]
  · unfold arrs7
    isplitl [Hv60]; · iexact Hv60
    isplitl [Hv61]; · iexact Hv61
    isplitl [Ha2]; · iexact Ha2
    isplitl [Ha3]; · iexact Ha3
    isplitl [Ha4]; · iexact Ha4
    isplitl [Ha5]; · iexact Ha5
    iexact Hv7
  isplitl [HO]; · iexact HO
  isplitr; · iexact Hlev
  isplitl [Hcg]; · iexact Hcg
  isplitl [Htk]; · iexact Htk
  iintro ⟨Hb, Ha, HO⟩
  unfold arrs7
  icases Ha with ⟨-, -, Ha2, Ha3, Ha4, Ha5, Hv7⟩
  ihave Hst := Hback $$ HO
  -- the last reshape
  rw [wp_bind]
  iapply (wp_hlo_within 𝒱 (SparseCore.T (0 : Dev nD)) none Set.univ (op := opLast (F := F)) (S := S2) opLast_sub
    (V := V7 m 0 (res7 m (Is0 m) (In0 m) 0))) $$ [Hb Hv7 Hv8]
  · isplitl [Hb]; · iexact Hb
    rw [held_S2, V7_v7, V7_v8]
    isplitl [Hv7] <;> iassumption
  iintro ⟨Hb, Hheld⟩
  ihave Hh := (Entails.of_eq (held_S2 0 _)) $$ Hheld
  icases Hh with ⟨-, Hv8⟩
  rw [wp_ret]; imodintro
  rw [wp_pure]; imodintro
  isplitl [Hst]; · iexact Hst
  unfold FINr
  isplitl [Hv8]; · rw [← last_v8]; iexact Hv8
  isplitl [Ha0]; · iexact Ha0
  isplitl [Ha1]; · iexact Ha1
  isplitl [Ha2]; · iexact Ha2
  isplitl [Ha3]; · iexact Ha3
  isplitl [Ha4]; · iexact Ha4
  iexact Ha5

end

/-! ## The launch element, the final memory, the run -/

section
variable [FloatOps F] [∀ e, Nonempty (Elt F e)]

/-- The launch element: the handshakes' rounds, the region's staging cells and transfers, no counter yet. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem bigSep_emp' {I : Type} (s : Finset I) : (bigSep s fun _ => iprop(emp)) = (iprop(emp) : sProp 𝕄) := bigSep_emp_const s

theorem bigSep_fin1 {M : Type} [URA M] (Φ : Fin 1 → sProp M) : bigSep Finset.univ Φ = Φ 0 := by
  rw [show (Finset.univ : Finset (Fin 1)) = {0} by decide, bigSep_singleton]

theorem own_EP (x : UP) :
    (BI.own (((Emb.inl : Emb UP (UP × Counters)).trans
      (embR (nD := nD) (τ := τ) (sig := sig) (Ix := HIx 1) (Val := Elt F) (Name := ℕ) (Lvl := ℕ) (A := UH) (B := UP × Counters))) x) : sProp 𝕄)
      = BI.own ((EP : Emb UP 𝕄) x) := rfl

theorem hu₀ : iprop(ownU (u₀ (F := F)) ∗ (P m (Is0 m) (In0 m)).oxCred ∗ (K (F := F)).freeSems0)
    ⊢ |={Set.univ}=> iprop(BI.own (EH (initOf (K (F := F)).hsCells (K (F := F)).hsToks)) ∗ (bigSep Finset.univ fun d : Dev nD => (Gd d : sProp 𝕄))
        ∗ bigSep Finset.univ fun thr : Thread nD τ => bigSep Finset.univ fun q : Fin 1 => (P m (Is0 m) (In0 m)).x q thr) := by
  unfold u₀
  iintro ⟨Hu, -, -⟩
  ihave H := (ownU_pair _ _) $$ Hu
  icases H with ⟨HH, HR⟩
  ihave HR' := (own_pair_emb (embR (A := UH)) _ _) $$ HR
  icases HR' with ⟨HP, -⟩
  ihave HP' := (Entails.of_eq (own_EP _)) $$ HP
  imod (Pipeline.fund_ghost (Pipeline.pin (pcfgs (F := F)) adm) EP phinj) $$ HP' with ⟨Hcg, Htk⟩
  imodintro
  isplitl [HH]; · iexact HH
  isplitl [Hcg Htk]
  · unfold Gd
    rw [bigSep_sep']
    isplitl [Hcg]
    · iapply (Entails.of_eq (bigSep_congr fun c _ => (bigSep_fin1 _))) $$ Hcg
    · iapply (Entails.of_eq (bigSep_congr fun c _ => (bigSep_fin1 _))) $$ Htk
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What the claim reads off a final memory: the result and the six arguments. -/
def fq (d : Dev nD) (R : Buf (Elt F) ((T d : Thread nD τ).loc main_v7)) (s' : Phys nD τ sig (Elt F)) : Prop :=
  s'.mem.mem ((T d : Thread nD τ).loc main_v8)
      = (shapeCast S1024x1x32x128 (R : FVec F S32768x128 .f32) shapeCasts_S32768x128_S1024x1x32x128 : Buf (Elt F) ((T d : Thread nD τ).loc main_v8))
    ∧ s'.mem.mem ((T d : Thread nD τ).loc main_arg0) = m ((T d : Thread nD τ).loc main_arg0)
    ∧ s'.mem.mem ((T d : Thread nD τ).loc main_arg1) = m ((T d : Thread nD τ).loc main_arg1)
    ∧ s'.mem.mem ((T d : Thread nD τ).loc main_arg2) = m ((T d : Thread nD τ).loc main_arg2)
    ∧ s'.mem.mem ((T d : Thread nD τ).loc main_arg3) = m ((T d : Thread nD τ).loc main_arg3)
    ∧ s'.mem.mem ((T d : Thread nD τ).loc main_arg4) = m ((T d : Thread nD τ).loc main_arg4)
    ∧ s'.mem.mem ((T d : Thread nD τ).loc main_arg5) = m ((T d : Thread nD τ).loc main_arg5)

theorem hfin (d : Dev nD) (R : Buf (Elt F) ((T d : Thread nD τ).loc main_v7)) (s' : Phys nD τ sig (Elt F)) :
    iprop(FINr m d R ∗ SI s') ⊢ (⌜fq m d R s'⌝ : sProp 𝕄) := by
  unfold FINr
  iintro ⟨⟨H8, H0, H1, H2, H3, H4, H5⟩, HSI⟩
  icombine HSI H8 gives %h8
  icombine HSI H0 gives %h0
  icombine HSI H1 gives %h1
  icombine HSI H2 gives %h2
  icombine HSI H3 gives %h3
  icombine HSI H4 gives %h4
  icombine HSI H5 gives %h5
  ipureintro
  exact ⟨Buf.eq_of_forall_mem_univ h8, Buf.eq_of_forall_mem_univ h0, Buf.eq_of_forall_mem_univ h1, Buf.eq_of_forall_mem_univ h2,
    Buf.eq_of_forall_mem_univ h3, Buf.eq_of_forall_mem_univ h4, Buf.eq_of_forall_mem_univ h5⟩

/-- The run's post: on every device the result is the reshape of the region's result array, the arguments unchanged. -/
def QC : PUnit × MemSt nD τ sig (Elt F) → Prop := fun r => ∀ c : Dev nD,
  r.2.mem ((T c : Thread nD τ).loc main_v8)
      = (shapeCast S1024x1x32x128 (res7 m (Is0 m) (In0 m) c : FVec F S32768x128 .f32) shapeCasts_S32768x128_S1024x1x32x128 : Buf (Elt F) ((T c : Thread nD τ).loc main_v8))
    ∧ r.2.mem ((T c : Thread nD τ).loc main_arg0) = m ((T c : Thread nD τ).loc main_arg0)
    ∧ r.2.mem ((T c : Thread nD τ).loc main_arg1) = m ((T c : Thread nD τ).loc main_arg1)
    ∧ r.2.mem ((T c : Thread nD τ).loc main_arg2) = m ((T c : Thread nD τ).loc main_arg2)
    ∧ r.2.mem ((T c : Thread nD τ).loc main_arg3) = m ((T c : Thread nD τ).loc main_arg3)
    ∧ r.2.mem ((T c : Thread nD τ).loc main_arg4) = m ((T c : Thread nD τ).loc main_arg4)
    ∧ r.2.mem ((T c : Thread nD τ).loc main_arg5) = m ((T c : Thread nD τ).loc main_arg5)

/-- The program's run, given the SparseCore kernel's two obligations. -/
theorem run_main (htile : (K (F := F)).TileObl (D (F := F)) 𝒱 (P m (Is0 m) (In0 m)) v₀ 0)
    (hvec : (K (F := F)).VecSplit (P m (Is0 m) (In0 m)) 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (Is0 m) (In0 m)) facts v₀
    (fun q hq => match q with | 0 => nomatch hq)
    (fun q _ => match q with | 0 => htile)
    (fun q _ => match q with | 0 => hvec)
    m ρ main Gd (fun d => FINr m d (res7 m (Is0 m) (In0 m) d)) (u₀ (F := F)) (hu₀ m) (hmain m ρ)
    (fun d => fq m d (res7 m (Is0 m) (In0 m) d)) (fun d s' => hfin m d _ s') (QC m) (fun _ h => h)

end

end Cert.KB

end
-- ==== Proof.MainPreB.lean ====
/-
  The program's run under the precondition. The precondition bounds every word of the adjacency array by 100000; the
  two index lists the SparseCore call reads are rearrangements of that array's words, so their words are bounded too,
  which is what the call's per-subcore obligation asks. The run itself, the per-subcore obligation and the split of
  the call's operands among the subcores enter as hypotheses of the shapes their own modules state.
-/
import proofs.«208587_g27212912787602_cont_9to1_1073_18_alg».proof.Proof.MainSegB
import proofs.«208587_g27212912787602_cont_9to1_1073_18_alg».proof.Proof.MainValB
import proofs.«208587_g27212912787602_cont_9to1_1073_18_alg».proof.Proof.PreFacts
import proofs.«208587_g27212912787602_cont_9to1_1073_18_alg».proof.Proof.Gen.Pre_input_domain

noncomputable section

namespace Cert.KB

open Cert.Kernel Cert.Kernel.Gen
open Idealize.ShloMosaic Idealize.ShloMosaic.ValueIdx
open Idealize.ShloMosaic.SparseCore (S V T)
open Idealize.SL.Sem

variable {F : FTy → Type} [FloatOps F] [∀ e, Nonempty (Elt F e)]

/-- From the run given the call's two obligations, the obligation given the index lists' ranges, and the split: the
    run under the precondition. -/
theorem run_pre_of (post : ((ℓ : Loc nD τ sig) → Buf (Elt F) ℓ) → PUnit × MemSt nD τ sig (Elt F) → Prop)
    (hrun : ∀ (m : (ℓ : Loc nD τ sig) → Buf (Elt F) ℓ) (ρ : Dev nD → PrngReg),
      (K (F := F)).TileObl (D (F := F)) 𝒱 (P m (isOf (m ((T (0 : Dev nD) : Thread nD τ).loc main_arg0))) (inOf (m ((T (0 : Dev nD) : Thread nD τ).loc main_arg0)))) v₀ 0 →
      (K (F := F)).VecSplit (P m (isOf (m ((T (0 : Dev nD) : Thread nD τ).loc main_arg0))) (inOf (m ((T (0 : Dev nD) : Thread nD τ).loc main_arg0)))) 0 →
      θ_run (Cert.Kernel.defs (F := F)) (Cert.Kernel.threads (F := F)) ⟨m, fun _ => 0, ρ⟩ (post m))
    (htile : ∀ (m : (ℓ : Loc nD τ sig) → Buf (Elt F) ℓ) (Is : IVec S256x128 32) (In : IVec S4096x128 32),
      (∀ j, (Is j).toNat ≤ 100000) → (∀ j, (In j).toNat ≤ 100000) → (K (F := F)).TileObl (D (F := F)) 𝒱 (P m Is In) v₀ 0)
    (hvec : ∀ (m : (ℓ : Loc nD τ sig) → Buf (Elt F) ℓ) (Is : IVec S256x128 32) (In : IVec S4096x128 32), (K (F := F)).VecSplit (P m Is In) 0)
    (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) :
    θ_run (Cert.Kernel.defs (F := F)) (Cert.Kernel.threads (F := F)) ⟨m, fun _ => 0, ρ⟩ (post m) :=
  have hadj := Cert.RefSide.adj_le _ _ _ _ _ _ (hpre 0)
  hrun m ρ (htile m _ _ (fun _ => hadj _) (fun _ => hadj _)) (hvec m _ _)

end Cert.KB

end
-- ==== Proof.ReduceFrameB.lean ====
/-
  The two inner reduction loops of a vector subcore, by their footprint.

  The rows scratch is [2, 128, 128] and the sums scratch [2, 8, 128]; slot j of each is its rows at leading index j.
  Trip p of slot j's loop reads rows 16 p … 16 p + 15 of slot j of the rows scratch, sixteen lanes at a time, and
  stores their left-to-right sum into row p of slot j of the sums scratch. A slot is held as the whole scratch less
  the other slot's rows, so that the other slot may meanwhile be lent to a transfer.
-/
import proofs.«208587_g27212912787602_cont_9to1_1073_18_alg».proof.Proof.PayB
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]
variable (d : Dev nD) (L : grid0.Coords)
/- The vector subcore at grid point `L` of device `d`. -/
local notation "thrL" => (V d ((L 0).castLE hcore0) ((L 1).castLE hsub0) : Thread nD τ)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)
local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)

/-- Slot 0's loop invariant when only the footprint matters: the rows scratch less slot 1's rows at its contents,
    the sums scratch less slot 1's rows at some contents. -/
def invF0 (R : Buf (Elt F) ((s2W).view.loc thrL)) (_ : Nat) (_ : Unit) : sProp 𝕄 :=
  iprop(((s2W).view.loc thrL ↦[Finset.univ \ (rows1M).view.set]{fullShare} R)
    ∗ ∃ N', (s3W).view.loc thrL ↦[Finset.univ \ (nbuf1M).view.set]{fullShare} N')

/-- The eight trips of slot 0's reduction read only slot 0's rows and write only slot 0's sums: every load and
    store of a trip lies at leading index 0, so it misses slot 1's rows of either scratch. -/
theorem reduce0F (R : Buf (Elt F) ((s2W).view.loc thrL)) (N : Buf (Elt F) ((s3W).view.loc thrL))
    (v2 c0 c1 : BitVec 32) (k1 : Fin k0_t1_loop.trips) :
    (iprop(((s2W).view.loc thrL ↦[Finset.univ \ (rows1M).view.set]{fullShare} R) ∗ ((s3W).view.loc thrL ↦[Finset.univ \ (nbuf1M).view.set]{fullShare} N)) : sProp 𝕄)
      ⊢ wp frame (wpE (defs₀ (F := F)) 𝒱₀ thrL none) Set.univ
          (Scf.Loop.for k0_t2_loop k0_t2_ok ⟨⟩ (k0_t2_body L embW (Memref.isWhole_whole _) inW (Memref.isWhole_whole _) isW (Memref.isWhole_whole _) soW (Memref.isWhole_whole _) noW (Memref.isWhole_whole _)
            s0W (Memref.isWhole_whole _) s1W (Memref.isWhole_whole _) s2W (Memref.isWhole_whole _) s3W (Memref.isWhole_whole _) s4W (Memref.isWhole_whole _)
            cc0_scratch5 cc0_scratch6 cc0_scratch7 cc0_scratch8 cc0_scoped0 cc0_scoped1 v2 c0 c1 k1))
          fun _ => iprop(((s2W).view.loc thrL ↦[Finset.univ \ (rows1M).view.set]{fullShare} R)
            ∗ ∃ N', (s3W).view.loc thrL ↦[Finset.univ \ (nbuf1M).view.set]{fullShare} N') := by
  iintro ⟨HR, HN⟩
  sl_for (invF0 d L R) $$ [HR HN]
  case region =>
    intro k _
    unfold invF0
    iintro ⟨HR, %N', HN⟩
    sl_exec_parts
    sl_step
    isplitl [HR]; · iexact HR
    iexists _; iexact HN
  isplitl [HR HN]
  · unfold invF0
    isplitl [HR]; · iexact HR
    iexists _; iexact HN
  iintro %_ HI
  unfold invF0
  iexact HI

/-- Slot 1's loop invariant when only the footprint matters: the rows scratch less slot 0's rows at its contents,
    the sums scratch less slot 0's rows at some contents. -/
def invF1 (R : Buf (Elt F) ((s2W).view.loc thrL)) (_ : Nat) (_ : Unit) : sProp 𝕄 :=
  iprop(((s2W).view.loc thrL ↦[Finset.univ \ (rows0M).view.set]{fullShare} R)
    ∗ ∃ N', (s3W).view.loc thrL ↦[Finset.univ \ (nbuf0M).view.set]{fullShare} N')

/-- The eight trips of slot 1's reduction read only slot 1's rows and write only slot 1's sums: every load and
    store of a trip lies at leading index 1, so it misses slot 0's rows of either scratch. -/
theorem reduce1F (R : Buf (Elt F) ((s2W).view.loc thrL)) (N : Buf (Elt F) ((s3W).view.loc thrL))
    (v2 : BitVec 32) (k1 : Fin k0_t1_loop.trips) (a16 v52 : BitVec 32) :
    (iprop(((s2W).view.loc thrL ↦[Finset.univ \ (rows0M).view.set]{fullShare} R) ∗ ((s3W).view.loc thrL ↦[Finset.univ \ (nbuf0M).view.set]{fullShare} N)) : sProp 𝕄)
      ⊢ wp frame (wpE (defs₀ (F := F)) 𝒱₀ thrL none) Set.univ
          (Scf.Loop.for k0_t3_loop k0_t3_ok ⟨⟩ (k0_t3_body L embW (Memref.isWhole_whole _) inW (Memref.isWhole_whole _) isW (Memref.isWhole_whole _) soW (Memref.isWhole_whole _) noW (Memref.isWhole_whole _)
            s0W (Memref.isWhole_whole _) s1W (Memref.isWhole_whole _) s2W (Memref.isWhole_whole _) s3W (Memref.isWhole_whole _) s4W (Memref.isWhole_whole _)
            cc0_scratch5 cc0_scratch6 cc0_scratch7 cc0_scratch8 cc0_scoped0 cc0_scoped1 v2 k1 a16 v52))
          fun _ => iprop(((s2W).view.loc thrL ↦[Finset.univ \ (rows0M).view.set]{fullShare} R)
            ∗ ∃ N', (s3W).view.loc thrL ↦[Finset.univ \ (nbuf0M).view.set]{fullShare} N') := by
  iintro ⟨HR, HN⟩
  sl_for (invF1 d L R) $$ [HR HN]
  case region =>
    intro k _
    unfold invF1
    iintro ⟨HR, %N', HN⟩
    sl_exec_parts
    sl_step
    isplitl [HR]; · iexact HR
    iexists _; iexact HN
  isplitl [HR HN]
  · unfold invF1
    isplitl [HR]; · iexact HR
    iexists _; iexact HN
  iintro %_ HI
  unfold invF1
  iexact HI

end Cert.KB
end
-- ==== Proof.HalvesB.lean ====
/-
  The two slots of each scratch are complementary.

  The rows scratch [2, 128, 128] and the sums scratch [2, 8, 128] are each cut by their leading index into slot 0 and
  slot 1. An index lies in one slot exactly when it does not lie in the other, so the elements under one slot are the
  whole scratch less the elements under the other.
-/
import proofs.«208587_g27212912787602_cont_9to1_1073_18_alg».proof.Proof.PayB
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]
variable (d : Dev nD) (L : grid0.Coords)
/- The vector subcore at grid point `L` of device `d`. -/
local notation "thrL" => (V d ((L 0).castLE hcore0) ((L 1).castLE hsub0) : Thread nD τ)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)
local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)

omit [FloatOps F] in
theorem rows0_eq : ((rows0M).view.set : Finset (Idx ((s2W).view.loc thrL))) = Finset.univ \ (rows1M).view.set := by
  rw [Memref.set_view_squeeze, Memref.set_view_squeeze]
  show ((View.whole cc0_scratch2).slice (Rect.unit (s := S2x128x128) ![0, 0, 0] S1x128x128.size Facts₀.inb_S2x128x128_S1x128x128_0_0_0)).set
      = Finset.univ \ ((View.whole cc0_scratch2).slice (Rect.unit (s := S2x128x128) ![1, 0, 0] S1x128x128.size Facts₀.inb_S2x128x128_S1x128x128_1_0_0)).set
  rw [View.set_slice_whole, View.set_slice_whole]
  ext i
  simp only [Finset.mem_sdiff, Finset.mem_univ, true_and, Rect.mem_set_unit]
  show (∀ a : Fin 3, (![0, 0, 0] : Fin 3 → Nat) a ≤ (i a : Nat) ∧ (i a : Nat) < (![0, 0, 0] : Fin 3 → Nat) a + (![1, 128, 128] : Fin 3 → Nat) a)
      ↔ ¬ ∀ a : Fin 3, (![1, 0, 0] : Fin 3 → Nat) a ≤ (i a : Nat) ∧ (i a : Nat) < (![1, 0, 0] : Fin 3 → Nat) a + (![1, 128, 128] : Fin 3 → Nat) a
  have h0 : (i 0 : Nat) < 2 := (i 0).isLt
  have h1 : (i 1 : Nat) < 128 := (i 1).isLt
  have h2 : (i 2 : Nat) < 128 := (i 2).isLt
  rw [Fin.forall_fin_succ, Fin.forall_fin_succ, Fin.forall_fin_succ, Fin.forall_fin_succ, Fin.forall_fin_succ, Fin.forall_fin_succ]
  simp only [IsEmpty.forall_iff, and_true, Matrix.cons_val_zero, Matrix.cons_val_succ, Matrix.cons_val_one, Matrix.cons_val_two,
    Matrix.head_cons, Matrix.tail_cons, Fin.succ_zero_eq_one, Fin.succ_one_eq_two]
  omega

omit [FloatOps F] in
theorem rows1_eq : ((rows1M).view.set : Finset (Idx ((s2W).view.loc thrL))) = Finset.univ \ (rows0M).view.set := by
  rw [Memref.set_view_squeeze, Memref.set_view_squeeze]
  show ((View.whole cc0_scratch2).slice (Rect.unit (s := S2x128x128) ![1, 0, 0] S1x128x128.size Facts₀.inb_S2x128x128_S1x128x128_1_0_0)).set
      = Finset.univ \ ((View.whole cc0_scratch2).slice (Rect.unit (s := S2x128x128) ![0, 0, 0] S1x128x128.size Facts₀.inb_S2x128x128_S1x128x128_0_0_0)).set
  rw [View.set_slice_whole, View.set_slice_whole]
  ext i
  simp only [Finset.mem_sdiff, Finset.mem_univ, true_and, Rect.mem_set_unit]
  show (∀ a : Fin 3, (![1, 0, 0] : Fin 3 → Nat) a ≤ (i a : Nat) ∧ (i a : Nat) < (![1, 0, 0] : Fin 3 → Nat) a + (![1, 128, 128] : Fin 3 → Nat) a)
      ↔ ¬ ∀ a : Fin 3, (![0, 0, 0] : Fin 3 → Nat) a ≤ (i a : Nat) ∧ (i a : Nat) < (![0, 0, 0] : Fin 3 → Nat) a + (![1, 128, 128] : Fin 3 → Nat) a
  have h0 : (i 0 : Nat) < 2 := (i 0).isLt
  have h1 : (i 1 : Nat) < 128 := (i 1).isLt
  have h2 : (i 2 : Nat) < 128 := (i 2).isLt
  rw [Fin.forall_fin_succ, Fin.forall_fin_succ, Fin.forall_fin_succ, Fin.forall_fin_succ, Fin.forall_fin_succ, Fin.forall_fin_succ]
  simp only [IsEmpty.forall_iff, and_true, Matrix.cons_val_zero, Matrix.cons_val_succ, Matrix.cons_val_one, Matrix.cons_val_two,
    Matrix.head_cons, Matrix.tail_cons, Fin.succ_zero_eq_one, Fin.succ_one_eq_two]
  omega

omit [FloatOps F] in
theorem nbuf0_eq : ((nbuf0M).view.set : Finset (Idx ((s3W).view.loc thrL))) = Finset.univ \ (nbuf1M).view.set := by
  rw [Memref.set_view_squeeze, Memref.set_view_squeeze]
  show ((View.whole cc0_scratch3).slice (Rect.unit (s := S2x8x128) ![0, 0, 0] S1x8x128.size Facts₀.inb_S2x8x128_S1x8x128_0_0_0)).set
      = Finset.univ \ ((View.whole cc0_scratch3).slice (Rect.unit (s := S2x8x128) ![1, 0, 0] S1x8x128.size Facts₀.inb_S2x8x128_S1x8x128_1_0_0)).set
  rw [View.set_slice_whole, View.set_slice_whole]
  ext i
  simp only [Finset.mem_sdiff, Finset.mem_univ, true_and, Rect.mem_set_unit]
  show (∀ a : Fin 3, (![0, 0, 0] : Fin 3 → Nat) a ≤ (i a : Nat) ∧ (i a : Nat) < (![0, 0, 0] : Fin 3 → Nat) a + (![1, 8, 128] : Fin 3 → Nat) a)
      ↔ ¬ ∀ a : Fin 3, (![1, 0, 0] : Fin 3 → Nat) a ≤ (i a : Nat) ∧ (i a : Nat) < (![1, 0, 0] : Fin 3 → Nat) a + (![1, 8, 128] : Fin 3 → Nat) a
  have h0 : (i 0 : Nat) < 2 := (i 0).isLt
  have h1 : (i 1 : Nat) < 8 := (i 1).isLt
  have h2 : (i 2 : Nat) < 128 := (i 2).isLt
  rw [Fin.forall_fin_succ, Fin.forall_fin_succ, Fin.forall_fin_succ, Fin.forall_fin_succ, Fin.forall_fin_succ, Fin.forall_fin_succ]
  simp only [IsEmpty.forall_iff, and_true, Matrix.cons_val_zero, Matrix.cons_val_succ, Matrix.cons_val_one, Matrix.cons_val_two,
    Matrix.head_cons, Matrix.tail_cons, Fin.succ_zero_eq_one, Fin.succ_one_eq_two]
  omega

omit [FloatOps F] in
theorem nbuf1_eq : ((nbuf1M).view.set : Finset (Idx ((s3W).view.loc thrL))) = Finset.univ \ (nbuf0M).view.set := by
  rw [Memref.set_view_squeeze, Memref.set_view_squeeze]
  show ((View.whole cc0_scratch3).slice (Rect.unit (s := S2x8x128) ![1, 0, 0] S1x8x128.size Facts₀.inb_S2x8x128_S1x8x128_1_0_0)).set
      = Finset.univ \ ((View.whole cc0_scratch3).slice (Rect.unit (s := S2x8x128) ![0, 0, 0] S1x8x128.size Facts₀.inb_S2x8x128_S1x8x128_0_0_0)).set
  rw [View.set_slice_whole, View.set_slice_whole]
  ext i
  simp only [Finset.mem_sdiff, Finset.mem_univ, true_and, Rect.mem_set_unit]
  show (∀ a : Fin 3, (![1, 0, 0] : Fin 3 → Nat) a ≤ (i a : Nat) ∧ (i a : Nat) < (![1, 0, 0] : Fin 3 → Nat) a + (![1, 8, 128] : Fin 3 → Nat) a)
      ↔ ¬ ∀ a : Fin 3, (![0, 0, 0] : Fin 3 → Nat) a ≤ (i a : Nat) ∧ (i a : Nat) < (![0, 0, 0] : Fin 3 → Nat) a + (![1, 8, 128] : Fin 3 → Nat) a
  have h0 : (i 0 : Nat) < 2 := (i 0).isLt
  have h1 : (i 1 : Nat) < 8 := (i 1).isLt
  have h2 : (i 2 : Nat) < 128 := (i 2).isLt
  rw [Fin.forall_fin_succ, Fin.forall_fin_succ, Fin.forall_fin_succ, Fin.forall_fin_succ, Fin.forall_fin_succ, Fin.forall_fin_succ]
  simp only [IsEmpty.forall_iff, and_true, Matrix.cons_val_zero, Matrix.cons_val_succ, Matrix.cons_val_one, Matrix.cons_val_two,
    Matrix.head_cons, Matrix.tail_cons, Fin.succ_zero_eq_one, Fin.succ_one_eq_two]
  omega

end Cert.KB
end
-- ==== Proof.GeomB.lean ====
/-
  Rows of the two result arrays: which rows a window of 8 or 128 rows covers, which rows a worker owns, and when two
  such sets of rows are apart.

  Both result arrays have 32768 rows of 128 columns. A window is a unit-stride rectangle of 8 (or 128) whole rows
  starting at row off 0; element y lies in it exactly when off 0 ≤ y 0 < off 0 + 8 (or + 128). Worker w = 2 s + c owns
  the 1024 rows from 1024 w = 2048 s + 1024 c. Two windows whose row ranges do not meet are disjoint, and a window
  inside a worker's rows is disjoint from everything outside those rows. The program's own windows of the neighbour
  array start at row 2048 s + 1024 c + 16 k (first slot) and + 16 k + 8 (second slot) for the pair number k < 64: chunk
  2 k and chunk 2 k + 1 of the worker's 128 chunks of eight rows, so all of them lie inside the worker's rows and any
  two of different chunk numbers are apart.
-/
import proofs.«208587_g27212912787602_cont_9to1_1073_18_alg».proof.Proof.PayB

set_option quotPrecheck false

noncomputable section

namespace Cert.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)

/-! ## Membership -/

/-- An eight-row window of the neighbour result. -/
theorem mem_win8 (off : Fin 2 → Nat) (inb : ∀ a, off a + S8x128.size a ≤ S32768x128.size a) (h1 : off 1 = 0)
    (y : S32768x128.Idx) :
    y ∈ ((noW).slice (Rect.unit (s := S32768x128) off S8x128.size inb) (fun _ => rfl)).view.set
      ↔ off 0 ≤ (y 0).val ∧ (y 0).val < off 0 + 8 := by
  have e : ((noW).slice (Rect.unit (s := S32768x128) off S8x128.size inb) (fun _ => rfl)).view.set
      = (Rect.unit (s := S32768x128) off S8x128.size inb).set := View.set_slice_whole _ _
  rw [e, Rect.mem_set_unit]
  constructor
  · intro h; exact h 0
  · intro h a
    match a with
    | ⟨0, _⟩ => exact h
    | ⟨1, _⟩ =>
      have hy : (y 1).val < 128 := (y 1).isLt
      show off 1 ≤ (y 1).val ∧ (y 1).val < off 1 + 128
      omega

/-- A 128-row window of the own result. -/
theorem mem_win128 (off : Fin 2 → Nat) (inb : ∀ a, off a + S128x128.size a ≤ S32768x128.size a) (h1 : off 1 = 0)
    (y : S32768x128.Idx) :
    y ∈ ((soW).slice (Rect.unit (s := S32768x128) off S128x128.size inb) (fun _ => rfl)).view.set
      ↔ off 0 ≤ (y 0).val ∧ (y 0).val < off 0 + 128 := by
  have e : ((soW).slice (Rect.unit (s := S32768x128) off S128x128.size inb) (fun _ => rfl)).view.set
      = (Rect.unit (s := S32768x128) off S128x128.size inb).set := View.set_slice_whole _ _
  rw [e, Rect.mem_set_unit]
  constructor
  · intro h; exact h 0
  · intro h a
    match a with
    | ⟨0, _⟩ => exact h
    | ⟨1, _⟩ =>
      have hy : (y 1).val < 128 := (y 1).isLt
      show off 1 ≤ (y 1).val ∧ (y 1).val < off 1 + 128
      omega

/-- The rows of worker 2 s + c. -/
theorem mem_wRowSet (c : Fin 2) (s : Fin 16) (y : S32768x128.Idx) :
    y ∈ wRowSet (wOf c s)
      ↔ 2048 * s.val + 1024 * c.val ≤ (y 0).val ∧ (y 0).val < 2048 * s.val + 1024 * c.val + 1024 := by
  show y ∈ (Rect.unit (s := S32768x128) _ _ _).set ↔ _
  rw [Rect.mem_set_unit]
  constructor
  · intro h
    have h0 := h 0
    change (s.val * 2 + c.val) * 1024 ≤ (y 0).val ∧ (y 0).val < (s.val * 2 + c.val) * 1024 + 1024 at h0
    omega
  · intro h a
    match a with
    | ⟨0, _⟩ =>
      show (s.val * 2 + c.val) * 1024 ≤ (y 0).val ∧ (y 0).val < (s.val * 2 + c.val) * 1024 + 1024
      omega
    | ⟨1, _⟩ =>
      have hy : (y 1).val < 128 := (y 1).isLt
      show 0 * 128 ≤ (y 1).val ∧ (y 1).val < 0 * 128 + 128
      omega

/-! ## Windows apart -/

/-- An eight-row window inside a worker's rows misses everything outside them. -/
theorem win8_disj_others (c : Fin 2) (s : Fin 16) (off : Fin 2 → Nat)
    (inb : ∀ a, off a + S8x128.size a ≤ S32768x128.size a) (h1 : off 1 = 0)
    (hlo : 2048 * s.val + 1024 * c.val ≤ off 0) (hhi : off 0 + 8 ≤ 2048 * s.val + 1024 * c.val + 1024) :
    Disjoint ((noW).slice (Rect.unit (s := S32768x128) off S8x128.size inb) (fun _ => rfl)).view.set
      (Finset.univ \ wRowSet (wOf c s)) := by
  rw [Finset.disjoint_left]
  intro y hy hy'
  have h := (mem_win8 off inb h1 y).mp hy
  exact (Finset.mem_sdiff.mp hy').2 ((mem_wRowSet c s y).mpr (by omega))

/-- A 128-row window inside a worker's rows misses everything outside them. -/
theorem win128_disj_others (c : Fin 2) (s : Fin 16) (off : Fin 2 → Nat)
    (inb : ∀ a, off a + S128x128.size a ≤ S32768x128.size a) (h1 : off 1 = 0)
    (hlo : 2048 * s.val + 1024 * c.val ≤ off 0) (hhi : off 0 + 128 ≤ 2048 * s.val + 1024 * c.val + 1024) :
    Disjoint ((soW).slice (Rect.unit (s := S32768x128) off S128x128.size inb) (fun _ => rfl)).view.set
      (Finset.univ \ wRowSet (wOf c s)) := by
  rw [Finset.disjoint_left]
  intro y hy hy'
  have h := (mem_win128 off inb h1 y).mp hy
  exact (Finset.mem_sdiff.mp hy').2 ((mem_wRowSet c s y).mpr (by omega))

/-- An eight-row window inside a worker's rows is among them. -/
theorem win8_subset (c : Fin 2) (s : Fin 16) (off : Fin 2 → Nat)
    (inb : ∀ a, off a + S8x128.size a ≤ S32768x128.size a) (h1 : off 1 = 0)
    (hlo : 2048 * s.val + 1024 * c.val ≤ off 0) (hhi : off 0 + 8 ≤ 2048 * s.val + 1024 * c.val + 1024) :
    ((noW).slice (Rect.unit (s := S32768x128) off S8x128.size inb) (fun _ => rfl)).view.set ⊆ wRowSet (wOf c s) := by
  intro y hy
  have h := (mem_win8 off inb h1 y).mp hy
  exact (mem_wRowSet c s y).mpr (by omega)

/-- A 128-row window inside a worker's rows is among them. -/
theorem win128_subset (c : Fin 2) (s : Fin 16) (off : Fin 2 → Nat)
    (inb : ∀ a, off a + S128x128.size a ≤ S32768x128.size a) (h1 : off 1 = 0)
    (hlo : 2048 * s.val + 1024 * c.val ≤ off 0) (hhi : off 0 + 128 ≤ 2048 * s.val + 1024 * c.val + 1024) :
    ((soW).slice (Rect.unit (s := S32768x128) off S128x128.size inb) (fun _ => rfl)).view.set ⊆ wRowSet (wOf c s) := by
  intro y hy
  have h := (mem_win128 off inb h1 y).mp hy
  exact (mem_wRowSet c s y).mpr (by omega)

/-- Two eight-row windows whose row ranges do not meet. -/
theorem win8_disj (off off' : Fin 2 → Nat) (inb : ∀ a, off a + S8x128.size a ≤ S32768x128.size a)
    (inb' : ∀ a, off' a + S8x128.size a ≤ S32768x128.size a) (h : off 0 + 8 ≤ off' 0 ∨ off' 0 + 8 ≤ off 0) :
    Disjoint ((noW).slice (Rect.unit (s := S32768x128) off S8x128.size inb) (fun _ => rfl)).view.set
      ((noW).slice (Rect.unit (s := S32768x128) off' S8x128.size inb') (fun _ => rfl)).view.set := by
  have e : ((noW).slice (Rect.unit (s := S32768x128) off S8x128.size inb) (fun _ => rfl)).view.set
      = (Rect.unit (s := S32768x128) off S8x128.size inb).set := View.set_slice_whole _ _
  have e' : ((noW).slice (Rect.unit (s := S32768x128) off' S8x128.size inb') (fun _ => rfl)).view.set
      = (Rect.unit (s := S32768x128) off' S8x128.size inb').set := View.set_slice_whole _ _
  rw [e, e']
  exact Rect.unit_disjoint (0 : Fin 2) h

/-- Two 128-row windows whose row ranges do not meet. -/
theorem win128_disj (off off' : Fin 2 → Nat) (inb : ∀ a, off a + S128x128.size a ≤ S32768x128.size a)
    (inb' : ∀ a, off' a + S128x128.size a ≤ S32768x128.size a) (h : off 0 + 128 ≤ off' 0 ∨ off' 0 + 128 ≤ off 0) :
    Disjoint ((soW).slice (Rect.unit (s := S32768x128) off S128x128.size inb) (fun _ => rfl)).view.set
      ((soW).slice (Rect.unit (s := S32768x128) off' S128x128.size inb') (fun _ => rfl)).view.set := by
  have e : ((soW).slice (Rect.unit (s := S32768x128) off S128x128.size inb) (fun _ => rfl)).view.set
      = (Rect.unit (s := S32768x128) off S128x128.size inb).set := View.set_slice_whole _ _
  have e' : ((soW).slice (Rect.unit (s := S32768x128) off' S128x128.size inb') (fun _ => rfl)).view.set
      = (Rect.unit (s := S32768x128) off' S128x128.size inb').set := View.set_slice_whole _ _
  rw [e, e']
  exact Rect.unit_disjoint (0 : Fin 2) h

/-! ## The program's own windows of the neighbour result -/

/-- The SparseCore and the subcore of a grid point. -/
abbrev cL (L : grid0.Coords) : Fin 2 := Fin.cast rfl (L 0)
abbrev sL (L : grid0.Coords) : Fin 16 := Fin.cast rfl (L 1)

theorem off32_0 (L : grid0.Coords) (k : Fin k0_t1_loop.trips) :
    k0_off32 L k 0 = 2048 * (L 1).val + 1024 * (L 0).val + 16 * k.val := by rw [k0_off32_eq]; rfl
theorem off32_1 (L : grid0.Coords) (k : Fin k0_t1_loop.trips) : k0_off32 L k 1 = 0 := by rw [k0_off32_eq]; rfl
theorem off60_0 (L : grid0.Coords) (k : Fin k0_t1_loop.trips) :
    k0_off60 L k 0 = 2048 * (L 1).val + 1024 * (L 0).val + 16 * k.val + 8 := by rw [k0_off60_eq]; rfl
theorem off60_1 (L : grid0.Coords) (k : Fin k0_t1_loop.trips) : k0_off60 L k 1 = 0 := by rw [k0_off60_eq]; rfl
theorem off7_0 (L : grid0.Coords) : k0_off7 L 0 = 2048 * (L 1).val + 1024 * (L 0).val := by rw [k0_off7_eq]; rfl
theorem off7_1 (L : grid0.Coords) : k0_off7 L 1 = 0 := by rw [k0_off7_eq]; rfl
theorem off35_0 (L : grid0.Coords) : k0_off35 L 0 = 2048 * (L 1).val + 1024 * (L 0).val := by rw [k0_off35_eq]; rfl
theorem off35_1 (L : grid0.Coords) : k0_off35 L 1 = 0 := by rw [k0_off35_eq]; rfl
theorem off62_0 (L : grid0.Coords) : k0_off62 L 0 = 2048 * (L 1).val + 1024 * (L 0).val := by rw [k0_off62_eq]; rfl
theorem off62_1 (L : grid0.Coords) : k0_off62 L 1 = 0 := by rw [k0_off62_eq]; rfl

theorem trips_lt (k : Fin k0_t1_loop.trips) : k.val < 64 := by
  have h : k0_t1_loop.trips = 64 := by decide
  have := k.isLt
  omega

/-- The first slot's window of pair k lies in the worker's rows: it misses everything outside them, -/
theorem off32_disj_others (L : grid0.Coords) (k : Fin k0_t1_loop.trips) :
    Disjoint ((noW).slice (Rect.unit (s := S32768x128) (k0_off32 L k) S8x128.size (k0_off32_inb L k)) (fun _ => rfl)).view.set
      (Finset.univ \ wRowSet (wOf (cL L) (sL L))) := by
  have hk := trips_lt k
  refine win8_disj_others (cL L) (sL L) _ _ (off32_1 L k) ?_ ?_
  · rw [off32_0]; show 2048 * (L 1).val + 1024 * (L 0).val ≤ _; omega
  · rw [off32_0]; show _ ≤ 2048 * (L 1).val + 1024 * (L 0).val + 1024; omega

/-- and is among them. -/
theorem off32_subset (L : grid0.Coords) (k : Fin k0_t1_loop.trips) :
    ((noW).slice (Rect.unit (s := S32768x128) (k0_off32 L k) S8x128.size (k0_off32_inb L k)) (fun _ => rfl)).view.set
      ⊆ wRowSet (wOf (cL L) (sL L)) := by
  have hk := trips_lt k
  refine win8_subset (cL L) (sL L) _ _ (off32_1 L k) ?_ ?_
  · rw [off32_0]; show 2048 * (L 1).val + 1024 * (L 0).val ≤ _; omega
  · rw [off32_0]; show _ ≤ 2048 * (L 1).val + 1024 * (L 0).val + 1024; omega

/-- The second slot's window of pair k likewise. -/
theorem off60_disj_others (L : grid0.Coords) (k : Fin k0_t1_loop.trips) :
    Disjoint ((noW).slice (Rect.unit (s := S32768x128) (k0_off60 L k) S8x128.size (k0_off60_inb L k)) (fun _ => rfl)).view.set
      (Finset.univ \ wRowSet (wOf (cL L) (sL L))) := by
  have hk := trips_lt k
  refine win8_disj_others (cL L) (sL L) _ _ (off60_1 L k) ?_ ?_
  · rw [off60_0]; show 2048 * (L 1).val + 1024 * (L 0).val ≤ _; omega
  · rw [off60_0]; show _ ≤ 2048 * (L 1).val + 1024 * (L 0).val + 1024; omega

theorem off60_subset (L : grid0.Coords) (k : Fin k0_t1_loop.trips) :
    ((noW).slice (Rect.unit (s := S32768x128) (k0_off60 L k) S8x128.size (k0_off60_inb L k)) (fun _ => rfl)).view.set
      ⊆ wRowSet (wOf (cL L) (sL L)) := by
  have hk := trips_lt k
  refine win8_subset (cL L) (sL L) _ _ (off60_1 L k) ?_ ?_
  · rw [off60_0]; show 2048 * (L 1).val + 1024 * (L 0).val ≤ _; omega
  · rw [off60_0]; show _ ≤ 2048 * (L 1).val + 1024 * (L 0).val + 1024; omega

/-- First-slot windows of different pairs are apart. -/
theorem off32_off32_disj (L : grid0.Coords) (k k' : Fin k0_t1_loop.trips) (h : k.val ≠ k'.val) :
    Disjoint ((noW).slice (Rect.unit (s := S32768x128) (k0_off32 L k) S8x128.size (k0_off32_inb L k)) (fun _ => rfl)).view.set
      ((noW).slice (Rect.unit (s := S32768x128) (k0_off32 L k') S8x128.size (k0_off32_inb L k')) (fun _ => rfl)).view.set := by
  refine win8_disj _ _ _ _ ?_
  rw [off32_0, off32_0]; omega

/-- Second-slot windows of different pairs are apart. -/
theorem off60_off60_disj (L : grid0.Coords) (k k' : Fin k0_t1_loop.trips) (h : k.val ≠ k'.val) :
    Disjoint ((noW).slice (Rect.unit (s := S32768x128) (k0_off60 L k) S8x128.size (k0_off60_inb L k)) (fun _ => rfl)).view.set
      ((noW).slice (Rect.unit (s := S32768x128) (k0_off60 L k') S8x128.size (k0_off60_inb L k')) (fun _ => rfl)).view.set := by
  refine win8_disj _ _ _ _ ?_
  rw [off60_0, off60_0]; omega

/-- A first-slot window and a second-slot window are always apart: an even and an odd chunk. -/
theorem off32_off60_disj (L : grid0.Coords) (k k' : Fin k0_t1_loop.trips) :
    Disjoint ((noW).slice (Rect.unit (s := S32768x128) (k0_off32 L k) S8x128.size (k0_off32_inb L k)) (fun _ => rfl)).view.set
      ((noW).slice (Rect.unit (s := S32768x128) (k0_off60 L k') S8x128.size (k0_off60_inb L k')) (fun _ => rfl)).view.set := by
  refine win8_disj _ _ _ _ ?_
  rw [off32_0, off60_0]; omega

theorem off60_off32_disj (L : grid0.Coords) (k k' : Fin k0_t1_loop.trips) :
    Disjoint ((noW).slice (Rect.unit (s := S32768x128) (k0_off60 L k) S8x128.size (k0_off60_inb L k)) (fun _ => rfl)).view.set
      ((noW).slice (Rect.unit (s := S32768x128) (k0_off32 L k') S8x128.size (k0_off32_inb L k')) (fun _ => rfl)).view.set :=
  (off32_off60_disj L k' k).symm

end Cert.KB

end
-- ==== Proof.GeomOpsB.lean ====
/-
  Putting a returned window back, and what a write through a window changes.

  A window I of a set S of elements, held at contents f, and the rest of S (less a further set J still lent out) held
  at contents g, join to S less J at the contents that are f on I and g elsewhere. A write of a payload through an
  8-row (or 128-row) window of a result array changes exactly the window's elements: off the window the contents stay,
  and the element under window index x — row off 0 + x 0, column x 1 — takes the payload at x.
-/
import proofs.«208587_g27212912787602_cont_9to1_1073_18_alg».proof.Proof.PayB

set_option quotPrecheck false

noncomputable section

namespace Cert.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)

/-! ## Joining a returned window -/

section Join
variable {ℓ : Loc nD τ sig} {I J S : Finset (Idx ℓ)} {f g : Buf (Elt F) ℓ} {q : PosShare TreeShare}

/-- A window and the rest of its set. -/
theorem join_plain (hI : I ⊆ S) :
    iprop((ℓ ↦[I]{q} f) ∗ (ℓ ↦[S \ I]{q} g)) ⊢ (ℓ ↦[S]{q} (I.piecewise f g) : sProp 𝕄) :=
  pointsTo_join_subset hI

/-- A window and the rest of its set less a further lent set, the window cut out first. -/
theorem join_hole (hI : I ⊆ S) (hIJ : Disjoint I J) :
    iprop((ℓ ↦[I]{q} f) ∗ (ℓ ↦[(S \ I) \ J]{q} g)) ⊢ (ℓ ↦[S \ J]{q} (I.piecewise f g) : sProp 𝕄) := by
  have h : I ⊆ S \ J := fun i hi => Finset.mem_sdiff.mpr ⟨hI hi, Finset.disjoint_left.mp hIJ hi⟩
  rw [sdiff_sdiff_comm]
  exact pointsTo_join_subset h

/-- The same with the lent set cut out first. -/
theorem join_hole' (hI : I ⊆ S) (hIJ : Disjoint I J) :
    iprop((ℓ ↦[I]{q} f) ∗ (ℓ ↦[(S \ J) \ I]{q} g)) ⊢ (ℓ ↦[S \ J]{q} (I.piecewise f g) : sProp 𝕄) :=
  pointsTo_join_subset fun i hi => Finset.mem_sdiff.mpr ⟨hI hi, Finset.disjoint_left.mp hIJ hi⟩

end Join

/-! ## A write through a window -/

/-- Off an eight-row window of the neighbour result a write through it changes nothing. -/
theorem win8_write_off (off : Fin 2 → Nat) (inb : ∀ a, off a + S8x128.size a ≤ S32768x128.size a)
    (g : ((noW).slice (Rect.unit (s := S32768x128) off S8x128.size inb) (fun _ => rfl)).view.ty.Contents (Elt F))
    (w : (Rect.unit (s := S32768x128) off S8x128.size inb).shape.Idx → Elt F .f32)
    (y : ((noW).slice (Rect.unit (s := S32768x128) off S8x128.size inb) (fun _ => rfl)).view.ty.Idx)
    (hy : y ∉ ((noW).slice (Rect.unit (s := S32768x128) off S8x128.size inb) (fun _ => rfl)).view.set) :
    ((noW).slice (Rect.unit (s := S32768x128) off S8x128.size inb) (fun _ => rfl)).view.write (Elt F) g w Finset.univ y = g y :=
  View.write_of_not_mem g w Finset.univ hy

/-- Under window index x the write leaves the payload at x. -/
theorem win8_write_emb (off : Fin 2 → Nat) (inb : ∀ a, off a + S8x128.size a ≤ S32768x128.size a)
    (g : ((noW).slice (Rect.unit (s := S32768x128) off S8x128.size inb) (fun _ => rfl)).view.ty.Contents (Elt F))
    (w : (Rect.unit (s := S32768x128) off S8x128.size inb).shape.Idx → Elt F .f32)
    (x : (Rect.unit (s := S32768x128) off S8x128.size inb).shape.Idx) :
    ((noW).slice (Rect.unit (s := S32768x128) off S8x128.size inb) (fun _ => rfl)).view.write (Elt F) g w Finset.univ
        (((noW).slice (Rect.unit (s := S32768x128) off S8x128.size inb) (fun _ => rfl)).view.emb x) = w x := by
  rw [View.write_emb_of_mem g w (Finset.mem_univ x)]
  rfl

/-- The element under window index x: row off 0 + x 0, column x 1. -/
theorem win8_emb (off : Fin 2 → Nat) (inb : ∀ a, off a + S8x128.size a ≤ S32768x128.size a) (h1 : off 1 = 0)
    (x : (Rect.unit (s := S32768x128) off S8x128.size inb).shape.Idx) :
    (((noW).slice (Rect.unit (s := S32768x128) off S8x128.size inb) (fun _ => rfl)).view.emb x : S32768x128.Idx)
      = ix2 (⟨off 0 + (x 0).val, by have h := inb 0; have hx : (x 0).val < 8 := (x 0).isLt; change off 0 + 8 ≤ 32768 at h; omega⟩ : Fin 32768)
          (⟨(x 1).val, (x 1).isLt⟩ : Fin 128) := by
  funext a
  refine Fin.ext ?_
  match a with
  | ⟨0, _⟩ => show off 0 + 1 * (x 0).val = off 0 + (x 0).val; omega
  | ⟨1, _⟩ => show off 1 + 1 * (x 1).val = (x 1).val; omega

/-- The 128-row twins for the own result. -/
theorem win128_write_off (off : Fin 2 → Nat) (inb : ∀ a, off a + S128x128.size a ≤ S32768x128.size a)
    (g : ((soW).slice (Rect.unit (s := S32768x128) off S128x128.size inb) (fun _ => rfl)).view.ty.Contents (Elt F))
    (w : (Rect.unit (s := S32768x128) off S128x128.size inb).shape.Idx → Elt F .f32)
    (y : ((soW).slice (Rect.unit (s := S32768x128) off S128x128.size inb) (fun _ => rfl)).view.ty.Idx)
    (hy : y ∉ ((soW).slice (Rect.unit (s := S32768x128) off S128x128.size inb) (fun _ => rfl)).view.set) :
    ((soW).slice (Rect.unit (s := S32768x128) off S128x128.size inb) (fun _ => rfl)).view.write (Elt F) g w Finset.univ y = g y :=
  View.write_of_not_mem g w Finset.univ hy

theorem win128_write_emb (off : Fin 2 → Nat) (inb : ∀ a, off a + S128x128.size a ≤ S32768x128.size a)
    (g : ((soW).slice (Rect.unit (s := S32768x128) off S128x128.size inb) (fun _ => rfl)).view.ty.Contents (Elt F))
    (w : (Rect.unit (s := S32768x128) off S128x128.size inb).shape.Idx → Elt F .f32)
    (x : (Rect.unit (s := S32768x128) off S128x128.size inb).shape.Idx) :
    ((soW).slice (Rect.unit (s := S32768x128) off S128x128.size inb) (fun _ => rfl)).view.write (Elt F) g w Finset.univ
        (((soW).slice (Rect.unit (s := S32768x128) off S128x128.size inb) (fun _ => rfl)).view.emb x) = w x := by
  rw [View.write_emb_of_mem g w (Finset.mem_univ x)]
  rfl

theorem win128_emb (off : Fin 2 → Nat) (inb : ∀ a, off a + S128x128.size a ≤ S32768x128.size a) (h1 : off 1 = 0)
    (x : (Rect.unit (s := S32768x128) off S128x128.size inb).shape.Idx) :
    (((soW).slice (Rect.unit (s := S32768x128) off S128x128.size inb) (fun _ => rfl)).view.emb x : S32768x128.Idx)
      = ix2 (⟨off 0 + (x 0).val, by have h := inb 0; have hx : (x 0).val < 128 := (x 0).isLt; change off 0 + 128 ≤ 32768 at h; omega⟩ : Fin 32768)
          (⟨(x 1).val, (x 1).isLt⟩ : Fin 128) := by
  funext a
  refine Fin.ext ?_
  match a with
  | ⟨0, _⟩ => show off 0 + 1 * (x 0).val = off 0 + (x 0).val; omega
  | ⟨1, _⟩ => show off 1 + 1 * (x 1).val = (x 1).val; omega

end Cert.KB

end
-- ==== Proof.TileInvB.lean ====
/-
  The invariant of a vector subcore's main loop. Before trip n the subcore has, per slot, the gather of chunk
  2 n + slot in flight into the slot's half of the rows scratch; for n > 0 the copies of the sums of chunks
  2 n - 2 and 2 n - 1 in flight out of the two halves of the sums scratch into their eight-row windows of the
  neighbour-sum result; the own-row gather of block (n + 3) / 8 in flight while n ≤ 60; the rows of the two
  results below those windows at the gathered values; the index scratches unchanged.
-/
import proofs.«208587_g27212912787602_cont_9to1_1073_18_alg».proof.Proof.PayB
import proofs.«208587_g27212912787602_cont_9to1_1073_18_alg».proof.Proof.ReduceFrameB
import proofs.«208587_g27212912787602_cont_9to1_1073_18_alg».proof.Proof.HalvesB
import proofs.«208587_g27212912787602_cont_9to1_1073_18_alg».proof.Proof.GeomB
import proofs.«208587_g27212912787602_cont_9to1_1073_18_alg».proof.Proof.GeomOpsB
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
abbrev cV (L : grid0.Coords) : Fin τ.nSC := (L 0).castLE hcore0
abbrev jV (L : grid0.Coords) : Fin τ.nSub := (L 1).castLE hsub0
abbrev thr : Thread nD τ := V d (cV L) (jV L)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)

set_option quotPrecheck false
local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)
/-- Row `o 0` of the neighbour-index scratch, as an offsets list. -/
abbrev offN (o : Fin 2 → Nat) (h : ∀ a, o a + S1x128.size a ≤ S128x128.size a) : Memref sig .scVector .vmem S128 .i32 :=
  ((Memref.whole cc0_scratch0 : Memref sig .scVector .vmem S128x128 .i32).slice (Rect.unit (s := S128x128) o S1x128.size h) (fun _ => rfl)).squeeze S128 squeezes_S1x128_S128
/-- Row `o 0` of the own-index scratch, as an offsets list. -/
abbrev offS (o : Fin 2 → Nat) (h : ∀ a, o a + S1x128.size a ≤ S8x128.size a) : Memref sig .scVector .vmem S128 .i32 :=
  ((Memref.whole cc0_scratch1 : Memref sig .scVector .vmem S8x128 .i32).slice (Rect.unit (s := S8x128) o S1x128.size h) (fun _ => rfl)).squeeze S128 squeezes_S1x128_S128
local notation "embV" => ((Memref.whole Cert.Kernel.main_arg1_scv : Memref Cert.Kernel.sig Kind.scVector Space.hbm Cert.Kernel.S100001x128 EltTy.f32).slice (Rect.unit (s := Cert.Kernel.S100001x128) ![0, 0] Cert.Kernel.S100001x128.size Cert.Kernel.Facts₀.inb_S100001x128_S100001x128_0_0) (fun _ => rfl))

abbrev cell (k : DmaSem sig) : GSem nD τ sig := (thr d L, SemLoc.dma k)
abbrev sLoc (b : Ref sig .scVector) : Loc nD τ sig := (thr d L).loc b

theorem inbN (r : Nat) (h : r < 128) : ∀ a, (![r, 0] : Fin 2 → Nat) a + S1x128.size a ≤ S128x128.size a := by
  intro a; fin_cases a <;> simp <;> omega
/-- Row `r` of the neighbour-index scratch as an offsets list. -/
abbrev offNr (r : Nat) (h : r < 128) : Memref sig .scVector .vmem S128 .i32 := offN ![r, 0] (inbN r h)

theorem cond1_iff : ∀ k : Fin k0_t1_loop.trips, k0_cond1 k = 1#1 ↔ k.val % 8 = 4 := by decide +kernel
theorem cond3_iff : ∀ k : Fin k0_t1_loop.trips, k0_cond3 k = 1#1 ↔ 0 < k.val := by decide +kernel
theorem cond4_iff : ∀ k : Fin k0_t1_loop.trips, k0_cond4 k = 1#1 ↔ k.val < 63 := by decide +kernel
theorem cond5_iff : ∀ k : Fin k0_t1_loop.trips, k0_cond5 k = 1#1 ↔ 0 < k.val := by decide +kernel
theorem cond6_iff : ∀ k : Fin k0_t1_loop.trips, k0_cond6 k = 1#1 ↔ k.val < 63 := by decide +kernel
theorem trips64 : k0_t1_loop.trips = 64 := by decide

omit [FloatOps F] in
theorem inbS (r : Nat) (h : r < 8) : ∀ a, (![r, 0] : Fin 2 → Nat) a + S1x128.size a ≤ S8x128.size a := by
  intro a; fin_cases a <;> simp <;> omega
abbrev offSr (r : Nat) (h : r < 8) : Memref sig .scVector .vmem S128 .i32 := offS ![r, 0] (inbS r h)

/-- Run a first piece by a lemma of its own, then go on. -/
theorem wp_seq2 {α β γ : Type} {p : Prog (TpuEff nD τ sig (Elt F) Λ₀ (.scVector (cV L) (jV L))) α}
    {k1 : α → Prog (TpuEff nD τ sig (Elt F) Λ₀ (.scVector (cV L) (jV L))) β} {k2 : β → Prog (TpuEff nD τ sig (Elt F) Λ₀ (.scVector (cV L) (jV L))) γ}
    {P : sProp 𝕄} {Q' : α → sProp 𝕄} {Q : γ → sProp 𝕄}
    (h : P ⊢ wp frame (wpE (defs₀ (F := F)) 𝒱₀ (thr d L) none) Set.univ p Q') :
    iprop(P ∗ (∀ a, Q' a -∗ wp frame (wpE (defs₀ (F := F)) 𝒱₀ (thr d L) none) Set.univ (k1 a >>= k2) Q))
      ⊢ wp frame (wpE (defs₀ (F := F)) 𝒱₀ (thr d L) none) Set.univ ((p >>= k1) >>= k2) Q := by
  rw [Prog.bind_assoc, wp_bind]
  exact (sep_mono h .rfl).trans (wp_wand_r _ _ _)

variable (q : PosShare TreeShare)
variable (idxn : Buf (Elt F) ((s0W).view.loc (thr d L))) (idxs : Buf (Elt F) ((s1W).view.loc (thr d L)))
variable (O : CellTallies nD τ sig (HIx 1)) (W0 : Waits sig (HIx 1))

/-- The two read shares of the neighbour-index scratch, one per slot. -/
abbrev tA : PosShare TreeShare := Transfers.shareTok fullShare 1 0
abbrev tB : PosShare TreeShare := Transfers.shareDrop fullShare 1
/-- The first row of the subcore's 1024 rows. -/
abbrev base (L : grid0.Coords) : Nat := 2048 * (L 1).val + 1024 * (L 0).val
/-- Everything of a result array that is NOT this subcore's. -/
def Oth (L : grid0.Coords) : Finset S32768x128.Idx := Finset.univ \ wRowSet (wOf (cL L) (sL L))
/-- The eight rows at `off` of the neighbour-sum result; the 128 rows at `off` of the own-row result. -/
abbrev W8 (off : Fin 2 → Nat) (inb : ∀ a, off a + S8x128.size a ≤ S32768x128.size a) : Finset (Idx ((noW).view.loc (thr d L))) :=
  ((noW).slice (Rect.unit (s := S32768x128) off S8x128.size inb) (fun _ => rfl)).view.set
abbrev W128 (off : Fin 2 → Nat) (inb : ∀ a, off a + S128x128.size a ≤ S32768x128.size a) : Finset (Idx ((soW).view.loc (thr d L))) :=
  ((soW).slice (Rect.unit (s := S32768x128) off S128x128.size inb) (fun _ => rfl)).view.set

/-- Slot contents after the gather of chunk `c`: row a is the table row word a of index row c names. -/
def RowsOK (slot : Fin 2) (c : Nat) (R : Buf (Elt F) ((s2W).view.loc (thr d L))) : Prop :=
  ∀ (a b : Fin 128), R (ix3 slot a b) = m (embLoc d) (ix2 (Cert.Spec.rowOf (idxn (ix2 (⟨c % 128, Nat.mod_lt _ (by norm_num)⟩ : Fin 128) a))) b)
/-- The own-rows scratch after the gather of block `j`. -/
def SRowsOK (j : Nat) (R : Buf (Elt F) ((s4W).view.loc (thr d L))) : Prop :=
  ∀ (a b : Fin 128), R (ix2 a b) = m (embLoc d) (ix2 (Cert.Spec.rowOf (idxs (ix2 (⟨j % 8, Nat.mod_lt _ (by norm_num)⟩ : Fin 8) a))) b)

/-- The gather into slot 0 before trip n. -/
def gPart0 (n : Nat) : sProp 𝕄 :=
  if n < 64 then
    iprop(∃ (o : Fin 2 → Nat) (h : ∀ a, o a + S1x128.size a ≤ S128x128.size a) (R : Buf (Elt F) ((s2W).view.loc (thr d L))),
      ⌜o 0 = 2 * n ∧ o 1 = 0 ∧ RowsOK m d L idxn 0 (2 * n) R⌝
      ∗ Transfers.Flight countersEmb (thr d L) (SemLoc.dma (0 : DmaSem sig)) (default : HIx 1) 524288
          iprop((((rows0M).view.loc (thr d L) ↦[(rows0M).view.set]{fullShare} R)
            ∗ ((offN o h).view.loc (thr d L) ↦[(offN o h).view.set]{tA} (idxn : Buf (Elt F) ((offN o h).view.loc (thr d L)))))
            ∗ ((embW).view.loc (thr d L) ↦[(embV).view.set]{Transfers.shareTok q 5 0} m (embLoc d)))
      ∗ ((s0W).view.loc (thr d L) ↦[Finset.univ \ ((offN o h).view.set : Finset (Idx ((s0W).view.loc (thr d L))))]{tA} idxn)
      ∗ ((embW).view.loc (thr d L) ↦[Finset.univ \ (embV).view.set]{Transfers.shareTok q 5 0} m (embLoc d)))
  else
    iprop(semVal (cell d L 0) 0 ∗ (∃ R, (rows0M).view.loc (thr d L) ↦[(rows0M).view.set]{fullShare} R)
      ∗ ((s0W).view.loc (thr d L) ↦{tA} idxn) ∗ ((embW).view.loc (thr d L) ↦{Transfers.shareTok q 5 0} m (embLoc d)))

/-- The gather into slot 1 before trip n. -/
def gPart1 (n : Nat) : sProp 𝕄 :=
  if n < 64 then
    iprop(∃ (o : Fin 2 → Nat) (h : ∀ a, o a + S1x128.size a ≤ S128x128.size a) (R : Buf (Elt F) ((s2W).view.loc (thr d L))),
      ⌜o 0 = 2 * n + 1 ∧ o 1 = 0 ∧ RowsOK m d L idxn 1 (2 * n + 1) R⌝
      ∗ Transfers.Flight countersEmb (thr d L) (SemLoc.dma (1 : DmaSem sig)) (default : HIx 1) 524288
          iprop((((rows1M).view.loc (thr d L) ↦[(rows1M).view.set]{fullShare} R)
            ∗ ((offN o h).view.loc (thr d L) ↦[(offN o h).view.set]{tB} (idxn : Buf (Elt F) ((offN o h).view.loc (thr d L)))))
            ∗ ((embW).view.loc (thr d L) ↦[(embV).view.set]{Transfers.shareTok q 5 1} m (embLoc d)))
      ∗ ((s0W).view.loc (thr d L) ↦[Finset.univ \ ((offN o h).view.set : Finset (Idx ((s0W).view.loc (thr d L))))]{tB} idxn)
      ∗ ((embW).view.loc (thr d L) ↦[Finset.univ \ (embV).view.set]{Transfers.shareTok q 5 1} m (embLoc d)))
  else
    iprop(semVal (cell d L 1) 0 ∗ (∃ R, (rows1M).view.loc (thr d L) ↦[(rows1M).view.set]{fullShare} R)
      ∗ ((s0W).view.loc (thr d L) ↦{tB} idxn) ∗ ((embW).view.loc (thr d L) ↦{Transfers.shareTok q 5 1} m (embLoc d)))

/-- The neighbour-sum result and the two copies out before trip n. -/
def oPart (n : Nat) : sProp 𝕄 :=
  if 0 < n then
    iprop(∃ (offA offB : Fin 2 → Nat) (inbA : ∀ a, offA a + S8x128.size a ≤ S32768x128.size a) (inbB : ∀ a, offB a + S8x128.size a ≤ S32768x128.size a)
        (gA gB g : Buf (Elt F) ((noW).view.loc (thr d L))) (NA NB : Buf (Elt F) ((s3W).view.loc (thr d L))),
      ⌜(offA 0 = base L + 16 * (n - 1) ∧ offA 1 = 0 ∧ offB 0 = base L + 16 * (n - 1) + 8 ∧ offB 1 = 0)
        ∧ (∀ y ∈ W8 d L offA inbA, gA y = neiVal (m (embLoc d)) In y) ∧ (∀ y ∈ W8 d L offB inbB, gB y = neiVal (m (embLoc d)) In y)
        ∧ (∀ y : S32768x128.Idx, base L ≤ (y 0).val → (y 0).val < base L + 16 * (n - 1) → g y = neiVal (m (embLoc d)) In y)⌝
      ∗ Transfers.Flight countersEmb (thr d L) (SemLoc.dma (2 : DmaSem sig)) (default : HIx 1) 32768
          iprop(((noW).view.loc (thr d L) ↦[W8 d L offA inbA]{fullShare} gA) ∗ ((s3W).view.loc (thr d L) ↦[(nbuf0M).view.set]{fullShare} NA))
      ∗ Transfers.Flight countersEmb (thr d L) (SemLoc.dma (3 : DmaSem sig)) (default : HIx 1) 32768
          iprop(((noW).view.loc (thr d L) ↦[W8 d L offB inbB]{fullShare} gB) ∗ ((s3W).view.loc (thr d L) ↦[(nbuf1M).view.set]{fullShare} NB))
      ∗ ((noW).view.loc (thr d L) ↦[((Finset.univ \ Oth L) \ W8 d L offA inbA) \ W8 d L offB inbB]{fullShare} g))
  else
    iprop(semVal (cell d L 2) 0 ∗ semVal (cell d L 3) 0
      ∗ (∃ N, (s3W).view.loc (thr d L) ↦[Finset.univ \ (nbuf1M).view.set]{fullShare} N)
      ∗ (∃ N, (s3W).view.loc (thr d L) ↦[Finset.univ \ (nbuf0M).view.set]{fullShare} N)
      ∗ ∃ g, (noW).view.loc (thr d L) ↦[Finset.univ \ Oth L]{fullShare} g)

/-- The own-row stream and result before trip n: block (n + 3) / 8 is in flight while n ≤ 60. -/
def sPart (n : Nat) : sProp 𝕄 :=
  iprop((if n ≤ 60 then
      iprop(∃ (o : Fin 2 → Nat) (h : ∀ a, o a + S1x128.size a ≤ S8x128.size a) (R : Buf (Elt F) ((s4W).view.loc (thr d L))),
        ⌜o 0 = (n + 3) / 8 ∧ o 1 = 0 ∧ SRowsOK m d L idxs ((n + 3) / 8) R⌝
        ∗ Transfers.Flight countersEmb (thr d L) (SemLoc.dma (4 : DmaSem sig)) (default : HIx 1) 524288
            iprop((((s4W).view.loc (thr d L) ↦[(s4W).view.set]{fullShare} R)
              ∗ ((offS o h).view.loc (thr d L) ↦[(offS o h).view.set]{fullShare} (idxs : Buf (Elt F) ((offS o h).view.loc (thr d L)))))
              ∗ ((embW).view.loc (thr d L) ↦[(embV).view.set]{Transfers.shareTok q 5 4} m (embLoc d)))
        ∗ ((s1W).view.loc (thr d L) ↦[Finset.univ \ ((offS o h).view.set : Finset (Idx ((s1W).view.loc (thr d L))))]{fullShare} idxs)
        ∗ ((embW).view.loc (thr d L) ↦[Finset.univ \ (embV).view.set]{Transfers.shareTok q 5 4} m (embLoc d)))
    else
      iprop(semVal (cell d L 4) 0 ∗ (∃ R, (s4W).view.loc (thr d L) ↦[(s4W).view.set]{fullShare} R)
        ∗ ((s1W).view.loc (thr d L) ↦{fullShare} idxs) ∗ ((embW).view.loc (thr d L) ↦{Transfers.shareTok q 5 4} m (embLoc d))))
    ∗ semVal (cell d L 5) 0
    ∗ ∃ gs : Buf (Elt F) ((soW).view.loc (thr d L)),
        ⌜∀ y : S32768x128.Idx, base L ≤ (y 0).val → (y 0).val < base L + 128 * ((n + 3) / 8) → gs y = selfVal (m (embLoc d)) Is y⌝
        ∗ ((soW).view.loc (thr d L) ↦[Finset.univ \ Oth L]{fullShare} gs))

omit [FloatOps F] in
theorem rowN_lt (L : grid0.Coords) (c : Fin 128) : 128 * (2 * (L 1).val + (L 0).val) + c.val < 4096 := by
  have h1 : (L 1).val < 16 := (L 1).isLt; have h0 : (L 0).val < 2 := (L 0).isLt; have := c.isLt; omega
omit [FloatOps F] in
theorem rowS_lt (L : grid0.Coords) (j : Fin 8) : 8 * (2 * (L 1).val + (L 0).val) + j.val < 256 := by
  have h1 : (L 1).val < 16 := (L 1).isLt; have h0 : (L 0).val < 2 := (L 0).isLt; have := j.isLt; omega

/-- The invariant before trip n. -/
def inv (n : Nat) (_ : PUnit) : sProp 𝕄 :=
  iprop(Transfers.MayWaits (thr d L) (none : HIx 1) O
    ∗ gPart0 m d L q idxn n ∗ gPart1 m d L q idxn n ∗ oPart m In d L n ∗ sPart m Is d L q idxs n
    ∗ ∃ W', ⌜∀ p ∈ W', p ∈ W0 ∨ p.2 = none⌝ ∗ owes (thr d L) O W')

end Cert.KB

end
-- ==== Proof.GatherValB.lean ====
/-
  What an indirect gather delivers, index by index, and what the scratch it lands in holds afterwards.

  The gather reads an offsets list of 128 words — one row of an index scratch — and copies, for each k, the table row
  that word k names into row k of its destination. Every word is below the table's 100001 rows, so clamping it into the
  table changes nothing, and element (p, q) of what is delivered is the table at (word p of the list, q). The list is
  row o 0 of the neighbour-index scratch (128 rows) or of the own-index scratch (8 rows), read in row-major order.
  The destination is a whole slot of the rows scratch — slot J is the elements (J, a, b) — or the whole own-rows
  scratch; written whole with a payload G, the slot holds G (a, b) at (J, a, b).
-/
import proofs.«208587_g27212912787602_cont_9to1_1073_18_alg».proof.Proof.PayB
import Idealize.ShloMosaic.Lib.SparseCore.Stream
import Idealize.ShloMosaic.Lib.Writes
import Idealize.ShloMosaic.Lib.Exec.Geometry

set_option quotPrecheck false

noncomputable section

namespace Cert.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "embW" => (Memref.whole Cert.Kernel.main_arg1_scv : Memref Cert.Kernel.sig Kind.scVector Space.hbm Cert.Kernel.S100001x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s4W" => (Memref.whole Cert.Kernel.cc0_scratch4 : Memref Cert.Kernel.sig Kind.scVector Space.vmem Cert.Kernel.S128x128 EltTy.f32)
local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "embV" => ((Memref.whole Cert.Kernel.main_arg1_scv : Memref Cert.Kernel.sig Kind.scVector Space.hbm Cert.Kernel.S100001x128 EltTy.f32).slice (Rect.unit (s := Cert.Kernel.S100001x128) ![0, 0] Cert.Kernel.S100001x128.size Cert.Kernel.Facts₀.inb_S100001x128_S100001x128_0_0) (fun _ => rfl))

/-! ## The gather's payload -/

/-- The table read through the slice at zero offsets of its own sizes is the table. -/
theorem embV_read (emb : (embW).view.ty.Contents (Elt F)) : (embV).view.read (Elt F) emb = emb :=
  Memref.read_access_unit_zero (Elt F) main_arg1_scv (off := ![0, 0]) (by funext a; fin_cases a <;> rfl) _ emb

/-- The index of a list of 128 words at row-major position k is k. -/
theorem rowMajor128_symm (k : Fin 128) (h : S128.numel = 128) : S128.rowMajor.symm (k.cast h.symm) = ix1 k := by
  rw [Equiv.symm_apply_eq]
  refine Fin.ext ?_
  rw [Shape.rowMajor_val_one]
  rfl

/-- Word k of row o 0 of a scratch of rows of 128 words, read as an offsets list. -/
theorem rowN_emb (o : Fin 2 → Nat) (h : ∀ a, o a + S1x128.size a ≤ S128x128.size a) (h1 : o 1 = 0) (k : Fin 128) :
    ((((s0W).slice (Rect.unit (s := S128x128) o S1x128.size h) (fun _ => rfl)).squeeze S128 squeezes_S1x128_S128).view.emb (ix1 k) : S128x128.Idx)
      = ix2 (⟨o 0, by have := h 0; change o 0 + 1 ≤ 128 at this; omega⟩ : Fin 128) k := by
  have hj : Shape.reshapeEquiv (s := (Rect.unit (s := S128x128) o S1x128.size h).shape) (s' := S128) squeezes_S1x128_S128.numel_eq (ix1 k)
      = (ix2 (0 : Fin 1) k : S1x128.Idx) :=
    Shape.reshapeEquiv_eq_of_rowMajor _ (by
      rw [Shape.rowMajor_val_one]
      refine (Shape.rowMajor_val_two (d := ![1, 128]) (ix2 (0 : Fin 1) k)).trans ?_
      show 0 * 128 + k.val = k.val
      omega)
  show (Rect.unit (s := S128x128) o S1x128.size h).emb (Shape.reshapeEquiv squeezes_S1x128_S128.numel_eq (ix1 k)) = _
  rw [hj]
  funext a
  refine Fin.ext ?_
  match a with
  | ⟨0, _⟩ => show o 0 + 1 * 0 = o 0; omega
  | ⟨1, _⟩ => show o 1 + 1 * k.val = k.val; omega

/-- Word k of row o 0 of the neighbour-index scratch, read through the row as an offsets list. -/
theorem rowN_read (o : Fin 2 → Nat) (h : ∀ a, o a + S1x128.size a ≤ S128x128.size a) (h1 : o 1 = 0)
    (idxn : (s0W).view.ty.Contents (Elt F)) (k : Fin 128) :
    (((s0W).slice (Rect.unit (s := S128x128) o S1x128.size h) (fun _ => rfl)).squeeze S128 squeezes_S1x128_S128).view.read (Elt F) idxn (ix1 k)
      = idxn (ix2 (⟨o 0, by have := h 0; change o 0 + 1 ≤ 128 at this; omega⟩ : Fin 128) k) := by
  show idxn ((((s0W).slice (Rect.unit (s := S128x128) o S1x128.size h) (fun _ => rfl)).squeeze S128 squeezes_S1x128_S128).view.emb (ix1 k)) = _
  rw [rowN_emb o h h1 k]

/-- The gather through row o 0 of the neighbour-index scratch: row p of the destination is the table row that word p
    of that scratch row names. -/
theorem gather_val_n' (emb : (embW).view.ty.Contents (Elt F)) (idxn : (s0W).view.ty.Contents (Elt F))
    (o : Fin 2 → Nat) (h : ∀ a, o a + S1x128.size a ≤ S128x128.size a) (h1 : o 1 = 0)
    (hin : ∀ x, ((((s0W).slice (Rect.unit (s := S128x128) o S1x128.size h) (fun _ => rfl)).squeeze S128 squeezes_S1x128_S128).view.read (Elt F) idxn x).toNat
      < S100001x128.size gathers_S100001x128_S128x128.axis)
    (p q : Fin 128) :
    SparseCore.gatherPayload gathers_S100001x128_S128x128 ((embV).view.read (Elt F) emb)
        (SparseCore.rows ((((s0W).slice (Rect.unit (s := S128x128) o S1x128.size h) (fun _ => rfl)).squeeze S128 squeezes_S1x128_S128).view.read (Elt F) idxn) rfl hin) (ix2 p q)
      = emb (ix2 (Cert.Spec.rowOf (idxn (ix2 (⟨o 0, by have := h 0; change o 0 + 1 ≤ 128 at this; omega⟩ : Fin 128) p))) q) := by
  rw [embV_read]
  unfold SparseCore.gatherPayload
  refine congrArg emb ?_
  funext b
  refine Fin.ext ?_
  match b with
  | ⟨0, hb⟩ =>
    have e1 := congrArg Fin.val (Shape.Gathers.idx_axis gathers_S100001x128_S128x128
      (SparseCore.rows ((((s0W).slice (Rect.unit (s := S128x128) o S1x128.size h) (fun _ => rfl)).squeeze S128 squeezes_S1x128_S128).view.read (Elt F) idxn) rfl hin) (ix2 p q))
    have e2 : S128.rowMajor.symm (p.cast (rfl : S128.numel = 128).symm) = ix1 p := rowMajor128_symm p rfl
    have e3 := rowN_read o h h1 idxn p
    have hlt := hin (ix1 p)
    rw [e3] at hlt
    refine e1.trans ?_
    show ((((s0W).slice (Rect.unit (s := S128x128) o S1x128.size h) (fun _ => rfl)).squeeze S128 squeezes_S1x128_S128).view.read (Elt F) idxn
        (S128.rowMajor.symm (p.cast (rfl : S128.numel = 128).symm))).toNat
      = min (idxn (ix2 (⟨o 0, by have := h 0; change o 0 + 1 ≤ 128 at this; omega⟩ : Fin 128) p)).toNat 100000
    rw [e2, e3]
    change _ < 100001 at hlt
    omega
  | ⟨1, hb⟩ =>
    exact Shape.Gathers.idx_of_ne gathers_S100001x128_S128x128 _ (ix2 p q) ⟨1, hb⟩ Nat.one_ne_zero

/-- The same at an index of the destination. -/
theorem gather_val_n (emb : (embW).view.ty.Contents (Elt F)) (idxn : (s0W).view.ty.Contents (Elt F))
    (o : Fin 2 → Nat) (h : ∀ a, o a + S1x128.size a ≤ S128x128.size a) (h1 : o 1 = 0)
    (hin : ∀ x, ((((s0W).slice (Rect.unit (s := S128x128) o S1x128.size h) (fun _ => rfl)).squeeze S128 squeezes_S1x128_S128).view.read (Elt F) idxn x).toNat
      < S100001x128.size gathers_S100001x128_S128x128.axis)
    (x : S128x128.Idx) :
    SparseCore.gatherPayload gathers_S100001x128_S128x128 ((embV).view.read (Elt F) emb)
        (SparseCore.rows ((((s0W).slice (Rect.unit (s := S128x128) o S1x128.size h) (fun _ => rfl)).squeeze S128 squeezes_S1x128_S128).view.read (Elt F) idxn) rfl hin) x
      = emb (ix2 (Cert.Spec.rowOf (idxn (ix2 (⟨o 0, by have := h 0; change o 0 + 1 ≤ 128 at this; omega⟩ : Fin 128) (x 0)))) (x 1)) := by
  obtain ⟨p, q, rfl⟩ : ∃ (p q : Fin 128), x = ix2 p q := ⟨x 0, x 1, eq_ix2 x⟩
  exact gather_val_n' emb idxn o h h1 hin p q

/-- The same for the own-index scratch of eight rows. -/
theorem rowS_emb (o : Fin 2 → Nat) (h : ∀ a, o a + S1x128.size a ≤ S8x128.size a) (h1 : o 1 = 0) (k : Fin 128) :
    ((((s1W).slice (Rect.unit (s := S8x128) o S1x128.size h) (fun _ => rfl)).squeeze S128 squeezes_S1x128_S128).view.emb (ix1 k) : S8x128.Idx)
      = ix2 (⟨o 0, by have := h 0; change o 0 + 1 ≤ 8 at this; omega⟩ : Fin 8) k := by
  have hj : Shape.reshapeEquiv (s := (Rect.unit (s := S8x128) o S1x128.size h).shape) (s' := S128) squeezes_S1x128_S128.numel_eq (ix1 k)
      = (ix2 (0 : Fin 1) k : S1x128.Idx) :=
    Shape.reshapeEquiv_eq_of_rowMajor _ (by
      rw [Shape.rowMajor_val_one]
      refine (Shape.rowMajor_val_two (d := ![1, 128]) (ix2 (0 : Fin 1) k)).trans ?_
      show 0 * 128 + k.val = k.val
      omega)
  show (Rect.unit (s := S8x128) o S1x128.size h).emb (Shape.reshapeEquiv squeezes_S1x128_S128.numel_eq (ix1 k)) = _
  rw [hj]
  funext a
  refine Fin.ext ?_
  match a with
  | ⟨0, _⟩ => show o 0 + 1 * 0 = o 0; omega
  | ⟨1, _⟩ => show o 1 + 1 * k.val = k.val; omega

/-- Word k of row o 0 of the own-index scratch, read through the row as an offsets list. -/
theorem rowS_read (o : Fin 2 → Nat) (h : ∀ a, o a + S1x128.size a ≤ S8x128.size a) (h1 : o 1 = 0)
    (idxs : (s1W).view.ty.Contents (Elt F)) (k : Fin 128) :
    (((s1W).slice (Rect.unit (s := S8x128) o S1x128.size h) (fun _ => rfl)).squeeze S128 squeezes_S1x128_S128).view.read (Elt F) idxs (ix1 k)
      = idxs (ix2 (⟨o 0, by have := h 0; change o 0 + 1 ≤ 8 at this; omega⟩ : Fin 8) k) := by
  show idxs ((((s1W).slice (Rect.unit (s := S8x128) o S1x128.size h) (fun _ => rfl)).squeeze S128 squeezes_S1x128_S128).view.emb (ix1 k)) = _
  rw [rowS_emb o h h1 k]

/-- The gather through row o 0 of the own-index scratch: row p of the destination is the table row that word p
    of that scratch row names. -/
theorem gather_val_s' (emb : (embW).view.ty.Contents (Elt F)) (idxs : (s1W).view.ty.Contents (Elt F))
    (o : Fin 2 → Nat) (h : ∀ a, o a + S1x128.size a ≤ S8x128.size a) (h1 : o 1 = 0)
    (hin : ∀ x, ((((s1W).slice (Rect.unit (s := S8x128) o S1x128.size h) (fun _ => rfl)).squeeze S128 squeezes_S1x128_S128).view.read (Elt F) idxs x).toNat
      < S100001x128.size gathers_S100001x128_S128x128.axis)
    (p q : Fin 128) :
    SparseCore.gatherPayload gathers_S100001x128_S128x128 ((embV).view.read (Elt F) emb)
        (SparseCore.rows ((((s1W).slice (Rect.unit (s := S8x128) o S1x128.size h) (fun _ => rfl)).squeeze S128 squeezes_S1x128_S128).view.read (Elt F) idxs) rfl hin) (ix2 p q)
      = emb (ix2 (Cert.Spec.rowOf (idxs (ix2 (⟨o 0, by have := h 0; change o 0 + 1 ≤ 8 at this; omega⟩ : Fin 8) p))) q) := by
  rw [embV_read]
  unfold SparseCore.gatherPayload
  refine congrArg emb ?_
  funext b
  refine Fin.ext ?_
  match b with
  | ⟨0, hb⟩ =>
    have e1 := congrArg Fin.val (Shape.Gathers.idx_axis gathers_S100001x128_S128x128
      (SparseCore.rows ((((s1W).slice (Rect.unit (s := S8x128) o S1x128.size h) (fun _ => rfl)).squeeze S128 squeezes_S1x128_S128).view.read (Elt F) idxs) rfl hin) (ix2 p q))
    have e2 : S128.rowMajor.symm (p.cast (rfl : S128.numel = 128).symm) = ix1 p := rowMajor128_symm p rfl
    have e3 := rowS_read o h h1 idxs p
    have hlt := hin (ix1 p)
    rw [e3] at hlt
    refine e1.trans ?_
    show ((((s1W).slice (Rect.unit (s := S8x128) o S1x128.size h) (fun _ => rfl)).squeeze S128 squeezes_S1x128_S128).view.read (Elt F) idxs
        (S128.rowMajor.symm (p.cast (rfl : S128.numel = 128).symm))).toNat
      = min (idxs (ix2 (⟨o 0, by have := h 0; change o 0 + 1 ≤ 8 at this; omega⟩ : Fin 8) p)).toNat 100000
    rw [e2, e3]
    change _ < 100001 at hlt
    omega
  | ⟨1, hb⟩ =>
    exact Shape.Gathers.idx_of_ne gathers_S100001x128_S128x128 _ (ix2 p q) ⟨1, hb⟩ Nat.one_ne_zero

/-- The same at an index of the destination. -/
theorem gather_val_s (emb : (embW).view.ty.Contents (Elt F)) (idxs : (s1W).view.ty.Contents (Elt F))
    (o : Fin 2 → Nat) (h : ∀ a, o a + S1x128.size a ≤ S8x128.size a) (h1 : o 1 = 0)
    (hin : ∀ x, ((((s1W).slice (Rect.unit (s := S8x128) o S1x128.size h) (fun _ => rfl)).squeeze S128 squeezes_S1x128_S128).view.read (Elt F) idxs x).toNat
      < S100001x128.size gathers_S100001x128_S128x128.axis)
    (x : S128x128.Idx) :
    SparseCore.gatherPayload gathers_S100001x128_S128x128 ((embV).view.read (Elt F) emb)
        (SparseCore.rows ((((s1W).slice (Rect.unit (s := S8x128) o S1x128.size h) (fun _ => rfl)).squeeze S128 squeezes_S1x128_S128).view.read (Elt F) idxs) rfl hin) x
      = emb (ix2 (Cert.Spec.rowOf (idxs (ix2 (⟨o 0, by have := h 0; change o 0 + 1 ≤ 8 at this; omega⟩ : Fin 8) (x 0)))) (x 1)) := by
  obtain ⟨p, q, rfl⟩ : ∃ (p q : Fin 128), x = ix2 p q := ⟨x 0, x 1, eq_ix2 x⟩
  exact gather_val_s' emb idxs o h h1 hin p q

/-! ## What a slot of the rows scratch, and the own-rows scratch, hold after a whole write -/

/-- Row a, column b of the slot at leading offset off 0 of the rows scratch is element (off 0, a, b) of the scratch. -/
theorem slot_emb (off : Fin 3 → Nat) (inb : ∀ a, off a + S1x128x128.size a ≤ S2x128x128.size a) (h1 : off 1 = 0) (h2 : off 2 = 0)
    (a b : Fin 128) :
    ((((s2W).slice (Rect.unit (s := S2x128x128) off S1x128x128.size inb) (fun _ => rfl)).squeeze S128x128 squeezes_S1x128x128_S128x128).view.emb (ix2 a b) : S2x128x128.Idx)
      = ix3 (⟨off 0, by have := inb 0; change off 0 + 1 ≤ 2 at this; omega⟩ : Fin 2) a b := by
  have hj : Shape.reshapeEquiv (s := (Rect.unit (s := S2x128x128) off S1x128x128.size inb).shape) (s' := S128x128) squeezes_S1x128x128_S128x128.numel_eq (ix2 a b)
      = (ix3 (0 : Fin 1) a b : S1x128x128.Idx) :=
    Shape.reshapeEquiv_eq_of_rowMajor _ (by
      rw [Shape.rowMajor_val_two]
      refine (Shape.rowMajor_val_three (d := ![1, 128, 128]) (ix3 (0 : Fin 1) a b)).trans ?_
      show (0 * 128 + a.val) * 128 + b.val = a.val * 128 + b.val
      omega)
  show (Rect.unit (s := S2x128x128) off S1x128x128.size inb).emb (Shape.reshapeEquiv squeezes_S1x128x128_S128x128.numel_eq (ix2 a b)) = _
  rw [hj]
  funext c
  refine Fin.ext ?_
  match c with
  | ⟨0, _⟩ => show off 0 + 1 * 0 = off 0; omega
  | ⟨1, _⟩ => show off 1 + 1 * a.val = a.val; omega
  | ⟨2, _⟩ => show off 2 + 1 * b.val = b.val; omega

/-- The slot's elements are those of leading coordinate off 0. -/
theorem mem_slot (off : Fin 3 → Nat) (inb : ∀ a, off a + S1x128x128.size a ≤ S2x128x128.size a) (h1 : off 1 = 0) (h2 : off 2 = 0)
    (y : S2x128x128.Idx) :
    y ∈ (((s2W).slice (Rect.unit (s := S2x128x128) off S1x128x128.size inb) (fun _ => rfl)).squeeze S128x128 squeezes_S1x128x128_S128x128).view.set
      ↔ (y 0).val = off 0 := by
  have e : (((s2W).slice (Rect.unit (s := S2x128x128) off S1x128x128.size inb) (fun _ => rfl)).squeeze S128x128 squeezes_S1x128x128_S128x128).view.set
      = (Rect.unit (s := S2x128x128) off S1x128x128.size inb).set :=
    (View.set_reshape _ _).trans (View.set_slice_whole _ _)
  rw [e, Rect.mem_set_unit]
  constructor
  · intro h
    have h0 := h 0
    change off 0 ≤ (y 0).val ∧ (y 0).val < off 0 + 1 at h0
    omega
  · intro h c
    match c with
    | ⟨0, _⟩ => show off 0 ≤ (y 0).val ∧ (y 0).val < off 0 + 1; omega
    | ⟨1, _⟩ => have hy : (y 1).val < 128 := (y 1).isLt; show off 1 ≤ (y 1).val ∧ (y 1).val < off 1 + 128; omega
    | ⟨2, _⟩ => have hy : (y 2).val < 128 := (y 2).isLt; show off 2 ≤ (y 2).val ∧ (y 2).val < off 2 + 128; omega

/-- A whole write of G through the slot leaves G (a, b) at element (off 0, a, b). -/
theorem slot_writes (off : Fin 3 → Nat) (inb : ∀ a, off a + S1x128x128.size a ≤ S2x128x128.size a) (h1 : off 1 = 0) (h2 : off 2 = 0)
    (f : (s2W).view.ty.Contents (Elt F)) (G : S128x128.Idx → Elt F .f32) (a b : Fin 128) :
    (((s2W).slice (Rect.unit (s := S2x128x128) off S1x128x128.size inb) (fun _ => rfl)).squeeze S128x128 squeezes_S1x128x128_S128x128).view.writes (Elt F) f
        [⟨Rect.whole S128x128, G⟩] (ix3 (⟨off 0, by have := inb 0; change off 0 + 1 ≤ 2 at this; omega⟩ : Fin 2) a b)
      = G (ix2 a b) := by
  rw [← View.write_univ_eq_writes_whole, View.writes_nil, ← slot_emb off inb h1 h2 a b]
  refine (View.write_emb_of_mem _ _ (Finset.mem_univ _)).trans ?_
  rfl

/-- The two slots of the program. -/
theorem rows0_writes (f : (s2W).view.ty.Contents (Elt F)) (G : S128x128.Idx → Elt F .f32) (a b : Fin 128) :
    (rows0M).view.writes (Elt F) f [⟨Rect.whole S128x128, G⟩] (ix3 (0 : Fin 2) a b) = G (ix2 a b) :=
  slot_writes ![0, 0, 0] inb_S2x128x128_S1x128x128_0_0_0 rfl rfl f G a b
theorem rows1_writes (f : (s2W).view.ty.Contents (Elt F)) (G : S128x128.Idx → Elt F .f32) (a b : Fin 128) :
    (rows1M).view.writes (Elt F) f [⟨Rect.whole S128x128, G⟩] (ix3 (1 : Fin 2) a b) = G (ix2 a b) :=
  slot_writes ![1, 0, 0] inb_S2x128x128_S1x128x128_1_0_0 rfl rfl f G a b
theorem mem_rows0 (y : S2x128x128.Idx) : y ∈ (rows0M).view.set ↔ (y 0).val = 0 :=
  mem_slot ![0, 0, 0] inb_S2x128x128_S1x128x128_0_0_0 rfl rfl y
theorem mem_rows1 (y : S2x128x128.Idx) : y ∈ (rows1M).view.set ↔ (y 0).val = 1 :=
  mem_slot ![1, 0, 0] inb_S2x128x128_S1x128x128_1_0_0 rfl rfl y

/-- A whole write through the own-rows scratch leaves the payload. -/
theorem s4_writes (f : (s4W).view.ty.Contents (Elt F)) (G : S128x128.Idx → Elt F .f32) :
    (s4W).view.writes (Elt F) f [⟨Rect.whole S128x128, G⟩] = G :=
  Memref.write_access_whole_univ (Elt F) cc0_scratch4 f G
theorem mem_s4 (y : S128x128.Idx) : y ∈ (s4W).view.set := by
  have e : (s4W).view.set = Finset.univ := View.set_whole _
  rw [e]
  exact Finset.mem_univ _

end Cert.KB

end
-- ==== Proof.TileB.lean ====
/-
  A vector subcore's task around its main loop: the subcore's own storage taken apart into the five scratch buffers
  and eight DMA cells, the two index blocks fetched, the table's share cut into read tokens, the first three gathers
  issued, the loop at its invariant, the last two copies out waited for, and the results' rows, the scratch buffers
  and the cells put back together.
-/
import proofs.«208587_g27212912787602_cont_9to1_1073_18_alg».proof.Proof.TileInvB
import proofs.«208587_g27212912787602_cont_9to1_1073_18_alg».proof.Proof.GatherValB
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)

local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)
local notation "embV" => ((Memref.whole Cert.Kernel.main_arg1_scv : Memref Cert.Kernel.sig Kind.scVector Space.hbm Cert.Kernel.S100001x128 EltTy.f32).slice (Rect.unit (s := Cert.Kernel.S100001x128) ![0, 0] Cert.Kernel.S100001x128.size Cert.Kernel.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

omit [FloatOps F] in
theorem toks5 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 5} f) ∗ (ℓ ↦[S]{Transfers.shareTok q 5 0} f) ∗ (ℓ ↦[S]{Transfers.shareTok q 5 1} f)
      ∗ (ℓ ↦[S]{Transfers.shareTok q 5 2} f) ∗ (ℓ ↦[S]{Transfers.shareTok q 5 3} f) ∗ (ℓ ↦[S]{Transfers.shareTok q 5 4} f)) := by
  have h := Transfers.pointsTo_toks (nD := nD) (τ := τ) (sig := sig) (Ix := HIx 1) (Val := Elt F) (Name := ℕ) (U := UU) (Lvl := ℕ) (ℓ := ℓ) (S := S) (f := f) q 5
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton] at h
  exact h

omit [FloatOps F] in
theorem toks1 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 1} f) ∗ (ℓ ↦[S]{Transfers.shareTok q 1 0} f)) := by
  have h := Transfers.pointsTo_toks (nD := nD) (τ := τ) (sig := sig) (Ix := HIx 1) (Val := Elt F) (Name := ℕ) (U := UU) (Lvl := ℕ) (ℓ := ℓ) (S := S) (f := f) q 1
  rw [show (Finset.univ : Finset (Fin 1)) = {0} by decide, bigSep_singleton] at h
  exact h

/-! ## The subcore's own storage: five scratch buffers and eight DMA cells, and the rest -/

omit [FloatOps F] in
theorem cell_ne (i j : DmaSem sig) (h : i ≠ j) : cell d L i ≠ cell d L j := fun e => h (SemLoc.dma.inj (Prod.mk.inj e).2)

/-- The subcore's other scoped cells. -/
abbrev cellsRest : Finset (GSem nD τ sig) := (((((((((ownCells (thr d L)).erase (cell d L 0)).erase (cell d L 1)).erase (cell d L 2)).erase (cell d L 3)).erase (cell d L 4)).erase (cell d L 5)).erase (cell d L 6)).erase (cell d L 7))
/-- The subcore's other buffers. -/
abbrev bufsRest : Finset (DevRef τ sig) := ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))

omit [FloatOps F] in
theorem ownSems0_V8 :
    (ownSems0 (thr d L) : sProp 𝕄)
      = iprop(semVal (cell d L 0) 0 ∗ semVal (cell d L 1) 0 ∗ semVal (cell d L 2) 0 ∗ semVal (cell d L 3) 0 ∗ semVal (cell d L 4) 0 ∗ semVal (cell d L 5) 0 ∗ semVal (cell d L 6) 0 ∗ semVal (cell d L 7) 0
          ∗ bigSep (cellsRest d L) fun g => semVal g 0) := by
  unfold SparseCore.Cfg.ownSems0
  rw [SparseCore.bigSep_erase' ((mem_ownCells (g := cell d L 0)).mpr ⟨rfl, by show (SemLoc.dma (0 : DmaSem sig) : SemLoc sig).isScoped .scVector = true; decide⟩),
    SparseCore.bigSep_erase' (Finset.mem_erase.mpr ⟨cell_ne d L 1 0 (by decide), (mem_ownCells (g := cell d L 1)).mpr ⟨rfl, by show (SemLoc.dma (1 : DmaSem sig) : SemLoc sig).isScoped .scVector = true; decide⟩⟩),
    SparseCore.bigSep_erase' (Finset.mem_erase.mpr ⟨cell_ne d L 2 1 (by decide), Finset.mem_erase.mpr ⟨cell_ne d L 2 0 (by decide), (mem_ownCells (g := cell d L 2)).mpr ⟨rfl, by show (SemLoc.dma (2 : DmaSem sig) : SemLoc sig).isScoped .scVector = true; decide⟩⟩⟩),
    SparseCore.bigSep_erase' (Finset.mem_erase.mpr ⟨cell_ne d L 3 2 (by decide), Finset.mem_erase.mpr ⟨cell_ne d L 3 1 (by decide), Finset.mem_erase.mpr ⟨cell_ne d L 3 0 (by decide), (mem_ownCells (g := cell d L 3)).mpr ⟨rfl, by show (SemLoc.dma (3 : DmaSem sig) : SemLoc sig).isScoped .scVector = true; decide⟩⟩⟩⟩),
    SparseCore.bigSep_erase' (Finset.mem_erase.mpr ⟨cell_ne d L 4 3 (by decide), Finset.mem_erase.mpr ⟨cell_ne d L 4 2 (by decide), Finset.mem_erase.mpr ⟨cell_ne d L 4 1 (by decide), Finset.mem_erase.mpr ⟨cell_ne d L 4 0 (by decide), (mem_ownCells (g := cell d L 4)).mpr ⟨rfl, by show (SemLoc.dma (4 : DmaSem sig) : SemLoc sig).isScoped .scVector = true; decide⟩⟩⟩⟩⟩),
    SparseCore.bigSep_erase' (Finset.mem_erase.mpr ⟨cell_ne d L 5 4 (by decide), Finset.mem_erase.mpr ⟨cell_ne d L 5 3 (by decide), Finset.mem_erase.mpr ⟨cell_ne d L 5 2 (by decide), Finset.mem_erase.mpr ⟨cell_ne d L 5 1 (by decide), Finset.mem_erase.mpr ⟨cell_ne d L 5 0 (by decide), (mem_ownCells (g := cell d L 5)).mpr ⟨rfl, by show (SemLoc.dma (5 : DmaSem sig) : SemLoc sig).isScoped .scVector = true; decide⟩⟩⟩⟩⟩⟩),
    SparseCore.bigSep_erase' (Finset.mem_erase.mpr ⟨cell_ne d L 6 5 (by decide), Finset.mem_erase.mpr ⟨cell_ne d L 6 4 (by decide), Finset.mem_erase.mpr ⟨cell_ne d L 6 3 (by decide), Finset.mem_erase.mpr ⟨cell_ne d L 6 2 (by decide), Finset.mem_erase.mpr ⟨cell_ne d L 6 1 (by decide), Finset.mem_erase.mpr ⟨cell_ne d L 6 0 (by decide), (mem_ownCells (g := cell d L 6)).mpr ⟨rfl, by show (SemLoc.dma (6 : DmaSem sig) : SemLoc sig).isScoped .scVector = true; decide⟩⟩⟩⟩⟩⟩⟩),
    SparseCore.bigSep_erase' (Finset.mem_erase.mpr ⟨cell_ne d L 7 6 (by decide), Finset.mem_erase.mpr ⟨cell_ne d L 7 5 (by decide), Finset.mem_erase.mpr ⟨cell_ne d L 7 4 (by decide), Finset.mem_erase.mpr ⟨cell_ne d L 7 3 (by decide), Finset.mem_erase.mpr ⟨cell_ne d L 7 2 (by decide), Finset.mem_erase.mpr ⟨cell_ne d L 7 1 (by decide), Finset.mem_erase.mpr ⟨cell_ne d L 7 0 (by decide), (mem_ownCells (g := cell d L 7)).mpr ⟨rfl, by show (SemLoc.dma (7 : DmaSem sig) : SemLoc sig).isScoped .scVector = true; decide⟩⟩⟩⟩⟩⟩⟩⟩)]

omit [FloatOps F] in
theorem ownBufs_V5 :
    (ownBufs (thr d L) : sProp 𝕄)
      = iprop((∃ f, sLoc d L cc0_scratch0 ↦{fullShare} f) ∗ (∃ f, sLoc d L cc0_scratch1 ↦{fullShare} f) ∗ (∃ f, sLoc d L cc0_scratch2 ↦{fullShare} f) ∗ (∃ f, sLoc d L cc0_scratch3 ↦{fullShare} f) ∗ (∃ f, sLoc d L cc0_scratch4 ↦{fullShare} f)
          ∗ bigSep (bufsRest L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

/-! ## What the two index fetches land -/

omit [FloatOps F] in
theorem payN_apply (c a : Fin 128) :
    ((inW).slice (Rect.unit (s := S4096x128) (k0_off1 L) S128x128.size (k0_off1_inb L)) (fun _ => rfl)).view.read (Elt F) (In : (inW).view.ty.Contents (Elt F)) (ix2 c a)
      = In (ix2 (⟨128 * (2 * (L 1).val + (L 0).val) + c.val, by have h0 : (L 0).val < 2 := (L 0).isLt; have h1 : (L 1).val < 16 := (L 1).isLt; have hc := c.isLt; omega⟩ : Fin 4096) a) := by
  show In (((inW).slice (Rect.unit (s := S4096x128) (k0_off1 L) S128x128.size (k0_off1_inb L)) (fun _ => rfl)).view.emb (ix2 c a)) = _
  refine congrArg In ?_
  funext b
  refine Fin.ext ?_
  match b with
  | ⟨0, _⟩ => show k0_off1 L 0 + 1 * c.val = 128 * (2 * (L 1).val + (L 0).val) + c.val; rw [k0_off1_eq]; show 256 * (L 1).val + 128 * (L 0).val + 1 * c.val = _; omega
  | ⟨1, _⟩ => show k0_off1 L 1 + 1 * a.val = a.val; rw [k0_off1_eq]; show 0 + 1 * a.val = a.val; omega

omit [FloatOps F] in
theorem payS_apply (j : Fin 8) (a : Fin 128) :
    ((isW).slice (Rect.unit (s := S256x128) (k0_off2 L) S8x128.size (k0_off2_inb L)) (fun _ => rfl)).view.read (Elt F) (Is : (isW).view.ty.Contents (Elt F)) (ix2 j a)
      = Is (ix2 (⟨8 * (2 * (L 1).val + (L 0).val) + j.val, by have h0 : (L 0).val < 2 := (L 0).isLt; have h1 : (L 1).val < 16 := (L 1).isLt; have hj := j.isLt; omega⟩ : Fin 256) a) := by
  show Is (((isW).slice (Rect.unit (s := S256x128) (k0_off2 L) S8x128.size (k0_off2_inb L)) (fun _ => rfl)).view.emb (ix2 j a)) = _
  refine congrArg Is ?_
  funext b
  refine Fin.ext ?_
  match b with
  | ⟨0, _⟩ => show k0_off2 L 0 + 1 * j.val = 8 * (2 * (L 1).val + (L 0).val) + j.val; rw [k0_off2_eq]; show 16 * (L 1).val + 8 * (L 0).val + 1 * j.val = _; omega
  | ⟨1, _⟩ => show k0_off2 L 1 + 1 * a.val = a.val; rw [k0_off2_eq]; show 0 + 1 * a.val = a.val; omega

/-! ## The invariant after the last trip -/

/-- After the last trip: nothing gathers any more, the last two copies out are in flight. -/
theorem inv64_elim (acc : PUnit) :
    inv m Is In d L q idxn idxs O W0 64 acc ⊢ iprop(Transfers.MayWaits (thr d L) (none : HIx 1) O
      ∗ (semVal (cell d L 0) 0 ∗ (∃ R, (rows0M).view.loc (thr d L) ↦[(rows0M).view.set]{fullShare} R)
      ∗ ((s0W).view.loc (thr d L) ↦{tA} idxn) ∗ ((embW).view.loc (thr d L) ↦{Transfers.shareTok q 5 0} m (embLoc d)))
      ∗ (semVal (cell d L 1) 0 ∗ (∃ R, (rows1M).view.loc (thr d L) ↦[(rows1M).view.set]{fullShare} R)
      ∗ ((s0W).view.loc (thr d L) ↦{tB} idxn) ∗ ((embW).view.loc (thr d L) ↦{Transfers.shareTok q 5 1} m (embLoc d)))
      ∗ (∃ (offA offB : Fin 2 → Nat) (inbA : ∀ a, offA a + S8x128.size a ≤ S32768x128.size a) (inbB : ∀ a, offB a + S8x128.size a ≤ S32768x128.size a)
        (gA gB g : Buf (Elt F) ((noW).view.loc (thr d L))) (NA NB : Buf (Elt F) ((s3W).view.loc (thr d L))),
      ⌜(offA 0 = base L + 16 * (64 - 1) ∧ offA 1 = 0 ∧ offB 0 = base L + 16 * (64 - 1) + 8 ∧ offB 1 = 0)
        ∧ (∀ y ∈ W8 d L offA inbA, gA y = neiVal (m (embLoc d)) In y) ∧ (∀ y ∈ W8 d L offB inbB, gB y = neiVal (m (embLoc d)) In y)
        ∧ (∀ y : S32768x128.Idx, base L ≤ (y 0).val → (y 0).val < base L + 16 * (64 - 1) → g y = neiVal (m (embLoc d)) In y)⌝
      ∗ Transfers.Flight countersEmb (thr d L) (SemLoc.dma (2 : DmaSem sig)) (default : HIx 1) 32768
          iprop(((noW).view.loc (thr d L) ↦[W8 d L offA inbA]{fullShare} gA) ∗ ((s3W).view.loc (thr d L) ↦[(nbuf0M).view.set]{fullShare} NA))
      ∗ Transfers.Flight countersEmb (thr d L) (SemLoc.dma (3 : DmaSem sig)) (default : HIx 1) 32768
          iprop(((noW).view.loc (thr d L) ↦[W8 d L offB inbB]{fullShare} gB) ∗ ((s3W).view.loc (thr d L) ↦[(nbuf1M).view.set]{fullShare} NB))
      ∗ ((noW).view.loc (thr d L) ↦[((Finset.univ \ Oth L) \ W8 d L offA inbA) \ W8 d L offB inbB]{fullShare} g))
      ∗ ((semVal (cell d L 4) 0 ∗ (∃ R, (s4W).view.loc (thr d L) ↦[(s4W).view.set]{fullShare} R)
        ∗ ((s1W).view.loc (thr d L) ↦{fullShare} idxs) ∗ ((embW).view.loc (thr d L) ↦{Transfers.shareTok q 5 4} m (embLoc d)))
    ∗ semVal (cell d L 5) 0
    ∗ ∃ gs : Buf (Elt F) ((soW).view.loc (thr d L)),
        ⌜∀ y : S32768x128.Idx, base L ≤ (y 0).val → (y 0).val < base L + 128 * ((64 + 3) / 8) → gs y = selfVal (m (embLoc d)) Is y⌝
        ∗ ((soW).view.loc (thr d L) ↦[Finset.univ \ Oth L]{fullShare} gs))
      ∗ ∃ W', ⌜∀ p ∈ W', p ∈ W0 ∨ p.2 = none⌝ ∗ owes (thr d L) O W') := by
  unfold inv gPart0 gPart1 oPart sPart
  rw [if_neg (by decide : ¬ (64 < 64)), if_pos (by decide : 0 < 64), if_neg (by decide : ¬ (64 ≤ 60))]
  exact .rfl

set_option maxHeartbeats 4000000 in
theorem tile_body (hF : (K (F := F)).Facts) (hIs : ∀ j, (Is j).toNat ≤ 100000) (hIn : ∀ j, (In j).toNat ≤ 100000)
    (O : CellTallies nD τ sig (HIx 1)) (W : Waits sig (HIx 1)) (hO : ∀ g, O g none = 0)
    (hstep : ∀ (idxn : Buf (Elt F) ((s0W).view.loc (thr d L))) (idxs : Buf (Elt F) ((s1W).view.loc (thr d L)))
        (hn : ∀ y, (idxn y).toNat ≤ 100000) (hs : ∀ y, (idxs y).toNat ≤ 100000)
        (hidxn : ∀ (c a : Fin 128), idxn (ix2 c a) = In (ix2 (⟨128 * (2 * (L 1).val + (L 0).val) + c.val, by have h0 : (L 0).val < 2 := (L 0).isLt; have h1 : (L 1).val < 16 := (L 1).isLt; have hc := c.isLt; omega⟩ : Fin 4096) a))
        (hidxs : ∀ (j : Fin 8) (a : Fin 128), idxs (ix2 j a) = Is (ix2 (⟨8 * (2 * (L 1).val + (L 0).val) + j.val, by have h0 : (L 0).val < 2 := (L 0).isLt; have h1 : (L 1).val < 16 := (L 1).isLt; have hj := j.isLt; omega⟩ : Fin 256) a))
        (W0 : Waits sig (HIx 1)) (v2 : BitVec 32) (k : Fin k0_t1_loop.trips) (acc : PUnit),
        inv m Is In d L (tShare (cL L) (sL L)) idxn idxs O W0 k.val acc ⊢ wp frame (wpE (defs₀ (F := F)) 𝒱₀ (thr d L) none) Set.univ
          (k0_t1_body L embW (Memref.isWhole_whole _) inW (Memref.isWhole_whole _) isW (Memref.isWhole_whole _) soW (Memref.isWhole_whole _) noW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scoped0 cc0_scoped1 v2 k acc)
          (inv m Is In d L (tShare (cL L) (sL L)) idxn idxs O W0 (k.val + 1))) :
    iprop(levAts (K (F := F)).L (K (F := F)).lev ∗ emp ∗ tileIn m Is In d (cL L) (sL L) ∗ scopedBufs (thr d L) ∗ scopedSems0 (thr d L) ∗ owes (thr d L) O W)
      ⊢ wp frame (wpE (defs₀ (F := F)) 𝒱₀ (thr d L) none) Set.univ (cc0__sc_body L embW (Memref.isWhole_whole _) inW (Memref.isWhole_whole _) isW (Memref.isWhole_whole _) soW (Memref.isWhole_whole _) noW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scoped0 cc0_scoped1)
          fun _ => iprop(tileOut m Is In d (cL L) (sL L) ∗ scopedBufs (thr d L) ∗ scopedSems0 (thr d L) ∗ ∃ W', ⌜∀ p ∈ W', p ∈ W ∨ p.2 = none⌝ ∗ owes (thr d L) O W') := by
  simp only [cc0__sc_body_eq_skeleton]; unfold cc0__sc_body_skel
  simp only [k0_part51_eq_skeleton]; unfold k0_part51_skel
  rw [(K (F := F)).scopedBufs_V hF d (cV L) (jV L), SparseCore.Cfg.scopedSems0_V (Val := Elt F) d (cV L) (jV L), ownSems0_V8, ownBufs_V5]
  unfold tileIn
  iintro ⟨#Hlv, -, ⟨Hemb, His, Hin, ⟨%fso, Hso⟩, ⟨%fno, Hno⟩⟩, ⟨⟨%f0, H0⟩, ⟨%f1, H1⟩, ⟨%f2, H2⟩, ⟨%f3, H3⟩, ⟨%f4, H4⟩, Hbufs⟩,
    ⟨Hc0, Hc1, Hc2, Hc3, Hc4, Hc5, Hc6, Hc7, Hsems⟩, HO⟩
  ihave Hmw := ((K (F := F)).mayWaits_none (thr := thr d L) hO) $$ Hlv
  have e_emb : ∀ q' f, ((embW).view.loc (thr d L) ↦{q'} f : sProp 𝕄) = (embLoc d ↦{q'} f) := fun q' f => by simp only [Memref.view_whole, View.set_whole]
  have e_in : ∀ q' f, ((inW).view.loc (thr d L) ↦{q'} f : sProp 𝕄) = (inLoc d ↦{q'} f) := fun q' f => by simp only [Memref.view_whole, View.set_whole]
  have e_is : ∀ q' f, ((isW).view.loc (thr d L) ↦{q'} f : sProp 𝕄) = (isLoc d ↦{q'} f) := fun q' f => by simp only [Memref.view_whole, View.set_whole]
  have e_0 : ∀ f, ((s0W).view.loc (thr d L) ↦{fullShare} f : sProp 𝕄) = (sLoc d L cc0_scratch0 ↦{fullShare} f) := fun f => by simp only [Memref.view_whole, View.set_whole]
  have e_1 : ∀ f, ((s1W).view.loc (thr d L) ↦{fullShare} f : sProp 𝕄) = (sLoc d L cc0_scratch1 ↦{fullShare} f) := fun f => by simp only [Memref.view_whole, View.set_whole]
  have e_2 : ∀ f, ((s2W).view.loc (thr d L) ↦{fullShare} f : sProp 𝕄) = (sLoc d L cc0_scratch2 ↦{fullShare} f) := fun f => by simp only [Memref.view_whole, View.set_whole]
  have e_3 : ∀ f, ((s3W).view.loc (thr d L) ↦{fullShare} f : sProp 𝕄) = (sLoc d L cc0_scratch3 ↦{fullShare} f) := fun f => by simp only [Memref.view_whole, View.set_whole]
  have e_4 : ∀ f, ((s4W).view.loc (thr d L) ↦{fullShare} f : sProp 𝕄) = (sLoc d L cc0_scratch4 ↦{fullShare} f) := fun f => by simp only [Memref.view_whole, View.set_whole]
  ihave Hemb' := (Entails.of_eq (e_emb _ _).symm) $$ Hemb
  ihave Hin' := (Entails.of_eq (e_in _ _).symm) $$ Hin
  ihave His' := (Entails.of_eq (e_is _ _).symm) $$ His
  ihave H0' := (Entails.of_eq (e_0 _).symm) $$ H0
  ihave H1' := (Entails.of_eq (e_1 _).symm) $$ H1
  ihave H2' := (Entails.of_eq (e_2 _).symm) $$ H2
  ihave H3' := (Entails.of_eq (e_3 _).symm) $$ H3
  ihave H4' := (Entails.of_eq (e_4 _).symm) $$ H4
  -- the two index lists fetched
  sl_exec
  generalize hidxn : View.write (Elt F) (s0W).view f0 (tile_body.sl.dma0 (F := F) In L) Finset.univ = idxn
  generalize hidxs : View.write (Elt F) (s1W).view f1 (tile_body.sl.dma0_1 (F := F) Is L) Finset.univ = idxs
  have hn : ∀ y, (idxn y).toNat ≤ 100000 := by subst hidxn; intro y; rw [View.write_whole_univ]; exact hIn _
  have hs : ∀ y, (idxs y).toNat ≤ 100000 := by subst hidxs; intro y; rw [View.write_whole_univ]; exact hIs _
  -- the table's share as five read tokens: cells 0, 1 and 4 read it
  ihave Hemb5 := (toks5 (tShare (cL L) (sL L))).1 $$ Hemb'
  icases Hemb5 with ⟨HembD, HE0, HE1, HE2, HE3, HE4⟩
  ihave H0t := (toks1 fullShare).1 $$ H0'
  icases H0t with ⟨H0B, H0A⟩
  -- slot 0: its half of the rows scratch, offsets row 0
  have hsub2 : (rows0M).view.set ⊆ (Finset.univ : Finset (Idx ((s2W).view.loc (thr d L)))) := Finset.subset_univ _
  ihave H2s := (pointsTo_split_subset hsub2).1 $$ H2'
  icases H2s with ⟨H2a0, H2b⟩
  have e2a : ∀ f, ((s2W).view.loc (thr d L) ↦[(rows0M).view.set]{fullShare} f : sProp 𝕄) = ((rows0M).view.loc (thr d L) ↦[(rows0M).view.set]{fullShare} f) := fun _ => rfl
  ihave H2a := (Entails.of_eq (e2a _)) $$ H2a0
  have hsubA0 : (offN ![0, 0] inb_S128x128_S1x128_0_0).view.set ⊆ (Finset.univ : Finset (Idx ((s0W).view.loc (thr d L)))) := Finset.subset_univ _
  ihave HA0 := (pointsTo_split_subset hsubA0).1 $$ H0A
  icases HA0 with ⟨HA0a, HA0b⟩
  have eA : ∀ o h qq f, ((s0W).view.loc (thr d L) ↦[(offN o h).view.set]{qq} f : sProp 𝕄) = ((offN o h).view.loc (thr d L) ↦[(offN o h).view.set]{qq} f) := fun _ _ _ _ => rfl
  ihave HA0a' := (Entails.of_eq (eA _ _ _ _)) $$ HA0a
  have hin0 : ∀ x, ((offN ![0, 0] inb_S128x128_S1x128_0_0).view.read (Elt F) idxn x).toNat < S100001x128.size gathers_S100001x128_S128x128.axis := fun x => Nat.lt_succ_of_le (hn _)
  sl_exec
  -- slot 1: the other half, offsets row 1, the other share of the index scratch
  have e2b : ((Finset.univ : Finset (Idx ((s2W).view.loc (thr d L)))) \ (rows0M).view.set) = (rows1M).view.set := rows1_eq.symm
  ihave H2b1 := (Entails.of_eq (congrArg (fun S => ((s2W).view.loc (thr d L) ↦[S]{fullShare} f2 : sProp 𝕄)) e2b)) $$ H2b
  have e2c : ∀ f, ((s2W).view.loc (thr d L) ↦[(rows1M).view.set]{fullShare} f : sProp 𝕄) = ((rows1M).view.loc (thr d L) ↦[(rows1M).view.set]{fullShare} f) := fun _ => rfl
  ihave H2b' := (Entails.of_eq (e2c _)) $$ H2b1
  have hsubB1 : (offN ![1, 0] inb_S128x128_S1x128_1_0).view.set ⊆ (Finset.univ : Finset (Idx ((s0W).view.loc (thr d L)))) := Finset.subset_univ _
  ihave HB1 := (pointsTo_split_subset hsubB1).1 $$ H0B
  icases HB1 with ⟨HB1a, HB1b⟩
  ihave HB1a' := (Entails.of_eq (eA _ _ _ _)) $$ HB1a
  have hin1 : ∀ x, ((offN ![1, 0] inb_S128x128_S1x128_1_0).view.read (Elt F) idxn x).toNat < S100001x128.size gathers_S100001x128_S128x128.axis := fun x => Nat.lt_succ_of_le (hn _)
  sl_exec
  -- the own rows: the whole scratch, offsets row 0 of the own-index scratch
  have e4a : ∀ f, ((s4W).view.loc (thr d L) ↦{fullShare} f : sProp 𝕄) = ((s4W).view.loc (thr d L) ↦[(s4W).view.set]{fullShare} f) := fun f => by simp only [Memref.view_whole, View.set_whole]
  ihave H4a := (Entails.of_eq (e4a _)) $$ H4'
  have hsubS0 : (offS ![0, 0] inb_S8x128_S1x128_0_0).view.set ⊆ (Finset.univ : Finset (Idx ((s1W).view.loc (thr d L)))) := Finset.subset_univ _
  ihave HS0 := (pointsTo_split_subset hsubS0).1 $$ H1'
  icases HS0 with ⟨HS0a, HS0b⟩
  have eS : ∀ o h qq f, ((s1W).view.loc (thr d L) ↦[(offS o h).view.set]{qq} f : sProp 𝕄) = ((offS o h).view.loc (thr d L) ↦[(offS o h).view.set]{qq} f) := fun _ _ _ _ => rfl
  ihave HS0a' := (Entails.of_eq (eS _ _ _ _)) $$ HS0a
  have hinS : ∀ x, ((offS ![0, 0] inb_S8x128_S1x128_0_0).view.read (Elt F) idxs x).toNat < S100001x128.size gathers_S100001x128_S128x128.axis := fun x => Nat.lt_succ_of_le (hs _)
  sl_exec
  -- what the index scratches hold
  have hidxn' : ∀ (c a : Fin 128), idxn (ix2 c a) = In (ix2 (⟨128 * (2 * (L 1).val + (L 0).val) + c.val, by have h0 : (L 0).val < 2 := (L 0).isLt; have h1 : (L 1).val < 16 := (L 1).isLt; have hc := c.isLt; omega⟩ : Fin 4096) a) := by
    intro c a; rw [← hidxn, View.write_whole_univ]; exact payN_apply In L c a
  have hidxs' : ∀ (j : Fin 8) (a : Fin 128), idxs (ix2 j a) = Is (ix2 (⟨8 * (2 * (L 1).val + (L 0).val) + j.val, by have h0 : (L 0).val < 2 := (L 0).isLt; have h1 : (L 1).val < 16 := (L 1).isLt; have hj := j.isLt; omega⟩ : Fin 256) a) := by
    intro j a; rw [← hidxs, View.write_whole_univ]; exact payS_apply Is L j a
  -- the sums scratch by halves; the two results as the subcore's rows
  have hsub3 : (Finset.univ \ (nbuf1M).view.set : Finset (Idx ((s3W).view.loc (thr d L)))) ⊆ Finset.univ := Finset.subset_univ _
  ihave H3s := (pointsTo_split_subset hsub3).1 $$ H3'
  icases H3s with ⟨H3a, H3b0⟩
  have e3b : ((Finset.univ : Finset (Idx ((s3W).view.loc (thr d L)))) \ (Finset.univ \ (nbuf1M).view.set)) = Finset.univ \ (nbuf0M).view.set := by
    rw [← nbuf0_eq]
  ihave H3b := (Entails.of_eq (congrArg (fun S => ((s3W).view.loc (thr d L) ↦[S]{fullShare} f3 : sProp 𝕄)) e3b)) $$ H3b0
  have eOth : wRowSet (wOf (cL L) (sL L)) = (Finset.univ \ Oth L : Finset S32768x128.Idx) := by
    unfold Oth; exact (Finset.sdiff_sdiff_eq_self (Finset.subset_univ _)).symm
  have e_no : ∀ f, (noLoc d ↦[wRowSet (wOf (cL L) (sL L))]{fullShare} f : sProp 𝕄) = ((noW).view.loc (thr d L) ↦[Finset.univ \ Oth L]{fullShare} f) :=
    fun f => congrArg (fun S => (noLoc d ↦[S]{fullShare} f : sProp 𝕄)) eOth
  have e_so : ∀ f, (soLoc d ↦[wRowSet (wOf (cL L) (sL L))]{fullShare} f : sProp 𝕄) = ((soW).view.loc (thr d L) ↦[Finset.univ \ Oth L]{fullShare} f) :=
    fun f => congrArg (fun S => (soLoc d ↦[S]{fullShare} f : sProp 𝕄)) eOth
  ihave Hno' := (Entails.of_eq (e_no _)) $$ Hno
  ihave Hso' := (Entails.of_eq (e_so _)) $$ Hso
  -- the loop
  sl_for (inv m Is In d L (tShare (cL L) (sL L)) idxn idxs O (insert (SemLoc.dma (7 : DmaSem sig), (default : HIx 1)) (insert (SemLoc.dma (6 : DmaSem sig), (default : HIx 1)) W)))
    $$ [Hc0 HA0b HE0 Hc1 HB1b HE1 Hc2 Hc3 H3a H3b Hno' Hc4 HS0b HE4 Hc5 Hso' HO]
  · intro k acc
    exact hstep idxn idxs hn hs hidxn' hidxs' _ _ k acc
  · unfold inv gPart0 gPart1 oPart sPart
    rw [if_pos (by decide : (0 : Nat) < 64), if_pos (by decide : (0 : Nat) < 64), if_neg (by decide : ¬ (0 : Nat) < 0), if_pos (by decide : (0 : Nat) ≤ 60)]
    isplitr; · iexact Hmw
    isplitl [Hc0 HA0b HE0]
    · iexists ![0, 0], inb_S128x128_S1x128_0_0, ((rows0M).view.writes (Elt F) f2 [⟨Rect.whole S128x128, tile_body.sl.gather0 m d idxn hin0⟩] : Buf (Elt F) ((s2W).view.loc (thr d L)))
      isplitr
      · ipureintro
        refine ⟨rfl, rfl, fun a b => ?_⟩
        rw [rows0_writes]
        exact gather_val_n' (m (embLoc d)) idxn ![0, 0] inb_S128x128_S1x128_0_0 rfl hin0 a b
      isplitl [Hc0]; · iexact Hc0
      isplitl [HA0b] <;> iassumption
    isplitl [Hc1 HB1b HE1]
    · iexists ![1, 0], inb_S128x128_S1x128_1_0, ((rows1M).view.writes (Elt F) f2 [⟨Rect.whole S128x128, tile_body.sl.gather0_1 m d idxn hin1⟩] : Buf (Elt F) ((s2W).view.loc (thr d L)))
      isplitr
      · ipureintro
        refine ⟨rfl, rfl, fun a b => ?_⟩
        rw [rows1_writes]
        exact gather_val_n' (m (embLoc d)) idxn ![1, 0] inb_S128x128_S1x128_1_0 rfl hin1 a b
      isplitl [Hc1]; · iexact Hc1
      isplitl [HB1b] <;> iassumption
    isplitl [Hc2 Hc3 H3a H3b Hno']
    · isplitl [Hc2]; · iexact Hc2
      isplitl [Hc3]; · iexact Hc3
      isplitl [H3a]; · iexists _; iexact H3a
      isplitl [H3b]; · iexists _; iexact H3b
      iexists _; iexact Hno'
    isplitl [Hc4 HS0b HE4 Hc5 Hso']
    · isplitl [Hc4 HS0b HE4]
      · iexists ![0, 0], inb_S8x128_S1x128_0_0, ((s4W).view.writes (Elt F) f4 [⟨Rect.whole S128x128, tile_body.sl.gather0_2 m d idxs hinS⟩] : Buf (Elt F) ((s4W).view.loc (thr d L)))
        isplitr
        · ipureintro
          refine ⟨rfl, rfl, fun a b => ?_⟩
          rw [s4_writes]
          exact gather_val_s' (m (embLoc d)) idxs ![0, 0] inb_S8x128_S1x128_0_0 rfl hinS a b
        isplitl [Hc4]; · iexact Hc4
        isplitl [HS0b] <;> iassumption
      isplitl [Hc5]; · iexact Hc5
      iexists fso
      isplitr
      · ipureintro
        intro y h1 h2
        exact absurd h2 (by omega)
      iexact Hso'
    iexists (insert (SemLoc.dma (7 : DmaSem sig), (default : HIx 1)) (insert (SemLoc.dma (6 : DmaSem sig), (default : HIx 1)) W))
    isplitr
    · ipureintro; exact fun p hp => Or.inl hp
    iexact HO
  iintro %acc HI
  have e64 : Scf.trips k0_t1_loop.lb k0_t1_loop.ub k0_t1_loop.st = 64 := by decide
  ihave HI' := (Entails.of_eq (congrArg (fun n => inv m Is In d L (tShare (cL L) (sL L)) idxn idxs O (insert (SemLoc.dma (7 : DmaSem sig), (default : HIx 1)) (insert (SemLoc.dma (6 : DmaSem sig), (default : HIx 1)) W)) n acc) e64)) $$ HI
  ihave H64 := (inv64_elim m Is In d L (tShare (cL L) (sL L)) idxn idxs O (insert (SemLoc.dma (7 : DmaSem sig), (default : HIx 1)) (insert (SemLoc.dma (6 : DmaSem sig), (default : HIx 1)) W)) acc) $$ HI'
  icases H64 with ⟨-, ⟨Hc0, ⟨%R0, Hr0⟩, H0A, HE0⟩, ⟨Hc1, ⟨%R1, Hr1⟩, H0B, HE1⟩,
    ⟨%offA, %offB, %inbA, %inbB, %gA, %gB, %g, %NA, %NB, %hf, HF2, HF3, Hnor⟩,
    ⟨⟨Hc4, ⟨%R4, H4⟩, H1, HE4⟩, Hc5, ⟨%gs, %hgs, Hsor⟩⟩, ⟨%W', %hW', HO⟩⟩
  sl_exec
  -- the subcore's rows of the two results
  have hsv : (sL L).val = (L 1).val := rfl
  have hcv : (cL L).val = (L 0).val := rfl
  obtain ⟨⟨hA0, hA1, hB0, hB1⟩, hgA, hgB, hg⟩ := hf
  have hL0 : (L 0).val < 2 := (L 0).isLt
  have hL1 : (L 1).val < 16 := (L 1).isLt
  have hWAsub : W8 d L offA inbA ⊆ wRowSet (wOf (cL L) (sL L)) :=
    win8_subset (cL L) (sL L) offA inbA hA1 (by rw [hA0, hsv, hcv]; first | done | (unfold base; omega)) (by rw [hA0, hsv, hcv]; first | done | (unfold base; omega))
  have hWBsub : W8 d L offB inbB ⊆ wRowSet (wOf (cL L) (sL L)) :=
    win8_subset (cL L) (sL L) offB inbB hB1 (by rw [hB0, hsv, hcv]; first | done | (unfold base; omega)) (by rw [hB0, hsv, hcv]; first | done | (unfold base; omega))
  have hAB : Disjoint (W8 d L offA inbA) (W8 d L offB inbB) := win8_disj offA offB inbA inbB (Or.inl (by rw [hA0, hB0]; first | done | omega))
  have hB2 : W8 d L offB inbB ⊆ (Finset.univ \ Oth L) \ W8 d L offA inbA :=
    Finset.subset_sdiff.2 ⟨eOth ▸ hWBsub, hAB.symm⟩
  have hA2 : W8 d L offA inbA ⊆ Finset.univ \ Oth L := eOth ▸ hWAsub
  ihave Hn1 := (pointsTo_join_subset (f := g) (g := gB) hB2) $$ [HF3_dst Hnor]
  · isplitl [HF3_dst] <;> iassumption
  ihave Hn2 := (pointsTo_join_subset (g := gA) hA2) $$ [HF2_dst Hn1]
  · isplitl [HF2_dst] <;> iassumption
  ihave Hn3 := (Entails.of_eq (e_no _).symm) $$ Hn2
  have hnei : ∀ y ∈ wRowSet (wOf (cL L) (sL L)),
      (W8 d L offA inbA).piecewise gA ((W8 d L offB inbB).piecewise gB g) y = (neiVal (m (embLoc d)) In : Buf (Elt F) (noLoc d)) y := by
    intro y hy
    by_cases hyA : y ∈ W8 d L offA inbA
    · rw [Finset.piecewise_eq_of_mem _ _ _ hyA]; exact hgA y hyA
    rw [Finset.piecewise_eq_of_notMem _ _ _ hyA]
    by_cases hyB : y ∈ W8 d L offB inbB
    · rw [Finset.piecewise_eq_of_mem _ _ _ hyB]; exact hgB y hyB
    rw [Finset.piecewise_eq_of_notMem _ _ _ hyB]
    have h1 := (mem_wRowSet (cL L) (sL L) y).1 hy
    have h2 := fun h => hyA ((mem_win8 offA inbA hA1 y).2 h)
    have h3 := fun h => hyB ((mem_win8 offB inbB hB1 y).2 h)
    rw [hsv, hcv] at h1
    rw [hA0] at h2
    rw [hB0] at h3
    refine hg y (by unfold base; omega) ?_
    unfold base at h2 h3 ⊢
    by_contra hc
    have : base L + 16 * (64 - 1) ≤ (y 0).val := by unfold base; omega
    unfold base at this
    by_cases h8 : (y 0).val < 2048 * (L 1).val + 1024 * (L 0).val + 16 * (64 - 1) + 8
    · exact h2 ⟨by omega, by omega⟩
    · exact h3 ⟨by omega, by omega⟩
  ihave Hn4 := (Entails.of_eq (pointsTo_congr hnei)) $$ Hn3
  ihave Hs1 := (Entails.of_eq (e_so _).symm) $$ Hsor
  have hself : ∀ y ∈ wRowSet (wOf (cL L) (sL L)), gs y = (selfVal (m (embLoc d)) Is : Buf (Elt F) (soLoc d)) y := by
    intro y hy
    have h1 := (mem_wRowSet (cL L) (sL L) y).1 hy
    rw [hsv, hcv] at h1
    exact hgs y (by unfold base; omega) (by unfold base; omega)
  ihave Hs2 := (Entails.of_eq (pointsTo_congr hself)) $$ Hs1
  -- the table's share rejoined; the index lists
  ihave Hemb6 := (toks5 (tShare (cL L) (sL L))).2 $$ [HembD HE0 HE1 HE2 HE3 HE4]
  · isplitl [HembD]; · iexact HembD
    isplitl [HE0]; · iexact HE0
    isplitl [HE1]; · iexact HE1
    isplitl [HE2]; · iexact HE2
    isplitl [HE3] <;> iassumption
  ihave Hemb7 := (Entails.of_eq (e_emb _ _)) $$ Hemb6
  ihave Hin7 := (Entails.of_eq (e_in _ _)) $$ Hin'
  ihave His7 := (Entails.of_eq (e_is _ _)) $$ His'
  -- the scratch buffers whole again
  ihave H0j := (toks1 fullShare).2 $$ [H0B H0A]
  · isplitl [H0B] <;> iassumption
  ihave H0k := (Entails.of_eq (e_0 _)) $$ H0j
  ihave H1k := (Entails.of_eq (e_1 _)) $$ H1
  have e2r0 : ∀ f, ((rows0M).view.loc (thr d L) ↦[(rows0M).view.set]{fullShare} f : sProp 𝕄) = ((s2W).view.loc (thr d L) ↦[(rows0M).view.set]{fullShare} f) := fun _ => rfl
  have e2r1 : ∀ f, ((rows1M).view.loc (thr d L) ↦[(rows1M).view.set]{fullShare} f : sProp 𝕄) = ((s2W).view.loc (thr d L) ↦[Finset.univ \ (rows0M).view.set]{fullShare} f) :=
    fun f => congrArg (fun S => ((s2W).view.loc (thr d L) ↦[S]{fullShare} f : sProp 𝕄)) rows1_eq
  ihave Hr0' := (Entails.of_eq (e2r0 _)) $$ Hr0
  ihave Hr1' := (Entails.of_eq (e2r1 _)) $$ Hr1
  ihave H2j := (pointsTo_join_subset (f := R1) (g := R0) (Finset.subset_univ ((rows0M).view.set : Finset (Idx ((s2W).view.loc (thr d L)))))) $$ [Hr0' Hr1']
  · isplitl [Hr0'] <;> iassumption
  ihave H2k := (Entails.of_eq (e_2 _)) $$ H2j
  have e3r1 : ∀ f, ((s3W).view.loc (thr d L) ↦[(nbuf1M).view.set]{fullShare} f : sProp 𝕄) = ((s3W).view.loc (thr d L) ↦[Finset.univ \ (nbuf0M).view.set]{fullShare} f) :=
    fun f => congrArg (fun S => ((s3W).view.loc (thr d L) ↦[S]{fullShare} f : sProp 𝕄)) nbuf1_eq
  ihave HF3s := (Entails.of_eq (e3r1 _)) $$ HF3_src
  ihave H3j := (pointsTo_join_subset (f := NB) (g := NA) (Finset.subset_univ ((nbuf0M).view.set : Finset (Idx ((s3W).view.loc (thr d L)))))) $$ [HF2_src HF3s]
  · isplitl [HF2_src] <;> iassumption
  ihave H3k := (Entails.of_eq (e_3 _)) $$ H3j
  ihave H4j := (Entails.of_eq (e4a _).symm) $$ H4
  ihave H4k := (Entails.of_eq (e_4 _)) $$ H4j
  sl_step
  unfold tileOut
  isplitl [Hemb7 His7 Hin7 Hs2 Hn4]
  · isplitl [Hemb7]; · iexact Hemb7
    isplitl [His7]; · iexact His7
    isplitl [Hin7]; · iexact Hin7
    isplitl [Hs2] <;> iassumption
  isplitl [H0k H1k H2k H3k H4k Hbufs]
  · isplitl [H0k]; · iexists _; iexact H0k
    isplitl [H1k]; · iexists _; iexact H1k
    isplitl [H2k]; · iexists _; iexact H2k
    isplitl [H3k]; · iexists _; iexact H3k
    isplitl [H4k]; · iexists _; iexact H4k
    iexact Hbufs
  isplitl [Hc0 Hc1 HF2 HF3 Hc4 Hc5 Hc6 Hc7 Hsems]
  · isplitl [Hc0]; · iexact Hc0
    isplitl [Hc1]; · iexact Hc1
    isplitl [HF2]; · iexact HF2
    isplitl [HF3]; · iexact HF3
    isplitl [Hc4]; · iexact Hc4
    isplitl [Hc5]; · iexact Hc5
    isplitl [Hc6]; · iexact Hc6
    isplitl [Hc7]; · iexact Hc7
    iexact Hsems
  iexists _
  isplitr
  swap; · iexact HO
  ipureintro
  intro p hp
  rcases Finset.mem_insert.mp hp with rfl | hp
  · exact Or.inr rfl
  rcases Finset.mem_insert.mp hp with rfl | hp
  · exact Or.inr rfl
  rcases hW' p hp with h | h
  · rcases Finset.mem_insert.mp h with rfl | h
    · exact Or.inr rfl
    rcases Finset.mem_insert.mp h with rfl | h
    · exact Or.inr rfl
    exact Or.inl h
  · exact Or.inr h

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s) embW (Memref.isWhole_whole _) inW (Memref.isWhole_whole _) isW (Memref.isWhole_whole _) soW (Memref.isWhole_whole _) noW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The per-subcore obligation of the call, from one trip of the main loop at the invariant. -/
theorem tileObl_of (hF : (K (F := F)).Facts) (hIs : ∀ j, (Is j).toNat ≤ 100000) (hIn : ∀ j, (In j).toNat ≤ 100000)
    (hstep : ∀ (d : Dev nD) (L : grid0.Coords) (O : CellTallies nD τ sig (HIx 1))
        (idxn : Buf (Elt F) ((s0W).view.loc (thr d L))) (idxs : Buf (Elt F) ((s1W).view.loc (thr d L)))
        (hn : ∀ y, (idxn y).toNat ≤ 100000) (hs : ∀ y, (idxs y).toNat ≤ 100000)
        (hidxn : ∀ (c a : Fin 128), idxn (ix2 c a) = In (ix2 (⟨128 * (2 * (L 1).val + (L 0).val) + c.val, by have h0 : (L 0).val < 2 := (L 0).isLt; have h1 : (L 1).val < 16 := (L 1).isLt; have hc := c.isLt; omega⟩ : Fin 4096) a))
        (hidxs : ∀ (j : Fin 8) (a : Fin 128), idxs (ix2 j a) = Is (ix2 (⟨8 * (2 * (L 1).val + (L 0).val) + j.val, by have h0 : (L 0).val < 2 := (L 0).isLt; have h1 : (L 1).val < 16 := (L 1).isLt; have hj := j.isLt; omega⟩ : Fin 256) a))
        (W0 : Waits sig (HIx 1)) (v2 : BitVec 32) (k : Fin k0_t1_loop.trips) (acc : PUnit),
        (∀ g, O g none = 0) →
        inv m Is In d L (tShare (cL L) (sL L)) idxn idxs O W0 k.val acc ⊢ wp frame (wpE (defs₀ (F := F)) 𝒱₀ (thr d L) none) Set.univ
          (k0_t1_body L embW (Memref.isWhole_whole _) inW (Memref.isWhole_whole _) isW (Memref.isWhole_whole _) soW (Memref.isWhole_whole _) noW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scoped0 cc0_scoped1 v2 k acc)
          (inv m Is In d L (tShare (cL L) (sL L)) idxn idxs O W0 (k.val + 1))) :
    (K (F := F)).TileObl (D (F := F)) 𝒱 (P m Is In) v₀ 0 := by
  intro d c i O W hO _ _
  simp only [show (P m Is In).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m Is In d (coordsV ⟨_, hc.1⟩ ⟨_, hc.2⟩) hF hIs hIn O W hO
    (fun idxn idxs hn hs hidxn hidxs W0 v2 k acc => hstep d _ O idxn idxs hn hs hidxn hidxs W0 v2 k acc hO)).trans (wp_mono frame _ _ fun _ => obl_post)

end Cert.KB
end
-- ==== Proof.ReduceLibB.lean ====
/-
  The reduction loops, the arithmetic of one trip: vocabulary.

  Trip k of slot j's loop loads, for each of eight chunks of sixteen lanes, rows 16 k … 16 k + 15 of slot j of the rows
  scratch at those lanes, adds them left to right, and stores the sum at those lanes of row k of slot j of the sums
  scratch. Here: what a row of sums is to hold, what a load of a row reads, which elements a store of a chunk covers.
-/
import proofs.«208587_g27212912787602_cont_9to1_1073_18_alg».proof.Proof.PayB
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]
variable (d : Dev nD) (L : grid0.Coords)
/- The vector subcore at grid point `L` of device `d`. -/
local notation "thrL" => (V d ((L 0).castLE hcore0) ((L 1).castLE hsub0) : Thread nD τ)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)
local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)

/-- What row `y 1` of slot `j` of the sums scratch is to hold at lane `y 2`: the left-to-right sum, at that lane, of rows
    16 (y 1) … 16 (y 1) + 15 of slot `j` of the rows scratch. -/
def sumRow (j : Fin 2) (R : Buf (Elt F) ((s2W).view.loc thrL)) (y : S2x8x128.Idx) : F .f32 :=
  chain16 fun r : Fin 16 => R (ix3 j (⟨16 * (y 1).val + r.val, by have : (y 1).val < 8 := (y 1).isLt; omega⟩ : Fin 128) (y 2))

/-- Row `p` of slot `j` of the sums scratch holds the sums of rows 16 p … 16 p + 15 of slot `j` of the rows scratch. -/
def rowDone (j : Fin 2) (R : Buf (Elt F) ((s2W).view.loc thrL)) (N' : Buf (Elt F) ((s3W).view.loc thrL)) (p : Fin 8) : Prop :=
  ∀ l : Fin 128, N' (ix3 j p l) = chain16 fun r : Fin 16 => R (ix3 j ⟨16 * p.val + r.val, by omega⟩ l)

/-- Sixteen lanes of one row of the rows scratch, as a load through the whole scratch reads them. -/
abbrev rdAt (R : Buf (Elt F) ((s2W).view.loc thrL)) (off : Fin 3 → Nat) (inb : ∀ a, off a + S1x1x16.size a ≤ S2x128x128.size a) :
    Vec F S1x1x16 .f32 :=
  View.readAt (Elt F) (s2W).view (Rect.unit (s := S2x128x128) off S1x1x16.size inb).toLoadRect R

omit [FloatOps F] in
/-- A load at offsets (j, row, lane) reads lanes lane … lane + 15 of row `row` of slot `j`. -/
theorem rdRow (R : Buf (Elt F) ((s2W).view.loc thrL)) (off : Fin 3 → Nat) (inb : ∀ a, off a + S1x1x16.size a ≤ S2x128x128.size a)
    (j row lane : Nat) (hj : j < 2) (hrow : row < 128) (hlane : lane + 16 ≤ 128) (h : off = ![j, row, lane]) (x : S1x1x16.Idx) :
    rdAt d L R off inb x
      = R (ix3 (⟨j, hj⟩ : Fin 2) (⟨row, hrow⟩ : Fin 128) (⟨lane + (x 2).val, by have : (x 2).val < 16 := (x 2).isLt; omega⟩ : Fin 128)) := by
  subst h
  show R _ = R _
  congr 1
  have h0 : (x 0).val = 0 := by have : (x 0).val < 1 := (x 0).isLt; omega
  have h1 : (x 1).val = 0 := by have : (x 1).val < 1 := (x 1).isLt; omega
  funext a
  match a with
  | ⟨0, _⟩ => exact Fin.ext (show j + 1 * (x 0).val = j by omega)
  | ⟨1, _⟩ => exact Fin.ext (show row + 1 * (x 1).val = row by omega)
  | ⟨2, _⟩ => exact Fin.ext (show lane + 1 * (x 2).val = lane + (x 2).val by omega)

/-- A store of sixteen lanes at offsets (j, row, lane) of the sums scratch writes lanes lane … lane + 15 of row `row` of slot `j`. -/
theorem embRow (off : Fin 3 → Nat) (inb : ∀ a, off a + S1x1x16.size a ≤ S2x8x128.size a)
    (j row lane : Nat) (hj : j < 2) (hrow : row < 8) (hlane : lane + 16 ≤ 128) (h : off = ![j, row, lane]) (x : S1x1x16.Idx) :
    (Rect.unit (s := S2x8x128) off S1x1x16.size inb).emb x
      = ix3 (⟨j, hj⟩ : Fin 2) (⟨row, hrow⟩ : Fin 8) (⟨lane + (x 2).val, by have : (x 2).val < 16 := (x 2).isLt; omega⟩ : Fin 128) := by
  subst h
  have h0 : (x 0).val = 0 := by have : (x 0).val < 1 := (x 0).isLt; omega
  have h1 : (x 1).val = 0 := by have : (x 1).val < 1 := (x 1).isLt; omega
  funext a
  match a with
  | ⟨0, _⟩ => exact Fin.ext (show j + 1 * (x 0).val = j by omega)
  | ⟨1, _⟩ => exact Fin.ext (show row + 1 * (x 1).val = row by omega)
  | ⟨2, _⟩ => exact Fin.ext (show lane + 1 * (x 2).val = lane + (x 2).val by omega)

/-- Lane `l` of row `p` of slot `a` lies under the store at offsets (j, row, lane) when a = j, p = row and lane ≤ l < lane + 16; -/
theorem memRow (off : Fin 3 → Nat) (inb : ∀ a, off a + S1x1x16.size a ≤ S2x8x128.size a) (j row lane : Nat) (h : off = ![j, row, lane])
    (a : Fin 2) (p : Fin 8) (l : Fin 128) (ha : a.val = j) (hp : p.val = row) (hl : lane ≤ l.val ∧ l.val < lane + 16) :
    (ix3 a p l : S2x8x128.Idx) ∈ (Rect.unit (s := S2x8x128) off S1x1x16.size inb).set := by
  subst h
  rw [Rect.mem_set_unit]
  intro b
  match b with
  | ⟨0, _⟩ => exact ⟨show j ≤ a.val by omega, show a.val < j + 1 by omega⟩
  | ⟨1, _⟩ => exact ⟨show row ≤ p.val by omega, show p.val < row + 1 by omega⟩
  | ⟨2, _⟩ => exact ⟨show lane ≤ l.val by omega, show l.val < lane + 16 by omega⟩

/-- and it does not when p is another row. -/
theorem notMemRow (off : Fin 3 → Nat) (inb : ∀ a, off a + S1x1x16.size a ≤ S2x8x128.size a) (j row lane : Nat) (h : off = ![j, row, lane])
    (a : Fin 2) (p : Fin 8) (l : Fin 128) (hp : p.val ≠ row) :
    (ix3 a p l : S2x8x128.Idx) ∉ (Rect.unit (s := S2x8x128) off S1x1x16.size inb).set := by
  subst h
  rw [Rect.mem_set_unit]
  intro hm
  have h1 := hm ⟨1, by decide⟩
  have h1' : row ≤ p.val ∧ p.val < row + 1 := h1
  omega

end Cert.KB
end
-- ==== Proof.ReduceVal0B.lean ====
/-
  The reduction loop of slot 0, the arithmetic of one trip.

  Each of the eight chunks of a trip stores, lane by lane, the left-to-right sum of the sixteen vectors it loaded
  (the additions and the casts between sixteen lanes and a 1 x 1 x 16 block are pointwise), and those vectors are
  sixteen consecutive rows of slot 0 of the rows scratch at the chunk's lanes. So after the trip's eight stores row k
  of slot 0 of the sums scratch holds its sums, and the rows below k are as they were.
-/
import proofs.«208587_g27212912787602_cont_9to1_1073_18_alg».proof.Proof.PayB
import proofs.«208587_g27212912787602_cont_9to1_1073_18_alg».proof.Proof.ReduceLibB
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]
variable (d : Dev nD) (L : grid0.Coords)
/- The vector subcore at grid point `L` of device `d`. -/
local notation "thrL" => (V d ((L 0).castLE hcore0) ((L 1).castLE hsub0) : Thread nD τ)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)
local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)

/-- Chunk 0 of slot 0: the stored vector, lane by lane, is the left-to-right sum of the sixteen loaded vectors. -/
theorem pay0_0 (v0 v1 v2 v3 v4 v5 v6 v7 v8 v9 v10 v11 v12 v13 v14 v15 : Vec F S1x1x16 .f32) (x : S1x1x16.Idx) :
    (k0_pay4 (k0_pay3 (k0_pay2 (k0_pay1 v0 v1 v2 v3 v4) v5 v6 v7 v8 v9 v10) v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay4, k0_pay3, k0_pay2, k0_pay1, shapeCast, addf, Shape.reshapeEquiv_reshapeEquiv, Shape.reshapeEquiv_self]

/-- What chunk 0 of a trip of slot 0 stores: the sum of the sixteen vectors it loads. -/
def pc0_0 (R : Buf (Elt F) ((s2W).view.loc thrL)) (k : Fin k0_t2_loop.trips) : FVec F S1x1x16 .f32 :=
  (k0_pay4 (k0_pay3 (k0_pay2 (k0_pay1 (rdAt d L R (k0_off8 k) (k0_off8_inb k)) (rdAt d L R (k0_off9 k 1#32) (k0_off9_inb k ⟨0, by decide⟩)) (rdAt d L R (k0_off9 k 2#32) (k0_off9_inb k ⟨1, by decide⟩)) (rdAt d L R (k0_off9 k 3#32) (k0_off9_inb k ⟨2, by decide⟩)) (rdAt d L R (k0_off9 k 4#32) (k0_off9_inb k ⟨3, by decide⟩))) (rdAt d L R (k0_off9 k 5#32) (k0_off9_inb k ⟨4, by decide⟩)) (rdAt d L R (k0_off9 k 6#32) (k0_off9_inb k ⟨5, by decide⟩)) (rdAt d L R (k0_off9 k 7#32) (k0_off9_inb k ⟨6, by decide⟩)) (rdAt d L R (k0_off9 k 8#32) (k0_off9_inb k ⟨7, by decide⟩)) (rdAt d L R (k0_off9 k 9#32) (k0_off9_inb k ⟨8, by decide⟩)) (rdAt d L R (k0_off9 k 10#32) (k0_off9_inb k ⟨9, by decide⟩))) (rdAt d L R (k0_off9 k 11#32) (k0_off9_inb k ⟨10, by decide⟩)) (rdAt d L R (k0_off9 k 12#32) (k0_off9_inb k ⟨11, by decide⟩)) (rdAt d L R (k0_off9 k 13#32) (k0_off9_inb k ⟨12, by decide⟩)) (rdAt d L R (k0_off9 k 14#32) (k0_off9_inb k ⟨13, by decide⟩)) (rdAt d L R (k0_off9 k 15#32) (k0_off9_inb k ⟨14, by decide⟩))))

/-- Chunk 0 of trip k of slot 0 stores, at lanes 0 … 15 of row k, the sums that row is to hold. -/
theorem chunk0_0 (R : Buf (Elt F) ((s2W).view.loc thrL)) (k : Fin k0_t2_loop.trips) (x : S1x1x16.Idx) :
    pc0_0 d L R k x
      = sumRow d L 0 R ((Rect.unit (s := S2x8x128) (k0_off10 k) S1x1x16.size (k0_off10_inb k)).emb x) := by
  have hk : k.val < 8 := lt_of_lt_of_le k.isLt k0_t2_abs.2.1
  unfold pc0_0
  rw [pay0_0]
  rw [rdRow d L R _ _ 0 (16 * k.val) 0 (by omega) (by omega) (by omega) (show k0_off8 k = ![0, 16 * k.val, 0] from k0_off8_eq k) x,
    rdRow d L R _ _ 0 (16 * k.val + 1) 0 (by omega) (by omega) (by omega) (show k0_off9 k 1#32 = ![0, 16 * k.val + 1, 0] from k0_off9_eq k ⟨0, by decide⟩) x,
    rdRow d L R _ _ 0 (16 * k.val + 2) 0 (by omega) (by omega) (by omega) (show k0_off9 k 2#32 = ![0, 16 * k.val + 2, 0] from k0_off9_eq k ⟨1, by decide⟩) x,
    rdRow d L R _ _ 0 (16 * k.val + 3) 0 (by omega) (by omega) (by omega) (show k0_off9 k 3#32 = ![0, 16 * k.val + 3, 0] from k0_off9_eq k ⟨2, by decide⟩) x,
    rdRow d L R _ _ 0 (16 * k.val + 4) 0 (by omega) (by omega) (by omega) (show k0_off9 k 4#32 = ![0, 16 * k.val + 4, 0] from k0_off9_eq k ⟨3, by decide⟩) x,
    rdRow d L R _ _ 0 (16 * k.val + 5) 0 (by omega) (by omega) (by omega) (show k0_off9 k 5#32 = ![0, 16 * k.val + 5, 0] from k0_off9_eq k ⟨4, by decide⟩) x,
    rdRow d L R _ _ 0 (16 * k.val + 6) 0 (by omega) (by omega) (by omega) (show k0_off9 k 6#32 = ![0, 16 * k.val + 6, 0] from k0_off9_eq k ⟨5, by decide⟩) x,
    rdRow d L R _ _ 0 (16 * k.val + 7) 0 (by omega) (by omega) (by omega) (show k0_off9 k 7#32 = ![0, 16 * k.val + 7, 0] from k0_off9_eq k ⟨6, by decide⟩) x,
    rdRow d L R _ _ 0 (16 * k.val + 8) 0 (by omega) (by omega) (by omega) (show k0_off9 k 8#32 = ![0, 16 * k.val + 8, 0] from k0_off9_eq k ⟨7, by decide⟩) x,
    rdRow d L R _ _ 0 (16 * k.val + 9) 0 (by omega) (by omega) (by omega) (show k0_off9 k 9#32 = ![0, 16 * k.val + 9, 0] from k0_off9_eq k ⟨8, by decide⟩) x,
    rdRow d L R _ _ 0 (16 * k.val + 10) 0 (by omega) (by omega) (by omega) (show k0_off9 k 10#32 = ![0, 16 * k.val + 10, 0] from k0_off9_eq k ⟨9, by decide⟩) x,
    rdRow d L R _ _ 0 (16 * k.val + 11) 0 (by omega) (by omega) (by omega) (show k0_off9 k 11#32 = ![0, 16 * k.val + 11, 0] from k0_off9_eq k ⟨10, by decide⟩) x,
    rdRow d L R _ _ 0 (16 * k.val + 12) 0 (by omega) (by omega) (by omega) (show k0_off9 k 12#32 = ![0, 16 * k.val + 12, 0] from k0_off9_eq k ⟨11, by decide⟩) x,
    rdRow d L R _ _ 0 (16 * k.val + 13) 0 (by omega) (by omega) (by omega) (show k0_off9 k 13#32 = ![0, 16 * k.val + 13, 0] from k0_off9_eq k ⟨12, by decide⟩) x,
    rdRow d L R _ _ 0 (16 * k.val + 14) 0 (by omega) (by omega) (by omega) (show k0_off9 k 14#32 = ![0, 16 * k.val + 14, 0] from k0_off9_eq k ⟨13, by decide⟩) x,
    rdRow d L R _ _ 0 (16 * k.val + 15) 0 (by omega) (by omega) (by omega) (show k0_off9 k 15#32 = ![0, 16 * k.val + 15, 0] from k0_off9_eq k ⟨14, by decide⟩) x]
  rw [embRow _ _ 0 k.val 0 (by omega) (by omega) (by omega) (show k0_off10 k = ![0, k.val, 0] from k0_off10_eq k) x]
  rfl

/-- Chunk 1 of slot 0: the stored vector, lane by lane, is the left-to-right sum of the sixteen loaded vectors. -/
theorem pay0_1 (v0 v1 v2 v3 v4 v5 v6 v7 v8 v9 v10 v11 v12 v13 v14 v15 : Vec F S1x1x16 .f32) (x : S1x1x16.Idx) :
    (k0_pay8 (k0_pay7 (k0_pay6 (k0_pay5 v0 v1 v2 v3 v4) v5 v6 v7 v8 v9 v10) v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay8, k0_pay7, k0_pay6, k0_pay5, shapeCast, addf, Shape.reshapeEquiv_reshapeEquiv, Shape.reshapeEquiv_self]

/-- What chunk 1 of a trip of slot 0 stores: the sum of the sixteen vectors it loads. -/
def pc0_1 (R : Buf (Elt F) ((s2W).view.loc thrL)) (k : Fin k0_t2_loop.trips) : FVec F S1x1x16 .f32 :=
  (k0_pay8 (k0_pay7 (k0_pay6 (k0_pay5 (rdAt d L R (k0_off11 k) (k0_off11_inb k)) (rdAt d L R (k0_off12 k 1#32) (k0_off12_inb k ⟨0, by decide⟩)) (rdAt d L R (k0_off12 k 2#32) (k0_off12_inb k ⟨1, by decide⟩)) (rdAt d L R (k0_off12 k 3#32) (k0_off12_inb k ⟨2, by decide⟩)) (rdAt d L R (k0_off12 k 4#32) (k0_off12_inb k ⟨3, by decide⟩))) (rdAt d L R (k0_off12 k 5#32) (k0_off12_inb k ⟨4, by decide⟩)) (rdAt d L R (k0_off12 k 6#32) (k0_off12_inb k ⟨5, by decide⟩)) (rdAt d L R (k0_off12 k 7#32) (k0_off12_inb k ⟨6, by decide⟩)) (rdAt d L R (k0_off12 k 8#32) (k0_off12_inb k ⟨7, by decide⟩)) (rdAt d L R (k0_off12 k 9#32) (k0_off12_inb k ⟨8, by decide⟩)) (rdAt d L R (k0_off12 k 10#32) (k0_off12_inb k ⟨9, by decide⟩))) (rdAt d L R (k0_off12 k 11#32) (k0_off12_inb k ⟨10, by decide⟩)) (rdAt d L R (k0_off12 k 12#32) (k0_off12_inb k ⟨11, by decide⟩)) (rdAt d L R (k0_off12 k 13#32) (k0_off12_inb k ⟨12, by decide⟩)) (rdAt d L R (k0_off12 k 14#32) (k0_off12_inb k ⟨13, by decide⟩)) (rdAt d L R (k0_off12 k 15#32) (k0_off12_inb k ⟨14, by decide⟩))))

/-- Chunk 1 of trip k of slot 0 stores, at lanes 16 … 31 of row k, the sums that row is to hold. -/
theorem chunk0_1 (R : Buf (Elt F) ((s2W).view.loc thrL)) (k : Fin k0_t2_loop.trips) (x : S1x1x16.Idx) :
    pc0_1 d L R k x
      = sumRow d L 0 R ((Rect.unit (s := S2x8x128) (k0_off13 k) S1x1x16.size (k0_off13_inb k)).emb x) := by
  have hk : k.val < 8 := lt_of_lt_of_le k.isLt k0_t2_abs.2.1
  unfold pc0_1
  rw [pay0_1]
  rw [rdRow d L R _ _ 0 (16 * k.val) 16 (by omega) (by omega) (by omega) (show k0_off11 k = ![0, 16 * k.val, 16] from k0_off11_eq k) x,
    rdRow d L R _ _ 0 (16 * k.val + 1) 16 (by omega) (by omega) (by omega) (show k0_off12 k 1#32 = ![0, 16 * k.val + 1, 16] from k0_off12_eq k ⟨0, by decide⟩) x,
    rdRow d L R _ _ 0 (16 * k.val + 2) 16 (by omega) (by omega) (by omega) (show k0_off12 k 2#32 = ![0, 16 * k.val + 2, 16] from k0_off12_eq k ⟨1, by decide⟩) x,
    rdRow d L R _ _ 0 (16 * k.val + 3) 16 (by omega) (by omega) (by omega) (show k0_off12 k 3#32 = ![0, 16 * k.val + 3, 16] from k0_off12_eq k ⟨2, by decide⟩) x,
    rdRow d L R _ _ 0 (16 * k.val + 4) 16 (by omega) (by omega) (by omega) (show k0_off12 k 4#32 = ![0, 16 * k.val + 4, 16] from k0_off12_eq k ⟨3, by decide⟩) x,
    rdRow d L R _ _ 0 (16 * k.val + 5) 16 (by omega) (by omega) (by omega) (show k0_off12 k 5#32 = ![0, 16 * k.val + 5, 16] from k0_off12_eq k ⟨4, by decide⟩) x,
    rdRow d L R _ _ 0 (16 * k.val + 6) 16 (by omega) (by omega) (by omega) (show k0_off12 k 6#32 = ![0, 16 * k.val + 6, 16] from k0_off12_eq k ⟨5, by decide⟩) x,
    rdRow d L R _ _ 0 (16 * k.val + 7) 16 (by omega) (by omega) (by omega) (show k0_off12 k 7#32 = ![0, 16 * k.val + 7, 16] from k0_off12_eq k ⟨6, by decide⟩) x,
    rdRow d L R _ _ 0 (16 * k.val + 8) 16 (by omega) (by omega) (by omega) (show k0_off12 k 8#32 = ![0, 16 * k.val + 8, 16] from k0_off12_eq k ⟨7, by decide⟩) x,
    rdRow d L R _ _ 0 (16 * k.val + 9) 16 (by omega) (by omega) (by omega) (show k0_off12 k 9#32 = ![0, 16 * k.val + 9, 16] from k0_off12_eq k ⟨8, by decide⟩) x,
    rdRow d L R _ _ 0 (16 * k.val + 10) 16 (by omega) (by omega) (by omega) (show k0_off12 k 10#32 = ![0, 16 * k.val + 10, 16] from k0_off12_eq k ⟨9, by decide⟩) x,
    rdRow d L R _ _ 0 (16 * k.val + 11) 16 (by omega) (by omega) (by omega) (show k0_off12 k 11#32 = ![0, 16 * k.val + 11, 16] from k0_off12_eq k ⟨10, by decide⟩) x,
    rdRow d L R _ _ 0 (16 * k.val + 12) 16 (by omega) (by omega) (by omega) (show k0_off12 k 12#32 = ![0, 16 * k.val + 12, 16] from k0_off12_eq k ⟨11, by decide⟩) x,
    rdRow d L R _ _ 0 (16 * k.val + 13) 16 (by omega) (by omega) (by omega) (show k0_off12 k 13#32 = ![0, 16 * k.val + 13, 16] from k0_off12_eq k ⟨12, by decide⟩) x,
    rdRow d L R _ _ 0 (16 * k.val + 14) 16 (by omega) (by omega) (by omega) (show k0_off12 k 14#32 = ![0, 16 * k.val + 14, 16] from k0_off12_eq k ⟨13, by decide⟩) x,
    rdRow d L R _ _ 0 (16 * k.val + 15) 16 (by omega) (by omega) (by omega) (show k0_off12 k 15#32 = ![0, 16 * k.val + 15, 16] from k0_off12_eq k ⟨14, by decide⟩) x]
  rw [embRow _ _ 0 k.val 16 (by omega) (by omega) (by omega) (show k0_off13 k = ![0, k.val, 16] from k0_off13_eq k) x]
  rfl

/-- Chunk 2 of slot 0: the stored vector, lane by lane, is the left-to-right sum of the sixteen loaded vectors. -/
theorem pay0_2 (v0 v1 v2 v3 v4 v5 v6 v7 v8 v9 v10 v11 v12 v13 v14 v15 : Vec F S1x1x16 .f32) (x : S1x1x16.Idx) :
    (k0_pay13 (k0_pay12 (k0_pay10 (k0_pay9 v0 v1 v2 v3 v4) v5 v6 v7 v8 v9) (k0_pay11 v10) v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay13, k0_pay12, k0_pay10, k0_pay9, k0_pay11, shapeCast, addf, Shape.reshapeEquiv_reshapeEquiv, Shape.reshapeEquiv_self]

/-- What chunk 2 of a trip of slot 0 stores: the sum of the sixteen vectors it loads. -/
def pc0_2 (R : Buf (Elt F) ((s2W).view.loc thrL)) (k : Fin k0_t2_loop.trips) : FVec F S1x1x16 .f32 :=
  (k0_pay13 (k0_pay12 (k0_pay10 (k0_pay9 (rdAt d L R (k0_off14 k) (k0_off14_inb k)) (rdAt d L R (k0_off15 k 1#32) (k0_off15_inb k ⟨0, by decide⟩)) (rdAt d L R (k0_off15 k 2#32) (k0_off15_inb k ⟨1, by decide⟩)) (rdAt d L R (k0_off15 k 3#32) (k0_off15_inb k ⟨2, by decide⟩)) (rdAt d L R (k0_off15 k 4#32) (k0_off15_inb k ⟨3, by decide⟩))) (rdAt d L R (k0_off15 k 5#32) (k0_off15_inb k ⟨4, by decide⟩)) (rdAt d L R (k0_off15 k 6#32) (k0_off15_inb k ⟨5, by decide⟩)) (rdAt d L R (k0_off15 k 7#32) (k0_off15_inb k ⟨6, by decide⟩)) (rdAt d L R (k0_off15 k 8#32) (k0_off15_inb k ⟨7, by decide⟩)) (rdAt d L R (k0_off15 k 9#32) (k0_off15_inb k ⟨8, by decide⟩))) (k0_pay11 (rdAt d L R (k0_off15 k 10#32) (k0_off15_inb k ⟨9, by decide⟩))) (rdAt d L R (k0_off15 k 11#32) (k0_off15_inb k ⟨10, by decide⟩)) (rdAt d L R (k0_off15 k 12#32) (k0_off15_inb k ⟨11, by decide⟩)) (rdAt d L R (k0_off15 k 13#32) (k0_off15_inb k ⟨12, by decide⟩)) (rdAt d L R (k0_off15 k 14#32) (k0_off15_inb k ⟨13, by decide⟩)) (rdAt d L R (k0_off15 k 15#32) (k0_off15_inb k ⟨14, by decide⟩))))

/-- Chunk 2 of trip k of slot 0 stores, at lanes 32 … 47 of row k, the sums that row is to hold. -/
theorem chunk0_2 (R : Buf (Elt F) ((s2W).view.loc thrL)) (k : Fin k0_t2_loop.trips) (x : S1x1x16.Idx) :
    pc0_2 d L R k x
      = sumRow d L 0 R ((Rect.unit (s := S2x8x128) (k0_off16 k) S1x1x16.size (k0_off16_inb k)).emb x) := by
  have hk : k.val < 8 := lt_of_lt_of_le k.isLt k0_t2_abs.2.1
  unfold pc0_2
  rw [pay0_2]
  rw [rdRow d L R _ _ 0 (16 * k.val) 32 (by omega) (by omega) (by omega) (show k0_off14 k = ![0, 16 * k.val, 32] from k0_off14_eq k) x,
    rdRow d L R _ _ 0 (16 * k.val + 1) 32 (by omega) (by omega) (by omega) (show k0_off15 k 1#32 = ![0, 16 * k.val + 1, 32] from k0_off15_eq k ⟨0, by decide⟩) x,
    rdRow d L R _ _ 0 (16 * k.val + 2) 32 (by omega) (by omega) (by omega) (show k0_off15 k 2#32 = ![0, 16 * k.val + 2, 32] from k0_off15_eq k ⟨1, by decide⟩) x,
    rdRow d L R _ _ 0 (16 * k.val + 3) 32 (by omega) (by omega) (by omega) (show k0_off15 k 3#32 = ![0, 16 * k.val + 3, 32] from k0_off15_eq k ⟨2, by decide⟩) x,
    rdRow d L R _ _ 0 (16 * k.val + 4) 32 (by omega) (by omega) (by omega) (show k0_off15 k 4#32 = ![0, 16 * k.val + 4, 32] from k0_off15_eq k ⟨3, by decide⟩) x,
    rdRow d L R _ _ 0 (16 * k.val + 5) 32 (by omega) (by omega) (by omega) (show k0_off15 k 5#32 = ![0, 16 * k.val + 5, 32] from k0_off15_eq k ⟨4, by decide⟩) x,
    rdRow d L R _ _ 0 (16 * k.val + 6) 32 (by omega) (by omega) (by omega) (show k0_off15 k 6#32 = ![0, 16 * k.val + 6, 32] from k0_off15_eq k ⟨5, by decide⟩) x,
    rdRow d L R _ _ 0 (16 * k.val + 7) 32 (by omega) (by omega) (by omega) (show k0_off15 k 7#32 = ![0, 16 * k.val + 7, 32] from k0_off15_eq k ⟨6, by decide⟩) x,
    rdRow d L R _ _ 0 (16 * k.val + 8) 32 (by omega) (by omega) (by omega) (show k0_off15 k 8#32 = ![0, 16 * k.val + 8, 32] from k0_off15_eq k ⟨7, by decide⟩) x,
    rdRow d L R _ _ 0 (16 * k.val + 9) 32 (by omega) (by omega) (by omega) (show k0_off15 k 9#32 = ![0, 16 * k.val + 9, 32] from k0_off15_eq k ⟨8, by decide⟩) x,
    rdRow d L R _ _ 0 (16 * k.val + 10) 32 (by omega) (by omega) (by omega) (show k0_off15 k 10#32 = ![0, 16 * k.val + 10, 32] from k0_off15_eq k ⟨9, by decide⟩) x,
    rdRow d L R _ _ 0 (16 * k.val + 11) 32 (by omega) (by omega) (by omega) (show k0_off15 k 11#32 = ![0, 16 * k.val + 11, 32] from k0_off15_eq k ⟨10, by decide⟩) x,
    rdRow d L R _ _ 0 (16 * k.val + 12) 32 (by omega) (by omega) (by omega) (show k0_off15 k 12#32 = ![0, 16 * k.val + 12, 32] from k0_off15_eq k ⟨11, by decide⟩) x,
    rdRow d L R _ _ 0 (16 * k.val + 13) 32 (by omega) (by omega) (by omega) (show k0_off15 k 13#32 = ![0, 16 * k.val + 13, 32] from k0_off15_eq k ⟨12, by decide⟩) x,
    rdRow d L R _ _ 0 (16 * k.val + 14) 32 (by omega) (by omega) (by omega) (show k0_off15 k 14#32 = ![0, 16 * k.val + 14, 32] from k0_off15_eq k ⟨13, by decide⟩) x,
    rdRow d L R _ _ 0 (16 * k.val + 15) 32 (by omega) (by omega) (by omega) (show k0_off15 k 15#32 = ![0, 16 * k.val + 15, 32] from k0_off15_eq k ⟨14, by decide⟩) x]
  rw [embRow _ _ 0 k.val 32 (by omega) (by omega) (by omega) (show k0_off16 k = ![0, k.val, 32] from k0_off16_eq k) x]
  rfl

/-- Chunk 3 of slot 0: the stored vector, lane by lane, is the left-to-right sum of the sixteen loaded vectors. -/
theorem pay0_3 (v0 v1 v2 v3 v4 v5 v6 v7 v8 v9 v10 v11 v12 v13 v14 v15 : Vec F S1x1x16 .f32) (x : S1x1x16.Idx) :
    (k0_pay17 (k0_pay16 (k0_pay15 (k0_pay14 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay17, k0_pay16, k0_pay15, k0_pay14, shapeCast, addf, Shape.reshapeEquiv_reshapeEquiv, Shape.reshapeEquiv_self]

/-- What chunk 3 of a trip of slot 0 stores: the sum of the sixteen vectors it loads. -/
def pc0_3 (R : Buf (Elt F) ((s2W).view.loc thrL)) (k : Fin k0_t2_loop.trips) : FVec F S1x1x16 .f32 :=
  (k0_pay17 (k0_pay16 (k0_pay15 (k0_pay14 (rdAt d L R (k0_off17 k) (k0_off17_inb k)) (rdAt d L R (k0_off18 k 1#32) (k0_off18_inb k ⟨0, by decide⟩)) (rdAt d L R (k0_off18 k 2#32) (k0_off18_inb k ⟨1, by decide⟩)) (rdAt d L R (k0_off18 k 3#32) (k0_off18_inb k ⟨2, by decide⟩)) (rdAt d L R (k0_off18 k 4#32) (k0_off18_inb k ⟨3, by decide⟩))) (rdAt d L R (k0_off18 k 5#32) (k0_off18_inb k ⟨4, by decide⟩)) (rdAt d L R (k0_off18 k 6#32) (k0_off18_inb k ⟨5, by decide⟩)) (rdAt d L R (k0_off18 k 7#32) (k0_off18_inb k ⟨6, by decide⟩)) (rdAt d L R (k0_off18 k 8#32) (k0_off18_inb k ⟨7, by decide⟩)) (rdAt d L R (k0_off18 k 9#32) (k0_off18_inb k ⟨8, by decide⟩))) (rdAt d L R (k0_off18 k 10#32) (k0_off18_inb k ⟨9, by decide⟩)) (rdAt d L R (k0_off18 k 11#32) (k0_off18_inb k ⟨10, by decide⟩)) (rdAt d L R (k0_off18 k 12#32) (k0_off18_inb k ⟨11, by decide⟩)) (rdAt d L R (k0_off18 k 13#32) (k0_off18_inb k ⟨12, by decide⟩)) (rdAt d L R (k0_off18 k 14#32) (k0_off18_inb k ⟨13, by decide⟩)) (rdAt d L R (k0_off18 k 15#32) (k0_off18_inb k ⟨14, by decide⟩))))

/-- Chunk 3 of trip k of slot 0 stores, at lanes 48 … 63 of row k, the sums that row is to hold. -/
theorem chunk0_3 (R : Buf (Elt F) ((s2W).view.loc thrL)) (k : Fin k0_t2_loop.trips) (x : S1x1x16.Idx) :
    pc0_3 d L R k x
      = sumRow d L 0 R ((Rect.unit (s := S2x8x128) (k0_off19 k) S1x1x16.size (k0_off19_inb k)).emb x) := by
  have hk : k.val < 8 := lt_of_lt_of_le k.isLt k0_t2_abs.2.1
  unfold pc0_3
  rw [pay0_3]
  rw [rdRow d L R _ _ 0 (16 * k.val) 48 (by omega) (by omega) (by omega) (show k0_off17 k = ![0, 16 * k.val, 48] from k0_off17_eq k) x,
    rdRow d L R _ _ 0 (16 * k.val + 1) 48 (by omega) (by omega) (by omega) (show k0_off18 k 1#32 = ![0, 16 * k.val + 1, 48] from k0_off18_eq k ⟨0, by decide⟩) x,
    rdRow d L R _ _ 0 (16 * k.val + 2) 48 (by omega) (by omega) (by omega) (show k0_off18 k 2#32 = ![0, 16 * k.val + 2, 48] from k0_off18_eq k ⟨1, by decide⟩) x,
    rdRow d L R _ _ 0 (16 * k.val + 3) 48 (by omega) (by omega) (by omega) (show k0_off18 k 3#32 = ![0, 16 * k.val + 3, 48] from k0_off18_eq k ⟨2, by decide⟩) x,
    rdRow d L R _ _ 0 (16 * k.val + 4) 48 (by omega) (by omega) (by omega) (show k0_off18 k 4#32 = ![0, 16 * k.val + 4, 48] from k0_off18_eq k ⟨3, by decide⟩) x,
    rdRow d L R _ _ 0 (16 * k.val + 5) 48 (by omega) (by omega) (by omega) (show k0_off18 k 5#32 = ![0, 16 * k.val + 5, 48] from k0_off18_eq k ⟨4, by decide⟩) x,
    rdRow d L R _ _ 0 (16 * k.val + 6) 48 (by omega) (by omega) (by omega) (show k0_off18 k 6#32 = ![0, 16 * k.val + 6, 48] from k0_off18_eq k ⟨5, by decide⟩) x,
    rdRow d L R _ _ 0 (16 * k.val + 7) 48 (by omega) (by omega) (by omega) (show k0_off18 k 7#32 = ![0, 16 * k.val + 7, 48] from k0_off18_eq k ⟨6, by decide⟩) x,
    rdRow d L R _ _ 0 (16 * k.val + 8) 48 (by omega) (by omega) (by omega) (show k0_off18 k 8#32 = ![0, 16 * k.val + 8, 48] from k0_off18_eq k ⟨7, by decide⟩) x,
    rdRow d L R _ _ 0 (16 * k.val + 9) 48 (by omega) (by omega) (by omega) (show k0_off18 k 9#32 = ![0, 16 * k.val + 9, 48] from k0_off18_eq k ⟨8, by decide⟩) x,
    rdRow d L R _ _ 0 (16 * k.val + 10) 48 (by omega) (by omega) (by omega) (show k0_off18 k 10#32 = ![0, 16 * k.val + 10, 48] from k0_off18_eq k ⟨9, by decide⟩) x,
    rdRow d L R _ _ 0 (16 * k.val + 11) 48 (by omega) (by omega) (by omega) (show k0_off18 k 11#32 = ![0, 16 * k.val + 11, 48] from k0_off18_eq k ⟨10, by decide⟩) x,
    rdRow d L R _ _ 0 (16 * k.val + 12) 48 (by omega) (by omega) (by omega) (show k0_off18 k 12#32 = ![0, 16 * k.val + 12, 48] from k0_off18_eq k ⟨11, by decide⟩) x,
    rdRow d L R _ _ 0 (16 * k.val + 13) 48 (by omega) (by omega) (by omega) (show k0_off18 k 13#32 = ![0, 16 * k.val + 13, 48] from k0_off18_eq k ⟨12, by decide⟩) x,
    rdRow d L R _ _ 0 (16 * k.val + 14) 48 (by omega) (by omega) (by omega) (show k0_off18 k 14#32 = ![0, 16 * k.val + 14, 48] from k0_off18_eq k ⟨13, by decide⟩) x,
    rdRow d L R _ _ 0 (16 * k.val + 15) 48 (by omega) (by omega) (by omega) (show k0_off18 k 15#32 = ![0, 16 * k.val + 15, 48] from k0_off18_eq k ⟨14, by decide⟩) x]
  rw [embRow _ _ 0 k.val 48 (by omega) (by omega) (by omega) (show k0_off19 k = ![0, k.val, 48] from k0_off19_eq k) x]
  rfl

/-- Chunk 4 of slot 0: the stored vector, lane by lane, is the left-to-right sum of the sixteen loaded vectors. -/
theorem pay0_4 (v0 v1 v2 v3 v4 v5 v6 v7 v8 v9 v10 v11 v12 v13 v14 v15 : Vec F S1x1x16 .f32) (x : S1x1x16.Idx) :
    (k0_pay21 (k0_pay20 (k0_pay19 (k0_pay18 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay21, k0_pay20, k0_pay19, k0_pay18, shapeCast, addf, Shape.reshapeEquiv_reshapeEquiv, Shape.reshapeEquiv_self]

/-- What chunk 4 of a trip of slot 0 stores: the sum of the sixteen vectors it loads. -/
def pc0_4 (R : Buf (Elt F) ((s2W).view.loc thrL)) (k : Fin k0_t2_loop.trips) : FVec F S1x1x16 .f32 :=
  (k0_pay21 (k0_pay20 (k0_pay19 (k0_pay18 (rdAt d L R (k0_off20 k) (k0_off20_inb k)) (rdAt d L R (k0_off21 k 1#32) (k0_off21_inb k ⟨0, by decide⟩)) (rdAt d L R (k0_off21 k 2#32) (k0_off21_inb k ⟨1, by decide⟩)) (rdAt d L R (k0_off21 k 3#32) (k0_off21_inb k ⟨2, by decide⟩)) (rdAt d L R (k0_off21 k 4#32) (k0_off21_inb k ⟨3, by decide⟩))) (rdAt d L R (k0_off21 k 5#32) (k0_off21_inb k ⟨4, by decide⟩)) (rdAt d L R (k0_off21 k 6#32) (k0_off21_inb k ⟨5, by decide⟩)) (rdAt d L R (k0_off21 k 7#32) (k0_off21_inb k ⟨6, by decide⟩)) (rdAt d L R (k0_off21 k 8#32) (k0_off21_inb k ⟨7, by decide⟩)) (rdAt d L R (k0_off21 k 9#32) (k0_off21_inb k ⟨8, by decide⟩))) (rdAt d L R (k0_off21 k 10#32) (k0_off21_inb k ⟨9, by decide⟩)) (rdAt d L R (k0_off21 k 11#32) (k0_off21_inb k ⟨10, by decide⟩)) (rdAt d L R (k0_off21 k 12#32) (k0_off21_inb k ⟨11, by decide⟩)) (rdAt d L R (k0_off21 k 13#32) (k0_off21_inb k ⟨12, by decide⟩)) (rdAt d L R (k0_off21 k 14#32) (k0_off21_inb k ⟨13, by decide⟩)) (rdAt d L R (k0_off21 k 15#32) (k0_off21_inb k ⟨14, by decide⟩))))

/-- Chunk 4 of trip k of slot 0 stores, at lanes 64 … 79 of row k, the sums that row is to hold. -/
theorem chunk0_4 (R : Buf (Elt F) ((s2W).view.loc thrL)) (k : Fin k0_t2_loop.trips) (x : S1x1x16.Idx) :
    pc0_4 d L R k x
      = sumRow d L 0 R ((Rect.unit (s := S2x8x128) (k0_off22 k) S1x1x16.size (k0_off22_inb k)).emb x) := by
  have hk : k.val < 8 := lt_of_lt_of_le k.isLt k0_t2_abs.2.1
  unfold pc0_4
  rw [pay0_4]
  rw [rdRow d L R _ _ 0 (16 * k.val) 64 (by omega) (by omega) (by omega) (show k0_off20 k = ![0, 16 * k.val, 64] from k0_off20_eq k) x,
    rdRow d L R _ _ 0 (16 * k.val + 1) 64 (by omega) (by omega) (by omega) (show k0_off21 k 1#32 = ![0, 16 * k.val + 1, 64] from k0_off21_eq k ⟨0, by decide⟩) x,
    rdRow d L R _ _ 0 (16 * k.val + 2) 64 (by omega) (by omega) (by omega) (show k0_off21 k 2#32 = ![0, 16 * k.val + 2, 64] from k0_off21_eq k ⟨1, by decide⟩) x,
    rdRow d L R _ _ 0 (16 * k.val + 3) 64 (by omega) (by omega) (by omega) (show k0_off21 k 3#32 = ![0, 16 * k.val + 3, 64] from k0_off21_eq k ⟨2, by decide⟩) x,
    rdRow d L R _ _ 0 (16 * k.val + 4) 64 (by omega) (by omega) (by omega) (show k0_off21 k 4#32 = ![0, 16 * k.val + 4, 64] from k0_off21_eq k ⟨3, by decide⟩) x,
    rdRow d L R _ _ 0 (16 * k.val + 5) 64 (by omega) (by omega) (by omega) (show k0_off21 k 5#32 = ![0, 16 * k.val + 5, 64] from k0_off21_eq k ⟨4, by decide⟩) x,
    rdRow d L R _ _ 0 (16 * k.val + 6) 64 (by omega) (by omega) (by omega) (show k0_off21 k 6#32 = ![0, 16 * k.val + 6, 64] from k0_off21_eq k ⟨5, by decide⟩) x,
    rdRow d L R _ _ 0 (16 * k.val + 7) 64 (by omega) (by omega) (by omega) (show k0_off21 k 7#32 = ![0, 16 * k.val + 7, 64] from k0_off21_eq k ⟨6, by decide⟩) x,
    rdRow d L R _ _ 0 (16 * k.val + 8) 64 (by omega) (by omega) (by omega) (show k0_off21 k 8#32 = ![0, 16 * k.val + 8, 64] from k0_off21_eq k ⟨7, by decide⟩) x,
    rdRow d L R _ _ 0 (16 * k.val + 9) 64 (by omega) (by omega) (by omega) (show k0_off21 k 9#32 = ![0, 16 * k.val + 9, 64] from k0_off21_eq k ⟨8, by decide⟩) x,
    rdRow d L R _ _ 0 (16 * k.val + 10) 64 (by omega) (by omega) (by omega) (show k0_off21 k 10#32 = ![0, 16 * k.val + 10, 64] from k0_off21_eq k ⟨9, by decide⟩) x,
    rdRow d L R _ _ 0 (16 * k.val + 11) 64 (by omega) (by omega) (by omega) (show k0_off21 k 11#32 = ![0, 16 * k.val + 11, 64] from k0_off21_eq k ⟨10, by decide⟩) x,
    rdRow d L R _ _ 0 (16 * k.val + 12) 64 (by omega) (by omega) (by omega) (show k0_off21 k 12#32 = ![0, 16 * k.val + 12, 64] from k0_off21_eq k ⟨11, by decide⟩) x,
    rdRow d L R _ _ 0 (16 * k.val + 13) 64 (by omega) (by omega) (by omega) (show k0_off21 k 13#32 = ![0, 16 * k.val + 13, 64] from k0_off21_eq k ⟨12, by decide⟩) x,
    rdRow d L R _ _ 0 (16 * k.val + 14) 64 (by omega) (by omega) (by omega) (show k0_off21 k 14#32 = ![0, 16 * k.val + 14, 64] from k0_off21_eq k ⟨13, by decide⟩) x,
    rdRow d L R _ _ 0 (16 * k.val + 15) 64 (by omega) (by omega) (by omega) (show k0_off21 k 15#32 = ![0, 16 * k.val + 15, 64] from k0_off21_eq k ⟨14, by decide⟩) x]
  rw [embRow _ _ 0 k.val 64 (by omega) (by omega) (by omega) (show k0_off22 k = ![0, k.val, 64] from k0_off22_eq k) x]
  rfl

/-- Chunk 5 of slot 0: the stored vector, lane by lane, is the left-to-right sum of the sixteen loaded vectors. -/
theorem pay0_5 (v0 v1 v2 v3 v4 v5 v6 v7 v8 v9 v10 v11 v12 v13 v14 v15 : Vec F S1x1x16 .f32) (x : S1x1x16.Idx) :
    (k0_pay25 (k0_pay24 (k0_pay23 (k0_pay22 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay25, k0_pay24, k0_pay23, k0_pay22, shapeCast, addf, Shape.reshapeEquiv_reshapeEquiv, Shape.reshapeEquiv_self]

/-- What chunk 5 of a trip of slot 0 stores: the sum of the sixteen vectors it loads. -/
def pc0_5 (R : Buf (Elt F) ((s2W).view.loc thrL)) (k : Fin k0_t2_loop.trips) : FVec F S1x1x16 .f32 :=
  (k0_pay25 (k0_pay24 (k0_pay23 (k0_pay22 (rdAt d L R (k0_off23 k) (k0_off23_inb k)) (rdAt d L R (k0_off24 k 1#32) (k0_off24_inb k ⟨0, by decide⟩)) (rdAt d L R (k0_off24 k 2#32) (k0_off24_inb k ⟨1, by decide⟩)) (rdAt d L R (k0_off24 k 3#32) (k0_off24_inb k ⟨2, by decide⟩)) (rdAt d L R (k0_off24 k 4#32) (k0_off24_inb k ⟨3, by decide⟩))) (rdAt d L R (k0_off24 k 5#32) (k0_off24_inb k ⟨4, by decide⟩)) (rdAt d L R (k0_off24 k 6#32) (k0_off24_inb k ⟨5, by decide⟩)) (rdAt d L R (k0_off24 k 7#32) (k0_off24_inb k ⟨6, by decide⟩)) (rdAt d L R (k0_off24 k 8#32) (k0_off24_inb k ⟨7, by decide⟩)) (rdAt d L R (k0_off24 k 9#32) (k0_off24_inb k ⟨8, by decide⟩))) (rdAt d L R (k0_off24 k 10#32) (k0_off24_inb k ⟨9, by decide⟩)) (rdAt d L R (k0_off24 k 11#32) (k0_off24_inb k ⟨10, by decide⟩)) (rdAt d L R (k0_off24 k 12#32) (k0_off24_inb k ⟨11, by decide⟩)) (rdAt d L R (k0_off24 k 13#32) (k0_off24_inb k ⟨12, by decide⟩)) (rdAt d L R (k0_off24 k 14#32) (k0_off24_inb k ⟨13, by decide⟩)) (rdAt d L R (k0_off24 k 15#32) (k0_off24_inb k ⟨14, by decide⟩))))

/-- Chunk 5 of trip k of slot 0 stores, at lanes 80 … 95 of row k, the sums that row is to hold. -/
theorem chunk0_5 (R : Buf (Elt F) ((s2W).view.loc thrL)) (k : Fin k0_t2_loop.trips) (x : S1x1x16.Idx) :
    pc0_5 d L R k x
      = sumRow d L 0 R ((Rect.unit (s := S2x8x128) (k0_off25 k) S1x1x16.size (k0_off25_inb k)).emb x) := by
  have hk : k.val < 8 := lt_of_lt_of_le k.isLt k0_t2_abs.2.1
  unfold pc0_5
  rw [pay0_5]
  rw [rdRow d L R _ _ 0 (16 * k.val) 80 (by omega) (by omega) (by omega) (show k0_off23 k = ![0, 16 * k.val, 80] from k0_off23_eq k) x,
    rdRow d L R _ _ 0 (16 * k.val + 1) 80 (by omega) (by omega) (by omega) (show k0_off24 k 1#32 = ![0, 16 * k.val + 1, 80] from k0_off24_eq k ⟨0, by decide⟩) x,
    rdRow d L R _ _ 0 (16 * k.val + 2) 80 (by omega) (by omega) (by omega) (show k0_off24 k 2#32 = ![0, 16 * k.val + 2, 80] from k0_off24_eq k ⟨1, by decide⟩) x,
    rdRow d L R _ _ 0 (16 * k.val + 3) 80 (by omega) (by omega) (by omega) (show k0_off24 k 3#32 = ![0, 16 * k.val + 3, 80] from k0_off24_eq k ⟨2, by decide⟩) x,
    rdRow d L R _ _ 0 (16 * k.val + 4) 80 (by omega) (by omega) (by omega) (show k0_off24 k 4#32 = ![0, 16 * k.val + 4, 80] from k0_off24_eq k ⟨3, by decide⟩) x,
    rdRow d L R _ _ 0 (16 * k.val + 5) 80 (by omega) (by omega) (by omega) (show k0_off24 k 5#32 = ![0, 16 * k.val + 5, 80] from k0_off24_eq k ⟨4, by decide⟩) x,
    rdRow d L R _ _ 0 (16 * k.val + 6) 80 (by omega) (by omega) (by omega) (show k0_off24 k 6#32 = ![0, 16 * k.val + 6, 80] from k0_off24_eq k ⟨5, by decide⟩) x,
    rdRow d L R _ _ 0 (16 * k.val + 7) 80 (by omega) (by omega) (by omega) (show k0_off24 k 7#32 = ![0, 16 * k.val + 7, 80] from k0_off24_eq k ⟨6, by decide⟩) x,
    rdRow d L R _ _ 0 (16 * k.val + 8) 80 (by omega) (by omega) (by omega) (show k0_off24 k 8#32 = ![0, 16 * k.val + 8, 80] from k0_off24_eq k ⟨7, by decide⟩) x,
    rdRow d L R _ _ 0 (16 * k.val + 9) 80 (by omega) (by omega) (by omega) (show k0_off24 k 9#32 = ![0, 16 * k.val + 9, 80] from k0_off24_eq k ⟨8, by decide⟩) x,
    rdRow d L R _ _ 0 (16 * k.val + 10) 80 (by omega) (by omega) (by omega) (show k0_off24 k 10#32 = ![0, 16 * k.val + 10, 80] from k0_off24_eq k ⟨9, by decide⟩) x,
    rdRow d L R _ _ 0 (16 * k.val + 11) 80 (by omega) (by omega) (by omega) (show k0_off24 k 11#32 = ![0, 16 * k.val + 11, 80] from k0_off24_eq k ⟨10, by decide⟩) x,
    rdRow d L R _ _ 0 (16 * k.val + 12) 80 (by omega) (by omega) (by omega) (show k0_off24 k 12#32 = ![0, 16 * k.val + 12, 80] from k0_off24_eq k ⟨11, by decide⟩) x,
    rdRow d L R _ _ 0 (16 * k.val + 13) 80 (by omega) (by omega) (by omega) (show k0_off24 k 13#32 = ![0, 16 * k.val + 13, 80] from k0_off24_eq k ⟨12, by decide⟩) x,
    rdRow d L R _ _ 0 (16 * k.val + 14) 80 (by omega) (by omega) (by omega) (show k0_off24 k 14#32 = ![0, 16 * k.val + 14, 80] from k0_off24_eq k ⟨13, by decide⟩) x,
    rdRow d L R _ _ 0 (16 * k.val + 15) 80 (by omega) (by omega) (by omega) (show k0_off24 k 15#32 = ![0, 16 * k.val + 15, 80] from k0_off24_eq k ⟨14, by decide⟩) x]
  rw [embRow _ _ 0 k.val 80 (by omega) (by omega) (by omega) (show k0_off25 k = ![0, k.val, 80] from k0_off25_eq k) x]
  rfl

/-- Chunk 6 of slot 0: the stored vector, lane by lane, is the left-to-right sum of the sixteen loaded vectors. -/
theorem pay0_6 (v0 v1 v2 v3 v4 v5 v6 v7 v8 v9 v10 v11 v12 v13 v14 v15 : Vec F S1x1x16 .f32) (x : S1x1x16.Idx) :
    (k0_pay29 (k0_pay28 (k0_pay27 (k0_pay26 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay29, k0_pay28, k0_pay27, k0_pay26, shapeCast, addf, Shape.reshapeEquiv_reshapeEquiv, Shape.reshapeEquiv_self]

/-- What chunk 6 of a trip of slot 0 stores: the sum of the sixteen vectors it loads. -/
def pc0_6 (R : Buf (Elt F) ((s2W).view.loc thrL)) (k : Fin k0_t2_loop.trips) : FVec F S1x1x16 .f32 :=
  (k0_pay29 (k0_pay28 (k0_pay27 (k0_pay26 (rdAt d L R (k0_off26 k) (k0_off26_inb k)) (rdAt d L R (k0_off27 k 1#32) (k0_off27_inb k ⟨0, by decide⟩)) (rdAt d L R (k0_off27 k 2#32) (k0_off27_inb k ⟨1, by decide⟩)) (rdAt d L R (k0_off27 k 3#32) (k0_off27_inb k ⟨2, by decide⟩)) (rdAt d L R (k0_off27 k 4#32) (k0_off27_inb k ⟨3, by decide⟩))) (rdAt d L R (k0_off27 k 5#32) (k0_off27_inb k ⟨4, by decide⟩)) (rdAt d L R (k0_off27 k 6#32) (k0_off27_inb k ⟨5, by decide⟩)) (rdAt d L R (k0_off27 k 7#32) (k0_off27_inb k ⟨6, by decide⟩)) (rdAt d L R (k0_off27 k 8#32) (k0_off27_inb k ⟨7, by decide⟩)) (rdAt d L R (k0_off27 k 9#32) (k0_off27_inb k ⟨8, by decide⟩))) (rdAt d L R (k0_off27 k 10#32) (k0_off27_inb k ⟨9, by decide⟩)) (rdAt d L R (k0_off27 k 11#32) (k0_off27_inb k ⟨10, by decide⟩)) (rdAt d L R (k0_off27 k 12#32) (k0_off27_inb k ⟨11, by decide⟩)) (rdAt d L R (k0_off27 k 13#32) (k0_off27_inb k ⟨12, by decide⟩)) (rdAt d L R (k0_off27 k 14#32) (k0_off27_inb k ⟨13, by decide⟩)) (rdAt d L R (k0_off27 k 15#32) (k0_off27_inb k ⟨14, by decide⟩))))

/-- Chunk 6 of trip k of slot 0 stores, at lanes 96 … 111 of row k, the sums that row is to hold. -/
theorem chunk0_6 (R : Buf (Elt F) ((s2W).view.loc thrL)) (k : Fin k0_t2_loop.trips) (x : S1x1x16.Idx) :
    pc0_6 d L R k x
      = sumRow d L 0 R ((Rect.unit (s := S2x8x128) (k0_off28 k) S1x1x16.size (k0_off28_inb k)).emb x) := by
  have hk : k.val < 8 := lt_of_lt_of_le k.isLt k0_t2_abs.2.1
  unfold pc0_6
  rw [pay0_6]
  rw [rdRow d L R _ _ 0 (16 * k.val) 96 (by omega) (by omega) (by omega) (show k0_off26 k = ![0, 16 * k.val, 96] from k0_off26_eq k) x,
    rdRow d L R _ _ 0 (16 * k.val + 1) 96 (by omega) (by omega) (by omega) (show k0_off27 k 1#32 = ![0, 16 * k.val + 1, 96] from k0_off27_eq k ⟨0, by decide⟩) x,
    rdRow d L R _ _ 0 (16 * k.val + 2) 96 (by omega) (by omega) (by omega) (show k0_off27 k 2#32 = ![0, 16 * k.val + 2, 96] from k0_off27_eq k ⟨1, by decide⟩) x,
    rdRow d L R _ _ 0 (16 * k.val + 3) 96 (by omega) (by omega) (by omega) (show k0_off27 k 3#32 = ![0, 16 * k.val + 3, 96] from k0_off27_eq k ⟨2, by decide⟩) x,
    rdRow d L R _ _ 0 (16 * k.val + 4) 96 (by omega) (by omega) (by omega) (show k0_off27 k 4#32 = ![0, 16 * k.val + 4, 96] from k0_off27_eq k ⟨3, by decide⟩) x,
    rdRow d L R _ _ 0 (16 * k.val + 5) 96 (by omega) (by omega) (by omega) (show k0_off27 k 5#32 = ![0, 16 * k.val + 5, 96] from k0_off27_eq k ⟨4, by decide⟩) x,
    rdRow d L R _ _ 0 (16 * k.val + 6) 96 (by omega) (by omega) (by omega) (show k0_off27 k 6#32 = ![0, 16 * k.val + 6, 96] from k0_off27_eq k ⟨5, by decide⟩) x,
    rdRow d L R _ _ 0 (16 * k.val + 7) 96 (by omega) (by omega) (by omega) (show k0_off27 k 7#32 = ![0, 16 * k.val + 7, 96] from k0_off27_eq k ⟨6, by decide⟩) x,
    rdRow d L R _ _ 0 (16 * k.val + 8) 96 (by omega) (by omega) (by omega) (show k0_off27 k 8#32 = ![0, 16 * k.val + 8, 96] from k0_off27_eq k ⟨7, by decide⟩) x,
    rdRow d L R _ _ 0 (16 * k.val + 9) 96 (by omega) (by omega) (by omega) (show k0_off27 k 9#32 = ![0, 16 * k.val + 9, 96] from k0_off27_eq k ⟨8, by decide⟩) x,
    rdRow d L R _ _ 0 (16 * k.val + 10) 96 (by omega) (by omega) (by omega) (show k0_off27 k 10#32 = ![0, 16 * k.val + 10, 96] from k0_off27_eq k ⟨9, by decide⟩) x,
    rdRow d L R _ _ 0 (16 * k.val + 11) 96 (by omega) (by omega) (by omega) (show k0_off27 k 11#32 = ![0, 16 * k.val + 11, 96] from k0_off27_eq k ⟨10, by decide⟩) x,
    rdRow d L R _ _ 0 (16 * k.val + 12) 96 (by omega) (by omega) (by omega) (show k0_off27 k 12#32 = ![0, 16 * k.val + 12, 96] from k0_off27_eq k ⟨11, by decide⟩) x,
    rdRow d L R _ _ 0 (16 * k.val + 13) 96 (by omega) (by omega) (by omega) (show k0_off27 k 13#32 = ![0, 16 * k.val + 13, 96] from k0_off27_eq k ⟨12, by decide⟩) x,
    rdRow d L R _ _ 0 (16 * k.val + 14) 96 (by omega) (by omega) (by omega) (show k0_off27 k 14#32 = ![0, 16 * k.val + 14, 96] from k0_off27_eq k ⟨13, by decide⟩) x,
    rdRow d L R _ _ 0 (16 * k.val + 15) 96 (by omega) (by omega) (by omega) (show k0_off27 k 15#32 = ![0, 16 * k.val + 15, 96] from k0_off27_eq k ⟨14, by decide⟩) x]
  rw [embRow _ _ 0 k.val 96 (by omega) (by omega) (by omega) (show k0_off28 k = ![0, k.val, 96] from k0_off28_eq k) x]
  rfl

/-- Chunk 7 of slot 0: the stored vector, lane by lane, is the left-to-right sum of the sixteen loaded vectors. -/
theorem pay0_7 (v0 v1 v2 v3 v4 v5 v6 v7 v8 v9 v10 v11 v12 v13 v14 v15 : Vec F S1x1x16 .f32) (x : S1x1x16.Idx) :
    (k0_pay67 (k0_pay32 (k0_pay31 (k0_pay30 v0 v1 v2 v3 v4) v5 v6 v7 v8 v9) v10 v11 v12 v13 v14) (k0_pay33 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay67, k0_pay32, k0_pay31, k0_pay30, k0_pay33, shapeCast, addf, Shape.reshapeEquiv_reshapeEquiv, Shape.reshapeEquiv_self]

/-- What chunk 7 of a trip of slot 0 stores: the sum of the sixteen vectors it loads. -/
def pc0_7 (R : Buf (Elt F) ((s2W).view.loc thrL)) (k : Fin k0_t2_loop.trips) : FVec F S1x1x16 .f32 :=
  (k0_pay67 (k0_pay32 (k0_pay31 (k0_pay30 (rdAt d L R (k0_off29 k) (k0_off29_inb k)) (rdAt d L R (k0_off30 k 1#32) (k0_off30_inb k ⟨0, by decide⟩)) (rdAt d L R (k0_off30 k 2#32) (k0_off30_inb k ⟨1, by decide⟩)) (rdAt d L R (k0_off30 k 3#32) (k0_off30_inb k ⟨2, by decide⟩)) (rdAt d L R (k0_off30 k 4#32) (k0_off30_inb k ⟨3, by decide⟩))) (rdAt d L R (k0_off30 k 5#32) (k0_off30_inb k ⟨4, by decide⟩)) (rdAt d L R (k0_off30 k 6#32) (k0_off30_inb k ⟨5, by decide⟩)) (rdAt d L R (k0_off30 k 7#32) (k0_off30_inb k ⟨6, by decide⟩)) (rdAt d L R (k0_off30 k 8#32) (k0_off30_inb k ⟨7, by decide⟩)) (rdAt d L R (k0_off30 k 9#32) (k0_off30_inb k ⟨8, by decide⟩))) (rdAt d L R (k0_off30 k 10#32) (k0_off30_inb k ⟨9, by decide⟩)) (rdAt d L R (k0_off30 k 11#32) (k0_off30_inb k ⟨10, by decide⟩)) (rdAt d L R (k0_off30 k 12#32) (k0_off30_inb k ⟨11, by decide⟩)) (rdAt d L R (k0_off30 k 13#32) (k0_off30_inb k ⟨12, by decide⟩)) (rdAt d L R (k0_off30 k 14#32) (k0_off30_inb k ⟨13, by decide⟩))) (k0_pay33 (rdAt d L R (k0_off30 k 15#32) (k0_off30_inb k ⟨14, by decide⟩))))

/-- Chunk 7 of trip k of slot 0 stores, at lanes 112 … 127 of row k, the sums that row is to hold. -/
theorem chunk0_7 (R : Buf (Elt F) ((s2W).view.loc thrL)) (k : Fin k0_t2_loop.trips) (x : S1x1x16.Idx) :
    pc0_7 d L R k x
      = sumRow d L 0 R ((Rect.unit (s := S2x8x128) (k0_off31 k) S1x1x16.size (k0_off31_inb k)).emb x) := by
  have hk : k.val < 8 := lt_of_lt_of_le k.isLt k0_t2_abs.2.1
  unfold pc0_7
  rw [pay0_7]
  rw [rdRow d L R _ _ 0 (16 * k.val) 112 (by omega) (by omega) (by omega) (show k0_off29 k = ![0, 16 * k.val, 112] from k0_off29_eq k) x,
    rdRow d L R _ _ 0 (16 * k.val + 1) 112 (by omega) (by omega) (by omega) (show k0_off30 k 1#32 = ![0, 16 * k.val + 1, 112] from k0_off30_eq k ⟨0, by decide⟩) x,
    rdRow d L R _ _ 0 (16 * k.val + 2) 112 (by omega) (by omega) (by omega) (show k0_off30 k 2#32 = ![0, 16 * k.val + 2, 112] from k0_off30_eq k ⟨1, by decide⟩) x,
    rdRow d L R _ _ 0 (16 * k.val + 3) 112 (by omega) (by omega) (by omega) (show k0_off30 k 3#32 = ![0, 16 * k.val + 3, 112] from k0_off30_eq k ⟨2, by decide⟩) x,
    rdRow d L R _ _ 0 (16 * k.val + 4) 112 (by omega) (by omega) (by omega) (show k0_off30 k 4#32 = ![0, 16 * k.val + 4, 112] from k0_off30_eq k ⟨3, by decide⟩) x,
    rdRow d L R _ _ 0 (16 * k.val + 5) 112 (by omega) (by omega) (by omega) (show k0_off30 k 5#32 = ![0, 16 * k.val + 5, 112] from k0_off30_eq k ⟨4, by decide⟩) x,
    rdRow d L R _ _ 0 (16 * k.val + 6) 112 (by omega) (by omega) (by omega) (show k0_off30 k 6#32 = ![0, 16 * k.val + 6, 112] from k0_off30_eq k ⟨5, by decide⟩) x,
    rdRow d L R _ _ 0 (16 * k.val + 7) 112 (by omega) (by omega) (by omega) (show k0_off30 k 7#32 = ![0, 16 * k.val + 7, 112] from k0_off30_eq k ⟨6, by decide⟩) x,
    rdRow d L R _ _ 0 (16 * k.val + 8) 112 (by omega) (by omega) (by omega) (show k0_off30 k 8#32 = ![0, 16 * k.val + 8, 112] from k0_off30_eq k ⟨7, by decide⟩) x,
    rdRow d L R _ _ 0 (16 * k.val + 9) 112 (by omega) (by omega) (by omega) (show k0_off30 k 9#32 = ![0, 16 * k.val + 9, 112] from k0_off30_eq k ⟨8, by decide⟩) x,
    rdRow d L R _ _ 0 (16 * k.val + 10) 112 (by omega) (by omega) (by omega) (show k0_off30 k 10#32 = ![0, 16 * k.val + 10, 112] from k0_off30_eq k ⟨9, by decide⟩) x,
    rdRow d L R _ _ 0 (16 * k.val + 11) 112 (by omega) (by omega) (by omega) (show k0_off30 k 11#32 = ![0, 16 * k.val + 11, 112] from k0_off30_eq k ⟨10, by decide⟩) x,
    rdRow d L R _ _ 0 (16 * k.val + 12) 112 (by omega) (by omega) (by omega) (show k0_off30 k 12#32 = ![0, 16 * k.val + 12, 112] from k0_off30_eq k ⟨11, by decide⟩) x,
    rdRow d L R _ _ 0 (16 * k.val + 13) 112 (by omega) (by omega) (by omega) (show k0_off30 k 13#32 = ![0, 16 * k.val + 13, 112] from k0_off30_eq k ⟨12, by decide⟩) x,
    rdRow d L R _ _ 0 (16 * k.val + 14) 112 (by omega) (by omega) (by omega) (show k0_off30 k 14#32 = ![0, 16 * k.val + 14, 112] from k0_off30_eq k ⟨13, by decide⟩) x,
    rdRow d L R _ _ 0 (16 * k.val + 15) 112 (by omega) (by omega) (by omega) (show k0_off30 k 15#32 = ![0, 16 * k.val + 15, 112] from k0_off30_eq k ⟨14, by decide⟩) x]
  rw [embRow _ _ 0 k.val 112 (by omega) (by omega) (by omega) (show k0_off31 k = ![0, k.val, 112] from k0_off31_eq k) x]
  rfl

/-- The store of chunk 0 of trip k of slot 0: its rectangle and what it stores. -/
def piece0_0 (R : Buf (Elt F) ((s2W).view.loc thrL)) (k : Fin k0_t2_loop.trips) : View.Piece (Elt F) cc0_scratch3.ty.shape cc0_scratch3.ty.elt :=
  ⟨Rect.unit (s := S2x8x128) (k0_off10 k) S1x1x16.size (k0_off10_inb k), pc0_0 d L R k⟩

/-- The store of chunk 1 of trip k of slot 0: its rectangle and what it stores. -/
def piece0_1 (R : Buf (Elt F) ((s2W).view.loc thrL)) (k : Fin k0_t2_loop.trips) : View.Piece (Elt F) cc0_scratch3.ty.shape cc0_scratch3.ty.elt :=
  ⟨Rect.unit (s := S2x8x128) (k0_off13 k) S1x1x16.size (k0_off13_inb k), pc0_1 d L R k⟩

/-- The store of chunk 2 of trip k of slot 0: its rectangle and what it stores. -/
def piece0_2 (R : Buf (Elt F) ((s2W).view.loc thrL)) (k : Fin k0_t2_loop.trips) : View.Piece (Elt F) cc0_scratch3.ty.shape cc0_scratch3.ty.elt :=
  ⟨Rect.unit (s := S2x8x128) (k0_off16 k) S1x1x16.size (k0_off16_inb k), pc0_2 d L R k⟩

/-- The store of chunk 3 of trip k of slot 0: its rectangle and what it stores. -/
def piece0_3 (R : Buf (Elt F) ((s2W).view.loc thrL)) (k : Fin k0_t2_loop.trips) : View.Piece (Elt F) cc0_scratch3.ty.shape cc0_scratch3.ty.elt :=
  ⟨Rect.unit (s := S2x8x128) (k0_off19 k) S1x1x16.size (k0_off19_inb k), pc0_3 d L R k⟩

/-- The store of chunk 4 of trip k of slot 0: its rectangle and what it stores. -/
def piece0_4 (R : Buf (Elt F) ((s2W).view.loc thrL)) (k : Fin k0_t2_loop.trips) : View.Piece (Elt F) cc0_scratch3.ty.shape cc0_scratch3.ty.elt :=
  ⟨Rect.unit (s := S2x8x128) (k0_off22 k) S1x1x16.size (k0_off22_inb k), pc0_4 d L R k⟩

/-- The store of chunk 5 of trip k of slot 0: its rectangle and what it stores. -/
def piece0_5 (R : Buf (Elt F) ((s2W).view.loc thrL)) (k : Fin k0_t2_loop.trips) : View.Piece (Elt F) cc0_scratch3.ty.shape cc0_scratch3.ty.elt :=
  ⟨Rect.unit (s := S2x8x128) (k0_off25 k) S1x1x16.size (k0_off25_inb k), pc0_5 d L R k⟩

/-- The store of chunk 6 of trip k of slot 0: its rectangle and what it stores. -/
def piece0_6 (R : Buf (Elt F) ((s2W).view.loc thrL)) (k : Fin k0_t2_loop.trips) : View.Piece (Elt F) cc0_scratch3.ty.shape cc0_scratch3.ty.elt :=
  ⟨Rect.unit (s := S2x8x128) (k0_off28 k) S1x1x16.size (k0_off28_inb k), pc0_6 d L R k⟩

/-- The store of chunk 7 of trip k of slot 0: its rectangle and what it stores. -/
def piece0_7 (R : Buf (Elt F) ((s2W).view.loc thrL)) (k : Fin k0_t2_loop.trips) : View.Piece (Elt F) cc0_scratch3.ty.shape cc0_scratch3.ty.elt :=
  ⟨Rect.unit (s := S2x8x128) (k0_off31 k) S1x1x16.size (k0_off31_inb k), pc0_7 d L R k⟩

/-- The eight stores of trip k of slot 0, the last first. -/
def pieces0 (R : Buf (Elt F) ((s2W).view.loc thrL)) (k : Fin k0_t2_loop.trips) : List (View.Piece (Elt F) cc0_scratch3.ty.shape cc0_scratch3.ty.elt) :=
  [piece0_7 d L R k, piece0_6 d L R k, piece0_5 d L R k, piece0_4 d L R k, piece0_3 d L R k, piece0_2 d L R k, piece0_1 d L R k, piece0_0 d L R k]

/-- One trip of slot 0: if rows below k of the slot's sums hold their sums before the trip's eight stores, rows below k + 1 do after
    them. Row k is covered lane by lane by the eight chunks, each storing that row's sums; the other rows are not touched. -/
theorem tripPure0 (R : Buf (Elt F) ((s2W).view.loc thrL)) (N' : Buf (Elt F) ((s3W).view.loc thrL)) (k : Fin k0_t2_loop.trips)
    (hdone : ∀ p : Fin 8, p.val < k.val → rowDone d L 0 R N' p) :
    ∀ p : Fin 8, p.val < k.val + 1 → rowDone d L 0 R ((s3W).view.writes (Elt F) N' (pieces0 d L R k)) p := by
  have hk : k.val < 8 := lt_of_lt_of_le k.isLt k0_t2_abs.2.1
  intro p hp l
  have hpieces : ∀ q ∈ pieces0 d L R k, ∀ x : q.1.shape.Idx, q.2 x = sumRow d L 0 R (q.1.emb x) := by
    intro q hq
    simp only [pieces0, List.mem_cons, List.not_mem_nil, _root_.or_false] at hq
    rcases hq with rfl | rfl | rfl | rfl | rfl | rfl | rfl | rfl
    · exact fun x => chunk0_7 d L R k x
    · exact fun x => chunk0_6 d L R k x
    · exact fun x => chunk0_5 d L R k x
    · exact fun x => chunk0_4 d L R k x
    · exact fun x => chunk0_3 d L R k x
    · exact fun x => chunk0_2 d L R k x
    · exact fun x => chunk0_1 d L R k x
    · exact fun x => chunk0_0 d L R k x
  by_cases hpk : p.val = k.val
  · have hcov : ∃ q ∈ pieces0 d L R k, (ix3 0 p l : S2x8x128.Idx) ∈ q.1.set := by
      have hl := l.isLt
      rcases (show l.val / 16 = 0 ∨ l.val / 16 = 1 ∨ l.val / 16 = 2 ∨ l.val / 16 = 3 ∨ l.val / 16 = 4 ∨ l.val / 16 = 5 ∨ l.val / 16 = 6 ∨ l.val / 16 = 7 by omega)
        with h | h | h | h | h | h | h | h
      · exact ⟨piece0_0 d L R k, (List.mem_cons_of_mem _ (List.mem_cons_of_mem _ (List.mem_cons_of_mem _ (List.mem_cons_of_mem _ (List.mem_cons_of_mem _ (List.mem_cons_of_mem _ (List.mem_cons_of_mem _ List.mem_cons_self))))))),
          memRow _ (k0_off10_inb k) 0 k.val 0 (show k0_off10 k = ![0, k.val, 0] from k0_off10_eq k) 0 p l rfl hpk (by omega)⟩
      · exact ⟨piece0_1 d L R k, (List.mem_cons_of_mem _ (List.mem_cons_of_mem _ (List.mem_cons_of_mem _ (List.mem_cons_of_mem _ (List.mem_cons_of_mem _ (List.mem_cons_of_mem _ List.mem_cons_self)))))),
          memRow _ (k0_off13_inb k) 0 k.val 16 (show k0_off13 k = ![0, k.val, 16] from k0_off13_eq k) 0 p l rfl hpk (by omega)⟩
      · exact ⟨piece0_2 d L R k, (List.mem_cons_of_mem _ (List.mem_cons_of_mem _ (List.mem_cons_of_mem _ (List.mem_cons_of_mem _ (List.mem_cons_of_mem _ List.mem_cons_self))))),
          memRow _ (k0_off16_inb k) 0 k.val 32 (show k0_off16 k = ![0, k.val, 32] from k0_off16_eq k) 0 p l rfl hpk (by omega)⟩
      · exact ⟨piece0_3 d L R k, (List.mem_cons_of_mem _ (List.mem_cons_of_mem _ (List.mem_cons_of_mem _ (List.mem_cons_of_mem _ List.mem_cons_self)))),
          memRow _ (k0_off19_inb k) 0 k.val 48 (show k0_off19 k = ![0, k.val, 48] from k0_off19_eq k) 0 p l rfl hpk (by omega)⟩
      · exact ⟨piece0_4 d L R k, (List.mem_cons_of_mem _ (List.mem_cons_of_mem _ (List.mem_cons_of_mem _ List.mem_cons_self))),
          memRow _ (k0_off22_inb k) 0 k.val 64 (show k0_off22 k = ![0, k.val, 64] from k0_off22_eq k) 0 p l rfl hpk (by omega)⟩
      · exact ⟨piece0_5 d L R k, (List.mem_cons_of_mem _ (List.mem_cons_of_mem _ List.mem_cons_self)),
          memRow _ (k0_off25_inb k) 0 k.val 80 (show k0_off25 k = ![0, k.val, 80] from k0_off25_eq k) 0 p l rfl hpk (by omega)⟩
      · exact ⟨piece0_6 d L R k, (List.mem_cons_of_mem _ List.mem_cons_self),
          memRow _ (k0_off28_inb k) 0 k.val 96 (show k0_off28 k = ![0, k.val, 96] from k0_off28_eq k) 0 p l rfl hpk (by omega)⟩
      · exact ⟨piece0_7 d L R k, List.mem_cons_self,
          memRow _ (k0_off31_inb k) 0 k.val 112 (show k0_off31 k = ![0, k.val, 112] from k0_off31_eq k) 0 p l rfl hpk (by omega)⟩
    exact View.read_writes_apply_of_pieces (s3W).view N' (sumRow d L 0 R) (pieces0 d L R k) hpieces (ix3 0 p l) hcov
  · have hlt : p.val < k.val := by omega
    have hnm : ∀ q ∈ pieces0 d L R k, (ix3 0 p l : S2x8x128.Idx) ∉ q.1.set := by
      intro q hq
      simp only [pieces0, List.mem_cons, List.not_mem_nil, _root_.or_false] at hq
      rcases hq with rfl | rfl | rfl | rfl | rfl | rfl | rfl | rfl
      · exact notMemRow _ (k0_off31_inb k) 0 k.val 112 (show k0_off31 k = ![0, k.val, 112] from k0_off31_eq k) 0 p l hpk
      · exact notMemRow _ (k0_off28_inb k) 0 k.val 96 (show k0_off28 k = ![0, k.val, 96] from k0_off28_eq k) 0 p l hpk
      · exact notMemRow _ (k0_off25_inb k) 0 k.val 80 (show k0_off25 k = ![0, k.val, 80] from k0_off25_eq k) 0 p l hpk
      · exact notMemRow _ (k0_off22_inb k) 0 k.val 64 (show k0_off22 k = ![0, k.val, 64] from k0_off22_eq k) 0 p l hpk
      · exact notMemRow _ (k0_off19_inb k) 0 k.val 48 (show k0_off19 k = ![0, k.val, 48] from k0_off19_eq k) 0 p l hpk
      · exact notMemRow _ (k0_off16_inb k) 0 k.val 32 (show k0_off16 k = ![0, k.val, 32] from k0_off16_eq k) 0 p l hpk
      · exact notMemRow _ (k0_off13_inb k) 0 k.val 16 (show k0_off13 k = ![0, k.val, 16] from k0_off13_eq k) 0 p l hpk
      · exact notMemRow _ (k0_off10_inb k) 0 k.val 0 (show k0_off10 k = ![0, k.val, 0] from k0_off10_eq k) 0 p l hpk
    exact (View.read_writes_apply_of_forall_not_mem (s3W).view N' (ix3 0 p l) (pieces0 d L R k) hnm).trans (hdone p hlt l)

end Cert.KB
end
-- ==== Proof.ReduceVal1B.lean ====
/-
  The reduction loop of slot 1, the arithmetic of one trip.

  Each of the eight chunks of a trip stores, lane by lane, the left-to-right sum of the sixteen vectors it loaded
  (the additions and the casts between sixteen lanes and a 1 x 1 x 16 block are pointwise), and those vectors are
  sixteen consecutive rows of slot 1 of the rows scratch at the chunk's lanes. So after the trip's eight stores row k
  of slot 1 of the sums scratch holds its sums, and the rows below k are as they were.
-/
import proofs.«208587_g27212912787602_cont_9to1_1073_18_alg».proof.Proof.PayB
import proofs.«208587_g27212912787602_cont_9to1_1073_18_alg».proof.Proof.ReduceLibB
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]
variable (d : Dev nD) (L : grid0.Coords)
/- The vector subcore at grid point `L` of device `d`. -/
local notation "thrL" => (V d ((L 0).castLE hcore0) ((L 1).castLE hsub0) : Thread nD τ)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)
local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)

/-- Chunk 0 of slot 1: the stored vector, lane by lane, is the left-to-right sum of the sixteen loaded vectors. -/
theorem pay1_0 (v0 v1 v2 v3 v4 v5 v6 v7 v8 v9 v10 v11 v12 v13 v14 v15 : Vec F S1x1x16 .f32) (x : S1x1x16.Idx) :
    (k0_pay37 (k0_pay36 (k0_pay35 (k0_pay34 v0 v1 v2 v3 v4) v5 v6 v7 v8 v9 v10) v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay37, k0_pay36, k0_pay35, k0_pay34, shapeCast, addf, Shape.reshapeEquiv_reshapeEquiv, Shape.reshapeEquiv_self]

/-- What chunk 0 of a trip of slot 1 stores: the sum of the sixteen vectors it loads. -/
def pc1_0 (R : Buf (Elt F) ((s2W).view.loc thrL)) (k : Fin k0_t3_loop.trips) : FVec F S1x1x16 .f32 :=
  (k0_pay37 (k0_pay36 (k0_pay35 (k0_pay34 (rdAt d L R (k0_off36 k) (k0_off36_inb k)) (rdAt d L R (k0_off37 k 1#32) (k0_off37_inb k ⟨0, by decide⟩)) (rdAt d L R (k0_off37 k 2#32) (k0_off37_inb k ⟨1, by decide⟩)) (rdAt d L R (k0_off37 k 3#32) (k0_off37_inb k ⟨2, by decide⟩)) (rdAt d L R (k0_off37 k 4#32) (k0_off37_inb k ⟨3, by decide⟩))) (rdAt d L R (k0_off37 k 5#32) (k0_off37_inb k ⟨4, by decide⟩)) (rdAt d L R (k0_off37 k 6#32) (k0_off37_inb k ⟨5, by decide⟩)) (rdAt d L R (k0_off37 k 7#32) (k0_off37_inb k ⟨6, by decide⟩)) (rdAt d L R (k0_off37 k 8#32) (k0_off37_inb k ⟨7, by decide⟩)) (rdAt d L R (k0_off37 k 9#32) (k0_off37_inb k ⟨8, by decide⟩)) (rdAt d L R (k0_off37 k 10#32) (k0_off37_inb k ⟨9, by decide⟩))) (rdAt d L R (k0_off37 k 11#32) (k0_off37_inb k ⟨10, by decide⟩)) (rdAt d L R (k0_off37 k 12#32) (k0_off37_inb k ⟨11, by decide⟩)) (rdAt d L R (k0_off37 k 13#32) (k0_off37_inb k ⟨12, by decide⟩)) (rdAt d L R (k0_off37 k 14#32) (k0_off37_inb k ⟨13, by decide⟩)) (rdAt d L R (k0_off37 k 15#32) (k0_off37_inb k ⟨14, by decide⟩))))

/-- Chunk 0 of trip k of slot 1 stores, at lanes 0 … 15 of row k, the sums that row is to hold. -/
theorem chunk1_0 (R : Buf (Elt F) ((s2W).view.loc thrL)) (k : Fin k0_t3_loop.trips) (x : S1x1x16.Idx) :
    pc1_0 d L R k x
      = sumRow d L 1 R ((Rect.unit (s := S2x8x128) (k0_off38 k) S1x1x16.size (k0_off38_inb k)).emb x) := by
  have hk : k.val < 8 := lt_of_lt_of_le k.isLt k0_t3_abs.2.1
  unfold pc1_0
  rw [pay1_0]
  rw [rdRow d L R _ _ 1 (16 * k.val) 0 (by omega) (by omega) (by omega) (show k0_off36 k = ![1, 16 * k.val, 0] from k0_off36_eq k) x,
    rdRow d L R _ _ 1 (16 * k.val + 1) 0 (by omega) (by omega) (by omega) (show k0_off37 k 1#32 = ![1, 16 * k.val + 1, 0] from k0_off37_eq k ⟨0, by decide⟩) x,
    rdRow d L R _ _ 1 (16 * k.val + 2) 0 (by omega) (by omega) (by omega) (show k0_off37 k 2#32 = ![1, 16 * k.val + 2, 0] from k0_off37_eq k ⟨1, by decide⟩) x,
    rdRow d L R _ _ 1 (16 * k.val + 3) 0 (by omega) (by omega) (by omega) (show k0_off37 k 3#32 = ![1, 16 * k.val + 3, 0] from k0_off37_eq k ⟨2, by decide⟩) x,
    rdRow d L R _ _ 1 (16 * k.val + 4) 0 (by omega) (by omega) (by omega) (show k0_off37 k 4#32 = ![1, 16 * k.val + 4, 0] from k0_off37_eq k ⟨3, by decide⟩) x,
    rdRow d L R _ _ 1 (16 * k.val + 5) 0 (by omega) (by omega) (by omega) (show k0_off37 k 5#32 = ![1, 16 * k.val + 5, 0] from k0_off37_eq k ⟨4, by decide⟩) x,
    rdRow d L R _ _ 1 (16 * k.val + 6) 0 (by omega) (by omega) (by omega) (show k0_off37 k 6#32 = ![1, 16 * k.val + 6, 0] from k0_off37_eq k ⟨5, by decide⟩) x,
    rdRow d L R _ _ 1 (16 * k.val + 7) 0 (by omega) (by omega) (by omega) (show k0_off37 k 7#32 = ![1, 16 * k.val + 7, 0] from k0_off37_eq k ⟨6, by decide⟩) x,
    rdRow d L R _ _ 1 (16 * k.val + 8) 0 (by omega) (by omega) (by omega) (show k0_off37 k 8#32 = ![1, 16 * k.val + 8, 0] from k0_off37_eq k ⟨7, by decide⟩) x,
    rdRow d L R _ _ 1 (16 * k.val + 9) 0 (by omega) (by omega) (by omega) (show k0_off37 k 9#32 = ![1, 16 * k.val + 9, 0] from k0_off37_eq k ⟨8, by decide⟩) x,
    rdRow d L R _ _ 1 (16 * k.val + 10) 0 (by omega) (by omega) (by omega) (show k0_off37 k 10#32 = ![1, 16 * k.val + 10, 0] from k0_off37_eq k ⟨9, by decide⟩) x,
    rdRow d L R _ _ 1 (16 * k.val + 11) 0 (by omega) (by omega) (by omega) (show k0_off37 k 11#32 = ![1, 16 * k.val + 11, 0] from k0_off37_eq k ⟨10, by decide⟩) x,
    rdRow d L R _ _ 1 (16 * k.val + 12) 0 (by omega) (by omega) (by omega) (show k0_off37 k 12#32 = ![1, 16 * k.val + 12, 0] from k0_off37_eq k ⟨11, by decide⟩) x,
    rdRow d L R _ _ 1 (16 * k.val + 13) 0 (by omega) (by omega) (by omega) (show k0_off37 k 13#32 = ![1, 16 * k.val + 13, 0] from k0_off37_eq k ⟨12, by decide⟩) x,
    rdRow d L R _ _ 1 (16 * k.val + 14) 0 (by omega) (by omega) (by omega) (show k0_off37 k 14#32 = ![1, 16 * k.val + 14, 0] from k0_off37_eq k ⟨13, by decide⟩) x,
    rdRow d L R _ _ 1 (16 * k.val + 15) 0 (by omega) (by omega) (by omega) (show k0_off37 k 15#32 = ![1, 16 * k.val + 15, 0] from k0_off37_eq k ⟨14, by decide⟩) x]
  rw [embRow _ _ 1 k.val 0 (by omega) (by omega) (by omega) (show k0_off38 k = ![1, k.val, 0] from k0_off38_eq k) x]
  rfl

/-- Chunk 1 of slot 1: the stored vector, lane by lane, is the left-to-right sum of the sixteen loaded vectors. -/
theorem pay1_1 (v0 v1 v2 v3 v4 v5 v6 v7 v8 v9 v10 v11 v12 v13 v14 v15 : Vec F S1x1x16 .f32) (x : S1x1x16.Idx) :
    (k0_pay41 (k0_pay40 (k0_pay39 (k0_pay38 v0 v1 v2 v3 v4) v5 v6 v7 v8 v9 v10) v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay41, k0_pay40, k0_pay39, k0_pay38, shapeCast, addf, Shape.reshapeEquiv_reshapeEquiv, Shape.reshapeEquiv_self]

/-- What chunk 1 of a trip of slot 1 stores: the sum of the sixteen vectors it loads. -/
def pc1_1 (R : Buf (Elt F) ((s2W).view.loc thrL)) (k : Fin k0_t3_loop.trips) : FVec F S1x1x16 .f32 :=
  (k0_pay41 (k0_pay40 (k0_pay39 (k0_pay38 (rdAt d L R (k0_off39 k) (k0_off39_inb k)) (rdAt d L R (k0_off40 k 1#32) (k0_off40_inb k ⟨0, by decide⟩)) (rdAt d L R (k0_off40 k 2#32) (k0_off40_inb k ⟨1, by decide⟩)) (rdAt d L R (k0_off40 k 3#32) (k0_off40_inb k ⟨2, by decide⟩)) (rdAt d L R (k0_off40 k 4#32) (k0_off40_inb k ⟨3, by decide⟩))) (rdAt d L R (k0_off40 k 5#32) (k0_off40_inb k ⟨4, by decide⟩)) (rdAt d L R (k0_off40 k 6#32) (k0_off40_inb k ⟨5, by decide⟩)) (rdAt d L R (k0_off40 k 7#32) (k0_off40_inb k ⟨6, by decide⟩)) (rdAt d L R (k0_off40 k 8#32) (k0_off40_inb k ⟨7, by decide⟩)) (rdAt d L R (k0_off40 k 9#32) (k0_off40_inb k ⟨8, by decide⟩)) (rdAt d L R (k0_off40 k 10#32) (k0_off40_inb k ⟨9, by decide⟩))) (rdAt d L R (k0_off40 k 11#32) (k0_off40_inb k ⟨10, by decide⟩)) (rdAt d L R (k0_off40 k 12#32) (k0_off40_inb k ⟨11, by decide⟩)) (rdAt d L R (k0_off40 k 13#32) (k0_off40_inb k ⟨12, by decide⟩)) (rdAt d L R (k0_off40 k 14#32) (k0_off40_inb k ⟨13, by decide⟩)) (rdAt d L R (k0_off40 k 15#32) (k0_off40_inb k ⟨14, by decide⟩))))

/-- Chunk 1 of trip k of slot 1 stores, at lanes 16 … 31 of row k, the sums that row is to hold. -/
theorem chunk1_1 (R : Buf (Elt F) ((s2W).view.loc thrL)) (k : Fin k0_t3_loop.trips) (x : S1x1x16.Idx) :
    pc1_1 d L R k x
      = sumRow d L 1 R ((Rect.unit (s := S2x8x128) (k0_off41 k) S1x1x16.size (k0_off41_inb k)).emb x) := by
  have hk : k.val < 8 := lt_of_lt_of_le k.isLt k0_t3_abs.2.1
  unfold pc1_1
  rw [pay1_1]
  rw [rdRow d L R _ _ 1 (16 * k.val) 16 (by omega) (by omega) (by omega) (show k0_off39 k = ![1, 16 * k.val, 16] from k0_off39_eq k) x,
    rdRow d L R _ _ 1 (16 * k.val + 1) 16 (by omega) (by omega) (by omega) (show k0_off40 k 1#32 = ![1, 16 * k.val + 1, 16] from k0_off40_eq k ⟨0, by decide⟩) x,
    rdRow d L R _ _ 1 (16 * k.val + 2) 16 (by omega) (by omega) (by omega) (show k0_off40 k 2#32 = ![1, 16 * k.val + 2, 16] from k0_off40_eq k ⟨1, by decide⟩) x,
    rdRow d L R _ _ 1 (16 * k.val + 3) 16 (by omega) (by omega) (by omega) (show k0_off40 k 3#32 = ![1, 16 * k.val + 3, 16] from k0_off40_eq k ⟨2, by decide⟩) x,
    rdRow d L R _ _ 1 (16 * k.val + 4) 16 (by omega) (by omega) (by omega) (show k0_off40 k 4#32 = ![1, 16 * k.val + 4, 16] from k0_off40_eq k ⟨3, by decide⟩) x,
    rdRow d L R _ _ 1 (16 * k.val + 5) 16 (by omega) (by omega) (by omega) (show k0_off40 k 5#32 = ![1, 16 * k.val + 5, 16] from k0_off40_eq k ⟨4, by decide⟩) x,
    rdRow d L R _ _ 1 (16 * k.val + 6) 16 (by omega) (by omega) (by omega) (show k0_off40 k 6#32 = ![1, 16 * k.val + 6, 16] from k0_off40_eq k ⟨5, by decide⟩) x,
    rdRow d L R _ _ 1 (16 * k.val + 7) 16 (by omega) (by omega) (by omega) (show k0_off40 k 7#32 = ![1, 16 * k.val + 7, 16] from k0_off40_eq k ⟨6, by decide⟩) x,
    rdRow d L R _ _ 1 (16 * k.val + 8) 16 (by omega) (by omega) (by omega) (show k0_off40 k 8#32 = ![1, 16 * k.val + 8, 16] from k0_off40_eq k ⟨7, by decide⟩) x,
    rdRow d L R _ _ 1 (16 * k.val + 9) 16 (by omega) (by omega) (by omega) (show k0_off40 k 9#32 = ![1, 16 * k.val + 9, 16] from k0_off40_eq k ⟨8, by decide⟩) x,
    rdRow d L R _ _ 1 (16 * k.val + 10) 16 (by omega) (by omega) (by omega) (show k0_off40 k 10#32 = ![1, 16 * k.val + 10, 16] from k0_off40_eq k ⟨9, by decide⟩) x,
    rdRow d L R _ _ 1 (16 * k.val + 11) 16 (by omega) (by omega) (by omega) (show k0_off40 k 11#32 = ![1, 16 * k.val + 11, 16] from k0_off40_eq k ⟨10, by decide⟩) x,
    rdRow d L R _ _ 1 (16 * k.val + 12) 16 (by omega) (by omega) (by omega) (show k0_off40 k 12#32 = ![1, 16 * k.val + 12, 16] from k0_off40_eq k ⟨11, by decide⟩) x,
    rdRow d L R _ _ 1 (16 * k.val + 13) 16 (by omega) (by omega) (by omega) (show k0_off40 k 13#32 = ![1, 16 * k.val + 13, 16] from k0_off40_eq k ⟨12, by decide⟩) x,
    rdRow d L R _ _ 1 (16 * k.val + 14) 16 (by omega) (by omega) (by omega) (show k0_off40 k 14#32 = ![1, 16 * k.val + 14, 16] from k0_off40_eq k ⟨13, by decide⟩) x,
    rdRow d L R _ _ 1 (16 * k.val + 15) 16 (by omega) (by omega) (by omega) (show k0_off40 k 15#32 = ![1, 16 * k.val + 15, 16] from k0_off40_eq k ⟨14, by decide⟩) x]
  rw [embRow _ _ 1 k.val 16 (by omega) (by omega) (by omega) (show k0_off41 k = ![1, k.val, 16] from k0_off41_eq k) x]
  rfl

/-- Chunk 2 of slot 1: the stored vector, lane by lane, is the left-to-right sum of the sixteen loaded vectors. -/
theorem pay1_2 (v0 v1 v2 v3 v4 v5 v6 v7 v8 v9 v10 v11 v12 v13 v14 v15 : Vec F S1x1x16 .f32) (x : S1x1x16.Idx) :
    (k0_pay46 (k0_pay45 (k0_pay43 (k0_pay42 v0 v1 v2 v3 v4) v5 v6 v7 v8 v9) (k0_pay44 v10) v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay46, k0_pay45, k0_pay43, k0_pay42, k0_pay44, shapeCast, addf, Shape.reshapeEquiv_reshapeEquiv, Shape.reshapeEquiv_self]

/-- What chunk 2 of a trip of slot 1 stores: the sum of the sixteen vectors it loads. -/
def pc1_2 (R : Buf (Elt F) ((s2W).view.loc thrL)) (k : Fin k0_t3_loop.trips) : FVec F S1x1x16 .f32 :=
  (k0_pay46 (k0_pay45 (k0_pay43 (k0_pay42 (rdAt d L R (k0_off42 k) (k0_off42_inb k)) (rdAt d L R (k0_off43 k 1#32) (k0_off43_inb k ⟨0, by decide⟩)) (rdAt d L R (k0_off43 k 2#32) (k0_off43_inb k ⟨1, by decide⟩)) (rdAt d L R (k0_off43 k 3#32) (k0_off43_inb k ⟨2, by decide⟩)) (rdAt d L R (k0_off43 k 4#32) (k0_off43_inb k ⟨3, by decide⟩))) (rdAt d L R (k0_off43 k 5#32) (k0_off43_inb k ⟨4, by decide⟩)) (rdAt d L R (k0_off43 k 6#32) (k0_off43_inb k ⟨5, by decide⟩)) (rdAt d L R (k0_off43 k 7#32) (k0_off43_inb k ⟨6, by decide⟩)) (rdAt d L R (k0_off43 k 8#32) (k0_off43_inb k ⟨7, by decide⟩)) (rdAt d L R (k0_off43 k 9#32) (k0_off43_inb k ⟨8, by decide⟩))) (k0_pay44 (rdAt d L R (k0_off43 k 10#32) (k0_off43_inb k ⟨9, by decide⟩))) (rdAt d L R (k0_off43 k 11#32) (k0_off43_inb k ⟨10, by decide⟩)) (rdAt d L R (k0_off43 k 12#32) (k0_off43_inb k ⟨11, by decide⟩)) (rdAt d L R (k0_off43 k 13#32) (k0_off43_inb k ⟨12, by decide⟩)) (rdAt d L R (k0_off43 k 14#32) (k0_off43_inb k ⟨13, by decide⟩)) (rdAt d L R (k0_off43 k 15#32) (k0_off43_inb k ⟨14, by decide⟩))))

/-- Chunk 2 of trip k of slot 1 stores, at lanes 32 … 47 of row k, the sums that row is to hold. -/
theorem chunk1_2 (R : Buf (Elt F) ((s2W).view.loc thrL)) (k : Fin k0_t3_loop.trips) (x : S1x1x16.Idx) :
    pc1_2 d L R k x
      = sumRow d L 1 R ((Rect.unit (s := S2x8x128) (k0_off44 k) S1x1x16.size (k0_off44_inb k)).emb x) := by
  have hk : k.val < 8 := lt_of_lt_of_le k.isLt k0_t3_abs.2.1
  unfold pc1_2
  rw [pay1_2]
  rw [rdRow d L R _ _ 1 (16 * k.val) 32 (by omega) (by omega) (by omega) (show k0_off42 k = ![1, 16 * k.val, 32] from k0_off42_eq k) x,
    rdRow d L R _ _ 1 (16 * k.val + 1) 32 (by omega) (by omega) (by omega) (show k0_off43 k 1#32 = ![1, 16 * k.val + 1, 32] from k0_off43_eq k ⟨0, by decide⟩) x,
    rdRow d L R _ _ 1 (16 * k.val + 2) 32 (by omega) (by omega) (by omega) (show k0_off43 k 2#32 = ![1, 16 * k.val + 2, 32] from k0_off43_eq k ⟨1, by decide⟩) x,
    rdRow d L R _ _ 1 (16 * k.val + 3) 32 (by omega) (by omega) (by omega) (show k0_off43 k 3#32 = ![1, 16 * k.val + 3, 32] from k0_off43_eq k ⟨2, by decide⟩) x,
    rdRow d L R _ _ 1 (16 * k.val + 4) 32 (by omega) (by omega) (by omega) (show k0_off43 k 4#32 = ![1, 16 * k.val + 4, 32] from k0_off43_eq k ⟨3, by decide⟩) x,
    rdRow d L R _ _ 1 (16 * k.val + 5) 32 (by omega) (by omega) (by omega) (show k0_off43 k 5#32 = ![1, 16 * k.val + 5, 32] from k0_off43_eq k ⟨4, by decide⟩) x,
    rdRow d L R _ _ 1 (16 * k.val + 6) 32 (by omega) (by omega) (by omega) (show k0_off43 k 6#32 = ![1, 16 * k.val + 6, 32] from k0_off43_eq k ⟨5, by decide⟩) x,
    rdRow d L R _ _ 1 (16 * k.val + 7) 32 (by omega) (by omega) (by omega) (show k0_off43 k 7#32 = ![1, 16 * k.val + 7, 32] from k0_off43_eq k ⟨6, by decide⟩) x,
    rdRow d L R _ _ 1 (16 * k.val + 8) 32 (by omega) (by omega) (by omega) (show k0_off43 k 8#32 = ![1, 16 * k.val + 8, 32] from k0_off43_eq k ⟨7, by decide⟩) x,
    rdRow d L R _ _ 1 (16 * k.val + 9) 32 (by omega) (by omega) (by omega) (show k0_off43 k 9#32 = ![1, 16 * k.val + 9, 32] from k0_off43_eq k ⟨8, by decide⟩) x,
    rdRow d L R _ _ 1 (16 * k.val + 10) 32 (by omega) (by omega) (by omega) (show k0_off43 k 10#32 = ![1, 16 * k.val + 10, 32] from k0_off43_eq k ⟨9, by decide⟩) x,
    rdRow d L R _ _ 1 (16 * k.val + 11) 32 (by omega) (by omega) (by omega) (show k0_off43 k 11#32 = ![1, 16 * k.val + 11, 32] from k0_off43_eq k ⟨10, by decide⟩) x,
    rdRow d L R _ _ 1 (16 * k.val + 12) 32 (by omega) (by omega) (by omega) (show k0_off43 k 12#32 = ![1, 16 * k.val + 12, 32] from k0_off43_eq k ⟨11, by decide⟩) x,
    rdRow d L R _ _ 1 (16 * k.val + 13) 32 (by omega) (by omega) (by omega) (show k0_off43 k 13#32 = ![1, 16 * k.val + 13, 32] from k0_off43_eq k ⟨12, by decide⟩) x,
    rdRow d L R _ _ 1 (16 * k.val + 14) 32 (by omega) (by omega) (by omega) (show k0_off43 k 14#32 = ![1, 16 * k.val + 14, 32] from k0_off43_eq k ⟨13, by decide⟩) x,
    rdRow d L R _ _ 1 (16 * k.val + 15) 32 (by omega) (by omega) (by omega) (show k0_off43 k 15#32 = ![1, 16 * k.val + 15, 32] from k0_off43_eq k ⟨14, by decide⟩) x]
  rw [embRow _ _ 1 k.val 32 (by omega) (by omega) (by omega) (show k0_off44 k = ![1, k.val, 32] from k0_off44_eq k) x]
  rfl

/-- Chunk 3 of slot 1: the stored vector, lane by lane, is the left-to-right sum of the sixteen loaded vectors. -/
theorem pay1_3 (v0 v1 v2 v3 v4 v5 v6 v7 v8 v9 v10 v11 v12 v13 v14 v15 : Vec F S1x1x16 .f32) (x : S1x1x16.Idx) :
    (k0_pay50 (k0_pay49 (k0_pay48 (k0_pay47 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay50, k0_pay49, k0_pay48, k0_pay47, shapeCast, addf, Shape.reshapeEquiv_reshapeEquiv, Shape.reshapeEquiv_self]

/-- What chunk 3 of a trip of slot 1 stores: the sum of the sixteen vectors it loads. -/
def pc1_3 (R : Buf (Elt F) ((s2W).view.loc thrL)) (k : Fin k0_t3_loop.trips) : FVec F S1x1x16 .f32 :=
  (k0_pay50 (k0_pay49 (k0_pay48 (k0_pay47 (rdAt d L R (k0_off45 k) (k0_off45_inb k)) (rdAt d L R (k0_off46 k 1#32) (k0_off46_inb k ⟨0, by decide⟩)) (rdAt d L R (k0_off46 k 2#32) (k0_off46_inb k ⟨1, by decide⟩)) (rdAt d L R (k0_off46 k 3#32) (k0_off46_inb k ⟨2, by decide⟩)) (rdAt d L R (k0_off46 k 4#32) (k0_off46_inb k ⟨3, by decide⟩))) (rdAt d L R (k0_off46 k 5#32) (k0_off46_inb k ⟨4, by decide⟩)) (rdAt d L R (k0_off46 k 6#32) (k0_off46_inb k ⟨5, by decide⟩)) (rdAt d L R (k0_off46 k 7#32) (k0_off46_inb k ⟨6, by decide⟩)) (rdAt d L R (k0_off46 k 8#32) (k0_off46_inb k ⟨7, by decide⟩)) (rdAt d L R (k0_off46 k 9#32) (k0_off46_inb k ⟨8, by decide⟩))) (rdAt d L R (k0_off46 k 10#32) (k0_off46_inb k ⟨9, by decide⟩)) (rdAt d L R (k0_off46 k 11#32) (k0_off46_inb k ⟨10, by decide⟩)) (rdAt d L R (k0_off46 k 12#32) (k0_off46_inb k ⟨11, by decide⟩)) (rdAt d L R (k0_off46 k 13#32) (k0_off46_inb k ⟨12, by decide⟩)) (rdAt d L R (k0_off46 k 14#32) (k0_off46_inb k ⟨13, by decide⟩)) (rdAt d L R (k0_off46 k 15#32) (k0_off46_inb k ⟨14, by decide⟩))))

/-- Chunk 3 of trip k of slot 1 stores, at lanes 48 … 63 of row k, the sums that row is to hold. -/
theorem chunk1_3 (R : Buf (Elt F) ((s2W).view.loc thrL)) (k : Fin k0_t3_loop.trips) (x : S1x1x16.Idx) :
    pc1_3 d L R k x
      = sumRow d L 1 R ((Rect.unit (s := S2x8x128) (k0_off47 k) S1x1x16.size (k0_off47_inb k)).emb x) := by
  have hk : k.val < 8 := lt_of_lt_of_le k.isLt k0_t3_abs.2.1
  unfold pc1_3
  rw [pay1_3]
  rw [rdRow d L R _ _ 1 (16 * k.val) 48 (by omega) (by omega) (by omega) (show k0_off45 k = ![1, 16 * k.val, 48] from k0_off45_eq k) x,
    rdRow d L R _ _ 1 (16 * k.val + 1) 48 (by omega) (by omega) (by omega) (show k0_off46 k 1#32 = ![1, 16 * k.val + 1, 48] from k0_off46_eq k ⟨0, by decide⟩) x,
    rdRow d L R _ _ 1 (16 * k.val + 2) 48 (by omega) (by omega) (by omega) (show k0_off46 k 2#32 = ![1, 16 * k.val + 2, 48] from k0_off46_eq k ⟨1, by decide⟩) x,
    rdRow d L R _ _ 1 (16 * k.val + 3) 48 (by omega) (by omega) (by omega) (show k0_off46 k 3#32 = ![1, 16 * k.val + 3, 48] from k0_off46_eq k ⟨2, by decide⟩) x,
    rdRow d L R _ _ 1 (16 * k.val + 4) 48 (by omega) (by omega) (by omega) (show k0_off46 k 4#32 = ![1, 16 * k.val + 4, 48] from k0_off46_eq k ⟨3, by decide⟩) x,
    rdRow d L R _ _ 1 (16 * k.val + 5) 48 (by omega) (by omega) (by omega) (show k0_off46 k 5#32 = ![1, 16 * k.val + 5, 48] from k0_off46_eq k ⟨4, by decide⟩) x,
    rdRow d L R _ _ 1 (16 * k.val + 6) 48 (by omega) (by omega) (by omega) (show k0_off46 k 6#32 = ![1, 16 * k.val + 6, 48] from k0_off46_eq k ⟨5, by decide⟩) x,
    rdRow d L R _ _ 1 (16 * k.val + 7) 48 (by omega) (by omega) (by omega) (show k0_off46 k 7#32 = ![1, 16 * k.val + 7, 48] from k0_off46_eq k ⟨6, by decide⟩) x,
    rdRow d L R _ _ 1 (16 * k.val + 8) 48 (by omega) (by omega) (by omega) (show k0_off46 k 8#32 = ![1, 16 * k.val + 8, 48] from k0_off46_eq k ⟨7, by decide⟩) x,
    rdRow d L R _ _ 1 (16 * k.val + 9) 48 (by omega) (by omega) (by omega) (show k0_off46 k 9#32 = ![1, 16 * k.val + 9, 48] from k0_off46_eq k ⟨8, by decide⟩) x,
    rdRow d L R _ _ 1 (16 * k.val + 10) 48 (by omega) (by omega) (by omega) (show k0_off46 k 10#32 = ![1, 16 * k.val + 10, 48] from k0_off46_eq k ⟨9, by decide⟩) x,
    rdRow d L R _ _ 1 (16 * k.val + 11) 48 (by omega) (by omega) (by omega) (show k0_off46 k 11#32 = ![1, 16 * k.val + 11, 48] from k0_off46_eq k ⟨10, by decide⟩) x,
    rdRow d L R _ _ 1 (16 * k.val + 12) 48 (by omega) (by omega) (by omega) (show k0_off46 k 12#32 = ![1, 16 * k.val + 12, 48] from k0_off46_eq k ⟨11, by decide⟩) x,
    rdRow d L R _ _ 1 (16 * k.val + 13) 48 (by omega) (by omega) (by omega) (show k0_off46 k 13#32 = ![1, 16 * k.val + 13, 48] from k0_off46_eq k ⟨12, by decide⟩) x,
    rdRow d L R _ _ 1 (16 * k.val + 14) 48 (by omega) (by omega) (by omega) (show k0_off46 k 14#32 = ![1, 16 * k.val + 14, 48] from k0_off46_eq k ⟨13, by decide⟩) x,
    rdRow d L R _ _ 1 (16 * k.val + 15) 48 (by omega) (by omega) (by omega) (show k0_off46 k 15#32 = ![1, 16 * k.val + 15, 48] from k0_off46_eq k ⟨14, by decide⟩) x]
  rw [embRow _ _ 1 k.val 48 (by omega) (by omega) (by omega) (show k0_off47 k = ![1, k.val, 48] from k0_off47_eq k) x]
  rfl

/-- Chunk 4 of slot 1: the stored vector, lane by lane, is the left-to-right sum of the sixteen loaded vectors. -/
theorem pay1_4 (v0 v1 v2 v3 v4 v5 v6 v7 v8 v9 v10 v11 v12 v13 v14 v15 : Vec F S1x1x16 .f32) (x : S1x1x16.Idx) :
    (k0_pay54 (k0_pay53 (k0_pay52 (k0_pay51 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay54, k0_pay53, k0_pay52, k0_pay51, shapeCast, addf, Shape.reshapeEquiv_reshapeEquiv, Shape.reshapeEquiv_self]

/-- What chunk 4 of a trip of slot 1 stores: the sum of the sixteen vectors it loads. -/
def pc1_4 (R : Buf (Elt F) ((s2W).view.loc thrL)) (k : Fin k0_t3_loop.trips) : FVec F S1x1x16 .f32 :=
  (k0_pay54 (k0_pay53 (k0_pay52 (k0_pay51 (rdAt d L R (k0_off48 k) (k0_off48_inb k)) (rdAt d L R (k0_off49 k 1#32) (k0_off49_inb k ⟨0, by decide⟩)) (rdAt d L R (k0_off49 k 2#32) (k0_off49_inb k ⟨1, by decide⟩)) (rdAt d L R (k0_off49 k 3#32) (k0_off49_inb k ⟨2, by decide⟩)) (rdAt d L R (k0_off49 k 4#32) (k0_off49_inb k ⟨3, by decide⟩))) (rdAt d L R (k0_off49 k 5#32) (k0_off49_inb k ⟨4, by decide⟩)) (rdAt d L R (k0_off49 k 6#32) (k0_off49_inb k ⟨5, by decide⟩)) (rdAt d L R (k0_off49 k 7#32) (k0_off49_inb k ⟨6, by decide⟩)) (rdAt d L R (k0_off49 k 8#32) (k0_off49_inb k ⟨7, by decide⟩)) (rdAt d L R (k0_off49 k 9#32) (k0_off49_inb k ⟨8, by decide⟩))) (rdAt d L R (k0_off49 k 10#32) (k0_off49_inb k ⟨9, by decide⟩)) (rdAt d L R (k0_off49 k 11#32) (k0_off49_inb k ⟨10, by decide⟩)) (rdAt d L R (k0_off49 k 12#32) (k0_off49_inb k ⟨11, by decide⟩)) (rdAt d L R (k0_off49 k 13#32) (k0_off49_inb k ⟨12, by decide⟩)) (rdAt d L R (k0_off49 k 14#32) (k0_off49_inb k ⟨13, by decide⟩)) (rdAt d L R (k0_off49 k 15#32) (k0_off49_inb k ⟨14, by decide⟩))))

/-- Chunk 4 of trip k of slot 1 stores, at lanes 64 … 79 of row k, the sums that row is to hold. -/
theorem chunk1_4 (R : Buf (Elt F) ((s2W).view.loc thrL)) (k : Fin k0_t3_loop.trips) (x : S1x1x16.Idx) :
    pc1_4 d L R k x
      = sumRow d L 1 R ((Rect.unit (s := S2x8x128) (k0_off50 k) S1x1x16.size (k0_off50_inb k)).emb x) := by
  have hk : k.val < 8 := lt_of_lt_of_le k.isLt k0_t3_abs.2.1
  unfold pc1_4
  rw [pay1_4]
  rw [rdRow d L R _ _ 1 (16 * k.val) 64 (by omega) (by omega) (by omega) (show k0_off48 k = ![1, 16 * k.val, 64] from k0_off48_eq k) x,
    rdRow d L R _ _ 1 (16 * k.val + 1) 64 (by omega) (by omega) (by omega) (show k0_off49 k 1#32 = ![1, 16 * k.val + 1, 64] from k0_off49_eq k ⟨0, by decide⟩) x,
    rdRow d L R _ _ 1 (16 * k.val + 2) 64 (by omega) (by omega) (by omega) (show k0_off49 k 2#32 = ![1, 16 * k.val + 2, 64] from k0_off49_eq k ⟨1, by decide⟩) x,
    rdRow d L R _ _ 1 (16 * k.val + 3) 64 (by omega) (by omega) (by omega) (show k0_off49 k 3#32 = ![1, 16 * k.val + 3, 64] from k0_off49_eq k ⟨2, by decide⟩) x,
    rdRow d L R _ _ 1 (16 * k.val + 4) 64 (by omega) (by omega) (by omega) (show k0_off49 k 4#32 = ![1, 16 * k.val + 4, 64] from k0_off49_eq k ⟨3, by decide⟩) x,
    rdRow d L R _ _ 1 (16 * k.val + 5) 64 (by omega) (by omega) (by omega) (show k0_off49 k 5#32 = ![1, 16 * k.val + 5, 64] from k0_off49_eq k ⟨4, by decide⟩) x,
    rdRow d L R _ _ 1 (16 * k.val + 6) 64 (by omega) (by omega) (by omega) (show k0_off49 k 6#32 = ![1, 16 * k.val + 6, 64] from k0_off49_eq k ⟨5, by decide⟩) x,
    rdRow d L R _ _ 1 (16 * k.val + 7) 64 (by omega) (by omega) (by omega) (show k0_off49 k 7#32 = ![1, 16 * k.val + 7, 64] from k0_off49_eq k ⟨6, by decide⟩) x,
    rdRow d L R _ _ 1 (16 * k.val + 8) 64 (by omega) (by omega) (by omega) (show k0_off49 k 8#32 = ![1, 16 * k.val + 8, 64] from k0_off49_eq k ⟨7, by decide⟩) x,
    rdRow d L R _ _ 1 (16 * k.val + 9) 64 (by omega) (by omega) (by omega) (show k0_off49 k 9#32 = ![1, 16 * k.val + 9, 64] from k0_off49_eq k ⟨8, by decide⟩) x,
    rdRow d L R _ _ 1 (16 * k.val + 10) 64 (by omega) (by omega) (by omega) (show k0_off49 k 10#32 = ![1, 16 * k.val + 10, 64] from k0_off49_eq k ⟨9, by decide⟩) x,
    rdRow d L R _ _ 1 (16 * k.val + 11) 64 (by omega) (by omega) (by omega) (show k0_off49 k 11#32 = ![1, 16 * k.val + 11, 64] from k0_off49_eq k ⟨10, by decide⟩) x,
    rdRow d L R _ _ 1 (16 * k.val + 12) 64 (by omega) (by omega) (by omega) (show k0_off49 k 12#32 = ![1, 16 * k.val + 12, 64] from k0_off49_eq k ⟨11, by decide⟩) x,
    rdRow d L R _ _ 1 (16 * k.val + 13) 64 (by omega) (by omega) (by omega) (show k0_off49 k 13#32 = ![1, 16 * k.val + 13, 64] from k0_off49_eq k ⟨12, by decide⟩) x,
    rdRow d L R _ _ 1 (16 * k.val + 14) 64 (by omega) (by omega) (by omega) (show k0_off49 k 14#32 = ![1, 16 * k.val + 14, 64] from k0_off49_eq k ⟨13, by decide⟩) x,
    rdRow d L R _ _ 1 (16 * k.val + 15) 64 (by omega) (by omega) (by omega) (show k0_off49 k 15#32 = ![1, 16 * k.val + 15, 64] from k0_off49_eq k ⟨14, by decide⟩) x]
  rw [embRow _ _ 1 k.val 64 (by omega) (by omega) (by omega) (show k0_off50 k = ![1, k.val, 64] from k0_off50_eq k) x]
  rfl

/-- Chunk 5 of slot 1: the stored vector, lane by lane, is the left-to-right sum of the sixteen loaded vectors. -/
theorem pay1_5 (v0 v1 v2 v3 v4 v5 v6 v7 v8 v9 v10 v11 v12 v13 v14 v15 : Vec F S1x1x16 .f32) (x : S1x1x16.Idx) :
    (k0_pay58 (k0_pay57 (k0_pay56 (k0_pay55 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay58, k0_pay57, k0_pay56, k0_pay55, shapeCast, addf, Shape.reshapeEquiv_reshapeEquiv, Shape.reshapeEquiv_self]

/-- What chunk 5 of a trip of slot 1 stores: the sum of the sixteen vectors it loads. -/
def pc1_5 (R : Buf (Elt F) ((s2W).view.loc thrL)) (k : Fin k0_t3_loop.trips) : FVec F S1x1x16 .f32 :=
  (k0_pay58 (k0_pay57 (k0_pay56 (k0_pay55 (rdAt d L R (k0_off51 k) (k0_off51_inb k)) (rdAt d L R (k0_off52 k 1#32) (k0_off52_inb k ⟨0, by decide⟩)) (rdAt d L R (k0_off52 k 2#32) (k0_off52_inb k ⟨1, by decide⟩)) (rdAt d L R (k0_off52 k 3#32) (k0_off52_inb k ⟨2, by decide⟩)) (rdAt d L R (k0_off52 k 4#32) (k0_off52_inb k ⟨3, by decide⟩))) (rdAt d L R (k0_off52 k 5#32) (k0_off52_inb k ⟨4, by decide⟩)) (rdAt d L R (k0_off52 k 6#32) (k0_off52_inb k ⟨5, by decide⟩)) (rdAt d L R (k0_off52 k 7#32) (k0_off52_inb k ⟨6, by decide⟩)) (rdAt d L R (k0_off52 k 8#32) (k0_off52_inb k ⟨7, by decide⟩)) (rdAt d L R (k0_off52 k 9#32) (k0_off52_inb k ⟨8, by decide⟩))) (rdAt d L R (k0_off52 k 10#32) (k0_off52_inb k ⟨9, by decide⟩)) (rdAt d L R (k0_off52 k 11#32) (k0_off52_inb k ⟨10, by decide⟩)) (rdAt d L R (k0_off52 k 12#32) (k0_off52_inb k ⟨11, by decide⟩)) (rdAt d L R (k0_off52 k 13#32) (k0_off52_inb k ⟨12, by decide⟩)) (rdAt d L R (k0_off52 k 14#32) (k0_off52_inb k ⟨13, by decide⟩)) (rdAt d L R (k0_off52 k 15#32) (k0_off52_inb k ⟨14, by decide⟩))))

/-- Chunk 5 of trip k of slot 1 stores, at lanes 80 … 95 of row k, the sums that row is to hold. -/
theorem chunk1_5 (R : Buf (Elt F) ((s2W).view.loc thrL)) (k : Fin k0_t3_loop.trips) (x : S1x1x16.Idx) :
    pc1_5 d L R k x
      = sumRow d L 1 R ((Rect.unit (s := S2x8x128) (k0_off53 k) S1x1x16.size (k0_off53_inb k)).emb x) := by
  have hk : k.val < 8 := lt_of_lt_of_le k.isLt k0_t3_abs.2.1
  unfold pc1_5
  rw [pay1_5]
  rw [rdRow d L R _ _ 1 (16 * k.val) 80 (by omega) (by omega) (by omega) (show k0_off51 k = ![1, 16 * k.val, 80] from k0_off51_eq k) x,
    rdRow d L R _ _ 1 (16 * k.val + 1) 80 (by omega) (by omega) (by omega) (show k0_off52 k 1#32 = ![1, 16 * k.val + 1, 80] from k0_off52_eq k ⟨0, by decide⟩) x,
    rdRow d L R _ _ 1 (16 * k.val + 2) 80 (by omega) (by omega) (by omega) (show k0_off52 k 2#32 = ![1, 16 * k.val + 2, 80] from k0_off52_eq k ⟨1, by decide⟩) x,
    rdRow d L R _ _ 1 (16 * k.val + 3) 80 (by omega) (by omega) (by omega) (show k0_off52 k 3#32 = ![1, 16 * k.val + 3, 80] from k0_off52_eq k ⟨2, by decide⟩) x,
    rdRow d L R _ _ 1 (16 * k.val + 4) 80 (by omega) (by omega) (by omega) (show k0_off52 k 4#32 = ![1, 16 * k.val + 4, 80] from k0_off52_eq k ⟨3, by decide⟩) x,
    rdRow d L R _ _ 1 (16 * k.val + 5) 80 (by omega) (by omega) (by omega) (show k0_off52 k 5#32 = ![1, 16 * k.val + 5, 80] from k0_off52_eq k ⟨4, by decide⟩) x,
    rdRow d L R _ _ 1 (16 * k.val + 6) 80 (by omega) (by omega) (by omega) (show k0_off52 k 6#32 = ![1, 16 * k.val + 6, 80] from k0_off52_eq k ⟨5, by decide⟩) x,
    rdRow d L R _ _ 1 (16 * k.val + 7) 80 (by omega) (by omega) (by omega) (show k0_off52 k 7#32 = ![1, 16 * k.val + 7, 80] from k0_off52_eq k ⟨6, by decide⟩) x,
    rdRow d L R _ _ 1 (16 * k.val + 8) 80 (by omega) (by omega) (by omega) (show k0_off52 k 8#32 = ![1, 16 * k.val + 8, 80] from k0_off52_eq k ⟨7, by decide⟩) x,
    rdRow d L R _ _ 1 (16 * k.val + 9) 80 (by omega) (by omega) (by omega) (show k0_off52 k 9#32 = ![1, 16 * k.val + 9, 80] from k0_off52_eq k ⟨8, by decide⟩) x,
    rdRow d L R _ _ 1 (16 * k.val + 10) 80 (by omega) (by omega) (by omega) (show k0_off52 k 10#32 = ![1, 16 * k.val + 10, 80] from k0_off52_eq k ⟨9, by decide⟩) x,
    rdRow d L R _ _ 1 (16 * k.val + 11) 80 (by omega) (by omega) (by omega) (show k0_off52 k 11#32 = ![1, 16 * k.val + 11, 80] from k0_off52_eq k ⟨10, by decide⟩) x,
    rdRow d L R _ _ 1 (16 * k.val + 12) 80 (by omega) (by omega) (by omega) (show k0_off52 k 12#32 = ![1, 16 * k.val + 12, 80] from k0_off52_eq k ⟨11, by decide⟩) x,
    rdRow d L R _ _ 1 (16 * k.val + 13) 80 (by omega) (by omega) (by omega) (show k0_off52 k 13#32 = ![1, 16 * k.val + 13, 80] from k0_off52_eq k ⟨12, by decide⟩) x,
    rdRow d L R _ _ 1 (16 * k.val + 14) 80 (by omega) (by omega) (by omega) (show k0_off52 k 14#32 = ![1, 16 * k.val + 14, 80] from k0_off52_eq k ⟨13, by decide⟩) x,
    rdRow d L R _ _ 1 (16 * k.val + 15) 80 (by omega) (by omega) (by omega) (show k0_off52 k 15#32 = ![1, 16 * k.val + 15, 80] from k0_off52_eq k ⟨14, by decide⟩) x]
  rw [embRow _ _ 1 k.val 80 (by omega) (by omega) (by omega) (show k0_off53 k = ![1, k.val, 80] from k0_off53_eq k) x]
  rfl

/-- Chunk 6 of slot 1: the stored vector, lane by lane, is the left-to-right sum of the sixteen loaded vectors. -/
theorem pay1_6 (v0 v1 v2 v3 v4 v5 v6 v7 v8 v9 v10 v11 v12 v13 v14 v15 : Vec F S1x1x16 .f32) (x : S1x1x16.Idx) :
    (k0_pay62 (k0_pay61 (k0_pay60 (k0_pay59 v0 v1 v2 v3 v4) v5 v6 v7 v8 v9) v10 v11 v12 v13 v14 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay62, k0_pay61, k0_pay60, k0_pay59, shapeCast, addf, Shape.reshapeEquiv_reshapeEquiv, Shape.reshapeEquiv_self]

/-- What chunk 6 of a trip of slot 1 stores: the sum of the sixteen vectors it loads. -/
def pc1_6 (R : Buf (Elt F) ((s2W).view.loc thrL)) (k : Fin k0_t3_loop.trips) : FVec F S1x1x16 .f32 :=
  (k0_pay62 (k0_pay61 (k0_pay60 (k0_pay59 (rdAt d L R (k0_off54 k) (k0_off54_inb k)) (rdAt d L R (k0_off55 k 1#32) (k0_off55_inb k ⟨0, by decide⟩)) (rdAt d L R (k0_off55 k 2#32) (k0_off55_inb k ⟨1, by decide⟩)) (rdAt d L R (k0_off55 k 3#32) (k0_off55_inb k ⟨2, by decide⟩)) (rdAt d L R (k0_off55 k 4#32) (k0_off55_inb k ⟨3, by decide⟩))) (rdAt d L R (k0_off55 k 5#32) (k0_off55_inb k ⟨4, by decide⟩)) (rdAt d L R (k0_off55 k 6#32) (k0_off55_inb k ⟨5, by decide⟩)) (rdAt d L R (k0_off55 k 7#32) (k0_off55_inb k ⟨6, by decide⟩)) (rdAt d L R (k0_off55 k 8#32) (k0_off55_inb k ⟨7, by decide⟩)) (rdAt d L R (k0_off55 k 9#32) (k0_off55_inb k ⟨8, by decide⟩))) (rdAt d L R (k0_off55 k 10#32) (k0_off55_inb k ⟨9, by decide⟩)) (rdAt d L R (k0_off55 k 11#32) (k0_off55_inb k ⟨10, by decide⟩)) (rdAt d L R (k0_off55 k 12#32) (k0_off55_inb k ⟨11, by decide⟩)) (rdAt d L R (k0_off55 k 13#32) (k0_off55_inb k ⟨12, by decide⟩)) (rdAt d L R (k0_off55 k 14#32) (k0_off55_inb k ⟨13, by decide⟩)) (rdAt d L R (k0_off55 k 15#32) (k0_off55_inb k ⟨14, by decide⟩))))

/-- Chunk 6 of trip k of slot 1 stores, at lanes 96 … 111 of row k, the sums that row is to hold. -/
theorem chunk1_6 (R : Buf (Elt F) ((s2W).view.loc thrL)) (k : Fin k0_t3_loop.trips) (x : S1x1x16.Idx) :
    pc1_6 d L R k x
      = sumRow d L 1 R ((Rect.unit (s := S2x8x128) (k0_off56 k) S1x1x16.size (k0_off56_inb k)).emb x) := by
  have hk : k.val < 8 := lt_of_lt_of_le k.isLt k0_t3_abs.2.1
  unfold pc1_6
  rw [pay1_6]
  rw [rdRow d L R _ _ 1 (16 * k.val) 96 (by omega) (by omega) (by omega) (show k0_off54 k = ![1, 16 * k.val, 96] from k0_off54_eq k) x,
    rdRow d L R _ _ 1 (16 * k.val + 1) 96 (by omega) (by omega) (by omega) (show k0_off55 k 1#32 = ![1, 16 * k.val + 1, 96] from k0_off55_eq k ⟨0, by decide⟩) x,
    rdRow d L R _ _ 1 (16 * k.val + 2) 96 (by omega) (by omega) (by omega) (show k0_off55 k 2#32 = ![1, 16 * k.val + 2, 96] from k0_off55_eq k ⟨1, by decide⟩) x,
    rdRow d L R _ _ 1 (16 * k.val + 3) 96 (by omega) (by omega) (by omega) (show k0_off55 k 3#32 = ![1, 16 * k.val + 3, 96] from k0_off55_eq k ⟨2, by decide⟩) x,
    rdRow d L R _ _ 1 (16 * k.val + 4) 96 (by omega) (by omega) (by omega) (show k0_off55 k 4#32 = ![1, 16 * k.val + 4, 96] from k0_off55_eq k ⟨3, by decide⟩) x,
    rdRow d L R _ _ 1 (16 * k.val + 5) 96 (by omega) (by omega) (by omega) (show k0_off55 k 5#32 = ![1, 16 * k.val + 5, 96] from k0_off55_eq k ⟨4, by decide⟩) x,
    rdRow d L R _ _ 1 (16 * k.val + 6) 96 (by omega) (by omega) (by omega) (show k0_off55 k 6#32 = ![1, 16 * k.val + 6, 96] from k0_off55_eq k ⟨5, by decide⟩) x,
    rdRow d L R _ _ 1 (16 * k.val + 7) 96 (by omega) (by omega) (by omega) (show k0_off55 k 7#32 = ![1, 16 * k.val + 7, 96] from k0_off55_eq k ⟨6, by decide⟩) x,
    rdRow d L R _ _ 1 (16 * k.val + 8) 96 (by omega) (by omega) (by omega) (show k0_off55 k 8#32 = ![1, 16 * k.val + 8, 96] from k0_off55_eq k ⟨7, by decide⟩) x,
    rdRow d L R _ _ 1 (16 * k.val + 9) 96 (by omega) (by omega) (by omega) (show k0_off55 k 9#32 = ![1, 16 * k.val + 9, 96] from k0_off55_eq k ⟨8, by decide⟩) x,
    rdRow d L R _ _ 1 (16 * k.val + 10) 96 (by omega) (by omega) (by omega) (show k0_off55 k 10#32 = ![1, 16 * k.val + 10, 96] from k0_off55_eq k ⟨9, by decide⟩) x,
    rdRow d L R _ _ 1 (16 * k.val + 11) 96 (by omega) (by omega) (by omega) (show k0_off55 k 11#32 = ![1, 16 * k.val + 11, 96] from k0_off55_eq k ⟨10, by decide⟩) x,
    rdRow d L R _ _ 1 (16 * k.val + 12) 96 (by omega) (by omega) (by omega) (show k0_off55 k 12#32 = ![1, 16 * k.val + 12, 96] from k0_off55_eq k ⟨11, by decide⟩) x,
    rdRow d L R _ _ 1 (16 * k.val + 13) 96 (by omega) (by omega) (by omega) (show k0_off55 k 13#32 = ![1, 16 * k.val + 13, 96] from k0_off55_eq k ⟨12, by decide⟩) x,
    rdRow d L R _ _ 1 (16 * k.val + 14) 96 (by omega) (by omega) (by omega) (show k0_off55 k 14#32 = ![1, 16 * k.val + 14, 96] from k0_off55_eq k ⟨13, by decide⟩) x,
    rdRow d L R _ _ 1 (16 * k.val + 15) 96 (by omega) (by omega) (by omega) (show k0_off55 k 15#32 = ![1, 16 * k.val + 15, 96] from k0_off55_eq k ⟨14, by decide⟩) x]
  rw [embRow _ _ 1 k.val 96 (by omega) (by omega) (by omega) (show k0_off56 k = ![1, k.val, 96] from k0_off56_eq k) x]
  rfl

/-- Chunk 7 of slot 1: the stored vector, lane by lane, is the left-to-right sum of the sixteen loaded vectors. -/
theorem pay1_7 (v0 v1 v2 v3 v4 v5 v6 v7 v8 v9 v10 v11 v12 v13 v14 v15 : Vec F S1x1x16 .f32) (x : S1x1x16.Idx) :
    (k0_pay68 (k0_pay65 (k0_pay64 (k0_pay63 v0 v1 v2 v3 v4) v5 v6 v7 v8 v9) v10 v11 v12 v13 v14) (k0_pay66 v15)) x
      = (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (v0 x) (v1 x)) (v2 x)) (v3 x)) (v4 x)) (v5 x)) (v6 x)) (v7 x)) (v8 x)) (v9 x)) (v10 x)) (v11 x)) (v12 x)) (v13 x)) (v14 x)) (v15 x) : F .f32) := by
  simp only [k0_pay68, k0_pay65, k0_pay64, k0_pay63, k0_pay66, shapeCast, addf, Shape.reshapeEquiv_reshapeEquiv, Shape.reshapeEquiv_self]

/-- What chunk 7 of a trip of slot 1 stores: the sum of the sixteen vectors it loads. -/
def pc1_7 (R : Buf (Elt F) ((s2W).view.loc thrL)) (k : Fin k0_t3_loop.trips) : FVec F S1x1x16 .f32 :=
  (k0_pay68 (k0_pay65 (k0_pay64 (k0_pay63 (rdAt d L R (k0_off57 k) (k0_off57_inb k)) (rdAt d L R (k0_off58 k 1#32) (k0_off58_inb k ⟨0, by decide⟩)) (rdAt d L R (k0_off58 k 2#32) (k0_off58_inb k ⟨1, by decide⟩)) (rdAt d L R (k0_off58 k 3#32) (k0_off58_inb k ⟨2, by decide⟩)) (rdAt d L R (k0_off58 k 4#32) (k0_off58_inb k ⟨3, by decide⟩))) (rdAt d L R (k0_off58 k 5#32) (k0_off58_inb k ⟨4, by decide⟩)) (rdAt d L R (k0_off58 k 6#32) (k0_off58_inb k ⟨5, by decide⟩)) (rdAt d L R (k0_off58 k 7#32) (k0_off58_inb k ⟨6, by decide⟩)) (rdAt d L R (k0_off58 k 8#32) (k0_off58_inb k ⟨7, by decide⟩)) (rdAt d L R (k0_off58 k 9#32) (k0_off58_inb k ⟨8, by decide⟩))) (rdAt d L R (k0_off58 k 10#32) (k0_off58_inb k ⟨9, by decide⟩)) (rdAt d L R (k0_off58 k 11#32) (k0_off58_inb k ⟨10, by decide⟩)) (rdAt d L R (k0_off58 k 12#32) (k0_off58_inb k ⟨11, by decide⟩)) (rdAt d L R (k0_off58 k 13#32) (k0_off58_inb k ⟨12, by decide⟩)) (rdAt d L R (k0_off58 k 14#32) (k0_off58_inb k ⟨13, by decide⟩))) (k0_pay66 (rdAt d L R (k0_off58 k 15#32) (k0_off58_inb k ⟨14, by decide⟩))))

/-- Chunk 7 of trip k of slot 1 stores, at lanes 112 … 127 of row k, the sums that row is to hold. -/
theorem chunk1_7 (R : Buf (Elt F) ((s2W).view.loc thrL)) (k : Fin k0_t3_loop.trips) (x : S1x1x16.Idx) :
    pc1_7 d L R k x
      = sumRow d L 1 R ((Rect.unit (s := S2x8x128) (k0_off59 k) S1x1x16.size (k0_off59_inb k)).emb x) := by
  have hk : k.val < 8 := lt_of_lt_of_le k.isLt k0_t3_abs.2.1
  unfold pc1_7
  rw [pay1_7]
  rw [rdRow d L R _ _ 1 (16 * k.val) 112 (by omega) (by omega) (by omega) (show k0_off57 k = ![1, 16 * k.val, 112] from k0_off57_eq k) x,
    rdRow d L R _ _ 1 (16 * k.val + 1) 112 (by omega) (by omega) (by omega) (show k0_off58 k 1#32 = ![1, 16 * k.val + 1, 112] from k0_off58_eq k ⟨0, by decide⟩) x,
    rdRow d L R _ _ 1 (16 * k.val + 2) 112 (by omega) (by omega) (by omega) (show k0_off58 k 2#32 = ![1, 16 * k.val + 2, 112] from k0_off58_eq k ⟨1, by decide⟩) x,
    rdRow d L R _ _ 1 (16 * k.val + 3) 112 (by omega) (by omega) (by omega) (show k0_off58 k 3#32 = ![1, 16 * k.val + 3, 112] from k0_off58_eq k ⟨2, by decide⟩) x,
    rdRow d L R _ _ 1 (16 * k.val + 4) 112 (by omega) (by omega) (by omega) (show k0_off58 k 4#32 = ![1, 16 * k.val + 4, 112] from k0_off58_eq k ⟨3, by decide⟩) x,
    rdRow d L R _ _ 1 (16 * k.val + 5) 112 (by omega) (by omega) (by omega) (show k0_off58 k 5#32 = ![1, 16 * k.val + 5, 112] from k0_off58_eq k ⟨4, by decide⟩) x,
    rdRow d L R _ _ 1 (16 * k.val + 6) 112 (by omega) (by omega) (by omega) (show k0_off58 k 6#32 = ![1, 16 * k.val + 6, 112] from k0_off58_eq k ⟨5, by decide⟩) x,
    rdRow d L R _ _ 1 (16 * k.val + 7) 112 (by omega) (by omega) (by omega) (show k0_off58 k 7#32 = ![1, 16 * k.val + 7, 112] from k0_off58_eq k ⟨6, by decide⟩) x,
    rdRow d L R _ _ 1 (16 * k.val + 8) 112 (by omega) (by omega) (by omega) (show k0_off58 k 8#32 = ![1, 16 * k.val + 8, 112] from k0_off58_eq k ⟨7, by decide⟩) x,
    rdRow d L R _ _ 1 (16 * k.val + 9) 112 (by omega) (by omega) (by omega) (show k0_off58 k 9#32 = ![1, 16 * k.val + 9, 112] from k0_off58_eq k ⟨8, by decide⟩) x,
    rdRow d L R _ _ 1 (16 * k.val + 10) 112 (by omega) (by omega) (by omega) (show k0_off58 k 10#32 = ![1, 16 * k.val + 10, 112] from k0_off58_eq k ⟨9, by decide⟩) x,
    rdRow d L R _ _ 1 (16 * k.val + 11) 112 (by omega) (by omega) (by omega) (show k0_off58 k 11#32 = ![1, 16 * k.val + 11, 112] from k0_off58_eq k ⟨10, by decide⟩) x,
    rdRow d L R _ _ 1 (16 * k.val + 12) 112 (by omega) (by omega) (by omega) (show k0_off58 k 12#32 = ![1, 16 * k.val + 12, 112] from k0_off58_eq k ⟨11, by decide⟩) x,
    rdRow d L R _ _ 1 (16 * k.val + 13) 112 (by omega) (by omega) (by omega) (show k0_off58 k 13#32 = ![1, 16 * k.val + 13, 112] from k0_off58_eq k ⟨12, by decide⟩) x,
    rdRow d L R _ _ 1 (16 * k.val + 14) 112 (by omega) (by omega) (by omega) (show k0_off58 k 14#32 = ![1, 16 * k.val + 14, 112] from k0_off58_eq k ⟨13, by decide⟩) x,
    rdRow d L R _ _ 1 (16 * k.val + 15) 112 (by omega) (by omega) (by omega) (show k0_off58 k 15#32 = ![1, 16 * k.val + 15, 112] from k0_off58_eq k ⟨14, by decide⟩) x]
  rw [embRow _ _ 1 k.val 112 (by omega) (by omega) (by omega) (show k0_off59 k = ![1, k.val, 112] from k0_off59_eq k) x]
  rfl

/-- The store of chunk 0 of trip k of slot 1: its rectangle and what it stores. -/
def piece1_0 (R : Buf (Elt F) ((s2W).view.loc thrL)) (k : Fin k0_t3_loop.trips) : View.Piece (Elt F) cc0_scratch3.ty.shape cc0_scratch3.ty.elt :=
  ⟨Rect.unit (s := S2x8x128) (k0_off38 k) S1x1x16.size (k0_off38_inb k), pc1_0 d L R k⟩

/-- The store of chunk 1 of trip k of slot 1: its rectangle and what it stores. -/
def piece1_1 (R : Buf (Elt F) ((s2W).view.loc thrL)) (k : Fin k0_t3_loop.trips) : View.Piece (Elt F) cc0_scratch3.ty.shape cc0_scratch3.ty.elt :=
  ⟨Rect.unit (s := S2x8x128) (k0_off41 k) S1x1x16.size (k0_off41_inb k), pc1_1 d L R k⟩

/-- The store of chunk 2 of trip k of slot 1: its rectangle and what it stores. -/
def piece1_2 (R : Buf (Elt F) ((s2W).view.loc thrL)) (k : Fin k0_t3_loop.trips) : View.Piece (Elt F) cc0_scratch3.ty.shape cc0_scratch3.ty.elt :=
  ⟨Rect.unit (s := S2x8x128) (k0_off44 k) S1x1x16.size (k0_off44_inb k), pc1_2 d L R k⟩

/-- The store of chunk 3 of trip k of slot 1: its rectangle and what it stores. -/
def piece1_3 (R : Buf (Elt F) ((s2W).view.loc thrL)) (k : Fin k0_t3_loop.trips) : View.Piece (Elt F) cc0_scratch3.ty.shape cc0_scratch3.ty.elt :=
  ⟨Rect.unit (s := S2x8x128) (k0_off47 k) S1x1x16.size (k0_off47_inb k), pc1_3 d L R k⟩

/-- The store of chunk 4 of trip k of slot 1: its rectangle and what it stores. -/
def piece1_4 (R : Buf (Elt F) ((s2W).view.loc thrL)) (k : Fin k0_t3_loop.trips) : View.Piece (Elt F) cc0_scratch3.ty.shape cc0_scratch3.ty.elt :=
  ⟨Rect.unit (s := S2x8x128) (k0_off50 k) S1x1x16.size (k0_off50_inb k), pc1_4 d L R k⟩

/-- The store of chunk 5 of trip k of slot 1: its rectangle and what it stores. -/
def piece1_5 (R : Buf (Elt F) ((s2W).view.loc thrL)) (k : Fin k0_t3_loop.trips) : View.Piece (Elt F) cc0_scratch3.ty.shape cc0_scratch3.ty.elt :=
  ⟨Rect.unit (s := S2x8x128) (k0_off53 k) S1x1x16.size (k0_off53_inb k), pc1_5 d L R k⟩

/-- The store of chunk 6 of trip k of slot 1: its rectangle and what it stores. -/
def piece1_6 (R : Buf (Elt F) ((s2W).view.loc thrL)) (k : Fin k0_t3_loop.trips) : View.Piece (Elt F) cc0_scratch3.ty.shape cc0_scratch3.ty.elt :=
  ⟨Rect.unit (s := S2x8x128) (k0_off56 k) S1x1x16.size (k0_off56_inb k), pc1_6 d L R k⟩

/-- The store of chunk 7 of trip k of slot 1: its rectangle and what it stores. -/
def piece1_7 (R : Buf (Elt F) ((s2W).view.loc thrL)) (k : Fin k0_t3_loop.trips) : View.Piece (Elt F) cc0_scratch3.ty.shape cc0_scratch3.ty.elt :=
  ⟨Rect.unit (s := S2x8x128) (k0_off59 k) S1x1x16.size (k0_off59_inb k), pc1_7 d L R k⟩

/-- The eight stores of trip k of slot 1, the last first. -/
def pieces1 (R : Buf (Elt F) ((s2W).view.loc thrL)) (k : Fin k0_t3_loop.trips) : List (View.Piece (Elt F) cc0_scratch3.ty.shape cc0_scratch3.ty.elt) :=
  [piece1_7 d L R k, piece1_6 d L R k, piece1_5 d L R k, piece1_4 d L R k, piece1_3 d L R k, piece1_2 d L R k, piece1_1 d L R k, piece1_0 d L R k]

/-- One trip of slot 1: if rows below k of the slot's sums hold their sums before the trip's eight stores, rows below k + 1 do after
    them. Row k is covered lane by lane by the eight chunks, each storing that row's sums; the other rows are not touched. -/
theorem tripPure1 (R : Buf (Elt F) ((s2W).view.loc thrL)) (N' : Buf (Elt F) ((s3W).view.loc thrL)) (k : Fin k0_t3_loop.trips)
    (hdone : ∀ p : Fin 8, p.val < k.val → rowDone d L 1 R N' p) :
    ∀ p : Fin 8, p.val < k.val + 1 → rowDone d L 1 R ((s3W).view.writes (Elt F) N' (pieces1 d L R k)) p := by
  have hk : k.val < 8 := lt_of_lt_of_le k.isLt k0_t3_abs.2.1
  intro p hp l
  have hpieces : ∀ q ∈ pieces1 d L R k, ∀ x : q.1.shape.Idx, q.2 x = sumRow d L 1 R (q.1.emb x) := by
    intro q hq
    simp only [pieces1, List.mem_cons, List.not_mem_nil, _root_.or_false] at hq
    rcases hq with rfl | rfl | rfl | rfl | rfl | rfl | rfl | rfl
    · exact fun x => chunk1_7 d L R k x
    · exact fun x => chunk1_6 d L R k x
    · exact fun x => chunk1_5 d L R k x
    · exact fun x => chunk1_4 d L R k x
    · exact fun x => chunk1_3 d L R k x
    · exact fun x => chunk1_2 d L R k x
    · exact fun x => chunk1_1 d L R k x
    · exact fun x => chunk1_0 d L R k x
  by_cases hpk : p.val = k.val
  · have hcov : ∃ q ∈ pieces1 d L R k, (ix3 1 p l : S2x8x128.Idx) ∈ q.1.set := by
      have hl := l.isLt
      rcases (show l.val / 16 = 0 ∨ l.val / 16 = 1 ∨ l.val / 16 = 2 ∨ l.val / 16 = 3 ∨ l.val / 16 = 4 ∨ l.val / 16 = 5 ∨ l.val / 16 = 6 ∨ l.val / 16 = 7 by omega)
        with h | h | h | h | h | h | h | h
      · exact ⟨piece1_0 d L R k, (List.mem_cons_of_mem _ (List.mem_cons_of_mem _ (List.mem_cons_of_mem _ (List.mem_cons_of_mem _ (List.mem_cons_of_mem _ (List.mem_cons_of_mem _ (List.mem_cons_of_mem _ List.mem_cons_self))))))),
          memRow _ (k0_off38_inb k) 1 k.val 0 (show k0_off38 k = ![1, k.val, 0] from k0_off38_eq k) 1 p l rfl hpk (by omega)⟩
      · exact ⟨piece1_1 d L R k, (List.mem_cons_of_mem _ (List.mem_cons_of_mem _ (List.mem_cons_of_mem _ (List.mem_cons_of_mem _ (List.mem_cons_of_mem _ (List.mem_cons_of_mem _ List.mem_cons_self)))))),
          memRow _ (k0_off41_inb k) 1 k.val 16 (show k0_off41 k = ![1, k.val, 16] from k0_off41_eq k) 1 p l rfl hpk (by omega)⟩
      · exact ⟨piece1_2 d L R k, (List.mem_cons_of_mem _ (List.mem_cons_of_mem _ (List.mem_cons_of_mem _ (List.mem_cons_of_mem _ (List.mem_cons_of_mem _ List.mem_cons_self))))),
          memRow _ (k0_off44_inb k) 1 k.val 32 (show k0_off44 k = ![1, k.val, 32] from k0_off44_eq k) 1 p l rfl hpk (by omega)⟩
      · exact ⟨piece1_3 d L R k, (List.mem_cons_of_mem _ (List.mem_cons_of_mem _ (List.mem_cons_of_mem _ (List.mem_cons_of_mem _ List.mem_cons_self)))),
          memRow _ (k0_off47_inb k) 1 k.val 48 (show k0_off47 k = ![1, k.val, 48] from k0_off47_eq k) 1 p l rfl hpk (by omega)⟩
      · exact ⟨piece1_4 d L R k, (List.mem_cons_of_mem _ (List.mem_cons_of_mem _ (List.mem_cons_of_mem _ List.mem_cons_self))),
          memRow _ (k0_off50_inb k) 1 k.val 64 (show k0_off50 k = ![1, k.val, 64] from k0_off50_eq k) 1 p l rfl hpk (by omega)⟩
      · exact ⟨piece1_5 d L R k, (List.mem_cons_of_mem _ (List.mem_cons_of_mem _ List.mem_cons_self)),
          memRow _ (k0_off53_inb k) 1 k.val 80 (show k0_off53 k = ![1, k.val, 80] from k0_off53_eq k) 1 p l rfl hpk (by omega)⟩
      · exact ⟨piece1_6 d L R k, (List.mem_cons_of_mem _ List.mem_cons_self),
          memRow _ (k0_off56_inb k) 1 k.val 96 (show k0_off56 k = ![1, k.val, 96] from k0_off56_eq k) 1 p l rfl hpk (by omega)⟩
      · exact ⟨piece1_7 d L R k, List.mem_cons_self,
          memRow _ (k0_off59_inb k) 1 k.val 112 (show k0_off59 k = ![1, k.val, 112] from k0_off59_eq k) 1 p l rfl hpk (by omega)⟩
    exact View.read_writes_apply_of_pieces (s3W).view N' (sumRow d L 1 R) (pieces1 d L R k) hpieces (ix3 1 p l) hcov
  · have hlt : p.val < k.val := by omega
    have hnm : ∀ q ∈ pieces1 d L R k, (ix3 1 p l : S2x8x128.Idx) ∉ q.1.set := by
      intro q hq
      simp only [pieces1, List.mem_cons, List.not_mem_nil, _root_.or_false] at hq
      rcases hq with rfl | rfl | rfl | rfl | rfl | rfl | rfl | rfl
      · exact notMemRow _ (k0_off59_inb k) 1 k.val 112 (show k0_off59 k = ![1, k.val, 112] from k0_off59_eq k) 1 p l hpk
      · exact notMemRow _ (k0_off56_inb k) 1 k.val 96 (show k0_off56 k = ![1, k.val, 96] from k0_off56_eq k) 1 p l hpk
      · exact notMemRow _ (k0_off53_inb k) 1 k.val 80 (show k0_off53 k = ![1, k.val, 80] from k0_off53_eq k) 1 p l hpk
      · exact notMemRow _ (k0_off50_inb k) 1 k.val 64 (show k0_off50 k = ![1, k.val, 64] from k0_off50_eq k) 1 p l hpk
      · exact notMemRow _ (k0_off47_inb k) 1 k.val 48 (show k0_off47 k = ![1, k.val, 48] from k0_off47_eq k) 1 p l hpk
      · exact notMemRow _ (k0_off44_inb k) 1 k.val 32 (show k0_off44 k = ![1, k.val, 32] from k0_off44_eq k) 1 p l hpk
      · exact notMemRow _ (k0_off41_inb k) 1 k.val 16 (show k0_off41 k = ![1, k.val, 16] from k0_off41_eq k) 1 p l hpk
      · exact notMemRow _ (k0_off38_inb k) 1 k.val 0 (show k0_off38 k = ![1, k.val, 0] from k0_off38_eq k) 1 p l hpk
    exact (View.read_writes_apply_of_forall_not_mem (s3W).view N' (ix3 1 p l) (pieces1 d L R k) hnm).trans (hdone p hlt l)

end Cert.KB
end
-- ==== Proof.ReduceB.lean ====
/-
  The two inner reduction loops of a vector subcore, with the values they leave.

  Slot j's loop makes eight trips; trip p sums rows 16 p … 16 p + 15 of slot j of the rows scratch [2, 128, 128] into
  row p of slot j of the sums scratch [2, 8, 128], sixteen lanes at a time, left to right. The loop is run at the
  invariant "the rows below the trip hold their sums"; one trip's arithmetic is the slot's trip lemma. A slot is held
  as the whole scratch less the other slot's rows.
-/
import proofs.«208587_g27212912787602_cont_9to1_1073_18_alg».proof.Proof.PayB
import proofs.«208587_g27212912787602_cont_9to1_1073_18_alg».proof.Proof.ReduceFrameB
import proofs.«208587_g27212912787602_cont_9to1_1073_18_alg».proof.Proof.ReduceVal0B
import proofs.«208587_g27212912787602_cont_9to1_1073_18_alg».proof.Proof.ReduceVal1B
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]
variable (d : Dev nD) (L : grid0.Coords)
/- The vector subcore at grid point `L` of device `d`. -/
local notation "thrL" => (V d ((L 0).castLE hcore0) ((L 1).castLE hsub0) : Thread nD τ)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)
local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)

/-- Slot 0's loop invariant: the rows scratch less slot 1's rows at its contents; the sums scratch less slot 1's rows at
    contents whose rows below the trip hold their sums. -/
def inv0 (R : Buf (Elt F) ((s2W).view.loc thrL)) (k : Nat) (_ : Unit) : sProp 𝕄 :=
  iprop(((s2W).view.loc thrL ↦[Finset.univ \ (rows1M).view.set]{fullShare} R)
    ∗ ∃ N', ((s3W).view.loc thrL ↦[Finset.univ \ (nbuf1M).view.set]{fullShare} N') ∗ ⌜∀ p : Fin 8, p.val < k → rowDone d L 0 R N' p⌝)

/-- Slot 0's reduction: after its eight trips each of the eight rows of slot 0 of the sums scratch holds, lane by lane, the
    left-to-right sum of the sixteen rows of slot 0 of the rows scratch it stands for; the rows scratch is unchanged. -/
theorem reduce0 (R : Buf (Elt F) ((s2W).view.loc thrL)) (N : Buf (Elt F) ((s3W).view.loc thrL))
    (v2 c0 c1 : BitVec 32) (k1 : Fin k0_t1_loop.trips) :
    (iprop(((s2W).view.loc thrL ↦[Finset.univ \ (rows1M).view.set]{fullShare} R) ∗ ((s3W).view.loc thrL ↦[Finset.univ \ (nbuf1M).view.set]{fullShare} N)) : sProp 𝕄)
      ⊢ wp frame (wpE (defs₀ (F := F)) 𝒱₀ thrL none) Set.univ
          (Scf.Loop.for k0_t2_loop k0_t2_ok ⟨⟩ (k0_t2_body L embW (Memref.isWhole_whole _) inW (Memref.isWhole_whole _) isW (Memref.isWhole_whole _) soW (Memref.isWhole_whole _) noW (Memref.isWhole_whole _)
            s0W (Memref.isWhole_whole _) s1W (Memref.isWhole_whole _) s2W (Memref.isWhole_whole _) s3W (Memref.isWhole_whole _) s4W (Memref.isWhole_whole _)
            cc0_scratch5 cc0_scratch6 cc0_scratch7 cc0_scratch8 cc0_scoped0 cc0_scoped1 v2 c0 c1 k1))
          fun _ => iprop(((s2W).view.loc thrL ↦[Finset.univ \ (rows1M).view.set]{fullShare} R)
            ∗ ∃ N', ((s3W).view.loc thrL ↦[Finset.univ \ (nbuf1M).view.set]{fullShare} N')
              ∗ ⌜∀ (p : Fin 8) (l : Fin 128), N' (ix3 (0 : Fin 2) p l)
                  = chain16 fun r : Fin 16 => R (ix3 (0 : Fin 2) ⟨16 * p.val + r.val, by omega⟩ l)⌝) := by
  iintro ⟨HR, HN⟩
  sl_for (inv0 d L R) $$ [HR HN]
  case region =>
    intro k _
    unfold inv0
    iintro ⟨HR, %N', HN, %hdone⟩
    sl_exec_parts
    sl_step
    isplitl [HR]; · iexact HR
    iexists _
    isplitl [HN]; · iexact HN
    ipureintro
    exact tripPure0 d L R N' k hdone
  isplitl [HR HN]
  · unfold inv0
    isplitl [HR]; · iexact HR
    iexists _
    isplitl [HN]; · iexact HN
    ipureintro; intro p hp; exact absurd hp (Nat.not_lt_zero _)
  iintro %_ HI
  unfold inv0
  icases HI with ⟨HR, %N', HN, %hdone⟩
  isplitl [HR]; · iexact HR
  iexists _
  isplitl [HN]; · iexact HN
  ipureintro; intro p l; exact hdone p p.isLt l

/-- Slot 1's loop invariant: the rows scratch less slot 0's rows at its contents; the sums scratch less slot 0's rows at
    contents whose rows below the trip hold their sums. -/
def inv1 (R : Buf (Elt F) ((s2W).view.loc thrL)) (k : Nat) (_ : Unit) : sProp 𝕄 :=
  iprop(((s2W).view.loc thrL ↦[Finset.univ \ (rows0M).view.set]{fullShare} R)
    ∗ ∃ N', ((s3W).view.loc thrL ↦[Finset.univ \ (nbuf0M).view.set]{fullShare} N') ∗ ⌜∀ p : Fin 8, p.val < k → rowDone d L 1 R N' p⌝)

/-- Slot 1's reduction: after its eight trips each of the eight rows of slot 1 of the sums scratch holds, lane by lane, the
    left-to-right sum of the sixteen rows of slot 1 of the rows scratch it stands for; the rows scratch is unchanged. -/
theorem reduce1 (R : Buf (Elt F) ((s2W).view.loc thrL)) (N : Buf (Elt F) ((s3W).view.loc thrL))
    (v2 : BitVec 32) (k1 : Fin k0_t1_loop.trips) (a16 v52 : BitVec 32) :
    (iprop(((s2W).view.loc thrL ↦[Finset.univ \ (rows0M).view.set]{fullShare} R) ∗ ((s3W).view.loc thrL ↦[Finset.univ \ (nbuf0M).view.set]{fullShare} N)) : sProp 𝕄)
      ⊢ wp frame (wpE (defs₀ (F := F)) 𝒱₀ thrL none) Set.univ
          (Scf.Loop.for k0_t3_loop k0_t3_ok ⟨⟩ (k0_t3_body L embW (Memref.isWhole_whole _) inW (Memref.isWhole_whole _) isW (Memref.isWhole_whole _) soW (Memref.isWhole_whole _) noW (Memref.isWhole_whole _)
            s0W (Memref.isWhole_whole _) s1W (Memref.isWhole_whole _) s2W (Memref.isWhole_whole _) s3W (Memref.isWhole_whole _) s4W (Memref.isWhole_whole _)
            cc0_scratch5 cc0_scratch6 cc0_scratch7 cc0_scratch8 cc0_scoped0 cc0_scoped1 v2 k1 a16 v52))
          fun _ => iprop(((s2W).view.loc thrL ↦[Finset.univ \ (rows0M).view.set]{fullShare} R)
            ∗ ∃ N', ((s3W).view.loc thrL ↦[Finset.univ \ (nbuf0M).view.set]{fullShare} N')
              ∗ ⌜∀ (p : Fin 8) (l : Fin 128), N' (ix3 (1 : Fin 2) p l)
                  = chain16 fun r : Fin 16 => R (ix3 (1 : Fin 2) ⟨16 * p.val + r.val, by omega⟩ l)⌝) := by
  iintro ⟨HR, HN⟩
  sl_for (inv1 d L R) $$ [HR HN]
  case region =>
    intro k _
    unfold inv1
    iintro ⟨HR, %N', HN, %hdone⟩
    sl_exec_parts
    sl_step
    isplitl [HR]; · iexact HR
    iexists _
    isplitl [HN]; · iexact HN
    ipureintro
    exact tripPure1 d L R N' k hdone
  isplitl [HR HN]
  · unfold inv1
    isplitl [HR]; · iexact HR
    iexists _
    isplitl [HN]; · iexact HN
    ipureintro; intro p hp; exact absurd hp (Nat.not_lt_zero _)
  iintro %_ HI
  unfold inv1
  icases HI with ⟨HR, %N', HN, %hdone⟩
  isplitl [HR]; · iexact HR
  iexists _
  isplitl [HN]; · iexact HN
  ipureintro; intro p l; exact hdone p p.isLt l

end Cert.KB
end
-- ==== Proof.TileHarvestB.lean ====
/-
  The own-row stream of a vector subcore at a trip that harvests.

  At trips k with k % 8 = 4 the subcore waits for the gather of block k / 8 of its own rows, copies the 128 gathered
  rows into rows base + 128 (k / 8) … of the own-row result, waits for that copy, and, unless this was the last block,
  starts the gather of block k / 8 + 1. Here: the offsets of that window and of the next block's index row in closed
  form; that the window lies in the subcore's own rows; what the own-rows scratch holds after the next gather; which
  rows of the result are done after the copy; and how the pieces the run leaves make up the stream's invariant at the
  next trip.
-/
import proofs.«208587_g27212912787602_cont_9to1_1073_18_alg».proof.Proof.TileInvB
import proofs.«208587_g27212912787602_cont_9to1_1073_18_alg».proof.Proof.GatherValB
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)

local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)
local notation "embV" => ((Memref.whole Cert.Kernel.main_arg1_scv : Memref Cert.Kernel.sig Kind.scVector Space.hbm Cert.Kernel.S100001x128 EltTy.f32).slice (Rect.unit (s := Cert.Kernel.S100001x128) ![0, 0] Cert.Kernel.S100001x128.size Cert.Kernel.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

/-! ## Closed forms -/

theorem cond2_iff : ∀ k : Fin k0_t1_loop.trips, k0_cond2 k = 1#1 ↔ k.val < 56 := by decide +kernel
theorem off4_eq : ∀ (i : grid0.Coords) (k : Fin k0_t1_loop.trips), k0_off4 i k = ![2048 * (i 1).val + 1024 * (i 0).val + 128 * (k.val / 8), 0] := by decide +kernel
theorem off5_eq : ∀ k : Fin k0_t1_loop.trips, k0_off5 k = ![k.val / 8 + 1, 0] := by decide +kernel
theorem off4_0 (L : grid0.Coords) (k : Fin k0_t1_loop.trips) : k0_off4 L k 0 = base L + 128 * (k.val / 8) := by rw [off4_eq]; rfl
theorem off4_1 (L : grid0.Coords) (k : Fin k0_t1_loop.trips) : k0_off4 L k 1 = 0 := by rw [off4_eq]; rfl
theorem off5_0 (k : Fin k0_t1_loop.trips) : k0_off5 k 0 = k.val / 8 + 1 := by rw [off5_eq]; rfl
theorem off5_1 (k : Fin k0_t1_loop.trips) : k0_off5 k 1 = 0 := by rw [off5_eq]; rfl

/-! ## The window of the own-row result -/

/-- The 128 rows a harvesting trip copies into lie in the subcore's own rows: they miss everything outside them. -/
theorem off4_disj_others (L : grid0.Coords) (k : Fin k0_t1_loop.trips) (h1 : k0_cond1 k = 1#1) :
    Disjoint ((soW).slice (Rect.unit (s := S32768x128) (k0_off4 L k) S128x128.size (k0_off4_inb L k h1)) (fun _ => rfl)).view.set (Oth L) := by
  have hk := trips_lt k
  unfold Oth
  refine win128_disj_others (cL L) (sL L) _ _ (off4_1 L k) ?_ ?_
  · rw [off4_0]; show 2048 * (L 1).val + 1024 * (L 0).val ≤ 2048 * (L 1).val + 1024 * (L 0).val + 128 * (k.val / 8); omega
  · rw [off4_0]; show 2048 * (L 1).val + 1024 * (L 0).val + 128 * (k.val / 8) + 128 ≤ 2048 * (L 1).val + 1024 * (L 0).val + 1024; omega

/-! ## The values -/

/-- After the gather of block k / 8 + 1 the own-rows scratch holds that block's table rows. -/
theorem harvest_srows (k : Fin k0_t1_loop.trips) (h1 : k0_cond1 k = 1#1) (h2 : k0_cond2 k = 1#1) (hk8 : k.val % 8 = 4) (hk56 : k.val < 56)
    (R : Buf (Elt F) ((s4W).view.loc (thr d L)))
    (hinS : ∀ x, ((offS (k0_off5 k) (k0_off5_inb k h1 h2)).view.read (Elt F) idxs x).toNat < S100001x128.size gathers_S100001x128_S128x128.axis) :
    SRowsOK m d L idxs ((k.val + 1 + 3) / 8)
      ((s4W).view.writes (Elt F) R [⟨Rect.whole cc0_scratch4.ty.shape,
        SparseCore.gatherPayload gathers_S100001x128_S128x128 ((embV).view.read (Elt F) (m (embLoc d)))
          (SparseCore.rows ((offS (k0_off5 k) (k0_off5_inb k h1 h2)).view.read (Elt F) idxs) rfl hinS)⟩]) := by
  unfold SRowsOK
  intro a b
  refine (congrFun (s4_writes R _) (ix2 a b)).trans ?_
  rw [gather_val_s' (m (embLoc d)) idxs (k0_off5 k) (k0_off5_inb k h1 h2) (off5_1 k) hinS a b]
  have e0 := off5_0 k
  have e8 : (k.val + 1 + 3) / 8 % 8 = k.val / 8 + 1 := by omega
  simp only [e0, e8]

/-- After the copy of block k / 8 the rows of the own-row result below base + 128 (k / 8 + 1) hold the gathered rows: the window's
    128 rows are the block's rows, which the own-index scratch names as the own-index list does; the rows below were done before. -/
theorem harvest_rows
    (hidxs : ∀ (j : Fin 8) (a : Fin 128), idxs (ix2 j a)
      = Is (ix2 (⟨8 * (2 * (L 1).val + (L 0).val) + j.val, by
          have h1 : (L 1).val < 16 := (L 1).isLt; have h0 : (L 0).val < 2 := (L 0).isLt; have := j.isLt; omega⟩ : Fin 256) a))
    (k : Fin k0_t1_loop.trips) (h1 : k0_cond1 k = 1#1) (hk8 : k.val % 8 = 4)
    (R : Buf (Elt F) ((s4W).view.loc (thr d L))) (hR : SRowsOK m d L idxs ((k.val + 3) / 8) R)
    (gs : Buf (Elt F) ((soW).view.loc (thr d L)))
    (hgs : ∀ y : S32768x128.Idx, base L ≤ (y 0).val → (y 0).val < base L + 128 * ((k.val + 3) / 8) → gs y = selfVal (m (embLoc d)) Is y) :
    ∀ y : S32768x128.Idx, base L ≤ (y 0).val → (y 0).val < base L + 128 * ((k.val + 1 + 3) / 8) →
      View.write (Elt F) ((soW).slice (Rect.unit (s := S32768x128) (k0_off4 L k) S128x128.size (k0_off4_inb L k h1)) (fun _ => rfl)).view gs
        (ReadAs.same.apply ((s4W).view.read (Elt F) R)) Finset.univ y = selfVal (m (embLoc d)) Is y := by
  intro y hlo hhi
  have hk := trips_lt k
  have o0 := off4_0 L k
  have o1 := off4_1 L k
  have hL1 : (L 1).val < 16 := (L 1).isLt
  have hL0 : (L 0).val < 2 := (L 0).isLt
  have hy1 : (y 1).val < 128 := (y 1).isLt
  by_cases hin : y ∈ ((soW).slice (Rect.unit (s := S32768x128) (k0_off4 L k) S128x128.size (k0_off4_inb L k h1)) (fun _ => rfl)).view.set
  · have hb := (mem_win128 _ _ o1 y).mp hin
    rw [o0] at hb
    have ha : (y 0).val - (base L + 128 * (k.val / 8)) < 128 := by omega
    let a : Fin 128 := ⟨(y 0).val - (base L + 128 * (k.val / 8)), ha⟩
    let b : Fin 128 := ⟨(y 1).val, hy1⟩
    have hy : ((soW).slice (Rect.unit (s := S32768x128) (k0_off4 L k) S128x128.size (k0_off4_inb L k h1)) (fun _ => rfl)).view.emb (ix2 a b) = y := by
      rw [win128_emb _ _ o1 (ix2 a b)]
      funext c
      refine Fin.ext ?_
      match c with
      | ⟨0, _⟩ => show k0_off4 L k 0 + ((y 0).val - (base L + 128 * (k.val / 8))) = (y 0).val; rw [o0]; omega
      | ⟨1, _⟩ => rfl
    have hw := win128_write_emb (k0_off4 L k) (k0_off4_inb L k h1) gs (ReadAs.same.apply ((s4W).view.read (Elt F) R)) (ix2 a b)
    rw [hy] at hw
    rw [hw]
    show R (ix2 a b) = _
    rw [hR a b, hidxs]
    unfold selfVal wordAt
    have eA : (⟨8 * (2 * (L 1).val + (L 0).val) + ((k.val + 3) / 8 % 8), by omega⟩ : Fin 256) = ⟨(y 0).val / 128, by have := (y 0).isLt; show (y 0).val / 128 < 256; have : (y 0).val < 32768 := (y 0).isLt; omega⟩ :=
      Fin.ext (by show 8 * (2 * (L 1).val + (L 0).val) + ((k.val + 3) / 8 % 8) = (y 0).val / 128; unfold base at hb; omega)
    have ea : a = ⟨(y 0).val % 128, Nat.mod_lt _ (by norm_num)⟩ := Fin.ext (by show (y 0).val - (base L + 128 * (k.val / 8)) = (y 0).val % 128; unfold base at hb ⊢; omega)
    have eb : b = y 1 := Fin.ext rfl
    simp only [eA, ea, eb]
  · have hb := (mem_win128 _ _ o1 y).not.mp hin
    rw [o0] at hb
    rw [win128_write_off (k0_off4 L k) (k0_off4_inb L k h1) gs (ReadAs.same.apply ((s4W).view.read (Elt F) R)) y hin]
    exact hgs y hlo (by omega)

/-! ## The stream's invariant from its pieces -/

/-- With a gather in flight. -/
theorem sPart_fold (n : Nat) (hn : n ≤ 60) (o : Fin 2 → Nat) (ho : ∀ a, o a + S1x128.size a ≤ S8x128.size a)
    (R : Buf (Elt F) ((s4W).view.loc (thr d L)))
    (hpure : o 0 = (n + 3) / 8 ∧ o 1 = 0 ∧ SRowsOK m d L idxs ((n + 3) / 8) R)
    (gs : Buf (Elt F) ((soW).view.loc (thr d L)))
    (hgs : ∀ y : S32768x128.Idx, base L ≤ (y 0).val → (y 0).val < base L + 128 * ((n + 3) / 8) → gs y = selfVal (m (embLoc d)) Is y) :
    (iprop(Transfers.Flight countersEmb (thr d L) (SemLoc.dma (4 : DmaSem sig)) (default : HIx 1) 524288
            iprop((((s4W).view.loc (thr d L) ↦[(s4W).view.set]{fullShare} R)
              ∗ ((offS o ho).view.loc (thr d L) ↦[(offS o ho).view.set]{fullShare} (idxs : Buf (Elt F) ((offS o ho).view.loc (thr d L)))))
              ∗ ((embW).view.loc (thr d L) ↦[(embV).view.set]{Transfers.shareTok q 5 4} m (embLoc d)))
        ∗ ((s1W).view.loc (thr d L) ↦[Finset.univ \ ((offS o ho).view.set : Finset (Idx ((s1W).view.loc (thr d L))))]{fullShare} idxs)
        ∗ ((embW).view.loc (thr d L) ↦[Finset.univ \ (embV).view.set]{Transfers.shareTok q 5 4} m (embLoc d))
        ∗ semVal (cell d L 5) 0
        ∗ ((soW).view.loc (thr d L) ↦[Finset.univ \ Oth L]{fullShare} gs)) : sProp 𝕄)
      ⊢ sPart m Is d L q idxs n := by
  unfold sPart
  rw [if_pos hn]
  iintro ⟨HF, H1, HE, Hc, Hs⟩
  isplitl [HF H1 HE]
  · iexists o, ho, R
    isplitr; · ipureintro; exact hpure
    isplitl [HF]; · iexact HF
    isplitl [H1]; · iexact H1
    iexact HE
  isplitl [Hc]; · iexact Hc
  iexists gs
  isplitr; · ipureintro; exact hgs
  iexact Hs

/-- With the last block harvested: nothing in flight. -/
theorem sPart_fold_idle (n : Nat) (hn : ¬ n ≤ 60) (R : Buf (Elt F) ((s4W).view.loc (thr d L)))
    (gs : Buf (Elt F) ((soW).view.loc (thr d L)))
    (hgs : ∀ y : S32768x128.Idx, base L ≤ (y 0).val → (y 0).val < base L + 128 * ((n + 3) / 8) → gs y = selfVal (m (embLoc d)) Is y) :
    (iprop(semVal (cell d L 4) 0 ∗ ((s4W).view.loc (thr d L) ↦[(s4W).view.set]{fullShare} R)
        ∗ ((s1W).view.loc (thr d L) ↦{fullShare} idxs) ∗ ((embW).view.loc (thr d L) ↦{Transfers.shareTok q 5 4} m (embLoc d))
        ∗ semVal (cell d L 5) 0
        ∗ ((soW).view.loc (thr d L) ↦[Finset.univ \ Oth L]{fullShare} gs)) : sProp 𝕄)
      ⊢ sPart m Is d L q idxs n := by
  unfold sPart
  rw [if_neg hn]
  iintro ⟨H4, HR, H1, HE, Hc, Hs⟩
  isplitl [H4 HR H1 HE]
  · isplitl [H4]; · iexact H4
    isplitl [HR]; · iexists R; iexact HR
    isplitl [H1]; · iexact H1
    iexact HE
  isplitl [Hc]; · iexact Hc
  iexists gs
  isplitr; · ipureintro; exact hgs
  iexact Hs

end Cert.KB
end
-- ==== Proof.TripValB.lean ====
/-
  The values a trip of the main loop leaves, stated on contents.

  After the gather of chunk c into a slot of the rows scratch, row a of the slot is the table row that word a of index
  row c names. The reduction writes, for each of the chunk's eight result rows p and each column, the left-to-right sum
  of the sixteen slot rows 16 p + r. Result row n = base + 8 c + p sums the words 16 n + r of the neighbour list; with
  base = 1024 w these are words 16 p + r of row 128 w + c of the list, which the subcore's copy of its 128 list rows
  holds as row c. So the eight rows written out are rows base + 8 c … base + 8 c + 7 of the neighbour result. Joining
  the two windows of a trip back onto the rows already done extends the done rows by sixteen.
-/
import proofs.«208587_g27212912787602_cont_9to1_1073_18_alg».proof.Proof.TileInvB
import proofs.«208587_g27212912787602_cont_9to1_1073_18_alg».proof.Proof.GatherValB
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)

local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)
local notation "embV" => ((Memref.whole Cert.Kernel.main_arg1_scv : Memref Cert.Kernel.sig Kind.scVector Space.hbm Cert.Kernel.S100001x128 EltTy.f32).slice (Rect.unit (s := Cert.Kernel.S100001x128) ![0, 0] Cert.Kernel.S100001x128.size Cert.Kernel.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

/-! ## The slot after a gather -/

omit [FloatOps F] in
/-- Slot 0 after the gather through index row c. -/
theorem rowsOK_gather0 (o : Fin 2 → Nat) (h : ∀ a, o a + S1x128.size a ≤ S128x128.size a) (h1 : o 1 = 0) (c : Nat) (hc : o 0 = c)
    (hc128 : c < 128)
    (hin : ∀ x, ((offN o h).view.read (Elt F) idxn x).toNat < S100001x128.size gathers_S100001x128_S128x128.axis)
    (f : Buf (Elt F) ((s2W).view.loc (thr d L))) :
    RowsOK m d L idxn 0 c ((rows0M).view.writes (Elt F) f [⟨Rect.whole S128x128,
      SparseCore.gatherPayload gathers_S100001x128_S128x128 ((embV).view.read (Elt F) (m (embLoc d))) (SparseCore.rows ((offN o h).view.read (Elt F) idxn) rfl hin)⟩]) := by
  intro a b
  subst hc
  rw [rows0_writes f _ a b, gather_val_n' (m (embLoc d)) idxn o h h1 hin a b]
  have e : (⟨o 0, by have := h 0; change o 0 + 1 ≤ 128 at this; omega⟩ : Fin 128) = ⟨o 0 % 128, Nat.mod_lt _ (by norm_num)⟩ :=
    Fin.ext (Nat.mod_eq_of_lt hc128).symm
  rw [e]

omit [FloatOps F] in
/-- Slot 1 after the gather through index row c. -/
theorem rowsOK_gather1 (o : Fin 2 → Nat) (h : ∀ a, o a + S1x128.size a ≤ S128x128.size a) (h1 : o 1 = 0) (c : Nat) (hc : o 0 = c)
    (hc128 : c < 128)
    (hin : ∀ x, ((offN o h).view.read (Elt F) idxn x).toNat < S100001x128.size gathers_S100001x128_S128x128.axis)
    (f : Buf (Elt F) ((s2W).view.loc (thr d L))) :
    RowsOK m d L idxn 1 c ((rows1M).view.writes (Elt F) f [⟨Rect.whole S128x128,
      SparseCore.gatherPayload gathers_S100001x128_S128x128 ((embV).view.read (Elt F) (m (embLoc d))) (SparseCore.rows ((offN o h).view.read (Elt F) idxn) rfl hin)⟩]) := by
  intro a b
  subst hc
  rw [rows1_writes f _ a b, gather_val_n' (m (embLoc d)) idxn o h h1 hin a b]
  have e : (⟨o 0, by have := h 0; change o 0 + 1 ≤ 128 at this; omega⟩ : Fin 128) = ⟨o 0 % 128, Nat.mod_lt _ (by norm_num)⟩ :=
    Fin.ext (Nat.mod_eq_of_lt hc128).symm
  rw [e]

/-! ## The eight rows a chunk's sums are -/

/-- The sums of chunk c, copied out to the eight rows at base + 8 c, are those rows of the neighbour result. -/
theorem nei_window_val (slot : Fin 2) (c : Nat) (hc : c < 128) (off : Fin 2 → Nat)
    (inb : ∀ a, off a + S8x128.size a ≤ S32768x128.size a) (h0 : off 0 = base L + 8 * c) (h1 : off 1 = 0)
    (R : Buf (Elt F) ((s2W).view.loc (thr d L))) (N' : Buf (Elt F) ((s3W).view.loc (thr d L)))
    (hR : RowsOK m d L idxn slot c R)
    (hN : ∀ (p : Fin 8) (l : Fin 128), N' (ix3 slot p l)
      = chain16 fun r : Fin 16 => R (ix3 slot (⟨16 * p.val + r.val, by have := p.isLt; have := r.isLt; omega⟩ : Fin 128) l))
    (hidxn : ∀ (c a : Fin 128), idxn (ix2 c a)
      = In (ix2 (⟨128 * (2 * (L 1).val + (L 0).val) + c.val, by
          have h1 : (L 1).val < 16 := (L 1).isLt; have h0 : (L 0).val < 2 := (L 0).isLt; have := c.isLt; omega⟩ : Fin 4096) a))
    (gA : Buf (Elt F) ((noW).view.loc (thr d L)))
    (hgA : ∀ x : S8x128.Idx, gA (ix2 (⟨off 0 + (x 0).val, by
        have h := inb 0; have hx : (x 0).val < 8 := (x 0).isLt; change off 0 + 8 ≤ 32768 at h; omega⟩ : Fin 32768) (x 1))
      = N' (ix3 slot (x 0) (x 1))) :
    ∀ y ∈ W8 d L off inb, gA y = neiVal (m (embLoc d)) In y := by
  intro y hy
  have hm := (mem_win8 off inb h1 y).mp hy
  obtain ⟨n, l, rfl⟩ : ∃ (n : Fin 32768) (l : Fin 128), y = ix2 n l := ⟨y 0, y 1, eq_ix2 y⟩
  have hm' : off 0 ≤ n.val ∧ n.val < off 0 + 8 := hm
  have hp : n.val - off 0 < 8 := by omega
  have hL1 : (L 1).val < 16 := (L 1).isLt
  have hL0 : (L 0).val < 2 := (L 0).isLt
  have hn : n = (⟨off 0 + (⟨n.val - off 0, hp⟩ : Fin 8).val, by have := n.isLt; show off 0 + (n.val - off 0) < 32768; omega⟩ : Fin 32768) :=
    Fin.ext (by show n.val = off 0 + (n.val - off 0); omega)
  have e1 : gA (ix2 n l) = N' (ix3 slot (⟨n.val - off 0, hp⟩ : Fin 8) l) := by
    have := hgA (ix2 (⟨n.val - off 0, hp⟩ : Fin 8) l)
    rw [← hn] at this
    exact this
  rw [e1, hN]
  clear e1 hn
  unfold neiVal
  refine congrArg chain16 (funext fun r => ?_)
  have hr := r.isLt
  rw [hR]
  refine congrArg (fun w => m (embLoc d) (ix2 (Cert.Spec.rowOf w) l)) ?_
  have hcm : c % 128 = c := Nat.mod_eq_of_lt hc
  have e2 := hidxn (⟨c % 128, Nat.mod_lt _ (by norm_num)⟩ : Fin 128) (⟨16 * (n.val - off 0) + r.val, by omega⟩ : Fin 128)
  refine e2.trans ?_
  unfold wordAt
  refine congrArg In ?_
  have h0' : off 0 = 2048 * (L 1).val + 1024 * (L 0).val + 8 * c := h0
  have hq : n.val * 16 + r.val = 128 * (128 * (2 * (L 1).val + (L 0).val) + c) + (16 * (n.val - off 0) + r.val) := by
    omega
  funext a
  refine Fin.ext ?_
  match a with
  | ⟨0, _⟩ =>
    show 128 * (2 * (L 1).val + (L 0).val) + c % 128 = (n.val * 16 + r.val) / 128
    rw [hq, hcm, Nat.mul_add_div (by norm_num), Nat.div_eq_of_lt (by omega)]
    omega
  | ⟨1, _⟩ =>
    show 16 * (n.val - off 0) + r.val = (n.val * 16 + r.val) % 128
    rw [hq, Nat.mul_add_mod, Nat.mod_eq_of_lt (by omega)]

/-! ## The window a copy out wrote -/

omit [FloatOps F] in
/-- Row p, column l of the half of the sums scratch at leading offset o3 0 is element (o3 0, p, l) of the scratch. -/
theorem nbuf_emb (o3 : Fin 3 → Nat) (inb3 : ∀ a, o3 a + S1x8x128.size a ≤ S2x8x128.size a) (h1 : o3 1 = 0) (h2 : o3 2 = 0)
    (p : Fin 8) (l : Fin 128) :
    ((((s3W).slice (Rect.unit (s := S2x8x128) o3 S1x8x128.size inb3) (fun _ => rfl)).squeeze S8x128 squeezes_S1x8x128_S8x128).view.emb (ix2 p l) : S2x8x128.Idx)
      = ix3 (⟨o3 0, by have := inb3 0; change o3 0 + 1 ≤ 2 at this; omega⟩ : Fin 2) p l := by
  have hj : Shape.reshapeEquiv (s := (Rect.unit (s := S2x8x128) o3 S1x8x128.size inb3).shape) (s' := S8x128) squeezes_S1x8x128_S8x128.numel_eq (ix2 p l)
      = (ix3 (0 : Fin 1) p l : S1x8x128.Idx) :=
    Shape.reshapeEquiv_eq_of_rowMajor _ (by
      rw [Shape.rowMajor_val_two]
      refine (Shape.rowMajor_val_three (d := ![1, 8, 128]) (ix3 (0 : Fin 1) p l)).trans ?_
      show (0 * 8 + p.val) * 128 + l.val = p.val * 128 + l.val
      omega)
  show (Rect.unit (s := S2x8x128) o3 S1x8x128.size inb3).emb (Shape.reshapeEquiv squeezes_S1x8x128_S8x128.numel_eq (ix2 p l)) = _
  rw [hj]
  funext c
  refine Fin.ext ?_
  match c with
  | ⟨0, _⟩ => show o3 0 + 1 * 0 = o3 0; omega
  | ⟨1, _⟩ => show o3 1 + 1 * p.val = p.val; omega
  | ⟨2, _⟩ => show o3 2 + 1 * l.val = l.val; omega

omit [FloatOps F] in
/-- What the half of the sums scratch reads at (p, l). -/
theorem nbuf_read (o3 : Fin 3 → Nat) (inb3 : ∀ a, o3 a + S1x8x128.size a ≤ S2x8x128.size a) (h1 : o3 1 = 0) (h2 : o3 2 = 0)
    (N' : Buf (Elt F) ((s3W).view.loc (thr d L))) (p : Fin 8) (l : Fin 128) :
    (((s3W).slice (Rect.unit (s := S2x8x128) o3 S1x8x128.size inb3) (fun _ => rfl)).squeeze S8x128 squeezes_S1x8x128_S8x128).view.read (Elt F) N' (ix2 p l)
      = N' (ix3 (⟨o3 0, by have := inb3 0; change o3 0 + 1 ≤ 2 at this; omega⟩ : Fin 2) p l) := by
  show N' ((((s3W).slice (Rect.unit (s := S2x8x128) o3 S1x8x128.size inb3) (fun _ => rfl)).squeeze S8x128 squeezes_S1x8x128_S8x128).view.emb (ix2 p l)) = _
  rw [nbuf_emb o3 inb3 h1 h2 p l]

omit [FloatOps F] in
/-- A write of a half of the sums scratch through an eight-row window of the neighbour result leaves, at row
    off 0 + p, column l, the half's (p, l). -/
theorem win8_copy_write (o3 : Fin 3 → Nat) (inb3 : ∀ a, o3 a + S1x8x128.size a ≤ S2x8x128.size a) (h31 : o3 1 = 0) (h32 : o3 2 = 0)
    (off : Fin 2 → Nat) (inb : ∀ a, off a + S8x128.size a ≤ S32768x128.size a) (h1 : off 1 = 0)
    (gprev : Buf (Elt F) ((noW).view.loc (thr d L))) (N' : Buf (Elt F) ((s3W).view.loc (thr d L))) (x : S8x128.Idx) :
    ((noW).slice (Rect.unit (s := S32768x128) off S8x128.size inb) (fun _ => rfl)).view.write (Elt F) gprev
        (ReadAs.same.apply ((((s3W).slice (Rect.unit (s := S2x8x128) o3 S1x8x128.size inb3) (fun _ => rfl)).squeeze S8x128 squeezes_S1x8x128_S8x128).view.read (Elt F) N'))
        Finset.univ
        (ix2 (⟨off 0 + (x 0).val, by have h := inb 0; have hx : (x 0).val < 8 := (x 0).isLt; change off 0 + 8 ≤ 32768 at h; omega⟩ : Fin 32768) (x 1))
      = N' (ix3 (⟨o3 0, by have := inb3 0; change o3 0 + 1 ≤ 2 at this; omega⟩ : Fin 2) (x 0) (x 1)) := by
  obtain ⟨p, l, rfl⟩ : ∃ (p : Fin 8) (l : Fin 128), x = ix2 p l := ⟨x 0, x 1, eq_ix2 x⟩
  have e := win8_emb off inb h1 (ix2 p l)
  have e' : (ix2 (⟨off 0 + p.val, by have h := inb 0; have hx := p.isLt; change off 0 + 8 ≤ 32768 at h; omega⟩ : Fin 32768) l : S32768x128.Idx)
      = ((noW).slice (Rect.unit (s := S32768x128) off S8x128.size inb) (fun _ => rfl)).view.emb (ix2 p l) := e.symm
  show ((noW).slice (Rect.unit (s := S32768x128) off S8x128.size inb) (fun _ => rfl)).view.write (Elt F) gprev _ Finset.univ
      (ix2 (⟨off 0 + p.val, _⟩ : Fin 32768) l) = N' (ix3 _ p l)
  rw [e', win8_write_emb]
  exact nbuf_read d L o3 inb3 h31 h32 N' p l

omit [FloatOps F] in
/-- The same spelled as a list of one whole piece. -/
theorem win8_copy_writes (o3 : Fin 3 → Nat) (inb3 : ∀ a, o3 a + S1x8x128.size a ≤ S2x8x128.size a) (h31 : o3 1 = 0) (h32 : o3 2 = 0)
    (off : Fin 2 → Nat) (inb : ∀ a, off a + S8x128.size a ≤ S32768x128.size a) (h1 : off 1 = 0)
    (gprev : Buf (Elt F) ((noW).view.loc (thr d L))) (N' : Buf (Elt F) ((s3W).view.loc (thr d L))) (x : S8x128.Idx) :
    ((noW).slice (Rect.unit (s := S32768x128) off S8x128.size inb) (fun _ => rfl)).view.writes (Elt F) gprev
        [⟨Rect.whole S8x128, ReadAs.same.apply ((((s3W).slice (Rect.unit (s := S2x8x128) o3 S1x8x128.size inb3) (fun _ => rfl)).squeeze S8x128 squeezes_S1x8x128_S8x128).view.read (Elt F) N')⟩]
        (ix2 (⟨off 0 + (x 0).val, by have h := inb 0; have hx : (x 0).val < 8 := (x 0).isLt; change off 0 + 8 ≤ 32768 at h; omega⟩ : Fin 32768) (x 1))
      = N' (ix3 (⟨o3 0, by have := inb3 0; change o3 0 + 1 ≤ 2 at this; omega⟩ : Fin 2) (x 0) (x 1)) := by
  refine (congrFun (View.write_univ_eq_writes_whole (Val := Elt F)
    ((noW).slice (Rect.unit (s := S32768x128) off S8x128.size inb) (fun _ => rfl)).view gprev [] _).symm _).trans ?_
  exact win8_copy_write d L o3 inb3 h31 h32 off inb h1 gprev N' x

omit [FloatOps F] in
/-- The program's two halves. -/
theorem win8_copy0_write (off : Fin 2 → Nat) (inb : ∀ a, off a + S8x128.size a ≤ S32768x128.size a) (h1 : off 1 = 0)
    (gprev : Buf (Elt F) ((noW).view.loc (thr d L))) (N' : Buf (Elt F) ((s3W).view.loc (thr d L))) (x : S8x128.Idx) :
    ((noW).slice (Rect.unit (s := S32768x128) off S8x128.size inb) (fun _ => rfl)).view.write (Elt F) gprev
        (ReadAs.same.apply ((nbuf0M).view.read (Elt F) N')) Finset.univ
        (ix2 (⟨off 0 + (x 0).val, by have h := inb 0; have hx : (x 0).val < 8 := (x 0).isLt; change off 0 + 8 ≤ 32768 at h; omega⟩ : Fin 32768) (x 1))
      = N' (ix3 (0 : Fin 2) (x 0) (x 1)) :=
  win8_copy_write d L ![0, 0, 0] inb_S2x8x128_S1x8x128_0_0_0 rfl rfl off inb h1 gprev N' x
omit [FloatOps F] in
theorem win8_copy1_write (off : Fin 2 → Nat) (inb : ∀ a, off a + S8x128.size a ≤ S32768x128.size a) (h1 : off 1 = 0)
    (gprev : Buf (Elt F) ((noW).view.loc (thr d L))) (N' : Buf (Elt F) ((s3W).view.loc (thr d L))) (x : S8x128.Idx) :
    ((noW).slice (Rect.unit (s := S32768x128) off S8x128.size inb) (fun _ => rfl)).view.write (Elt F) gprev
        (ReadAs.same.apply ((nbuf1M).view.read (Elt F) N')) Finset.univ
        (ix2 (⟨off 0 + (x 0).val, by have h := inb 0; have hx : (x 0).val < 8 := (x 0).isLt; change off 0 + 8 ≤ 32768 at h; omega⟩ : Fin 32768) (x 1))
      = N' (ix3 (1 : Fin 2) (x 0) (x 1)) :=
  win8_copy_write d L ![1, 0, 0] inb_S2x8x128_S1x8x128_1_0_0 rfl rfl off inb h1 gprev N' x
omit [FloatOps F] in
theorem win8_copy0_writes (off : Fin 2 → Nat) (inb : ∀ a, off a + S8x128.size a ≤ S32768x128.size a) (h1 : off 1 = 0)
    (gprev : Buf (Elt F) ((noW).view.loc (thr d L))) (N' : Buf (Elt F) ((s3W).view.loc (thr d L))) (x : S8x128.Idx) :
    ((noW).slice (Rect.unit (s := S32768x128) off S8x128.size inb) (fun _ => rfl)).view.writes (Elt F) gprev
        [⟨Rect.whole S8x128, ReadAs.same.apply ((nbuf0M).view.read (Elt F) N')⟩]
        (ix2 (⟨off 0 + (x 0).val, by have h := inb 0; have hx : (x 0).val < 8 := (x 0).isLt; change off 0 + 8 ≤ 32768 at h; omega⟩ : Fin 32768) (x 1))
      = N' (ix3 (0 : Fin 2) (x 0) (x 1)) :=
  win8_copy_writes d L ![0, 0, 0] inb_S2x8x128_S1x8x128_0_0_0 rfl rfl off inb h1 gprev N' x
omit [FloatOps F] in
theorem win8_copy1_writes (off : Fin 2 → Nat) (inb : ∀ a, off a + S8x128.size a ≤ S32768x128.size a) (h1 : off 1 = 0)
    (gprev : Buf (Elt F) ((noW).view.loc (thr d L))) (N' : Buf (Elt F) ((s3W).view.loc (thr d L))) (x : S8x128.Idx) :
    ((noW).slice (Rect.unit (s := S32768x128) off S8x128.size inb) (fun _ => rfl)).view.writes (Elt F) gprev
        [⟨Rect.whole S8x128, ReadAs.same.apply ((nbuf1M).view.read (Elt F) N')⟩]
        (ix2 (⟨off 0 + (x 0).val, by have h := inb 0; have hx : (x 0).val < 8 := (x 0).isLt; change off 0 + 8 ≤ 32768 at h; omega⟩ : Fin 32768) (x 1))
      = N' (ix3 (1 : Fin 2) (x 0) (x 1)) :=
  win8_copy_writes d L ![1, 0, 0] inb_S2x8x128_S1x8x128_1_0_0 rfl rfl off inb h1 gprev N' x

/-! ## The done rows after a trip -/

/-- The two windows of trip n - 1, put back over the rows done before it, give the rows done before trip n. -/
theorem done_rows (n : Nat) (offA offB : Fin 2 → Nat) (inbA : ∀ a, offA a + S8x128.size a ≤ S32768x128.size a)
    (inbB : ∀ a, offB a + S8x128.size a ≤ S32768x128.size a)
    (hA0 : offA 0 = base L + 16 * (n - 1)) (hA1 : offA 1 = 0) (hB0 : offB 0 = base L + 16 * (n - 1) + 8) (hB1 : offB 1 = 0)
    (gA gB g : Buf (Elt F) ((noW).view.loc (thr d L)))
    (hgA : ∀ y ∈ W8 d L offA inbA, gA y = neiVal (m (embLoc d)) In y)
    (hgB : ∀ y ∈ W8 d L offB inbB, gB y = neiVal (m (embLoc d)) In y)
    (hg : ∀ y : S32768x128.Idx, base L ≤ (y 0).val → (y 0).val < base L + 16 * (n - 1) → g y = neiVal (m (embLoc d)) In y)
    (hn : 0 < n) :
    ∀ y : S32768x128.Idx, base L ≤ (y 0).val → (y 0).val < base L + 16 * n →
      ((W8 d L offB inbB).piecewise gB ((W8 d L offA inbA).piecewise gA g)) y = neiVal (m (embLoc d)) In y := by
  intro y hlo hhi
  by_cases hB : y ∈ W8 d L offB inbB
  · rw [Finset.piecewise_eq_of_mem _ _ _ hB]; exact hgB y hB
  · rw [Finset.piecewise_eq_of_notMem _ _ _ hB]
    by_cases hA : y ∈ W8 d L offA inbA
    · rw [Finset.piecewise_eq_of_mem _ _ _ hA]; exact hgA y hA
    · rw [Finset.piecewise_eq_of_notMem _ _ _ hA]
      refine hg y hlo ?_
      have hA' := mt (mem_win8 offA inbA hA1 y).mpr hA
      have hB' := mt (mem_win8 offB inbB hB1 y).mpr hB
      omega

end Cert.KB

end
-- ==== Proof.TileStepAB.lean ====
import proofs.«208587_g27212912787602_cont_9to1_1073_18_alg».proof.Proof.TileInvB
import proofs.«208587_g27212912787602_cont_9to1_1073_18_alg».proof.Proof.GatherValB
import proofs.«208587_g27212912787602_cont_9to1_1073_18_alg».proof.Proof.ReduceB
import proofs.«208587_g27212912787602_cont_9to1_1073_18_alg».proof.Proof.TileHarvestB
import proofs.«208587_g27212912787602_cont_9to1_1073_18_alg».proof.Proof.TripValB
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)

local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)
local notation "embV" => ((Memref.whole Cert.Kernel.main_arg1_scv : Memref Cert.Kernel.sig Kind.scVector Space.hbm Cert.Kernel.S100001x128 EltTy.f32).slice (Rect.unit (s := Cert.Kernel.S100001x128) ![0, 0] Cert.Kernel.S100001x128.size Cert.Kernel.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

set_option maxHeartbeats 4000000 in
theorem stepA (hn : ∀ y, (idxn y).toNat ≤ 100000) (hs : ∀ y, (idxs y).toNat ≤ 100000)
    (hidxn : ∀ (c a : Fin 128), idxn (ix2 c a) = In (ix2 ⟨128 * (2 * (L 1).val + (L 0).val) + c.val, rowN_lt L c⟩ a))
    (hidxs : ∀ (j : Fin 8) (a : Fin 128), idxs (ix2 j a) = Is (ix2 ⟨8 * (2 * (L 1).val + (L 0).val) + j.val, rowS_lt L j⟩ a))
    (hO : ∀ g, O g none = 0) (v2 : BitVec 32) (k : Fin k0_t1_loop.trips) (hk : k.val = 0) (acc : PUnit) :
    inv m Is In d L q idxn idxs O W0 k.val acc ⊢ wp frame (wpE (defs₀ (F := F)) 𝒱₀ (thr d L) none) Set.univ
      (k0_t1_body L embW (Memref.isWhole_whole _) inW (Memref.isWhole_whole _) isW (Memref.isWhole_whole _) soW (Memref.isWhole_whole _) noW (Memref.isWhole_whole _)
        s0W (Memref.isWhole_whole _) s1W (Memref.isWhole_whole _) s2W (Memref.isWhole_whole _) s3W (Memref.isWhole_whole _) s4W (Memref.isWhole_whole _)
        cc0_scratch5 cc0_scratch6 cc0_scratch7 cc0_scratch8 cc0_scoped0 cc0_scoped1 v2 k acc)
      (fun acc' => inv m Is In d L q idxn idxs O W0 (k.val + 1) acc') := by
  have hnk0 : ¬ 0 < k.val := by omega
  have hk63 : k.val < 63 := by omega
  have hk8 : k.val % 8 ≠ 4 := by omega
  have h1 : ¬ k0_cond1 k = 1#1 := fun h => hk8 ((cond1_iff k).1 h)
  have h3 : ¬ k0_cond3 k = 1#1 := fun h => hnk0 ((cond3_iff k).1 h)
  have h5 : ¬ k0_cond5 k = 1#1 := fun h => hnk0 ((cond5_iff k).1 h)
  have h4 : k0_cond4 k = 1#1 := (cond4_iff k).2 hk63
  have h6 : k0_cond6 k = 1#1 := (cond6_iff k).2 hk63
  have hk64 : k.val < 64 := by have := trips_lt k; omega
  have hk0' : 0 < k.val + 1 := by omega
  have hk64' : k.val + 1 < 64 := by omega
  have hS : sPart m Is d L q idxs (k.val + 1) = sPart m Is d L q idxs k.val := by
    unfold sPart
    rw [show (k.val + 1 + 3) / 8 = (k.val + 3) / 8 by omega]
    by_cases h60 : k.val ≤ 60
    · rw [if_pos h60, if_pos (by omega : k.val + 1 ≤ 60)]
    · rw [if_neg h60, if_neg (by omega : ¬ k.val + 1 ≤ 60)]
  unfold k0_t1_body
  rw [k0_part49_eq_skeleton, k0_part50_eq_skeleton]; unfold k0_part49_skel k0_part50_skel
  unfold inv gPart0 gPart1 oPart
  rw [if_pos hk64, if_pos hk64, if_neg hnk0, if_pos hk64', if_pos hk64', if_pos hk0', hS]
  iintro ⟨Hmw, ⟨%o0, %ho0, %R0, %hf0, HG0, H0r, HE0r⟩, ⟨%o1, %ho1, %R1, %hf1, HG1, H1r, HE1r⟩,
    ⟨HO0, HO1, ⟨%NA, Hnb0⟩, ⟨%NB, Hnb1⟩, ⟨%g, Hno⟩⟩, HS, ⟨%W', %hW', HO⟩⟩
  -- the respellings used below
  have e2 : ∀ f, ((rows0M).view.loc (thr d L) ↦[(rows0M).view.set]{fullShare} f : sProp 𝕄) = ((s2W).view.loc (thr d L) ↦[Finset.univ \ (rows1M).view.set]{fullShare} f) :=
    fun f => congrArg (fun S => ((s2W).view.loc (thr d L) ↦[S]{fullShare} f : sProp 𝕄)) rows0_eq
  have e2' : ∀ f, ((rows1M).view.loc (thr d L) ↦[(rows1M).view.set]{fullShare} f : sProp 𝕄) = ((s2W).view.loc (thr d L) ↦[Finset.univ \ (rows0M).view.set]{fullShare} f) :=
    fun f => congrArg (fun S => ((s2W).view.loc (thr d L) ↦[S]{fullShare} f : sProp 𝕄)) rows1_eq
  have e3 : ∀ f, ((nbuf0M).view.loc (thr d L) ↦[(nbuf0M).view.set]{fullShare} f : sProp 𝕄) = ((s3W).view.loc (thr d L) ↦[Finset.univ \ (nbuf1M).view.set]{fullShare} f) :=
    fun f => congrArg (fun S => ((s3W).view.loc (thr d L) ↦[S]{fullShare} f : sProp 𝕄)) nbuf0_eq
  have e3' : ∀ f, ((nbuf1M).view.loc (thr d L) ↦[(nbuf1M).view.set]{fullShare} f : sProp 𝕄) = ((s3W).view.loc (thr d L) ↦[Finset.univ \ (nbuf0M).view.set]{fullShare} f) :=
    fun f => congrArg (fun S => ((s3W).view.loc (thr d L) ↦[S]{fullShare} f : sProp 𝕄)) nbuf1_eq
  have eA : ∀ o h qq f, ((s0W).view.loc (thr d L) ↦[(offN o h).view.set]{qq} f : sProp 𝕄) = ((offN o h).view.loc (thr d L) ↦[(offN o h).view.set]{qq} f) := fun _ _ _ _ => rfl
  have eW : ∀ off inb f, ((noW).view.loc (thr d L) ↦[W8 d L off inb]{fullShare} f : sProp 𝕄)
      = (((noW).slice (Rect.unit (s := S32768x128) off S8x128.size inb) (fun _ => rfl)).view.loc (thr d L) ↦[((noW).slice (Rect.unit (s := S32768x128) off S8x128.size inb) (fun _ => rfl)).view.set]{fullShare} f) := fun _ _ _ => rfl
  have hsubN : ∀ o h, ((offN o h).view.set : Finset (Idx ((s0W).view.loc (thr d L)))) ⊆ Finset.univ := fun _ _ => Finset.subset_univ _
  have hw32 : Disjoint ((noW).slice (Rect.unit (s := S32768x128) (k0_off32 L k) S8x128.size (k0_off32_inb L k)) (fun _ => rfl)).view.set (Oth L) := by unfold Oth; exact off32_disj_others L k
  have hw60 : Disjoint ((noW).slice (Rect.unit (s := S32768x128) (k0_off60 L k) S8x128.size (k0_off60_inb L k)) (fun _ => rfl)).view.set (Oth L) := by unfold Oth; exact off60_disj_others L k
  have hw60A : Disjoint (W8 d L (k0_off60 L k) (k0_off60_inb L k)) (W8 d L (k0_off32 L k) (k0_off32_inb L k)) := off60_off32_disj L k k
  -- slot 0: its gather lands
  sl_exec
  ihave Hrows := (Entails.of_eq (e2 _)) $$ HG0_dst
  iapply (wp_seq2 d L (reduce0 d L R0 NA v2 (0#32) (1#32) k))
  isplitl [Hrows Hnb0]
  · isplitl [Hrows] <;> iassumption
  iintro %_ ⟨Hrows, %NA', Hnb0, %hNA'⟩
  ihave HG0d := (Entails.of_eq (e2 _).symm) $$ Hrows
  ihave H3x := (Entails.of_eq (e3 _).symm) $$ Hnb0
  ihave H0s := (pointsTo_split_subset (hsubN (k0_off33 k) (k0_off33_inb k h4))).1 $$ H0r
  icases H0s with ⟨H0a, H0b⟩
  ihave H0a' := (Entails.of_eq (eA _ _ _ _)) $$ H0a
  have hinA : ∀ x, ((offN (k0_off33 k) (k0_off33_inb k h4)).view.read (Elt F) idxn x).toNat < S100001x128.size gathers_S100001x128_S128x128.axis := fun x => Nat.lt_succ_of_le (hn _)
  have hW32sub : W8 d L (k0_off32 L k) (k0_off32_inb L k) ⊆ Finset.univ \ Oth L := Finset.subset_sdiff.2 ⟨Finset.subset_univ _, hw32⟩
  ihave Hs32 := (pointsTo_split_subset hW32sub).1 $$ Hno
  icases Hs32 with ⟨Hwin32, Hno3⟩
  ihave Hwin32' := (Entails.of_eq (eW _ _ _)) $$ Hwin32
  sl_exec (disch := exact View.amount_pos _ _ (show 0 < S8x128.numel by decide))
  -- slot 1: the same
  ihave Hrows1 := (Entails.of_eq (e2' _)) $$ HG1_dst
  iapply (wp_seq2 d L (reduce1 d L R1 NB v2 k _ _))
  isplitl [Hrows1 Hnb1]
  · isplitl [Hrows1] <;> iassumption
  iintro %_ ⟨Hrows1, %NB', Hnb1, %hNB'⟩
  ihave HG1d := (Entails.of_eq (e2' _).symm) $$ Hrows1
  ihave H3y := (Entails.of_eq (e3' _).symm) $$ Hnb1
  ihave H1s := (pointsTo_split_subset (hsubN (k0_off61 k) (k0_off61_inb k h6))).1 $$ H1r
  icases H1s with ⟨H1a, H1b⟩
  ihave H1a' := (Entails.of_eq (eA _ _ _ _)) $$ H1a
  have hinB : ∀ x, ((offN (k0_off61 k) (k0_off61_inb k h6)).view.read (Elt F) idxn x).toNat < S100001x128.size gathers_S100001x128_S128x128.axis := fun x => Nat.lt_succ_of_le (hn _)
  have hW60sub : W8 d L (k0_off60 L k) (k0_off60_inb L k) ⊆ (Finset.univ \ Oth L) \ W8 d L (k0_off32 L k) (k0_off32_inb L k) :=
    Finset.subset_sdiff.2 ⟨Finset.subset_sdiff.2 ⟨Finset.subset_univ _, hw60⟩, hw60A⟩
  ihave Hs60 := (pointsTo_split_subset hW60sub).1 $$ Hno3
  icases Hs60 with ⟨Hwin60, Hno5⟩
  ihave Hwin60' := (Entails.of_eq (eW _ _ _)) $$ Hwin60
  sl_exec (disch := exact View.amount_pos _ _ (show 0 < S8x128.numel by decide))
  sl_step
  -- the invariant before the next trip
  isplitl [Hmw]; · iexact Hmw
  isplitl [HG0 H0b HE0r]
  · iexists (k0_off33 k), (k0_off33_inb k h4), _
    isplitr [HG0 H0b HE0r]
    swap
    · isplitl [HG0]; · iexact HG0
      isplitl [H0b]; · iexact H0b
      iexact HE0r
    · ipureintro
      exact ⟨by rw [k0_off33_eq]; show 2 * k.val + 2 = 2 * (k.val + 1); omega, by rw [k0_off33_eq]; rfl,
        rowsOK_gather0 (m := m) (d := d) (L := L) (idxn := idxn) (k0_off33 k) (k0_off33_inb k h4) (by rw [k0_off33_eq]; rfl) (2 * (k.val + 1)) (by rw [k0_off33_eq]; show 2 * k.val + 2 = _; omega) (by omega) hinA R0⟩
  isplitl [HG1 H1b HE1r]
  · iexists (k0_off61 k), (k0_off61_inb k h6), _
    isplitr [HG1 H1b HE1r]
    swap
    · isplitl [HG1]; · iexact HG1
      isplitl [H1b]; · iexact H1b
      iexact HE1r
    · ipureintro
      exact ⟨by rw [k0_off61_eq]; show 2 * k.val + 3 = 2 * (k.val + 1) + 1; omega, by rw [k0_off61_eq]; rfl,
        rowsOK_gather1 (m := m) (d := d) (L := L) (idxn := idxn) (k0_off61 k) (k0_off61_inb k h6) (by rw [k0_off61_eq]; rfl) (2 * (k.val + 1) + 1) (by rw [k0_off61_eq]; show 2 * k.val + 3 = _; omega) (by omega) hinB R1⟩
  isplitl [HO0 HO1 Hno5]
  · iexists (k0_off32 L k), (k0_off60 L k), (k0_off32_inb L k), (k0_off60_inb L k), _, _, _, _, _
    isplitr [HO0 HO1 Hno5]
    swap
    · isplitl [HO0]; · iexact HO0
      isplitl [HO1]; · iexact HO1
      iexact Hno5
    · ipureintro
      refine ⟨⟨by rw [off32_0]; show _ = base L + 16 * (k.val + 1 - 1); simp, off32_1 L k, by rw [off60_0]; show _ = base L + 16 * (k.val + 1 - 1) + 8; simp, off60_1 L k⟩, ?_, ?_, ?_⟩
      · exact nei_window_val (m := m) (In := In) (d := d) (L := L) (idxn := idxn) 0 (2 * k.val) (by omega) (k0_off32 L k) (k0_off32_inb L k) (by rw [off32_0]; unfold base; omega) (off32_1 L k) R0 NA' (by have := hf0.2.2; exact this) hNA' hidxn _
          (fun x => win8_copy0_writes d L (k0_off32 L k) (k0_off32_inb L k) (off32_1 L k) _ NA' x)
      · exact nei_window_val (m := m) (In := In) (d := d) (L := L) (idxn := idxn) 1 (2 * k.val + 1) (by omega) (k0_off60 L k) (k0_off60_inb L k) (by rw [off60_0]; unfold base; omega) (off60_1 L k) R1 NB' (by have := hf1.2.2; exact this) hNB' hidxn _
          (fun x => win8_copy1_writes d L (k0_off60 L k) (k0_off60_inb L k) (off60_1 L k) _ NB' x)
      · intro y h1y h2y; omega
  isplitl [HS]; · iexact HS
  iexists _
  isplitr [HO]
  swap
  · iexact HO
  · ipureintro; intro p hp
    repeat (rcases Finset.mem_insert.mp hp with hp | hp; exact .inr (hp ▸ rfl))
    exact hW' p hp
end Cert.KB
end
-- ==== Proof.TileStepBB.lean ====
import proofs.«208587_g27212912787602_cont_9to1_1073_18_alg».proof.Proof.TileInvB
import proofs.«208587_g27212912787602_cont_9to1_1073_18_alg».proof.Proof.GatherValB
import proofs.«208587_g27212912787602_cont_9to1_1073_18_alg».proof.Proof.ReduceB
import proofs.«208587_g27212912787602_cont_9to1_1073_18_alg».proof.Proof.TileHarvestB
import proofs.«208587_g27212912787602_cont_9to1_1073_18_alg».proof.Proof.TripValB
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)

local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)
local notation "embV" => ((Memref.whole Cert.Kernel.main_arg1_scv : Memref Cert.Kernel.sig Kind.scVector Space.hbm Cert.Kernel.S100001x128 EltTy.f32).slice (Rect.unit (s := Cert.Kernel.S100001x128) ![0, 0] Cert.Kernel.S100001x128.size Cert.Kernel.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

set_option maxHeartbeats 4000000 in
theorem stepB (hn : ∀ y, (idxn y).toNat ≤ 100000) (hs : ∀ y, (idxs y).toNat ≤ 100000)
    (hidxn : ∀ (c a : Fin 128), idxn (ix2 c a) = In (ix2 ⟨128 * (2 * (L 1).val + (L 0).val) + c.val, rowN_lt L c⟩ a))
    (hidxs : ∀ (j : Fin 8) (a : Fin 128), idxs (ix2 j a) = Is (ix2 ⟨8 * (2 * (L 1).val + (L 0).val) + j.val, rowS_lt L j⟩ a))
    (hO : ∀ g, O g none = 0) (v2 : BitVec 32) (k : Fin k0_t1_loop.trips) (hk0 : 0 < k.val) (hk63 : k.val < 63) (hk8 : k.val % 8 ≠ 4) (acc : PUnit) :
    inv m Is In d L q idxn idxs O W0 k.val acc ⊢ wp frame (wpE (defs₀ (F := F)) 𝒱₀ (thr d L) none) Set.univ
      (k0_t1_body L embW (Memref.isWhole_whole _) inW (Memref.isWhole_whole _) isW (Memref.isWhole_whole _) soW (Memref.isWhole_whole _) noW (Memref.isWhole_whole _)
        s0W (Memref.isWhole_whole _) s1W (Memref.isWhole_whole _) s2W (Memref.isWhole_whole _) s3W (Memref.isWhole_whole _) s4W (Memref.isWhole_whole _)
        cc0_scratch5 cc0_scratch6 cc0_scratch7 cc0_scratch8 cc0_scoped0 cc0_scoped1 v2 k acc)
      (fun acc' => inv m Is In d L q idxn idxs O W0 (k.val + 1) acc') := by
  have h1 : ¬ k0_cond1 k = 1#1 := fun h => hk8 ((cond1_iff k).1 h)
  have h3 : k0_cond3 k = 1#1 := (cond3_iff k).2 hk0
  have h5 : k0_cond5 k = 1#1 := (cond5_iff k).2 hk0
  have h4 : k0_cond4 k = 1#1 := (cond4_iff k).2 hk63
  have h6 : k0_cond6 k = 1#1 := (cond6_iff k).2 hk63
  have hk64 : k.val < 64 := by have := trips_lt k; omega
  have hk0' : 0 < k.val + 1 := by omega
  have hk64' : k.val + 1 < 64 := by omega
  have hS : sPart m Is d L q idxs (k.val + 1) = sPart m Is d L q idxs k.val := by
    unfold sPart
    rw [show (k.val + 1 + 3) / 8 = (k.val + 3) / 8 by omega]
    by_cases h60 : k.val ≤ 60
    · rw [if_pos h60, if_pos (by omega : k.val + 1 ≤ 60)]
    · rw [if_neg h60, if_neg (by omega : ¬ k.val + 1 ≤ 60)]
  unfold k0_t1_body
  rw [k0_part49_eq_skeleton, k0_part50_eq_skeleton]; unfold k0_part49_skel k0_part50_skel
  unfold inv gPart0 gPart1 oPart
  rw [if_pos hk64, if_pos hk64, if_pos hk0, if_pos hk64', if_pos hk64', if_pos hk0', hS]
  iintro ⟨Hmw, ⟨%o0, %ho0, %R0, %hf0, HG0, H0r, HE0r⟩, ⟨%o1, %ho1, %R1, %hf1, HG1, H1r, HE1r⟩,
    ⟨%offA, %offB, %inbA, %inbB, %gA, %gB, %g, %NA, %NB, %hfo, HO0, HO1, Hno⟩, HS, ⟨%W', %hW', HO⟩⟩
  -- the respellings used below
  have e2 : ∀ f, ((rows0M).view.loc (thr d L) ↦[(rows0M).view.set]{fullShare} f : sProp 𝕄) = ((s2W).view.loc (thr d L) ↦[Finset.univ \ (rows1M).view.set]{fullShare} f) :=
    fun f => congrArg (fun S => ((s2W).view.loc (thr d L) ↦[S]{fullShare} f : sProp 𝕄)) rows0_eq
  have e2' : ∀ f, ((rows1M).view.loc (thr d L) ↦[(rows1M).view.set]{fullShare} f : sProp 𝕄) = ((s2W).view.loc (thr d L) ↦[Finset.univ \ (rows0M).view.set]{fullShare} f) :=
    fun f => congrArg (fun S => ((s2W).view.loc (thr d L) ↦[S]{fullShare} f : sProp 𝕄)) rows1_eq
  have e3 : ∀ f, ((nbuf0M).view.loc (thr d L) ↦[(nbuf0M).view.set]{fullShare} f : sProp 𝕄) = ((s3W).view.loc (thr d L) ↦[Finset.univ \ (nbuf1M).view.set]{fullShare} f) :=
    fun f => congrArg (fun S => ((s3W).view.loc (thr d L) ↦[S]{fullShare} f : sProp 𝕄)) nbuf0_eq
  have e3' : ∀ f, ((nbuf1M).view.loc (thr d L) ↦[(nbuf1M).view.set]{fullShare} f : sProp 𝕄) = ((s3W).view.loc (thr d L) ↦[Finset.univ \ (nbuf0M).view.set]{fullShare} f) :=
    fun f => congrArg (fun S => ((s3W).view.loc (thr d L) ↦[S]{fullShare} f : sProp 𝕄)) nbuf1_eq
  have eA : ∀ o h qq f, ((s0W).view.loc (thr d L) ↦[(offN o h).view.set]{qq} f : sProp 𝕄) = ((offN o h).view.loc (thr d L) ↦[(offN o h).view.set]{qq} f) := fun _ _ _ _ => rfl
  have eW : ∀ off inb f, ((noW).view.loc (thr d L) ↦[W8 d L off inb]{fullShare} f : sProp 𝕄)
      = (((noW).slice (Rect.unit (s := S32768x128) off S8x128.size inb) (fun _ => rfl)).view.loc (thr d L) ↦[((noW).slice (Rect.unit (s := S32768x128) off S8x128.size inb) (fun _ => rfl)).view.set]{fullShare} f) := fun _ _ _ => rfl
  have hsubN : ∀ o h, ((offN o h).view.set : Finset (Idx ((s0W).view.loc (thr d L)))) ⊆ Finset.univ := fun _ _ => Finset.subset_univ _
  have hw32 : Disjoint ((noW).slice (Rect.unit (s := S32768x128) (k0_off32 L k) S8x128.size (k0_off32_inb L k)) (fun _ => rfl)).view.set (Oth L) := by unfold Oth; exact off32_disj_others L k
  have hw60 : Disjoint ((noW).slice (Rect.unit (s := S32768x128) (k0_off60 L k) S8x128.size (k0_off60_inb L k)) (fun _ => rfl)).view.set (Oth L) := by unfold Oth; exact off60_disj_others L k
  have hw60A : Disjoint (W8 d L (k0_off60 L k) (k0_off60_inb L k)) (W8 d L (k0_off32 L k) (k0_off32_inb L k)) := off60_off32_disj L k k
  obtain ⟨⟨hA0, hA1, hB0, hB1⟩, hgA, hgB, hg⟩ := hfo
  have hAO : W8 d L offA inbA ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offA inbA hA1 (by rw [hA0]; show base L ≤ _; omega) (by rw [hA0]; show _ ≤ base L + 1024; omega) hy)⟩
  have hBO : W8 d L offB inbB ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offB inbB hB1 (by rw [hB0]; show base L ≤ _; omega) (by rw [hB0]; show _ ≤ base L + 1024; omega) hy)⟩
  have hAB : Disjoint (W8 d L offA inbA) (W8 d L offB inbB) := win8_disj offA offB inbA inbB (Or.inl (by rw [hA0, hB0]))
  have hw32B : Disjoint (W8 d L (k0_off32 L k) (k0_off32_inb L k)) (W8 d L offB inbB) := win8_disj _ offB _ inbB (Or.inr (by rw [off32_0, hB0]; show _ ≤ base L + 16 * k.val; omega))
  -- slot 0: its gather lands, the copy of two chunks ago too
  sl_exec
  ihave Hrows := (Entails.of_eq (e2 _)) $$ HG0_dst
  ihave Hnb0 := (Entails.of_eq (e3 _)) $$ HO0_src
  iapply (wp_seq2 d L (reduce0 d L R0 NA v2 (0#32) (1#32) k))
  isplitl [Hrows Hnb0]
  · isplitl [Hrows] <;> iassumption
  iintro %_ ⟨Hrows, %NA', Hnb0, %hNA'⟩
  ihave Hno2 := (join_hole (f := gA) (g := g) hAO hAB) $$ [HO0_dst Hno]
  · isplitl [HO0_dst] <;> iassumption
  ihave HG0d := (Entails.of_eq (e2 _).symm) $$ Hrows
  ihave H3x := (Entails.of_eq (e3 _).symm) $$ Hnb0
  ihave H0s := (pointsTo_split_subset (hsubN (k0_off33 k) (k0_off33_inb k h4))).1 $$ H0r
  icases H0s with ⟨H0a, H0b⟩
  ihave H0a' := (Entails.of_eq (eA _ _ _ _)) $$ H0a
  have hinA : ∀ x, ((offN (k0_off33 k) (k0_off33_inb k h4)).view.read (Elt F) idxn x).toNat < S100001x128.size gathers_S100001x128_S128x128.axis := fun x => Nat.lt_succ_of_le (hn _)
  have hW32sub : W8 d L (k0_off32 L k) (k0_off32_inb L k) ⊆ (Finset.univ \ Oth L) \ W8 d L offB inbB :=
    Finset.subset_sdiff.2 ⟨Finset.subset_sdiff.2 ⟨Finset.subset_univ _, hw32⟩, hw32B⟩
  ihave Hs32 := (pointsTo_split_subset hW32sub).1 $$ Hno2
  icases Hs32 with ⟨Hwin32, Hno3⟩
  ihave Hwin32' := (Entails.of_eq (eW _ _ _)) $$ Hwin32
  sl_exec (disch := exact View.amount_pos _ _ (show 0 < S8x128.numel by decide))
  -- slot 1: the same
  ihave Hrows1 := (Entails.of_eq (e2' _)) $$ HG1_dst
  ihave Hnb1 := (Entails.of_eq (e3' _)) $$ HO1_src
  iapply (wp_seq2 d L (reduce1 d L R1 NB v2 k _ _))
  isplitl [Hrows1 Hnb1]
  · isplitl [Hrows1] <;> iassumption
  iintro %_ ⟨Hrows1, %NB', Hnb1, %hNB'⟩
  ihave Hno4 := (join_hole (f := gB) (g := (W8 d L offA inbA).piecewise gA g) hBO hw32B.symm) $$ [HO1_dst Hno3]
  · isplitl [HO1_dst] <;> iassumption
  ihave HG1d := (Entails.of_eq (e2' _).symm) $$ Hrows1
  ihave H3y := (Entails.of_eq (e3' _).symm) $$ Hnb1
  ihave H1s := (pointsTo_split_subset (hsubN (k0_off61 k) (k0_off61_inb k h6))).1 $$ H1r
  icases H1s with ⟨H1a, H1b⟩
  ihave H1a' := (Entails.of_eq (eA _ _ _ _)) $$ H1a
  have hinB : ∀ x, ((offN (k0_off61 k) (k0_off61_inb k h6)).view.read (Elt F) idxn x).toNat < S100001x128.size gathers_S100001x128_S128x128.axis := fun x => Nat.lt_succ_of_le (hn _)
  have hW60sub : W8 d L (k0_off60 L k) (k0_off60_inb L k) ⊆ (Finset.univ \ Oth L) \ W8 d L (k0_off32 L k) (k0_off32_inb L k) :=
    Finset.subset_sdiff.2 ⟨Finset.subset_sdiff.2 ⟨Finset.subset_univ _, hw60⟩, hw60A⟩
  ihave Hs60 := (pointsTo_split_subset hW60sub).1 $$ Hno4
  icases Hs60 with ⟨Hwin60, Hno5⟩
  ihave Hwin60' := (Entails.of_eq (eW _ _ _)) $$ Hwin60
  sl_exec (disch := exact View.amount_pos _ _ (show 0 < S8x128.numel by decide))
  sl_step
  -- the invariant before the next trip
  isplitl [Hmw]; · iexact Hmw
  isplitl [HG0 H0b HE0r]
  · iexists (k0_off33 k), (k0_off33_inb k h4), _
    isplitr [HG0 H0b HE0r]
    swap
    · isplitl [HG0]; · iexact HG0
      isplitl [H0b]; · iexact H0b
      iexact HE0r
    · ipureintro
      exact ⟨by rw [k0_off33_eq]; show 2 * k.val + 2 = 2 * (k.val + 1); omega, by rw [k0_off33_eq]; rfl,
        rowsOK_gather0 (m := m) (d := d) (L := L) (idxn := idxn) (k0_off33 k) (k0_off33_inb k h4) (by rw [k0_off33_eq]; rfl) (2 * (k.val + 1)) (by rw [k0_off33_eq]; show 2 * k.val + 2 = _; omega) (by omega) hinA R0⟩
  isplitl [HG1 H1b HE1r]
  · iexists (k0_off61 k), (k0_off61_inb k h6), _
    isplitr [HG1 H1b HE1r]
    swap
    · isplitl [HG1]; · iexact HG1
      isplitl [H1b]; · iexact H1b
      iexact HE1r
    · ipureintro
      exact ⟨by rw [k0_off61_eq]; show 2 * k.val + 3 = 2 * (k.val + 1) + 1; omega, by rw [k0_off61_eq]; rfl,
        rowsOK_gather1 (m := m) (d := d) (L := L) (idxn := idxn) (k0_off61 k) (k0_off61_inb k h6) (by rw [k0_off61_eq]; rfl) (2 * (k.val + 1) + 1) (by rw [k0_off61_eq]; show 2 * k.val + 3 = _; omega) (by omega) hinB R1⟩
  isplitl [HO0 HO1 Hno5]
  · iexists (k0_off32 L k), (k0_off60 L k), (k0_off32_inb L k), (k0_off60_inb L k), _, _, _, _, _
    isplitr [HO0 HO1 Hno5]
    swap
    · isplitl [HO0]; · iexact HO0
      isplitl [HO1]; · iexact HO1
      iexact Hno5
    · ipureintro
      refine ⟨⟨by rw [off32_0]; show _ = base L + 16 * (k.val + 1 - 1); simp, off32_1 L k, by rw [off60_0]; show _ = base L + 16 * (k.val + 1 - 1) + 8; simp, off60_1 L k⟩, ?_, ?_, ?_⟩
      · exact nei_window_val (m := m) (In := In) (d := d) (L := L) (idxn := idxn) 0 (2 * k.val) (by omega) (k0_off32 L k) (k0_off32_inb L k) (by rw [off32_0]; unfold base; omega) (off32_1 L k) R0 NA' (by have := hf0.2.2; exact this) hNA' hidxn _
          (fun x => win8_copy0_writes d L (k0_off32 L k) (k0_off32_inb L k) (off32_1 L k) _ NA' x)
      · exact nei_window_val (m := m) (In := In) (d := d) (L := L) (idxn := idxn) 1 (2 * k.val + 1) (by omega) (k0_off60 L k) (k0_off60_inb L k) (by rw [off60_0]; unfold base; omega) (off60_1 L k) R1 NB' (by have := hf1.2.2; exact this) hNB' hidxn _
          (fun x => win8_copy1_writes d L (k0_off60 L k) (k0_off60_inb L k) (off60_1 L k) _ NB' x)
      · exact done_rows (m := m) (In := In) (d := d) (L := L) k.val offA offB inbA inbB hA0 hA1 hB0 hB1 gA gB g hgA hgB hg hk0 |> fun h => by simpa using h
  isplitl [HS]; · iexact HS
  iexists _
  isplitr [HO]
  swap
  · iexact HO
  · ipureintro; intro p hp
    repeat (rcases Finset.mem_insert.mp hp with hp | hp; exact .inr (hp ▸ rfl))
    exact hW' p hp
end Cert.KB
end
-- ==== Proof.TileStepCB.lean ====
import proofs.«208587_g27212912787602_cont_9to1_1073_18_alg».proof.Proof.TileInvB
import proofs.«208587_g27212912787602_cont_9to1_1073_18_alg».proof.Proof.GatherValB
import proofs.«208587_g27212912787602_cont_9to1_1073_18_alg».proof.Proof.ReduceB
import proofs.«208587_g27212912787602_cont_9to1_1073_18_alg».proof.Proof.TileHarvestB
import proofs.«208587_g27212912787602_cont_9to1_1073_18_alg».proof.Proof.TripValB
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)

local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)
local notation "embV" => ((Memref.whole Cert.Kernel.main_arg1_scv : Memref Cert.Kernel.sig Kind.scVector Space.hbm Cert.Kernel.S100001x128 EltTy.f32).slice (Rect.unit (s := Cert.Kernel.S100001x128) ![0, 0] Cert.Kernel.S100001x128.size Cert.Kernel.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

set_option maxHeartbeats 4000000 in
theorem stepC (hn : ∀ y, (idxn y).toNat ≤ 100000) (hs : ∀ y, (idxs y).toNat ≤ 100000)
    (hidxn : ∀ (c a : Fin 128), idxn (ix2 c a) = In (ix2 ⟨128 * (2 * (L 1).val + (L 0).val) + c.val, rowN_lt L c⟩ a))
    (hidxs : ∀ (j : Fin 8) (a : Fin 128), idxs (ix2 j a) = Is (ix2 ⟨8 * (2 * (L 1).val + (L 0).val) + j.val, rowS_lt L j⟩ a))
    (hO : ∀ g, O g none = 0) (v2 : BitVec 32) (k : Fin k0_t1_loop.trips) (hk8 : k.val % 8 = 4) (hk56 : k.val < 56) (acc : PUnit) :
    inv m Is In d L q idxn idxs O W0 k.val acc ⊢ wp frame (wpE (defs₀ (F := F)) 𝒱₀ (thr d L) none) Set.univ
      (k0_t1_body L embW (Memref.isWhole_whole _) inW (Memref.isWhole_whole _) isW (Memref.isWhole_whole _) soW (Memref.isWhole_whole _) noW (Memref.isWhole_whole _)
        s0W (Memref.isWhole_whole _) s1W (Memref.isWhole_whole _) s2W (Memref.isWhole_whole _) s3W (Memref.isWhole_whole _) s4W (Memref.isWhole_whole _)
        cc0_scratch5 cc0_scratch6 cc0_scratch7 cc0_scratch8 cc0_scoped0 cc0_scoped1 v2 k acc)
      (fun acc' => inv m Is In d L q idxn idxs O W0 (k.val + 1) acc') := by
  have hk0 : 0 < k.val := by omega
  have hk63 : k.val < 63 := by omega
  have hk60 : k.val ≤ 60 := by omega
  have h1 : k0_cond1 k = 1#1 := (cond1_iff k).2 hk8
  have h2 : k0_cond2 k = 1#1 := (cond2_iff k).2 hk56
  have h3 : k0_cond3 k = 1#1 := (cond3_iff k).2 hk0
  have h5 : k0_cond5 k = 1#1 := (cond5_iff k).2 hk0
  have h4 : k0_cond4 k = 1#1 := (cond4_iff k).2 hk63
  have h6 : k0_cond6 k = 1#1 := (cond6_iff k).2 hk63
  have hk64 : k.val < 64 := by have := trips_lt k; omega
  have hk0' : 0 < k.val + 1 := by omega
  have hk64' : k.val + 1 < 64 := by omega
  have hw4 := off4_disj_others L k h1
  unfold k0_t1_body
  rw [k0_part49_eq_skeleton, k0_part50_eq_skeleton]; unfold k0_part49_skel k0_part50_skel
  unfold inv gPart0 gPart1 oPart
  rw [if_pos hk64, if_pos hk64, if_pos hk0, if_pos hk64', if_pos hk64', if_pos hk0']
  generalize hSP : sPart m Is d L q idxs (k.val + 1) = SP
  unfold sPart
  rw [if_pos hk60]
  iintro ⟨Hmw, ⟨%o0, %ho0, %R0, %hf0, HG0, H0r, HE0r⟩, ⟨%o1, %ho1, %R1, %hf1, HG1, H1r, HE1r⟩,
    ⟨%offA, %offB, %inbA, %inbB, %gA, %gB, %g, %NA, %NB, %hfo, HO0, HO1, Hno⟩, ⟨⟨%oS, %hoS, %RS, %hfS, HS4, HS1r, HSEr⟩, Hc5, %gs, %hgs, Hso⟩, ⟨%W', %hW', HO⟩⟩
  -- the respellings used below
  have e2 : ∀ f, ((rows0M).view.loc (thr d L) ↦[(rows0M).view.set]{fullShare} f : sProp 𝕄) = ((s2W).view.loc (thr d L) ↦[Finset.univ \ (rows1M).view.set]{fullShare} f) :=
    fun f => congrArg (fun S => ((s2W).view.loc (thr d L) ↦[S]{fullShare} f : sProp 𝕄)) rows0_eq
  have e2' : ∀ f, ((rows1M).view.loc (thr d L) ↦[(rows1M).view.set]{fullShare} f : sProp 𝕄) = ((s2W).view.loc (thr d L) ↦[Finset.univ \ (rows0M).view.set]{fullShare} f) :=
    fun f => congrArg (fun S => ((s2W).view.loc (thr d L) ↦[S]{fullShare} f : sProp 𝕄)) rows1_eq
  have e3 : ∀ f, ((nbuf0M).view.loc (thr d L) ↦[(nbuf0M).view.set]{fullShare} f : sProp 𝕄) = ((s3W).view.loc (thr d L) ↦[Finset.univ \ (nbuf1M).view.set]{fullShare} f) :=
    fun f => congrArg (fun S => ((s3W).view.loc (thr d L) ↦[S]{fullShare} f : sProp 𝕄)) nbuf0_eq
  have e3' : ∀ f, ((nbuf1M).view.loc (thr d L) ↦[(nbuf1M).view.set]{fullShare} f : sProp 𝕄) = ((s3W).view.loc (thr d L) ↦[Finset.univ \ (nbuf0M).view.set]{fullShare} f) :=
    fun f => congrArg (fun S => ((s3W).view.loc (thr d L) ↦[S]{fullShare} f : sProp 𝕄)) nbuf1_eq
  have eA : ∀ o h qq f, ((s0W).view.loc (thr d L) ↦[(offN o h).view.set]{qq} f : sProp 𝕄) = ((offN o h).view.loc (thr d L) ↦[(offN o h).view.set]{qq} f) := fun _ _ _ _ => rfl
  have eW : ∀ off inb f, ((noW).view.loc (thr d L) ↦[W8 d L off inb]{fullShare} f : sProp 𝕄)
      = (((noW).slice (Rect.unit (s := S32768x128) off S8x128.size inb) (fun _ => rfl)).view.loc (thr d L) ↦[((noW).slice (Rect.unit (s := S32768x128) off S8x128.size inb) (fun _ => rfl)).view.set]{fullShare} f) := fun _ _ _ => rfl
  have hsubN : ∀ o h, ((offN o h).view.set : Finset (Idx ((s0W).view.loc (thr d L)))) ⊆ Finset.univ := fun _ _ => Finset.subset_univ _
  have hw32 : Disjoint ((noW).slice (Rect.unit (s := S32768x128) (k0_off32 L k) S8x128.size (k0_off32_inb L k)) (fun _ => rfl)).view.set (Oth L) := by unfold Oth; exact off32_disj_others L k
  have hw60 : Disjoint ((noW).slice (Rect.unit (s := S32768x128) (k0_off60 L k) S8x128.size (k0_off60_inb L k)) (fun _ => rfl)).view.set (Oth L) := by unfold Oth; exact off60_disj_others L k
  have hw60A : Disjoint (W8 d L (k0_off60 L k) (k0_off60_inb L k)) (W8 d L (k0_off32 L k) (k0_off32_inb L k)) := off60_off32_disj L k k
  obtain ⟨⟨hA0, hA1, hB0, hB1⟩, hgA, hgB, hg⟩ := hfo
  have hAO : W8 d L offA inbA ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offA inbA hA1 (by rw [hA0]; show base L ≤ _; omega) (by rw [hA0]; show _ ≤ base L + 1024; omega) hy)⟩
  have hBO : W8 d L offB inbB ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offB inbB hB1 (by rw [hB0]; show base L ≤ _; omega) (by rw [hB0]; show _ ≤ base L + 1024; omega) hy)⟩
  have hAB : Disjoint (W8 d L offA inbA) (W8 d L offB inbB) := win8_disj offA offB inbA inbB (Or.inl (by rw [hA0, hB0]))
  have hw32B : Disjoint (W8 d L (k0_off32 L k) (k0_off32_inb L k)) (W8 d L offB inbB) := win8_disj _ offB _ inbB (Or.inr (by rw [off32_0, hB0]; show _ ≤ base L + 16 * k.val; omega))
  -- the own rows of block k / 8 are harvested and the next block's gather issued
  sl_exec (disch := exact View.amount_pos _ _ (show 0 < S128x128.numel by decide))
  have e1 : ∀ f, ((offS oS hoS).view.loc (thr d L) ↦{fullShare} f : sProp 𝕄) = ((s1W).view.loc (thr d L) ↦{fullShare} f) := fun _ => rfl
  ihave HS1w := (Entails.of_eq (e1 _)) $$ HS1r
  have hsubS : ((offS (k0_off5 k) (k0_off5_inb k h1 h2)).view.set : Finset (Idx ((s1W).view.loc (thr d L)))) ⊆ Finset.univ := Finset.subset_univ _
  ihave HS1s := (pointsTo_split_subset hsubS).1 $$ HS1w
  icases HS1s with ⟨HS1a, HS1b⟩
  have eS : ∀ o h qq f, ((s1W).view.loc (thr d L) ↦[(offS o h).view.set]{qq} f : sProp 𝕄) = ((offS o h).view.loc (thr d L) ↦[(offS o h).view.set]{qq} f) := fun _ _ _ _ => rfl
  ihave HS1a' := (Entails.of_eq (eS _ _ _ _)) $$ HS1a
  have hinS : ∀ x, ((offS (k0_off5 k) (k0_off5_inb k h1 h2)).view.read (Elt F) idxs x).toNat < S100001x128.size gathers_S100001x128_S128x128.axis := fun x => Nat.lt_succ_of_le (hs _)
  sl_exec
  ihave HS := (sPart_fold (m := m) (Is := Is) (d := d) (L := L) (q := q) (idxs := idxs) (k.val + 1) (by omega) (k0_off5 k) (k0_off5_inb k h1 h2) _
      ⟨by rw [off5_0]; omega, off5_1 k, harvest_srows (m := m) (d := d) (L := L) (idxs := idxs) k h1 h2 hk8 hk56 RS hinS⟩ _
      (harvest_rows (m := m) (Is := Is) (d := d) (L := L) (idxs := idxs) hidxs k h1 hk8 RS hfS.2.2 gs hgs)) $$ [HS4 HS1b HSEr Hc5 Hso]
  · isplitl [HS4]; · iexact HS4
    isplitl [HS1b]; · iexact HS1b
    isplitl [HSEr]; · iexact HSEr
    isplitl [Hc5]; · iexact Hc5
    iexact Hso
  -- slot 0: its gather lands, the copy of two chunks ago too
  ihave Hrows := (Entails.of_eq (e2 _)) $$ HG0_dst
  ihave Hnb0 := (Entails.of_eq (e3 _)) $$ HO0_src
  iapply (wp_seq2 d L (reduce0 d L R0 NA v2 (0#32) (1#32) k))
  isplitl [Hrows Hnb0]
  · isplitl [Hrows] <;> iassumption
  iintro %_ ⟨Hrows, %NA', Hnb0, %hNA'⟩
  ihave Hno2 := (join_hole (f := gA) (g := g) hAO hAB) $$ [HO0_dst Hno]
  · isplitl [HO0_dst] <;> iassumption
  ihave HG0d := (Entails.of_eq (e2 _).symm) $$ Hrows
  ihave H3x := (Entails.of_eq (e3 _).symm) $$ Hnb0
  ihave H0s := (pointsTo_split_subset (hsubN (k0_off33 k) (k0_off33_inb k h4))).1 $$ H0r
  icases H0s with ⟨H0a, H0b⟩
  ihave H0a' := (Entails.of_eq (eA _ _ _ _)) $$ H0a
  have hinA : ∀ x, ((offN (k0_off33 k) (k0_off33_inb k h4)).view.read (Elt F) idxn x).toNat < S100001x128.size gathers_S100001x128_S128x128.axis := fun x => Nat.lt_succ_of_le (hn _)
  have hW32sub : W8 d L (k0_off32 L k) (k0_off32_inb L k) ⊆ (Finset.univ \ Oth L) \ W8 d L offB inbB :=
    Finset.subset_sdiff.2 ⟨Finset.subset_sdiff.2 ⟨Finset.subset_univ _, hw32⟩, hw32B⟩
  ihave Hs32 := (pointsTo_split_subset hW32sub).1 $$ Hno2
  icases Hs32 with ⟨Hwin32, Hno3⟩
  ihave Hwin32' := (Entails.of_eq (eW _ _ _)) $$ Hwin32
  sl_exec (disch := exact View.amount_pos _ _ (show 0 < S8x128.numel by decide))
  -- slot 1: the same
  ihave Hrows1 := (Entails.of_eq (e2' _)) $$ HG1_dst
  ihave Hnb1 := (Entails.of_eq (e3' _)) $$ HO1_src
  iapply (wp_seq2 d L (reduce1 d L R1 NB v2 k _ _))
  isplitl [Hrows1 Hnb1]
  · isplitl [Hrows1] <;> iassumption
  iintro %_ ⟨Hrows1, %NB', Hnb1, %hNB'⟩
  ihave Hno4 := (join_hole (f := gB) (g := (W8 d L offA inbA).piecewise gA g) hBO hw32B.symm) $$ [HO1_dst Hno3]
  · isplitl [HO1_dst] <;> iassumption
  ihave HG1d := (Entails.of_eq (e2' _).symm) $$ Hrows1
  ihave H3y := (Entails.of_eq (e3' _).symm) $$ Hnb1
  ihave H1s := (pointsTo_split_subset (hsubN (k0_off61 k) (k0_off61_inb k h6))).1 $$ H1r
  icases H1s with ⟨H1a, H1b⟩
  ihave H1a' := (Entails.of_eq (eA _ _ _ _)) $$ H1a
  have hinB : ∀ x, ((offN (k0_off61 k) (k0_off61_inb k h6)).view.read (Elt F) idxn x).toNat < S100001x128.size gathers_S100001x128_S128x128.axis := fun x => Nat.lt_succ_of_le (hn _)
  have hW60sub : W8 d L (k0_off60 L k) (k0_off60_inb L k) ⊆ (Finset.univ \ Oth L) \ W8 d L (k0_off32 L k) (k0_off32_inb L k) :=
    Finset.subset_sdiff.2 ⟨Finset.subset_sdiff.2 ⟨Finset.subset_univ _, hw60⟩, hw60A⟩
  ihave Hs60 := (pointsTo_split_subset hW60sub).1 $$ Hno4
  icases Hs60 with ⟨Hwin60, Hno5⟩
  ihave Hwin60' := (Entails.of_eq (eW _ _ _)) $$ Hwin60
  sl_exec (disch := exact View.amount_pos _ _ (show 0 < S8x128.numel by decide))
  sl_step
  -- the invariant before the next trip
  isplitl [Hmw]; · iexact Hmw
  isplitl [HG0 H0b HE0r]
  · iexists (k0_off33 k), (k0_off33_inb k h4), _
    isplitr [HG0 H0b HE0r]
    swap
    · isplitl [HG0]; · iexact HG0
      isplitl [H0b]; · iexact H0b
      iexact HE0r
    · ipureintro
      exact ⟨by rw [k0_off33_eq]; show 2 * k.val + 2 = 2 * (k.val + 1); omega, by rw [k0_off33_eq]; rfl,
        rowsOK_gather0 (m := m) (d := d) (L := L) (idxn := idxn) (k0_off33 k) (k0_off33_inb k h4) (by rw [k0_off33_eq]; rfl) (2 * (k.val + 1)) (by rw [k0_off33_eq]; show 2 * k.val + 2 = _; omega) (by omega) hinA R0⟩
  isplitl [HG1 H1b HE1r]
  · iexists (k0_off61 k), (k0_off61_inb k h6), _
    isplitr [HG1 H1b HE1r]
    swap
    · isplitl [HG1]; · iexact HG1
      isplitl [H1b]; · iexact H1b
      iexact HE1r
    · ipureintro
      exact ⟨by rw [k0_off61_eq]; show 2 * k.val + 3 = 2 * (k.val + 1) + 1; omega, by rw [k0_off61_eq]; rfl,
        rowsOK_gather1 (m := m) (d := d) (L := L) (idxn := idxn) (k0_off61 k) (k0_off61_inb k h6) (by rw [k0_off61_eq]; rfl) (2 * (k.val + 1) + 1) (by rw [k0_off61_eq]; show 2 * k.val + 3 = _; omega) (by omega) hinB R1⟩
  isplitl [HO0 HO1 Hno5]
  · iexists (k0_off32 L k), (k0_off60 L k), (k0_off32_inb L k), (k0_off60_inb L k), _, _, _, _, _
    isplitr [HO0 HO1 Hno5]
    swap
    · isplitl [HO0]; · iexact HO0
      isplitl [HO1]; · iexact HO1
      iexact Hno5
    · ipureintro
      refine ⟨⟨by rw [off32_0]; show _ = base L + 16 * (k.val + 1 - 1); simp, off32_1 L k, by rw [off60_0]; show _ = base L + 16 * (k.val + 1 - 1) + 8; simp, off60_1 L k⟩, ?_, ?_, ?_⟩
      · exact nei_window_val (m := m) (In := In) (d := d) (L := L) (idxn := idxn) 0 (2 * k.val) (by omega) (k0_off32 L k) (k0_off32_inb L k) (by rw [off32_0]; unfold base; omega) (off32_1 L k) R0 NA' (by have := hf0.2.2; exact this) hNA' hidxn _
          (fun x => win8_copy0_writes d L (k0_off32 L k) (k0_off32_inb L k) (off32_1 L k) _ NA' x)
      · exact nei_window_val (m := m) (In := In) (d := d) (L := L) (idxn := idxn) 1 (2 * k.val + 1) (by omega) (k0_off60 L k) (k0_off60_inb L k) (by rw [off60_0]; unfold base; omega) (off60_1 L k) R1 NB' (by have := hf1.2.2; exact this) hNB' hidxn _
          (fun x => win8_copy1_writes d L (k0_off60 L k) (k0_off60_inb L k) (off60_1 L k) _ NB' x)
      · exact done_rows (m := m) (In := In) (d := d) (L := L) k.val offA offB inbA inbB hA0 hA1 hB0 hB1 gA gB g hgA hgB hg hk0 |> fun h => by simpa using h
  isplitl [HS]; · rw [← hSP]; iexact HS
  iexists _
  isplitr [HO]
  swap
  · iexact HO
  · ipureintro; intro p hp
    repeat (rcases Finset.mem_insert.mp hp with hp | hp; exact .inr (hp ▸ rfl))
    exact hW' p hp
end Cert.KB
end
-- ==== Proof.TileStepDB.lean ====
import proofs.«208587_g27212912787602_cont_9to1_1073_18_alg».proof.Proof.TileInvB
import proofs.«208587_g27212912787602_cont_9to1_1073_18_alg».proof.Proof.GatherValB
import proofs.«208587_g27212912787602_cont_9to1_1073_18_alg».proof.Proof.ReduceB
import proofs.«208587_g27212912787602_cont_9to1_1073_18_alg».proof.Proof.TileHarvestB
import proofs.«208587_g27212912787602_cont_9to1_1073_18_alg».proof.Proof.TripValB
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)

local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)
local notation "embV" => ((Memref.whole Cert.Kernel.main_arg1_scv : Memref Cert.Kernel.sig Kind.scVector Space.hbm Cert.Kernel.S100001x128 EltTy.f32).slice (Rect.unit (s := Cert.Kernel.S100001x128) ![0, 0] Cert.Kernel.S100001x128.size Cert.Kernel.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

set_option maxHeartbeats 4000000 in
theorem stepD (hn : ∀ y, (idxn y).toNat ≤ 100000) (hs : ∀ y, (idxs y).toNat ≤ 100000)
    (hidxn : ∀ (c a : Fin 128), idxn (ix2 c a) = In (ix2 ⟨128 * (2 * (L 1).val + (L 0).val) + c.val, rowN_lt L c⟩ a))
    (hidxs : ∀ (j : Fin 8) (a : Fin 128), idxs (ix2 j a) = Is (ix2 ⟨8 * (2 * (L 1).val + (L 0).val) + j.val, rowS_lt L j⟩ a))
    (hO : ∀ g, O g none = 0) (v2 : BitVec 32) (k : Fin k0_t1_loop.trips) (hk : k.val = 60) (acc : PUnit) :
    inv m Is In d L q idxn idxs O W0 k.val acc ⊢ wp frame (wpE (defs₀ (F := F)) 𝒱₀ (thr d L) none) Set.univ
      (k0_t1_body L embW (Memref.isWhole_whole _) inW (Memref.isWhole_whole _) isW (Memref.isWhole_whole _) soW (Memref.isWhole_whole _) noW (Memref.isWhole_whole _)
        s0W (Memref.isWhole_whole _) s1W (Memref.isWhole_whole _) s2W (Memref.isWhole_whole _) s3W (Memref.isWhole_whole _) s4W (Memref.isWhole_whole _)
        cc0_scratch5 cc0_scratch6 cc0_scratch7 cc0_scratch8 cc0_scoped0 cc0_scoped1 v2 k acc)
      (fun acc' => inv m Is In d L q idxn idxs O W0 (k.val + 1) acc') := by
  have hk0 : 0 < k.val := by omega
  have hk63 : k.val < 63 := by omega
  have hk8 : k.val % 8 = 4 := by omega
  have hk60 : k.val ≤ 60 := by omega
  have h1 : k0_cond1 k = 1#1 := (cond1_iff k).2 hk8
  have h2 : ¬ k0_cond2 k = 1#1 := fun h => by have := (cond2_iff k).1 h; omega
  have hk56 : ¬ k.val < 56 := by omega
  have h3 : k0_cond3 k = 1#1 := (cond3_iff k).2 hk0
  have h5 : k0_cond5 k = 1#1 := (cond5_iff k).2 hk0
  have h4 : k0_cond4 k = 1#1 := (cond4_iff k).2 hk63
  have h6 : k0_cond6 k = 1#1 := (cond6_iff k).2 hk63
  have hk64 : k.val < 64 := by have := trips_lt k; omega
  have hk0' : 0 < k.val + 1 := by omega
  have hk64' : k.val + 1 < 64 := by omega
  have hw4 := off4_disj_others L k h1
  unfold k0_t1_body
  rw [k0_part49_eq_skeleton, k0_part50_eq_skeleton]; unfold k0_part49_skel k0_part50_skel
  unfold inv gPart0 gPart1 oPart
  rw [if_pos hk64, if_pos hk64, if_pos hk0, if_pos hk64', if_pos hk64', if_pos hk0']
  generalize hSP : sPart m Is d L q idxs (k.val + 1) = SP
  unfold sPart
  rw [if_pos hk60]
  iintro ⟨Hmw, ⟨%o0, %ho0, %R0, %hf0, HG0, H0r, HE0r⟩, ⟨%o1, %ho1, %R1, %hf1, HG1, H1r, HE1r⟩,
    ⟨%offA, %offB, %inbA, %inbB, %gA, %gB, %g, %NA, %NB, %hfo, HO0, HO1, Hno⟩, ⟨⟨%oS, %hoS, %RS, %hfS, HS4, HS1r, HSEr⟩, Hc5, %gs, %hgs, Hso⟩, ⟨%W', %hW', HO⟩⟩
  -- the respellings used below
  have e2 : ∀ f, ((rows0M).view.loc (thr d L) ↦[(rows0M).view.set]{fullShare} f : sProp 𝕄) = ((s2W).view.loc (thr d L) ↦[Finset.univ \ (rows1M).view.set]{fullShare} f) :=
    fun f => congrArg (fun S => ((s2W).view.loc (thr d L) ↦[S]{fullShare} f : sProp 𝕄)) rows0_eq
  have e2' : ∀ f, ((rows1M).view.loc (thr d L) ↦[(rows1M).view.set]{fullShare} f : sProp 𝕄) = ((s2W).view.loc (thr d L) ↦[Finset.univ \ (rows0M).view.set]{fullShare} f) :=
    fun f => congrArg (fun S => ((s2W).view.loc (thr d L) ↦[S]{fullShare} f : sProp 𝕄)) rows1_eq
  have e3 : ∀ f, ((nbuf0M).view.loc (thr d L) ↦[(nbuf0M).view.set]{fullShare} f : sProp 𝕄) = ((s3W).view.loc (thr d L) ↦[Finset.univ \ (nbuf1M).view.set]{fullShare} f) :=
    fun f => congrArg (fun S => ((s3W).view.loc (thr d L) ↦[S]{fullShare} f : sProp 𝕄)) nbuf0_eq
  have e3' : ∀ f, ((nbuf1M).view.loc (thr d L) ↦[(nbuf1M).view.set]{fullShare} f : sProp 𝕄) = ((s3W).view.loc (thr d L) ↦[Finset.univ \ (nbuf0M).view.set]{fullShare} f) :=
    fun f => congrArg (fun S => ((s3W).view.loc (thr d L) ↦[S]{fullShare} f : sProp 𝕄)) nbuf1_eq
  have eA : ∀ o h qq f, ((s0W).view.loc (thr d L) ↦[(offN o h).view.set]{qq} f : sProp 𝕄) = ((offN o h).view.loc (thr d L) ↦[(offN o h).view.set]{qq} f) := fun _ _ _ _ => rfl
  have eW : ∀ off inb f, ((noW).view.loc (thr d L) ↦[W8 d L off inb]{fullShare} f : sProp 𝕄)
      = (((noW).slice (Rect.unit (s := S32768x128) off S8x128.size inb) (fun _ => rfl)).view.loc (thr d L) ↦[((noW).slice (Rect.unit (s := S32768x128) off S8x128.size inb) (fun _ => rfl)).view.set]{fullShare} f) := fun _ _ _ => rfl
  have hsubN : ∀ o h, ((offN o h).view.set : Finset (Idx ((s0W).view.loc (thr d L)))) ⊆ Finset.univ := fun _ _ => Finset.subset_univ _
  have hw32 : Disjoint ((noW).slice (Rect.unit (s := S32768x128) (k0_off32 L k) S8x128.size (k0_off32_inb L k)) (fun _ => rfl)).view.set (Oth L) := by unfold Oth; exact off32_disj_others L k
  have hw60 : Disjoint ((noW).slice (Rect.unit (s := S32768x128) (k0_off60 L k) S8x128.size (k0_off60_inb L k)) (fun _ => rfl)).view.set (Oth L) := by unfold Oth; exact off60_disj_others L k
  have hw60A : Disjoint (W8 d L (k0_off60 L k) (k0_off60_inb L k)) (W8 d L (k0_off32 L k) (k0_off32_inb L k)) := off60_off32_disj L k k
  obtain ⟨⟨hA0, hA1, hB0, hB1⟩, hgA, hgB, hg⟩ := hfo
  have hAO : W8 d L offA inbA ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offA inbA hA1 (by rw [hA0]; show base L ≤ _; omega) (by rw [hA0]; show _ ≤ base L + 1024; omega) hy)⟩
  have hBO : W8 d L offB inbB ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offB inbB hB1 (by rw [hB0]; show base L ≤ _; omega) (by rw [hB0]; show _ ≤ base L + 1024; omega) hy)⟩
  have hAB : Disjoint (W8 d L offA inbA) (W8 d L offB inbB) := win8_disj offA offB inbA inbB (Or.inl (by rw [hA0, hB0]))
  have hw32B : Disjoint (W8 d L (k0_off32 L k) (k0_off32_inb L k)) (W8 d L offB inbB) := win8_disj _ offB _ inbB (Or.inr (by rw [off32_0, hB0]; show _ ≤ base L + 16 * k.val; omega))
  -- the own rows of the last block are harvested; no further gather
  sl_exec (disch := exact View.amount_pos _ _ (show 0 < S128x128.numel by decide))
  have e1 : ∀ f, ((offS oS hoS).view.loc (thr d L) ↦{fullShare} f : sProp 𝕄) = ((s1W).view.loc (thr d L) ↦{fullShare} f) := fun _ => rfl
  ihave HS1w := (Entails.of_eq (e1 _)) $$ HS1r
  ihave HS := (sPart_fold_idle (m := m) (Is := Is) (d := d) (L := L) (q := q) (idxs := idxs) (k.val + 1) (by omega) RS _
      (harvest_rows (m := m) (Is := Is) (d := d) (L := L) (idxs := idxs) hidxs k h1 hk8 RS hfS.2.2 gs hgs)) $$ [HS4 HS4_dst HS1w HSEr Hc5 Hso]
  · isplitl [HS4]; · iexact HS4
    isplitl [HS4_dst]; · iexact HS4_dst
    isplitl [HS1w]; · iexact HS1w
    isplitl [HSEr]; · iexact HSEr
    isplitl [Hc5]; · iexact Hc5
    iexact Hso
  -- slot 0: its gather lands, the copy of two chunks ago too
  ihave Hrows := (Entails.of_eq (e2 _)) $$ HG0_dst
  ihave Hnb0 := (Entails.of_eq (e3 _)) $$ HO0_src
  iapply (wp_seq2 d L (reduce0 d L R0 NA v2 (0#32) (1#32) k))
  isplitl [Hrows Hnb0]
  · isplitl [Hrows] <;> iassumption
  iintro %_ ⟨Hrows, %NA', Hnb0, %hNA'⟩
  ihave Hno2 := (join_hole (f := gA) (g := g) hAO hAB) $$ [HO0_dst Hno]
  · isplitl [HO0_dst] <;> iassumption
  ihave HG0d := (Entails.of_eq (e2 _).symm) $$ Hrows
  ihave H3x := (Entails.of_eq (e3 _).symm) $$ Hnb0
  ihave H0s := (pointsTo_split_subset (hsubN (k0_off33 k) (k0_off33_inb k h4))).1 $$ H0r
  icases H0s with ⟨H0a, H0b⟩
  ihave H0a' := (Entails.of_eq (eA _ _ _ _)) $$ H0a
  have hinA : ∀ x, ((offN (k0_off33 k) (k0_off33_inb k h4)).view.read (Elt F) idxn x).toNat < S100001x128.size gathers_S100001x128_S128x128.axis := fun x => Nat.lt_succ_of_le (hn _)
  have hW32sub : W8 d L (k0_off32 L k) (k0_off32_inb L k) ⊆ (Finset.univ \ Oth L) \ W8 d L offB inbB :=
    Finset.subset_sdiff.2 ⟨Finset.subset_sdiff.2 ⟨Finset.subset_univ _, hw32⟩, hw32B⟩
  ihave Hs32 := (pointsTo_split_subset hW32sub).1 $$ Hno2
  icases Hs32 with ⟨Hwin32, Hno3⟩
  ihave Hwin32' := (Entails.of_eq (eW _ _ _)) $$ Hwin32
  sl_exec (disch := exact View.amount_pos _ _ (show 0 < S8x128.numel by decide))
  -- slot 1: the same
  ihave Hrows1 := (Entails.of_eq (e2' _)) $$ HG1_dst
  ihave Hnb1 := (Entails.of_eq (e3' _)) $$ HO1_src
  iapply (wp_seq2 d L (reduce1 d L R1 NB v2 k _ _))
  isplitl [Hrows1 Hnb1]
  · isplitl [Hrows1] <;> iassumption
  iintro %_ ⟨Hrows1, %NB', Hnb1, %hNB'⟩
  ihave Hno4 := (join_hole (f := gB) (g := (W8 d L offA inbA).piecewise gA g) hBO hw32B.symm) $$ [HO1_dst Hno3]
  · isplitl [HO1_dst] <;> iassumption
  ihave HG1d := (Entails.of_eq (e2' _).symm) $$ Hrows1
  ihave H3y := (Entails.of_eq (e3' _).symm) $$ Hnb1
  ihave H1s := (pointsTo_split_subset (hsubN (k0_off61 k) (k0_off61_inb k h6))).1 $$ H1r
  icases H1s with ⟨H1a, H1b⟩
  ihave H1a' := (Entails.of_eq (eA _ _ _ _)) $$ H1a
  have hinB : ∀ x, ((offN (k0_off61 k) (k0_off61_inb k h6)).view.read (Elt F) idxn x).toNat < S100001x128.size gathers_S100001x128_S128x128.axis := fun x => Nat.lt_succ_of_le (hn _)
  have hW60sub : W8 d L (k0_off60 L k) (k0_off60_inb L k) ⊆ (Finset.univ \ Oth L) \ W8 d L (k0_off32 L k) (k0_off32_inb L k) :=
    Finset.subset_sdiff.2 ⟨Finset.subset_sdiff.2 ⟨Finset.subset_univ _, hw60⟩, hw60A⟩
  ihave Hs60 := (pointsTo_split_subset hW60sub).1 $$ Hno4
  icases Hs60 with ⟨Hwin60, Hno5⟩
  ihave Hwin60' := (Entails.of_eq (eW _ _ _)) $$ Hwin60
  sl_exec (disch := exact View.amount_pos _ _ (show 0 < S8x128.numel by decide))
  sl_step
  -- the invariant before the next trip
  isplitl [Hmw]; · iexact Hmw
  isplitl [HG0 H0b HE0r]
  · iexists (k0_off33 k), (k0_off33_inb k h4), _
    isplitr [HG0 H0b HE0r]
    swap
    · isplitl [HG0]; · iexact HG0
      isplitl [H0b]; · iexact H0b
      iexact HE0r
    · ipureintro
      exact ⟨by rw [k0_off33_eq]; show 2 * k.val + 2 = 2 * (k.val + 1); omega, by rw [k0_off33_eq]; rfl,
        rowsOK_gather0 (m := m) (d := d) (L := L) (idxn := idxn) (k0_off33 k) (k0_off33_inb k h4) (by rw [k0_off33_eq]; rfl) (2 * (k.val + 1)) (by rw [k0_off33_eq]; show 2 * k.val + 2 = _; omega) (by omega) hinA R0⟩
  isplitl [HG1 H1b HE1r]
  · iexists (k0_off61 k), (k0_off61_inb k h6), _
    isplitr [HG1 H1b HE1r]
    swap
    · isplitl [HG1]; · iexact HG1
      isplitl [H1b]; · iexact H1b
      iexact HE1r
    · ipureintro
      exact ⟨by rw [k0_off61_eq]; show 2 * k.val + 3 = 2 * (k.val + 1) + 1; omega, by rw [k0_off61_eq]; rfl,
        rowsOK_gather1 (m := m) (d := d) (L := L) (idxn := idxn) (k0_off61 k) (k0_off61_inb k h6) (by rw [k0_off61_eq]; rfl) (2 * (k.val + 1) + 1) (by rw [k0_off61_eq]; show 2 * k.val + 3 = _; omega) (by omega) hinB R1⟩
  isplitl [HO0 HO1 Hno5]
  · iexists (k0_off32 L k), (k0_off60 L k), (k0_off32_inb L k), (k0_off60_inb L k), _, _, _, _, _
    isplitr [HO0 HO1 Hno5]
    swap
    · isplitl [HO0]; · iexact HO0
      isplitl [HO1]; · iexact HO1
      iexact Hno5
    · ipureintro
      refine ⟨⟨by rw [off32_0]; show _ = base L + 16 * (k.val + 1 - 1); simp, off32_1 L k, by rw [off60_0]; show _ = base L + 16 * (k.val + 1 - 1) + 8; simp, off60_1 L k⟩, ?_, ?_, ?_⟩
      · exact nei_window_val (m := m) (In := In) (d := d) (L := L) (idxn := idxn) 0 (2 * k.val) (by omega) (k0_off32 L k) (k0_off32_inb L k) (by rw [off32_0]; unfold base; omega) (off32_1 L k) R0 NA' (by have := hf0.2.2; exact this) hNA' hidxn _
          (fun x => win8_copy0_writes d L (k0_off32 L k) (k0_off32_inb L k) (off32_1 L k) _ NA' x)
      · exact nei_window_val (m := m) (In := In) (d := d) (L := L) (idxn := idxn) 1 (2 * k.val + 1) (by omega) (k0_off60 L k) (k0_off60_inb L k) (by rw [off60_0]; unfold base; omega) (off60_1 L k) R1 NB' (by have := hf1.2.2; exact this) hNB' hidxn _
          (fun x => win8_copy1_writes d L (k0_off60 L k) (k0_off60_inb L k) (off60_1 L k) _ NB' x)
      · exact done_rows (m := m) (In := In) (d := d) (L := L) k.val offA offB inbA inbB hA0 hA1 hB0 hB1 gA gB g hgA hgB hg hk0 |> fun h => by simpa using h
  isplitl [HS]; · rw [← hSP]; iexact HS
  iexists _
  isplitr [HO]
  swap
  · iexact HO
  · ipureintro; intro p hp
    repeat (rcases Finset.mem_insert.mp hp with hp | hp; exact .inr (hp ▸ rfl))
    exact hW' p hp
end Cert.KB
end
-- ==== Proof.TileStepEB.lean ====
import proofs.«208587_g27212912787602_cont_9to1_1073_18_alg».proof.Proof.TileInvB
import proofs.«208587_g27212912787602_cont_9to1_1073_18_alg».proof.Proof.GatherValB
import proofs.«208587_g27212912787602_cont_9to1_1073_18_alg».proof.Proof.ReduceB
import proofs.«208587_g27212912787602_cont_9to1_1073_18_alg».proof.Proof.TileHarvestB
import proofs.«208587_g27212912787602_cont_9to1_1073_18_alg».proof.Proof.TripValB
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)

local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)
local notation "embV" => ((Memref.whole Cert.Kernel.main_arg1_scv : Memref Cert.Kernel.sig Kind.scVector Space.hbm Cert.Kernel.S100001x128 EltTy.f32).slice (Rect.unit (s := Cert.Kernel.S100001x128) ![0, 0] Cert.Kernel.S100001x128.size Cert.Kernel.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

set_option maxHeartbeats 4000000 in
theorem stepE (hn : ∀ y, (idxn y).toNat ≤ 100000) (hs : ∀ y, (idxs y).toNat ≤ 100000)
    (hidxn : ∀ (c a : Fin 128), idxn (ix2 c a) = In (ix2 ⟨128 * (2 * (L 1).val + (L 0).val) + c.val, rowN_lt L c⟩ a))
    (hidxs : ∀ (j : Fin 8) (a : Fin 128), idxs (ix2 j a) = Is (ix2 ⟨8 * (2 * (L 1).val + (L 0).val) + j.val, rowS_lt L j⟩ a))
    (hO : ∀ g, O g none = 0) (v2 : BitVec 32) (k : Fin k0_t1_loop.trips) (hk : k.val = 63) (acc : PUnit) :
    inv m Is In d L q idxn idxs O W0 k.val acc ⊢ wp frame (wpE (defs₀ (F := F)) 𝒱₀ (thr d L) none) Set.univ
      (k0_t1_body L embW (Memref.isWhole_whole _) inW (Memref.isWhole_whole _) isW (Memref.isWhole_whole _) soW (Memref.isWhole_whole _) noW (Memref.isWhole_whole _)
        s0W (Memref.isWhole_whole _) s1W (Memref.isWhole_whole _) s2W (Memref.isWhole_whole _) s3W (Memref.isWhole_whole _) s4W (Memref.isWhole_whole _)
        cc0_scratch5 cc0_scratch6 cc0_scratch7 cc0_scratch8 cc0_scoped0 cc0_scoped1 v2 k acc)
      (fun acc' => inv m Is In d L q idxn idxs O W0 (k.val + 1) acc') := by
  have hk0 : 0 < k.val := by omega
  have hnk63 : ¬ k.val < 63 := by omega
  have hk8 : k.val % 8 ≠ 4 := by omega
  have hn64' : ¬ k.val + 1 < 64 := by omega
  have h1 : ¬ k0_cond1 k = 1#1 := fun h => hk8 ((cond1_iff k).1 h)
  have h3 : k0_cond3 k = 1#1 := (cond3_iff k).2 hk0
  have h5 : k0_cond5 k = 1#1 := (cond5_iff k).2 hk0
  have h4 : ¬ k0_cond4 k = 1#1 := fun h => hnk63 ((cond4_iff k).1 h)
  have h6 : ¬ k0_cond6 k = 1#1 := fun h => hnk63 ((cond6_iff k).1 h)
  have hk64 : k.val < 64 := by have := trips_lt k; omega
  have hk0' : 0 < k.val + 1 := by omega
  have hS : sPart m Is d L q idxs (k.val + 1) = sPart m Is d L q idxs k.val := by
    unfold sPart
    rw [show (k.val + 1 + 3) / 8 = (k.val + 3) / 8 by omega]
    by_cases h60 : k.val ≤ 60
    · rw [if_pos h60, if_pos (by omega : k.val + 1 ≤ 60)]
    · rw [if_neg h60, if_neg (by omega : ¬ k.val + 1 ≤ 60)]
  unfold k0_t1_body
  rw [k0_part49_eq_skeleton, k0_part50_eq_skeleton]; unfold k0_part49_skel k0_part50_skel
  unfold inv gPart0 gPart1 oPart
  rw [if_pos hk64, if_pos hk64, if_pos hk0, if_neg hn64', if_neg hn64', if_pos hk0', hS]
  iintro ⟨Hmw, ⟨%o0, %ho0, %R0, %hf0, HG0, H0r, HE0r⟩, ⟨%o1, %ho1, %R1, %hf1, HG1, H1r, HE1r⟩,
    ⟨%offA, %offB, %inbA, %inbB, %gA, %gB, %g, %NA, %NB, %hfo, HO0, HO1, Hno⟩, HS, ⟨%W', %hW', HO⟩⟩
  -- the respellings used below
  have e2 : ∀ f, ((rows0M).view.loc (thr d L) ↦[(rows0M).view.set]{fullShare} f : sProp 𝕄) = ((s2W).view.loc (thr d L) ↦[Finset.univ \ (rows1M).view.set]{fullShare} f) :=
    fun f => congrArg (fun S => ((s2W).view.loc (thr d L) ↦[S]{fullShare} f : sProp 𝕄)) rows0_eq
  have e2' : ∀ f, ((rows1M).view.loc (thr d L) ↦[(rows1M).view.set]{fullShare} f : sProp 𝕄) = ((s2W).view.loc (thr d L) ↦[Finset.univ \ (rows0M).view.set]{fullShare} f) :=
    fun f => congrArg (fun S => ((s2W).view.loc (thr d L) ↦[S]{fullShare} f : sProp 𝕄)) rows1_eq
  have e3 : ∀ f, ((nbuf0M).view.loc (thr d L) ↦[(nbuf0M).view.set]{fullShare} f : sProp 𝕄) = ((s3W).view.loc (thr d L) ↦[Finset.univ \ (nbuf1M).view.set]{fullShare} f) :=
    fun f => congrArg (fun S => ((s3W).view.loc (thr d L) ↦[S]{fullShare} f : sProp 𝕄)) nbuf0_eq
  have e3' : ∀ f, ((nbuf1M).view.loc (thr d L) ↦[(nbuf1M).view.set]{fullShare} f : sProp 𝕄) = ((s3W).view.loc (thr d L) ↦[Finset.univ \ (nbuf0M).view.set]{fullShare} f) :=
    fun f => congrArg (fun S => ((s3W).view.loc (thr d L) ↦[S]{fullShare} f : sProp 𝕄)) nbuf1_eq
  have eA : ∀ o h qq f, ((s0W).view.loc (thr d L) ↦[(offN o h).view.set]{qq} f : sProp 𝕄) = ((offN o h).view.loc (thr d L) ↦[(offN o h).view.set]{qq} f) := fun _ _ _ _ => rfl
  have eW : ∀ off inb f, ((noW).view.loc (thr d L) ↦[W8 d L off inb]{fullShare} f : sProp 𝕄)
      = (((noW).slice (Rect.unit (s := S32768x128) off S8x128.size inb) (fun _ => rfl)).view.loc (thr d L) ↦[((noW).slice (Rect.unit (s := S32768x128) off S8x128.size inb) (fun _ => rfl)).view.set]{fullShare} f) := fun _ _ _ => rfl
  have hsubN : ∀ o h, ((offN o h).view.set : Finset (Idx ((s0W).view.loc (thr d L)))) ⊆ Finset.univ := fun _ _ => Finset.subset_univ _
  have hw32 : Disjoint ((noW).slice (Rect.unit (s := S32768x128) (k0_off32 L k) S8x128.size (k0_off32_inb L k)) (fun _ => rfl)).view.set (Oth L) := by unfold Oth; exact off32_disj_others L k
  have hw60 : Disjoint ((noW).slice (Rect.unit (s := S32768x128) (k0_off60 L k) S8x128.size (k0_off60_inb L k)) (fun _ => rfl)).view.set (Oth L) := by unfold Oth; exact off60_disj_others L k
  have hw60A : Disjoint (W8 d L (k0_off60 L k) (k0_off60_inb L k)) (W8 d L (k0_off32 L k) (k0_off32_inb L k)) := off60_off32_disj L k k
  obtain ⟨⟨hA0, hA1, hB0, hB1⟩, hgA, hgB, hg⟩ := hfo
  have hAO : W8 d L offA inbA ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offA inbA hA1 (by rw [hA0]; show base L ≤ _; omega) (by rw [hA0]; show _ ≤ base L + 1024; omega) hy)⟩
  have hBO : W8 d L offB inbB ⊆ Finset.univ \ Oth L := fun y hy =>
    Finset.mem_sdiff.2 ⟨Finset.mem_univ _, fun h => (Finset.mem_sdiff.1 (show y ∈ Finset.univ \ wRowSet (wOf (cL L) (sL L)) from h)).2
      (win8_subset (cL L) (sL L) offB inbB hB1 (by rw [hB0]; show base L ≤ _; omega) (by rw [hB0]; show _ ≤ base L + 1024; omega) hy)⟩
  have hAB : Disjoint (W8 d L offA inbA) (W8 d L offB inbB) := win8_disj offA offB inbA inbB (Or.inl (by rw [hA0, hB0]))
  have hw32B : Disjoint (W8 d L (k0_off32 L k) (k0_off32_inb L k)) (W8 d L offB inbB) := win8_disj _ offB _ inbB (Or.inr (by rw [off32_0, hB0]; show _ ≤ base L + 16 * k.val; omega))
  -- slot 0: its gather lands, the copy of two chunks ago too
  sl_exec
  ihave Hrows := (Entails.of_eq (e2 _)) $$ HG0_dst
  ihave Hnb0 := (Entails.of_eq (e3 _)) $$ HO0_src
  iapply (wp_seq2 d L (reduce0 d L R0 NA v2 (0#32) (1#32) k))
  isplitl [Hrows Hnb0]
  · isplitl [Hrows] <;> iassumption
  iintro %_ ⟨Hrows, %NA', Hnb0, %hNA'⟩
  ihave Hno2 := (join_hole (f := gA) (g := g) hAO hAB) $$ [HO0_dst Hno]
  · isplitl [HO0_dst] <;> iassumption
  ihave HG0d := (Entails.of_eq (e2 _).symm) $$ Hrows
  ihave H3x := (Entails.of_eq (e3 _).symm) $$ Hnb0
  have hW32sub : W8 d L (k0_off32 L k) (k0_off32_inb L k) ⊆ (Finset.univ \ Oth L) \ W8 d L offB inbB :=
    Finset.subset_sdiff.2 ⟨Finset.subset_sdiff.2 ⟨Finset.subset_univ _, hw32⟩, hw32B⟩
  ihave Hs32 := (pointsTo_split_subset hW32sub).1 $$ Hno2
  icases Hs32 with ⟨Hwin32, Hno3⟩
  ihave Hwin32' := (Entails.of_eq (eW _ _ _)) $$ Hwin32
  sl_exec (disch := exact View.amount_pos _ _ (show 0 < S8x128.numel by decide))
  -- slot 1: the same
  ihave Hrows1 := (Entails.of_eq (e2' _)) $$ HG1_dst
  ihave Hnb1 := (Entails.of_eq (e3' _)) $$ HO1_src
  iapply (wp_seq2 d L (reduce1 d L R1 NB v2 k _ _))
  isplitl [Hrows1 Hnb1]
  · isplitl [Hrows1] <;> iassumption
  iintro %_ ⟨Hrows1, %NB', Hnb1, %hNB'⟩
  ihave Hno4 := (join_hole (f := gB) (g := (W8 d L offA inbA).piecewise gA g) hBO hw32B.symm) $$ [HO1_dst Hno3]
  · isplitl [HO1_dst] <;> iassumption
  ihave HG1d := (Entails.of_eq (e2' _).symm) $$ Hrows1
  ihave H3y := (Entails.of_eq (e3' _).symm) $$ Hnb1
  have hW60sub : W8 d L (k0_off60 L k) (k0_off60_inb L k) ⊆ (Finset.univ \ Oth L) \ W8 d L (k0_off32 L k) (k0_off32_inb L k) :=
    Finset.subset_sdiff.2 ⟨Finset.subset_sdiff.2 ⟨Finset.subset_univ _, hw60⟩, hw60A⟩
  ihave Hs60 := (pointsTo_split_subset hW60sub).1 $$ Hno4
  icases Hs60 with ⟨Hwin60, Hno5⟩
  ihave Hwin60' := (Entails.of_eq (eW _ _ _)) $$ Hwin60
  sl_exec (disch := exact View.amount_pos _ _ (show 0 < S8x128.numel by decide))
  sl_step
  -- the invariant before the next trip
  isplitl [Hmw]; · iexact Hmw
  isplitl [HG0 HG0d H0r HE0r]
  · isplitl [HG0]; · iexact HG0
    isplitl [HG0d]; · iexists _; iexact HG0d
    isplitl [H0r]; · iexact H0r
    iexact HE0r
  isplitl [HG1 HG1d H1r HE1r]
  · isplitl [HG1]; · iexact HG1
    isplitl [HG1d]; · iexists _; iexact HG1d
    isplitl [H1r]; · iexact H1r
    iexact HE1r
  isplitl [HO0 HO1 Hno5]
  · iexists (k0_off32 L k), (k0_off60 L k), (k0_off32_inb L k), (k0_off60_inb L k), _, _, _, _, _
    isplitr [HO0 HO1 Hno5]
    swap
    · isplitl [HO0]; · iexact HO0
      isplitl [HO1]; · iexact HO1
      iexact Hno5
    · ipureintro
      refine ⟨⟨by rw [off32_0]; show _ = base L + 16 * (k.val + 1 - 1); simp, off32_1 L k, by rw [off60_0]; show _ = base L + 16 * (k.val + 1 - 1) + 8; simp, off60_1 L k⟩, ?_, ?_, ?_⟩
      · exact nei_window_val (m := m) (In := In) (d := d) (L := L) (idxn := idxn) 0 (2 * k.val) (by omega) (k0_off32 L k) (k0_off32_inb L k) (by rw [off32_0]; unfold base; omega) (off32_1 L k) R0 NA' (by have := hf0.2.2; exact this) hNA' hidxn _
          (fun x => win8_copy0_writes d L (k0_off32 L k) (k0_off32_inb L k) (off32_1 L k) _ NA' x)
      · exact nei_window_val (m := m) (In := In) (d := d) (L := L) (idxn := idxn) 1 (2 * k.val + 1) (by omega) (k0_off60 L k) (k0_off60_inb L k) (by rw [off60_0]; unfold base; omega) (off60_1 L k) R1 NB' (by have := hf1.2.2; exact this) hNB' hidxn _
          (fun x => win8_copy1_writes d L (k0_off60 L k) (k0_off60_inb L k) (off60_1 L k) _ NB' x)
      · exact done_rows (m := m) (In := In) (d := d) (L := L) k.val offA offB inbA inbB hA0 hA1 hB0 hB1 gA gB g hgA hgB hg hk0 |> fun h => by simpa using h
  isplitl [HS]; · iexact HS
  iexists _
  isplitr [HO]
  swap
  · iexact HO
  · ipureintro; intro p hp
    repeat (rcases Finset.mem_insert.mp hp with hp | hp; exact .inr (hp ▸ rfl))
    exact hW' p hp
end Cert.KB
end
-- ==== Proof.TileTripB.lean ====
import proofs.«208587_g27212912787602_cont_9to1_1073_18_alg».proof.Proof.TileInvB
import proofs.«208587_g27212912787602_cont_9to1_1073_18_alg».proof.Proof.GatherValB
import proofs.«208587_g27212912787602_cont_9to1_1073_18_alg».proof.Proof.ReduceB
import proofs.«208587_g27212912787602_cont_9to1_1073_18_alg».proof.Proof.TileHarvestB
import proofs.«208587_g27212912787602_cont_9to1_1073_18_alg».proof.Proof.TripValB
import proofs.«208587_g27212912787602_cont_9to1_1073_18_alg».proof.Proof.TileStepAB
import proofs.«208587_g27212912787602_cont_9to1_1073_18_alg».proof.Proof.TileStepBB
import proofs.«208587_g27212912787602_cont_9to1_1073_18_alg».proof.Proof.TileStepCB
import proofs.«208587_g27212912787602_cont_9to1_1073_18_alg».proof.Proof.TileStepDB
import proofs.«208587_g27212912787602_cont_9to1_1073_18_alg».proof.Proof.TileStepEB
set_option quotPrecheck false
noncomputable section
namespace Cert.KB
open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable (m : (ℓ : Loc nD τ sig) → Buf (Elt F) ℓ) (Is : IVec S256x128 32) (In : IVec S4096x128 32)
variable [FloatOps F]
variable (d : Dev nD) (L : grid0.Coords)
local notation "embW" => (Memref.whole Cert.Kernel.main_arg1_scv : Memref Cert.Kernel.sig Kind.scVector Space.hbm Cert.Kernel.S100001x128 EltTy.f32)
local notation "inW" => (Memref.whole Cert.Kernel.main_v5_scv : Memref Cert.Kernel.sig Kind.scVector Space.hbm Cert.Kernel.S4096x128 EltTy.i32)
local notation "isW" => (Memref.whole Cert.Kernel.main_v3_scv : Memref Cert.Kernel.sig Kind.scVector Space.hbm Cert.Kernel.S256x128 EltTy.i32)
local notation "soW" => (Memref.whole Cert.Kernel.main_v6_0_scv : Memref Cert.Kernel.sig Kind.scVector Space.hbm Cert.Kernel.S32768x128 EltTy.f32)
local notation "noW" => (Memref.whole Cert.Kernel.main_v6_1_scv : Memref Cert.Kernel.sig Kind.scVector Space.hbm Cert.Kernel.S32768x128 EltTy.f32)
local notation "s0W" => (Memref.whole Cert.Kernel.cc0_scratch0 : Memref Cert.Kernel.sig Kind.scVector Space.vmem Cert.Kernel.S128x128 EltTy.i32)
local notation "s1W" => (Memref.whole Cert.Kernel.cc0_scratch1 : Memref Cert.Kernel.sig Kind.scVector Space.vmem Cert.Kernel.S8x128 EltTy.i32)
local notation "s2W" => (Memref.whole Cert.Kernel.cc0_scratch2 : Memref Cert.Kernel.sig Kind.scVector Space.vmem Cert.Kernel.S2x128x128 EltTy.f32)
local notation "s3W" => (Memref.whole Cert.Kernel.cc0_scratch3 : Memref Cert.Kernel.sig Kind.scVector Space.vmem Cert.Kernel.S2x8x128 EltTy.f32)
local notation "s4W" => (Memref.whole Cert.Kernel.cc0_scratch4 : Memref Cert.Kernel.sig Kind.scVector Space.vmem Cert.Kernel.S128x128 EltTy.f32)

local notation "rows0M" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Facts₀.inb_S2x128x128_S1x128x128_0_0_0) (fun _ => rfl)).squeeze Cert.Kernel.S128x128 Cert.Kernel.Facts₀.squeezes_S1x128x128_S128x128)
local notation "rows1M" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Facts₀.inb_S2x128x128_S1x128x128_1_0_0) (fun _ => rfl)).squeeze Cert.Kernel.S128x128 Cert.Kernel.Facts₀.squeezes_S1x128x128_S128x128)
local notation "nbuf0M" => (((Memref.whole Cert.Kernel.cc0_scratch3 : Memref Cert.Kernel.sig Kind.scVector Space.vmem Cert.Kernel.S2x8x128 EltTy.f32).slice (Rect.unit (s := Cert.Kernel.S2x8x128) ![0, 0, 0] Cert.Kernel.S1x8x128.size Cert.Kernel.Facts₀.inb_S2x8x128_S1x8x128_0_0_0) (fun _ => rfl)).squeeze Cert.Kernel.S8x128 Cert.Kernel.Facts₀.squeezes_S1x8x128_S8x128)
local notation "nbuf1M" => (((Memref.whole Cert.Kernel.cc0_scratch3 : Memref Cert.Kernel.sig Kind.scVector Space.vmem Cert.Kernel.S2x8x128 EltTy.f32).slice (Rect.unit (s := Cert.Kernel.S2x8x128) ![1, 0, 0] Cert.Kernel.S1x8x128.size Cert.Kernel.Facts₀.inb_S2x8x128_S1x8x128_1_0_0) (fun _ => rfl)).squeeze Cert.Kernel.S8x128 Cert.Kernel.Facts₀.squeezes_S1x8x128_S8x128)
local notation "embV" => ((Memref.whole Cert.Kernel.main_arg1_scv : Memref Cert.Kernel.sig Kind.scVector Space.hbm Cert.Kernel.S100001x128 EltTy.f32).slice (Rect.unit (s := Cert.Kernel.S100001x128) ![0, 0] Cert.Kernel.S100001x128.size Cert.Kernel.Facts₀.inb_S100001x128_S100001x128_0_0) (fun _ => rfl))

variable (q : PosShare TreeShare)
variable (idxn : Buf (Elt F) ((s0W).view.loc (thr d L))) (idxs : Buf (Elt F) ((s1W).view.loc (thr d L)))
variable (O : CellTallies nD τ sig (HIx 1)) (W0 : Waits sig (HIx 1))

/-- One trip of the main loop, from the invariant before it to the invariant after it: the five kinds of trip. -/
theorem step (hn : ∀ y, (idxn y).toNat ≤ 100000) (hs : ∀ y, (idxs y).toNat ≤ 100000)
    (hidxn : ∀ (c a : Fin 128), idxn (ix2 c a) = In (ix2 ⟨128 * (2 * (L 1).val + (L 0).val) + c.val, rowN_lt L c⟩ a))
    (hidxs : ∀ (j : Fin 8) (a : Fin 128), idxs (ix2 j a) = Is (ix2 ⟨8 * (2 * (L 1).val + (L 0).val) + j.val, rowS_lt L j⟩ a))
    (hO : ∀ g, O g none = 0) (v2 : BitVec 32) (k : Fin k0_t1_loop.trips) (acc : PUnit) :
    inv m Is In d L q idxn idxs O W0 k.val acc ⊢ wp frame (wpE (defs₀ (F := F)) 𝒱₀ (thr d L) none) Set.univ
      (k0_t1_body L embW (Memref.isWhole_whole _) inW (Memref.isWhole_whole _) isW (Memref.isWhole_whole _) soW (Memref.isWhole_whole _) noW (Memref.isWhole_whole _)
        s0W (Memref.isWhole_whole _) s1W (Memref.isWhole_whole _) s2W (Memref.isWhole_whole _) s3W (Memref.isWhole_whole _) s4W (Memref.isWhole_whole _)
        cc0_scratch5 cc0_scratch6 cc0_scratch7 cc0_scratch8 cc0_scoped0 cc0_scoped1 v2 k acc)
      (inv m Is In d L q idxn idxs O W0 (k.val + 1)) := by
  have hk64 : k.val < 64 := trips_lt k
  by_cases h0 : k.val = 0
  · exact stepA m Is In d L q idxn idxs O W0 hn hs hidxn hidxs hO v2 k h0 acc
  by_cases h63 : k.val = 63
  · exact stepE m Is In d L q idxn idxs O W0 hn hs hidxn hidxs hO v2 k h63 acc
  by_cases h8 : k.val % 8 = 4
  · by_cases h60 : k.val = 60
    · exact stepD m Is In d L q idxn idxs O W0 hn hs hidxn hidxs hO v2 k h60 acc
    · exact stepC m Is In d L q idxn idxs O W0 hn hs hidxn hidxs hO v2 k h8 (by omega) acc
  · exact stepB m Is In d L q idxn idxs O W0 hn hs hidxn hidxs hO v2 k (by omega) (by omega) h8 acc

end Cert.KB

end
-- ==== Proof.TileFinalB.lean ====
/-
  The vector subcore's task, proved: the five kinds of trip put together under the loop's wrapper.
-/
import proofs.«208587_g27212912787602_cont_9to1_1073_18_alg».proof.Proof.TileB
import proofs.«208587_g27212912787602_cont_9to1_1073_18_alg».proof.Proof.TileTripB
noncomputable section
namespace Cert.KB
open Cert.Kernel Cert.Kernel.Gen
open Idealize.ShloMosaic Idealize.ShloMosaic.ValueIdx
open Idealize.ShloMosaic.SparseCore (S V T)
variable {F : FTy → Type} [FloatOps F]

theorem tileObl (m : (ℓ : Loc nD τ sig) → Buf (Elt F) ℓ) (Is : IVec S256x128 32) (In : IVec S4096x128 32)
    (hIs : ∀ j, (Is j).toNat ≤ 100000) (hIn : ∀ j, (In j).toNat ≤ 100000) :
    (K (F := F)).TileObl (D (F := F)) 𝒱 (P m Is In) v₀ 0 :=
  tileObl_of m Is In facts hIs hIn
    (fun d L O idxn idxs hn hs hidxn hidxs W0 v2 k acc hO =>
      step m Is In d L (tShare (cL L) (sL L)) idxn idxs O W0 hn hs hidxn hidxs hO v2 k acc)

end Cert.KB

end
-- ==== Proof.TileSplitB.lean ====
/-
  How a SparseCore's share of the call splits among its sixteen vector subcores, and how their results gather.

  The table and the two index lists are only read. A SparseCore holds each of them at its own read share; halving
  that share sixteen times gives sixteen read tokens, one per subcore, and a remainder. The tokens go out with the
  subcores' rows of the two result arrays, which the SparseCore already holds subcore by subcore; the remainders stay
  behind. When the subcores hand back their tokens and their rows, now at the gathered values, each remainder and its
  sixteen tokens join to the SparseCore's share again, and the rows are the SparseCore's rows at the gathered values.
-/
import proofs.«208587_g27212912787602_cont_9to1_1073_18_alg».proof.Proof.PayB

noncomputable section

namespace Cert.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (Is : IVec S256x128 32) (In : IVec S4096x128 32)

/-- A family over the call's subcores is a family over sixteen. -/
theorem bigSep_subcores (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- The split of a SparseCore's operands into its subcores', and the gathering of their results. -/
theorem vecSplit' : (K (F := F)).VecSplit' (P m Is In) 0 := by
  intro d c
  show coreIn m Is In d (Fin.cast nCore_zero c) ⊢ |={Set.univ}=> iprop(
      (bigSep Finset.univ fun i : Fin ((K (F := F)).nSub 0) => tileIn m Is In d (Fin.cast nCore_zero c) (Fin.cast nSub_zero i))
      ∗ ((bigSep Finset.univ fun i : Fin ((K (F := F)).nSub 0) => tileOut m Is In d (Fin.cast nCore_zero c) (Fin.cast nSub_zero i))
          -∗ coreOut m Is In d (Fin.cast nCore_zero c)))
  generalize (Fin.cast nCore_zero c : Fin 2) = c'
  rw [bigSep_subcores (F := F) (fun i => tileIn m Is In d c' i), bigSep_subcores (F := F) (fun i => tileOut m Is In d c' i)]
  unfold coreIn tileIn tileOut coreOut
  simp only [bigSep_sep']
  iintro ⟨He, Hs, Hn, Hso, Hno⟩
  ihave He' := (Transfers.pointsTo_toks_split (cShare c') 16) $$ He
  ihave Hs' := (Transfers.pointsTo_toks_split (cShare c') 16) $$ Hs
  ihave Hn' := (Transfers.pointsTo_toks_split (cShare c') 16) $$ Hn
  icases He' with ⟨Hed, Het⟩
  icases Hs' with ⟨Hsd, Hst⟩
  icases Hn' with ⟨Hnd, Hnt⟩
  imodintro
  isplitl [Het Hst Hnt Hso Hno]
  · isplitl [Het]; · iexact Het
    isplitl [Hst]; · iexact Hst
    isplitl [Hnt]; · iexact Hnt
    isplitl [Hso]; · iexact Hso
    iexact Hno
  iintro ⟨Het, Hst, Hnt, Hso, Hno⟩
  isplitl [Hed Het]
  · iapply (Transfers.pointsTo_toks_join (cShare c') 16)
    isplitl [Hed]; · iexact Hed
    iexact Het
  isplitl [Hsd Hst]
  · iapply (Transfers.pointsTo_toks_join (cShare c') 16)
    isplitl [Hsd]; · iexact Hsd
    iexact Hst
  isplitl [Hnd Hnt]
  · iapply (Transfers.pointsTo_toks_join (cShare c') 16)
    isplitl [Hnd]; · iexact Hnd
    iexact Hnt
  isplitl [Hso]; · iexact Hso
  iexact Hno

/-- The same with the sequencer's own buffers set aside. -/
theorem vecSplit : (K (F := F)).VecSplit (P m Is In) 0 := SparseCore.Cfg.VecSplit.of_plain (vecSplit' m Is In)

end Cert.KB

end
-- ==== Proof.Claims.lean ====
/-
  The certificate's five claims, assembled from the two programs' runs.

  The kernel side enters as two statements about its run (proved at the end from the program's run, the SparseCore
  call's per-subcore obligation and its split) — under the precondition the idealized kernel ends with its
  result at the whole-array value of its arguments and its arguments unchanged, and the kernel as printed ends with
  its arguments unchanged —; the reference side as its run to the specification. The value claim takes the
  specification of the kernel's arguments as the common result: the kernel's whole-array value is the specification,
  and the reference, started from a memory that agrees on the six arguments, satisfies the precondition too and ends
  at the specification of the same arguments.
-/
import proofs.«208587_g27212912787602_cont_9to1_1073_18_alg».proof.Defs
import proofs.«208587_g27212912787602_cont_9to1_1073_18_alg».proof.Proof.Gen.Kernel
import proofs.«208587_g27212912787602_cont_9to1_1073_18_alg».proof.Proof.Gen.KernelIdeal
import proofs.«208587_g27212912787602_cont_9to1_1073_18_alg».proof.Proof.Gen.ReferenceIdeal
import proofs.«208587_g27212912787602_cont_9to1_1073_18_alg».proof.Proof.Gen.Pre_input_domain
import proofs.«208587_g27212912787602_cont_9to1_1073_18_alg».proof.Proof.RefHalf
import proofs.«208587_g27212912787602_cont_9to1_1073_18_alg».proof.Proof.MathOut
import proofs.«208587_g27212912787602_cont_9to1_1073_18_alg».proof.Proof.Main
import proofs.«208587_g27212912787602_cont_9to1_1073_18_alg».proof.Proof.MainPre
import proofs.«208587_g27212912787602_cont_9to1_1073_18_alg».proof.Proof.MainValue
import proofs.«208587_g27212912787602_cont_9to1_1073_18_alg».proof.Proof.TileFinal
import proofs.«208587_g27212912787602_cont_9to1_1073_18_alg».proof.Proof.TileSplit
import proofs.«208587_g27212912787602_cont_9to1_1073_18_alg».proof.Proof.MainB
import proofs.«208587_g27212912787602_cont_9to1_1073_18_alg».proof.Proof.MainPreB
import proofs.«208587_g27212912787602_cont_9to1_1073_18_alg».proof.Proof.TileFinalB
import proofs.«208587_g27212912787602_cont_9to1_1073_18_alg».proof.Proof.TileSplitB

noncomputable section

namespace Cert.Proof.Claims

open Idealize.ShloMosaic Idealize.SL.Sem

/-- What the idealized kernel's run gives under the precondition: the result at the whole-array value of the
    arguments, the arguments unchanged. -/
def KernelIdealRuns : Prop :=
  ∀ (m : (ℓ : Loc Cert.KernelIdeal.nD Cert.KernelIdeal.τ Cert.KernelIdeal.sig) → Buf (Elt Ideal) ℓ) (g : Dev Cert.KernelIdeal.nD → PrngReg),
    Cert.Pre_KernelIdeal (hPre_input_domain := Cert.Pre_input_domain.Gen.facts) m →
    θ_run (Cert.KernelIdeal.defs (F := Ideal)) (Cert.KernelIdeal.threads (F := Ideal)) ⟨m, fun _ => 0, g⟩ (fun r => ∀ c : Dev Cert.KernelIdeal.nD,
        r.2.mem ((c.tc : Thread Cert.KernelIdeal.nD Cert.KernelIdeal.τ).loc Cert.KernelIdeal.main_v8)
          = Cert.KI.outVal (F := Ideal) (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

/-- What the printed kernel's run gives under the precondition: the arguments unchanged. -/
def KernelRuns : Prop :=
  ∀ (m : (ℓ : Loc Cert.Kernel.nD Cert.Kernel.τ Cert.Kernel.sig) → Buf (Elt Bits) ℓ) (g : Dev Cert.Kernel.nD → PrngReg),
    Cert.Pre_Kernel (hPre_input_domain := Cert.Pre_input_domain.Gen.facts) m →
    θ_run (Cert.Kernel.defs (F := Bits)) (Cert.Kernel.threads (F := Bits)) ⟨m, fun _ => 0, g⟩ (fun r => ∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4)
        ∧ r.2.mem ((c.tc : Thread Cert.Kernel.nD Cert.Kernel.τ).loc Cert.Kernel.main_arg5) = m ((c.tc : Thread Cert.Kernel.nD Cert.Kernel.τ).loc Cert.Kernel.main_arg5))

theorem frame_Kernel (hK : KernelRuns) :
    Cert.frame_Kernel (hKernel := Cert.Kernel.Gen.facts) (hPre_input_domain := Cert.Pre_input_domain.Gen.facts) :=
  fun m g hpre => hK m g hpre

theorem frame_KernelIdeal (hKI : KernelIdealRuns) :
    Cert.frame_KernelIdeal (hKernelIdeal := Cert.KernelIdeal.Gen.facts) (hPre_input_domain := Cert.Pre_input_domain.Gen.facts) :=
  fun m g hpre => (θ_run _ _ _).mono (fun _ h c => (h c).2) (hKI m g hpre)

theorem frame_ReferenceIdeal :
    Cert.frame_ReferenceIdeal (hReferenceIdeal := Cert.ReferenceIdeal.Gen.facts) (hPre_input_domain := Cert.Pre_input_domain.Gen.facts) :=
  Cert.RefSide.frame

theorem preserves : Cert.preserves_Kernel_KernelIdeal := trivial

/-- Both programs end at the specification of the kernel's arguments. -/
theorem algebraic (hKI : KernelIdealRuns) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · -- the kernel: its whole-array value is the specification
    refine (θ_run _ _ _).mono (fun _ h c => ⟨(h c).1.trans (Cert.KMath.outVal_eq_spec _ _ _ _ _ _), (h c).2⟩) (hKI m g hpre)
  · -- the reference: the precondition moves along the agreement, and so does the specification
    have hpre' : Cert.Pre_ReferenceIdeal (hPre_input_domain := Cert.Pre_input_domain.Gen.facts) m' := by
      intro c
      obtain ⟨h0, h1, h2, h3, h4, h5⟩ := hagree c
      rw [h0, h1, h2, h3, h4, h5]
      exact hpre c
    refine (θ_run _ _ _).mono (fun _ h c => ⟨?_, (h c).2⟩) (Cert.RefSide.ref_half m' g' hpre')
    obtain ⟨h0, h1, h2, h3, h4, h5⟩ := hagree c
    rw [(h c).1, h0, h1, h2, h3, h4, h5]

/-- The idealized kernel's run under the precondition, from the SparseCore call's two obligations: the program's run
    given them, the index lists' ranges from the precondition, and the result read as the whole-array value. -/
theorem kernelIdealRuns_of
    (htile : ∀ (m : (ℓ : Loc Cert.KernelIdeal.nD Cert.KernelIdeal.τ Cert.KernelIdeal.sig) → Buf (Elt Ideal) ℓ) (Is : IVec Cert.KernelIdeal.S256x128 32) (In : IVec Cert.KernelIdeal.S4096x128 32),
      (∀ j, (Is j).toNat ≤ 100000) → (∀ j, (In j).toNat ≤ 100000) →
      (Cert.KI.K (F := Ideal)).TileObl (Cert.KI.D (F := Ideal)) Cert.KI.𝒱 (Cert.KI.P m Is In) Cert.KI.v₀ 0)
    (hvec : ∀ (m : (ℓ : Loc Cert.KernelIdeal.nD Cert.KernelIdeal.τ Cert.KernelIdeal.sig) → Buf (Elt Ideal) ℓ) (Is : IVec Cert.KernelIdeal.S256x128 32) (In : IVec Cert.KernelIdeal.S4096x128 32),
      (Cert.KI.K (F := Ideal)).VecSplit (Cert.KI.P m Is In) 0) :
    KernelIdealRuns :=
  fun m g hpre => (θ_run _ _ _).mono (fun _ h c => ⟨(h c).1.trans (Cert.KI.out_val m c), (h c).2⟩)
    (Cert.KI.run_pre_of (F := Ideal) (fun m => Cert.KI.QC m) (fun m ρ => Cert.KI.run_main m ρ) htile hvec m g hpre)

/-- The idealized kernel's run under the precondition. -/
theorem kernelIdealRuns : KernelIdealRuns :=
  kernelIdealRuns_of (fun m Is In => Cert.KI.tileObl m Is In) (fun m Is In => Cert.KI.vecSplit m Is In)

/-- The printed kernel's run under the precondition, its result dropped. -/
theorem kernelRuns : KernelRuns :=
  fun m g hpre => (θ_run _ _ _).mono (fun _ h c => (h c).2)
    (Cert.KB.run_pre_of (F := Bits) (fun m => Cert.KB.QC m) (fun m ρ => Cert.KB.run_main m ρ)
      (fun m Is In => Cert.KB.tileObl m Is In) (fun m Is In => Cert.KB.vecSplit m Is In) m g hpre)

/-- The five claims from the two statements about the kernel's runs. -/
theorem claim_of (hK : KernelRuns) (hKI : KernelIdealRuns) : Cert.Claim :=
  ⟨Cert.Kernel.Gen.facts, Cert.KernelIdeal.Gen.facts, Cert.ReferenceIdeal.Gen.facts, Cert.Pre_input_domain.Gen.facts,
    frame_Kernel hK, frame_KernelIdeal hKI, frame_ReferenceIdeal, preserves, algebraic hKI⟩

/-- The certificate's claim. -/
theorem claim : Cert.Claim := claim_of kernelRuns kernelIdealRuns

end Cert.Proof.Claims

end
-- ==== Proof.lean ====
/-
  The certificate's claim. The kernel as printed and its idealization run to the end with their arguments unchanged,
  and so does the idealized reference; the idealization rewrote no operation; and under the precondition the idealized
  kernel and the idealized reference, started from memories that agree on the six arguments, end at one result: the
  specification of those arguments, entry by entry on the extended reals. The witnesses of the programs' stated facts
  are the instances their generated modules prove.
-/
import proofs.«208587_g27212912787602_cont_9to1_1073_18_alg».proof.Defs
import proofs.«208587_g27212912787602_cont_9to1_1073_18_alg».proof.Proof.Gen.Kernel
import proofs.«208587_g27212912787602_cont_9to1_1073_18_alg».proof.Proof.Gen.KernelIdeal
import proofs.«208587_g27212912787602_cont_9to1_1073_18_alg».proof.Proof.Gen.ReferenceIdeal
import proofs.«208587_g27212912787602_cont_9to1_1073_18_alg».proof.Proof.Gen.Pre_input_domain
import proofs.«208587_g27212912787602_cont_9to1_1073_18_alg».proof.Proof.Claims

namespace Cert.Proof

theorem claim : Cert.Claim := Cert.Proof.Claims.claim

end Cert.Proof
